-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S10 .f32) (main_v83 : IVec S_ 1) (main_v84 : FVec F S64x10 .f32) (main_cst_32 : FVec F S_ .f32) : IVec S_ 1 :=
  let main_v85 : FVec F S64x10 .f32 := broadcastInDim S64x10 ![] bcast_S_S64x10 main_cst_32
  let main_v86 : IVec S64x10 1 := cmpf .olt main_v84 main_v85
  let main_c_33 : IVec S_ 1 := constantI S_ 1 1#1
  let main_v87 : IVec S_ 1 := (fun x v => Host.reduce IntOp.andi x v reducesTo_S64x10_S_d0_1 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg16 : FVec F S64 .f32) (main_arg17 : FVec F S64 .f32) (main_arg18 : FVec F S64 .f32) (main_arg19 : FVec F S64x10 .f32) (main_arg20 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x10 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 227
  | .vmem => 92
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x10, .f32⟩
  | 20 => ⟨S10, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S100000, .f32⟩
  | 56 => ⟨S100000x1, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S100000x64, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x64, .f32⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S100000x128, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S100000x64, .f32⟩
  | 5 => ⟨S100000x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000x64, .f32⟩
  | 22 => ⟨S100000x64, .f32⟩
  | 23 => ⟨S100000x64, .f32⟩
  | 24 => ⟨S1x64, .f32⟩
  | 25 => ⟨S100000x64, .f32⟩
  | 26 => ⟨S1x64, .f32⟩
  | 27 => ⟨S1x64, .f32⟩
  | 28 => ⟨S_, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S100000x64, .f32⟩
  | 43 => ⟨S100000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S100000x64, .f32⟩
  | 81 => ⟨S_, .f32⟩
  | 82 => ⟨S512x64, .f32⟩
  | 83 => ⟨S100000x1, .i32⟩
  | 84 => ⟨S512x64, .f32⟩
  | 85 => ⟨S_, .f32⟩
  | 86 => ⟨S100000, .f32⟩
  | 87 => ⟨S_, .f32⟩
  | 88 => ⟨S512, .f32⟩
  | 89 => ⟨S100000x1, .i32⟩
  | 90 => ⟨S512, .f32⟩
  | 91 => ⟨S_, .f32⟩
  | 92 => ⟨S512, .f32⟩
  | 93 => ⟨S512, .f32⟩
  | 94 => ⟨S512x1, .f32⟩
  | 95 => ⟨S512x64, .f32⟩
  | 96 => ⟨S512x64, .f32⟩
  | 97 => ⟨S1x10, .f32⟩
  | 98 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S64x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S1x64, .f32⟩
  | .local _ .vmem, ⟨74, _⟩ => ⟨S10000x64, .f32⟩
  | .local _ .vmem, ⟨75, _⟩ => ⟨S10000x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S512x64, .f32⟩
  | .local _ .vmem, ⟨89, _⟩ => ⟨S64x10, .f32⟩
  | .local _ .vmem, ⟨90, _⟩ => ⟨S1x10, .f32⟩
  | .local _ .vmem, ⟨91, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46_0 : Ref sig .tc := ⟨.hbm, 77, rfl⟩
abbrev main_v46_1 : Ref sig .tc := ⟨.hbm, 78, rfl⟩
abbrev main_v46_2 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_11 : Ref sig .tc := ⟨.hbm, 96, rfl⟩
abbrev main_v60 : Ref sig .tc := ⟨.hbm, 97, rfl⟩
abbrev main_v61 : Ref sig .tc := ⟨.hbm, 98, rfl⟩
abbrev main_c_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76_0 : Ref sig .tc := ⟨.hbm, 115, rfl⟩
abbrev main_v76_1 : Ref sig .tc := ⟨.hbm, 116, rfl⟩
abbrev main_v76_2 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_16 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_17 : Ref sig .tc := ⟨.hbm, 134, rfl⟩
abbrev main_v90 : Ref sig .tc := ⟨.hbm, 135, rfl⟩
abbrev main_v91 : Ref sig .tc := ⟨.hbm, 136, rfl⟩
abbrev main_c_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_19 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106_0 : Ref sig .tc := ⟨.hbm, 153, rfl⟩
abbrev main_v106_1 : Ref sig .tc := ⟨.hbm, 154, rfl⟩
abbrev main_v106_2 : Ref sig .tc := ⟨.hbm, 155, rfl⟩
abbrev main_cst_20 : Ref sig .tc := ⟨.hbm, 156, rfl⟩
abbrev main_v107 : Ref sig .tc := ⟨.hbm, 157, rfl⟩
abbrev main_v108 : Ref sig .tc := ⟨.hbm, 158, rfl⟩
abbrev main_cst_21 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_22 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_23 : Ref sig .tc := ⟨.hbm, 172, rfl⟩
abbrev main_v120 : Ref sig .tc := ⟨.hbm, 173, rfl⟩
abbrev main_v121 : Ref sig .tc := ⟨.hbm, 174, rfl⟩
abbrev main_c_24 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_25 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136_0 : Ref sig .tc := ⟨.hbm, 191, rfl⟩
abbrev main_v136_1 : Ref sig .tc := ⟨.hbm, 192, rfl⟩
abbrev main_v136_2 : Ref sig .tc := ⟨.hbm, 193, rfl⟩
abbrev main_cst_26 : Ref sig .tc := ⟨.hbm, 194, rfl⟩
abbrev main_v137 : Ref sig .tc := ⟨.hbm, 195, rfl⟩
abbrev main_v138 : Ref sig .tc := ⟨.hbm, 196, rfl⟩
abbrev main_cst_27 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_28 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_29 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_30 : Ref sig .tc := ⟨.hbm, 213, rfl⟩
abbrev main_v152 : Ref sig .tc := ⟨.hbm, 214, rfl⟩
abbrev main_cst_31 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_cst_32 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_scratch0 : Ref sig .tc := ⟨.vmem, 34, rfl⟩
abbrev cc4_scratch1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg4_0 : Ref sig .tc := ⟨.vmem, 55, rfl⟩
abbrev cc7_scratch0 : Ref sig .tc := ⟨.vmem, 56, rfl⟩
abbrev cc7_scratch1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg2_0 : Ref sig .tc := ⟨.vmem, 74, rfl⟩
abbrev cc10_stg2_1 : Ref sig .tc := ⟨.vmem, 75, rfl⟩
abbrev cc10_stg3_0 : Ref sig .tc := ⟨.vmem, 76, rfl⟩
abbrev cc10_stg4_0 : Ref sig .tc := ⟨.vmem, 77, rfl⟩
abbrev cc10_scratch0 : Ref sig .tc := ⟨.vmem, 78, rfl⟩
abbrev cc10_scratch1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg2_0 : Ref sig .tc := ⟨.vmem, 83, rfl⟩
abbrev cc11_stg3_0 : Ref sig .tc := ⟨.vmem, 84, rfl⟩
abbrev cc11_stg4_0 : Ref sig .tc := ⟨.vmem, 85, rfl⟩
abbrev cc11_stg5_0 : Ref sig .tc := ⟨.vmem, 86, rfl⟩
abbrev cc11_stg5_1 : Ref sig .tc := ⟨.vmem, 87, rfl⟩
abbrev cc12_stg0_0 : Ref sig .tc := ⟨.vmem, 88, rfl⟩
abbrev cc12_stg1_0 : Ref sig .tc := ⟨.vmem, 89, rfl⟩
abbrev cc12_stg2_0 : Ref sig .tc := ⟨.vmem, 90, rfl⟩
abbrev cc12_stg3_0 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc10_sem3_0 : DmaSem sig := 70
abbrev cc10_sem4_0 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem4_0 : DmaSem sig := 77
abbrev cc11_sem5_0 : DmaSem sig := 78
abbrev cc11_sem5_1 : DmaSem sig := 79
abbrev cc12_sem0_0 : DmaSem sig := 80
abbrev cc12_sem1_0 : DmaSem sig := 81
abbrev cc12_sem2_0 : DmaSem sig := 82
abbrev cc12_sem3_0 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S512x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x10 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x10 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S512x10 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S100000x64.size a
  hwx10_2 : ∀ i : grid10.Coords, EltTy.bits .f32 = 32 ∨ (Rect.block (s := S100000x64) S10000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S512x64.size a ≤ S512x64.size a
  hwx12_0 : ∀ i : grid12.Coords, EltTy.bits .f32 = 32 ∨ (Rect.block (s := S512x64) S512x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x10.size a ≤ S64x10.size a
  hwx12_1 : ∀ i : grid12.Coords, EltTy.bits .f32 = 32 ∨ (Rect.block (s := S64x10) S64x10.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x10.size a ≤ S1x10.size a
  hwx12_2 : ∀ i : grid12.Coords, EltTy.bits .f32 = 32 ∨ (Rect.block (s := S1x10) S1x10.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S512x10.size a ≤ S512x10.size a
  hwx12_3 : ∀ i : grid12.Coords, EltTy.bits .f32 = 32 ∨ (Rect.block (s := S512x10) S512x10.size (cc12_transform_3 i) (hinb12_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76_0) S10000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v76_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106_0) S10000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v106_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v106_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v115) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v116) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v117) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v118) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v118) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v119) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v134) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v136_0) S10000x64.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v136_1) S1x64.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v136_2) S1x64.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v136_0) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v138) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v145) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v146) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v147) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v148) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v160) S512x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S64x10.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v161) S1x10.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v162) S512x10.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 408
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x10, .f32⟩
  | 20 => ⟨S10, .f32⟩
  | 21 => ⟨S1x1600000, .i32⟩
  | 22 => ⟨S1600000, .i32⟩
  | 23 => ⟨S1x1600000, .i32⟩
  | 24 => ⟨S1600000, .i32⟩
  | 25 => ⟨S100000x64, .f32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S100000x64, .f32⟩
  | 88 => ⟨S_, .f32⟩
  | 89 => ⟨S64, .f32⟩
  | 90 => ⟨S_, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S64, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S_, .f32⟩
  | 114 => ⟨S1600000, .f32⟩
  | 115 => ⟨S_, .f32⟩
  | 116 => ⟨S100000, .f32⟩
  | 117 => ⟨S1600000x1, .i32⟩
  | 118 => ⟨S100000, .f32⟩
  | 119 => ⟨S_, .f32⟩
  | 120 => ⟨S100000, .f32⟩
  | 121 => ⟨S100000, .f32⟩
  | 122 => ⟨S100000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000, .f32⟩
  | 31 => ⟨S100000x1, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S_, .f32⟩
  | _ => ⟨S100000x128, .f32⟩

abbrev hbmTy0_2 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S_, .f32⟩
  | 15 => ⟨S64, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S64, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S512x64, .f32⟩
  | 119 => ⟨S100000x1, .i32⟩
  | 120 => ⟨S512x64, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x128, .f32⟩

abbrev hbmTy0_3 (i : Nat) : BufTy := match i % 128 with
  | 0 => ⟨S512, .f32⟩
  | 1 => ⟨S512, .f32⟩
  | 2 => ⟨S512x1, .f32⟩
  | 3 => ⟨S512x64, .f32⟩
  | 4 => ⟨S512x64, .f32⟩
  | 5 => ⟨S512x10, .f32⟩
  | 6 => ⟨S1x10, .f32⟩
  | 7 => ⟨S512x10, .f32⟩
  | 8 => ⟨S512x10, .f32⟩
  | 9 => ⟨S_, .f32⟩
  | 10 => ⟨S512, .f32⟩
  | 11 => ⟨S_, .f32⟩
  | 12 => ⟨S512, .f32⟩
  | 13 => ⟨S512, .f32⟩
  | 14 => ⟨S512x1, .f32⟩
  | 15 => ⟨S512x10, .f32⟩
  | 16 => ⟨S512x10, .f32⟩
  | 17 => ⟨S512x10, .f32⟩
  | 18 => ⟨S_, .f32⟩
  | 19 => ⟨S512, .f32⟩
  | 20 => ⟨S512x1, .f32⟩
  | 21 => ⟨S512x1, .f32⟩
  | 22 => ⟨S512x10, .f32⟩
  | 23 => ⟨S512x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call0_cst : Ref sig .tc := ⟨.hbm, 109, rfl⟩
abbrev main_call0_v0 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_20 : Ref sig .tc := ⟨.hbm, 143, rfl⟩
abbrev main_v98 : Ref sig .tc := ⟨.hbm, 144, rfl⟩
abbrev main_v99 : Ref sig .tc := ⟨.hbm, 145, rfl⟩
abbrev main_c_21 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_22 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_23 : Ref sig .tc := ⟨.hbm, 166, rfl⟩
abbrev main_v118 : Ref sig .tc := ⟨.hbm, 167, rfl⟩
abbrev main_cst_24 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_25 : Ref sig .tc := ⟨.hbm, 175, rfl⟩
abbrev main_v125 : Ref sig .tc := ⟨.hbm, 176, rfl⟩
abbrev main_cst_26 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_27 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call1_cst : Ref sig .tc := ⟨.hbm, 196, rfl⟩
abbrev main_call1_v0 : Ref sig .tc := ⟨.hbm, 197, rfl⟩
abbrev main_v143 : Ref sig .tc := ⟨.hbm, 198, rfl⟩
abbrev main_v144 : Ref sig .tc := ⟨.hbm, 199, rfl⟩
abbrev main_cst_28 : Ref sig .tc := ⟨.hbm, 200, rfl⟩
abbrev main_v145 : Ref sig .tc := ⟨.hbm, 201, rfl⟩
abbrev main_cst_29 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_30 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_31 : Ref sig .tc := ⟨.hbm, 210, rfl⟩
abbrev main_v152 : Ref sig .tc := ⟨.hbm, 211, rfl⟩
abbrev main_v153 : Ref sig .tc := ⟨.hbm, 212, rfl⟩
abbrev main_c_32 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_c_33 : Ref sig .tc := ⟨.hbm, 219, rfl⟩
abbrev main_v159 : Ref sig .tc := ⟨.hbm, 220, rfl⟩
abbrev main_v160 : Ref sig .tc := ⟨.hbm, 221, rfl⟩
abbrev main_c_34 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_c_35 : Ref sig .tc := ⟨.hbm, 230, rfl⟩
abbrev main_v168 : Ref sig .tc := ⟨.hbm, 231, rfl⟩
abbrev main_v169 : Ref sig .tc := ⟨.hbm, 232, rfl⟩
abbrev main_c_36 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_37 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_38 : Ref sig .tc := ⟨.hbm, 253, rfl⟩
abbrev main_v188 : Ref sig .tc := ⟨.hbm, 254, rfl⟩
abbrev main_cst_39 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_40 : Ref sig .tc := ⟨.hbm, 262, rfl⟩
abbrev main_v195 : Ref sig .tc := ⟨.hbm, 263, rfl⟩
abbrev main_cst_41 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_cst_42 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_call2_cst : Ref sig .tc := ⟨.hbm, 283, rfl⟩
abbrev main_call2_v0 : Ref sig .tc := ⟨.hbm, 284, rfl⟩
abbrev main_v213 : Ref sig .tc := ⟨.hbm, 285, rfl⟩
abbrev main_v214 : Ref sig .tc := ⟨.hbm, 286, rfl⟩
abbrev main_cst_43 : Ref sig .tc := ⟨.hbm, 287, rfl⟩
abbrev main_v215 : Ref sig .tc := ⟨.hbm, 288, rfl⟩
abbrev main_cst_44 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_45 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_c_46 : Ref sig .tc := ⟨.hbm, 297, rfl⟩
abbrev main_v222 : Ref sig .tc := ⟨.hbm, 298, rfl⟩
abbrev main_v223 : Ref sig .tc := ⟨.hbm, 299, rfl⟩
abbrev main_c_47 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_c_48 : Ref sig .tc := ⟨.hbm, 306, rfl⟩
abbrev main_v229 : Ref sig .tc := ⟨.hbm, 307, rfl⟩
abbrev main_v230 : Ref sig .tc := ⟨.hbm, 308, rfl⟩
abbrev main_c_49 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_c_50 : Ref sig .tc := ⟨.hbm, 317, rfl⟩
abbrev main_v238 : Ref sig .tc := ⟨.hbm, 318, rfl⟩
abbrev main_v239 : Ref sig .tc := ⟨.hbm, 319, rfl⟩
abbrev main_c_51 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_cst_52 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_cst_53 : Ref sig .tc := ⟨.hbm, 340, rfl⟩
abbrev main_v258 : Ref sig .tc := ⟨.hbm, 341, rfl⟩
abbrev main_cst_54 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_cst_55 : Ref sig .tc := ⟨.hbm, 349, rfl⟩
abbrev main_v265 : Ref sig .tc := ⟨.hbm, 350, rfl⟩
abbrev main_cst_56 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_57 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_call3_cst : Ref sig .tc := ⟨.hbm, 370, rfl⟩
abbrev main_call3_v0 : Ref sig .tc := ⟨.hbm, 371, rfl⟩
abbrev main_v283 : Ref sig .tc := ⟨.hbm, 372, rfl⟩
abbrev main_cst_58 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_cst_59 : Ref sig .tc := ⟨.hbm, 377, rfl⟩
abbrev main_v287 : Ref sig .tc := ⟨.hbm, 378, rfl⟩
abbrev main_cst_60 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_cst_61 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_call4_cst : Ref sig .tc := ⟨.hbm, 393, rfl⟩
abbrev main_call4_v0 : Ref sig .tc := ⟨.hbm, 394, rfl⟩
abbrev main_call4_cst_0 : Ref sig .tc := ⟨.hbm, 395, rfl⟩
abbrev main_call4_v1 : Ref sig .tc := ⟨.hbm, 396, rfl⟩
abbrev main_call4_v2 : Ref sig .tc := ⟨.hbm, 397, rfl⟩
abbrev main_call4_v3 : Ref sig .tc := ⟨.hbm, 398, rfl⟩
abbrev main_call4_v4 : Ref sig .tc := ⟨.hbm, 399, rfl⟩
abbrev main_call4_v5 : Ref sig .tc := ⟨.hbm, 400, rfl⟩
abbrev main_call4_v6 : Ref sig .tc := ⟨.hbm, 401, rfl⟩
abbrev main_call4_cst_1 : Ref sig .tc := ⟨.hbm, 402, rfl⟩
abbrev main_call4_v7 : Ref sig .tc := ⟨.hbm, 403, rfl⟩
abbrev main_call4_v8 : Ref sig .tc := ⟨.hbm, 404, rfl⟩
abbrev main_call4_v9 : Ref sig .tc := ⟨.hbm, 405, rfl⟩
abbrev main_call4_v10 : Ref sig .tc := ⟨.hbm, 406, rfl⟩
abbrev main_v300 : Ref sig .tc := ⟨.hbm, 407, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S512x1_S512x10_0_1 : S512x1.BroadcastsInDim S512x10 (![0, 1] : Fin 2 → Fin S512x10.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.K.R0.lean ====
/-
  Region 0: the first layer's projection. The grid has ten points; point t multiplies rows 10000 t .. 10000 t + 9999
  of the node features (a 10000 x 128 block) by the whole 128 x 64 weight matrix and stores the 10000 x 64 product
  over the whole output block. The weight block is fetched once, at the first point, and stays in place.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows when the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, kept afterwards. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_2 : Rect S10000x64 := Rect.unit (s := S10000x64) ![0, 0] S10000x64.size inb_S10000x64_S10000x64_0_0
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0

/-- The output block after the body: the one store, of the product of the two loaded blocks, over the whole block. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging memrefs: the two inputs keep their contents, the output ends at the product's block. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the body obligation -/

/-- Region 0's proof data on core c: the arrays as the region finds them; after the body at point t each input's
    buffer holds its block and the output's the product block; the invariant is the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

set_option maxHeartbeats 4000000 in
/-- The first point: the scratch rows hold anything; they are reset, then accumulated into. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc1__bias_stats_kernel i arg1 harg1 arg2 harg2 arg3 harg3 arg4 harg4 arg5 harg5 arg6 harg6 arg7 harg7) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc1__bias_stats_kernel i arg1 harg1 arg2 harg2 arg3 harg3 arg4 harg4 arg5 harg5 arg6 harg6 arg7 harg7) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.K.R1b.lean ====
/-
  Region 1, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev scM1_0 : Memref sig .tc .vmem S1x64 .f32 := Memref.whole cc1_scratch0
abbrev scM1_1 : Memref sig .tc .vmem S1x64 .f32 := Memref.whole cc1_scratch1

/-- The pre-activation block after the body at point t, given the scratch rows before it. -/
def pre1At (c : Dev nD) (t : Fin cfg1.N) (xs6 xs7 : Vec F S1x64 .f32) : Vec F S10000x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).1

/-- The first output row after the body at point t, given the scratch rows before it. -/
def sum1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.1

/-- The second output row after the body at point t, given the scratch rows before it. -/
def sq1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.1

/-- The first scratch row after the body at point t, given the scratch rows before it. -/
def scL1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.1

/-- The second scratch row after the body at point t, given the scratch rows before it. -/
def scR1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.2.1

/-- The two scratch rows before point n: what the point before left; before the first point the value is not used
    (the first point resets the rows), and the zero row stands there. -/
def scB1 (c : Dev nD) : ℕ → Vec F S1x64 .f32 × Vec F S1x64 .f32
  | 0 => (k1_pay1 (F := F), k1_pay1 (F := F))
  | n + 1 => if h : n < cfg1.N then (scL1At V c ⟨n, h⟩ (scB1 c n).1 (scB1 c n).2, scR1At V c ⟨n, h⟩ (scB1 c n).1 (scB1 c n).2) else scB1 c n

/-! ## Each run's pieces cover their buffer (every store is of the whole buffer) -/

theorem cover1_A_0 (c : Dev nD) (t : Fin cfg1.N) (hc : cond1_0 (grid1.coords t)) (y : S10000x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).1, y ∈ pc.1.set :=
  View.cover_of_tiledL _ S10000x64.size (by sl_kernel_rfl) y
theorem cover1_A_1 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.1, y ∈ pc.1.set :=
  View.cover_of_tiledL _ S1x64.size (by sl_kernel_rfl) y
theorem cover1_A_2 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.1, y ∈ pc.1.set :=
  View.cover_of_tiledL _ S1x64.size (by sl_kernel_rfl) y
theorem cover1_A_3 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.1, y ∈ pc.1.set :=
  View.cover_of_tiledL _ S1x64.size (by sl_kernel_rfl) y
theorem cover1_A_4 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.1, y ∈ pc.1.set :=
  View.cover_of_tiledL _ S1x64.size (by sl_kernel_rfl) y

theorem cover1_B_0 (c : Dev nD) (t : Fin cfg1.N) (hc : ¬cond1_0 (grid1.coords t)) (xs6 xs7 : Vec F S1x64 .f32) (y : S10000x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).1, y ∈ pc.1.set :=
  View.cover_of_tiledL _ S10000x64.size (by sl_kernel_rfl) y
theorem cover1_B_1 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.1, y ∈ pc.1.set :=
  View.cover_of_tiledL _ S1x64.size (by sl_kernel_rfl) y
theorem cover1_B_2 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.1, y ∈ pc.1.set :=
  View.cover_of_tiledL _ S1x64.size (by sl_kernel_rfl) y
theorem cover1_B_3 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.1, y ∈ pc.1.set :=
  View.cover_of_tiledL _ S1x64.size (by sl_kernel_rfl) y
theorem cover1_B_4 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS1 (c : Dev nD) (n : ℕ) : sProp 𝕄 :=
  iprop(Pipeline.scopedRestBut (Ix := Unit) (Name := ℕ) (U := Pipeline.UD sig nD τ) (Lvl := ℕ) (Val := Elt F) spec1 c [cc1_scratch0, cc1_scratch1]
    ∗ (∃ r, prngReg c r)
    ∗ (∃ d6, owns (c : Thread nD τ) scM1_0 fullShare d6 ∗ ⌜n ≠ 0 → d6 = (scB1 V c n).1⌝)
    ∗ (∃ d7, owns (c : Thread nD τ) scM1_1 fullShare d7 ∗ ⌜n ≠ 0 → d7 = (scB1 V c n).2⌝))

/-- Region 1's proof data on core c. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => pre1At V c t (scB1 V c t.val).1 (scB1 V c t.val).2
    | ⟨3, _⟩ => sum1At V c t (scB1 V c t.val).1 (scB1 V c t.val).2
    | ⟨4, _⟩ => sq1At V c t (scB1 V c t.val).1 (scB1 V c t.val).2
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = pre1At V c t (scB1 V c t.val).1 (scB1 V c t.val).2 := by dsimp only [dat1]
theorem after1_3 (c : Dev nD) (t : Fin cfg1.N) : (dat1 V c).after 3 t = sum1At V c t (scB1 V c t.val).1 (scB1 V c t.val).2 := by dsimp only [dat1]
theorem after1_4 (c : Dev nD) (t : Fin cfg1.N) : (dat1 V c).after 4 t = sq1At V c t (scB1 V c t.val).1 (scB1 V c t.val).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The scratch rows after point t are the rows before point t + 1. -/
theorem scB1_succ (c : Dev nD) (t : Fin cfg1.N) :
    scB1 V c (t.val + 1) = (scL1At V c t (scB1 V c t.val).1 (scB1 V c t.val).2, scR1At V c t (scB1 V c t.val).1 (scB1 V c t.val).2) := by
  show (if h : t.val < cfg1.N then _ else _) = _
  rw [dif_pos t.isLt]

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- A point other than the first is not the reset's. -/
theorem val1_ne_zero (t : Fin cfg1.N) (hc : ¬cond1_0 (grid1.coords t)) : t.val ≠ 0 := by
  intro h0
  exact hc ((hcond1_0 t).mpr (by rw [h0]))

set_option maxHeartbeats 1000000 in
/-- The body at any point: by cases on whether it is the first. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = PhiS1 V c (t.val + 1) from rfl,
    show (dat1 V c).Φ t.castSucc = PhiS1 V c t.val from rfl,
    show (dat1 V c).owesAt () t.succ = (dat1 V c).owesAt () t.castSucc from rfl,
    after1_0, after1_1, after1_2, after1_3, after1_4]
  unfold PhiS1
  rw [scB1_succ]
  by_cases hc : cond1_0 (grid1.coords t)
  · unfold pre1At sum1At sq1At scL1At scR1At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover1_A_3 V c t hc)
        · ipureintro; intro _; rfl
      · iexists _; isplitl [H7]
        · unfold owns; iexists _; isplitr; swap; · iexact H7
          ipureintro; exact View.read_writes_eq_canon _ _ _ (cover1_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover1_A_0 V c t hc)
    isplitl [H3]
    · unfold owns; iexists _; isplitr; swap; · iexact H3
      ipureintro; exact View.read_writes_eq_canon _ _ _ (cover1_A_1 V c t hc)
    · unfold owns; iexists _; isplitr; swap; · iexact H4
      ipureintro; exact View.read_writes_eq_canon _ _ _ (cover1_A_2 V c t hc)
  · have hne := val1_ne_zero t hc
    unfold pre1At sum1At sq1At scL1At scR1At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) (scB1 V c t.val).1 (scB1 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover1_B_3 V c t hc _ _)
        · ipureintro; intro _; rfl
      · iexists _; isplitl [H7]
        · unfold owns; iexists _; isplitr; swap; · iexact H7
          ipureintro; exact View.read_writes_eq_canon _ _ _ (cover1_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover1_B_0 V c t hc _ _)
    isplitl [H3]
    · unfold owns; iexists _; isplitr; swap; · iexact H3
      ipureintro; exact View.read_writes_eq_canon _ _ _ (cover1_B_1 V c t hc _ _)
    · unfold owns; iexists _; isplitr; swap; · iexact H4
      ipureintro; exact View.read_writes_eq_canon _ _ _ (cover1_B_2 V c t hc _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2: normalise and clamp, layer 1. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's staging buffer holds the point's block when the body runs, fetched at this point or kept from an earlier one. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-- The output block after the body: the one store, of the body's value of the loaded blocks, over the whole block. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 1000000 in
/-- The body on whole staging memrefs: the inputs keep their contents, the output ends at the body's value. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data and the body obligation -/

/-- The region's proof data on core c: the arrays as the region finds them; after the body at point t each input's
    buffer holds its block and the output's the body's value of them; the invariant is the scoped rest and the
    generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3: the second layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's staging buffer holds the point's block when the body runs, fetched at this point or kept from an earlier one. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S10000x64 := Rect.unit (s := S10000x64) ![0, 0] S10000x64.size inb_S10000x64_S10000x64_0_0

/-- The output block after the body: the one store, of the body's value of the loaded blocks, over the whole block. -/
def out3_2 (x0 : Vec F S10000x64 .f32) (x1 : Vec F S64x64 .f32) : Vec F S10000x64 .f32 :=
  View.canon [⟨r3_2, k3_pay1 (View.ld x0 r3_0) (View.ld x1 r3_1)⟩]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in
/-- The body on whole staging memrefs: the inputs keep their contents, the output ends at the body's value. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data and the body obligation -/

/-- The region's proof data on core c: the arrays as the region finds them; after the body at point t each input's
    buffer holds its block and the output's the body's value of them; the invariant is the scoped rest and the
    generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

set_option maxHeartbeats 4000000 in
/-- The first point: the scratch rows hold anything; they are reset, then accumulated into. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc4__bias_stats_kernel i arg1 harg1 arg2 harg2 arg3 harg3 arg4 harg4 arg5 harg5 arg6 harg6 arg7 harg7) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc4__bias_stats_kernel i arg1 harg1 arg2 harg2 arg3 harg3 arg4 harg4 arg5 harg5 arg6 harg6 arg7 harg7) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.K.R4b.lean ====
/-
  Region 4, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.K.R4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev scM4_0 : Memref sig .tc .vmem S1x64 .f32 := Memref.whole cc4_scratch0
abbrev scM4_1 : Memref sig .tc .vmem S1x64 .f32 := Memref.whole cc4_scratch1

/-- The pre-activation block after the body at point t, given the scratch rows before it. -/
def pre4At (c : Dev nD) (t : Fin cfg4.N) (xs6 xs7 : Vec F S1x64 .f32) : Vec F S10000x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).1

/-- The first output row after the body at point t, given the scratch rows before it. -/
def sum4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.1

/-- The second output row after the body at point t, given the scratch rows before it. -/
def sq4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.1

/-- The first scratch row after the body at point t, given the scratch rows before it. -/
def scL4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.1

/-- The second scratch row after the body at point t, given the scratch rows before it. -/
def scR4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.2.1

/-- The two scratch rows before point n: what the point before left; before the first point the value is not used
    (the first point resets the rows), and the zero row stands there. -/
def scB4 (c : Dev nD) : ℕ → Vec F S1x64 .f32 × Vec F S1x64 .f32
  | 0 => (k4_pay1 (F := F), k4_pay1 (F := F))
  | n + 1 => if h : n < cfg4.N then (scL4At V c ⟨n, h⟩ (scB4 c n).1 (scB4 c n).2, scR4At V c ⟨n, h⟩ (scB4 c n).1 (scB4 c n).2) else scB4 c n

/-! ## Each run's pieces cover their buffer (every store is of the whole buffer) -/

theorem cover4_A_0 (c : Dev nD) (t : Fin cfg4.N) (hc : cond4_0 (grid4.coords t)) (y : S10000x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).1, y ∈ pc.1.set :=
  View.cover_of_tiledL _ S10000x64.size (by sl_kernel_rfl) y
theorem cover4_A_1 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.1, y ∈ pc.1.set :=
  View.cover_of_tiledL _ S1x64.size (by sl_kernel_rfl) y
theorem cover4_A_2 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.1, y ∈ pc.1.set :=
  View.cover_of_tiledL _ S1x64.size (by sl_kernel_rfl) y
theorem cover4_A_3 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.1, y ∈ pc.1.set :=
  View.cover_of_tiledL _ S1x64.size (by sl_kernel_rfl) y
theorem cover4_A_4 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.1, y ∈ pc.1.set :=
  View.cover_of_tiledL _ S1x64.size (by sl_kernel_rfl) y

theorem cover4_B_0 (c : Dev nD) (t : Fin cfg4.N) (hc : ¬cond4_0 (grid4.coords t)) (xs6 xs7 : Vec F S1x64 .f32) (y : S10000x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).1, y ∈ pc.1.set :=
  View.cover_of_tiledL _ S10000x64.size (by sl_kernel_rfl) y
theorem cover4_B_1 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.1, y ∈ pc.1.set :=
  View.cover_of_tiledL _ S1x64.size (by sl_kernel_rfl) y
theorem cover4_B_2 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.1, y ∈ pc.1.set :=
  View.cover_of_tiledL _ S1x64.size (by sl_kernel_rfl) y
theorem cover4_B_3 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.1, y ∈ pc.1.set :=
  View.cover_of_tiledL _ S1x64.size (by sl_kernel_rfl) y
theorem cover4_B_4 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS4 (c : Dev nD) (n : ℕ) : sProp 𝕄 :=
  iprop(Pipeline.scopedRestBut (Ix := Unit) (Name := ℕ) (U := Pipeline.UD sig nD τ) (Lvl := ℕ) (Val := Elt F) spec4 c [cc4_scratch0, cc4_scratch1]
    ∗ (∃ r, prngReg c r)
    ∗ (∃ d6, owns (c : Thread nD τ) scM4_0 fullShare d6 ∗ ⌜n ≠ 0 → d6 = (scB4 V c n).1⌝)
    ∗ (∃ d7, owns (c : Thread nD τ) scM4_1 fullShare d7 ∗ ⌜n ≠ 0 → d7 = (scB4 V c n).2⌝))

/-- Region 4's proof data on core c. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => pre4At V c t (scB4 V c t.val).1 (scB4 V c t.val).2
    | ⟨3, _⟩ => sum4At V c t (scB4 V c t.val).1 (scB4 V c t.val).2
    | ⟨4, _⟩ => sq4At V c t (scB4 V c t.val).1 (scB4 V c t.val).2
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = pre4At V c t (scB4 V c t.val).1 (scB4 V c t.val).2 := by dsimp only [dat4]
theorem after4_3 (c : Dev nD) (t : Fin cfg4.N) : (dat4 V c).after 3 t = sum4At V c t (scB4 V c t.val).1 (scB4 V c t.val).2 := by dsimp only [dat4]
theorem after4_4 (c : Dev nD) (t : Fin cfg4.N) : (dat4 V c).after 4 t = sq4At V c t (scB4 V c t.val).1 (scB4 V c t.val).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The scratch rows after point t are the rows before point t + 1. -/
theorem scB4_succ (c : Dev nD) (t : Fin cfg4.N) :
    scB4 V c (t.val + 1) = (scL4At V c t (scB4 V c t.val).1 (scB4 V c t.val).2, scR4At V c t (scB4 V c t.val).1 (scB4 V c t.val).2) := by
  show (if h : t.val < cfg4.N then _ else _) = _
  rw [dif_pos t.isLt]

/-! ## The body obligation -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- A point other than the first is not the reset's. -/
theorem val4_ne_zero (t : Fin cfg4.N) (hc : ¬cond4_0 (grid4.coords t)) : t.val ≠ 0 := by
  intro h0
  exact hc ((hcond4_0 t).mpr (by rw [h0]))

set_option maxHeartbeats 1000000 in
/-- The body at any point: by cases on whether it is the first. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = PhiS4 V c (t.val + 1) from rfl,
    show (dat4 V c).Φ t.castSucc = PhiS4 V c t.val from rfl,
    show (dat4 V c).owesAt () t.succ = (dat4 V c).owesAt () t.castSucc from rfl,
    after4_0, after4_1, after4_2, after4_3, after4_4]
  unfold PhiS4
  rw [scB4_succ]
  by_cases hc : cond4_0 (grid4.coords t)
  · unfold pre4At sum4At sq4At scL4At scR4At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover4_A_3 V c t hc)
        · ipureintro; intro _; rfl
      · iexists _; isplitl [H7]
        · unfold owns; iexists _; isplitr; swap; · iexact H7
          ipureintro; exact View.read_writes_eq_canon _ _ _ (cover4_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover4_A_0 V c t hc)
    isplitl [H3]
    · unfold owns; iexists _; isplitr; swap; · iexact H3
      ipureintro; exact View.read_writes_eq_canon _ _ _ (cover4_A_1 V c t hc)
    · unfold owns; iexists _; isplitr; swap; · iexact H4
      ipureintro; exact View.read_writes_eq_canon _ _ _ (cover4_A_2 V c t hc)
  · have hne := val4_ne_zero t hc
    unfold pre4At sum4At sq4At scL4At scR4At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) (scB4 V c t.val).1 (scB4 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover4_B_3 V c t hc _ _)
        · ipureintro; intro _; rfl
      · iexists _; isplitl [H7]
        · unfold owns; iexists _; isplitr; swap; · iexact H7
          ipureintro; exact View.read_writes_eq_canon _ _ _ (cover4_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover4_B_0 V c t hc _ _)
    isplitl [H3]
    · unfold owns; iexists _; isplitr; swap; · iexact H3
      ipureintro; exact View.read_writes_eq_canon _ _ _ (cover4_B_1 V c t hc _ _)
    · unfold owns; iexists _; isplitr; swap; · iexact H4
      ipureintro; exact View.read_writes_eq_canon _ _ _ (cover4_B_2 V c t hc _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5: normalise and clamp, layer 2. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input's staging buffer holds the point's block when the body runs, fetched at this point or kept from an earlier one. -/

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S10000x64 := Rect.unit (s := S10000x64) ![0, 0] S10000x64.size inb_S10000x64_S10000x64_0_0

/-- The output block after the body: the one store, of the body's value of the loaded blocks, over the whole block. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_5, k5_pay1 (View.ld x0 r5_0) (View.ld x1 r5_1) (View.ld x2 r5_2) (View.ld x3 r5_3) (View.ld x4 r5_4)⟩]

theorem cover5_5 (p0 : Vec F S10000x64 .f32) (y : S10000x64.Idx) :
    ∃ pc ∈ ([⟨r5_5, p0⟩] : List (View.Piece (Elt F) S10000x64 .f32)), y ∈ pc.1.set :=
  View.cover_of_tiled [⟨r5_5, p0⟩] S10000x64.size (by rfl) y

set_option maxHeartbeats 1000000 in
/-- The body on whole staging memrefs: the inputs keep their contents, the output ends at the body's value. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__norm_relu_kernel i arg1 harg1 arg2 harg2 arg3 harg3 arg4 harg4 arg5 harg5 arg6 harg6) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data and the body obligation -/

/-- The region's proof data on core c: the arrays as the region finds them; after the body at point t each input's
    buffer holds its block and the output's the body's value of them; the invariant is the scoped rest and the
    generator register, untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/-
  Region 6: the third layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input's staging buffer holds the point's block when the body runs, fetched at this point or kept from an earlier one. -/

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x64 := Rect.unit (s := S64x64) ![0, 0] S64x64.size inb_S64x64_S64x64_0_0
abbrev r6_2 : Rect S10000x64 := Rect.unit (s := S10000x64) ![0, 0] S10000x64.size inb_S10000x64_S10000x64_0_0

/-- The output block after the body: the one store, of the body's value of the loaded blocks, over the whole block. -/
def out6_2 (x0 : Vec F S10000x64 .f32) (x1 : Vec F S64x64 .f32) : Vec F S10000x64 .f32 :=
  View.canon [⟨r6_2, k6_pay1 (View.ld x0 r6_0) (View.ld x1 r6_1)⟩]

theorem cover6_2 (p0 : Vec F S10000x64 .f32) (y : S10000x64.Idx) :
    ∃ pc ∈ ([⟨r6_2, p0⟩] : List (View.Piece (Elt F) S10000x64 .f32)), y ∈ pc.1.set :=
  View.cover_of_tiled [⟨r6_2, p0⟩] S10000x64.size (by rfl) y

set_option maxHeartbeats 1000000 in
/-- The body on whole staging memrefs: the inputs keep their contents, the output ends at the body's value. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data and the body obligation -/

/-- The region's proof data on core c: the arrays as the region finds them; after the body at point t each input's
    buffer holds its block and the output's the body's value of them; the invariant is the scoped rest and the
    generator register, untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/-
  Region 7: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

set_option maxHeartbeats 4000000 in
/-- The first point: the scratch rows hold anything; they are reset, then accumulated into. -/
noncomputable def kernelRun7_A (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc7__bias_stats_kernel i arg1 harg1 arg2 harg2 arg3 harg3 arg4 harg4 arg5 harg5 arg6 harg6 arg7 harg7) K } := by
  refine ⟨?_, ?_, ?_, ?_, ?_, fun E K => ?run⟩
  case run =>
    simp only [cc7__bias_stats_kernel_eq_skeleton]; unfold cc7__bias_stats_kernel_skel
    simp only [k7_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun7_B (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc7__bias_stats_kernel i arg1 harg1 arg2 harg2 arg3 harg3 arg4 harg4 arg5 harg5 arg6 harg6 arg7 harg7) K } := by
  refine ⟨?_, ?_, ?_, ?_, ?_, fun E K => ?run⟩
  case run =>
    simp only [cc7__bias_stats_kernel_eq_skeleton]; unfold cc7__bias_stats_kernel_skel
    simp only [k7_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.K.R7b.lean ====
/-
  Region 7, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.K.R7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) := win7_0.stage (cfg7.slots t 0)
abbrev hs7_0 (t : Fin cfg7.N) : (ms7_0 t).IsWhole := hstage7_0 ((cfg7.slots t 0).cast nbuf7_0)
abbrev ms7_1 (t : Fin cfg7.N) := win7_1.stage (cfg7.slots t 1)
abbrev hs7_1 (t : Fin cfg7.N) : (ms7_1 t).IsWhole := hstage7_1 ((cfg7.slots t 1).cast nbuf7_1)
abbrev ms7_2 (t : Fin cfg7.N) := win7_2.stage (cfg7.slots t 2)
abbrev hs7_2 (t : Fin cfg7.N) : (ms7_2 t).IsWhole := hstage7_2 ((cfg7.slots t 2).cast nbuf7_2)
abbrev ms7_3 (t : Fin cfg7.N) := win7_3.stage (cfg7.slots t 3)
abbrev hs7_3 (t : Fin cfg7.N) : (ms7_3 t).IsWhole := hstage7_3 ((cfg7.slots t 3).cast nbuf7_3)
abbrev ms7_4 (t : Fin cfg7.N) := win7_4.stage (cfg7.slots t 4)
abbrev hs7_4 (t : Fin cfg7.N) : (ms7_4 t).IsWhole := hstage7_4 ((cfg7.slots t 4).cast nbuf7_4)
abbrev scM7_0 : Memref sig .tc .vmem S1x64 .f32 := Memref.whole cc7_scratch0
abbrev scM7_1 : Memref sig .tc .vmem S1x64 .f32 := Memref.whole cc7_scratch1

/-- The pre-activation block after the body at point t, given the scratch rows before it. -/
def pre7At (c : Dev nD) (t : Fin cfg7.N) (xs6 xs7 : Vec F S1x64 .f32) : Vec F S10000x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).1

/-- The first output row after the body at point t, given the scratch rows before it. -/
def sum7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.1

/-- The second output row after the body at point t, given the scratch rows before it. -/
def sq7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.1

/-- The first scratch row after the body at point t, given the scratch rows before it. -/
def scL7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.1

/-- The second scratch row after the body at point t, given the scratch rows before it. -/
def scR7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.2.1

/-- The two scratch rows before point n: what the point before left; before the first point the value is not used
    (the first point resets the rows), and the zero row stands there. -/
def scB7 (c : Dev nD) : ℕ → Vec F S1x64 .f32 × Vec F S1x64 .f32
  | 0 => (k7_pay1 (F := F), k7_pay1 (F := F))
  | n + 1 => if h : n < cfg7.N then (scL7At V c ⟨n, h⟩ (scB7 c n).1 (scB7 c n).2, scR7At V c ⟨n, h⟩ (scB7 c n).1 (scB7 c n).2) else scB7 c n

/-! ## Each run's pieces cover their buffer (every store is of the whole buffer) -/

theorem cover7_A_0 (c : Dev nD) (t : Fin cfg7.N) (hc : cond7_0 (grid7.coords t)) (y : S10000x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).1, y ∈ pc.1.set :=
  View.cover_of_tiledL _ S10000x64.size (by sl_kernel_rfl) y
theorem cover7_A_1 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.1, y ∈ pc.1.set :=
  View.cover_of_tiledL _ S1x64.size (by sl_kernel_rfl) y
theorem cover7_A_2 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.1, y ∈ pc.1.set :=
  View.cover_of_tiledL _ S1x64.size (by sl_kernel_rfl) y
theorem cover7_A_3 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.1, y ∈ pc.1.set :=
  View.cover_of_tiledL _ S1x64.size (by sl_kernel_rfl) y
theorem cover7_A_4 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.1, y ∈ pc.1.set :=
  View.cover_of_tiledL _ S1x64.size (by sl_kernel_rfl) y

theorem cover7_B_0 (c : Dev nD) (t : Fin cfg7.N) (hc : ¬cond7_0 (grid7.coords t)) (xs6 xs7 : Vec F S1x64 .f32) (y : S10000x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).1, y ∈ pc.1.set :=
  View.cover_of_tiledL _ S10000x64.size (by sl_kernel_rfl) y
theorem cover7_B_1 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.1, y ∈ pc.1.set :=
  View.cover_of_tiledL _ S1x64.size (by sl_kernel_rfl) y
theorem cover7_B_2 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.1, y ∈ pc.1.set :=
  View.cover_of_tiledL _ S1x64.size (by sl_kernel_rfl) y
theorem cover7_B_3 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.1, y ∈ pc.1.set :=
  View.cover_of_tiledL _ S1x64.size (by sl_kernel_rfl) y
theorem cover7_B_4 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS7 (c : Dev nD) (n : ℕ) : sProp 𝕄 :=
  iprop(Pipeline.scopedRestBut (Ix := Unit) (Name := ℕ) (U := Pipeline.UD sig nD τ) (Lvl := ℕ) (Val := Elt F) spec7 c [cc7_scratch0, cc7_scratch1]
    ∗ (∃ r, prngReg c r)
    ∗ (∃ d6, owns (c : Thread nD τ) scM7_0 fullShare d6 ∗ ⌜n ≠ 0 → d6 = (scB7 V c n).1⌝)
    ∗ (∃ d7, owns (c : Thread nD τ) scM7_1 fullShare d7 ∗ ⌜n ≠ 0 → d7 = (scB7 V c n).2⌝))

/-- Region 7's proof data on core c. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => pre7At V c t (scB7 V c t.val).1 (scB7 V c t.val).2
    | ⟨3, _⟩ => sum7At V c t (scB7 V c t.val).1 (scB7 V c t.val).2
    | ⟨4, _⟩ => sq7At V c t (scB7 V c t.val).1 (scB7 V c t.val).2
  Φ t := PhiS7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = pre7At V c t (scB7 V c t.val).1 (scB7 V c t.val).2 := by dsimp only [dat7]
theorem after7_3 (c : Dev nD) (t : Fin cfg7.N) : (dat7 V c).after 3 t = sum7At V c t (scB7 V c t.val).1 (scB7 V c t.val).2 := by dsimp only [dat7]
theorem after7_4 (c : Dev nD) (t : Fin cfg7.N) : (dat7 V c).after 4 t = sq7At V c t (scB7 V c t.val).1 (scB7 V c t.val).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The scratch rows after point t are the rows before point t + 1. -/
theorem scB7_succ (c : Dev nD) (t : Fin cfg7.N) :
    scB7 V c (t.val + 1) = (scL7At V c t (scB7 V c t.val).1 (scB7 V c t.val).2, scR7At V c t (scB7 V c t.val).1 (scB7 V c t.val).2) := by
  show (if h : t.val < cfg7.N then _ else _) = _
  rw [dif_pos t.isLt]

/-! ## The body obligation -/

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- A point other than the first is not the reset's. -/
theorem val7_ne_zero (t : Fin cfg7.N) (hc : ¬cond7_0 (grid7.coords t)) : t.val ≠ 0 := by
  intro h0
  exact hc ((hcond7_0 t).mpr (by rw [h0]))

set_option maxHeartbeats 1000000 in
/-- The body at any point: by cases on whether it is the first. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = PhiS7 V c (t.val + 1) from rfl,
    show (dat7 V c).Φ t.castSucc = PhiS7 V c t.val from rfl,
    show (dat7 V c).owesAt () t.succ = (dat7 V c).owesAt () t.castSucc from rfl,
    after7_0, after7_1, after7_2, after7_3, after7_4]
  unfold PhiS7
  rw [scB7_succ]
  by_cases hc : cond7_0 (grid7.coords t)
  · unfold pre7At sum7At sq7At scL7At scR7At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover7_A_3 V c t hc)
        · ipureintro; intro _; rfl
      · iexists _; isplitl [H7]
        · unfold owns; iexists _; isplitr; swap; · iexact H7
          ipureintro; exact View.read_writes_eq_canon _ _ _ (cover7_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover7_A_0 V c t hc)
    isplitl [H3]
    · unfold owns; iexists _; isplitr; swap; · iexact H3
      ipureintro; exact View.read_writes_eq_canon _ _ _ (cover7_A_1 V c t hc)
    · unfold owns; iexists _; isplitr; swap; · iexact H4
      ipureintro; exact View.read_writes_eq_canon _ _ _ (cover7_A_2 V c t hc)
  · have hne := val7_ne_zero t hc
    unfold pre7At sum7At sq7At scL7At scR7At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) (scB7 V c t.val).1 (scB7 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover7_B_3 V c t hc _ _)
        · ipureintro; intro _; rfl
      · iexists _; isplitl [H7]
        · unfold owns; iexists _; isplitr; swap; · iexact H7
          ipureintro; exact View.read_writes_eq_canon _ _ _ (cover7_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover7_B_0 V c t hc _ _)
    isplitl [H3]
    · unfold owns; iexists _; isplitr; swap; · iexact H3
      ipureintro; exact View.read_writes_eq_canon _ _ _ (cover7_B_1 V c t hc _ _)
    · unfold owns; iexists _; isplitr; swap; · iexact H4
      ipureintro; exact View.read_writes_eq_canon _ _ _ (cover7_B_2 V c t hc _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/-
  Region 8: normalise and clamp, layer 3. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input's staging buffer holds the point's block when the body runs, fetched at this point or kept from an earlier one. -/

theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S10000x64 := Rect.unit (s := S10000x64) ![0, 0] S10000x64.size inb_S10000x64_S10000x64_0_0

/-- The output block after the body: the one store, of the body's value of the loaded blocks, over the whole block. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_5, k8_pay1 (View.ld x0 r8_0) (View.ld x1 r8_1) (View.ld x2 r8_2) (View.ld x3 r8_3) (View.ld x4 r8_4)⟩]

theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging memrefs: the inputs keep their contents, the output ends at the body's value. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__norm_relu_kernel i arg1 harg1 arg2 harg2 arg3 harg3 arg4 harg4 arg5 harg5 arg6 harg6) K := by
  simp only [cc8__norm_relu_kernel_eq_skeleton]; unfold cc8__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data and the body obligation -/

/-- The region's proof data on core c: the arrays as the region finds them; after the body at point t each input's
    buffer holds its block and the output's the body's value of them; the invariant is the scoped rest and the
    generator register, untouched; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
/-
  Region 9: the fourth layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! Each input's staging buffer holds the point's block when the body runs, fetched at this point or kept from an earlier one. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0
abbrev r9_1 : Rect S64x64 := Rect.unit (s := S64x64) ![0, 0] S64x64.size inb_S64x64_S64x64_0_0
abbrev r9_2 : Rect S10000x64 := Rect.unit (s := S10000x64) ![0, 0] S10000x64.size inb_S10000x64_S10000x64_0_0

/-- The output block after the body: the one store, of the body's value of the loaded blocks, over the whole block. -/
def out9_2 (x0 : Vec F S10000x64 .f32) (x1 : Vec F S64x64 .f32) : Vec F S10000x64 .f32 :=
  View.canon [⟨r9_2, k9_pay1 (View.ld x0 r9_0) (View.ld x1 r9_1)⟩]

theorem cover9_2 (p0 : Vec F S10000x64 .f32) (y : S10000x64.Idx) :
    ∃ pc ∈ ([⟨r9_2, p0⟩] : List (View.Piece (Elt F) S10000x64 .f32)), y ∈ pc.1.set :=
  View.cover_of_tiled [⟨r9_2, p0⟩] S10000x64.size (by rfl) y

set_option maxHeartbeats 1000000 in
/-- The body on whole staging memrefs: the inputs keep their contents, the output ends at the body's value. -/
theorem sound_kernel9 (c : Dev nD) (E : Set ℕ) (i : grid9.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The proof data and the body obligation -/

/-- The region's proof data on core c: the arrays as the region finds them; after the body at point t each input's
    buffer holds its block and the output's the body's value of them; the invariant is the scoped rest and the
    generator register, untouched; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/-
  Region 10: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val % 10 = 0 :=
  (by decide +kernel : ∀ t : Fin grid10.N, cond10_0 (grid10.coords t) ↔ t.val % 10 = 0)

set_option maxHeartbeats 4000000 in
/-- The first point: the scratch rows hold anything; they are reset, then accumulated into. -/
noncomputable def kernelRun10_A (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond10_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc10__bias_stats_kernel i arg1 harg1 arg2 harg2 arg3 harg3 arg4 harg4 arg5 harg5 arg6 harg6 arg7 harg7) K } := by
  refine ⟨?_, ?_, ?_, ?_, ?_, fun E K => ?run⟩
  case run =>
    simp only [cc10__bias_stats_kernel_eq_skeleton]; unfold cc10__bias_stats_kernel_skel
    simp only [k10_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun10_B (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond10_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc10__bias_stats_kernel i arg1 harg1 arg2 harg2 arg3 harg3 arg4 harg4 arg5 harg5 arg6 harg6 arg7 harg7) K } := by
  refine ⟨?_, ?_, ?_, ?_, ?_, fun E K => ?run⟩
  case run =>
    simp only [cc10__bias_stats_kernel_eq_skeleton]; unfold cc10__bias_stats_kernel_skel
    simp only [k10_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.K.R10b.lean ====
/-
  Region 10, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.K.R10

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev ms10_0 (t : Fin cfg10.N) := win10_0.stage (cfg10.slots t 0)
abbrev hs10_0 (t : Fin cfg10.N) : (ms10_0 t).IsWhole := hstage10_0 ((cfg10.slots t 0).cast nbuf10_0)
abbrev ms10_1 (t : Fin cfg10.N) := win10_1.stage (cfg10.slots t 1)
abbrev hs10_1 (t : Fin cfg10.N) : (ms10_1 t).IsWhole := hstage10_1 ((cfg10.slots t 1).cast nbuf10_1)
abbrev ms10_2 (t : Fin cfg10.N) := win10_2.stage (cfg10.slots t 2)
abbrev hs10_2 (t : Fin cfg10.N) : (ms10_2 t).IsWhole := hstage10_2 ((cfg10.slots t 2).cast nbuf10_2)
abbrev ms10_3 (t : Fin cfg10.N) := win10_3.stage (cfg10.slots t 3)
abbrev hs10_3 (t : Fin cfg10.N) : (ms10_3 t).IsWhole := hstage10_3 ((cfg10.slots t 3).cast nbuf10_3)
abbrev ms10_4 (t : Fin cfg10.N) := win10_4.stage (cfg10.slots t 4)
abbrev hs10_4 (t : Fin cfg10.N) : (ms10_4 t).IsWhole := hstage10_4 ((cfg10.slots t 4).cast nbuf10_4)
abbrev scM10_0 : Memref sig .tc .vmem S1x64 .f32 := Memref.whole cc10_scratch0
abbrev scM10_1 : Memref sig .tc .vmem S1x64 .f32 := Memref.whole cc10_scratch1

/-- The pre-activation block after the body at point t, given the scratch rows before it. -/
def pre10At (c : Dev nD) (t : Fin cfg10.N) (xs6 xs7 : Vec F S1x64 .f32) : Vec F S10000x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).1

/-- The first output row after the body at point t, given the scratch rows before it. -/
def sum10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.1

/-- The second output row after the body at point t, given the scratch rows before it. -/
def sq10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.1

/-- The first scratch row after the body at point t, given the scratch rows before it. -/
def scL10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.1

/-- The second scratch row after the body at point t, given the scratch rows before it. -/
def scR10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.2.1

/-- The two scratch rows before point n: what the point before left; before the first point the value is not used
    (the first point resets the rows), and the zero row stands there. -/
def scB10 (c : Dev nD) : ℕ → Vec F S1x64 .f32 × Vec F S1x64 .f32
  | 0 => (k10_pay1 (F := F), k10_pay1 (F := F))
  | n + 1 => if h : n < cfg10.N then (scL10At V c ⟨n, h⟩ (scB10 c n).1 (scB10 c n).2, scR10At V c ⟨n, h⟩ (scB10 c n).1 (scB10 c n).2) else scB10 c n

/-! ## Each run's pieces cover their buffer (every store is of the whole buffer) -/

theorem cover10_A_0 (c : Dev nD) (t : Fin cfg10.N) (hc : cond10_0 (grid10.coords t)) (y : S10000x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).1, y ∈ pc.1.set :=
  View.cover_of_tiledL _ S10000x64.size (by sl_kernel_rfl) y
theorem cover10_A_1 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.1, y ∈ pc.1.set :=
  View.cover_of_tiledL _ S1x64.size (by sl_kernel_rfl) y
theorem cover10_A_2 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.1, y ∈ pc.1.set :=
  View.cover_of_tiledL _ S1x64.size (by sl_kernel_rfl) y
theorem cover10_A_3 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.1, y ∈ pc.1.set :=
  View.cover_of_tiledL _ S1x64.size (by sl_kernel_rfl) y
theorem cover10_A_4 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.1, y ∈ pc.1.set :=
  View.cover_of_tiledL _ S1x64.size (by sl_kernel_rfl) y

theorem cover10_B_0 (c : Dev nD) (t : Fin cfg10.N) (hc : ¬cond10_0 (grid10.coords t)) (xs6 xs7 : Vec F S1x64 .f32) (y : S10000x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).1, y ∈ pc.1.set :=
  View.cover_of_tiledL _ S10000x64.size (by sl_kernel_rfl) y
theorem cover10_B_1 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.1, y ∈ pc.1.set :=
  View.cover_of_tiledL _ S1x64.size (by sl_kernel_rfl) y
theorem cover10_B_2 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.1, y ∈ pc.1.set :=
  View.cover_of_tiledL _ S1x64.size (by sl_kernel_rfl) y
theorem cover10_B_3 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.1, y ∈ pc.1.set :=
  View.cover_of_tiledL _ S1x64.size (by sl_kernel_rfl) y
theorem cover10_B_4 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS10 (c : Dev nD) (n : ℕ) : sProp 𝕄 :=
  iprop(Pipeline.scopedRestBut (Ix := Unit) (Name := ℕ) (U := Pipeline.UD sig nD τ) (Lvl := ℕ) (Val := Elt F) spec10 c [cc10_scratch0, cc10_scratch1]
    ∗ (∃ r, prngReg c r)
    ∗ (∃ d6, owns (c : Thread nD τ) scM10_0 fullShare d6 ∗ ⌜n ≠ 0 → d6 = (scB10 V c n).1⌝)
    ∗ (∃ d7, owns (c : Thread nD τ) scM10_1 fullShare d7 ∗ ⌜n ≠ 0 → d7 = (scB10 V c n).2⌝))

/-- Region 10's proof data on core c. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => pre10At V c t (scB10 V c t.val).1 (scB10 V c t.val).2
    | ⟨3, _⟩ => sum10At V c t (scB10 V c t.val).1 (scB10 V c t.val).2
    | ⟨4, _⟩ => sq10At V c t (scB10 V c t.val).1 (scB10 V c t.val).2
  Φ t := PhiS10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = pre10At V c t (scB10 V c t.val).1 (scB10 V c t.val).2 := by dsimp only [dat10]
theorem after10_3 (c : Dev nD) (t : Fin cfg10.N) : (dat10 V c).after 3 t = sum10At V c t (scB10 V c t.val).1 (scB10 V c t.val).2 := by dsimp only [dat10]
theorem after10_4 (c : Dev nD) (t : Fin cfg10.N) : (dat10 V c).after 4 t = sq10At V c t (scB10 V c t.val).1 (scB10 V c t.val).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The scratch rows after point t are the rows before point t + 1. -/
theorem scB10_succ (c : Dev nD) (t : Fin cfg10.N) :
    scB10 V c (t.val + 1) = (scL10At V c t (scB10 V c t.val).1 (scB10 V c t.val).2, scR10At V c t (scB10 V c t.val).1 (scB10 V c t.val).2) := by
  show (if h : t.val < cfg10.N then _ else _) = _
  rw [dif_pos t.isLt]

/-! ## The body obligation -/

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- A point other than the first is not the reset's. -/
theorem val10_ne_zero (t : Fin cfg10.N) (hc : ¬cond10_0 (grid10.coords t)) : t.val ≠ 0 := by
  intro h0
  exact hc ((hcond10_0 t).mpr (by rw [h0]))

set_option maxHeartbeats 1000000 in
/-- The body at any point: by cases on whether it is the first. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = PhiS10 V c (t.val + 1) from rfl,
    show (dat10 V c).Φ t.castSucc = PhiS10 V c t.val from rfl,
    show (dat10 V c).owesAt () t.succ = (dat10 V c).owesAt () t.castSucc from rfl,
    after10_0, after10_1, after10_2, after10_3, after10_4]
  unfold PhiS10
  rw [scB10_succ]
  by_cases hc : cond10_0 (grid10.coords t)
  · unfold pre10At sum10At sq10At scL10At scR10At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover10_A_3 V c t hc)
        · ipureintro; intro _; rfl
      · iexists _; isplitl [H7]
        · unfold owns; iexists _; isplitr; swap; · iexact H7
          ipureintro; exact View.read_writes_eq_canon _ _ _ (cover10_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover10_A_0 V c t hc)
    isplitl [H3]
    · unfold owns; iexists _; isplitr; swap; · iexact H3
      ipureintro; exact View.read_writes_eq_canon _ _ _ (cover10_A_1 V c t hc)
    · unfold owns; iexists _; isplitr; swap; · iexact H4
      ipureintro; exact View.read_writes_eq_canon _ _ _ (cover10_A_2 V c t hc)
  · have hne := val10_ne_zero t hc
    unfold pre10At sum10At sq10At scL10At scR10At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) (scB10 V c t.val).1 (scB10 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover10_B_3 V c t hc _ _)
        · ipureintro; intro _; rfl
      · iexists _; isplitl [H7]
        · unfold owns; iexists _; isplitr; swap; · iexact H7
          ipureintro; exact View.read_writes_eq_canon _ _ _ (cover10_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover10_B_0 V c t hc _ _)
    isplitl [H3]
    · unfold owns; iexists _; isplitr; swap; · iexact H3
      ipureintro; exact View.read_writes_eq_canon _ _ _ (cover10_B_1 V c t hc _ _)
    · unfold owns; iexists _; isplitr; swap; · iexact H4
      ipureintro; exact View.read_writes_eq_canon _ _ _ (cover10_B_2 V c t hc _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
/-
  Region 11: normalise and clamp, layer 4. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! Each input's staging buffer holds the point's block when the body runs, fetched at this point or kept from an earlier one. -/

theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S10000x64 := Rect.unit (s := S10000x64) ![0, 0] S10000x64.size inb_S10000x64_S10000x64_0_0
abbrev r11_1 : Rect S1x64 := Rect.unit (s := S1x64) ![0, 0] S1x64.size inb_S1x64_S1x64_0_0
abbrev r11_2 : Rect S1x64 := Rect.unit (s := S1x64) ![0, 0] S1x64.size inb_S1x64_S1x64_0_0
abbrev r11_3 : Rect S1x64 := Rect.unit (s := S1x64) ![0, 0] S1x64.size inb_S1x64_S1x64_0_0
abbrev r11_4 : Rect S1x64 := Rect.unit (s := S1x64) ![0, 0] S1x64.size inb_S1x64_S1x64_0_0
abbrev r11_5 : Rect S10000x64 := Rect.unit (s := S10000x64) ![0, 0] S10000x64.size inb_S10000x64_S10000x64_0_0

/-- The output block after the body: the one store, of the body's value of the loaded blocks, over the whole block. -/
def out11_5 (x0 : Vec F S10000x64 .f32) (x1 : Vec F S1x64 .f32) (x2 : Vec F S1x64 .f32) (x3 : Vec F S1x64 .f32) (x4 : Vec F S1x64 .f32) : Vec F S10000x64 .f32 :=
  View.canon [⟨r11_5, k11_pay1 (View.ld x0 r11_0) (View.ld x1 r11_1) (View.ld x2 r11_2) (View.ld x3 r11_3) (View.ld x4 r11_4)⟩]

theorem cover11_5 (p0 : Vec F S10000x64 .f32) (y : S10000x64.Idx) :
    ∃ pc ∈ ([⟨r11_5, p0⟩] : List (View.Piece (Elt F) S10000x64 .f32)), y ∈ pc.1.set :=
  View.cover_of_tiled [⟨r11_5, p0⟩] S10000x64.size (by rfl) y

set_option maxHeartbeats 1000000 in
/-- The body on whole staging memrefs: the inputs keep their contents, the output ends at the body's value. -/
theorem sound_kernel11 (c : Dev nD) (E : Set ℕ) (i : grid11.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__norm_relu_kernel i arg1 harg1 arg2 harg2 arg3 harg3 arg4 harg4 arg5 harg5 arg6 harg6) K := by
  simp only [cc11__norm_relu_kernel_eq_skeleton]; unfold cc11__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data and the body obligation -/

/-- The region's proof data on core c: the arrays as the region finds them; after the body at point t each input's
    buffer holds its block and the output's the body's value of them; the invariant is the scoped rest and the
    generator register, untouched; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
/-
  Region 12: the last affine map and the log-softmax, one grid point: the 512 x 64 pooled features times the 64 x 10 matrix plus the bias row, then each row less its log-sum-exp, stored whole.
  Stated at any float values and at a parameter V, the buffers' contents when the region is entered.
-/
import proofs.«106081_j12317966204981_2_alg».proof.Proof.Gen.Kernel.Launch
import proofs.«106081_j12317966204981_2_alg».proof.Proof.Gen.Kernel.Skeleton
import proofs.«106081_j12317966204981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! Each input's staging buffer holds the point's block when the body runs, fetched at this point or kept from an earlier one. -/

theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S512x64 := Rect.unit (s := S512x64) ![0, 0] S512x64.size inb_S512x64_S512x64_0_0
abbrev r12_1 : Rect S64x10 := Rect.unit (s := S64x10) ![0, 0] S64x10.size inb_S64x10_S64x10_0_0
abbrev r12_2 : Rect S1x10 := Rect.unit (s := S1x10) ![0, 0] S1x10.size inb_S1x10_S1x10_0_0
abbrev r12_3 : Rect S512x10 := Rect.unit (s := S512x10) ![0, 0] S512x10.size inb_S512x10_S512x10_0_0

/-- The output block after the body: the one store, of the body's value of the loaded blocks, over the whole block. -/
def out12_3 (x0 : Vec F S512x64 .f32) (x1 : Vec F S64x10 .f32) (x2 : Vec F S1x10 .f32) : Vec F S512x10 .f32 :=
  View.canon [⟨r12_3, k12_pay1 (View.ld x0 r12_0) (View.ld x1 r12_1) (View.ld x2 r12_2)⟩]

theorem cover12_3 (p0 : Vec F S512x10 .f32) (y : S512x10.Idx) :
    ∃ pc ∈ ([⟨r12_3, p0⟩] : List (View.Piece (Elt F) S512x10 .f32)), y ∈ pc.1.set :=
  View.cover_of_tiled [⟨r12_3, p0⟩] S512x10.size (by rfl) y

set_option maxHeartbeats 1000000 in
/-- The body on whole staging memrefs: the inputs keep their contents, the output ends at the body's value. -/
theorem sound_kernel12 (c : Dev nD) (E : Set ℕ) (i : grid12.Coords) (arg1 : Memref sig .tc .vmem S512x64 .f32) (harg1 : arg1.IsWhole) (arg2 : Memref sig .tc .vmem S64x10 .f32) (harg2 : arg2.IsWhole) (arg3 : Memref sig .tc .vmem S1x10 .f32) (harg3 : arg3.IsWhole) (arg4 : Memref sig .tc .vmem S512x10 .f32) (harg4 : arg4.IsWhole)
    (x0 : Vec F S512x64 .f32) (x1 : Vec F S64x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out12_3 x0 x1 x2)) -∗ K ⟨⟩))
      ⊢ wp frame (wpE (defs₀ (F := F)) Variants.none c none) E (cc12__fc_logsoftmax_kernel i arg1 harg1 arg2 harg2 arg3 harg3 arg4 harg4) K := by
  simp only [cc12__fc_logsoftmax_kernel_eq_skeleton]; unfold cc12__fc_logsoftmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The proof data and the body obligation -/

/-- The region's proof data on core c: the arrays as the region finds them; after the body at point t each input's
    buffer holds its block and the output's the body's value of them; the invariant is the scoped rest and the
    generator register, untouched; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Fold.lean ====
/-
  The buffers' contents at each boundary of the program, as a fold through it: the launch memory, then each
  stretch of host operations folded over the contents before it, and each kernel region leaving its arrays at what
  its pipeline leaves (an input array as entered, an output array with its write-backs folded) and every other
  buffer as entered. Stage j is defined from stage j - 1; two facts per region say what it holds at a window's
  array and elsewhere, and one fact per stage says which buffers it leaves alone. No stage writes an argument, so
  the last stage holds each argument as launched.
-/
import proofs.«106081_j12317966204981_2_alg».proof.Proof.K.R0
import proofs.«106081_j12317966204981_2_alg».proof.Proof.K.R1b
import proofs.«106081_j12317966204981_2_alg».proof.Proof.K.R2
import proofs.«106081_j12317966204981_2_alg».proof.Proof.K.R3
import proofs.«106081_j12317966204981_2_alg».proof.Proof.K.R4b
import proofs.«106081_j12317966204981_2_alg».proof.Proof.K.R5
import proofs.«106081_j12317966204981_2_alg».proof.Proof.K.R6
import proofs.«106081_j12317966204981_2_alg».proof.Proof.K.R7b
import proofs.«106081_j12317966204981_2_alg».proof.Proof.K.R8
import proofs.«106081_j12317966204981_2_alg».proof.Proof.K.R9
import proofs.«106081_j12317966204981_2_alg».proof.Proof.K.R10b
import proofs.«106081_j12317966204981_2_alg».proof.Proof.K.R11
import proofs.«106081_j12317966204981_2_alg».proof.Proof.K.R12
import proofs.«106081_j12317966204981_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)

/-- Core c's buffers at launch. -/
abbrev W0 : Dev nD → Valuation τ sig (Elt F) := fun c b => m (c, b)
/-- The same read at the TensorCore's references. -/
abbrev VT0 : (c : Dev nD) → (b : Ref sig .tc) → Buf (Elt F) ((c : Thread nD τ).loc b) := fun c b => W0 m c b

/-- After the host stretch hostOps0: its operations folded over the contents before it. -/
abbrev W1 : Dev nD → Valuation τ sig (Elt F) := fun c => StableHlo.after hostOps0 (W0 m c)
abbrev VT1 : (c : Dev nD) → (b : Ref sig .tc) → Buf (Elt F) ((c : Thread nD τ).loc b) := fun c b => W1 m c b
/-- A buffer the stretch does not write is as before it. -/
theorem W1_keep (c : Dev nD) (r : Ref sig .tc) (h : r ∉ hostOps0_W) : W1 m c r = W0 m c r :=
  StableHlo.after_of_writes_sub hostOps0 _ hostOps0_writes h

/-- At region 0's exit: its arrays at what the pipeline leaves (an input as entered, an output with its
    write-backs folded), every other buffer as entered. -/
def W2 (c : Dev nD) : Valuation τ sig (Elt F) :=
  Pipeline.withArrays spec0 c (W1 m c) fun w => (dat0 (VT1 m) c).arrAt w cfg0.N
theorem W2_arr (c : Dev nD) (w : Fin cfg0.W) :
    W2 m c (Proc.devRef .tc (Pipeline.arrRef spec0 w)) = (dat0 (VT1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VT2 : (c : Dev nD) → (b : Ref sig .tc) → Buf (Elt F) ((c : Thread nD τ).loc b) := fun c b => W2 m c b
theorem hF0 (c : Dev nD) (w : Fin cfg0.W) : (dat0 (VT1 m) c).arrAt w cfg0.N = VT2 m c (Pipeline.arrRef spec0 w) :=
  (W2_arr m c w).symm
theorem hrest0 (c : Dev nD) : ∀ b, b ∉ Finset.univ.image (Pipeline.arrRef spec0) → VT2 m c b = VT1 m c b :=
  fun b hb => W2_of_ne m c b fun w e => hb (Finset.mem_image.mpr ⟨w, Finset.mem_univ _, e⟩)
/-- A buffer that is not one of the region's outputs is as before it: an input's array is never written back. -/
theorem W2_keep (c : Dev nD) (r : Ref sig .tc) (h : r ∉ ([main_v29] : List (Ref sig .tc))) :
    W2 m c (Proc.devRef .tc r) = W1 m c (Proc.devRef .tc r) := by
  by_cases h0 : Pipeline.arrRef spec0 0 = r
  · subst h0; exact (W2_arr m c 0).trans (((dat0 (VT1 m) c).arrAt_in 0 rfl _).trans (A_eq0 (VT1 m) c 0))
  by_cases h1 : Pipeline.arrRef spec0 1 = r
  · subst h1; exact (W2_arr m c 1).trans (((dat0 (VT1 m) c).arrAt_in 1 rfl _).trans (A_eq0 (VT1 m) c 1))
  by_cases h2 : Pipeline.arrRef spec0 2 = r
  · subst h2; exact absurd (show Pipeline.arrRef spec0 2 ∈ ([main_v29] : List (Ref sig .tc)) by decide) h
  exact W2_of_ne m c r (fun | 0 => h0 | 1 => h1 | 2 => h2 | ⟨_ + 3, h'⟩ => absurd h' (Nat.not_lt.2 (Nat.le_add_left _ _)))

/-- After the host stretch hostOps1: its operations folded over the contents before it. -/
abbrev W3 : Dev nD → Valuation τ sig (Elt F) := fun c => StableHlo.after hostOps1 (W2 m c)
abbrev VT3 : (c : Dev nD) → (b : Ref sig .tc) → Buf (Elt F) ((c : Thread nD τ).loc b) := fun c b => W3 m c b
/-- A buffer the stretch does not write is as before it. -/
theorem W3_keep (c : Dev nD) (r : Ref sig .tc) (h : r ∉ hostOps1_W) : W3 m c r = W2 m c r :=
  StableHlo.after_of_writes_sub hostOps1 _ hostOps1_writes h

/-- At region 1's exit: its arrays at what the pipeline leaves (an input as entered, an output with its
    write-backs folded), every other buffer as entered. -/
def W4 (c : Dev nD) : Valuation τ sig (Elt F) :=
  Pipeline.withArrays spec1 c (W3 m c) fun w => (dat1 (VT3 m) c).arrAt w cfg1.N
theorem W4_arr (c : Dev nD) (w : Fin cfg1.W) :
    W4 m c (Proc.devRef .tc (Pipeline.arrRef spec1 w)) = (dat1 (VT3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VT4 : (c : Dev nD) → (b : Ref sig .tc) → Buf (Elt F) ((c : Thread nD τ).loc b) := fun c b => W4 m c b
theorem hF1 (c : Dev nD) (w : Fin cfg1.W) : (dat1 (VT3 m) c).arrAt w cfg1.N = VT4 m c (Pipeline.arrRef spec1 w) :=
  (W4_arr m c w).symm
theorem hrest1 (c : Dev nD) : ∀ b, b ∉ Finset.univ.image (Pipeline.arrRef spec1) → VT4 m c b = VT3 m c b :=
  fun b hb => W4_of_ne m c b fun w e => hb (Finset.mem_image.mpr ⟨w, Finset.mem_univ _, e⟩)
/-- A buffer that is not one of the region's outputs is as before it: an input's array is never written back. -/
theorem W4_keep (c : Dev nD) (r : Ref sig .tc) (h : r ∉ ([main_v46_0, main_v46_1, main_v46_2] : List (Ref sig .tc))) :
    W4 m c (Proc.devRef .tc r) = W3 m c (Proc.devRef .tc r) := by
  by_cases h0 : Pipeline.arrRef spec1 0 = r
  · subst h0; exact (W4_arr m c 0).trans (((dat1 (VT3 m) c).arrAt_in 0 rfl _).trans (A_eq1 (VT3 m) c 0))
  by_cases h1 : Pipeline.arrRef spec1 1 = r
  · subst h1; exact (W4_arr m c 1).trans (((dat1 (VT3 m) c).arrAt_in 1 rfl _).trans (A_eq1 (VT3 m) c 1))
  by_cases h2 : Pipeline.arrRef spec1 2 = r
  · subst h2; exact absurd (show Pipeline.arrRef spec1 2 ∈ ([main_v46_0, main_v46_1, main_v46_2] : List (Ref sig .tc)) by decide) h
  by_cases h3 : Pipeline.arrRef spec1 3 = r
  · subst h3; exact absurd (show Pipeline.arrRef spec1 3 ∈ ([main_v46_0, main_v46_1, main_v46_2] : List (Ref sig .tc)) by decide) h
  by_cases h4 : Pipeline.arrRef spec1 4 = r
  · subst h4; exact absurd (show Pipeline.arrRef spec1 4 ∈ ([main_v46_0, main_v46_1, main_v46_2] : List (Ref sig .tc)) by decide) h
  exact W4_of_ne m c r (fun | 0 => h0 | 1 => h1 | 2 => h2 | 3 => h3 | 4 => h4 | ⟨_ + 5, h'⟩ => absurd h' (Nat.not_lt.2 (Nat.le_add_left _ _)))

/-- After the host stretch hostOps2: its operations folded over the contents before it. -/
abbrev W5 : Dev nD → Valuation τ sig (Elt F) := fun c => StableHlo.after hostOps2 (W4 m c)
abbrev VT5 : (c : Dev nD) → (b : Ref sig .tc) → Buf (Elt F) ((c : Thread nD τ).loc b) := fun c b => W5 m c b
/-- A buffer the stretch does not write is as before it. -/
theorem W5_keep (c : Dev nD) (r : Ref sig .tc) (h : r ∉ hostOps2_W) : W5 m c r = W4 m c r :=
  StableHlo.after_of_writes_sub hostOps2 _ hostOps2_writes h

/-- At region 2's exit: its arrays at what the pipeline leaves (an input as entered, an output with its
    write-backs folded), every other buffer as entered. -/
def W6 (c : Dev nD) : Valuation τ sig (Elt F) :=
  Pipeline.withArrays spec2 c (W5 m c) fun w => (dat2 (VT5 m) c).arrAt w cfg2.N
theorem W6_arr (c : Dev nD) (w : Fin cfg2.W) :
    W6 m c (Proc.devRef .tc (Pipeline.arrRef spec2 w)) = (dat2 (VT5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VT6 : (c : Dev nD) → (b : Ref sig .tc) → Buf (Elt F) ((c : Thread nD τ).loc b) := fun c b => W6 m c b
theorem hF2 (c : Dev nD) (w : Fin cfg2.W) : (dat2 (VT5 m) c).arrAt w cfg2.N = VT6 m c (Pipeline.arrRef spec2 w) :=
  (W6_arr m c w).symm
theorem hrest2 (c : Dev nD) : ∀ b, b ∉ Finset.univ.image (Pipeline.arrRef spec2) → VT6 m c b = VT5 m c b :=
  fun b hb => W6_of_ne m c b fun w e => hb (Finset.mem_image.mpr ⟨w, Finset.mem_univ _, e⟩)
/-- A buffer that is not one of the region's outputs is as before it: an input's array is never written back. -/
theorem W6_keep (c : Dev nD) (r : Ref sig .tc) (h : r ∉ ([main_v58] : List (Ref sig .tc))) :
    W6 m c (Proc.devRef .tc r) = W5 m c (Proc.devRef .tc r) := by
  by_cases h0 : Pipeline.arrRef spec2 0 = r
  · subst h0; exact (W6_arr m c 0).trans (((dat2 (VT5 m) c).arrAt_in 0 rfl _).trans (A_eq2 (VT5 m) c 0))
  by_cases h1 : Pipeline.arrRef spec2 1 = r
  · subst h1; exact (W6_arr m c 1).trans (((dat2 (VT5 m) c).arrAt_in 1 rfl _).trans (A_eq2 (VT5 m) c 1))
  by_cases h2 : Pipeline.arrRef spec2 2 = r
  · subst h2; exact (W6_arr m c 2).trans (((dat2 (VT5 m) c).arrAt_in 2 rfl _).trans (A_eq2 (VT5 m) c 2))
  by_cases h3 : Pipeline.arrRef spec2 3 = r
  · subst h3; exact (W6_arr m c 3).trans (((dat2 (VT5 m) c).arrAt_in 3 rfl _).trans (A_eq2 (VT5 m) c 3))
  by_cases h4 : Pipeline.arrRef spec2 4 = r
  · subst h4; exact (W6_arr m c 4).trans (((dat2 (VT5 m) c).arrAt_in 4 rfl _).trans (A_eq2 (VT5 m) c 4))
  by_cases h5 : Pipeline.arrRef spec2 5 = r
  · subst h5; exact absurd (show Pipeline.arrRef spec2 5 ∈ ([main_v58] : List (Ref sig .tc)) by decide) h
  exact W6_of_ne m c r (fun | 0 => h0 | 1 => h1 | 2 => h2 | 3 => h3 | 4 => h4 | 5 => h5 | ⟨_ + 6, h'⟩ => absurd h' (Nat.not_lt.2 (Nat.le_add_left _ _)))

/-- At region 3's exit: its arrays at what the pipeline leaves (an input as entered, an output with its
    write-backs folded), every other buffer as entered. -/
def W7 (c : Dev nD) : Valuation τ sig (Elt F) :=
  Pipeline.withArrays spec3 c (W6 m c) fun w => (dat3 (VT6 m) c).arrAt w cfg3.N
theorem W7_arr (c : Dev nD) (w : Fin cfg3.W) :
    W7 m c (Proc.devRef .tc (Pipeline.arrRef spec3 w)) = (dat3 (VT6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev VT7 : (c : Dev nD) → (b : Ref sig .tc) → Buf (Elt F) ((c : Thread nD τ).loc b) := fun c b => W7 m c b
theorem hF3 (c : Dev nD) (w : Fin cfg3.W) : (dat3 (VT6 m) c).arrAt w cfg3.N = VT7 m c (Pipeline.arrRef spec3 w) :=
  (W7_arr m c w).symm
theorem hrest3 (c : Dev nD) : ∀ b, b ∉ Finset.univ.image (Pipeline.arrRef spec3) → VT7 m c b = VT6 m c b :=
  fun b hb => W7_of_ne m c b fun w e => hb (Finset.mem_image.mpr ⟨w, Finset.mem_univ _, e⟩)
/-- A buffer that is not one of the region's outputs is as before it: an input's array is never written back. -/
theorem W7_keep (c : Dev nD) (r : Ref sig .tc) (h : r ∉ ([main_v59] : List (Ref sig .tc))) :
    W7 m c (Proc.devRef .tc r) = W6 m c (Proc.devRef .tc r) := by
  by_cases h0 : Pipeline.arrRef spec3 0 = r
  · subst h0; exact (W7_arr m c 0).trans (((dat3 (VT6 m) c).arrAt_in 0 rfl _).trans (A_eq3 (VT6 m) c 0))
  by_cases h1 : Pipeline.arrRef spec3 1 = r
  · subst h1; exact (W7_arr m c 1).trans (((dat3 (VT6 m) c).arrAt_in 1 rfl _).trans (A_eq3 (VT6 m) c 1))
  by_cases h2 : Pipeline.arrRef spec3 2 = r
  · subst h2; exact absurd (show Pipeline.arrRef spec3 2 ∈ ([main_v59] : List (Ref sig .tc)) by decide) h
  exact W7_of_ne m c r (fun | 0 => h0 | 1 => h1 | 2 => h2 | ⟨_ + 3, h'⟩ => absurd h' (Nat.not_lt.2 (Nat.le_add_left _ _)))

/-- After the host stretch hostOps4: its operations folded over the contents before it. -/
abbrev W8 : Dev nD → Valuation τ sig (Elt F) := fun c => StableHlo.after hostOps4 (W7 m c)
abbrev VT8 : (c : Dev nD) → (b : Ref sig .tc) → Buf (Elt F) ((c : Thread nD τ).loc b) := fun c b => W8 m c b
/-- A buffer the stretch does not write is as before it. -/
theorem W8_keep (c : Dev nD) (r : Ref sig .tc) (h : r ∉ hostOps4_W) : W8 m c r = W7 m c r :=
  StableHlo.after_of_writes_sub hostOps4 _ hostOps4_writes h

/-- At region 4's exit: its arrays at what the pipeline leaves (an input as entered, an output with its
    write-backs folded), every other buffer as entered. -/
def W9 (c : Dev nD) : Valuation τ sig (Elt F) :=
  Pipeline.withArrays spec4 c (W8 m c) fun w => (dat4 (VT8 m) c).arrAt w cfg4.N
theorem W9_arr (c : Dev nD) (w : Fin cfg4.W) :
    W9 m c (Proc.devRef .tc (Pipeline.arrRef spec4 w)) = (dat4 (VT8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev VT9 : (c : Dev nD) → (b : Ref sig .tc) → Buf (Elt F) ((c : Thread nD τ).loc b) := fun c b => W9 m c b
theorem hF4 (c : Dev nD) (w : Fin cfg4.W) : (dat4 (VT8 m) c).arrAt w cfg4.N = VT9 m c (Pipeline.arrRef spec4 w) :=
  (W9_arr m c w).symm
theorem hrest4 (c : Dev nD) : ∀ b, b ∉ Finset.univ.image (Pipeline.arrRef spec4) → VT9 m c b = VT8 m c b :=
  fun b hb => W9_of_ne m c b fun w e => hb (Finset.mem_image.mpr ⟨w, Finset.mem_univ _, e⟩)
/-- A buffer that is not one of the region's outputs is as before it: an input's array is never written back. -/
theorem W9_keep (c : Dev nD) (r : Ref sig .tc) (h : r ∉ ([main_v76_0, main_v76_1, main_v76_2] : List (Ref sig .tc))) :
    W9 m c (Proc.devRef .tc r) = W8 m c (Proc.devRef .tc r) := by
  by_cases h0 : Pipeline.arrRef spec4 0 = r
  · subst h0; exact (W9_arr m c 0).trans (((dat4 (VT8 m) c).arrAt_in 0 rfl _).trans (A_eq4 (VT8 m) c 0))
  by_cases h1 : Pipeline.arrRef spec4 1 = r
  · subst h1; exact (W9_arr m c 1).trans (((dat4 (VT8 m) c).arrAt_in 1 rfl _).trans (A_eq4 (VT8 m) c 1))
  by_cases h2 : Pipeline.arrRef spec4 2 = r
  · subst h2; exact absurd (show Pipeline.arrRef spec4 2 ∈ ([main_v76_0, main_v76_1, main_v76_2] : List (Ref sig .tc)) by decide) h
  by_cases h3 : Pipeline.arrRef spec4 3 = r
  · subst h3; exact absurd (show Pipeline.arrRef spec4 3 ∈ ([main_v76_0, main_v76_1, main_v76_2] : List (Ref sig .tc)) by decide) h
  by_cases h4 : Pipeline.arrRef spec4 4 = r
  · subst h4; exact absurd (show Pipeline.arrRef spec4 4 ∈ ([main_v76_0, main_v76_1, main_v76_2] : List (Ref sig .tc)) by decide) h
  exact W9_of_ne m c r (fun | 0 => h0 | 1 => h1 | 2 => h2 | 3 => h3 | 4 => h4 | ⟨_ + 5, h'⟩ => absurd h' (Nat.not_lt.2 (Nat.le_add_left _ _)))

/-- After the host stretch hostOps5: its operations folded over the contents before it. -/
abbrev W10 : Dev nD → Valuation τ sig (Elt F) := fun c => StableHlo.after hostOps5 (W9 m c)
abbrev VT10 : (c : Dev nD) → (b : Ref sig .tc) → Buf (Elt F) ((c : Thread nD τ).loc b) := fun c b => W10 m c b
/-- A buffer the stretch does not write is as before it. -/
theorem W10_keep (c : Dev nD) (r : Ref sig .tc) (h : r ∉ hostOps5_W) : W10 m c r = W9 m c r :=
  StableHlo.after_of_writes_sub hostOps5 _ hostOps5_writes h

/-- At region 5's exit: its arrays at what the pipeline leaves (an input as entered, an output with its
    write-backs folded), every other buffer as entered. -/
def W11 (c : Dev nD) : Valuation τ sig (Elt F) :=
  Pipeline.withArrays spec5 c (W10 m c) fun w => (dat5 (VT10 m) c).arrAt w cfg5.N
theorem W11_arr (c : Dev nD) (w : Fin cfg5.W) :
    W11 m c (Proc.devRef .tc (Pipeline.arrRef spec5 w)) = (dat5 (VT10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
abbrev VT11 : (c : Dev nD) → (b : Ref sig .tc) → Buf (Elt F) ((c : Thread nD τ).loc b) := fun c b => W11 m c b
theorem hF5 (c : Dev nD) (w : Fin cfg5.W) : (dat5 (VT10 m) c).arrAt w cfg5.N = VT11 m c (Pipeline.arrRef spec5 w) :=
  (W11_arr m c w).symm
theorem hrest5 (c : Dev nD) : ∀ b, b ∉ Finset.univ.image (Pipeline.arrRef spec5) → VT11 m c b = VT10 m c b :=
  fun b hb => W11_of_ne m c b fun w e => hb (Finset.mem_image.mpr ⟨w, Finset.mem_univ _, e⟩)
/-- A buffer that is not one of the region's outputs is as before it: an input's array is never written back. -/
theorem W11_keep (c : Dev nD) (r : Ref sig .tc) (h : r ∉ ([main_v88] : List (Ref sig .tc))) :
    W11 m c (Proc.devRef .tc r) = W10 m c (Proc.devRef .tc r) := by
  by_cases h0 : Pipeline.arrRef spec5 0 = r
  · subst h0; exact (W11_arr m c 0).trans (((dat5 (VT10 m) c).arrAt_in 0 rfl _).trans (A_eq5 (VT10 m) c 0))
  by_cases h1 : Pipeline.arrRef spec5 1 = r
  · subst h1; exact (W11_arr m c 1).trans (((dat5 (VT10 m) c).arrAt_in 1 rfl _).trans (A_eq5 (VT10 m) c 1))
  by_cases h2 : Pipeline.arrRef spec5 2 = r
  · subst h2; exact (W11_arr m c 2).trans (((dat5 (VT10 m) c).arrAt_in 2 rfl _).trans (A_eq5 (VT10 m) c 2))
  by_cases h3 : Pipeline.arrRef spec5 3 = r
  · subst h3; exact (W11_arr m c 3).trans (((dat5 (VT10 m) c).arrAt_in 3 rfl _).trans (A_eq5 (VT10 m) c 3))
  by_cases h4 : Pipeline.arrRef spec5 4 = r
  · subst h4; exact (W11_arr m c 4).trans (((dat5 (VT10 m) c).arrAt_in 4 rfl _).trans (A_eq5 (VT10 m) c 4))
  by_cases h5 : Pipeline.arrRef spec5 5 = r
  · subst h5; exact absurd (show Pipeline.arrRef spec5 5 ∈ ([main_v88] : List (Ref sig .tc)) by decide) h
  exact W11_of_ne m c r (fun | 0 => h0 | 1 => h1 | 2 => h2 | 3 => h3 | 4 => h4 | 5 => h5 | ⟨_ + 6, h'⟩ => absurd h' (Nat.not_lt.2 (Nat.le_add_left _ _)))

/-- At region 6's exit: its arrays at what the pipeline leaves (an input as entered, an output with its
    write-backs folded), every other buffer as entered. -/
def W12 (c : Dev nD) : Valuation τ sig (Elt F) :=
  Pipeline.withArrays spec6 c (W11 m c) fun w => (dat6 (VT11 m) c).arrAt w cfg6.N
theorem W12_arr (c : Dev nD) (w : Fin cfg6.W) :
    W12 m c (Proc.devRef .tc (Pipeline.arrRef spec6 w)) = (dat6 (VT11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
abbrev VT12 : (c : Dev nD) → (b : Ref sig .tc) → Buf (Elt F) ((c : Thread nD τ).loc b) := fun c b => W12 m c b
theorem hF6 (c : Dev nD) (w : Fin cfg6.W) : (dat6 (VT11 m) c).arrAt w cfg6.N = VT12 m c (Pipeline.arrRef spec6 w) :=
  (W12_arr m c w).symm
theorem hrest6 (c : Dev nD) : ∀ b, b ∉ Finset.univ.image (Pipeline.arrRef spec6) → VT12 m c b = VT11 m c b :=
  fun b hb => W12_of_ne m c b fun w e => hb (Finset.mem_image.mpr ⟨w, Finset.mem_univ _, e⟩)
/-- A buffer that is not one of the region's outputs is as before it: an input's array is never written back. -/
theorem W12_keep (c : Dev nD) (r : Ref sig .tc) (h : r ∉ ([main_v89] : List (Ref sig .tc))) :
    W12 m c (Proc.devRef .tc r) = W11 m c (Proc.devRef .tc r) := by
  by_cases h0 : Pipeline.arrRef spec6 0 = r
  · subst h0; exact (W12_arr m c 0).trans (((dat6 (VT11 m) c).arrAt_in 0 rfl _).trans (A_eq6 (VT11 m) c 0))
  by_cases h1 : Pipeline.arrRef spec6 1 = r
  · subst h1; exact (W12_arr m c 1).trans (((dat6 (VT11 m) c).arrAt_in 1 rfl _).trans (A_eq6 (VT11 m) c 1))
  by_cases h2 : Pipeline.arrRef spec6 2 = r
  · subst h2; exact absurd (show Pipeline.arrRef spec6 2 ∈ ([main_v89] : List (Ref sig .tc)) by decide) h
  exact W12_of_ne m c r (fun | 0 => h0 | 1 => h1 | 2 => h2 | ⟨_ + 3, h'⟩ => absurd h' (Nat.not_lt.2 (Nat.le_add_left _ _)))

/-- After the host stretch hostOps7: its operations folded over the contents before it. -/
abbrev W13 : Dev nD → Valuation τ sig (Elt F) := fun c => StableHlo.after hostOps7 (W12 m c)
abbrev VT13 : (c : Dev nD) → (b : Ref sig .tc) → Buf (Elt F) ((c : Thread nD τ).loc b) := fun c b => W13 m c b
/-- A buffer the stretch does not write is as before it. -/
theorem W13_keep (c : Dev nD) (r : Ref sig .tc) (h : r ∉ hostOps7_W) : W13 m c r = W12 m c r :=
  StableHlo.after_of_writes_sub hostOps7 _ hostOps7_writes h

/-- At region 7's exit: its arrays at what the pipeline leaves (an input as entered, an output with its
    write-backs folded), every other buffer as entered. -/
def W14 (c : Dev nD) : Valuation τ sig (Elt F) :=
  Pipeline.withArrays spec7 c (W13 m c) fun w => (dat7 (VT13 m) c).arrAt w cfg7.N
theorem W14_arr (c : Dev nD) (w : Fin cfg7.W) :
    W14 m c (Proc.devRef .tc (Pipeline.arrRef spec7 w)) = (dat7 (VT13 m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
abbrev VT14 : (c : Dev nD) → (b : Ref sig .tc) → Buf (Elt F) ((c : Thread nD τ).loc b) := fun c b => W14 m c b
theorem hF7 (c : Dev nD) (w : Fin cfg7.W) : (dat7 (VT13 m) c).arrAt w cfg7.N = VT14 m c (Pipeline.arrRef spec7 w) :=
  (W14_arr m c w).symm
theorem hrest7 (c : Dev nD) : ∀ b, b ∉ Finset.univ.image (Pipeline.arrRef spec7) → VT14 m c b = VT13 m c b :=
  fun b hb => W14_of_ne m c b fun w e => hb (Finset.mem_image.mpr ⟨w, Finset.mem_univ _, e⟩)
/-- A buffer that is not one of the region's outputs is as before it: an input's array is never written back. -/
theorem W14_keep (c : Dev nD) (r : Ref sig .tc) (h : r ∉ ([main_v106_0, main_v106_1, main_v106_2] : List (Ref sig .tc))) :
    W14 m c (Proc.devRef .tc r) = W13 m c (Proc.devRef .tc r) := by
  by_cases h0 : Pipeline.arrRef spec7 0 = r
  · subst h0; exact (W14_arr m c 0).trans (((dat7 (VT13 m) c).arrAt_in 0 rfl _).trans (A_eq7 (VT13 m) c 0))
  by_cases h1 : Pipeline.arrRef spec7 1 = r
  · subst h1; exact (W14_arr m c 1).trans (((dat7 (VT13 m) c).arrAt_in 1 rfl _).trans (A_eq7 (VT13 m) c 1))
  by_cases h2 : Pipeline.arrRef spec7 2 = r
  · subst h2; exact absurd (show Pipeline.arrRef spec7 2 ∈ ([main_v106_0, main_v106_1, main_v106_2] : List (Ref sig .tc)) by decide) h
  by_cases h3 : Pipeline.arrRef spec7 3 = r
  · subst h3; exact absurd (show Pipeline.arrRef spec7 3 ∈ ([main_v106_0, main_v106_1, main_v106_2] : List (Ref sig .tc)) by decide) h
  by_cases h4 : Pipeline.arrRef spec7 4 = r
  · subst h4; exact absurd (show Pipeline.arrRef spec7 4 ∈ ([main_v106_0, main_v106_1, main_v106_2] : List (Ref sig .tc)) by decide) h
  exact W14_of_ne m c r (fun | 0 => h0 | 1 => h1 | 2 => h2 | 3 => h3 | 4 => h4 | ⟨_ + 5, h'⟩ => absurd h' (Nat.not_lt.2 (Nat.le_add_left _ _)))

/-- After the host stretch hostOps8: its operations folded over the contents before it. -/
abbrev W15 : Dev nD → Valuation τ sig (Elt F) := fun c => StableHlo.after hostOps8 (W14 m c)
abbrev VT15 : (c : Dev nD) → (b : Ref sig .tc) → Buf (Elt F) ((c : Thread nD τ).loc b) := fun c b => W15 m c b
/-- A buffer the stretch does not write is as before it. -/
theorem W15_keep (c : Dev nD) (r : Ref sig .tc) (h : r ∉ hostOps8_W) : W15 m c r = W14 m c r :=
  StableHlo.after_of_writes_sub hostOps8 _ hostOps8_writes h

/-- At region 8's exit: its arrays at what the pipeline leaves (an input as entered, an output with its
    write-backs folded), every other buffer as entered. -/
def W16 (c : Dev nD) : Valuation τ sig (Elt F) :=
  Pipeline.withArrays spec8 c (W15 m c) fun w => (dat8 (VT15 m) c).arrAt w cfg8.N
theorem W16_arr (c : Dev nD) (w : Fin cfg8.W) :
    W16 m c (Proc.devRef .tc (Pipeline.arrRef spec8 w)) = (dat8 (VT15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev VT16 : (c : Dev nD) → (b : Ref sig .tc) → Buf (Elt F) ((c : Thread nD τ).loc b) := fun c b => W16 m c b
theorem hF8 (c : Dev nD) (w : Fin cfg8.W) : (dat8 (VT15 m) c).arrAt w cfg8.N = VT16 m c (Pipeline.arrRef spec8 w) :=
  (W16_arr m c w).symm
theorem hrest8 (c : Dev nD) : ∀ b, b ∉ Finset.univ.image (Pipeline.arrRef spec8) → VT16 m c b = VT15 m c b :=
  fun b hb => W16_of_ne m c b fun w e => hb (Finset.mem_image.mpr ⟨w, Finset.mem_univ _, e⟩)
/-- A buffer that is not one of the region's outputs is as before it: an input's array is never written back. -/
theorem W16_keep (c : Dev nD) (r : Ref sig .tc) (h : r ∉ ([main_v118] : List (Ref sig .tc))) :
    W16 m c (Proc.devRef .tc r) = W15 m c (Proc.devRef .tc r) := by
  by_cases h0 : Pipeline.arrRef spec8 0 = r
  · subst h0; exact (W16_arr m c 0).trans (((dat8 (VT15 m) c).arrAt_in 0 rfl _).trans (A_eq8 (VT15 m) c 0))
  by_cases h1 : Pipeline.arrRef spec8 1 = r
  · subst h1; exact (W16_arr m c 1).trans (((dat8 (VT15 m) c).arrAt_in 1 rfl _).trans (A_eq8 (VT15 m) c 1))
  by_cases h2 : Pipeline.arrRef spec8 2 = r
  · subst h2; exact (W16_arr m c 2).trans (((dat8 (VT15 m) c).arrAt_in 2 rfl _).trans (A_eq8 (VT15 m) c 2))
  by_cases h3 : Pipeline.arrRef spec8 3 = r
  · subst h3; exact (W16_arr m c 3).trans (((dat8 (VT15 m) c).arrAt_in 3 rfl _).trans (A_eq8 (VT15 m) c 3))
  by_cases h4 : Pipeline.arrRef spec8 4 = r
  · subst h4; exact (W16_arr m c 4).trans (((dat8 (VT15 m) c).arrAt_in 4 rfl _).trans (A_eq8 (VT15 m) c 4))
  by_cases h5 : Pipeline.arrRef spec8 5 = r
  · subst h5; exact absurd (show Pipeline.arrRef spec8 5 ∈ ([main_v118] : List (Ref sig .tc)) by decide) h
  exact W16_of_ne m c r (fun | 0 => h0 | 1 => h1 | 2 => h2 | 3 => h3 | 4 => h4 | 5 => h5 | ⟨_ + 6, h'⟩ => absurd h' (Nat.not_lt.2 (Nat.le_add_left _ _)))

/-- At region 9's exit: its arrays at what the pipeline leaves (an input as entered, an output with its
    write-backs folded), every other buffer as entered. -/
def W17 (c : Dev nD) : Valuation τ sig (Elt F) :=
  Pipeline.withArrays spec9 c (W16 m c) fun w => (dat9 (VT16 m) c).arrAt w cfg9.N
theorem W17_arr (c : Dev nD) (w : Fin cfg9.W) :
    W17 m c (Proc.devRef .tc (Pipeline.arrRef spec9 w)) = (dat9 (VT16 m) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m c (Proc.devRef .tc b) = W16 m c (Proc.devRef .tc b) := by
  unfold W17; exact Pipeline.withArrays_of_ne spec9 c _ _ b hb
abbrev VT17 : (c : Dev nD) → (b : Ref sig .tc) → Buf (Elt F) ((c : Thread nD τ).loc b) := fun c b => W17 m c b
theorem hF9 (c : Dev nD) (w : Fin cfg9.W) : (dat9 (VT16 m) c).arrAt w cfg9.N = VT17 m c (Pipeline.arrRef spec9 w) :=
  (W17_arr m c w).symm
theorem hrest9 (c : Dev nD) : ∀ b, b ∉ Finset.univ.image (Pipeline.arrRef spec9) → VT17 m c b = VT16 m c b :=
  fun b hb => W17_of_ne m c b fun w e => hb (Finset.mem_image.mpr ⟨w, Finset.mem_univ _, e⟩)
/-- A buffer that is not one of the region's outputs is as before it: an input's array is never written back. -/
theorem W17_keep (c : Dev nD) (r : Ref sig .tc) (h : r ∉ ([main_v119] : List (Ref sig .tc))) :
    W17 m c (Proc.devRef .tc r) = W16 m c (Proc.devRef .tc r) := by
  by_cases h0 : Pipeline.arrRef spec9 0 = r
  · subst h0; exact (W17_arr m c 0).trans (((dat9 (VT16 m) c).arrAt_in 0 rfl _).trans (A_eq9 (VT16 m) c 0))
  by_cases h1 : Pipeline.arrRef spec9 1 = r
  · subst h1; exact (W17_arr m c 1).trans (((dat9 (VT16 m) c).arrAt_in 1 rfl _).trans (A_eq9 (VT16 m) c 1))
  by_cases h2 : Pipeline.arrRef spec9 2 = r
  · subst h2; exact absurd (show Pipeline.arrRef spec9 2 ∈ ([main_v119] : List (Ref sig .tc)) by decide) h
  exact W17_of_ne m c r (fun | 0 => h0 | 1 => h1 | 2 => h2 | ⟨_ + 3, h'⟩ => absurd h' (Nat.not_lt.2 (Nat.le_add_left _ _)))

/-- After the host stretch hostOps10: its operations folded over the contents before it. -/
abbrev W18 : Dev nD → Valuation τ sig (Elt F) := fun c => StableHlo.after hostOps10 (W17 m c)
abbrev VT18 : (c : Dev nD) → (b : Ref sig .tc) → Buf (Elt F) ((c : Thread nD τ).loc b) := fun c b => W18 m c b
/-- A buffer the stretch does not write is as before it. -/
theorem W18_keep (c : Dev nD) (r : Ref sig .tc) (h : r ∉ hostOps10_W) : W18 m c r = W17 m c r :=
  StableHlo.after_of_writes_sub hostOps10 _ hostOps10_writes h

/-- At region 10's exit: its arrays at what the pipeline leaves (an input as entered, an output with its
    write-backs folded), every other buffer as entered. -/
def W19 (c : Dev nD) : Valuation τ sig (Elt F) :=
  Pipeline.withArrays spec10 c (W18 m c) fun w => (dat10 (VT18 m) c).arrAt w cfg10.N
theorem W19_arr (c : Dev nD) (w : Fin cfg10.W) :
    W19 m c (Proc.devRef .tc (Pipeline.arrRef spec10 w)) = (dat10 (VT18 m) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m c (Proc.devRef .tc b) = W18 m c (Proc.devRef .tc b) := by
  unfold W19; exact Pipeline.withArrays_of_ne spec10 c _ _ b hb
abbrev VT19 : (c : Dev nD) → (b : Ref sig .tc) → Buf (Elt F) ((c : Thread nD τ).loc b) := fun c b => W19 m c b
theorem hF10 (c : Dev nD) (w : Fin cfg10.W) : (dat10 (VT18 m) c).arrAt w cfg10.N = VT19 m c (Pipeline.arrRef spec10 w) :=
  (W19_arr m c w).symm
theorem hrest10 (c : Dev nD) : ∀ b, b ∉ Finset.univ.image (Pipeline.arrRef spec10) → VT19 m c b = VT18 m c b :=
  fun b hb => W19_of_ne m c b fun w e => hb (Finset.mem_image.mpr ⟨w, Finset.mem_univ _, e⟩)
/-- A buffer that is not one of the region's outputs is as before it: an input's array is never written back. -/
theorem W19_keep (c : Dev nD) (r : Ref sig .tc) (h : r ∉ ([main_v136_0, main_v136_1, main_v136_2] : List (Ref sig .tc))) :
    W19 m c (Proc.devRef .tc r) = W18 m c (Proc.devRef .tc r) := by
  by_cases h0 : Pipeline.arrRef spec10 0 = r
  · subst h0; exact (W19_arr m c 0).trans (((dat10 (VT18 m) c).arrAt_in 0 rfl _).trans (A_eq10 (VT18 m) c 0))
  by_cases h1 : Pipeline.arrRef spec10 1 = r
  · subst h1; exact (W19_arr m c 1).trans (((dat10 (VT18 m) c).arrAt_in 1 rfl _).trans (A_eq10 (VT18 m) c 1))
  by_cases h2 : Pipeline.arrRef spec10 2 = r
  · subst h2; exact absurd (show Pipeline.arrRef spec10 2 ∈ ([main_v136_0, main_v136_1, main_v136_2] : List (Ref sig .tc)) by decide) h
  by_cases h3 : Pipeline.arrRef spec10 3 = r
  · subst h3; exact absurd (show Pipeline.arrRef spec10 3 ∈ ([main_v136_0, main_v136_1, main_v136_2] : List (Ref sig .tc)) by decide) h
  by_cases h4 : Pipeline.arrRef spec10 4 = r
  · subst h4; exact absurd (show Pipeline.arrRef spec10 4 ∈ ([main_v136_0, main_v136_1, main_v136_2] : List (Ref sig .tc)) by decide) h
  exact W19_of_ne m c r (fun | 0 => h0 | 1 => h1 | 2 => h2 | 3 => h3 | 4 => h4 | ⟨_ + 5, h'⟩ => absurd h' (Nat.not_lt.2 (Nat.le_add_left _ _)))

/-- After the host stretch hostOps11: its operations folded over the contents before it. -/
abbrev W20 : Dev nD → Valuation τ sig (Elt F) := fun c => StableHlo.after hostOps11 (W19 m c)
abbrev VT20 : (c : Dev nD) → (b : Ref sig .tc) → Buf (Elt F) ((c : Thread nD τ).loc b) := fun c b => W20 m c b
/-- A buffer the stretch does not write is as before it. -/
theorem W20_keep (c : Dev nD) (r : Ref sig .tc) (h : r ∉ hostOps11_W) : W20 m c r = W19 m c r :=
  StableHlo.after_of_writes_sub hostOps11 _ hostOps11_writes h

/-- At region 11's exit: its arrays at what the pipeline leaves (an input as entered, an output with its
    write-backs folded), every other buffer as entered. -/
def W21 (c : Dev nD) : Valuation τ sig (Elt F) :=
  Pipeline.withArrays spec11 c (W20 m c) fun w => (dat11 (VT20 m) c).arrAt w cfg11.N
theorem W21_arr (c : Dev nD) (w : Fin cfg11.W) :
    W21 m c (Proc.devRef .tc (Pipeline.arrRef spec11 w)) = (dat11 (VT20 m) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m c (Proc.devRef .tc b) = W20 m c (Proc.devRef .tc b) := by
  unfold W21; exact Pipeline.withArrays_of_ne spec11 c _ _ b hb
abbrev VT21 : (c : Dev nD) → (b : Ref sig .tc) → Buf (Elt F) ((c : Thread nD τ).loc b) := fun c b => W21 m c b
theorem hF11 (c : Dev nD) (w : Fin cfg11.W) : (dat11 (VT20 m) c).arrAt w cfg11.N = VT21 m c (Pipeline.arrRef spec11 w) :=
  (W21_arr m c w).symm
theorem hrest11 (c : Dev nD) : ∀ b, b ∉ Finset.univ.image (Pipeline.arrRef spec11) → VT21 m c b = VT20 m c b :=
  fun b hb => W21_of_ne m c b fun w e => hb (Finset.mem_image.mpr ⟨w, Finset.mem_univ _, e⟩)
/-- A buffer that is not one of the region's outputs is as before it: an input's array is never written back. -/
theorem W21_keep (c : Dev nD) (r : Ref sig .tc) (h : r ∉ ([main_v148] : List (Ref sig .tc))) :
    W21 m c (Proc.devRef .tc r) = W20 m c (Proc.devRef .tc r) := by
  by_cases h0 : Pipeline.arrRef spec11 0 = r
  · subst h0; exact (W21_arr m c 0).trans (((dat11 (VT20 m) c).arrAt_in 0 rfl _).trans (A_eq11 (VT20 m) c 0))
  by_cases h1 : Pipeline.arrRef spec11 1 = r
  · subst h1; exact (W21_arr m c 1).trans (((dat11 (VT20 m) c).arrAt_in 1 rfl _).trans (A_eq11 (VT20 m) c 1))
  by_cases h2 : Pipeline.arrRef spec11 2 = r
  · subst h2; exact (W21_arr m c 2).trans (((dat11 (VT20 m) c).arrAt_in 2 rfl _).trans (A_eq11 (VT20 m) c 2))
  by_cases h3 : Pipeline.arrRef spec11 3 = r
  · subst h3; exact (W21_arr m c 3).trans (((dat11 (VT20 m) c).arrAt_in 3 rfl _).trans (A_eq11 (VT20 m) c 3))
  by_cases h4 : Pipeline.arrRef spec11 4 = r
  · subst h4; exact (W21_arr m c 4).trans (((dat11 (VT20 m) c).arrAt_in 4 rfl _).trans (A_eq11 (VT20 m) c 4))
  by_cases h5 : Pipeline.arrRef spec11 5 = r
  · subst h5; exact absurd (show Pipeline.arrRef spec11 5 ∈ ([main_v148] : List (Ref sig .tc)) by decide) h
  exact W21_of_ne m c r (fun | 0 => h0 | 1 => h1 | 2 => h2 | 3 => h3 | 4 => h4 | 5 => h5 | ⟨_ + 6, h'⟩ => absurd h' (Nat.not_lt.2 (Nat.le_add_left _ _)))

/-- After the host stretch hostOps12: its operations folded over the contents before it. -/
abbrev W22 : Dev nD → Valuation τ sig (Elt F) := fun c => StableHlo.after hostOps12 (W21 m c)
abbrev VT22 : (c : Dev nD) → (b : Ref sig .tc) → Buf (Elt F) ((c : Thread nD τ).loc b) := fun c b => W22 m c b
/-- A buffer the stretch does not write is as before it. -/
theorem W22_keep (c : Dev nD) (r : Ref sig .tc) (h : r ∉ hostOps12_W) : W22 m c r = W21 m c r :=
  StableHlo.after_of_writes_sub hostOps12 _ hostOps12_writes h

/-- At region 12's exit: its arrays at what the pipeline leaves (an input as entered, an output with its
    write-backs folded), every other buffer as entered. -/
def W23 (c : Dev nD) : Valuation τ sig (Elt F) :=
  Pipeline.withArrays spec12 c (W22 m c) fun w => (dat12 (VT22 m) c).arrAt w cfg12.N
theorem W23_arr (c : Dev nD) (w : Fin cfg12.W) :
    W23 m c (Proc.devRef .tc (Pipeline.arrRef spec12 w)) = (dat12 (VT22 m) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m c (Proc.devRef .tc b) = W22 m c (Proc.devRef .tc b) := by
  unfold W23; exact Pipeline.withArrays_of_ne spec12 c _ _ b hb
abbrev VT23 : (c : Dev nD) → (b : Ref sig .tc) → Buf (Elt F) ((c : Thread nD τ).loc b) := fun c b => W23 m c b
theorem hF12 (c : Dev nD) (w : Fin cfg12.W) : (dat12 (VT22 m) c).arrAt w cfg12.N = VT23 m c (Pipeline.arrRef spec12 w) :=
  (W23_arr m c w).symm
theorem hrest12 (c : Dev nD) : ∀ b, b ∉ Finset.univ.image (Pipeline.arrRef spec12) → VT23 m c b = VT22 m c b :=
  fun b hb => W23_of_ne m c b fun w e => hb (Finset.mem_image.mpr ⟨w, Finset.mem_univ _, e⟩)
/-- A buffer that is not one of the region's outputs is as before it: an input's array is never written back. -/
theorem W23_keep (c : Dev nD) (r : Ref sig .tc) (h : r ∉ ([main_v162] : List (Ref sig .tc))) :
    W23 m c (Proc.devRef .tc r) = W22 m c (Proc.devRef .tc r) := by
  by_cases h0 : Pipeline.arrRef spec12 0 = r
  · subst h0; exact (W23_arr m c 0).trans (((dat12 (VT22 m) c).arrAt_in 0 rfl _).trans (A_eq12 (VT22 m) c 0))
  by_cases h1 : Pipeline.arrRef spec12 1 = r
  · subst h1; exact (W23_arr m c 1).trans (((dat12 (VT22 m) c).arrAt_in 1 rfl _).trans (A_eq12 (VT22 m) c 1))
  by_cases h2 : Pipeline.arrRef spec12 2 = r
  · subst h2; exact (W23_arr m c 2).trans (((dat12 (VT22 m) c).arrAt_in 2 rfl _).trans (A_eq12 (VT22 m) c 2))
  by_cases h3 : Pipeline.arrRef spec12 3 = r
  · subst h3; exact absurd (show Pipeline.arrRef spec12 3 ∈ ([main_v162] : List (Ref sig .tc)) by decide) h
  exact W23_of_ne m c r (fun | 0 => h0 | 1 => h1 | 2 => h2 | 3 => h3 | ⟨_ + 4, h'⟩ => absurd h' (Nat.not_lt.2 (Nat.le_add_left _ _)))

/-! ## The arguments end as launched: no host operation writes one, and a region reads one only through an input window -/

theorem W23_main_arg0 (c : Dev nD) : W23 m c (Proc.devRef .tc main_arg0) = m ((c : Thread nD τ).loc main_arg0) :=
  (W23_keep m c main_arg0 (by decide)).trans <|
  (W22_keep m c main_arg0 (by decide)).trans <|
  (W21_keep m c main_arg0 (by decide)).trans <|
  (W20_keep m c main_arg0 (by decide)).trans <|
  (W19_keep m c main_arg0 (by decide)).trans <|
  (W18_keep m c main_arg0 (by decide)).trans <|
  (W17_keep m c main_arg0 (by decide)).trans <|
  (W16_keep m c main_arg0 (by decide)).trans <|
  (W15_keep m c main_arg0 (by decide)).trans <|
  (W14_keep m c main_arg0 (by decide)).trans <|
  (W13_keep m c main_arg0 (by decide)).trans <|
  (W12_keep m c main_arg0 (by decide)).trans <|
  (W11_keep m c main_arg0 (by decide)).trans <|
  (W10_keep m c main_arg0 (by decide)).trans <|
  (W9_keep m c main_arg0 (by decide)).trans <|
  (W8_keep m c main_arg0 (by decide)).trans <|
  (W7_keep m c main_arg0 (by decide)).trans <|
  (W6_keep m c main_arg0 (by decide)).trans <|
  (W5_keep m c main_arg0 (by decide)).trans <|
  (W4_keep m c main_arg0 (by decide)).trans <|
  (W3_keep m c main_arg0 (by decide)).trans <|
  (W2_keep m c main_arg0 (by decide)).trans <|
  (W1_keep m c main_arg0 (by decide)).trans rfl
theorem W23_main_arg1 (c : Dev nD) : W23 m c (Proc.devRef .tc main_arg1) = m ((c : Thread nD τ).loc main_arg1) :=
  (W23_keep m c main_arg1 (by decide)).trans <|
  (W22_keep m c main_arg1 (by decide)).trans <|
  (W21_keep m c main_arg1 (by decide)).trans <|
  (W20_keep m c main_arg1 (by decide)).trans <|
  (W19_keep m c main_arg1 (by decide)).trans <|
  (W18_keep m c main_arg1 (by decide)).trans <|
  (W17_keep m c main_arg1 (by decide)).trans <|
  (W16_keep m c main_arg1 (by decide)).trans <|
  (W15_keep m c main_arg1 (by decide)).trans <|
  (W14_keep m c main_arg1 (by decide)).trans <|
  (W13_keep m c main_arg1 (by decide)).trans <|
  (W12_keep m c main_arg1 (by decide)).trans <|
  (W11_keep m c main_arg1 (by decide)).trans <|
  (W10_keep m c main_arg1 (by decide)).trans <|
  (W9_keep m c main_arg1 (by decide)).trans <|
  (W8_keep m c main_arg1 (by decide)).trans <|
  (W7_keep m c main_arg1 (by decide)).trans <|
  (W6_keep m c main_arg1 (by decide)).trans <|
  (W5_keep m c main_arg1 (by decide)).trans <|
  (W4_keep m c main_arg1 (by decide)).trans <|
  (W3_keep m c main_arg1 (by decide)).trans <|
  (W2_keep m c main_arg1 (by decide)).trans <|
  (W1_keep m c main_arg1 (by decide)).trans rfl
theorem W23_main_arg2 (c : Dev nD) : W23 m c (Proc.devRef .tc main_arg2) = m ((c : Thread nD τ).loc main_arg2) :=
  (W23_keep m c main_arg2 (by decide)).trans <|
  (W22_keep m c main_arg2 (by decide)).trans <|
  (W21_keep m c main_arg2 (by decide)).trans <|
  (W20_keep m c main_arg2 (by decide)).trans <|
  (W19_keep m c main_arg2 (by decide)).trans <|
  (W18_keep m c main_arg2 (by decide)).trans <|
  (W17_keep m c main_arg2 (by decide)).trans <|
  (W16_keep m c main_arg2 (by decide)).trans <|
  (W15_keep m c main_arg2 (by decide)).trans <|
  (W14_keep m c main_arg2 (by decide)).trans <|
  (W13_keep m c main_arg2 (by decide)).trans <|
  (W12_keep m c main_arg2 (by decide)).trans <|
  (W11_keep m c main_arg2 (by decide)).trans <|
  (W10_keep m c main_arg2 (by decide)).trans <|
  (W9_keep m c main_arg2 (by decide)).trans <|
  (W8_keep m c main_arg2 (by decide)).trans <|
  (W7_keep m c main_arg2 (by decide)).trans <|
  (W6_keep m c main_arg2 (by decide)).trans <|
  (W5_keep m c main_arg2 (by decide)).trans <|
  (W4_keep m c main_arg2 (by decide)).trans <|
  (W3_keep m c main_arg2 (by decide)).trans <|
  (W2_keep m c main_arg2 (by decide)).trans <|
  (W1_keep m c main_arg2 (by decide)).trans rfl
theorem W23_main_arg3 (c : Dev nD) : W23 m c (Proc.devRef .tc main_arg3) = m ((c : Thread nD τ).loc main_arg3) :=
  (W23_keep m c main_arg3 (by decide)).trans <|
  (W22_keep m c main_arg3 (by decide)).trans <|
  (W21_keep m c main_arg3 (by decide)).trans <|
  (W20_keep m c main_arg3 (by decide)).trans <|
  (W19_keep m c main_arg3 (by decide)).trans <|
  (W18_keep m c main_arg3 (by decide)).trans <|
  (W17_keep m c main_arg3 (by decide)).trans <|
  (W16_keep m c main_arg3 (by decide)).trans <|
  (W15_keep m c main_arg3 (by decide)).trans <|
  (W14_keep m c main_arg3 (by decide)).trans <|
  (W13_keep m c main_arg3 (by decide)).trans <|
  (W12_keep m c main_arg3 (by decide)).trans <|
  (W11_keep m c main_arg3 (by decide)).trans <|
  (W10_keep m c main_arg3 (by decide)).trans <|
  (W9_keep m c main_arg3 (by decide)).trans <|
  (W8_keep m c main_arg3 (by decide)).trans <|
  (W7_keep m c main_arg3 (by decide)).trans <|
  (W6_keep m c main_arg3 (by decide)).trans <|
  (W5_keep m c main_arg3 (by decide)).trans <|
  (W4_keep m c main_arg3 (by decide)).trans <|
  (W3_keep m c main_arg3 (by decide)).trans <|
  (W2_keep m c main_arg3 (by decide)).trans <|
  (W1_keep m c main_arg3 (by decide)).trans rfl
theorem W23_main_arg4 (c : Dev nD) : W23 m c (Proc.devRef .tc main_arg4) = m ((c : Thread nD τ).loc main_arg4) :=
  (W23_keep m c main_arg4 (by decide)).trans <|
  (W22_keep m c main_arg4 (by decide)).trans <|
  (W21_keep m c main_arg4 (by decide)).trans <|
  (W20_keep m c main_arg4 (by decide)).trans <|
  (W19_keep m c main_arg4 (by decide)).trans <|
  (W18_keep m c main_arg4 (by decide)).trans <|
  (W17_keep m c main_arg4 (by decide)).trans <|
  (W16_keep m c main_arg4 (by decide)).trans <|
  (W15_keep m c main_arg4 (by decide)).trans <|
  (W14_keep m c main_arg4 (by decide)).trans <|
  (W13_keep m c main_arg4 (by decide)).trans <|
  (W12_keep m c main_arg4 (by decide)).trans <|
  (W11_keep m c main_arg4 (by decide)).trans <|
  (W10_keep m c main_arg4 (by decide)).trans <|
  (W9_keep m c main_arg4 (by decide)).trans <|
  (W8_keep m c main_arg4 (by decide)).trans <|
  (W7_keep m c main_arg4 (by decide)).trans <|
  (W6_keep m c main_arg4 (by decide)).trans <|
  (W5_keep m c main_arg4 (by decide)).trans <|
  (W4_keep m c main_arg4 (by decide)).trans <|
  (W3_keep m c main_arg4 (by decide)).trans <|
  (W2_keep m c main_arg4 (by decide)).trans <|
  (W1_keep m c main_arg4 (by decide)).trans rfl
theorem W23_main_arg5 (c : Dev nD) : W23 m c (Proc.devRef .tc main_arg5) = m ((c : Thread nD τ).loc main_arg5) :=
  (W23_keep m c main_arg5 (by decide)).trans <|
  (W22_keep m c main_arg5 (by decide)).trans <|
  (W21_keep m c main_arg5 (by decide)).trans <|
  (W20_keep m c main_arg5 (by decide)).trans <|
  (W19_keep m c main_arg5 (by decide)).trans <|
  (W18_keep m c main_arg5 (by decide)).trans <|
  (W17_keep m c main_arg5 (by decide)).trans <|
  (W16_keep m c main_arg5 (by decide)).trans <|
  (W15_keep m c main_arg5 (by decide)).trans <|
  (W14_keep m c main_arg5 (by decide)).trans <|
  (W13_keep m c main_arg5 (by decide)).trans <|
  (W12_keep m c main_arg5 (by decide)).trans <|
  (W11_keep m c main_arg5 (by decide)).trans <|
  (W10_keep m c main_arg5 (by decide)).trans <|
  (W9_keep m c main_arg5 (by decide)).trans <|
  (W8_keep m c main_arg5 (by decide)).trans <|
  (W7_keep m c main_arg5 (by decide)).trans <|
  (W6_keep m c main_arg5 (by decide)).trans <|
  (W5_keep m c main_arg5 (by decide)).trans <|
  (W4_keep m c main_arg5 (by decide)).trans <|
  (W3_keep m c main_arg5 (by decide)).trans <|
  (W2_keep m c main_arg5 (by decide)).trans <|
  (W1_keep m c main_arg5 (by decide)).trans rfl
theorem W23_main_arg6 (c : Dev nD) : W23 m c (Proc.devRef .tc main_arg6) = m ((c : Thread nD τ).loc main_arg6) :=
  (W23_keep m c main_arg6 (by decide)).trans <|
  (W22_keep m c main_arg6 (by decide)).trans <|
  (W21_keep m c main_arg6 (by decide)).trans <|
  (W20_keep m c main_arg6 (by decide)).trans <|
  (W19_keep m c main_arg6 (by decide)).trans <|
  (W18_keep m c main_arg6 (by decide)).trans <|
  (W17_keep m c main_arg6 (by decide)).trans <|
  (W16_keep m c main_arg6 (by decide)).trans <|
  (W15_keep m c main_arg6 (by decide)).trans <|
  (W14_keep m c main_arg6 (by decide)).trans <|
  (W13_keep m c main_arg6 (by decide)).trans <|
  (W12_keep m c main_arg6 (by decide)).trans <|
  (W11_keep m c main_arg6 (by decide)).trans <|
  (W10_keep m c main_arg6 (by decide)).trans <|
  (W9_keep m c main_arg6 (by decide)).trans <|
  (W8_keep m c main_arg6 (by decide)).trans <|
  (W7_keep m c main_arg6 (by decide)).trans <|
  (W6_keep m c main_arg6 (by decide)).trans <|
  (W5_keep m c main_arg6 (by decide)).trans <|
  (W4_keep m c main_arg6 (by decide)).trans <|
  (W3_keep m c main_arg6 (by decide)).trans <|
  (W2_keep m c main_arg6 (by decide)).trans <|
  (W1_keep m c main_arg6 (by decide)).trans rfl
theorem W23_main_arg7 (c : Dev nD) : W23 m c (Proc.devRef .tc main_arg7) = m ((c : Thread nD τ).loc main_arg7) :=
  (W23_keep m c main_arg7 (by decide)).trans <|
  (W22_keep m c main_arg7 (by decide)).trans <|
  (W21_keep m c main_arg7 (by decide)).trans <|
  (W20_keep m c main_arg7 (by decide)).trans <|
  (W19_keep m c main_arg7 (by decide)).trans <|
  (W18_keep m c main_arg7 (by decide)).trans <|
  (W17_keep m c main_arg7 (by decide)).trans <|
  (W16_keep m c main_arg7 (by decide)).trans <|
  (W15_keep m c main_arg7 (by decide)).trans <|
  (W14_keep m c main_arg7 (by decide)).trans <|
  (W13_keep m c main_arg7 (by decide)).trans <|
  (W12_keep m c main_arg7 (by decide)).trans <|
  (W11_keep m c main_arg7 (by decide)).trans <|
  (W10_keep m c main_arg7 (by decide)).trans <|
  (W9_keep m c main_arg7 (by decide)).trans <|
  (W8_keep m c main_arg7 (by decide)).trans <|
  (W7_keep m c main_arg7 (by decide)).trans <|
  (W6_keep m c main_arg7 (by decide)).trans <|
  (W5_keep m c main_arg7 (by decide)).trans <|
  (W4_keep m c main_arg7 (by decide)).trans <|
  (W3_keep m c main_arg7 (by decide)).trans <|
  (W2_keep m c main_arg7 (by decide)).trans <|
  (W1_keep m c main_arg7 (by decide)).trans rfl
theorem W23_main_arg8 (c : Dev nD) : W23 m c (Proc.devRef .tc main_arg8) = m ((c : Thread nD τ).loc main_arg8) :=
  (W23_keep m c main_arg8 (by decide)).trans <|
  (W22_keep m c main_arg8 (by decide)).trans <|
  (W21_keep m c main_arg8 (by decide)).trans <|
  (W20_keep m c main_arg8 (by decide)).trans <|
  (W19_keep m c main_arg8 (by decide)).trans <|
  (W18_keep m c main_arg8 (by decide)).trans <|
  (W17_keep m c main_arg8 (by decide)).trans <|
  (W16_keep m c main_arg8 (by decide)).trans <|
  (W15_keep m c main_arg8 (by decide)).trans <|
  (W14_keep m c main_arg8 (by decide)).trans <|
  (W13_keep m c main_arg8 (by decide)).trans <|
  (W12_keep m c main_arg8 (by decide)).trans <|
  (W11_keep m c main_arg8 (by decide)).trans <|
  (W10_keep m c main_arg8 (by decide)).trans <|
  (W9_keep m c main_arg8 (by decide)).trans <|
  (W8_keep m c main_arg8 (by decide)).trans <|
  (W7_keep m c main_arg8 (by decide)).trans <|
  (W6_keep m c main_arg8 (by decide)).trans <|
  (W5_keep m c main_arg8 (by decide)).trans <|
  (W4_keep m c main_arg8 (by decide)).trans <|
  (W3_keep m c main_arg8 (by decide)).trans <|
  (W2_keep m c main_arg8 (by decide)).trans <|
  (W1_keep m c main_arg8 (by decide)).trans rfl
theorem W23_main_arg9 (c : Dev nD) : W23 m c (Proc.devRef .tc main_arg9) = m ((c : Thread nD τ).loc main_arg9) :=
  (W23_keep m c main_arg9 (by decide)).trans <|
  (W22_keep m c main_arg9 (by decide)).trans <|
  (W21_keep m c main_arg9 (by decide)).trans <|
  (W20_keep m c main_arg9 (by decide)).trans <|
  (W19_keep m c main_arg9 (by decide)).trans <|
  (W18_keep m c main_arg9 (by decide)).trans <|
  (W17_keep m c main_arg9 (by decide)).trans <|
  (W16_keep m c main_arg9 (by decide)).trans <|
  (W15_keep m c main_arg9 (by decide)).trans <|
  (W14_keep m c main_arg9 (by decide)).trans <|
  (W13_keep m c main_arg9 (by decide)).trans <|
  (W12_keep m c main_arg9 (by decide)).trans <|
  (W11_keep m c main_arg9 (by decide)).trans <|
  (W10_keep m c main_arg9 (by decide)).trans <|
  (W9_keep m c main_arg9 (by decide)).trans <|
  (W8_keep m c main_arg9 (by decide)).trans <|
  (W7_keep m c main_arg9 (by decide)).trans <|
  (W6_keep m c main_arg9 (by decide)).trans <|
  (W5_keep m c main_arg9 (by decide)).trans <|
  (W4_keep m c main_arg9 (by decide)).trans <|
  (W3_keep m c main_arg9 (by decide)).trans <|
  (W2_keep m c main_arg9 (by decide)).trans <|
  (W1_keep m c main_arg9 (by decide)).trans rfl
theorem W23_main_arg10 (c : Dev nD) : W23 m c (Proc.devRef .tc main_arg10) = m ((c : Thread nD τ).loc main_arg10) :=
  (W23_keep m c main_arg10 (by decide)).trans <|
  (W22_keep m c main_arg10 (by decide)).trans <|
  (W21_keep m c main_arg10 (by decide)).trans <|
  (W20_keep m c main_arg10 (by decide)).trans <|
  (W19_keep m c main_arg10 (by decide)).trans <|
  (W18_keep m c main_arg10 (by decide)).trans <|
  (W17_keep m c main_arg10 (by decide)).trans <|
  (W16_keep m c main_arg10 (by decide)).trans <|
  (W15_keep m c main_arg10 (by decide)).trans <|
  (W14_keep m c main_arg10 (by decide)).trans <|
  (W13_keep m c main_arg10 (by decide)).trans <|
  (W12_keep m c main_arg10 (by decide)).trans <|
  (W11_keep m c main_arg10 (by decide)).trans <|
  (W10_keep m c main_arg10 (by decide)).trans <|
  (W9_keep m c main_arg10 (by decide)).trans <|
  (W8_keep m c main_arg10 (by decide)).trans <|
  (W7_keep m c main_arg10 (by decide)).trans <|
  (W6_keep m c main_arg10 (by decide)).trans <|
  (W5_keep m c main_arg10 (by decide)).trans <|
  (W4_keep m c main_arg10 (by decide)).trans <|
  (W3_keep m c main_arg10 (by decide)).trans <|
  (W2_keep m c main_arg10 (by decide)).trans <|
  (W1_keep m c main_arg10 (by decide)).trans rfl
theorem W23_main_arg11 (c : Dev nD) : W23 m c (Proc.devRef .tc main_arg11) = m ((c : Thread nD τ).loc main_arg11) :=
  (W23_keep m c main_arg11 (by decide)).trans <|
  (W22_keep m c main_arg11 (by decide)).trans <|
  (W21_keep m c main_arg11 (by decide)).trans <|
  (W20_keep m c main_arg11 (by decide)).trans <|
  (W19_keep m c main_arg11 (by decide)).trans <|
  (W18_keep m c main_arg11 (by decide)).trans <|
  (W17_keep m c main_arg11 (by decide)).trans <|
  (W16_keep m c main_arg11 (by decide)).trans <|
  (W15_keep m c main_arg11 (by decide)).trans <|
  (W14_keep m c main_arg11 (by decide)).trans <|
  (W13_keep m c main_arg11 (by decide)).trans <|
  (W12_keep m c main_arg11 (by decide)).trans <|
  (W11_keep m c main_arg11 (by decide)).trans <|
  (W10_keep m c main_arg11 (by decide)).trans <|
  (W9_keep m c main_arg11 (by decide)).trans <|
  (W8_keep m c main_arg11 (by decide)).trans <|
  (W7_keep m c main_arg11 (by decide)).trans <|
  (W6_keep m c main_arg11 (by decide)).trans <|
  (W5_keep m c main_arg11 (by decide)).trans <|
  (W4_keep m c main_arg11 (by decide)).trans <|
  (W3_keep m c main_arg11 (by decide)).trans <|
  (W2_keep m c main_arg11 (by decide)).trans <|
  (W1_keep m c main_arg11 (by decide)).trans rfl
theorem W23_main_arg12 (c : Dev nD) : W23 m c (Proc.devRef .tc main_arg12) = m ((c : Thread nD τ).loc main_arg12) :=
  (W23_keep m c main_arg12 (by decide)).trans <|
  (W22_keep m c main_arg12 (by decide)).trans <|
  (W21_keep m c main_arg12 (by decide)).trans <|
  (W20_keep m c main_arg12 (by decide)).trans <|
  (W19_keep m c main_arg12 (by decide)).trans <|
  (W18_keep m c main_arg12 (by decide)).trans <|
  (W17_keep m c main_arg12 (by decide)).trans <|
  (W16_keep m c main_arg12 (by decide)).trans <|
  (W15_keep m c main_arg12 (by decide)).trans <|
  (W14_keep m c main_arg12 (by decide)).trans <|
  (W13_keep m c main_arg12 (by decide)).trans <|
  (W12_keep m c main_arg12 (by decide)).trans <|
  (W11_keep m c main_arg12 (by decide)).trans <|
  (W10_keep m c main_arg12 (by decide)).trans <|
  (W9_keep m c main_arg12 (by decide)).trans <|
  (W8_keep m c main_arg12 (by decide)).trans <|
  (W7_keep m c main_arg12 (by decide)).trans <|
  (W6_keep m c main_arg12 (by decide)).trans <|
  (W5_keep m c main_arg12 (by decide)).trans <|
  (W4_keep m c main_arg12 (by decide)).trans <|
  (W3_keep m c main_arg12 (by decide)).trans <|
  (W2_keep m c main_arg12 (by decide)).trans <|
  (W1_keep m c main_arg12 (by decide)).trans rfl
theorem W23_main_arg13 (c : Dev nD) : W23 m c (Proc.devRef .tc main_arg13) = m ((c : Thread nD τ).loc main_arg13) :=
  (W23_keep m c main_arg13 (by decide)).trans <|
  (W22_keep m c main_arg13 (by decide)).trans <|
  (W21_keep m c main_arg13 (by decide)).trans <|
  (W20_keep m c main_arg13 (by decide)).trans <|
  (W19_keep m c main_arg13 (by decide)).trans <|
  (W18_keep m c main_arg13 (by decide)).trans <|
  (W17_keep m c main_arg13 (by decide)).trans <|
  (W16_keep m c main_arg13 (by decide)).trans <|
  (W15_keep m c main_arg13 (by decide)).trans <|
  (W14_keep m c main_arg13 (by decide)).trans <|
  (W13_keep m c main_arg13 (by decide)).trans <|
  (W12_keep m c main_arg13 (by decide)).trans <|
  (W11_keep m c main_arg13 (by decide)).trans <|
  (W10_keep m c main_arg13 (by decide)).trans <|
  (W9_keep m c main_arg13 (by decide)).trans <|
  (W8_keep m c main_arg13 (by decide)).trans <|
  (W7_keep m c main_arg13 (by decide)).trans <|
  (W6_keep m c main_arg13 (by decide)).trans <|
  (W5_keep m c main_arg13 (by decide)).trans <|
  (W4_keep m c main_arg13 (by decide)).trans <|
  (W3_keep m c main_arg13 (by decide)).trans <|
  (W2_keep m c main_arg13 (by decide)).trans <|
  (W1_keep m c main_arg13 (by decide)).trans rfl
theorem W23_main_arg14 (c : Dev nD) : W23 m c (Proc.devRef .tc main_arg14) = m ((c : Thread nD τ).loc main_arg14) :=
  (W23_keep m c main_arg14 (by decide)).trans <|
  (W22_keep m c main_arg14 (by decide)).trans <|
  (W21_keep m c main_arg14 (by decide)).trans <|
  (W20_keep m c main_arg14 (by decide)).trans <|
  (W19_keep m c main_arg14 (by decide)).trans <|
  (W18_keep m c main_arg14 (by decide)).trans <|
  (W17_keep m c main_arg14 (by decide)).trans <|
  (W16_keep m c main_arg14 (by decide)).trans <|
  (W15_keep m c main_arg14 (by decide)).trans <|
  (W14_keep m c main_arg14 (by decide)).trans <|
  (W13_keep m c main_arg14 (by decide)).trans <|
  (W12_keep m c main_arg14 (by decide)).trans <|
  (W11_keep m c main_arg14 (by decide)).trans <|
  (W10_keep m c main_arg14 (by decide)).trans <|
  (W9_keep m c main_arg14 (by decide)).trans <|
  (W8_keep m c main_arg14 (by decide)).trans <|
  (W7_keep m c main_arg14 (by decide)).trans <|
  (W6_keep m c main_arg14 (by decide)).trans <|
  (W5_keep m c main_arg14 (by decide)).trans <|
  (W4_keep m c main_arg14 (by decide)).trans <|
  (W3_keep m c main_arg14 (by decide)).trans <|
  (W2_keep m c main_arg14 (by decide)).trans <|
  (W1_keep m c main_arg14 (by decide)).trans rfl
theorem W23_main_arg15 (c : Dev nD) : W23 m c (Proc.devRef .tc main_arg15) = m ((c : Thread nD τ).loc main_arg15) :=
  (W23_keep m c main_arg15 (by decide)).trans <|
  (W22_keep m c main_arg15 (by decide)).trans <|
  (W21_keep m c main_arg15 (by decide)).trans <|
  (W20_keep m c main_arg15 (by decide)).trans <|
  (W19_keep m c main_arg15 (by decide)).trans <|
  (W18_keep m c main_arg15 (by decide)).trans <|
  (W17_keep m c main_arg15 (by decide)).trans <|
  (W16_keep m c main_arg15 (by decide)).trans <|
  (W15_keep m c main_arg15 (by decide)).trans <|
  (W14_keep m c main_arg15 (by decide)).trans <|
  (W13_keep m c main_arg15 (by decide)).trans <|
  (W12_keep m c main_arg15 (by decide)).trans <|
  (W11_keep m c main_arg15 (by decide)).trans <|
  (W10_keep m c main_arg15 (by decide)).trans <|
  (W9_keep m c main_arg15 (by decide)).trans <|
  (W8_keep m c main_arg15 (by decide)).trans <|
  (W7_keep m c main_arg15 (by decide)).trans <|
  (W6_keep m c main_arg15 (by decide)).trans <|
  (W5_keep m c main_arg15 (by decide)).trans <|
  (W4_keep m c main_arg15 (by decide)).trans <|
  (W3_keep m c main_arg15 (by decide)).trans <|
  (W2_keep m c main_arg15 (by decide)).trans <|
  (W1_keep m c main_arg15 (by decide)).trans rfl
theorem W23_main_arg16 (c : Dev nD) : W23 m c (Proc.devRef .tc main_arg16) = m ((c : Thread nD τ).loc main_arg16) :=
  (W23_keep m c main_arg16 (by decide)).trans <|
  (W22_keep m c main_arg16 (by decide)).trans <|
  (W21_keep m c main_arg16 (by decide)).trans <|
  (W20_keep m c main_arg16 (by decide)).trans <|
  (W19_keep m c main_arg16 (by decide)).trans <|
  (W18_keep m c main_arg16 (by decide)).trans <|
  (W17_keep m c main_arg16 (by decide)).trans <|
  (W16_keep m c main_arg16 (by decide)).trans <|
  (W15_keep m c main_arg16 (by decide)).trans <|
  (W14_keep m c main_arg16 (by decide)).trans <|
  (W13_keep m c main_arg16 (by decide)).trans <|
  (W12_keep m c main_arg16 (by decide)).trans <|
  (W11_keep m c main_arg16 (by decide)).trans <|
  (W10_keep m c main_arg16 (by decide)).trans <|
  (W9_keep m c main_arg16 (by decide)).trans <|
  (W8_keep m c main_arg16 (by decide)).trans <|
  (W7_keep m c main_arg16 (by decide)).trans <|
  (W6_keep m c main_arg16 (by decide)).trans <|
  (W5_keep m c main_arg16 (by decide)).trans <|
  (W4_keep m c main_arg16 (by decide)).trans <|
  (W3_keep m c main_arg16 (by decide)).trans <|
  (W2_keep m c main_arg16 (by decide)).trans <|
  (W1_keep m c main_arg16 (by decide)).trans rfl
theorem W23_main_arg17 (c : Dev nD) : W23 m c (Proc.devRef .tc main_arg17) = m ((c : Thread nD τ).loc main_arg17) :=
  (W23_keep m c main_arg17 (by decide)).trans <|
  (W22_keep m c main_arg17 (by decide)).trans <|
  (W21_keep m c main_arg17 (by decide)).trans <|
  (W20_keep m c main_arg17 (by decide)).trans <|
  (W19_keep m c main_arg17 (by decide)).trans <|
  (W18_keep m c main_arg17 (by decide)).trans <|
  (W17_keep m c main_arg17 (by decide)).trans <|
  (W16_keep m c main_arg17 (by decide)).trans <|
  (W15_keep m c main_arg17 (by decide)).trans <|
  (W14_keep m c main_arg17 (by decide)).trans <|
  (W13_keep m c main_arg17 (by decide)).trans <|
  (W12_keep m c main_arg17 (by decide)).trans <|
  (W11_keep m c main_arg17 (by decide)).trans <|
  (W10_keep m c main_arg17 (by decide)).trans <|
  (W9_keep m c main_arg17 (by decide)).trans <|
  (W8_keep m c main_arg17 (by decide)).trans <|
  (W7_keep m c main_arg17 (by decide)).trans <|
  (W6_keep m c main_arg17 (by decide)).trans <|
  (W5_keep m c main_arg17 (by decide)).trans <|
  (W4_keep m c main_arg17 (by decide)).trans <|
  (W3_keep m c main_arg17 (by decide)).trans <|
  (W2_keep m c main_arg17 (by decide)).trans <|
  (W1_keep m c main_arg17 (by decide)).trans rfl
theorem W23_main_arg18 (c : Dev nD) : W23 m c (Proc.devRef .tc main_arg18) = m ((c : Thread nD τ).loc main_arg18) :=
  (W23_keep m c main_arg18 (by decide)).trans <|
  (W22_keep m c main_arg18 (by decide)).trans <|
  (W21_keep m c main_arg18 (by decide)).trans <|
  (W20_keep m c main_arg18 (by decide)).trans <|
  (W19_keep m c main_arg18 (by decide)).trans <|
  (W18_keep m c main_arg18 (by decide)).trans <|
  (W17_keep m c main_arg18 (by decide)).trans <|
  (W16_keep m c main_arg18 (by decide)).trans <|
  (W15_keep m c main_arg18 (by decide)).trans <|
  (W14_keep m c main_arg18 (by decide)).trans <|
  (W13_keep m c main_arg18 (by decide)).trans <|
  (W12_keep m c main_arg18 (by decide)).trans <|
  (W11_keep m c main_arg18 (by decide)).trans <|
  (W10_keep m c main_arg18 (by decide)).trans <|
  (W9_keep m c main_arg18 (by decide)).trans <|
  (W8_keep m c main_arg18 (by decide)).trans <|
  (W7_keep m c main_arg18 (by decide)).trans <|
  (W6_keep m c main_arg18 (by decide)).trans <|
  (W5_keep m c main_arg18 (by decide)).trans <|
  (W4_keep m c main_arg18 (by decide)).trans <|
  (W3_keep m c main_arg18 (by decide)).trans <|
  (W2_keep m c main_arg18 (by decide)).trans <|
  (W1_keep m c main_arg18 (by decide)).trans rfl
theorem W23_main_arg19 (c : Dev nD) : W23 m c (Proc.devRef .tc main_arg19) = m ((c : Thread nD τ).loc main_arg19) :=
  (W23_keep m c main_arg19 (by decide)).trans <|
  (W22_keep m c main_arg19 (by decide)).trans <|
  (W21_keep m c main_arg19 (by decide)).trans <|
  (W20_keep m c main_arg19 (by decide)).trans <|
  (W19_keep m c main_arg19 (by decide)).trans <|
  (W18_keep m c main_arg19 (by decide)).trans <|
  (W17_keep m c main_arg19 (by decide)).trans <|
  (W16_keep m c main_arg19 (by decide)).trans <|
  (W15_keep m c main_arg19 (by decide)).trans <|
  (W14_keep m c main_arg19 (by decide)).trans <|
  (W13_keep m c main_arg19 (by decide)).trans <|
  (W12_keep m c main_arg19 (by decide)).trans <|
  (W11_keep m c main_arg19 (by decide)).trans <|
  (W10_keep m c main_arg19 (by decide)).trans <|
  (W9_keep m c main_arg19 (by decide)).trans <|
  (W8_keep m c main_arg19 (by decide)).trans <|
  (W7_keep m c main_arg19 (by decide)).trans <|
  (W6_keep m c main_arg19 (by decide)).trans <|
  (W5_keep m c main_arg19 (by decide)).trans <|
  (W4_keep m c main_arg19 (by decide)).trans <|
  (W3_keep m c main_arg19 (by decide)).trans <|
  (W2_keep m c main_arg19 (by decide)).trans <|
  (W1_keep m c main_arg19 (by decide)).trans rfl
theorem W23_main_arg20 (c : Dev nD) : W23 m c (Proc.devRef .tc main_arg20) = m ((c : Thread nD τ).loc main_arg20) :=
  (W23_keep m c main_arg20 (by decide)).trans <|
  (W22_keep m c main_arg20 (by decide)).trans <|
  (W21_keep m c main_arg20 (by decide)).trans <|
  (W20_keep m c main_arg20 (by decide)).trans <|
  (W19_keep m c main_arg20 (by decide)).trans <|
  (W18_keep m c main_arg20 (by decide)).trans <|
  (W17_keep m c main_arg20 (by decide)).trans <|
  (W16_keep m c main_arg20 (by decide)).trans <|
  (W15_keep m c main_arg20 (by decide)).trans <|
  (W14_keep m c main_arg20 (by decide)).trans <|
  (W13_keep m c main_arg20 (by decide)).trans <|
  (W12_keep m c main_arg20 (by decide)).trans <|
  (W11_keep m c main_arg20 (by decide)).trans <|
  (W10_keep m c main_arg20 (by decide)).trans <|
  (W9_keep m c main_arg20 (by decide)).trans <|
  (W8_keep m c main_arg20 (by decide)).trans <|
  (W7_keep m c main_arg20 (by decide)).trans <|
  (W6_keep m c main_arg20 (by decide)).trans <|
  (W5_keep m c main_arg20 (by decide)).trans <|
  (W4_keep m c main_arg20 (by decide)).trans <|
  (W3_keep m c main_arg20 (by decide)).trans <|
  (W2_keep m c main_arg20 (by decide)).trans <|
  (W1_keep m c main_arg20 (by decide)).trans rfl

/-- The buffers' contents when the program returns. -/
abbrev Wend (c : Dev nD) : Valuation τ sig (Elt F) := W23 m c

end Cert.Kernel.Hand

end
-- ==== Proof.K.Segs.lean ====
/-
  The program as a list of segments: a segment per stretch of host operations, entered from its boundary's
  contents, and a segment per kernel region, entered from the contents before it and left at the contents after it.
  A region's segment splits its arrays out of the unscoped buffers, passes the generator register (and, for the
  regions that carry column sums, the two scratch rows) into the pipeline's invariant, and puts everything back.
-/
import proofs.«106081_j12317966204981_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)

/-- Every pipeline's proof data, each at its region's entry contents: a literal match, so that the pinned
    configuration at a numeral reduces to the printed one. -/
def pdats : (p : Fin 13) → (c : Dev nD) → Dat τ (Elt F) Unit ℕ (Pipeline.UD sig nD τ) ℕ (Pipeline.pin (pcfgs (F := F)) adm p) c
  | ⟨0, _⟩ => fun c => dat0 (VT1 m) c
  | ⟨1, _⟩ => fun c => dat1 (VT3 m) c
  | ⟨2, _⟩ => fun c => dat2 (VT5 m) c
  | ⟨3, _⟩ => fun c => dat3 (VT6 m) c
  | ⟨4, _⟩ => fun c => dat4 (VT8 m) c
  | ⟨5, _⟩ => fun c => dat5 (VT10 m) c
  | ⟨6, _⟩ => fun c => dat6 (VT11 m) c
  | ⟨7, _⟩ => fun c => dat7 (VT13 m) c
  | ⟨8, _⟩ => fun c => dat8 (VT15 m) c
  | ⟨9, _⟩ => fun c => dat9 (VT16 m) c
  | ⟨10, _⟩ => fun c => dat10 (VT18 m) c
  | ⟨11, _⟩ => fun c => dat11 (VT20 m) c
  | ⟨12, _⟩ => fun c => dat12 (VT22 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W23 m c) ∗ ∃ r, prngReg c r)

/-! ## The regions as segments -/

set_option backward.isDefEq.respectTransparency.types false in
/-- Region 0 over the thread state: entered from every unscoped buffer at stage 1's contents, left at stage 2's.
    Its arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VT1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VT1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VT1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VT1 m c) (VT2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at stage 3's contents, left at stage 4's.
    Its arrays are split out of the unscoped buffers and put back at the exit contents; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VT3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VT3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VT3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (VT3 m) c 0 from rfl]; unfold PhiS1
    rw [show (Pipeline.scopedRest (Ix := Unit) (Name := ℕ) (U := Pipeline.UD sig nD τ) (Lvl := ℕ) (Val := Elt F) (Pipeline.pin (pcfgs (F := F)) adm 1).spec c : sProp 𝕄) = _ from
      scopedRest1_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 1 c).Φ (Fin.last _) = PhiS1 (VT3 m) c _ from rfl]; unfold PhiS1
    rw [show (Pipeline.scopedRest (Ix := Unit) (Name := ℕ) (U := Pipeline.UD sig nD τ) (Lvl := ℕ) (Val := Elt F) (Pipeline.pin (pcfgs (F := F)) adm 1).spec c : sProp 𝕄) = _ from
      scopedRest1_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VT3 m c) (VT4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at stage 5's contents, left at stage 6's.
    Its arrays are split out of the unscoped buffers and put back at the exit contents; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VT5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (VT5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VT5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (VT5 m c) (VT6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at stage 6's contents, left at stage 7's.
    Its arrays are split out of the unscoped buffers and put back at the exit contents; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VT6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (VT6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VT6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (VT6 m c) (VT7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at stage 8's contents, left at stage 9's.
    Its arrays are split out of the unscoped buffers and put back at the exit contents; the generator register goes
    into the invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VT8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (VT8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VT8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = PhiS4 (VT8 m) c 0 from rfl]; unfold PhiS4
    rw [show (Pipeline.scopedRest (Ix := Unit) (Name := ℕ) (U := Pipeline.UD sig nD τ) (Lvl := ℕ) (Val := Elt F) (Pipeline.pin (pcfgs (F := F)) adm 4).spec c : sProp 𝕄) = _ from
      scopedRest4_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 4 c).Φ (Fin.last _) = PhiS4 (VT8 m) c _ from rfl]; unfold PhiS4
    rw [show (Pipeline.scopedRest (Ix := Unit) (Name := ℕ) (U := Pipeline.UD sig nD τ) (Lvl := ℕ) (Val := Elt F) (Pipeline.pin (pcfgs (F := F)) adm 4).spec c : sProp 𝕄) = _ from
      scopedRest4_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (VT8 m c) (VT9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at stage 10's contents, left at stage 11's.
    Its arrays are split out of the unscoped buffers and put back at the exit contents; the generator register goes
    into the invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VT10 m) c).loose
  hwaits := Pipeline.hwaits_of_owed_zero _ _ _ _ L lv 5 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (VT10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VT10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (VT10 m c) (VT11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at stage 11's contents, left at stage 12's.
    Its arrays are split out of the unscoped buffers and put back at the exit contents; the generator register goes
    into the invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VT11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (VT11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (VT11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (VT11 m c) (VT12 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at stage 13's contents, left at stage 14's.
    Its arrays are split out of the unscoped buffers and put back at the exit contents; the generator register goes
    into the invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VT13 m) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (VT13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (VT13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = PhiS7 (VT13 m) c 0 from rfl]; unfold PhiS7
    rw [show (Pipeline.scopedRest (Ix := Unit) (Name := ℕ) (U := Pipeline.UD sig nD τ) (Lvl := ℕ) (Val := Elt F) (Pipeline.pin (pcfgs (F := F)) adm 7).spec c : sProp 𝕄) = _ from
      scopedRest7_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 7 c).Φ (Fin.last _) = PhiS7 (VT13 m) c _ from rfl]; unfold PhiS7
    rw [show (Pipeline.scopedRest (Ix := Unit) (Name := ℕ) (U := Pipeline.UD sig nD τ) (Lvl := ℕ) (Val := Elt F) (Pipeline.pin (pcfgs (F := F)) adm 7).spec c : sProp 𝕄) = _ from
      scopedRest7_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (VT13 m c) (VT14 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at stage 15's contents, left at stage 16's.
    Its arrays are split out of the unscoped buffers and put back at the exit contents; the generator register goes
    into the invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VT15 m) c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (VT15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (VT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (VT15 m c) (VT16 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at stage 16's contents, left at stage 17's.
    Its arrays are split out of the unscoped buffers and put back at the exit contents; the generator register goes
    into the invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VT16 m) c).loose
  hwaits := Pipeline.hwaits_of_owed_zero _ _ _ _ L lv 9 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (VT16 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (VT16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (VT16 m c) (VT17 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at stage 18's contents, left at stage 19's.
    Its arrays are split out of the unscoped buffers and put back at the exit contents; the generator register goes
    into the invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VT18 m) c).loose
  hwaits := Pipeline.hwaits_of_owed_zero _ _ _ _ L lv 10 fun _ _ => rfl
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := Pipeline.UD sig nD τ) (Lvl := ℕ) spec10 c (VT18 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (VT18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = PhiS10 (VT18 m) c 0 from rfl]; unfold PhiS10
    rw [show (Pipeline.scopedRest (Ix := Unit) (Name := ℕ) (U := Pipeline.UD sig nD τ) (Lvl := ℕ) (Val := Elt F) (Pipeline.pin (pcfgs (F := F)) adm 10).spec c : sProp 𝕄) = _ from
      scopedRest10_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 10 c).Φ (Fin.last _) = PhiS10 (VT18 m) c _ from rfl]; unfold PhiS10
    rw [show (Pipeline.scopedRest (Ix := Unit) (Name := ℕ) (U := Pipeline.UD sig nD τ) (Lvl := ℕ) (Val := Elt F) (Pipeline.pin (pcfgs (F := F)) adm 10).spec c : sProp 𝕄) = _ from
      scopedRest10_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (VT18 m c) (VT19 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at stage 20's contents, left at stage 21's.
    Its arrays are split out of the unscoped buffers and put back at the exit contents; the generator register goes
    into the invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (VT20 m) c).loose
  hwaits := Pipeline.hwaits_of_owed_zero _ _ _ _ L lv 11 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (VT20 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (VT20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (VT20 m c) (VT21 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at stage 22's contents, left at stage 23's.
    Its arrays are split out of the unscoped buffers and put back at the exit contents; the generator register goes
    into the invariant and comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (VT22 m) c).loose
  hwaits := Pipeline.hwaits_of_owed_zero _ _ _ _ L lv 12 fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := Pipeline.UD sig nD τ) (Lvl := ℕ) spec12 c (VT22 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (VT22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (VT22 m c) (VT23 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's 23 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m),
    .region (reg6 m),
    .host (hseg hostOps7 hostOps7_sub hostOps7_fresh (W12 m)),
    .region (reg7 m),
    .host (hseg hostOps8 hostOps8_sub hostOps8_fresh (W14 m)),
    .region (reg8 m),
    .region (reg9 m),
    .host (hseg hostOps10 hostOps10_sub hostOps10_fresh (W17 m)),
    .region (reg10 m),
    .host (hseg hostOps11 hostOps11_sub hostOps11_fresh (W19 m)),
    .region (reg11 m),
    .host (hseg hostOps12 hostOps12_sub hostOps12_fresh (W21 m)),
    .region (reg12 m) ]
/-- What the last region leaves is the last thread state beside the core's dues at nothing. -/
theorem last_state (c : Dev nD) : iprop(StableHlo.held (c : Thread nD τ) (Pipeline.ucRefs τ sig) (W23 m c) ∗ R c)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO
/-- The program is the run of its segments. -/
theorem main_run (c : Dev nD) : main (F := F) c = Pipeline.Seg.run (segs m) := (main_chain c).trans (by chain_rfl)

end Cert.Kernel.Hand

end
-- ==== Proof.K.Run.lean ====
/-
  The program's run: from any memory with every counter at zero, every weakly fair execution on the TensorCores
  terminates without fault, and every final memory holds the result buffer at the fold's last contents and each
  argument as launched. The segments' thread states chain one into the next as stated; the launch makes the first,
  and the last is read against the final memory.
-/
import proofs.«106081_j12317966204981_2_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)
variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v162) = Wend m c (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m c b)
    (hfin := fun c s' => by
      iintro ⟨⟨Hh, -⟩, HSI⟩
      unfold StableHlo.held
      imodintro
      iapply (pointsTo_read_all (Pipeline.ucRefs τ sig) (fun b => (((c : Thread nD τ)).1, b)) (W23 m c) s')
      isplitl [Hh] <;> iassumption)
    (hQ := fun s h c =>
      ⟨h c _ (mem_uc main_v162 (by decide)),
       (h c _ (mem_uc main_arg0 (by decide))).trans (W23_main_arg0 m c),
       (h c _ (mem_uc main_arg1 (by decide))).trans (W23_main_arg1 m c),
       (h c _ (mem_uc main_arg2 (by decide))).trans (W23_main_arg2 m c),
       (h c _ (mem_uc main_arg3 (by decide))).trans (W23_main_arg3 m c),
       (h c _ (mem_uc main_arg4 (by decide))).trans (W23_main_arg4 m c),
       (h c _ (mem_uc main_arg5 (by decide))).trans (W23_main_arg5 m c),
       (h c _ (mem_uc main_arg6 (by decide))).trans (W23_main_arg6 m c),
       (h c _ (mem_uc main_arg7 (by decide))).trans (W23_main_arg7 m c),
       (h c _ (mem_uc main_arg8 (by decide))).trans (W23_main_arg8 m c),
       (h c _ (mem_uc main_arg9 (by decide))).trans (W23_main_arg9 m c),
       (h c _ (mem_uc main_arg10 (by decide))).trans (W23_main_arg10 m c),
       (h c _ (mem_uc main_arg11 (by decide))).trans (W23_main_arg11 m c),
       (h c _ (mem_uc main_arg12 (by decide))).trans (W23_main_arg12 m c),
       (h c _ (mem_uc main_arg13 (by decide))).trans (W23_main_arg13 m c),
       (h c _ (mem_uc main_arg14 (by decide))).trans (W23_main_arg14 m c),
       (h c _ (mem_uc main_arg15 (by decide))).trans (W23_main_arg15 m c),
       (h c _ (mem_uc main_arg16 (by decide))).trans (W23_main_arg16 m c),
       (h c _ (mem_uc main_arg17 (by decide))).trans (W23_main_arg17 m c),
       (h c _ (mem_uc main_arg18 (by decide))).trans (W23_main_arg18 m c),
       (h c _ (mem_uc main_arg19 (by decide))).trans (W23_main_arg19 m c),
       (h c _ (mem_uc main_arg20 (by decide))).trans (W23_main_arg20 m c)⟩)

/-- The same run, read for the arguments only. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_main m ρ)

end Cert.Kernel.Hand

end
-- ==== Proof.KI.R0.lean ====
/-
  Region 0: the first layer's projection. The grid has ten points; point t multiplies rows 10000 t .. 10000 t + 9999
  of the node features (a 10000 x 128 block) by the whole 128 x 64 weight matrix and stores the 10000 x 64 product
  over the whole output block. The weight block is fetched once, at the first point, and stays in place.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows when the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, kept afterwards. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_2 : Rect S10000x64 := Rect.unit (s := S10000x64) ![0, 0] S10000x64.size inb_S10000x64_S10000x64_0_0
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0

/-- The output block after the body: the one store, of the product of the two loaded blocks, over the whole block. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging memrefs: the two inputs keep their contents, the output ends at the product's block. -/
theorem sound_kernel0 (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the body obligation -/

/-- Region 0's proof data on core c: the arrays as the region finds them; after the body at point t each input's
    buffer holds its block and the output's the product block; the invariant is the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

set_option maxHeartbeats 4000000 in
/-- The first point: the scratch rows hold anything; they are reset, then accumulated into. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc1__bias_stats_kernel i arg1 harg1 arg2 harg2 arg3 harg3 arg4 harg4 arg5 harg5 arg6 harg6 arg7 harg7) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc1__bias_stats_kernel i arg1 harg1 arg2 harg2 arg3 harg3 arg4 harg4 arg5 harg5 arg6 harg6 arg7 harg7) K } := by
  refine ⟨?_, ?_, ?_, ?_, ?_, fun E K => ?run⟩
  case run =>
    simp only [cc1__bias_stats_kernel_eq_skeleton]; unfold cc1__bias_stats_kernel_skel
    simp only [k1_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KI.R1b.lean ====
/-
  Region 1, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev scM1_0 : Memref sig .tc .vmem S1x64 .f32 := Memref.whole cc1_scratch0
abbrev scM1_1 : Memref sig .tc .vmem S1x64 .f32 := Memref.whole cc1_scratch1

/-- The pre-activation block after the body at point t, given the scratch rows before it. -/
def pre1At (c : Dev nD) (t : Fin cfg1.N) (xs6 xs7 : Vec F S1x64 .f32) : Vec F S10000x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).1

/-- The first output row after the body at point t, given the scratch rows before it. -/
def sum1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.1

/-- The second output row after the body at point t, given the scratch rows before it. -/
def sq1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.1

/-- The first scratch row after the body at point t, given the scratch rows before it. -/
def scL1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.1

/-- The second scratch row after the body at point t, given the scratch rows before it. -/
def scR1At (c : Dev nD) (t : Fin cfg1.N) (xs6 xs7 : Vec F S1x64 .f32) : Vec F S1x64 .f32 :=
  if hc : cond1_0 (grid1.coords t) then View.canon (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.1
  else View.canon (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.2.1

/-- The two scratch rows before point n: what the point before left; before the first point the value is not used
    (the first point resets the rows), and the zero row stands there. -/
def scB1 (c : Dev nD) : ℕ → Vec F S1x64 .f32 × Vec F S1x64 .f32
  | 0 => (k1_pay1 (F := F), k1_pay1 (F := F))
  | n + 1 => if h : n < cfg1.N then (scL1At V c ⟨n, h⟩ (scB1 c n).1 (scB1 c n).2, scR1At V c ⟨n, h⟩ (scB1 c n).1 (scB1 c n).2) else scB1 c n

/-! ## Each run's pieces cover their buffer (every store is of the whole buffer) -/

theorem cover1_A_0 (c : Dev nD) (t : Fin cfg1.N) (hc : cond1_0 (grid1.coords t)) (y : S10000x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).1, y ∈ pc.1.set :=
  View.cover_of_tiledL _ S10000x64.size (by sl_kernel_rfl) y
theorem cover1_A_1 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.1, y ∈ pc.1.set :=
  View.cover_of_tiledL _ S1x64.size (by sl_kernel_rfl) y
theorem cover1_A_2 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.1, y ∈ pc.1.set :=
  View.cover_of_tiledL _ S1x64.size (by sl_kernel_rfl) y
theorem cover1_A_3 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.1, y ∈ pc.1.set :=
  View.cover_of_tiledL _ S1x64.size (by sl_kernel_rfl) y
theorem cover1_A_4 (c : Dev nD) (t : Fin cfg1.N) (hc : cond1_0 (grid1.coords t)) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.1, y ∈ pc.1.set :=
  View.cover_of_tiledL _ S1x64.size (by sl_kernel_rfl) y

theorem cover1_B_0 (c : Dev nD) (t : Fin cfg1.N) (hc : ¬cond1_0 (grid1.coords t)) (xs6 xs7 : Vec F S1x64 .f32) (y : S10000x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).1, y ∈ pc.1.set :=
  View.cover_of_tiledL _ S10000x64.size (by sl_kernel_rfl) y
theorem cover1_B_1 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.1, y ∈ pc.1.set :=
  View.cover_of_tiledL _ S1x64.size (by sl_kernel_rfl) y
theorem cover1_B_2 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.1, y ∈ pc.1.set :=
  View.cover_of_tiledL _ S1x64.size (by sl_kernel_rfl) y
theorem cover1_B_3 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.1, y ∈ pc.1.set :=
  View.cover_of_tiledL _ S1x64.size (by sl_kernel_rfl) y
theorem cover1_B_4 (c : Dev nD) (t : Fin cfg1.N) (hc : ¬cond1_0 (grid1.coords t)) (xs6 xs7 : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS1 (c : Dev nD) (n : ℕ) : sProp 𝕄 :=
  iprop(Pipeline.scopedRestBut (Ix := Unit) (Name := ℕ) (U := Pipeline.UD sig nD τ) (Lvl := ℕ) (Val := Elt F) spec1 c [cc1_scratch0, cc1_scratch1]
    ∗ (∃ r, prngReg c r)
    ∗ (∃ d6, owns (c : Thread nD τ) scM1_0 fullShare d6 ∗ ⌜n ≠ 0 → d6 = (scB1 V c n).1⌝)
    ∗ (∃ d7, owns (c : Thread nD τ) scM1_1 fullShare d7 ∗ ⌜n ≠ 0 → d7 = (scB1 V c n).2⌝))

/-- Region 1's proof data on core c. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => pre1At V c t (scB1 V c t.val).1 (scB1 V c t.val).2
    | ⟨3, _⟩ => sum1At V c t (scB1 V c t.val).1 (scB1 V c t.val).2
    | ⟨4, _⟩ => sq1At V c t (scB1 V c t.val).1 (scB1 V c t.val).2
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = pre1At V c t (scB1 V c t.val).1 (scB1 V c t.val).2 := by dsimp only [dat1]
theorem after1_3 (c : Dev nD) (t : Fin cfg1.N) : (dat1 V c).after 3 t = sum1At V c t (scB1 V c t.val).1 (scB1 V c t.val).2 := by dsimp only [dat1]
theorem after1_4 (c : Dev nD) (t : Fin cfg1.N) : (dat1 V c).after 4 t = sq1At V c t (scB1 V c t.val).1 (scB1 V c t.val).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The scratch rows after point t are the rows before point t + 1. -/
theorem scB1_succ (c : Dev nD) (t : Fin cfg1.N) :
    scB1 V c (t.val + 1) = (scL1At V c t (scB1 V c t.val).1 (scB1 V c t.val).2, scR1At V c t (scB1 V c t.val).1 (scB1 V c t.val).2) := by
  show (if h : t.val < cfg1.N then _ else _) = _
  rw [dif_pos t.isLt]

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- A point other than the first is not the reset's. -/
theorem val1_ne_zero (t : Fin cfg1.N) (hc : ¬cond1_0 (grid1.coords t)) : t.val ≠ 0 := by
  intro h0
  exact hc ((hcond1_0 t).mpr (by rw [h0]))

set_option maxHeartbeats 1000000 in
/-- The body at any point: by cases on whether it is the first. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = PhiS1 V c (t.val + 1) from rfl,
    show (dat1 V c).Φ t.castSucc = PhiS1 V c t.val from rfl,
    show (dat1 V c).owesAt () t.succ = (dat1 V c).owesAt () t.castSucc from rfl,
    after1_0, after1_1, after1_2, after1_3, after1_4]
  unfold PhiS1
  rw [scB1_succ]
  by_cases hc : cond1_0 (grid1.coords t)
  · unfold pre1At sum1At sq1At scL1At scR1At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover1_A_3 V c t hc)
        · ipureintro; intro _; rfl
      · iexists _; isplitl [H7]
        · unfold owns; iexists _; isplitr; swap; · iexact H7
          ipureintro; exact View.read_writes_eq_canon _ _ _ (cover1_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover1_A_0 V c t hc)
    isplitl [H3]
    · unfold owns; iexists _; isplitr; swap; · iexact H3
      ipureintro; exact View.read_writes_eq_canon _ _ _ (cover1_A_1 V c t hc)
    · unfold owns; iexists _; isplitr; swap; · iexact H4
      ipureintro; exact View.read_writes_eq_canon _ _ _ (cover1_A_2 V c t hc)
  · have hne := val1_ne_zero t hc
    unfold pre1At sum1At sq1At scL1At scR1At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc (iblk1 V c 0 t) (iblk1 V c 1 t) (scB1 V c t.val).1 (scB1 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover1_B_3 V c t hc _ _)
        · ipureintro; intro _; rfl
      · iexists _; isplitl [H7]
        · unfold owns; iexists _; isplitr; swap; · iexact H7
          ipureintro; exact View.read_writes_eq_canon _ _ _ (cover1_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover1_B_0 V c t hc _ _)
    isplitl [H3]
    · unfold owns; iexists _; isplitr; swap; · iexact H3
      ipureintro; exact View.read_writes_eq_canon _ _ _ (cover1_B_1 V c t hc _ _)
    · unfold owns; iexists _; isplitr; swap; · iexact H4
      ipureintro; exact View.read_writes_eq_canon _ _ _ (cover1_B_2 V c t hc _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2: normalise and clamp, layer 1. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's staging buffer holds the point's block when the body runs, fetched at this point or kept from an earlier one. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-- The output block after the body: the one store, of the body's value of the loaded blocks, over the whole block. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 1000000 in
/-- The body on whole staging memrefs: the inputs keep their contents, the output ends at the body's value. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data and the body obligation -/

/-- The region's proof data on core c: the arrays as the region finds them; after the body at point t each input's
    buffer holds its block and the output's the body's value of them; the invariant is the scoped rest and the
    generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3: the second layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's staging buffer holds the point's block when the body runs, fetched at this point or kept from an earlier one. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S10000x64 := Rect.unit (s := S10000x64) ![0, 0] S10000x64.size inb_S10000x64_S10000x64_0_0

/-- The output block after the body: the one store, of the body's value of the loaded blocks, over the whole block. -/
def out3_2 (x0 : Vec F S10000x64 .f32) (x1 : Vec F S64x64 .f32) : Vec F S10000x64 .f32 :=
  View.canon [⟨r3_2, k3_pay1 (View.ld x0 r3_0) (View.ld x1 r3_1)⟩]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in
/-- The body on whole staging memrefs: the inputs keep their contents, the output ends at the body's value. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data and the body obligation -/

/-- The region's proof data on core c: the arrays as the region finds them; after the body at point t each input's
    buffer holds its block and the output's the body's value of them; the invariant is the scoped rest and the
    generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

set_option maxHeartbeats 4000000 in
/-- The first point: the scratch rows hold anything; they are reset, then accumulated into. -/
noncomputable def kernelRun4_A (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc4__bias_stats_kernel i arg1 harg1 arg2 harg2 arg3 harg3 arg4 harg4 arg5 harg5 arg6 harg6 arg7 harg7) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun4_B (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc4__bias_stats_kernel i arg1 harg1 arg2 harg2 arg3 harg3 arg4 harg4 arg5 harg5 arg6 harg6 arg7 harg7) K } := by
  refine ⟨?_, ?_, ?_, ?_, ?_, fun E K => ?run⟩
  case run =>
    simp only [cc4__bias_stats_kernel_eq_skeleton]; unfold cc4__bias_stats_kernel_skel
    simp only [k4_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KI.R4b.lean ====
/-
  Region 4, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.KI.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev scM4_0 : Memref sig .tc .vmem S1x64 .f32 := Memref.whole cc4_scratch0
abbrev scM4_1 : Memref sig .tc .vmem S1x64 .f32 := Memref.whole cc4_scratch1

/-- The pre-activation block after the body at point t, given the scratch rows before it. -/
def pre4At (c : Dev nD) (t : Fin cfg4.N) (xs6 xs7 : Vec F S1x64 .f32) : Vec F S10000x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).1

/-- The first output row after the body at point t, given the scratch rows before it. -/
def sum4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.1

/-- The second output row after the body at point t, given the scratch rows before it. -/
def sq4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.1

/-- The first scratch row after the body at point t, given the scratch rows before it. -/
def scL4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.1

/-- The second scratch row after the body at point t, given the scratch rows before it. -/
def scR4At (c : Dev nD) (t : Fin cfg4.N) (xs6 xs7 : Vec F S1x64 .f32) : Vec F S1x64 .f32 :=
  if hc : cond4_0 (grid4.coords t) then View.canon (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.1
  else View.canon (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.2.1

/-- The two scratch rows before point n: what the point before left; before the first point the value is not used
    (the first point resets the rows), and the zero row stands there. -/
def scB4 (c : Dev nD) : ℕ → Vec F S1x64 .f32 × Vec F S1x64 .f32
  | 0 => (k4_pay1 (F := F), k4_pay1 (F := F))
  | n + 1 => if h : n < cfg4.N then (scL4At V c ⟨n, h⟩ (scB4 c n).1 (scB4 c n).2, scR4At V c ⟨n, h⟩ (scB4 c n).1 (scB4 c n).2) else scB4 c n

/-! ## Each run's pieces cover their buffer (every store is of the whole buffer) -/

theorem cover4_A_0 (c : Dev nD) (t : Fin cfg4.N) (hc : cond4_0 (grid4.coords t)) (y : S10000x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).1, y ∈ pc.1.set :=
  View.cover_of_tiledL _ S10000x64.size (by sl_kernel_rfl) y
theorem cover4_A_1 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.1, y ∈ pc.1.set :=
  View.cover_of_tiledL _ S1x64.size (by sl_kernel_rfl) y
theorem cover4_A_2 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.1, y ∈ pc.1.set :=
  View.cover_of_tiledL _ S1x64.size (by sl_kernel_rfl) y
theorem cover4_A_3 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.1, y ∈ pc.1.set :=
  View.cover_of_tiledL _ S1x64.size (by sl_kernel_rfl) y
theorem cover4_A_4 (c : Dev nD) (t : Fin cfg4.N) (hc : cond4_0 (grid4.coords t)) (y : S1x64.Idx) :
    ∃ pc ∈ (kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.1, y ∈ pc.1.set :=
  View.cover_of_tiledL _ S1x64.size (by sl_kernel_rfl) y

theorem cover4_B_0 (c : Dev nD) (t : Fin cfg4.N) (hc : ¬cond4_0 (grid4.coords t)) (xs6 xs7 : Vec F S1x64 .f32) (y : S10000x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).1, y ∈ pc.1.set :=
  View.cover_of_tiledL _ S10000x64.size (by sl_kernel_rfl) y
theorem cover4_B_1 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.1, y ∈ pc.1.set :=
  View.cover_of_tiledL _ S1x64.size (by sl_kernel_rfl) y
theorem cover4_B_2 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.1, y ∈ pc.1.set :=
  View.cover_of_tiledL _ S1x64.size (by sl_kernel_rfl) y
theorem cover4_B_3 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.1, y ∈ pc.1.set :=
  View.cover_of_tiledL _ S1x64.size (by sl_kernel_rfl) y
theorem cover4_B_4 (c : Dev nD) (t : Fin cfg4.N) (hc : ¬cond4_0 (grid4.coords t)) (xs6 xs7 : Vec F S1x64 .f32) (y : S1x64.Idx) :
    ∃ pc ∈ (kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS4 (c : Dev nD) (n : ℕ) : sProp 𝕄 :=
  iprop(Pipeline.scopedRestBut (Ix := Unit) (Name := ℕ) (U := Pipeline.UD sig nD τ) (Lvl := ℕ) (Val := Elt F) spec4 c [cc4_scratch0, cc4_scratch1]
    ∗ (∃ r, prngReg c r)
    ∗ (∃ d6, owns (c : Thread nD τ) scM4_0 fullShare d6 ∗ ⌜n ≠ 0 → d6 = (scB4 V c n).1⌝)
    ∗ (∃ d7, owns (c : Thread nD τ) scM4_1 fullShare d7 ∗ ⌜n ≠ 0 → d7 = (scB4 V c n).2⌝))

/-- Region 4's proof data on core c. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => pre4At V c t (scB4 V c t.val).1 (scB4 V c t.val).2
    | ⟨3, _⟩ => sum4At V c t (scB4 V c t.val).1 (scB4 V c t.val).2
    | ⟨4, _⟩ => sq4At V c t (scB4 V c t.val).1 (scB4 V c t.val).2
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = pre4At V c t (scB4 V c t.val).1 (scB4 V c t.val).2 := by dsimp only [dat4]
theorem after4_3 (c : Dev nD) (t : Fin cfg4.N) : (dat4 V c).after 3 t = sum4At V c t (scB4 V c t.val).1 (scB4 V c t.val).2 := by dsimp only [dat4]
theorem after4_4 (c : Dev nD) (t : Fin cfg4.N) : (dat4 V c).after 4 t = sq4At V c t (scB4 V c t.val).1 (scB4 V c t.val).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The scratch rows after point t are the rows before point t + 1. -/
theorem scB4_succ (c : Dev nD) (t : Fin cfg4.N) :
    scB4 V c (t.val + 1) = (scL4At V c t (scB4 V c t.val).1 (scB4 V c t.val).2, scR4At V c t (scB4 V c t.val).1 (scB4 V c t.val).2) := by
  show (if h : t.val < cfg4.N then _ else _) = _
  rw [dif_pos t.isLt]

/-! ## The body obligation -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- A point other than the first is not the reset's. -/
theorem val4_ne_zero (t : Fin cfg4.N) (hc : ¬cond4_0 (grid4.coords t)) : t.val ≠ 0 := by
  intro h0
  exact hc ((hcond4_0 t).mpr (by rw [h0]))

set_option maxHeartbeats 1000000 in
/-- The body at any point: by cases on whether it is the first. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = PhiS4 V c (t.val + 1) from rfl,
    show (dat4 V c).Φ t.castSucc = PhiS4 V c t.val from rfl,
    show (dat4 V c).owesAt () t.succ = (dat4 V c).owesAt () t.castSucc from rfl,
    after4_0, after4_1, after4_2, after4_3, after4_4]
  unfold PhiS4
  rw [scB4_succ]
  by_cases hc : cond4_0 (grid4.coords t)
  · unfold pre4At sum4At sq4At scL4At scR4At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover4_A_3 V c t hc)
        · ipureintro; intro _; rfl
      · iexists _; isplitl [H7]
        · unfold owns; iexists _; isplitr; swap; · iexact H7
          ipureintro; exact View.read_writes_eq_canon _ _ _ (cover4_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover4_A_0 V c t hc)
    isplitl [H3]
    · unfold owns; iexists _; isplitr; swap; · iexact H3
      ipureintro; exact View.read_writes_eq_canon _ _ _ (cover4_A_1 V c t hc)
    · unfold owns; iexists _; isplitr; swap; · iexact H4
      ipureintro; exact View.read_writes_eq_canon _ _ _ (cover4_A_2 V c t hc)
  · have hne := val4_ne_zero t hc
    unfold pre4At sum4At sq4At scL4At scR4At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hc (iblk4 V c 0 t) (iblk4 V c 1 t) (scB4 V c t.val).1 (scB4 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover4_B_3 V c t hc _ _)
        · ipureintro; intro _; rfl
      · iexists _; isplitl [H7]
        · unfold owns; iexists _; isplitr; swap; · iexact H7
          ipureintro; exact View.read_writes_eq_canon _ _ _ (cover4_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover4_B_0 V c t hc _ _)
    isplitl [H3]
    · unfold owns; iexists _; isplitr; swap; · iexact H3
      ipureintro; exact View.read_writes_eq_canon _ _ _ (cover4_B_1 V c t hc _ _)
    · unfold owns; iexists _; isplitr; swap; · iexact H4
      ipureintro; exact View.read_writes_eq_canon _ _ _ (cover4_B_2 V c t hc _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5: normalise and clamp, layer 2. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input's staging buffer holds the point's block when the body runs, fetched at this point or kept from an earlier one. -/

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S10000x64 := Rect.unit (s := S10000x64) ![0, 0] S10000x64.size inb_S10000x64_S10000x64_0_0

/-- The output block after the body: the one store, of the body's value of the loaded blocks, over the whole block. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_5, k5_pay1 (View.ld x0 r5_0) (View.ld x1 r5_1) (View.ld x2 r5_2) (View.ld x3 r5_3) (View.ld x4 r5_4)⟩]

theorem cover5_5 (p0 : Vec F S10000x64 .f32) (y : S10000x64.Idx) :
    ∃ pc ∈ ([⟨r5_5, p0⟩] : List (View.Piece (Elt F) S10000x64 .f32)), y ∈ pc.1.set :=
  View.cover_of_tiled [⟨r5_5, p0⟩] S10000x64.size (by rfl) y

set_option maxHeartbeats 1000000 in
/-- The body on whole staging memrefs: the inputs keep their contents, the output ends at the body's value. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__norm_relu_kernel i arg1 harg1 arg2 harg2 arg3 harg3 arg4 harg4 arg5 harg5 arg6 harg6) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data and the body obligation -/

/-- The region's proof data on core c: the arrays as the region finds them; after the body at point t each input's
    buffer holds its block and the output's the body's value of them; the invariant is the scoped rest and the
    generator register, untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/-
  Region 6: the third layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input's staging buffer holds the point's block when the body runs, fetched at this point or kept from an earlier one. -/

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x64 := Rect.unit (s := S64x64) ![0, 0] S64x64.size inb_S64x64_S64x64_0_0
abbrev r6_2 : Rect S10000x64 := Rect.unit (s := S10000x64) ![0, 0] S10000x64.size inb_S10000x64_S10000x64_0_0

/-- The output block after the body: the one store, of the body's value of the loaded blocks, over the whole block. -/
def out6_2 (x0 : Vec F S10000x64 .f32) (x1 : Vec F S64x64 .f32) : Vec F S10000x64 .f32 :=
  View.canon [⟨r6_2, k6_pay1 (View.ld x0 r6_0) (View.ld x1 r6_1)⟩]

theorem cover6_2 (p0 : Vec F S10000x64 .f32) (y : S10000x64.Idx) :
    ∃ pc ∈ ([⟨r6_2, p0⟩] : List (View.Piece (Elt F) S10000x64 .f32)), y ∈ pc.1.set :=
  View.cover_of_tiled [⟨r6_2, p0⟩] S10000x64.size (by rfl) y

set_option maxHeartbeats 1000000 in
/-- The body on whole staging memrefs: the inputs keep their contents, the output ends at the body's value. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data and the body obligation -/

/-- The region's proof data on core c: the arrays as the region finds them; after the body at point t each input's
    buffer holds its block and the output's the body's value of them; the invariant is the scoped rest and the
    generator register, untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/-
  Region 7: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

set_option maxHeartbeats 4000000 in
/-- The first point: the scratch rows hold anything; they are reset, then accumulated into. -/
noncomputable def kernelRun7_A (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc7__bias_stats_kernel i arg1 harg1 arg2 harg2 arg3 harg3 arg4 harg4 arg5 harg5 arg6 harg6 arg7 harg7) K } := by
  refine ⟨?_, ?_, ?_, ?_, ?_, fun E K => ?run⟩
  case run =>
    simp only [cc7__bias_stats_kernel_eq_skeleton]; unfold cc7__bias_stats_kernel_skel
    simp only [k7_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun7_B (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc7__bias_stats_kernel i arg1 harg1 arg2 harg2 arg3 harg3 arg4 harg4 arg5 harg5 arg6 harg6 arg7 harg7) K } := by
  refine ⟨?_, ?_, ?_, ?_, ?_, fun E K => ?run⟩
  case run =>
    simp only [cc7__bias_stats_kernel_eq_skeleton]; unfold cc7__bias_stats_kernel_skel
    simp only [k7_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KI.R7b.lean ====
/-
  Region 7, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.KI.R7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) := win7_0.stage (cfg7.slots t 0)
abbrev hs7_0 (t : Fin cfg7.N) : (ms7_0 t).IsWhole := hstage7_0 ((cfg7.slots t 0).cast nbuf7_0)
abbrev ms7_1 (t : Fin cfg7.N) := win7_1.stage (cfg7.slots t 1)
abbrev hs7_1 (t : Fin cfg7.N) : (ms7_1 t).IsWhole := hstage7_1 ((cfg7.slots t 1).cast nbuf7_1)
abbrev ms7_2 (t : Fin cfg7.N) := win7_2.stage (cfg7.slots t 2)
abbrev hs7_2 (t : Fin cfg7.N) : (ms7_2 t).IsWhole := hstage7_2 ((cfg7.slots t 2).cast nbuf7_2)
abbrev ms7_3 (t : Fin cfg7.N) := win7_3.stage (cfg7.slots t 3)
abbrev hs7_3 (t : Fin cfg7.N) : (ms7_3 t).IsWhole := hstage7_3 ((cfg7.slots t 3).cast nbuf7_3)
abbrev ms7_4 (t : Fin cfg7.N) := win7_4.stage (cfg7.slots t 4)
abbrev hs7_4 (t : Fin cfg7.N) : (ms7_4 t).IsWhole := hstage7_4 ((cfg7.slots t 4).cast nbuf7_4)
abbrev scM7_0 : Memref sig .tc .vmem S1x64 .f32 := Memref.whole cc7_scratch0
abbrev scM7_1 : Memref sig .tc .vmem S1x64 .f32 := Memref.whole cc7_scratch1

/-- The pre-activation block after the body at point t, given the scratch rows before it. -/
def pre7At (c : Dev nD) (t : Fin cfg7.N) (xs6 xs7 : Vec F S1x64 .f32) : Vec F S10000x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).1

/-- The first output row after the body at point t, given the scratch rows before it. -/
def sum7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.1

/-- The second output row after the body at point t, given the scratch rows before it. -/
def sq7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.1

/-- The first scratch row after the body at point t, given the scratch rows before it. -/
def scL7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.1

/-- The second scratch row after the body at point t, given the scratch rows before it. -/
def scR7At (c : Dev nD) (t : Fin cfg7.N) (xs6 xs7 : Vec F S1x64 .f32) : Vec F S1x64 .f32 :=
  if hc : cond7_0 (grid7.coords t) then View.canon (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.1
  else View.canon (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.2.1

/-- The two scratch rows before point n: what the point before left; before the first point the value is not used
    (the first point resets the rows), and the zero row stands there. -/
def scB7 (c : Dev nD) : ℕ → Vec F S1x64 .f32 × Vec F S1x64 .f32
  | 0 => (k7_pay1 (F := F), k7_pay1 (F := F))
  | n + 1 => if h : n < cfg7.N then (scL7At V c ⟨n, h⟩ (scB7 c n).1 (scB7 c n).2, scR7At V c ⟨n, h⟩ (scB7 c n).1 (scB7 c n).2) else scB7 c n

/-! ## Each run's pieces cover their buffer (every store is of the whole buffer) -/

theorem cover7_A_0 (c : Dev nD) (t : Fin cfg7.N) (hc : cond7_0 (grid7.coords t)) (y : S10000x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).1, y ∈ pc.1.set :=
  View.cover_of_tiledL _ S10000x64.size (by sl_kernel_rfl) y
theorem cover7_A_1 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.1, y ∈ pc.1.set :=
  View.cover_of_tiledL _ S1x64.size (by sl_kernel_rfl) y
theorem cover7_A_2 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.1, y ∈ pc.1.set :=
  View.cover_of_tiledL _ S1x64.size (by sl_kernel_rfl) y
theorem cover7_A_3 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.1, y ∈ pc.1.set :=
  View.cover_of_tiledL _ S1x64.size (by sl_kernel_rfl) y
theorem cover7_A_4 (c : Dev nD) (t : Fin cfg7.N) (hc : cond7_0 (grid7.coords t)) (y : S1x64.Idx) :
    ∃ pc ∈ (kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.1, y ∈ pc.1.set :=
  View.cover_of_tiledL _ S1x64.size (by sl_kernel_rfl) y

theorem cover7_B_0 (c : Dev nD) (t : Fin cfg7.N) (hc : ¬cond7_0 (grid7.coords t)) (xs6 xs7 : Vec F S1x64 .f32) (y : S10000x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).1, y ∈ pc.1.set :=
  View.cover_of_tiledL _ S10000x64.size (by sl_kernel_rfl) y
theorem cover7_B_1 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.1, y ∈ pc.1.set :=
  View.cover_of_tiledL _ S1x64.size (by sl_kernel_rfl) y
theorem cover7_B_2 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.1, y ∈ pc.1.set :=
  View.cover_of_tiledL _ S1x64.size (by sl_kernel_rfl) y
theorem cover7_B_3 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.1, y ∈ pc.1.set :=
  View.cover_of_tiledL _ S1x64.size (by sl_kernel_rfl) y
theorem cover7_B_4 (c : Dev nD) (t : Fin cfg7.N) (hc : ¬cond7_0 (grid7.coords t)) (xs6 xs7 : Vec F S1x64 .f32) (y : S1x64.Idx) :
    ∃ pc ∈ (kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS7 (c : Dev nD) (n : ℕ) : sProp 𝕄 :=
  iprop(Pipeline.scopedRestBut (Ix := Unit) (Name := ℕ) (U := Pipeline.UD sig nD τ) (Lvl := ℕ) (Val := Elt F) spec7 c [cc7_scratch0, cc7_scratch1]
    ∗ (∃ r, prngReg c r)
    ∗ (∃ d6, owns (c : Thread nD τ) scM7_0 fullShare d6 ∗ ⌜n ≠ 0 → d6 = (scB7 V c n).1⌝)
    ∗ (∃ d7, owns (c : Thread nD τ) scM7_1 fullShare d7 ∗ ⌜n ≠ 0 → d7 = (scB7 V c n).2⌝))

/-- Region 7's proof data on core c. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => pre7At V c t (scB7 V c t.val).1 (scB7 V c t.val).2
    | ⟨3, _⟩ => sum7At V c t (scB7 V c t.val).1 (scB7 V c t.val).2
    | ⟨4, _⟩ => sq7At V c t (scB7 V c t.val).1 (scB7 V c t.val).2
  Φ t := PhiS7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = pre7At V c t (scB7 V c t.val).1 (scB7 V c t.val).2 := by dsimp only [dat7]
theorem after7_3 (c : Dev nD) (t : Fin cfg7.N) : (dat7 V c).after 3 t = sum7At V c t (scB7 V c t.val).1 (scB7 V c t.val).2 := by dsimp only [dat7]
theorem after7_4 (c : Dev nD) (t : Fin cfg7.N) : (dat7 V c).after 4 t = sq7At V c t (scB7 V c t.val).1 (scB7 V c t.val).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The scratch rows after point t are the rows before point t + 1. -/
theorem scB7_succ (c : Dev nD) (t : Fin cfg7.N) :
    scB7 V c (t.val + 1) = (scL7At V c t (scB7 V c t.val).1 (scB7 V c t.val).2, scR7At V c t (scB7 V c t.val).1 (scB7 V c t.val).2) := by
  show (if h : t.val < cfg7.N then _ else _) = _
  rw [dif_pos t.isLt]

/-! ## The body obligation -/

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- A point other than the first is not the reset's. -/
theorem val7_ne_zero (t : Fin cfg7.N) (hc : ¬cond7_0 (grid7.coords t)) : t.val ≠ 0 := by
  intro h0
  exact hc ((hcond7_0 t).mpr (by rw [h0]))

set_option maxHeartbeats 1000000 in
/-- The body at any point: by cases on whether it is the first. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = PhiS7 V c (t.val + 1) from rfl,
    show (dat7 V c).Φ t.castSucc = PhiS7 V c t.val from rfl,
    show (dat7 V c).owesAt () t.succ = (dat7 V c).owesAt () t.castSucc from rfl,
    after7_0, after7_1, after7_2, after7_3, after7_4]
  unfold PhiS7
  rw [scB7_succ]
  by_cases hc : cond7_0 (grid7.coords t)
  · unfold pre7At sum7At sq7At scL7At scR7At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover7_A_3 V c t hc)
        · ipureintro; intro _; rfl
      · iexists _; isplitl [H7]
        · unfold owns; iexists _; isplitr; swap; · iexact H7
          ipureintro; exact View.read_writes_eq_canon _ _ _ (cover7_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover7_A_0 V c t hc)
    isplitl [H3]
    · unfold owns; iexists _; isplitr; swap; · iexact H3
      ipureintro; exact View.read_writes_eq_canon _ _ _ (cover7_A_1 V c t hc)
    · unfold owns; iexists _; isplitr; swap; · iexact H4
      ipureintro; exact View.read_writes_eq_canon _ _ _ (cover7_A_2 V c t hc)
  · have hne := val7_ne_zero t hc
    unfold pre7At sum7At sq7At scL7At scR7At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) hc (iblk7 V c 0 t) (iblk7 V c 1 t) (scB7 V c t.val).1 (scB7 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover7_B_3 V c t hc _ _)
        · ipureintro; intro _; rfl
      · iexists _; isplitl [H7]
        · unfold owns; iexists _; isplitr; swap; · iexact H7
          ipureintro; exact View.read_writes_eq_canon _ _ _ (cover7_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover7_B_0 V c t hc _ _)
    isplitl [H3]
    · unfold owns; iexists _; isplitr; swap; · iexact H3
      ipureintro; exact View.read_writes_eq_canon _ _ _ (cover7_B_1 V c t hc _ _)
    · unfold owns; iexists _; isplitr; swap; · iexact H4
      ipureintro; exact View.read_writes_eq_canon _ _ _ (cover7_B_2 V c t hc _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/-
  Region 8: normalise and clamp, layer 3. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input's staging buffer holds the point's block when the body runs, fetched at this point or kept from an earlier one. -/

theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S10000x64 := Rect.unit (s := S10000x64) ![0, 0] S10000x64.size inb_S10000x64_S10000x64_0_0

/-- The output block after the body: the one store, of the body's value of the loaded blocks, over the whole block. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_5, k8_pay1 (View.ld x0 r8_0) (View.ld x1 r8_1) (View.ld x2 r8_2) (View.ld x3 r8_3) (View.ld x4 r8_4)⟩]

theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging memrefs: the inputs keep their contents, the output ends at the body's value. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__norm_relu_kernel i arg1 harg1 arg2 harg2 arg3 harg3 arg4 harg4 arg5 harg5 arg6 harg6) K := by
  simp only [cc8__norm_relu_kernel_eq_skeleton]; unfold cc8__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data and the body obligation -/

/-- The region's proof data on core c: the arrays as the region finds them; after the body at point t each input's
    buffer holds its block and the output's the body's value of them; the invariant is the scoped rest and the
    generator register, untouched; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
/-
  Region 9: the fourth layer's projection: point t multiplies its 10000 x 64 block of activations by the whole 64 x 64 weight matrix and stores the 10000 x 64 product over the whole output block. The weight block is fetched once.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! Each input's staging buffer holds the point's block when the body runs, fetched at this point or kept from an earlier one. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0
abbrev r9_1 : Rect S64x64 := Rect.unit (s := S64x64) ![0, 0] S64x64.size inb_S64x64_S64x64_0_0
abbrev r9_2 : Rect S10000x64 := Rect.unit (s := S10000x64) ![0, 0] S10000x64.size inb_S10000x64_S10000x64_0_0

/-- The output block after the body: the one store, of the body's value of the loaded blocks, over the whole block. -/
def out9_2 (x0 : Vec F S10000x64 .f32) (x1 : Vec F S64x64 .f32) : Vec F S10000x64 .f32 :=
  View.canon [⟨r9_2, k9_pay1 (View.ld x0 r9_0) (View.ld x1 r9_1)⟩]

theorem cover9_2 (p0 : Vec F S10000x64 .f32) (y : S10000x64.Idx) :
    ∃ pc ∈ ([⟨r9_2, p0⟩] : List (View.Piece (Elt F) S10000x64 .f32)), y ∈ pc.1.set :=
  View.cover_of_tiled [⟨r9_2, p0⟩] S10000x64.size (by rfl) y

set_option maxHeartbeats 1000000 in
/-- The body on whole staging memrefs: the inputs keep their contents, the output ends at the body's value. -/
theorem sound_kernel9 (c : Dev nD) (E : Set ℕ) (i : grid9.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The proof data and the body obligation -/

/-- The region's proof data on core c: the arrays as the region finds them; after the body at point t each input's
    buffer holds its block and the output's the body's value of them; the invariant is the scoped rest and the
    generator register, untouched; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/-
  Region 10: bias, and the running column sums. At grid point t the body adds the bias row to the point's 10000 x 64
  block and stores the sum as the point's block of the pre-activation; it adds the block's column sums, and the
  column sums of its squares, into two 1 x 64 scratch rows (reset to zero at the first point, kept between points),
  and copies the two rows into the two 1 x 64 outputs. Two cases: the first point (the reset is taken) and the others.
  Each case's run is stated on whole memrefs; what each written buffer ends holding is found by the run, as pieces.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's one branch: is this the first grid point? -/
abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val % 10 = 0 :=
  (by decide +kernel : ∀ t : Fin grid10.N, cond10_0 (grid10.coords t) ↔ t.val % 10 = 0)

set_option maxHeartbeats 4000000 in
/-- The first point: the scratch rows hold anything; they are reset, then accumulated into. -/
noncomputable def kernelRun10_A (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond10_0 i)
    (x0 : Vec F S10000x64 .f32) (x1 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc10__bias_stats_kernel i arg1 harg1 arg2 harg2 arg3 harg3 arg4 harg4 arg5 harg5 arg6 harg6 arg7 harg7) K } := by
  refine ⟨?_, ?_, ?_, ?_, ?_, fun E K => ?run⟩
  case run =>
    simp only [cc10__bias_stats_kernel_eq_skeleton]; unfold cc10__bias_stats_kernel_skel
    simp only [k10_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

set_option maxHeartbeats 4000000 in
/-- A later point: the scratch rows hold what the point before left (xs6, xs7); they are accumulated into. -/
noncomputable def kernelRun10_B (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond10_0 i)
    (x0 : Vec F S10000x64 .f32) (x1 : Vec F S1x64 .f32) (xs6 : Vec F S1x64 .f32) (xs7 : Vec F S1x64 .f32) :
    Σ' (L3 : List (View.Piece (Elt F) S10000x64 .f32)), Σ' (L4 : List (View.Piece (Elt F) S1x64 .f32)), Σ' (L5 : List (View.Piece (Elt F) S1x64 .f32)),
    Σ' (LS6 : List (View.Piece (Elt F) S1x64 .f32)), { LS7 : List (View.Piece (Elt F) S1x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6) ∗ (∃ f, arg7.view.loc (c : Thread nD τ) ↦[arg7.view.set]{fullShare} arg7.view.writes (Elt F) f LS7)) -∗ K ⟨⟩))
          ⊢ wp frame (wpE (defs₀ (F := F)) Variants.none c none) E (cc10__bias_stats_kernel i arg1 harg1 arg2 harg2 arg3 harg3 arg4 harg4 arg5 harg5 arg6 harg6 arg7 harg7) K } := by
  refine ⟨?_, ?_, ?_, ?_, ?_, fun E K => ?run⟩
  case run =>
    simp only [cc10__bias_stats_kernel_eq_skeleton]; unfold cc10__bias_stats_kernel_skel
    simp only [k10_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1
    obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KI.R10b.lean ====
/-
  Region 10, continued: what the buffers hold point by point, and the body obligation.
  The two scratch rows carry the running column sums from one grid point to the next; their contents before point n
  are defined by recursion on n (anything before the first point, what point n - 1 left otherwise), and the invariant
  between points holds the two rows at those contents beside the untouched rest.
-/
import proofs.«106081_j12317966204981_2_alg».proof.Proof.KI.R10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev ms10_0 (t : Fin cfg10.N) := win10_0.stage (cfg10.slots t 0)
abbrev hs10_0 (t : Fin cfg10.N) : (ms10_0 t).IsWhole := hstage10_0 ((cfg10.slots t 0).cast nbuf10_0)
abbrev ms10_1 (t : Fin cfg10.N) := win10_1.stage (cfg10.slots t 1)
abbrev hs10_1 (t : Fin cfg10.N) : (ms10_1 t).IsWhole := hstage10_1 ((cfg10.slots t 1).cast nbuf10_1)
abbrev ms10_2 (t : Fin cfg10.N) := win10_2.stage (cfg10.slots t 2)
abbrev hs10_2 (t : Fin cfg10.N) : (ms10_2 t).IsWhole := hstage10_2 ((cfg10.slots t 2).cast nbuf10_2)
abbrev ms10_3 (t : Fin cfg10.N) := win10_3.stage (cfg10.slots t 3)
abbrev hs10_3 (t : Fin cfg10.N) : (ms10_3 t).IsWhole := hstage10_3 ((cfg10.slots t 3).cast nbuf10_3)
abbrev ms10_4 (t : Fin cfg10.N) := win10_4.stage (cfg10.slots t 4)
abbrev hs10_4 (t : Fin cfg10.N) : (ms10_4 t).IsWhole := hstage10_4 ((cfg10.slots t 4).cast nbuf10_4)
abbrev scM10_0 : Memref sig .tc .vmem S1x64 .f32 := Memref.whole cc10_scratch0
abbrev scM10_1 : Memref sig .tc .vmem S1x64 .f32 := Memref.whole cc10_scratch1

/-- The pre-activation block after the body at point t, given the scratch rows before it. -/
def pre10At (c : Dev nD) (t : Fin cfg10.N) (xs6 xs7 : Vec F S1x64 .f32) : Vec F S10000x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).1

/-- The first output row after the body at point t, given the scratch rows before it. -/
def sum10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.1

/-- The second output row after the body at point t, given the scratch rows before it. -/
def sq10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.1

/-- The first scratch row after the body at point t, given the scratch rows before it. -/
def scL10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.1

/-- The second scratch row after the body at point t, given the scratch rows before it. -/
def scR10At (c : Dev nD) (t : Fin cfg10.N) (xs6 xs7 : Vec F S1x64 .f32) : Vec F S1x64 .f32 :=
  if hc : cond10_0 (grid10.coords t) then View.canon (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.1
  else View.canon (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.2.1

/-- The two scratch rows before point n: what the point before left; before the first point the value is not used
    (the first point resets the rows), and the zero row stands there. -/
def scB10 (c : Dev nD) : ℕ → Vec F S1x64 .f32 × Vec F S1x64 .f32
  | 0 => (k10_pay1 (F := F), k10_pay1 (F := F))
  | n + 1 => if h : n < cfg10.N then (scL10At V c ⟨n, h⟩ (scB10 c n).1 (scB10 c n).2, scR10At V c ⟨n, h⟩ (scB10 c n).1 (scB10 c n).2) else scB10 c n

/-! ## Each run's pieces cover their buffer (every store is of the whole buffer) -/

theorem cover10_A_0 (c : Dev nD) (t : Fin cfg10.N) (hc : cond10_0 (grid10.coords t)) (y : S10000x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).1, y ∈ pc.1.set :=
  View.cover_of_tiledL _ S10000x64.size (by sl_kernel_rfl) y
theorem cover10_A_1 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.1, y ∈ pc.1.set :=
  View.cover_of_tiledL _ S1x64.size (by sl_kernel_rfl) y
theorem cover10_A_2 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.1, y ∈ pc.1.set :=
  View.cover_of_tiledL _ S1x64.size (by sl_kernel_rfl) y
theorem cover10_A_3 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.1, y ∈ pc.1.set :=
  View.cover_of_tiledL _ S1x64.size (by sl_kernel_rfl) y
theorem cover10_A_4 (c : Dev nD) (t : Fin cfg10.N) (hc : cond10_0 (grid10.coords t)) (y : S1x64.Idx) :
    ∃ pc ∈ (kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.1, y ∈ pc.1.set :=
  View.cover_of_tiledL _ S1x64.size (by sl_kernel_rfl) y

theorem cover10_B_0 (c : Dev nD) (t : Fin cfg10.N) (hc : ¬cond10_0 (grid10.coords t)) (xs6 xs7 : Vec F S1x64 .f32) (y : S10000x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).1, y ∈ pc.1.set :=
  View.cover_of_tiledL _ S10000x64.size (by sl_kernel_rfl) y
theorem cover10_B_1 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.1, y ∈ pc.1.set :=
  View.cover_of_tiledL _ S1x64.size (by sl_kernel_rfl) y
theorem cover10_B_2 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.1, y ∈ pc.1.set :=
  View.cover_of_tiledL _ S1x64.size (by sl_kernel_rfl) y
theorem cover10_B_3 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.1, y ∈ pc.1.set :=
  View.cover_of_tiledL _ S1x64.size (by sl_kernel_rfl) y
theorem cover10_B_4 (c : Dev nD) (t : Fin cfg10.N) (hc : ¬cond10_0 (grid10.coords t)) (xs6 xs7 : Vec F S1x64 .f32) (y : S1x64.Idx) :
    ∃ pc ∈ (kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) xs6 xs7).2.2.2.2.1, y ∈ pc.1.set :=
  View.cover_of_tiledL _ S1x64.size (by sl_kernel_rfl) y

/-! ## The proof data -/

/-- The invariant before point n: the scoped rest but the two scratch rows, the generator register, and the two
    scratch rows at their contents (pinned from the second point on). -/
def PhiS10 (c : Dev nD) (n : ℕ) : sProp 𝕄 :=
  iprop(Pipeline.scopedRestBut (Ix := Unit) (Name := ℕ) (U := Pipeline.UD sig nD τ) (Lvl := ℕ) (Val := Elt F) spec10 c [cc10_scratch0, cc10_scratch1]
    ∗ (∃ r, prngReg c r)
    ∗ (∃ d6, owns (c : Thread nD τ) scM10_0 fullShare d6 ∗ ⌜n ≠ 0 → d6 = (scB10 V c n).1⌝)
    ∗ (∃ d7, owns (c : Thread nD τ) scM10_1 fullShare d7 ∗ ⌜n ≠ 0 → d7 = (scB10 V c n).2⌝))

/-- Region 10's proof data on core c. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => pre10At V c t (scB10 V c t.val).1 (scB10 V c t.val).2
    | ⟨3, _⟩ => sum10At V c t (scB10 V c t.val).1 (scB10 V c t.val).2
    | ⟨4, _⟩ => sq10At V c t (scB10 V c t.val).1 (scB10 V c t.val).2
  Φ t := PhiS10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = pre10At V c t (scB10 V c t.val).1 (scB10 V c t.val).2 := by dsimp only [dat10]
theorem after10_3 (c : Dev nD) (t : Fin cfg10.N) : (dat10 V c).after 3 t = sum10At V c t (scB10 V c t.val).1 (scB10 V c t.val).2 := by dsimp only [dat10]
theorem after10_4 (c : Dev nD) (t : Fin cfg10.N) : (dat10 V c).after 4 t = sq10At V c t (scB10 V c t.val).1 (scB10 V c t.val).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The scratch rows after point t are the rows before point t + 1. -/
theorem scB10_succ (c : Dev nD) (t : Fin cfg10.N) :
    scB10 V c (t.val + 1) = (scL10At V c t (scB10 V c t.val).1 (scB10 V c t.val).2, scR10At V c t (scB10 V c t.val).1 (scB10 V c t.val).2) := by
  show (if h : t.val < cfg10.N then _ else _) = _
  rw [dif_pos t.isLt]

/-! ## The body obligation -/

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- A point other than the first is not the reset's. -/
theorem val10_ne_zero (t : Fin cfg10.N) (hc : ¬cond10_0 (grid10.coords t)) : t.val ≠ 0 := by
  intro h0
  exact hc ((hcond10_0 t).mpr (by rw [h0]))

set_option maxHeartbeats 1000000 in
/-- The body at any point: by cases on whether it is the first. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = PhiS10 V c (t.val + 1) from rfl,
    show (dat10 V c).Φ t.castSucc = PhiS10 V c t.val from rfl,
    show (dat10 V c).owesAt () t.succ = (dat10 V c).owesAt () t.castSucc from rfl,
    after10_0, after10_1, after10_2, after10_3, after10_4]
  unfold PhiS10
  rw [scB10_succ]
  by_cases hc : cond10_0 (grid10.coords t)
  · unfold pre10At sum10At sq10At scL10At scR10At
    simp only [dif_pos hc]
    iintro ⟨⟨HR, Hg, ⟨%d6, H6, -⟩, ⟨%d7, H7, -⟩⟩, Ho, ⟨%d0, H0⟩, ⟨%d1, H1⟩, ⟨%d2, H2⟩, ⟨%d3, H3⟩, ⟨%d4, H4⟩⟩
    iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexists _; iexact H6
    isplitl [H7]; · iexists _; iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover10_A_3 V c t hc)
        · ipureintro; intro _; rfl
      · iexists _; isplitl [H7]
        · unfold owns; iexists _; isplitr; swap; · iexact H7
          ipureintro; exact View.read_writes_eq_canon _ _ _ (cover10_A_4 V c t hc)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover10_A_0 V c t hc)
    isplitl [H3]
    · unfold owns; iexists _; isplitr; swap; · iexact H3
      ipureintro; exact View.read_writes_eq_canon _ _ _ (cover10_A_1 V c t hc)
    · unfold owns; iexists _; isplitr; swap; · iexact H4
      ipureintro; exact View.read_writes_eq_canon _ _ _ (cover10_A_2 V c t hc)
  · have hne := val10_ne_zero t hc
    unfold pre10At sum10At sq10At scL10At scR10At
    simp only [dif_neg hc]
    iintro ⟨⟨HR, Hg, ⟨%d6, H6, %h6⟩, ⟨%d7, H7, %h7⟩⟩, Ho, ⟨%d0, H0⟩, ⟨%d1, H1⟩, ⟨%d2, H2⟩, ⟨%d3, H3⟩, ⟨%d4, H4⟩⟩
    obtain rfl := h6 hne
    obtain rfl := h7 hne
    iapply ((kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) hc (iblk10 V c 0 t) (iblk10 V c 1 t) (scB10 V c t.val).1 (scB10 V c t.val).2).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H6]; · iexact H6
    isplitl [H7]; · iexact H7
    iintro ⟨H0, H1, ⟨%e2, H2⟩, ⟨%e3, H3⟩, ⟨%e4, H4⟩, ⟨%e6, H6⟩, ⟨%e7, H7⟩⟩
    isplitl [HR Hg H6 H7]
    · isplitl [HR]; · iexact HR
      isplitl [Hg]; · iexact Hg
      isplitl [H6]
      · iexists _; isplitl [H6]
        · unfold owns; iexists _; isplitr; swap; · iexact H6
          ipureintro; exact View.read_writes_eq_canon _ _ _ (cover10_B_3 V c t hc _ _)
        · ipureintro; intro _; rfl
      · iexists _; isplitl [H7]
        · unfold owns; iexists _; isplitr; swap; · iexact H7
          ipureintro; exact View.read_writes_eq_canon _ _ _ (cover10_B_4 V c t hc _ _)
        · ipureintro; intro _; rfl
    isplitl [Ho]; · iexact Ho
    isplitl [H0]; · iexact H0
    isplitl [H1]; · iexact H1
    isplitl [H2]
    · unfold owns; iexists _; isplitr; swap; · iexact H2
      ipureintro; exact View.read_writes_eq_canon _ _ _ (cover10_B_0 V c t hc _ _)
    isplitl [H3]
    · unfold owns; iexists _; isplitr; swap; · iexact H3
      ipureintro; exact View.read_writes_eq_canon _ _ _ (cover10_B_1 V c t hc _ _)
    · unfold owns; iexists _; isplitr; swap; · iexact H4
      ipureintro; exact View.read_writes_eq_canon _ _ _ (cover10_B_2 V c t hc _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
/-
  Region 11: normalise and clamp, layer 4. At grid point t the body subtracts the column-mean row from the point's 10000 x 64 block of pre-activations, scales by the reciprocal-deviation row and the gain row, adds the shift row, clamps at zero and stores the whole block. The four rows are fetched once and stay in place.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! Each input's staging buffer holds the point's block when the body runs, fetched at this point or kept from an earlier one. -/

theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S10000x64 := Rect.unit (s := S10000x64) ![0, 0] S10000x64.size inb_S10000x64_S10000x64_0_0
abbrev r11_1 : Rect S1x64 := Rect.unit (s := S1x64) ![0, 0] S1x64.size inb_S1x64_S1x64_0_0
abbrev r11_2 : Rect S1x64 := Rect.unit (s := S1x64) ![0, 0] S1x64.size inb_S1x64_S1x64_0_0
abbrev r11_3 : Rect S1x64 := Rect.unit (s := S1x64) ![0, 0] S1x64.size inb_S1x64_S1x64_0_0
abbrev r11_4 : Rect S1x64 := Rect.unit (s := S1x64) ![0, 0] S1x64.size inb_S1x64_S1x64_0_0
abbrev r11_5 : Rect S10000x64 := Rect.unit (s := S10000x64) ![0, 0] S10000x64.size inb_S10000x64_S10000x64_0_0

/-- The output block after the body: the one store, of the body's value of the loaded blocks, over the whole block. -/
def out11_5 (x0 : Vec F S10000x64 .f32) (x1 : Vec F S1x64 .f32) (x2 : Vec F S1x64 .f32) (x3 : Vec F S1x64 .f32) (x4 : Vec F S1x64 .f32) : Vec F S10000x64 .f32 :=
  View.canon [⟨r11_5, k11_pay1 (View.ld x0 r11_0) (View.ld x1 r11_1) (View.ld x2 r11_2) (View.ld x3 r11_3) (View.ld x4 r11_4)⟩]

theorem cover11_5 (p0 : Vec F S10000x64 .f32) (y : S10000x64.Idx) :
    ∃ pc ∈ ([⟨r11_5, p0⟩] : List (View.Piece (Elt F) S10000x64 .f32)), y ∈ pc.1.set :=
  View.cover_of_tiled [⟨r11_5, p0⟩] S10000x64.size (by rfl) y

set_option maxHeartbeats 1000000 in
/-- The body on whole staging memrefs: the inputs keep their contents, the output ends at the body's value. -/
theorem sound_kernel11 (c : Dev nD) (E : Set ℕ) (i : grid11.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__norm_relu_kernel i arg1 harg1 arg2 harg2 arg3 harg3 arg4 harg4 arg5 harg5 arg6 harg6) K := by
  simp only [cc11__norm_relu_kernel_eq_skeleton]; unfold cc11__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data and the body obligation -/

/-- The region's proof data on core c: the arrays as the region finds them; after the body at point t each input's
    buffer holds its block and the output's the body's value of them; the invariant is the scoped rest and the
    generator register, untouched; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
/-
  Region 12: the last affine map and the log-softmax, one grid point: the 512 x 64 pooled features times the 64 x 10 matrix plus the bias row, then each row less its log-sum-exp, stored whole.
  Stated at any float values and at a parameter V, the buffers' contents when the region is entered.
-/
import proofs.«106081_j12317966204981_2_alg».proof.Proof.Gen.KernelIdeal.Launch
import proofs.«106081_j12317966204981_2_alg».proof.Proof.Gen.KernelIdeal.Skeleton
import proofs.«106081_j12317966204981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! Each input's staging buffer holds the point's block when the body runs, fetched at this point or kept from an earlier one. -/

theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S512x64 := Rect.unit (s := S512x64) ![0, 0] S512x64.size inb_S512x64_S512x64_0_0
abbrev r12_1 : Rect S64x10 := Rect.unit (s := S64x10) ![0, 0] S64x10.size inb_S64x10_S64x10_0_0
abbrev r12_2 : Rect S1x10 := Rect.unit (s := S1x10) ![0, 0] S1x10.size inb_S1x10_S1x10_0_0
abbrev r12_3 : Rect S512x10 := Rect.unit (s := S512x10) ![0, 0] S512x10.size inb_S512x10_S512x10_0_0

/-- The output block after the body: the one store, of the body's value of the loaded blocks, over the whole block. -/
def out12_3 (x0 : Vec F S512x64 .f32) (x1 : Vec F S64x10 .f32) (x2 : Vec F S1x10 .f32) : Vec F S512x10 .f32 :=
  View.canon [⟨r12_3, k12_pay1 (View.ld x0 r12_0) (View.ld x1 r12_1) (View.ld x2 r12_2)⟩]

theorem cover12_3 (p0 : Vec F S512x10 .f32) (y : S512x10.Idx) :
    ∃ pc ∈ ([⟨r12_3, p0⟩] : List (View.Piece (Elt F) S512x10 .f32)), y ∈ pc.1.set :=
  View.cover_of_tiled [⟨r12_3, p0⟩] S512x10.size (by rfl) y

set_option maxHeartbeats 1000000 in
/-- The body on whole staging memrefs: the inputs keep their contents, the output ends at the body's value. -/
theorem sound_kernel12 (c : Dev nD) (E : Set ℕ) (i : grid12.Coords) (arg1 : Memref sig .tc .vmem S512x64 .f32) (harg1 : arg1.IsWhole) (arg2 : Memref sig .tc .vmem S64x10 .f32) (harg2 : arg2.IsWhole) (arg3 : Memref sig .tc .vmem S1x10 .f32) (harg3 : arg3.IsWhole) (arg4 : Memref sig .tc .vmem S512x10 .f32) (harg4 : arg4.IsWhole)
    (x0 : Vec F S512x64 .f32) (x1 : Vec F S64x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out12_3 x0 x1 x2)) -∗ K ⟨⟩))
      ⊢ wp frame (wpE (defs₀ (F := F)) Variants.none c none) E (cc12__fc_logsoftmax_kernel i arg1 harg1 arg2 harg2 arg3 harg3 arg4 harg4) K := by
  simp only [cc12__fc_logsoftmax_kernel_eq_skeleton]; unfold cc12__fc_logsoftmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The proof data and the body obligation -/

/-- The region's proof data on core c: the arrays as the region finds them; after the body at point t each input's
    buffer holds its block and the output's the body's value of them; the invariant is the scoped rest and the
    generator register, untouched; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Fold.lean ====
/-
  The buffers' contents at each boundary of the program, as a fold through it: the launch memory, then each
  stretch of host operations folded over the contents before it, and each kernel region leaving its arrays at what
  its pipeline leaves (an input array as entered, an output array with its write-backs folded) and every other
  buffer as entered. Stage j is defined from stage j - 1; two facts per region say what it holds at a window's
  array and elsewhere, and one fact per stage says which buffers it leaves alone. No stage writes an argument, so
  the last stage holds each argument as launched.
-/
import proofs.«106081_j12317966204981_2_alg».proof.Proof.KI.R0
import proofs.«106081_j12317966204981_2_alg».proof.Proof.KI.R1b
import proofs.«106081_j12317966204981_2_alg».proof.Proof.KI.R2
import proofs.«106081_j12317966204981_2_alg».proof.Proof.KI.R3
import proofs.«106081_j12317966204981_2_alg».proof.Proof.KI.R4b
import proofs.«106081_j12317966204981_2_alg».proof.Proof.KI.R5
import proofs.«106081_j12317966204981_2_alg».proof.Proof.KI.R6
import proofs.«106081_j12317966204981_2_alg».proof.Proof.KI.R7b
import proofs.«106081_j12317966204981_2_alg».proof.Proof.KI.R8
import proofs.«106081_j12317966204981_2_alg».proof.Proof.KI.R9
import proofs.«106081_j12317966204981_2_alg».proof.Proof.KI.R10b
import proofs.«106081_j12317966204981_2_alg».proof.Proof.KI.R11
import proofs.«106081_j12317966204981_2_alg».proof.Proof.KI.R12
import proofs.«106081_j12317966204981_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)

/-- Core c's buffers at launch. -/
abbrev W0 : Dev nD → Valuation τ sig (Elt F) := fun c b => m (c, b)
/-- The same read at the TensorCore's references. -/
abbrev VT0 : (c : Dev nD) → (b : Ref sig .tc) → Buf (Elt F) ((c : Thread nD τ).loc b) := fun c b => W0 m c b

/-- After the host stretch hostOps0: its operations folded over the contents before it. -/
abbrev W1 : Dev nD → Valuation τ sig (Elt F) := fun c => StableHlo.after hostOps0 (W0 m c)
abbrev VT1 : (c : Dev nD) → (b : Ref sig .tc) → Buf (Elt F) ((c : Thread nD τ).loc b) := fun c b => W1 m c b
/-- A buffer the stretch does not write is as before it. -/
theorem W1_keep (c : Dev nD) (r : Ref sig .tc) (h : r ∉ hostOps0_W) : W1 m c r = W0 m c r :=
  StableHlo.after_of_writes_sub hostOps0 _ hostOps0_writes h

/-- At region 0's exit: its arrays at what the pipeline leaves (an input as entered, an output with its
    write-backs folded), every other buffer as entered. -/
def W2 (c : Dev nD) : Valuation τ sig (Elt F) :=
  Pipeline.withArrays spec0 c (W1 m c) fun w => (dat0 (VT1 m) c).arrAt w cfg0.N
theorem W2_arr (c : Dev nD) (w : Fin cfg0.W) :
    W2 m c (Proc.devRef .tc (Pipeline.arrRef spec0 w)) = (dat0 (VT1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VT2 : (c : Dev nD) → (b : Ref sig .tc) → Buf (Elt F) ((c : Thread nD τ).loc b) := fun c b => W2 m c b
theorem hF0 (c : Dev nD) (w : Fin cfg0.W) : (dat0 (VT1 m) c).arrAt w cfg0.N = VT2 m c (Pipeline.arrRef spec0 w) :=
  (W2_arr m c w).symm
theorem hrest0 (c : Dev nD) : ∀ b, b ∉ Finset.univ.image (Pipeline.arrRef spec0) → VT2 m c b = VT1 m c b :=
  fun b hb => W2_of_ne m c b fun w e => hb (Finset.mem_image.mpr ⟨w, Finset.mem_univ _, e⟩)
/-- A buffer that is not one of the region's outputs is as before it: an input's array is never written back. -/
theorem W2_keep (c : Dev nD) (r : Ref sig .tc) (h : r ∉ ([main_v29] : List (Ref sig .tc))) :
    W2 m c (Proc.devRef .tc r) = W1 m c (Proc.devRef .tc r) := by
  by_cases h0 : Pipeline.arrRef spec0 0 = r
  · subst h0; exact (W2_arr m c 0).trans (((dat0 (VT1 m) c).arrAt_in 0 rfl _).trans (A_eq0 (VT1 m) c 0))
  by_cases h1 : Pipeline.arrRef spec0 1 = r
  · subst h1; exact (W2_arr m c 1).trans (((dat0 (VT1 m) c).arrAt_in 1 rfl _).trans (A_eq0 (VT1 m) c 1))
  by_cases h2 : Pipeline.arrRef spec0 2 = r
  · subst h2; exact absurd (show Pipeline.arrRef spec0 2 ∈ ([main_v29] : List (Ref sig .tc)) by decide) h
  exact W2_of_ne m c r (fun | 0 => h0 | 1 => h1 | 2 => h2 | ⟨_ + 3, h'⟩ => absurd h' (Nat.not_lt.2 (Nat.le_add_left _ _)))

/-- After the host stretch hostOps1: its operations folded over the contents before it. -/
abbrev W3 : Dev nD → Valuation τ sig (Elt F) := fun c => StableHlo.after hostOps1 (W2 m c)
abbrev VT3 : (c : Dev nD) → (b : Ref sig .tc) → Buf (Elt F) ((c : Thread nD τ).loc b) := fun c b => W3 m c b
/-- A buffer the stretch does not write is as before it. -/
theorem W3_keep (c : Dev nD) (r : Ref sig .tc) (h : r ∉ hostOps1_W) : W3 m c r = W2 m c r :=
  StableHlo.after_of_writes_sub hostOps1 _ hostOps1_writes h

/-- At region 1's exit: its arrays at what the pipeline leaves (an input as entered, an output with its
    write-backs folded), every other buffer as entered. -/
def W4 (c : Dev nD) : Valuation τ sig (Elt F) :=
  Pipeline.withArrays spec1 c (W3 m c) fun w => (dat1 (VT3 m) c).arrAt w cfg1.N
theorem W4_arr (c : Dev nD) (w : Fin cfg1.W) :
    W4 m c (Proc.devRef .tc (Pipeline.arrRef spec1 w)) = (dat1 (VT3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VT4 : (c : Dev nD) → (b : Ref sig .tc) → Buf (Elt F) ((c : Thread nD τ).loc b) := fun c b => W4 m c b
theorem hF1 (c : Dev nD) (w : Fin cfg1.W) : (dat1 (VT3 m) c).arrAt w cfg1.N = VT4 m c (Pipeline.arrRef spec1 w) :=
  (W4_arr m c w).symm
theorem hrest1 (c : Dev nD) : ∀ b, b ∉ Finset.univ.image (Pipeline.arrRef spec1) → VT4 m c b = VT3 m c b :=
  fun b hb => W4_of_ne m c b fun w e => hb (Finset.mem_image.mpr ⟨w, Finset.mem_univ _, e⟩)
/-- A buffer that is not one of the region's outputs is as before it: an input's array is never written back. -/
theorem W4_keep (c : Dev nD) (r : Ref sig .tc) (h : r ∉ ([main_v46_0, main_v46_1, main_v46_2] : List (Ref sig .tc))) :
    W4 m c (Proc.devRef .tc r) = W3 m c (Proc.devRef .tc r) := by
  by_cases h0 : Pipeline.arrRef spec1 0 = r
  · subst h0; exact (W4_arr m c 0).trans (((dat1 (VT3 m) c).arrAt_in 0 rfl _).trans (A_eq1 (VT3 m) c 0))
  by_cases h1 : Pipeline.arrRef spec1 1 = r
  · subst h1; exact (W4_arr m c 1).trans (((dat1 (VT3 m) c).arrAt_in 1 rfl _).trans (A_eq1 (VT3 m) c 1))
  by_cases h2 : Pipeline.arrRef spec1 2 = r
  · subst h2; exact absurd (show Pipeline.arrRef spec1 2 ∈ ([main_v46_0, main_v46_1, main_v46_2] : List (Ref sig .tc)) by decide) h
  by_cases h3 : Pipeline.arrRef spec1 3 = r
  · subst h3; exact absurd (show Pipeline.arrRef spec1 3 ∈ ([main_v46_0, main_v46_1, main_v46_2] : List (Ref sig .tc)) by decide) h
  by_cases h4 : Pipeline.arrRef spec1 4 = r
  · subst h4; exact absurd (show Pipeline.arrRef spec1 4 ∈ ([main_v46_0, main_v46_1, main_v46_2] : List (Ref sig .tc)) by decide) h
  exact W4_of_ne m c r (fun | 0 => h0 | 1 => h1 | 2 => h2 | 3 => h3 | 4 => h4 | ⟨_ + 5, h'⟩ => absurd h' (Nat.not_lt.2 (Nat.le_add_left _ _)))

/-- After the host stretch hostOps2: its operations folded over the contents before it. -/
abbrev W5 : Dev nD → Valuation τ sig (Elt F) := fun c => StableHlo.after hostOps2 (W4 m c)
abbrev VT5 : (c : Dev nD) → (b : Ref sig .tc) → Buf (Elt F) ((c : Thread nD τ).loc b) := fun c b => W5 m c b
/-- A buffer the stretch does not write is as before it. -/
theorem W5_keep (c : Dev nD) (r : Ref sig .tc) (h : r ∉ hostOps2_W) : W5 m c r = W4 m c r :=
  StableHlo.after_of_writes_sub hostOps2 _ hostOps2_writes h

/-- At region 2's exit: its arrays at what the pipeline leaves (an input as entered, an output with its
    write-backs folded), every other buffer as entered. -/
def W6 (c : Dev nD) : Valuation τ sig (Elt F) :=
  Pipeline.withArrays spec2 c (W5 m c) fun w => (dat2 (VT5 m) c).arrAt w cfg2.N
theorem W6_arr (c : Dev nD) (w : Fin cfg2.W) :
    W6 m c (Proc.devRef .tc (Pipeline.arrRef spec2 w)) = (dat2 (VT5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VT6 : (c : Dev nD) → (b : Ref sig .tc) → Buf (Elt F) ((c : Thread nD τ).loc b) := fun c b => W6 m c b
theorem hF2 (c : Dev nD) (w : Fin cfg2.W) : (dat2 (VT5 m) c).arrAt w cfg2.N = VT6 m c (Pipeline.arrRef spec2 w) :=
  (W6_arr m c w).symm
theorem hrest2 (c : Dev nD) : ∀ b, b ∉ Finset.univ.image (Pipeline.arrRef spec2) → VT6 m c b = VT5 m c b :=
  fun b hb => W6_of_ne m c b fun w e => hb (Finset.mem_image.mpr ⟨w, Finset.mem_univ _, e⟩)
/-- A buffer that is not one of the region's outputs is as before it: an input's array is never written back. -/
theorem W6_keep (c : Dev nD) (r : Ref sig .tc) (h : r ∉ ([main_v58] : List (Ref sig .tc))) :
    W6 m c (Proc.devRef .tc r) = W5 m c (Proc.devRef .tc r) := by
  by_cases h0 : Pipeline.arrRef spec2 0 = r
  · subst h0; exact (W6_arr m c 0).trans (((dat2 (VT5 m) c).arrAt_in 0 rfl _).trans (A_eq2 (VT5 m) c 0))
  by_cases h1 : Pipeline.arrRef spec2 1 = r
  · subst h1; exact (W6_arr m c 1).trans (((dat2 (VT5 m) c).arrAt_in 1 rfl _).trans (A_eq2 (VT5 m) c 1))
  by_cases h2 : Pipeline.arrRef spec2 2 = r
  · subst h2; exact (W6_arr m c 2).trans (((dat2 (VT5 m) c).arrAt_in 2 rfl _).trans (A_eq2 (VT5 m) c 2))
  by_cases h3 : Pipeline.arrRef spec2 3 = r
  · subst h3; exact (W6_arr m c 3).trans (((dat2 (VT5 m) c).arrAt_in 3 rfl _).trans (A_eq2 (VT5 m) c 3))
  by_cases h4 : Pipeline.arrRef spec2 4 = r
  · subst h4; exact (W6_arr m c 4).trans (((dat2 (VT5 m) c).arrAt_in 4 rfl _).trans (A_eq2 (VT5 m) c 4))
  by_cases h5 : Pipeline.arrRef spec2 5 = r
  · subst h5; exact absurd (show Pipeline.arrRef spec2 5 ∈ ([main_v58] : List (Ref sig .tc)) by decide) h
  exact W6_of_ne m c r (fun | 0 => h0 | 1 => h1 | 2 => h2 | 3 => h3 | 4 => h4 | 5 => h5 | ⟨_ + 6, h'⟩ => absurd h' (Nat.not_lt.2 (Nat.le_add_left _ _)))

/-- At region 3's exit: its arrays at what the pipeline leaves (an input as entered, an output with its
    write-backs folded), every other buffer as entered. -/
def W7 (c : Dev nD) : Valuation τ sig (Elt F) :=
  Pipeline.withArrays spec3 c (W6 m c) fun w => (dat3 (VT6 m) c).arrAt w cfg3.N
theorem W7_arr (c : Dev nD) (w : Fin cfg3.W) :
    W7 m c (Proc.devRef .tc (Pipeline.arrRef spec3 w)) = (dat3 (VT6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev VT7 : (c : Dev nD) → (b : Ref sig .tc) → Buf (Elt F) ((c : Thread nD τ).loc b) := fun c b => W7 m c b
theorem hF3 (c : Dev nD) (w : Fin cfg3.W) : (dat3 (VT6 m) c).arrAt w cfg3.N = VT7 m c (Pipeline.arrRef spec3 w) :=
  (W7_arr m c w).symm
theorem hrest3 (c : Dev nD) : ∀ b, b ∉ Finset.univ.image (Pipeline.arrRef spec3) → VT7 m c b = VT6 m c b :=
  fun b hb => W7_of_ne m c b fun w e => hb (Finset.mem_image.mpr ⟨w, Finset.mem_univ _, e⟩)
/-- A buffer that is not one of the region's outputs is as before it: an input's array is never written back. -/
theorem W7_keep (c : Dev nD) (r : Ref sig .tc) (h : r ∉ ([main_v59] : List (Ref sig .tc))) :
    W7 m c (Proc.devRef .tc r) = W6 m c (Proc.devRef .tc r) := by
  by_cases h0 : Pipeline.arrRef spec3 0 = r
  · subst h0; exact (W7_arr m c 0).trans (((dat3 (VT6 m) c).arrAt_in 0 rfl _).trans (A_eq3 (VT6 m) c 0))
  by_cases h1 : Pipeline.arrRef spec3 1 = r
  · subst h1; exact (W7_arr m c 1).trans (((dat3 (VT6 m) c).arrAt_in 1 rfl _).trans (A_eq3 (VT6 m) c 1))
  by_cases h2 : Pipeline.arrRef spec3 2 = r
  · subst h2; exact absurd (show Pipeline.arrRef spec3 2 ∈ ([main_v59] : List (Ref sig .tc)) by decide) h
  exact W7_of_ne m c r (fun | 0 => h0 | 1 => h1 | 2 => h2 | ⟨_ + 3, h'⟩ => absurd h' (Nat.not_lt.2 (Nat.le_add_left _ _)))

/-- After the host stretch hostOps4: its operations folded over the contents before it. -/
abbrev W8 : Dev nD → Valuation τ sig (Elt F) := fun c => StableHlo.after hostOps4 (W7 m c)
abbrev VT8 : (c : Dev nD) → (b : Ref sig .tc) → Buf (Elt F) ((c : Thread nD τ).loc b) := fun c b => W8 m c b
/-- A buffer the stretch does not write is as before it. -/
theorem W8_keep (c : Dev nD) (r : Ref sig .tc) (h : r ∉ hostOps4_W) : W8 m c r = W7 m c r :=
  StableHlo.after_of_writes_sub hostOps4 _ hostOps4_writes h

/-- At region 4's exit: its arrays at what the pipeline leaves (an input as entered, an output with its
    write-backs folded), every other buffer as entered. -/
def W9 (c : Dev nD) : Valuation τ sig (Elt F) :=
  Pipeline.withArrays spec4 c (W8 m c) fun w => (dat4 (VT8 m) c).arrAt w cfg4.N
theorem W9_arr (c : Dev nD) (w : Fin cfg4.W) :
    W9 m c (Proc.devRef .tc (Pipeline.arrRef spec4 w)) = (dat4 (VT8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev VT9 : (c : Dev nD) → (b : Ref sig .tc) → Buf (Elt F) ((c : Thread nD τ).loc b) := fun c b => W9 m c b
theorem hF4 (c : Dev nD) (w : Fin cfg4.W) : (dat4 (VT8 m) c).arrAt w cfg4.N = VT9 m c (Pipeline.arrRef spec4 w) :=
  (W9_arr m c w).symm
theorem hrest4 (c : Dev nD) : ∀ b, b ∉ Finset.univ.image (Pipeline.arrRef spec4) → VT9 m c b = VT8 m c b :=
  fun b hb => W9_of_ne m c b fun w e => hb (Finset.mem_image.mpr ⟨w, Finset.mem_univ _, e⟩)
/-- A buffer that is not one of the region's outputs is as before it: an input's array is never written back. -/
theorem W9_keep (c : Dev nD) (r : Ref sig .tc) (h : r ∉ ([main_v76_0, main_v76_1, main_v76_2] : List (Ref sig .tc))) :
    W9 m c (Proc.devRef .tc r) = W8 m c (Proc.devRef .tc r) := by
  by_cases h0 : Pipeline.arrRef spec4 0 = r
  · subst h0; exact (W9_arr m c 0).trans (((dat4 (VT8 m) c).arrAt_in 0 rfl _).trans (A_eq4 (VT8 m) c 0))
  by_cases h1 : Pipeline.arrRef spec4 1 = r
  · subst h1; exact (W9_arr m c 1).trans (((dat4 (VT8 m) c).arrAt_in 1 rfl _).trans (A_eq4 (VT8 m) c 1))
  by_cases h2 : Pipeline.arrRef spec4 2 = r
  · subst h2; exact absurd (show Pipeline.arrRef spec4 2 ∈ ([main_v76_0, main_v76_1, main_v76_2] : List (Ref sig .tc)) by decide) h
  by_cases h3 : Pipeline.arrRef spec4 3 = r
  · subst h3; exact absurd (show Pipeline.arrRef spec4 3 ∈ ([main_v76_0, main_v76_1, main_v76_2] : List (Ref sig .tc)) by decide) h
  by_cases h4 : Pipeline.arrRef spec4 4 = r
  · subst h4; exact absurd (show Pipeline.arrRef spec4 4 ∈ ([main_v76_0, main_v76_1, main_v76_2] : List (Ref sig .tc)) by decide) h
  exact W9_of_ne m c r (fun | 0 => h0 | 1 => h1 | 2 => h2 | 3 => h3 | 4 => h4 | ⟨_ + 5, h'⟩ => absurd h' (Nat.not_lt.2 (Nat.le_add_left _ _)))

/-- After the host stretch hostOps5: its operations folded over the contents before it. -/
abbrev W10 : Dev nD → Valuation τ sig (Elt F) := fun c => StableHlo.after hostOps5 (W9 m c)
abbrev VT10 : (c : Dev nD) → (b : Ref sig .tc) → Buf (Elt F) ((c : Thread nD τ).loc b) := fun c b => W10 m c b
/-- A buffer the stretch does not write is as before it. -/
theorem W10_keep (c : Dev nD) (r : Ref sig .tc) (h : r ∉ hostOps5_W) : W10 m c r = W9 m c r :=
  StableHlo.after_of_writes_sub hostOps5 _ hostOps5_writes h

/-- At region 5's exit: its arrays at what the pipeline leaves (an input as entered, an output with its
    write-backs folded), every other buffer as entered. -/
def W11 (c : Dev nD) : Valuation τ sig (Elt F) :=
  Pipeline.withArrays spec5 c (W10 m c) fun w => (dat5 (VT10 m) c).arrAt w cfg5.N
theorem W11_arr (c : Dev nD) (w : Fin cfg5.W) :
    W11 m c (Proc.devRef .tc (Pipeline.arrRef spec5 w)) = (dat5 (VT10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
abbrev VT11 : (c : Dev nD) → (b : Ref sig .tc) → Buf (Elt F) ((c : Thread nD τ).loc b) := fun c b => W11 m c b
theorem hF5 (c : Dev nD) (w : Fin cfg5.W) : (dat5 (VT10 m) c).arrAt w cfg5.N = VT11 m c (Pipeline.arrRef spec5 w) :=
  (W11_arr m c w).symm
theorem hrest5 (c : Dev nD) : ∀ b, b ∉ Finset.univ.image (Pipeline.arrRef spec5) → VT11 m c b = VT10 m c b :=
  fun b hb => W11_of_ne m c b fun w e => hb (Finset.mem_image.mpr ⟨w, Finset.mem_univ _, e⟩)
/-- A buffer that is not one of the region's outputs is as before it: an input's array is never written back. -/
theorem W11_keep (c : Dev nD) (r : Ref sig .tc) (h : r ∉ ([main_v88] : List (Ref sig .tc))) :
    W11 m c (Proc.devRef .tc r) = W10 m c (Proc.devRef .tc r) := by
  by_cases h0 : Pipeline.arrRef spec5 0 = r
  · subst h0; exact (W11_arr m c 0).trans (((dat5 (VT10 m) c).arrAt_in 0 rfl _).trans (A_eq5 (VT10 m) c 0))
  by_cases h1 : Pipeline.arrRef spec5 1 = r
  · subst h1; exact (W11_arr m c 1).trans (((dat5 (VT10 m) c).arrAt_in 1 rfl _).trans (A_eq5 (VT10 m) c 1))
  by_cases h2 : Pipeline.arrRef spec5 2 = r
  · subst h2; exact (W11_arr m c 2).trans (((dat5 (VT10 m) c).arrAt_in 2 rfl _).trans (A_eq5 (VT10 m) c 2))
  by_cases h3 : Pipeline.arrRef spec5 3 = r
  · subst h3; exact (W11_arr m c 3).trans (((dat5 (VT10 m) c).arrAt_in 3 rfl _).trans (A_eq5 (VT10 m) c 3))
  by_cases h4 : Pipeline.arrRef spec5 4 = r
  · subst h4; exact (W11_arr m c 4).trans (((dat5 (VT10 m) c).arrAt_in 4 rfl _).trans (A_eq5 (VT10 m) c 4))
  by_cases h5 : Pipeline.arrRef spec5 5 = r
  · subst h5; exact absurd (show Pipeline.arrRef spec5 5 ∈ ([main_v88] : List (Ref sig .tc)) by decide) h
  exact W11_of_ne m c r (fun | 0 => h0 | 1 => h1 | 2 => h2 | 3 => h3 | 4 => h4 | 5 => h5 | ⟨_ + 6, h'⟩ => absurd h' (Nat.not_lt.2 (Nat.le_add_left _ _)))

/-- At region 6's exit: its arrays at what the pipeline leaves (an input as entered, an output with its
    write-backs folded), every other buffer as entered. -/
def W12 (c : Dev nD) : Valuation τ sig (Elt F) :=
  Pipeline.withArrays spec6 c (W11 m c) fun w => (dat6 (VT11 m) c).arrAt w cfg6.N
theorem W12_arr (c : Dev nD) (w : Fin cfg6.W) :
    W12 m c (Proc.devRef .tc (Pipeline.arrRef spec6 w)) = (dat6 (VT11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
abbrev VT12 : (c : Dev nD) → (b : Ref sig .tc) → Buf (Elt F) ((c : Thread nD τ).loc b) := fun c b => W12 m c b
theorem hF6 (c : Dev nD) (w : Fin cfg6.W) : (dat6 (VT11 m) c).arrAt w cfg6.N = VT12 m c (Pipeline.arrRef spec6 w) :=
  (W12_arr m c w).symm
theorem hrest6 (c : Dev nD) : ∀ b, b ∉ Finset.univ.image (Pipeline.arrRef spec6) → VT12 m c b = VT11 m c b :=
  fun b hb => W12_of_ne m c b fun w e => hb (Finset.mem_image.mpr ⟨w, Finset.mem_univ _, e⟩)
/-- A buffer that is not one of the region's outputs is as before it: an input's array is never written back. -/
theorem W12_keep (c : Dev nD) (r : Ref sig .tc) (h : r ∉ ([main_v89] : List (Ref sig .tc))) :
    W12 m c (Proc.devRef .tc r) = W11 m c (Proc.devRef .tc r) := by
  by_cases h0 : Pipeline.arrRef spec6 0 = r
  · subst h0; exact (W12_arr m c 0).trans (((dat6 (VT11 m) c).arrAt_in 0 rfl _).trans (A_eq6 (VT11 m) c 0))
  by_cases h1 : Pipeline.arrRef spec6 1 = r
  · subst h1; exact (W12_arr m c 1).trans (((dat6 (VT11 m) c).arrAt_in 1 rfl _).trans (A_eq6 (VT11 m) c 1))
  by_cases h2 : Pipeline.arrRef spec6 2 = r
  · subst h2; exact absurd (show Pipeline.arrRef spec6 2 ∈ ([main_v89] : List (Ref sig .tc)) by decide) h
  exact W12_of_ne m c r (fun | 0 => h0 | 1 => h1 | 2 => h2 | ⟨_ + 3, h'⟩ => absurd h' (Nat.not_lt.2 (Nat.le_add_left _ _)))

/-- After the host stretch hostOps7: its operations folded over the contents before it. -/
abbrev W13 : Dev nD → Valuation τ sig (Elt F) := fun c => StableHlo.after hostOps7 (W12 m c)
abbrev VT13 : (c : Dev nD) → (b : Ref sig .tc) → Buf (Elt F) ((c : Thread nD τ).loc b) := fun c b => W13 m c b
/-- A buffer the stretch does not write is as before it. -/
theorem W13_keep (c : Dev nD) (r : Ref sig .tc) (h : r ∉ hostOps7_W) : W13 m c r = W12 m c r :=
  StableHlo.after_of_writes_sub hostOps7 _ hostOps7_writes h

/-- At region 7's exit: its arrays at what the pipeline leaves (an input as entered, an output with its
    write-backs folded), every other buffer as entered. -/
def W14 (c : Dev nD) : Valuation τ sig (Elt F) :=
  Pipeline.withArrays spec7 c (W13 m c) fun w => (dat7 (VT13 m) c).arrAt w cfg7.N
theorem W14_arr (c : Dev nD) (w : Fin cfg7.W) :
    W14 m c (Proc.devRef .tc (Pipeline.arrRef spec7 w)) = (dat7 (VT13 m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
abbrev VT14 : (c : Dev nD) → (b : Ref sig .tc) → Buf (Elt F) ((c : Thread nD τ).loc b) := fun c b => W14 m c b
theorem hF7 (c : Dev nD) (w : Fin cfg7.W) : (dat7 (VT13 m) c).arrAt w cfg7.N = VT14 m c (Pipeline.arrRef spec7 w) :=
  (W14_arr m c w).symm
theorem hrest7 (c : Dev nD) : ∀ b, b ∉ Finset.univ.image (Pipeline.arrRef spec7) → VT14 m c b = VT13 m c b :=
  fun b hb => W14_of_ne m c b fun w e => hb (Finset.mem_image.mpr ⟨w, Finset.mem_univ _, e⟩)
/-- A buffer that is not one of the region's outputs is as before it: an input's array is never written back. -/
theorem W14_keep (c : Dev nD) (r : Ref sig .tc) (h : r ∉ ([main_v106_0, main_v106_1, main_v106_2] : List (Ref sig .tc))) :
    W14 m c (Proc.devRef .tc r) = W13 m c (Proc.devRef .tc r) := by
  by_cases h0 : Pipeline.arrRef spec7 0 = r
  · subst h0; exact (W14_arr m c 0).trans (((dat7 (VT13 m) c).arrAt_in 0 rfl _).trans (A_eq7 (VT13 m) c 0))
  by_cases h1 : Pipeline.arrRef spec7 1 = r
  · subst h1; exact (W14_arr m c 1).trans (((dat7 (VT13 m) c).arrAt_in 1 rfl _).trans (A_eq7 (VT13 m) c 1))
  by_cases h2 : Pipeline.arrRef spec7 2 = r
  · subst h2; exact absurd (show Pipeline.arrRef spec7 2 ∈ ([main_v106_0, main_v106_1, main_v106_2] : List (Ref sig .tc)) by decide) h
  by_cases h3 : Pipeline.arrRef spec7 3 = r
  · subst h3; exact absurd (show Pipeline.arrRef spec7 3 ∈ ([main_v106_0, main_v106_1, main_v106_2] : List (Ref sig .tc)) by decide) h
  by_cases h4 : Pipeline.arrRef spec7 4 = r
  · subst h4; exact absurd (show Pipeline.arrRef spec7 4 ∈ ([main_v106_0, main_v106_1, main_v106_2] : List (Ref sig .tc)) by decide) h
  exact W14_of_ne m c r (fun | 0 => h0 | 1 => h1 | 2 => h2 | 3 => h3 | 4 => h4 | ⟨_ + 5, h'⟩ => absurd h' (Nat.not_lt.2 (Nat.le_add_left _ _)))

/-- After the host stretch hostOps8: its operations folded over the contents before it. -/
abbrev W15 : Dev nD → Valuation τ sig (Elt F) := fun c => StableHlo.after hostOps8 (W14 m c)
abbrev VT15 : (c : Dev nD) → (b : Ref sig .tc) → Buf (Elt F) ((c : Thread nD τ).loc b) := fun c b => W15 m c b
/-- A buffer the stretch does not write is as before it. -/
theorem W15_keep (c : Dev nD) (r : Ref sig .tc) (h : r ∉ hostOps8_W) : W15 m c r = W14 m c r :=
  StableHlo.after_of_writes_sub hostOps8 _ hostOps8_writes h

/-- At region 8's exit: its arrays at what the pipeline leaves (an input as entered, an output with its
    write-backs folded), every other buffer as entered. -/
def W16 (c : Dev nD) : Valuation τ sig (Elt F) :=
  Pipeline.withArrays spec8 c (W15 m c) fun w => (dat8 (VT15 m) c).arrAt w cfg8.N
theorem W16_arr (c : Dev nD) (w : Fin cfg8.W) :
    W16 m c (Proc.devRef .tc (Pipeline.arrRef spec8 w)) = (dat8 (VT15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev VT16 : (c : Dev nD) → (b : Ref sig .tc) → Buf (Elt F) ((c : Thread nD τ).loc b) := fun c b => W16 m c b
theorem hF8 (c : Dev nD) (w : Fin cfg8.W) : (dat8 (VT15 m) c).arrAt w cfg8.N = VT16 m c (Pipeline.arrRef spec8 w) :=
  (W16_arr m c w).symm
theorem hrest8 (c : Dev nD) : ∀ b, b ∉ Finset.univ.image (Pipeline.arrRef spec8) → VT16 m c b = VT15 m c b :=
  fun b hb => W16_of_ne m c b fun w e => hb (Finset.mem_image.mpr ⟨w, Finset.mem_univ _, e⟩)
/-- A buffer that is not one of the region's outputs is as before it: an input's array is never written back. -/
theorem W16_keep (c : Dev nD) (r : Ref sig .tc) (h : r ∉ ([main_v118] : List (Ref sig .tc))) :
    W16 m c (Proc.devRef .tc r) = W15 m c (Proc.devRef .tc r) := by
  by_cases h0 : Pipeline.arrRef spec8 0 = r
  · subst h0; exact (W16_arr m c 0).trans (((dat8 (VT15 m) c).arrAt_in 0 rfl _).trans (A_eq8 (VT15 m) c 0))
  by_cases h1 : Pipeline.arrRef spec8 1 = r
  · subst h1; exact (W16_arr m c 1).trans (((dat8 (VT15 m) c).arrAt_in 1 rfl _).trans (A_eq8 (VT15 m) c 1))
  by_cases h2 : Pipeline.arrRef spec8 2 = r
  · subst h2; exact (W16_arr m c 2).trans (((dat8 (VT15 m) c).arrAt_in 2 rfl _).trans (A_eq8 (VT15 m) c 2))
  by_cases h3 : Pipeline.arrRef spec8 3 = r
  · subst h3; exact (W16_arr m c 3).trans (((dat8 (VT15 m) c).arrAt_in 3 rfl _).trans (A_eq8 (VT15 m) c 3))
  by_cases h4 : Pipeline.arrRef spec8 4 = r
  · subst h4; exact (W16_arr m c 4).trans (((dat8 (VT15 m) c).arrAt_in 4 rfl _).trans (A_eq8 (VT15 m) c 4))
  by_cases h5 : Pipeline.arrRef spec8 5 = r
  · subst h5; exact absurd (show Pipeline.arrRef spec8 5 ∈ ([main_v118] : List (Ref sig .tc)) by decide) h
  exact W16_of_ne m c r (fun | 0 => h0 | 1 => h1 | 2 => h2 | 3 => h3 | 4 => h4 | 5 => h5 | ⟨_ + 6, h'⟩ => absurd h' (Nat.not_lt.2 (Nat.le_add_left _ _)))

/-- At region 9's exit: its arrays at what the pipeline leaves (an input as entered, an output with its
    write-backs folded), every other buffer as entered. -/
def W17 (c : Dev nD) : Valuation τ sig (Elt F) :=
  Pipeline.withArrays spec9 c (W16 m c) fun w => (dat9 (VT16 m) c).arrAt w cfg9.N
theorem W17_arr (c : Dev nD) (w : Fin cfg9.W) :
    W17 m c (Proc.devRef .tc (Pipeline.arrRef spec9 w)) = (dat9 (VT16 m) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m c (Proc.devRef .tc b) = W16 m c (Proc.devRef .tc b) := by
  unfold W17; exact Pipeline.withArrays_of_ne spec9 c _ _ b hb
abbrev VT17 : (c : Dev nD) → (b : Ref sig .tc) → Buf (Elt F) ((c : Thread nD τ).loc b) := fun c b => W17 m c b
theorem hF9 (c : Dev nD) (w : Fin cfg9.W) : (dat9 (VT16 m) c).arrAt w cfg9.N = VT17 m c (Pipeline.arrRef spec9 w) :=
  (W17_arr m c w).symm
theorem hrest9 (c : Dev nD) : ∀ b, b ∉ Finset.univ.image (Pipeline.arrRef spec9) → VT17 m c b = VT16 m c b :=
  fun b hb => W17_of_ne m c b fun w e => hb (Finset.mem_image.mpr ⟨w, Finset.mem_univ _, e⟩)
/-- A buffer that is not one of the region's outputs is as before it: an input's array is never written back. -/
theorem W17_keep (c : Dev nD) (r : Ref sig .tc) (h : r ∉ ([main_v119] : List (Ref sig .tc))) :
    W17 m c (Proc.devRef .tc r) = W16 m c (Proc.devRef .tc r) := by
  by_cases h0 : Pipeline.arrRef spec9 0 = r
  · subst h0; exact (W17_arr m c 0).trans (((dat9 (VT16 m) c).arrAt_in 0 rfl _).trans (A_eq9 (VT16 m) c 0))
  by_cases h1 : Pipeline.arrRef spec9 1 = r
  · subst h1; exact (W17_arr m c 1).trans (((dat9 (VT16 m) c).arrAt_in 1 rfl _).trans (A_eq9 (VT16 m) c 1))
  by_cases h2 : Pipeline.arrRef spec9 2 = r
  · subst h2; exact absurd (show Pipeline.arrRef spec9 2 ∈ ([main_v119] : List (Ref sig .tc)) by decide) h
  exact W17_of_ne m c r (fun | 0 => h0 | 1 => h1 | 2 => h2 | ⟨_ + 3, h'⟩ => absurd h' (Nat.not_lt.2 (Nat.le_add_left _ _)))

/-- After the host stretch hostOps10: its operations folded over the contents before it. -/
abbrev W18 : Dev nD → Valuation τ sig (Elt F) := fun c => StableHlo.after hostOps10 (W17 m c)
abbrev VT18 : (c : Dev nD) → (b : Ref sig .tc) → Buf (Elt F) ((c : Thread nD τ).loc b) := fun c b => W18 m c b
/-- A buffer the stretch does not write is as before it. -/
theorem W18_keep (c : Dev nD) (r : Ref sig .tc) (h : r ∉ hostOps10_W) : W18 m c r = W17 m c r :=
  StableHlo.after_of_writes_sub hostOps10 _ hostOps10_writes h

/-- At region 10's exit: its arrays at what the pipeline leaves (an input as entered, an output with its
    write-backs folded), every other buffer as entered. -/
def W19 (c : Dev nD) : Valuation τ sig (Elt F) :=
  Pipeline.withArrays spec10 c (W18 m c) fun w => (dat10 (VT18 m) c).arrAt w cfg10.N
theorem W19_arr (c : Dev nD) (w : Fin cfg10.W) :
    W19 m c (Proc.devRef .tc (Pipeline.arrRef spec10 w)) = (dat10 (VT18 m) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m c (Proc.devRef .tc b) = W18 m c (Proc.devRef .tc b) := by
  unfold W19; exact Pipeline.withArrays_of_ne spec10 c _ _ b hb
abbrev VT19 : (c : Dev nD) → (b : Ref sig .tc) → Buf (Elt F) ((c : Thread nD τ).loc b) := fun c b => W19 m c b
theorem hF10 (c : Dev nD) (w : Fin cfg10.W) : (dat10 (VT18 m) c).arrAt w cfg10.N = VT19 m c (Pipeline.arrRef spec10 w) :=
  (W19_arr m c w).symm
theorem hrest10 (c : Dev nD) : ∀ b, b ∉ Finset.univ.image (Pipeline.arrRef spec10) → VT19 m c b = VT18 m c b :=
  fun b hb => W19_of_ne m c b fun w e => hb (Finset.mem_image.mpr ⟨w, Finset.mem_univ _, e⟩)
/-- A buffer that is not one of the region's outputs is as before it: an input's array is never written back. -/
theorem W19_keep (c : Dev nD) (r : Ref sig .tc) (h : r ∉ ([main_v136_0, main_v136_1, main_v136_2] : List (Ref sig .tc))) :
    W19 m c (Proc.devRef .tc r) = W18 m c (Proc.devRef .tc r) := by
  by_cases h0 : Pipeline.arrRef spec10 0 = r
  · subst h0; exact (W19_arr m c 0).trans (((dat10 (VT18 m) c).arrAt_in 0 rfl _).trans (A_eq10 (VT18 m) c 0))
  by_cases h1 : Pipeline.arrRef spec10 1 = r
  · subst h1; exact (W19_arr m c 1).trans (((dat10 (VT18 m) c).arrAt_in 1 rfl _).trans (A_eq10 (VT18 m) c 1))
  by_cases h2 : Pipeline.arrRef spec10 2 = r
  · subst h2; exact absurd (show Pipeline.arrRef spec10 2 ∈ ([main_v136_0, main_v136_1, main_v136_2] : List (Ref sig .tc)) by decide) h
  by_cases h3 : Pipeline.arrRef spec10 3 = r
  · subst h3; exact absurd (show Pipeline.arrRef spec10 3 ∈ ([main_v136_0, main_v136_1, main_v136_2] : List (Ref sig .tc)) by decide) h
  by_cases h4 : Pipeline.arrRef spec10 4 = r
  · subst h4; exact absurd (show Pipeline.arrRef spec10 4 ∈ ([main_v136_0, main_v136_1, main_v136_2] : List (Ref sig .tc)) by decide) h
  exact W19_of_ne m c r (fun | 0 => h0 | 1 => h1 | 2 => h2 | 3 => h3 | 4 => h4 | ⟨_ + 5, h'⟩ => absurd h' (Nat.not_lt.2 (Nat.le_add_left _ _)))

/-- After the host stretch hostOps11: its operations folded over the contents before it. -/
abbrev W20 : Dev nD → Valuation τ sig (Elt F) := fun c => StableHlo.after hostOps11 (W19 m c)
abbrev VT20 : (c : Dev nD) → (b : Ref sig .tc) → Buf (Elt F) ((c : Thread nD τ).loc b) := fun c b => W20 m c b
/-- A buffer the stretch does not write is as before it. -/
theorem W20_keep (c : Dev nD) (r : Ref sig .tc) (h : r ∉ hostOps11_W) : W20 m c r = W19 m c r :=
  StableHlo.after_of_writes_sub hostOps11 _ hostOps11_writes h

/-- At region 11's exit: its arrays at what the pipeline leaves (an input as entered, an output with its
    write-backs folded), every other buffer as entered. -/
def W21 (c : Dev nD) : Valuation τ sig (Elt F) :=
  Pipeline.withArrays spec11 c (W20 m c) fun w => (dat11 (VT20 m) c).arrAt w cfg11.N
theorem W21_arr (c : Dev nD) (w : Fin cfg11.W) :
    W21 m c (Proc.devRef .tc (Pipeline.arrRef spec11 w)) = (dat11 (VT20 m) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m c (Proc.devRef .tc b) = W20 m c (Proc.devRef .tc b) := by
  unfold W21; exact Pipeline.withArrays_of_ne spec11 c _ _ b hb
abbrev VT21 : (c : Dev nD) → (b : Ref sig .tc) → Buf (Elt F) ((c : Thread nD τ).loc b) := fun c b => W21 m c b
theorem hF11 (c : Dev nD) (w : Fin cfg11.W) : (dat11 (VT20 m) c).arrAt w cfg11.N = VT21 m c (Pipeline.arrRef spec11 w) :=
  (W21_arr m c w).symm
theorem hrest11 (c : Dev nD) : ∀ b, b ∉ Finset.univ.image (Pipeline.arrRef spec11) → VT21 m c b = VT20 m c b :=
  fun b hb => W21_of_ne m c b fun w e => hb (Finset.mem_image.mpr ⟨w, Finset.mem_univ _, e⟩)
/-- A buffer that is not one of the region's outputs is as before it: an input's array is never written back. -/
theorem W21_keep (c : Dev nD) (r : Ref sig .tc) (h : r ∉ ([main_v148] : List (Ref sig .tc))) :
    W21 m c (Proc.devRef .tc r) = W20 m c (Proc.devRef .tc r) := by
  by_cases h0 : Pipeline.arrRef spec11 0 = r
  · subst h0; exact (W21_arr m c 0).trans (((dat11 (VT20 m) c).arrAt_in 0 rfl _).trans (A_eq11 (VT20 m) c 0))
  by_cases h1 : Pipeline.arrRef spec11 1 = r
  · subst h1; exact (W21_arr m c 1).trans (((dat11 (VT20 m) c).arrAt_in 1 rfl _).trans (A_eq11 (VT20 m) c 1))
  by_cases h2 : Pipeline.arrRef spec11 2 = r
  · subst h2; exact (W21_arr m c 2).trans (((dat11 (VT20 m) c).arrAt_in 2 rfl _).trans (A_eq11 (VT20 m) c 2))
  by_cases h3 : Pipeline.arrRef spec11 3 = r
  · subst h3; exact (W21_arr m c 3).trans (((dat11 (VT20 m) c).arrAt_in 3 rfl _).trans (A_eq11 (VT20 m) c 3))
  by_cases h4 : Pipeline.arrRef spec11 4 = r
  · subst h4; exact (W21_arr m c 4).trans (((dat11 (VT20 m) c).arrAt_in 4 rfl _).trans (A_eq11 (VT20 m) c 4))
  by_cases h5 : Pipeline.arrRef spec11 5 = r
  · subst h5; exact absurd (show Pipeline.arrRef spec11 5 ∈ ([main_v148] : List (Ref sig .tc)) by decide) h
  exact W21_of_ne m c r (fun | 0 => h0 | 1 => h1 | 2 => h2 | 3 => h3 | 4 => h4 | 5 => h5 | ⟨_ + 6, h'⟩ => absurd h' (Nat.not_lt.2 (Nat.le_add_left _ _)))

/-- After the host stretch hostOps12: its operations folded over the contents before it. -/
abbrev W22 : Dev nD → Valuation τ sig (Elt F) := fun c => StableHlo.after hostOps12 (W21 m c)
abbrev VT22 : (c : Dev nD) → (b : Ref sig .tc) → Buf (Elt F) ((c : Thread nD τ).loc b) := fun c b => W22 m c b
/-- A buffer the stretch does not write is as before it. -/
theorem W22_keep (c : Dev nD) (r : Ref sig .tc) (h : r ∉ hostOps12_W) : W22 m c r = W21 m c r :=
  StableHlo.after_of_writes_sub hostOps12 _ hostOps12_writes h

/-- At region 12's exit: its arrays at what the pipeline leaves (an input as entered, an output with its
    write-backs folded), every other buffer as entered. -/
def W23 (c : Dev nD) : Valuation τ sig (Elt F) :=
  Pipeline.withArrays spec12 c (W22 m c) fun w => (dat12 (VT22 m) c).arrAt w cfg12.N
theorem W23_arr (c : Dev nD) (w : Fin cfg12.W) :
    W23 m c (Proc.devRef .tc (Pipeline.arrRef spec12 w)) = (dat12 (VT22 m) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m c (Proc.devRef .tc b) = W22 m c (Proc.devRef .tc b) := by
  unfold W23; exact Pipeline.withArrays_of_ne spec12 c _ _ b hb
abbrev VT23 : (c : Dev nD) → (b : Ref sig .tc) → Buf (Elt F) ((c : Thread nD τ).loc b) := fun c b => W23 m c b
theorem hF12 (c : Dev nD) (w : Fin cfg12.W) : (dat12 (VT22 m) c).arrAt w cfg12.N = VT23 m c (Pipeline.arrRef spec12 w) :=
  (W23_arr m c w).symm
theorem hrest12 (c : Dev nD) : ∀ b, b ∉ Finset.univ.image (Pipeline.arrRef spec12) → VT23 m c b = VT22 m c b :=
  fun b hb => W23_of_ne m c b fun w e => hb (Finset.mem_image.mpr ⟨w, Finset.mem_univ _, e⟩)
/-- A buffer that is not one of the region's outputs is as before it: an input's array is never written back. -/
theorem W23_keep (c : Dev nD) (r : Ref sig .tc) (h : r ∉ ([main_v162] : List (Ref sig .tc))) :
    W23 m c (Proc.devRef .tc r) = W22 m c (Proc.devRef .tc r) := by
  by_cases h0 : Pipeline.arrRef spec12 0 = r
  · subst h0; exact (W23_arr m c 0).trans (((dat12 (VT22 m) c).arrAt_in 0 rfl _).trans (A_eq12 (VT22 m) c 0))
  by_cases h1 : Pipeline.arrRef spec12 1 = r
  · subst h1; exact (W23_arr m c 1).trans (((dat12 (VT22 m) c).arrAt_in 1 rfl _).trans (A_eq12 (VT22 m) c 1))
  by_cases h2 : Pipeline.arrRef spec12 2 = r
  · subst h2; exact (W23_arr m c 2).trans (((dat12 (VT22 m) c).arrAt_in 2 rfl _).trans (A_eq12 (VT22 m) c 2))
  by_cases h3 : Pipeline.arrRef spec12 3 = r
  · subst h3; exact absurd (show Pipeline.arrRef spec12 3 ∈ ([main_v162] : List (Ref sig .tc)) by decide) h
  exact W23_of_ne m c r (fun | 0 => h0 | 1 => h1 | 2 => h2 | 3 => h3 | ⟨_ + 4, h'⟩ => absurd h' (Nat.not_lt.2 (Nat.le_add_left _ _)))

/-! ## The arguments end as launched: no host operation writes one, and a region reads one only through an input window -/

theorem W23_main_arg0 (c : Dev nD) : W23 m c (Proc.devRef .tc main_arg0) = m ((c : Thread nD τ).loc main_arg0) :=
  (W23_keep m c main_arg0 (by decide)).trans <|
  (W22_keep m c main_arg0 (by decide)).trans <|
  (W21_keep m c main_arg0 (by decide)).trans <|
  (W20_keep m c main_arg0 (by decide)).trans <|
  (W19_keep m c main_arg0 (by decide)).trans <|
  (W18_keep m c main_arg0 (by decide)).trans <|
  (W17_keep m c main_arg0 (by decide)).trans <|
  (W16_keep m c main_arg0 (by decide)).trans <|
  (W15_keep m c main_arg0 (by decide)).trans <|
  (W14_keep m c main_arg0 (by decide)).trans <|
  (W13_keep m c main_arg0 (by decide)).trans <|
  (W12_keep m c main_arg0 (by decide)).trans <|
  (W11_keep m c main_arg0 (by decide)).trans <|
  (W10_keep m c main_arg0 (by decide)).trans <|
  (W9_keep m c main_arg0 (by decide)).trans <|
  (W8_keep m c main_arg0 (by decide)).trans <|
  (W7_keep m c main_arg0 (by decide)).trans <|
  (W6_keep m c main_arg0 (by decide)).trans <|
  (W5_keep m c main_arg0 (by decide)).trans <|
  (W4_keep m c main_arg0 (by decide)).trans <|
  (W3_keep m c main_arg0 (by decide)).trans <|
  (W2_keep m c main_arg0 (by decide)).trans <|
  (W1_keep m c main_arg0 (by decide)).trans rfl
theorem W23_main_arg1 (c : Dev nD) : W23 m c (Proc.devRef .tc main_arg1) = m ((c : Thread nD τ).loc main_arg1) :=
  (W23_keep m c main_arg1 (by decide)).trans <|
  (W22_keep m c main_arg1 (by decide)).trans <|
  (W21_keep m c main_arg1 (by decide)).trans <|
  (W20_keep m c main_arg1 (by decide)).trans <|
  (W19_keep m c main_arg1 (by decide)).trans <|
  (W18_keep m c main_arg1 (by decide)).trans <|
  (W17_keep m c main_arg1 (by decide)).trans <|
  (W16_keep m c main_arg1 (by decide)).trans <|
  (W15_keep m c main_arg1 (by decide)).trans <|
  (W14_keep m c main_arg1 (by decide)).trans <|
  (W13_keep m c main_arg1 (by decide)).trans <|
  (W12_keep m c main_arg1 (by decide)).trans <|
  (W11_keep m c main_arg1 (by decide)).trans <|
  (W10_keep m c main_arg1 (by decide)).trans <|
  (W9_keep m c main_arg1 (by decide)).trans <|
  (W8_keep m c main_arg1 (by decide)).trans <|
  (W7_keep m c main_arg1 (by decide)).trans <|
  (W6_keep m c main_arg1 (by decide)).trans <|
  (W5_keep m c main_arg1 (by decide)).trans <|
  (W4_keep m c main_arg1 (by decide)).trans <|
  (W3_keep m c main_arg1 (by decide)).trans <|
  (W2_keep m c main_arg1 (by decide)).trans <|
  (W1_keep m c main_arg1 (by decide)).trans rfl
theorem W23_main_arg2 (c : Dev nD) : W23 m c (Proc.devRef .tc main_arg2) = m ((c : Thread nD τ).loc main_arg2) :=
  (W23_keep m c main_arg2 (by decide)).trans <|
  (W22_keep m c main_arg2 (by decide)).trans <|
  (W21_keep m c main_arg2 (by decide)).trans <|
  (W20_keep m c main_arg2 (by decide)).trans <|
  (W19_keep m c main_arg2 (by decide)).trans <|
  (W18_keep m c main_arg2 (by decide)).trans <|
  (W17_keep m c main_arg2 (by decide)).trans <|
  (W16_keep m c main_arg2 (by decide)).trans <|
  (W15_keep m c main_arg2 (by decide)).trans <|
  (W14_keep m c main_arg2 (by decide)).trans <|
  (W13_keep m c main_arg2 (by decide)).trans <|
  (W12_keep m c main_arg2 (by decide)).trans <|
  (W11_keep m c main_arg2 (by decide)).trans <|
  (W10_keep m c main_arg2 (by decide)).trans <|
  (W9_keep m c main_arg2 (by decide)).trans <|
  (W8_keep m c main_arg2 (by decide)).trans <|
  (W7_keep m c main_arg2 (by decide)).trans <|
  (W6_keep m c main_arg2 (by decide)).trans <|
  (W5_keep m c main_arg2 (by decide)).trans <|
  (W4_keep m c main_arg2 (by decide)).trans <|
  (W3_keep m c main_arg2 (by decide)).trans <|
  (W2_keep m c main_arg2 (by decide)).trans <|
  (W1_keep m c main_arg2 (by decide)).trans rfl
theorem W23_main_arg3 (c : Dev nD) : W23 m c (Proc.devRef .tc main_arg3) = m ((c : Thread nD τ).loc main_arg3) :=
  (W23_keep m c main_arg3 (by decide)).trans <|
  (W22_keep m c main_arg3 (by decide)).trans <|
  (W21_keep m c main_arg3 (by decide)).trans <|
  (W20_keep m c main_arg3 (by decide)).trans <|
  (W19_keep m c main_arg3 (by decide)).trans <|
  (W18_keep m c main_arg3 (by decide)).trans <|
  (W17_keep m c main_arg3 (by decide)).trans <|
  (W16_keep m c main_arg3 (by decide)).trans <|
  (W15_keep m c main_arg3 (by decide)).trans <|
  (W14_keep m c main_arg3 (by decide)).trans <|
  (W13_keep m c main_arg3 (by decide)).trans <|
  (W12_keep m c main_arg3 (by decide)).trans <|
  (W11_keep m c main_arg3 (by decide)).trans <|
  (W10_keep m c main_arg3 (by decide)).trans <|
  (W9_keep m c main_arg3 (by decide)).trans <|
  (W8_keep m c main_arg3 (by decide)).trans <|
  (W7_keep m c main_arg3 (by decide)).trans <|
  (W6_keep m c main_arg3 (by decide)).trans <|
  (W5_keep m c main_arg3 (by decide)).trans <|
  (W4_keep m c main_arg3 (by decide)).trans <|
  (W3_keep m c main_arg3 (by decide)).trans <|
  (W2_keep m c main_arg3 (by decide)).trans <|
  (W1_keep m c main_arg3 (by decide)).trans rfl
theorem W23_main_arg4 (c : Dev nD) : W23 m c (Proc.devRef .tc main_arg4) = m ((c : Thread nD τ).loc main_arg4) :=
  (W23_keep m c main_arg4 (by decide)).trans <|
  (W22_keep m c main_arg4 (by decide)).trans <|
  (W21_keep m c main_arg4 (by decide)).trans <|
  (W20_keep m c main_arg4 (by decide)).trans <|
  (W19_keep m c main_arg4 (by decide)).trans <|
  (W18_keep m c main_arg4 (by decide)).trans <|
  (W17_keep m c main_arg4 (by decide)).trans <|
  (W16_keep m c main_arg4 (by decide)).trans <|
  (W15_keep m c main_arg4 (by decide)).trans <|
  (W14_keep m c main_arg4 (by decide)).trans <|
  (W13_keep m c main_arg4 (by decide)).trans <|
  (W12_keep m c main_arg4 (by decide)).trans <|
  (W11_keep m c main_arg4 (by decide)).trans <|
  (W10_keep m c main_arg4 (by decide)).trans <|
  (W9_keep m c main_arg4 (by decide)).trans <|
  (W8_keep m c main_arg4 (by decide)).trans <|
  (W7_keep m c main_arg4 (by decide)).trans <|
  (W6_keep m c main_arg4 (by decide)).trans <|
  (W5_keep m c main_arg4 (by decide)).trans <|
  (W4_keep m c main_arg4 (by decide)).trans <|
  (W3_keep m c main_arg4 (by decide)).trans <|
  (W2_keep m c main_arg4 (by decide)).trans <|
  (W1_keep m c main_arg4 (by decide)).trans rfl
theorem W23_main_arg5 (c : Dev nD) : W23 m c (Proc.devRef .tc main_arg5) = m ((c : Thread nD τ).loc main_arg5) :=
  (W23_keep m c main_arg5 (by decide)).trans <|
  (W22_keep m c main_arg5 (by decide)).trans <|
  (W21_keep m c main_arg5 (by decide)).trans <|
  (W20_keep m c main_arg5 (by decide)).trans <|
  (W19_keep m c main_arg5 (by decide)).trans <|
  (W18_keep m c main_arg5 (by decide)).trans <|
  (W17_keep m c main_arg5 (by decide)).trans <|
  (W16_keep m c main_arg5 (by decide)).trans <|
  (W15_keep m c main_arg5 (by decide)).trans <|
  (W14_keep m c main_arg5 (by decide)).trans <|
  (W13_keep m c main_arg5 (by decide)).trans <|
  (W12_keep m c main_arg5 (by decide)).trans <|
  (W11_keep m c main_arg5 (by decide)).trans <|
  (W10_keep m c main_arg5 (by decide)).trans <|
  (W9_keep m c main_arg5 (by decide)).trans <|
  (W8_keep m c main_arg5 (by decide)).trans <|
  (W7_keep m c main_arg5 (by decide)).trans <|
  (W6_keep m c main_arg5 (by decide)).trans <|
  (W5_keep m c main_arg5 (by decide)).trans <|
  (W4_keep m c main_arg5 (by decide)).trans <|
  (W3_keep m c main_arg5 (by decide)).trans <|
  (W2_keep m c main_arg5 (by decide)).trans <|
  (W1_keep m c main_arg5 (by decide)).trans rfl
theorem W23_main_arg6 (c : Dev nD) : W23 m c (Proc.devRef .tc main_arg6) = m ((c : Thread nD τ).loc main_arg6) :=
  (W23_keep m c main_arg6 (by decide)).trans <|
  (W22_keep m c main_arg6 (by decide)).trans <|
  (W21_keep m c main_arg6 (by decide)).trans <|
  (W20_keep m c main_arg6 (by decide)).trans <|
  (W19_keep m c main_arg6 (by decide)).trans <|
  (W18_keep m c main_arg6 (by decide)).trans <|
  (W17_keep m c main_arg6 (by decide)).trans <|
  (W16_keep m c main_arg6 (by decide)).trans <|
  (W15_keep m c main_arg6 (by decide)).trans <|
  (W14_keep m c main_arg6 (by decide)).trans <|
  (W13_keep m c main_arg6 (by decide)).trans <|
  (W12_keep m c main_arg6 (by decide)).trans <|
  (W11_keep m c main_arg6 (by decide)).trans <|
  (W10_keep m c main_arg6 (by decide)).trans <|
  (W9_keep m c main_arg6 (by decide)).trans <|
  (W8_keep m c main_arg6 (by decide)).trans <|
  (W7_keep m c main_arg6 (by decide)).trans <|
  (W6_keep m c main_arg6 (by decide)).trans <|
  (W5_keep m c main_arg6 (by decide)).trans <|
  (W4_keep m c main_arg6 (by decide)).trans <|
  (W3_keep m c main_arg6 (by decide)).trans <|
  (W2_keep m c main_arg6 (by decide)).trans <|
  (W1_keep m c main_arg6 (by decide)).trans rfl
theorem W23_main_arg7 (c : Dev nD) : W23 m c (Proc.devRef .tc main_arg7) = m ((c : Thread nD τ).loc main_arg7) :=
  (W23_keep m c main_arg7 (by decide)).trans <|
  (W22_keep m c main_arg7 (by decide)).trans <|
  (W21_keep m c main_arg7 (by decide)).trans <|
  (W20_keep m c main_arg7 (by decide)).trans <|
  (W19_keep m c main_arg7 (by decide)).trans <|
  (W18_keep m c main_arg7 (by decide)).trans <|
  (W17_keep m c main_arg7 (by decide)).trans <|
  (W16_keep m c main_arg7 (by decide)).trans <|
  (W15_keep m c main_arg7 (by decide)).trans <|
  (W14_keep m c main_arg7 (by decide)).trans <|
  (W13_keep m c main_arg7 (by decide)).trans <|
  (W12_keep m c main_arg7 (by decide)).trans <|
  (W11_keep m c main_arg7 (by decide)).trans <|
  (W10_keep m c main_arg7 (by decide)).trans <|
  (W9_keep m c main_arg7 (by decide)).trans <|
  (W8_keep m c main_arg7 (by decide)).trans <|
  (W7_keep m c main_arg7 (by decide)).trans <|
  (W6_keep m c main_arg7 (by decide)).trans <|
  (W5_keep m c main_arg7 (by decide)).trans <|
  (W4_keep m c main_arg7 (by decide)).trans <|
  (W3_keep m c main_arg7 (by decide)).trans <|
  (W2_keep m c main_arg7 (by decide)).trans <|
  (W1_keep m c main_arg7 (by decide)).trans rfl
theorem W23_main_arg8 (c : Dev nD) : W23 m c (Proc.devRef .tc main_arg8) = m ((c : Thread nD τ).loc main_arg8) :=
  (W23_keep m c main_arg8 (by decide)).trans <|
  (W22_keep m c main_arg8 (by decide)).trans <|
  (W21_keep m c main_arg8 (by decide)).trans <|
  (W20_keep m c main_arg8 (by decide)).trans <|
  (W19_keep m c main_arg8 (by decide)).trans <|
  (W18_keep m c main_arg8 (by decide)).trans <|
  (W17_keep m c main_arg8 (by decide)).trans <|
  (W16_keep m c main_arg8 (by decide)).trans <|
  (W15_keep m c main_arg8 (by decide)).trans <|
  (W14_keep m c main_arg8 (by decide)).trans <|
  (W13_keep m c main_arg8 (by decide)).trans <|
  (W12_keep m c main_arg8 (by decide)).trans <|
  (W11_keep m c main_arg8 (by decide)).trans <|
  (W10_keep m c main_arg8 (by decide)).trans <|
  (W9_keep m c main_arg8 (by decide)).trans <|
  (W8_keep m c main_arg8 (by decide)).trans <|
  (W7_keep m c main_arg8 (by decide)).trans <|
  (W6_keep m c main_arg8 (by decide)).trans <|
  (W5_keep m c main_arg8 (by decide)).trans <|
  (W4_keep m c main_arg8 (by decide)).trans <|
  (W3_keep m c main_arg8 (by decide)).trans <|
  (W2_keep m c main_arg8 (by decide)).trans <|
  (W1_keep m c main_arg8 (by decide)).trans rfl
theorem W23_main_arg9 (c : Dev nD) : W23 m c (Proc.devRef .tc main_arg9) = m ((c : Thread nD τ).loc main_arg9) :=
  (W23_keep m c main_arg9 (by decide)).trans <|
  (W22_keep m c main_arg9 (by decide)).trans <|
  (W21_keep m c main_arg9 (by decide)).trans <|
  (W20_keep m c main_arg9 (by decide)).trans <|
  (W19_keep m c main_arg9 (by decide)).trans <|
  (W18_keep m c main_arg9 (by decide)).trans <|
  (W17_keep m c main_arg9 (by decide)).trans <|
  (W16_keep m c main_arg9 (by decide)).trans <|
  (W15_keep m c main_arg9 (by decide)).trans <|
  (W14_keep m c main_arg9 (by decide)).trans <|
  (W13_keep m c main_arg9 (by decide)).trans <|
  (W12_keep m c main_arg9 (by decide)).trans <|
  (W11_keep m c main_arg9 (by decide)).trans <|
  (W10_keep m c main_arg9 (by decide)).trans <|
  (W9_keep m c main_arg9 (by decide)).trans <|
  (W8_keep m c main_arg9 (by decide)).trans <|
  (W7_keep m c main_arg9 (by decide)).trans <|
  (W6_keep m c main_arg9 (by decide)).trans <|
  (W5_keep m c main_arg9 (by decide)).trans <|
  (W4_keep m c main_arg9 (by decide)).trans <|
  (W3_keep m c main_arg9 (by decide)).trans <|
  (W2_keep m c main_arg9 (by decide)).trans <|
  (W1_keep m c main_arg9 (by decide)).trans rfl
theorem W23_main_arg10 (c : Dev nD) : W23 m c (Proc.devRef .tc main_arg10) = m ((c : Thread nD τ).loc main_arg10) :=
  (W23_keep m c main_arg10 (by decide)).trans <|
  (W22_keep m c main_arg10 (by decide)).trans <|
  (W21_keep m c main_arg10 (by decide)).trans <|
  (W20_keep m c main_arg10 (by decide)).trans <|
  (W19_keep m c main_arg10 (by decide)).trans <|
  (W18_keep m c main_arg10 (by decide)).trans <|
  (W17_keep m c main_arg10 (by decide)).trans <|
  (W16_keep m c main_arg10 (by decide)).trans <|
  (W15_keep m c main_arg10 (by decide)).trans <|
  (W14_keep m c main_arg10 (by decide)).trans <|
  (W13_keep m c main_arg10 (by decide)).trans <|
  (W12_keep m c main_arg10 (by decide)).trans <|
  (W11_keep m c main_arg10 (by decide)).trans <|
  (W10_keep m c main_arg10 (by decide)).trans <|
  (W9_keep m c main_arg10 (by decide)).trans <|
  (W8_keep m c main_arg10 (by decide)).trans <|
  (W7_keep m c main_arg10 (by decide)).trans <|
  (W6_keep m c main_arg10 (by decide)).trans <|
  (W5_keep m c main_arg10 (by decide)).trans <|
  (W4_keep m c main_arg10 (by decide)).trans <|
  (W3_keep m c main_arg10 (by decide)).trans <|
  (W2_keep m c main_arg10 (by decide)).trans <|
  (W1_keep m c main_arg10 (by decide)).trans rfl
theorem W23_main_arg11 (c : Dev nD) : W23 m c (Proc.devRef .tc main_arg11) = m ((c : Thread nD τ).loc main_arg11) :=
  (W23_keep m c main_arg11 (by decide)).trans <|
  (W22_keep m c main_arg11 (by decide)).trans <|
  (W21_keep m c main_arg11 (by decide)).trans <|
  (W20_keep m c main_arg11 (by decide)).trans <|
  (W19_keep m c main_arg11 (by decide)).trans <|
  (W18_keep m c main_arg11 (by decide)).trans <|
  (W17_keep m c main_arg11 (by decide)).trans <|
  (W16_keep m c main_arg11 (by decide)).trans <|
  (W15_keep m c main_arg11 (by decide)).trans <|
  (W14_keep m c main_arg11 (by decide)).trans <|
  (W13_keep m c main_arg11 (by decide)).trans <|
  (W12_keep m c main_arg11 (by decide)).trans <|
  (W11_keep m c main_arg11 (by decide)).trans <|
  (W10_keep m c main_arg11 (by decide)).trans <|
  (W9_keep m c main_arg11 (by decide)).trans <|
  (W8_keep m c main_arg11 (by decide)).trans <|
  (W7_keep m c main_arg11 (by decide)).trans <|
  (W6_keep m c main_arg11 (by decide)).trans <|
  (W5_keep m c main_arg11 (by decide)).trans <|
  (W4_keep m c main_arg11 (by decide)).trans <|
  (W3_keep m c main_arg11 (by decide)).trans <|
  (W2_keep m c main_arg11 (by decide)).trans <|
  (W1_keep m c main_arg11 (by decide)).trans rfl
theorem W23_main_arg12 (c : Dev nD) : W23 m c (Proc.devRef .tc main_arg12) = m ((c : Thread nD τ).loc main_arg12) :=
  (W23_keep m c main_arg12 (by decide)).trans <|
  (W22_keep m c main_arg12 (by decide)).trans <|
  (W21_keep m c main_arg12 (by decide)).trans <|
  (W20_keep m c main_arg12 (by decide)).trans <|
  (W19_keep m c main_arg12 (by decide)).trans <|
  (W18_keep m c main_arg12 (by decide)).trans <|
  (W17_keep m c main_arg12 (by decide)).trans <|
  (W16_keep m c main_arg12 (by decide)).trans <|
  (W15_keep m c main_arg12 (by decide)).trans <|
  (W14_keep m c main_arg12 (by decide)).trans <|
  (W13_keep m c main_arg12 (by decide)).trans <|
  (W12_keep m c main_arg12 (by decide)).trans <|
  (W11_keep m c main_arg12 (by decide)).trans <|
  (W10_keep m c main_arg12 (by decide)).trans <|
  (W9_keep m c main_arg12 (by decide)).trans <|
  (W8_keep m c main_arg12 (by decide)).trans <|
  (W7_keep m c main_arg12 (by decide)).trans <|
  (W6_keep m c main_arg12 (by decide)).trans <|
  (W5_keep m c main_arg12 (by decide)).trans <|
  (W4_keep m c main_arg12 (by decide)).trans <|
  (W3_keep m c main_arg12 (by decide)).trans <|
  (W2_keep m c main_arg12 (by decide)).trans <|
  (W1_keep m c main_arg12 (by decide)).trans rfl
theorem W23_main_arg13 (c : Dev nD) : W23 m c (Proc.devRef .tc main_arg13) = m ((c : Thread nD τ).loc main_arg13) :=
  (W23_keep m c main_arg13 (by decide)).trans <|
  (W22_keep m c main_arg13 (by decide)).trans <|
  (W21_keep m c main_arg13 (by decide)).trans <|
  (W20_keep m c main_arg13 (by decide)).trans <|
  (W19_keep m c main_arg13 (by decide)).trans <|
  (W18_keep m c main_arg13 (by decide)).trans <|
  (W17_keep m c main_arg13 (by decide)).trans <|
  (W16_keep m c main_arg13 (by decide)).trans <|
  (W15_keep m c main_arg13 (by decide)).trans <|
  (W14_keep m c main_arg13 (by decide)).trans <|
  (W13_keep m c main_arg13 (by decide)).trans <|
  (W12_keep m c main_arg13 (by decide)).trans <|
  (W11_keep m c main_arg13 (by decide)).trans <|
  (W10_keep m c main_arg13 (by decide)).trans <|
  (W9_keep m c main_arg13 (by decide)).trans <|
  (W8_keep m c main_arg13 (by decide)).trans <|
  (W7_keep m c main_arg13 (by decide)).trans <|
  (W6_keep m c main_arg13 (by decide)).trans <|
  (W5_keep m c main_arg13 (by decide)).trans <|
  (W4_keep m c main_arg13 (by decide)).trans <|
  (W3_keep m c main_arg13 (by decide)).trans <|
  (W2_keep m c main_arg13 (by decide)).trans <|
  (W1_keep m c main_arg13 (by decide)).trans rfl
theorem W23_main_arg14 (c : Dev nD) : W23 m c (Proc.devRef .tc main_arg14) = m ((c : Thread nD τ).loc main_arg14) :=
  (W23_keep m c main_arg14 (by decide)).trans <|
  (W22_keep m c main_arg14 (by decide)).trans <|
  (W21_keep m c main_arg14 (by decide)).trans <|
  (W20_keep m c main_arg14 (by decide)).trans <|
  (W19_keep m c main_arg14 (by decide)).trans <|
  (W18_keep m c main_arg14 (by decide)).trans <|
  (W17_keep m c main_arg14 (by decide)).trans <|
  (W16_keep m c main_arg14 (by decide)).trans <|
  (W15_keep m c main_arg14 (by decide)).trans <|
  (W14_keep m c main_arg14 (by decide)).trans <|
  (W13_keep m c main_arg14 (by decide)).trans <|
  (W12_keep m c main_arg14 (by decide)).trans <|
  (W11_keep m c main_arg14 (by decide)).trans <|
  (W10_keep m c main_arg14 (by decide)).trans <|
  (W9_keep m c main_arg14 (by decide)).trans <|
  (W8_keep m c main_arg14 (by decide)).trans <|
  (W7_keep m c main_arg14 (by decide)).trans <|
  (W6_keep m c main_arg14 (by decide)).trans <|
  (W5_keep m c main_arg14 (by decide)).trans <|
  (W4_keep m c main_arg14 (by decide)).trans <|
  (W3_keep m c main_arg14 (by decide)).trans <|
  (W2_keep m c main_arg14 (by decide)).trans <|
  (W1_keep m c main_arg14 (by decide)).trans rfl
theorem W23_main_arg15 (c : Dev nD) : W23 m c (Proc.devRef .tc main_arg15) = m ((c : Thread nD τ).loc main_arg15) :=
  (W23_keep m c main_arg15 (by decide)).trans <|
  (W22_keep m c main_arg15 (by decide)).trans <|
  (W21_keep m c main_arg15 (by decide)).trans <|
  (W20_keep m c main_arg15 (by decide)).trans <|
  (W19_keep m c main_arg15 (by decide)).trans <|
  (W18_keep m c main_arg15 (by decide)).trans <|
  (W17_keep m c main_arg15 (by decide)).trans <|
  (W16_keep m c main_arg15 (by decide)).trans <|
  (W15_keep m c main_arg15 (by decide)).trans <|
  (W14_keep m c main_arg15 (by decide)).trans <|
  (W13_keep m c main_arg15 (by decide)).trans <|
  (W12_keep m c main_arg15 (by decide)).trans <|
  (W11_keep m c main_arg15 (by decide)).trans <|
  (W10_keep m c main_arg15 (by decide)).trans <|
  (W9_keep m c main_arg15 (by decide)).trans <|
  (W8_keep m c main_arg15 (by decide)).trans <|
  (W7_keep m c main_arg15 (by decide)).trans <|
  (W6_keep m c main_arg15 (by decide)).trans <|
  (W5_keep m c main_arg15 (by decide)).trans <|
  (W4_keep m c main_arg15 (by decide)).trans <|
  (W3_keep m c main_arg15 (by decide)).trans <|
  (W2_keep m c main_arg15 (by decide)).trans <|
  (W1_keep m c main_arg15 (by decide)).trans rfl
theorem W23_main_arg16 (c : Dev nD) : W23 m c (Proc.devRef .tc main_arg16) = m ((c : Thread nD τ).loc main_arg16) :=
  (W23_keep m c main_arg16 (by decide)).trans <|
  (W22_keep m c main_arg16 (by decide)).trans <|
  (W21_keep m c main_arg16 (by decide)).trans <|
  (W20_keep m c main_arg16 (by decide)).trans <|
  (W19_keep m c main_arg16 (by decide)).trans <|
  (W18_keep m c main_arg16 (by decide)).trans <|
  (W17_keep m c main_arg16 (by decide)).trans <|
  (W16_keep m c main_arg16 (by decide)).trans <|
  (W15_keep m c main_arg16 (by decide)).trans <|
  (W14_keep m c main_arg16 (by decide)).trans <|
  (W13_keep m c main_arg16 (by decide)).trans <|
  (W12_keep m c main_arg16 (by decide)).trans <|
  (W11_keep m c main_arg16 (by decide)).trans <|
  (W10_keep m c main_arg16 (by decide)).trans <|
  (W9_keep m c main_arg16 (by decide)).trans <|
  (W8_keep m c main_arg16 (by decide)).trans <|
  (W7_keep m c main_arg16 (by decide)).trans <|
  (W6_keep m c main_arg16 (by decide)).trans <|
  (W5_keep m c main_arg16 (by decide)).trans <|
  (W4_keep m c main_arg16 (by decide)).trans <|
  (W3_keep m c main_arg16 (by decide)).trans <|
  (W2_keep m c main_arg16 (by decide)).trans <|
  (W1_keep m c main_arg16 (by decide)).trans rfl
theorem W23_main_arg17 (c : Dev nD) : W23 m c (Proc.devRef .tc main_arg17) = m ((c : Thread nD τ).loc main_arg17) :=
  (W23_keep m c main_arg17 (by decide)).trans <|
  (W22_keep m c main_arg17 (by decide)).trans <|
  (W21_keep m c main_arg17 (by decide)).trans <|
  (W20_keep m c main_arg17 (by decide)).trans <|
  (W19_keep m c main_arg17 (by decide)).trans <|
  (W18_keep m c main_arg17 (by decide)).trans <|
  (W17_keep m c main_arg17 (by decide)).trans <|
  (W16_keep m c main_arg17 (by decide)).trans <|
  (W15_keep m c main_arg17 (by decide)).trans <|
  (W14_keep m c main_arg17 (by decide)).trans <|
  (W13_keep m c main_arg17 (by decide)).trans <|
  (W12_keep m c main_arg17 (by decide)).trans <|
  (W11_keep m c main_arg17 (by decide)).trans <|
  (W10_keep m c main_arg17 (by decide)).trans <|
  (W9_keep m c main_arg17 (by decide)).trans <|
  (W8_keep m c main_arg17 (by decide)).trans <|
  (W7_keep m c main_arg17 (by decide)).trans <|
  (W6_keep m c main_arg17 (by decide)).trans <|
  (W5_keep m c main_arg17 (by decide)).trans <|
  (W4_keep m c main_arg17 (by decide)).trans <|
  (W3_keep m c main_arg17 (by decide)).trans <|
  (W2_keep m c main_arg17 (by decide)).trans <|
  (W1_keep m c main_arg17 (by decide)).trans rfl
theorem W23_main_arg18 (c : Dev nD) : W23 m c (Proc.devRef .tc main_arg18) = m ((c : Thread nD τ).loc main_arg18) :=
  (W23_keep m c main_arg18 (by decide)).trans <|
  (W22_keep m c main_arg18 (by decide)).trans <|
  (W21_keep m c main_arg18 (by decide)).trans <|
  (W20_keep m c main_arg18 (by decide)).trans <|
  (W19_keep m c main_arg18 (by decide)).trans <|
  (W18_keep m c main_arg18 (by decide)).trans <|
  (W17_keep m c main_arg18 (by decide)).trans <|
  (W16_keep m c main_arg18 (by decide)).trans <|
  (W15_keep m c main_arg18 (by decide)).trans <|
  (W14_keep m c main_arg18 (by decide)).trans <|
  (W13_keep m c main_arg18 (by decide)).trans <|
  (W12_keep m c main_arg18 (by decide)).trans <|
  (W11_keep m c main_arg18 (by decide)).trans <|
  (W10_keep m c main_arg18 (by decide)).trans <|
  (W9_keep m c main_arg18 (by decide)).trans <|
  (W8_keep m c main_arg18 (by decide)).trans <|
  (W7_keep m c main_arg18 (by decide)).trans <|
  (W6_keep m c main_arg18 (by decide)).trans <|
  (W5_keep m c main_arg18 (by decide)).trans <|
  (W4_keep m c main_arg18 (by decide)).trans <|
  (W3_keep m c main_arg18 (by decide)).trans <|
  (W2_keep m c main_arg18 (by decide)).trans <|
  (W1_keep m c main_arg18 (by decide)).trans rfl
theorem W23_main_arg19 (c : Dev nD) : W23 m c (Proc.devRef .tc main_arg19) = m ((c : Thread nD τ).loc main_arg19) :=
  (W23_keep m c main_arg19 (by decide)).trans <|
  (W22_keep m c main_arg19 (by decide)).trans <|
  (W21_keep m c main_arg19 (by decide)).trans <|
  (W20_keep m c main_arg19 (by decide)).trans <|
  (W19_keep m c main_arg19 (by decide)).trans <|
  (W18_keep m c main_arg19 (by decide)).trans <|
  (W17_keep m c main_arg19 (by decide)).trans <|
  (W16_keep m c main_arg19 (by decide)).trans <|
  (W15_keep m c main_arg19 (by decide)).trans <|
  (W14_keep m c main_arg19 (by decide)).trans <|
  (W13_keep m c main_arg19 (by decide)).trans <|
  (W12_keep m c main_arg19 (by decide)).trans <|
  (W11_keep m c main_arg19 (by decide)).trans <|
  (W10_keep m c main_arg19 (by decide)).trans <|
  (W9_keep m c main_arg19 (by decide)).trans <|
  (W8_keep m c main_arg19 (by decide)).trans <|
  (W7_keep m c main_arg19 (by decide)).trans <|
  (W6_keep m c main_arg19 (by decide)).trans <|
  (W5_keep m c main_arg19 (by decide)).trans <|
  (W4_keep m c main_arg19 (by decide)).trans <|
  (W3_keep m c main_arg19 (by decide)).trans <|
  (W2_keep m c main_arg19 (by decide)).trans <|
  (W1_keep m c main_arg19 (by decide)).trans rfl
theorem W23_main_arg20 (c : Dev nD) : W23 m c (Proc.devRef .tc main_arg20) = m ((c : Thread nD τ).loc main_arg20) :=
  (W23_keep m c main_arg20 (by decide)).trans <|
  (W22_keep m c main_arg20 (by decide)).trans <|
  (W21_keep m c main_arg20 (by decide)).trans <|
  (W20_keep m c main_arg20 (by decide)).trans <|
  (W19_keep m c main_arg20 (by decide)).trans <|
  (W18_keep m c main_arg20 (by decide)).trans <|
  (W17_keep m c main_arg20 (by decide)).trans <|
  (W16_keep m c main_arg20 (by decide)).trans <|
  (W15_keep m c main_arg20 (by decide)).trans <|
  (W14_keep m c main_arg20 (by decide)).trans <|
  (W13_keep m c main_arg20 (by decide)).trans <|
  (W12_keep m c main_arg20 (by decide)).trans <|
  (W11_keep m c main_arg20 (by decide)).trans <|
  (W10_keep m c main_arg20 (by decide)).trans <|
  (W9_keep m c main_arg20 (by decide)).trans <|
  (W8_keep m c main_arg20 (by decide)).trans <|
  (W7_keep m c main_arg20 (by decide)).trans <|
  (W6_keep m c main_arg20 (by decide)).trans <|
  (W5_keep m c main_arg20 (by decide)).trans <|
  (W4_keep m c main_arg20 (by decide)).trans <|
  (W3_keep m c main_arg20 (by decide)).trans <|
  (W2_keep m c main_arg20 (by decide)).trans <|
  (W1_keep m c main_arg20 (by decide)).trans rfl

/-- The buffers' contents when the program returns. -/
abbrev Wend (c : Dev nD) : Valuation τ sig (Elt F) := W23 m c

end Cert.KernelIdeal.Hand

end
-- ==== Proof.KI.Segs.lean ====
/-
  The program as a list of segments: a segment per stretch of host operations, entered from its boundary's
  contents, and a segment per kernel region, entered from the contents before it and left at the contents after it.
  A region's segment splits its arrays out of the unscoped buffers, passes the generator register (and, for the
  regions that carry column sums, the two scratch rows) into the pipeline's invariant, and puts everything back.
-/
import proofs.«106081_j12317966204981_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)

/-- Every pipeline's proof data, each at its region's entry contents: a literal match, so that the pinned
    configuration at a numeral reduces to the printed one. -/
def pdats : (p : Fin 13) → (c : Dev nD) → Dat τ (Elt F) Unit ℕ (Pipeline.UD sig nD τ) ℕ (Pipeline.pin (pcfgs (F := F)) adm p) c
  | ⟨0, _⟩ => fun c => dat0 (VT1 m) c
  | ⟨1, _⟩ => fun c => dat1 (VT3 m) c
  | ⟨2, _⟩ => fun c => dat2 (VT5 m) c
  | ⟨3, _⟩ => fun c => dat3 (VT6 m) c
  | ⟨4, _⟩ => fun c => dat4 (VT8 m) c
  | ⟨5, _⟩ => fun c => dat5 (VT10 m) c
  | ⟨6, _⟩ => fun c => dat6 (VT11 m) c
  | ⟨7, _⟩ => fun c => dat7 (VT13 m) c
  | ⟨8, _⟩ => fun c => dat8 (VT15 m) c
  | ⟨9, _⟩ => fun c => dat9 (VT16 m) c
  | ⟨10, _⟩ => fun c => dat10 (VT18 m) c
  | ⟨11, _⟩ => fun c => dat11 (VT20 m) c
  | ⟨12, _⟩ => fun c => dat12 (VT22 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W23 m c) ∗ ∃ r, prngReg c r)

/-! ## The regions as segments -/

set_option backward.isDefEq.respectTransparency.types false in
/-- Region 0 over the thread state: entered from every unscoped buffer at stage 1's contents, left at stage 2's.
    Its arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VT1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VT1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VT1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VT1 m c) (VT2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at stage 3's contents, left at stage 4's.
    Its arrays are split out of the unscoped buffers and put back at the exit contents; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VT3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VT3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VT3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (VT3 m) c 0 from rfl]; unfold PhiS1
    rw [show (Pipeline.scopedRest (Ix := Unit) (Name := ℕ) (U := Pipeline.UD sig nD τ) (Lvl := ℕ) (Val := Elt F) (Pipeline.pin (pcfgs (F := F)) adm 1).spec c : sProp 𝕄) = _ from
      scopedRest1_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 1 c).Φ (Fin.last _) = PhiS1 (VT3 m) c _ from rfl]; unfold PhiS1
    rw [show (Pipeline.scopedRest (Ix := Unit) (Name := ℕ) (U := Pipeline.UD sig nD τ) (Lvl := ℕ) (Val := Elt F) (Pipeline.pin (pcfgs (F := F)) adm 1).spec c : sProp 𝕄) = _ from
      scopedRest1_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VT3 m c) (VT4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at stage 5's contents, left at stage 6's.
    Its arrays are split out of the unscoped buffers and put back at the exit contents; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VT5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (VT5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VT5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (VT5 m c) (VT6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at stage 6's contents, left at stage 7's.
    Its arrays are split out of the unscoped buffers and put back at the exit contents; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VT6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (VT6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VT6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (VT6 m c) (VT7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at stage 8's contents, left at stage 9's.
    Its arrays are split out of the unscoped buffers and put back at the exit contents; the generator register goes
    into the invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VT8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (VT8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VT8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = PhiS4 (VT8 m) c 0 from rfl]; unfold PhiS4
    rw [show (Pipeline.scopedRest (Ix := Unit) (Name := ℕ) (U := Pipeline.UD sig nD τ) (Lvl := ℕ) (Val := Elt F) (Pipeline.pin (pcfgs (F := F)) adm 4).spec c : sProp 𝕄) = _ from
      scopedRest4_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 4 c).Φ (Fin.last _) = PhiS4 (VT8 m) c _ from rfl]; unfold PhiS4
    rw [show (Pipeline.scopedRest (Ix := Unit) (Name := ℕ) (U := Pipeline.UD sig nD τ) (Lvl := ℕ) (Val := Elt F) (Pipeline.pin (pcfgs (F := F)) adm 4).spec c : sProp 𝕄) = _ from
      scopedRest4_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (VT8 m c) (VT9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at stage 10's contents, left at stage 11's.
    Its arrays are split out of the unscoped buffers and put back at the exit contents; the generator register goes
    into the invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VT10 m) c).loose
  hwaits := Pipeline.hwaits_of_owed_zero _ _ _ _ L lv 5 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (VT10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VT10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (VT10 m c) (VT11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at stage 11's contents, left at stage 12's.
    Its arrays are split out of the unscoped buffers and put back at the exit contents; the generator register goes
    into the invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VT11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (VT11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (VT11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (VT11 m c) (VT12 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at stage 13's contents, left at stage 14's.
    Its arrays are split out of the unscoped buffers and put back at the exit contents; the generator register goes
    into the invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VT13 m) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (VT13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (VT13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = PhiS7 (VT13 m) c 0 from rfl]; unfold PhiS7
    rw [show (Pipeline.scopedRest (Ix := Unit) (Name := ℕ) (U := Pipeline.UD sig nD τ) (Lvl := ℕ) (Val := Elt F) (Pipeline.pin (pcfgs (F := F)) adm 7).spec c : sProp 𝕄) = _ from
      scopedRest7_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 7 c).Φ (Fin.last _) = PhiS7 (VT13 m) c _ from rfl]; unfold PhiS7
    rw [show (Pipeline.scopedRest (Ix := Unit) (Name := ℕ) (U := Pipeline.UD sig nD τ) (Lvl := ℕ) (Val := Elt F) (Pipeline.pin (pcfgs (F := F)) adm 7).spec c : sProp 𝕄) = _ from
      scopedRest7_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (VT13 m c) (VT14 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at stage 15's contents, left at stage 16's.
    Its arrays are split out of the unscoped buffers and put back at the exit contents; the generator register goes
    into the invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VT15 m) c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (VT15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (VT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (VT15 m c) (VT16 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at stage 16's contents, left at stage 17's.
    Its arrays are split out of the unscoped buffers and put back at the exit contents; the generator register goes
    into the invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VT16 m) c).loose
  hwaits := Pipeline.hwaits_of_owed_zero _ _ _ _ L lv 9 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (VT16 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (VT16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (VT16 m c) (VT17 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at stage 18's contents, left at stage 19's.
    Its arrays are split out of the unscoped buffers and put back at the exit contents; the generator register goes
    into the invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VT18 m) c).loose
  hwaits := Pipeline.hwaits_of_owed_zero _ _ _ _ L lv 10 fun _ _ => rfl
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := Pipeline.UD sig nD τ) (Lvl := ℕ) spec10 c (VT18 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (VT18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = PhiS10 (VT18 m) c 0 from rfl]; unfold PhiS10
    rw [show (Pipeline.scopedRest (Ix := Unit) (Name := ℕ) (U := Pipeline.UD sig nD τ) (Lvl := ℕ) (Val := Elt F) (Pipeline.pin (pcfgs (F := F)) adm 10).spec c : sProp 𝕄) = _ from
      scopedRest10_split (Ix := Unit) (Name := ℕ) (U := Pipeline.UD sig nD τ) (Lvl := ℕ) (Val := Elt F) c]
    iintro ⟨Hp, -, ⟨⟨%f6, H6⟩, ⟨%f7, H7⟩⟩, Hr⟩
    isplitl [Hr]; · iexact Hr
    isplitl [Hp]; · iexact Hp
    isplitl [H6]
    · iexists f6; isplitl [H6]
      · rw [owns_whole]; iexact H6
      · ipureintro; exact fun h => absurd rfl h
    · iexists f7; isplitl [H7]
      · rw [owns_whole]; iexact H7
      · ipureintro; exact fun h => absurd rfl h
  hout c := by
    rw [Pipeline.ownSems0_none, show (pdats m 10 c).Φ (Fin.last _) = PhiS10 (VT18 m) c _ from rfl]; unfold PhiS10
    rw [show (Pipeline.scopedRest (Ix := Unit) (Name := ℕ) (U := Pipeline.UD sig nD τ) (Lvl := ℕ) (Val := Elt F) (Pipeline.pin (pcfgs (F := F)) adm 10).spec c : sProp 𝕄) = _ from
      scopedRest10_split (Ix := Unit) (Name := ℕ) (U := Pipeline.UD sig nD τ) (Lvl := ℕ) (Val := Elt F) c]
    iintro ⟨Hr, Hp, ⟨%d6, H6, -⟩, ⟨%d7, H7, -⟩⟩
    isplitl [Hp]; · iexact Hp
    isplitr; · iempintro
    isplitr [Hr]
    · isplitl [H6]
      · iexists d6; rw [owns_whole]; first | exact .rfl | exact BI.Entails.refl _
      · iexists d7; rw [owns_whole]; first | exact .rfl | exact BI.Entails.refl _
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (VT18 m c) (VT19 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at stage 20's contents, left at stage 21's.
    Its arrays are split out of the unscoped buffers and put back at the exit contents; the generator register goes
    into the invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (VT20 m) c).loose
  hwaits := Pipeline.hwaits_of_owed_zero _ _ _ _ L lv 11 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (VT20 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (VT20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (VT20 m c) (VT21 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at stage 22's contents, left at stage 23's.
    Its arrays are split out of the unscoped buffers and put back at the exit contents; the generator register goes
    into the invariant and comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (VT22 m) c).loose
  hwaits := Pipeline.hwaits_of_owed_zero _ _ _ _ L lv 12 fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := Pipeline.UD sig nD τ) (Lvl := ℕ) spec12 c (VT22 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (VT22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (VT22 m c) (VT23 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's 23 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m),
    .region (reg6 m),
    .host (hseg hostOps7 hostOps7_sub hostOps7_fresh (W12 m)),
    .region (reg7 m),
    .host (hseg hostOps8 hostOps8_sub hostOps8_fresh (W14 m)),
    .region (reg8 m),
    .region (reg9 m),
    .host (hseg hostOps10 hostOps10_sub hostOps10_fresh (W17 m)),
    .region (reg10 m),
    .host (hseg hostOps11 hostOps11_sub hostOps11_fresh (W19 m)),
    .region (reg11 m),
    .host (hseg hostOps12 hostOps12_sub hostOps12_fresh (W21 m)),
    .region (reg12 m) ]
/-- What the last region leaves is the last thread state beside the core's dues at nothing. -/
theorem last_state (c : Dev nD) : iprop(StableHlo.held (c : Thread nD τ) (Pipeline.ucRefs τ sig) (W23 m c) ∗ R c)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO
/-- The program is the run of its segments. -/
theorem main_run (c : Dev nD) : main (F := F) c = Pipeline.Seg.run (segs m) := (main_chain c).trans (by chain_rfl)

end Cert.KernelIdeal.Hand

end
-- ==== Proof.KI.Run.lean ====
/-
  The program's run: from any memory with every counter at zero, every weakly fair execution on the TensorCores
  terminates without fault, and every final memory holds the result buffer at the fold's last contents and each
  argument as launched. The segments' thread states chain one into the next as stated; the launch makes the first,
  and the last is read against the final memory.
-/
import proofs.«106081_j12317966204981_2_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (m : (ℓ : Loc nD τ sig) → Buf (Elt F) ℓ)
variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v162) = Wend m c (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m c b)
    (hfin := fun c s' => by
      iintro ⟨⟨Hh, -⟩, HSI⟩
      unfold StableHlo.held
      imodintro
      iapply (pointsTo_read_all (Pipeline.ucRefs τ sig) (fun b => (((c : Thread nD τ)).1, b)) (W23 m c) s')
      isplitl [Hh] <;> iassumption)
    (hQ := fun s h c =>
      ⟨h c _ (mem_uc main_v162 (by decide)),
       (h c _ (mem_uc main_arg0 (by decide))).trans (W23_main_arg0 m c),
       (h c _ (mem_uc main_arg1 (by decide))).trans (W23_main_arg1 m c),
       (h c _ (mem_uc main_arg2 (by decide))).trans (W23_main_arg2 m c),
       (h c _ (mem_uc main_arg3 (by decide))).trans (W23_main_arg3 m c),
       (h c _ (mem_uc main_arg4 (by decide))).trans (W23_main_arg4 m c),
       (h c _ (mem_uc main_arg5 (by decide))).trans (W23_main_arg5 m c),
       (h c _ (mem_uc main_arg6 (by decide))).trans (W23_main_arg6 m c),
       (h c _ (mem_uc main_arg7 (by decide))).trans (W23_main_arg7 m c),
       (h c _ (mem_uc main_arg8 (by decide))).trans (W23_main_arg8 m c),
       (h c _ (mem_uc main_arg9 (by decide))).trans (W23_main_arg9 m c),
       (h c _ (mem_uc main_arg10 (by decide))).trans (W23_main_arg10 m c),
       (h c _ (mem_uc main_arg11 (by decide))).trans (W23_main_arg11 m c),
       (h c _ (mem_uc main_arg12 (by decide))).trans (W23_main_arg12 m c),
       (h c _ (mem_uc main_arg13 (by decide))).trans (W23_main_arg13 m c),
       (h c _ (mem_uc main_arg14 (by decide))).trans (W23_main_arg14 m c),
       (h c _ (mem_uc main_arg15 (by decide))).trans (W23_main_arg15 m c),
       (h c _ (mem_uc main_arg16 (by decide))).trans (W23_main_arg16 m c),
       (h c _ (mem_uc main_arg17 (by decide))).trans (W23_main_arg17 m c),
       (h c _ (mem_uc main_arg18 (by decide))).trans (W23_main_arg18 m c),
       (h c _ (mem_uc main_arg19 (by decide))).trans (W23_main_arg19 m c),
       (h c _ (mem_uc main_arg20 (by decide))).trans (W23_main_arg20 m c)⟩)

/-- The same run, read for the arguments only. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_main m ρ)

end Cert.KernelIdeal.Hand

end
-- ==== Proof.Ref.Run.lean ====
/-
  The reference program's run. @main is a straight line of 387 host operations (`ops`, `main_eq`: the module
  Proof/Ref/Ops.lean), so from any memory with zero counters every weakly fair execution runs each operation once, in
  order, and terminates (`StableHlo.run_seq`): every TensorCore buffer ends at the FOLD of the operations' results over
  the launch contents, `StableHlo.after ops`. The result buffer's final contents are stated as that fold — nothing is
  composed into one term: a value proof reads the fold at the buffers it needs, layer by layer.

  The arguments end as launched because no operation writes one: each operation writes exactly one buffer, the k-th
  operation the k-th entry of `ops_W` (`ops_writes₂`, operation by operation by `rfl`), so the line writes buffers of
  that list only (`writes_sub_of_forall₂`), and an argument is not in the list (decided over references), hence keeps
  its contents through the whole line (`StableHlo.after_of_writes_sub`).
-/
import proofs.«106081_j12317966204981_2_alg».proof.Proof.Ref.Ops

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that @main's operations write, in order: each operation writes one, and none of them is an argument. -/
abbrev ops_W : List (Ref sig .tc) := [main_v0, main_v1, main_v2, main_v3, main_v4, main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47, main_cst_8, main_v48, main_cst_9, main_v49, main_v50, main_v51, main_v52, main_v53, main_v54, main_cst_10, main_v55, main_cst_11, main_v56, main_v57, main_v58, main_v59, main_v60, main_cst_12, main_v61, main_v62, main_v63, main_v64, main_v65, main_v66, main_v67, main_v68, main_v69, main_v70, main_v71, main_v72, main_call0_cst, main_call0_v0, main_v73, main_v74, main_cst_13, main_v75, main_cst_14, main_v76, main_v77, main_v78, main_cst_15, main_v79, main_v80, main_v81, main_c_16, main_v82, main_v83, main_c_17, main_v84, main_v85, main_v86, main_v87, main_v88, main_c_18, main_v89, main_v90, main_c_19, main_v91, main_v92, main_v93, main_v94, main_v95, main_v96, main_v97, main_c_20, main_v98, main_v99, main_c_21, main_v100, main_v101, main_v102, main_v103, main_v104, main_v105, main_v106, main_cst_22, main_v107, main_v108, main_v109, main_v110, main_v111, main_v112, main_v113, main_v114, main_v115, main_v116, main_v117, main_cst_23, main_v118, main_cst_24, main_v119, main_v120, main_v121, main_v122, main_v123, main_v124, main_cst_25, main_v125, main_cst_26, main_v126, main_v127, main_v128, main_v129, main_v130, main_cst_27, main_v131, main_v132, main_v133, main_v134, main_v135, main_v136, main_v137, main_v138, main_v139, main_v140, main_v141, main_v142, main_call1_cst, main_call1_v0, main_v143, main_v144, main_cst_28, main_v145, main_cst_29, main_v146, main_v147, main_v148, main_cst_30, main_v149, main_v150, main_v151, main_c_31, main_v152, main_v153, main_c_32, main_v154, main_v155, main_v156, main_v157, main_v158, main_c_33, main_v159, main_v160, main_c_34, main_v161, main_v162, main_v163, main_v164, main_v165, main_v166, main_v167, main_c_35, main_v168, main_v169, main_c_36, main_v170, main_v171, main_v172, main_v173, main_v174, main_v175, main_v176, main_cst_37, main_v177, main_v178, main_v179, main_v180, main_v181, main_v182, main_v183, main_v184, main_v185, main_v186, main_v187, main_cst_38, main_v188, main_cst_39, main_v189, main_v190, main_v191, main_v192, main_v193, main_v194, main_cst_40, main_v195, main_cst_41, main_v196, main_v197, main_v198, main_v199, main_v200, main_cst_42, main_v201, main_v202, main_v203, main_v204, main_v205, main_v206, main_v207, main_v208, main_v209, main_v210, main_v211, main_v212, main_call2_cst, main_call2_v0, main_v213, main_v214, main_cst_43, main_v215, main_cst_44, main_v216, main_v217, main_v218, main_cst_45, main_v219, main_v220, main_v221, main_c_46, main_v222, main_v223, main_c_47, main_v224, main_v225, main_v226, main_v227, main_v228, main_c_48, main_v229, main_v230, main_c_49, main_v231, main_v232, main_v233, main_v234, main_v235, main_v236, main_v237, main_c_50, main_v238, main_v239, main_c_51, main_v240, main_v241, main_v242, main_v243, main_v244, main_v245, main_v246, main_cst_52, main_v247, main_v248, main_v249, main_v250, main_v251, main_v252, main_v253, main_v254, main_v255, main_v256, main_v257, main_cst_53, main_v258, main_cst_54, main_v259, main_v260, main_v261, main_v262, main_v263, main_v264, main_cst_55, main_v265, main_cst_56, main_v266, main_v267, main_v268, main_v269, main_v270, main_cst_57, main_v271, main_v272, main_v273, main_v274, main_v275, main_v276, main_v277, main_v278, main_v279, main_v280, main_v281, main_v282, main_call3_cst, main_call3_v0, main_v283, main_cst_58, main_v284, main_v285, main_v286, main_cst_59, main_v287, main_cst_60, main_v288, main_v289, main_v290, main_cst_61, main_v291, main_v292, main_v293, main_v294, main_v295, main_v296, main_v297, main_v298, main_v299, main_call4_cst, main_call4_v0, main_call4_cst_0, main_call4_v1, main_call4_v2, main_call4_v3, main_call4_v4, main_call4_v5, main_call4_v6, main_call4_cst_1, main_call4_v7, main_call4_v8, main_call4_v9, main_call4_v10, main_v300]

/-- A line whose operations each write exactly the buffer listed for it writes listed buffers only. -/
theorem writes_sub_of_forall₂ {l : List (HloOp τ sig (Elt F))} {W : List (Ref sig .tc)}
    (h : List.Forall₂ (fun op y => op.writes = {Proc.devRef (τ := τ) .tc y}) l W) :
    l.Forall fun op => op.writes ⊆ (W.map (Proc.devRef (τ := τ) .tc)).toFinset := by
  rw [List.forall_iff_forall_mem]
  induction h with
  | nil => intro o ho; cases ho
  | @cons op y l W hw _ ih =>
    intro o ho
    rcases List.mem_cons.mp ho with rfl | ho
    · rw [hw, Finset.singleton_subset_iff, List.mem_toFinset]
      exact List.mem_map_of_mem List.mem_cons_self
    · refine (ih o ho).trans fun b hb => ?_
      rw [List.mem_toFinset] at hb ⊢
      rw [List.map_cons]
      exact List.mem_cons_of_mem _ hb

set_option maxRecDepth 8192 in
set_option maxHeartbeats 40000000 in
/-- Operation by operation, @main's operations write exactly the buffers of `ops_W`. -/
theorem ops_writes₂ : List.Forall₂ (fun op y => op.writes = {Proc.devRef (τ := τ) .tc y}) (ops (F := F)) ops_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- @main's operations write buffers of `ops_W` only. -/
theorem ops_writes : (ops : List (HloOp τ sig (Elt F))).Forall fun op => op.writes ⊆ (ops_W.map (Proc.devRef (τ := τ) .tc)).toFinset :=
  writes_sub_of_forall₂ ops_writes₂

/-- A buffer that no operation of @main writes keeps its contents through the whole line. -/
theorem ops_keep (V : Valuation τ sig (Elt F)) (r : Ref sig .tc) (h : r ∉ ops_W) :
    after (ops (F := F)) V (Proc.devRef .tc r) = V (Proc.devRef .tc r) :=
  after_of_writes_sub ops _ ops_writes h

/-- On every device, for any float values, from any memory with zero counters: every weakly fair execution of
    @main terminates with the result buffer at the fold of the operations over the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v300) = after (ops (F := F)) (launchContents m c) (Proc.devRef .tc main_v300)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v300,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide))⟩)
    (run_seq scopedRefs_eq scopedSems_eq defs main (fun _ => ops) main_eq (fun _ => ops_sub) m ρ)

end Cert.ReferenceIdeal.RefRun

end
-- ==== Proof.Ref.Frame.lean ====
/-
  The reference program's frame: it is a straight line of host operations, so every weakly fair execution runs each
  operation once and terminates, nothing faults, and no operation writes an argument array: the arguments end as launched.
  It is the reference's run with the result buffer's conjunct dropped.
-/
import proofs.«106081_j12317966204981_2_alg».proof.Defs
import proofs.«106081_j12317966204981_2_alg».proof.Proof.Gen.Pre_finite_inputs
import proofs.«106081_j12317966204981_2_alg».proof.Proof.Ref.Run

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.RefRun.run (F := Ideal) m ρ)

end Cert.Proof.RefFrame

end
-- ==== Proof.KIV.V2.lean ====
/-
  Region 2 on the extended reals: the output array after the region, index by index. Entry (r, j) is
  max (((P (r, j) - Mn (0, j)) * Rs (0, j)) * G (0, j) + Bt (0, j)) 0, with P the 100000 x 64 array and Mn, Rs, G, Bt the
  four 1 x 64 rows as the region finds them: subtract, multiply, multiply, add, clamp at zero, in that order.
  Point t of the grid holds rows 10000 t .. 10000 t + 9999; the ten row blocks tile the array.
-/
import proofs.«106081_j12317966204981_2_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The body's value at a block index -/

/-- The body's payload at entry (p, q) of the block: the loaded entry less the first row's entry in column q, times the
    second row's, times the third row's, plus the fourth row's, clamped at zero. -/
theorem pay2_apply (x0 : Vec Ideal S10000x64 .f32) (x1 x2 x3 x4 : Vec Ideal S1x64 .f32) (p : Fin 10000) (q : Fin 64) :
    k2_pay1 x0 x1 x2 x3 x4 (ix2 p q)
      = max (((x0 : S10000x64.Idx → EReal) (ix2 p q) - (x1 : S1x64.Idx → EReal) (ix2 (0 : Fin 1) q)) * (x2 : S1x64.Idx → EReal) (ix2 (0 : Fin 1) q)
          * (x3 : S1x64.Idx → EReal) (ix2 (0 : Fin 1) q) + (x4 : S1x64.Idx → EReal) (ix2 (0 : Fin 1) q)) 0 := by
  unfold k2_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The array the region leaves: normalise, scale, shift, clamp, entry by entry. -/
def G2 (P : S100000x64.Idx → EReal) (Mn Rs Gm Bt : S1x64.Idx → EReal) : S100000x64.Idx → EReal :=
  fun i => max ((P i - Mn (ix2 (0 : Fin 1) (i 1))) * Rs (ix2 (0 : Fin 1) (i 1)) * Gm (ix2 (0 : Fin 1) (i 1)) + Bt (ix2 (0 : Fin 1) (i 1))) 0

/-- The payload when the loaded block is rows n * 10000 .. n * 10000 + 9999 of an array P and the four loaded rows are
    the whole of four one-row arrays: at block index y it is that array's entry at the index i that y sits at. -/
theorem blk2_apply (x0 : Vec Ideal S10000x64 .f32) (x1 x2 x3 x4 : Vec Ideal S1x64 .f32)
    (P : S100000x64.Idx → EReal) (Mn Rs Gm Bt : S1x64.Idx → EReal) (n : ℕ)
    (h0 : ∀ (p : Fin 10000) (q : Fin 64) (r : Fin 100000), r.val = n * 10000 + p.val → x0 (ix2 p q) = P (ix2 r q))
    (h1 : ∀ q : Fin 64, x1 (ix2 (0 : Fin 1) q) = Mn (ix2 (0 : Fin 1) q)) (h2 : ∀ q : Fin 64, x2 (ix2 (0 : Fin 1) q) = Rs (ix2 (0 : Fin 1) q))
    (h3 : ∀ q : Fin 64, x3 (ix2 (0 : Fin 1) q) = Gm (ix2 (0 : Fin 1) q)) (h4 : ∀ q : Fin 64, x4 (ix2 (0 : Fin 1) q) = Bt (ix2 (0 : Fin 1) q))
    (y : S10000x64.Idx) (i : S100000x64.Idx) (hr : (i 0).val = n * 10000 + (y 0).val) (hj : (i 1).val = (y 1).val) :
    k2_pay1 x0 x1 x2 x3 x4 y = G2 P Mn Rs Gm Bt i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = max ((P (ix2 r j) - Mn (ix2 (0 : Fin 1) j)) * Rs (ix2 (0 : Fin 1) j) * Gm (ix2 (0 : Fin 1) j) + Bt (ix2 (0 : Fin 1) j)) 0
  rw [pay2_apply, h0 p j r hr, h1 j, h2 j, h3 j, h4 j]

/-! ## The loaded blocks as parts of the arrays -/

/-- The loaded block of window 0 at point t is rows 10000 t .. 10000 t + 9999 of its array. -/
theorem rd2_0 (c : Dev nD) (t : Fin cfg2.N) (p : Fin 10000) (q : Fin 64) (r : Fin 100000) (hr : r.val = t.val * 10000 + p.val) :
    (iblk2 V c 0 t : S10000x64.Idx → EReal) (ix2 p q) = (V c main_v46_0 : S100000x64.Idx → EReal) (ix2 r q) := by
  obtain ⟨e0, e1⟩ : win2_0.index t (0 : Fin 2) = t.val ∧ win2_0.index t (1 : Fin 2) = 0 :=
    (by decide +kernel : ∀ t : Fin grid2.N, win2_0.index t (0 : Fin 2) = t.val ∧ win2_0.index t (1 : Fin 2) = 0) t
  unfold iblk2
  rw [View.read_apply]
  show V c main_v46_0 _ = V c main_v46_0 _
  congr 1
  funext a
  apply Fin.ext
  match a with
  | ⟨0, _⟩ => show win2_0.index t (0 : Fin 2) * 10000 + 1 * p.val = r.val; omega
  | ⟨1, _⟩ => show win2_0.index t (1 : Fin 2) * 64 + 1 * q.val = q.val; omega

/-- The loaded block of window 1 is the whole one-row array. -/
theorem rd2_1 (c : Dev nD) (t : Fin cfg2.N) (q : Fin 64) :
    (iblk2 V c 1 t : S1x64.Idx → EReal) (ix2 (0 : Fin 1) q) = (V c main_v48 : S1x64.Idx → EReal) (ix2 (0 : Fin 1) q) := by
  obtain ⟨e0, e1⟩ : win2_1.index t (0 : Fin 2) = 0 ∧ win2_1.index t (1 : Fin 2) = 0 :=
    (by decide +kernel : ∀ t : Fin grid2.N, win2_1.index t (0 : Fin 2) = 0 ∧ win2_1.index t (1 : Fin 2) = 0) t
  unfold iblk2
  rw [View.read_apply]
  show V c main_v48 _ = V c main_v48 _
  congr 1
  funext a
  apply Fin.ext
  match a with
  | ⟨0, _⟩ => show win2_1.index t (0 : Fin 2) * 1 + 1 * 0 = 0; omega
  | ⟨1, _⟩ => show win2_1.index t (1 : Fin 2) * 64 + 1 * q.val = q.val; omega

/-- The loaded block of window 2 is the whole one-row array. -/
theorem rd2_2 (c : Dev nD) (t : Fin cfg2.N) (q : Fin 64) :
    (iblk2 V c 2 t : S1x64.Idx → EReal) (ix2 (0 : Fin 1) q) = (V c main_v55 : S1x64.Idx → EReal) (ix2 (0 : Fin 1) q) := by
  obtain ⟨e0, e1⟩ : win2_2.index t (0 : Fin 2) = 0 ∧ win2_2.index t (1 : Fin 2) = 0 :=
    (by decide +kernel : ∀ t : Fin grid2.N, win2_2.index t (0 : Fin 2) = 0 ∧ win2_2.index t (1 : Fin 2) = 0) t
  unfold iblk2
  rw [View.read_apply]
  show V c main_v55 _ = V c main_v55 _
  congr 1
  funext a
  apply Fin.ext
  match a with
  | ⟨0, _⟩ => show win2_2.index t (0 : Fin 2) * 1 + 1 * 0 = 0; omega
  | ⟨1, _⟩ => show win2_2.index t (1 : Fin 2) * 64 + 1 * q.val = q.val; omega

/-- The loaded block of window 3 is the whole one-row array. -/
theorem rd2_3 (c : Dev nD) (t : Fin cfg2.N) (q : Fin 64) :
    (iblk2 V c 3 t : S1x64.Idx → EReal) (ix2 (0 : Fin 1) q) = (V c main_v56 : S1x64.Idx → EReal) (ix2 (0 : Fin 1) q) := by
  obtain ⟨e0, e1⟩ : win2_3.index t (0 : Fin 2) = 0 ∧ win2_3.index t (1 : Fin 2) = 0 :=
    (by decide +kernel : ∀ t : Fin grid2.N, win2_3.index t (0 : Fin 2) = 0 ∧ win2_3.index t (1 : Fin 2) = 0) t
  unfold iblk2
  rw [View.read_apply]
  show V c main_v56 _ = V c main_v56 _
  congr 1
  funext a
  apply Fin.ext
  match a with
  | ⟨0, _⟩ => show win2_3.index t (0 : Fin 2) * 1 + 1 * 0 = 0; omega
  | ⟨1, _⟩ => show win2_3.index t (1 : Fin 2) * 64 + 1 * q.val = q.val; omega

/-- The loaded block of window 4 is the whole one-row array. -/
theorem rd2_4 (c : Dev nD) (t : Fin cfg2.N) (q : Fin 64) :
    (iblk2 V c 4 t : S1x64.Idx → EReal) (ix2 (0 : Fin 1) q) = (V c main_v57 : S1x64.Idx → EReal) (ix2 (0 : Fin 1) q) := by
  obtain ⟨e0, e1⟩ : win2_4.index t (0 : Fin 2) = 0 ∧ win2_4.index t (1 : Fin 2) = 0 :=
    (by decide +kernel : ∀ t : Fin grid2.N, win2_4.index t (0 : Fin 2) = 0 ∧ win2_4.index t (1 : Fin 2) = 0) t
  unfold iblk2
  rw [View.read_apply]
  show V c main_v57 _ = V c main_v57 _
  congr 1
  funext a
  apply Fin.ext
  match a with
  | ⟨0, _⟩ => show win2_4.index t (0 : Fin 2) * 1 + 1 * 0 = 0; omega
  | ⟨1, _⟩ => show win2_4.index t (1 : Fin 2) * 64 + 1 * q.val = q.val; omega

/-! ## From the blocks to the array -/

/-- What point t writes back is block t of that array of the arrays as the region finds them. -/
theorem flushed2_eq (c : Dev nD) (t : Fin cfg2.N) :
    (dat2 V c).flushed 5 t = ((cfg2.win 5).blk t).view.read (Elt Ideal)
      (G2 (V c main_v46_0) (V c main_v48) (V c main_v55) (V c main_v56) (V c main_v57)) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S1x64) hz2]
  obtain ⟨e0, e1⟩ : win2_5.index t (0 : Fin 2) = t.val ∧ win2_5.index t (1 : Fin 2) = 0 :=
    (by decide +kernel : ∀ t : Fin grid2.N, win2_5.index t (0 : Fin 2) = t.val ∧ win2_5.index t (1 : Fin 2) = 0) t
  funext y
  show k2_pay1 (iblk2 V c 0 t) (iblk2 V c 1 t) (iblk2 V c 2 t) (iblk2 V c 3 t) (iblk2 V c 4 t) y
    = G2 (V c main_v46_0) (V c main_v48) (V c main_v55) (V c main_v56) (V c main_v57) (((cfg2.win 5).blk t).view.emb y)
  refine blk2_apply (iblk2 V c 0 t) (iblk2 V c 1 t) (iblk2 V c 2 t) (iblk2 V c 3 t) (iblk2 V c 4 t)
    (V c main_v46_0) (V c main_v48) (V c main_v55) (V c main_v56) (V c main_v57) t.val
    (rd2_0 V c t) (rd2_1 V c t) (rd2_2 V c t) (rd2_3 V c t) (rd2_4 V c t) y _ ?_ ?_
  · show win2_5.index t (0 : Fin 2) * 10000 + 1 * (y 0).val = t.val * 10000 + (y 0).val; omega
  · show win2_5.index t (1 : Fin 2) * 64 + 1 * (y 1).val = (y 1).val; omega

/-- An index of the array is in point t's block iff each coordinate is in the block's range on its axis. -/
theorem mem_blk2_5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v58).slice (win2_5.rect t)).set ↔ _
  rw [View.set_slice_whole, Rect.mem_set_unit]
  exact Iff.rfl

/-- Every index of the array is in some point's block: row r is in block r / 10000. -/
theorem cover2_5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1⟩ : win2_5.index t (0 : Fin 2) = t.val ∧ win2_5.index t (1 : Fin 2) = 0 :=
    (by decide +kernel : ∀ t : Fin grid2.N, win2_5.index t (0 : Fin 2) = t.val ∧ win2_5.index t (1 : Fin 2) = 0) t
  refine ⟨t, flush2_5 t, ?_⟩
  rw [mem_blk2_5]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The array after the region. -/
theorem final2 (c : Dev nD) : (dat2 V c).arrAt 5 cfg2.N = G2 (V c main_v46_0) (V c main_v48) (V c main_v55) (V c main_v56) (V c main_v57) :=
  (dat2 V c).arrAt_eq_of_cover 5 (G2 (V c main_v46_0) (V c main_v48) (V c main_v55) (V c main_v56) (V c main_v57))
    (fun t _ => flushed2_eq V c t) cover2_5

/-- Entry by entry. -/
theorem val2 (c : Dev nD) (i : S100000x64.Idx) :
    (dat2 V c).arrAt 5 cfg2.N i = G2 (V c main_v46_0) (V c main_v48) (V c main_v55) (V c main_v56) (V c main_v57) i :=
  congrFun (final2 V c) i

/-- The entry, spelt out: subtract, multiply, multiply, add, clamp. -/
theorem G2_apply (P : S100000x64.Idx → EReal) (Mn Rs Gm Bt : S1x64.Idx → EReal) (i : S100000x64.Idx) :
    G2 P Mn Rs Gm Bt i = max ((P i - Mn (ix2 (0 : Fin 1) (i 1))) * Rs (ix2 (0 : Fin 1) (i 1)) * Gm (ix2 (0 : Fin 1) (i 1)) + Bt (ix2 (0 : Fin 1) (i 1))) 0 := rfl

end Cert.KernelIdeal.HandValue

end
-- ==== Proof.LibGraphStages.lean ====
/-
  The host-side stages of a graph-convolution network, as pure functions of arrays.

  Each definition composes the array operations of one stage, with every shape, broadcast / gather / scatter
  dimension record and size literal a PARAMETER, so that two programs that run the same operations over their own
  copies of the shapes and records instantiate the same definition:
    * edgeRow, wrapIndex: the source / destination index vectors out of the stacked edge array, and the wrap of a
      negative index by the node count;
    * degree, degreeRsqrt, edgeCoef, selfCoef: deg = 1 + (number of edges arriving), dinv = rsqrt deg, the edge
      coefficient dinv[src] * dinv[dst] and the self coefficient dinv^2;
    * aggStage: out = scatter-add over edges of coef * x[src] into row dst, plus self * x; biasRow: a recast row;
    * meanRow, varRow, rsqrtVarRow: from the rows of column sums and column sums of squares, sum / n,
      sumsq / n - (sum / n)^2, and rsqrt of that plus eps;
    * poolSums, poolCounts, poolStage: group sums by a batch vector divided by max (group count, 1).
-/
import Idealize.ShloMosaic.PureOps.Ideal.Laws

open Idealize.ShloMosaic

noncomputable section

namespace Cert.Lib.GraphStages

variable {F : FTy → Type} [FloatOps F]

/-! ### Index vectors -/

/-- One row of a stacked index array, as a vector: the slice at the given offsets, recast. -/
def edgeRow {α : Type} {sA sR sE : Shape} (off : Fin sA.rank → Nat) (hs : sA.Slices off sR) (hc : sR.ShapeCasts sE)
    (edges : sA.Idx → α) : sE.Idx → α :=
  shapeCast sE (extractStridedSlice sR off edges hs) hc

/-- An index vector whose negative entries are wrapped: where an entry is below zero the count is added to it. -/
def wrapIndex {s0 sE : Shape} (d0 : Fin s0.rank → Fin sE.rank) (b0 : s0.BroadcastsInDim sE d0) (count : BitVec 32)
    (idx : IVec sE 32) : IVec sE 32 :=
  select (cmpi .slt idx (broadcastInDim sE d0 b0 (constantI s0 32 0#32)))
    (addi idx (broadcastInDim sE d0 b0 (constantI s0 32 count))) idx

/-! ### Degrees and coefficients -/

/-- The degree of every node, self loop included: ones summed into the nodes named by the destination indices, from
    zero, plus one. -/
def degree {s0 sE sE1 sN : Shape}
    (dE : Fin s0.rank → Fin sE.rank) (bE : s0.BroadcastsInDim sE dE)
    (dN : Fin s0.rank → Fin sN.rank) (bN : s0.BroadcastsInDim sN dN)
    (d1 : Fin sE.rank → Fin sE1.rank) (b1 : sE.BroadcastsInDim sE1 d1)
    (sc : ScatterDims sN sE1 sE) (dst : IVec sE 32) : FVec F sN .f32 :=
  addf
    (Host.scatterAdd sc (broadcastInDim sN dN bN (constant (F := F) s0 .f32 0x00000000#32)) (broadcastInDim sE1 d1 b1 dst)
      (broadcastInDim sE dE bE (constant (F := F) s0 .f32 0x3F800000#32)))
    (broadcastInDim sN dN bN (constant (F := F) s0 .f32 0x3F800000#32))

/-- The reciprocal square root of the degrees. -/
def degreeRsqrt {s0 sE sE1 sN : Shape}
    (dE : Fin s0.rank → Fin sE.rank) (bE : s0.BroadcastsInDim sE dE)
    (dN : Fin s0.rank → Fin sN.rank) (bN : s0.BroadcastsInDim sN dN)
    (d1 : Fin sE.rank → Fin sE1.rank) (b1 : sE.BroadcastsInDim sE1 d1)
    (sc : ScatterDims sN sE1 sE) (dst : IVec sE 32) : FVec F sN .f32 :=
  Host.rsqrt (degree (F := F) dE bE dN bN d1 b1 sc dst)

/-- The coefficient of every edge: the product of the two end nodes' values of `dinv`, as a column. -/
def edgeCoef {s0 sE sE1 sN : Shape}
    (dE : Fin s0.rank → Fin sE.rank) (bE : s0.BroadcastsInDim sE dE)
    (d1 : Fin sE.rank → Fin sE1.rank) (b1 : sE.BroadcastsInDim sE1 d1)
    (g : GatherDims sN sE1 sE) (count : BitVec 32)
    (dinv : FVec F sN .f32) (src dst : IVec sE 32) : FVec F sE1 .f32 :=
  broadcastInDim sE1 d1 b1
    (mulf (Host.gather g dinv (broadcastInDim sE1 d1 b1 (wrapIndex dE bE count src)))
      (Host.gather g dinv (broadcastInDim sE1 d1 b1 (wrapIndex dE bE count dst))))

/-- The coefficient of every node's self term: the square of its value of `dinv`, as a column. -/
def selfCoef {sN sN1 : Shape} (dn : Fin sN.rank → Fin sN1.rank) (bn : sN.BroadcastsInDim sN1 dn)
    (dinv : FVec F sN .f32) : FVec F sN1 .f32 :=
  broadcastInDim sN1 dn bn (mulf dinv dinv)

/-! ### One aggregation -/

/-- One aggregation over the edges: the rows of `x` gathered at the (wrapped) source indices, each scaled by its edge's
    coefficient, summed into the rows named by the destination indices from zero, plus `x` scaled row by row by the
    self coefficient. -/
def aggStage {s0 sE sE1 sEh sN1 sNh : Shape}
    (d0 : Fin s0.rank → Fin sE.rank) (b0 : s0.BroadcastsInDim sE d0)
    (d1 : Fin sE.rank → Fin sE1.rank) (b1 : sE.BroadcastsInDim sE1 d1)
    (d2 : Fin sE1.rank → Fin sEh.rank) (b2 : sE1.BroadcastsInDim sEh d2)
    (dz : Fin s0.rank → Fin sNh.rank) (bz : s0.BroadcastsInDim sNh dz)
    (d3 : Fin sN1.rank → Fin sNh.rank) (b3 : sN1.BroadcastsInDim sNh d3)
    (g : GatherDims sNh sE1 sEh) (sc : ScatterDims sNh sE1 sEh) (count : BitVec 32)
    (x : FVec F sNh .f32) (src dst : IVec sE 32) (coef : FVec F sE1 .f32) (self : FVec F sN1 .f32) : FVec F sNh .f32 :=
  addf
    (Host.scatterAdd sc (broadcastInDim sNh dz bz (constant (F := F) s0 .f32 0x00000000#32)) (broadcastInDim sE1 d1 b1 dst)
      (mulf (Host.gather g x (broadcastInDim sE1 d1 b1 (wrapIndex d0 b0 count src))) (broadcastInDim sEh d2 b2 coef)))
    (mulf x (broadcastInDim sNh d3 b3 self))

/-- A row of parameters recast to another shape of as many entries. -/
def biasRow {α : Type} {s t : Shape} (h : s.ShapeCasts t) (x : s.Idx → α) : t.Idx → α := shapeCast t x h

/-! ### Column statistics from the two sum rows -/

/-- A row of column sums divided by the count: the mean row. -/
def meanRow {s0 sR : Shape} (dz : Fin s0.rank → Fin sR.rank) (bz : s0.BroadcastsInDim sR dz) (cnt : BitVec 32)
    (sum : FVec F sR .f32) : FVec F sR .f32 :=
  Host.divf sum (broadcastInDim sR dz bz (constant (F := F) s0 .f32 cnt))

/-- The variance row as the mean square less the squared mean. -/
def varRow {s0 sR : Shape} (dz : Fin s0.rank → Fin sR.rank) (bz : s0.BroadcastsInDim sR dz) (cnt : BitVec 32)
    (sum sumsq : FVec F sR .f32) : FVec F sR .f32 :=
  subf (meanRow (F := F) dz bz cnt sumsq) (mulf (meanRow (F := F) dz bz cnt sum) (meanRow (F := F) dz bz cnt sum))

/-- The reciprocal square root of the variance row plus eps. -/
def rsqrtVarRow {s0 sR : Shape} (dz : Fin s0.rank → Fin sR.rank) (bz : s0.BroadcastsInDim sR dz) (cnt eps : BitVec 32)
    (sum sumsq : FVec F sR .f32) : FVec F sR .f32 :=
  Host.rsqrt (addf (varRow (F := F) dz bz cnt sum sumsq) (broadcastInDim sR dz bz (constant (F := F) s0 .f32 eps)))

/-! ### Mean pooling by a batch vector -/

/-- The rows of `x` summed into the groups named by the batch vector, from zero. -/
def poolSums {s0 sN sN1 sNh sGh : Shape}
    (dzh : Fin s0.rank → Fin sGh.rank) (bzh : s0.BroadcastsInDim sGh dzh)
    (dn : Fin sN.rank → Fin sN1.rank) (bn : sN.BroadcastsInDim sN1 dn)
    (sc : ScatterDims sGh sN1 sNh) (x : FVec F sNh .f32) (batch : IVec sN 32) : FVec F sGh .f32 :=
  Host.scatterAdd sc (broadcastInDim sGh dzh bzh (constant (F := F) s0 .f32 0x00000000#32)) (broadcastInDim sN1 dn bn batch) x

/-- The number of nodes in every group (ones summed by the batch vector, from zero), raised to at least one. -/
def poolCounts {s0 sN sN1 sG : Shape}
    (dzN : Fin s0.rank → Fin sN.rank) (bzN : s0.BroadcastsInDim sN dzN)
    (dzG : Fin s0.rank → Fin sG.rank) (bzG : s0.BroadcastsInDim sG dzG)
    (dn : Fin sN.rank → Fin sN1.rank) (bn : sN.BroadcastsInDim sN1 dn)
    (sc : ScatterDims sG sN1 sN) (batch : IVec sN 32) : FVec F sG .f32 :=
  maximumf
    (Host.scatterAdd sc (broadcastInDim sG dzG bzG (constant (F := F) s0 .f32 0x00000000#32)) (broadcastInDim sN1 dn bn batch)
      (broadcastInDim sN dzN bzN (constant (F := F) s0 .f32 0x3F800000#32)))
    (broadcastInDim sG dzG bzG (constant (F := F) s0 .f32 0x3F800000#32))

/-- The group means: the group sums divided, row by row, by the (raised) group counts. -/
def poolStage {s0 sN sN1 sNh sG sG1 sGh : Shape}
    (dzh : Fin s0.rank → Fin sGh.rank) (bzh : s0.BroadcastsInDim sGh dzh)
    (dzN : Fin s0.rank → Fin sN.rank) (bzN : s0.BroadcastsInDim sN dzN)
    (dzG : Fin s0.rank → Fin sG.rank) (bzG : s0.BroadcastsInDim sG dzG)
    (dn : Fin sN.rank → Fin sN1.rank) (bn : sN.BroadcastsInDim sN1 dn)
    (dg : Fin sG.rank → Fin sG1.rank) (bg : sG.BroadcastsInDim sG1 dg)
    (dgh : Fin sG1.rank → Fin sGh.rank) (bgh : sG1.BroadcastsInDim sGh dgh)
    (scS : ScatterDims sGh sN1 sNh) (scC : ScatterDims sG sN1 sN)
    (x : FVec F sNh .f32) (batch : IVec sN 32) : FVec F sGh .f32 :=
  Host.divf (poolSums (F := F) dzh bzh dn bn scS x batch)
    (broadcastInDim sGh dgh bgh (broadcastInDim sG1 dg bg (poolCounts (F := F) dzN bzN dzG bzG dn bn scC batch)))

end Cert.Lib.GraphStages

end
-- ==== Proof.KIH.Stages.lean ====
/-
  The kernel program's ten host stretches read as pure functions.

  Every buffer a host stretch writes and a later region (or a later stretch) reads is stated as a composite of
  the stage functions of LibGraphStages at this program's shapes and dimension records, applied to the contents
  of exactly the buffers the stretch reads from before it:
    * stretch 0: the source and destination index vectors, the reciprocal square roots of the degrees, the edge
      coefficients and the self coefficients, all from the edge array;
    * stretches 1, 4, 7, 10: one aggregation of the projected rows, and the layer's bias as a one-row array;
    * stretches 2, 5, 8, 11: the mean row and the reciprocal square root of the variance row plus eps from the two
      rows of column sums, and the layer's gain and shift as one-row arrays;
    * stretch 12: the group means of the node rows by the batch vector, and the last bias as a one-row array.
  Each equation is the fold of the stretch's operations computed at the named buffer.
-/
import proofs.«106081_j12317966204981_2_alg».proof.Proof.Gen.KernelIdeal.Launch
import Idealize.ShloMosaic.Lib.StableHlo.Run
import proofs.«106081_j12317966204981_2_alg».proof.Proof.LibGraphStages

open Idealize.ShloMosaic

noncomputable section

namespace Cert.KernelIdeal.HandHost

open Cert.KernelIdeal Cert.KernelIdeal.Gen Cert.Lib.GraphStages

variable {F : FTy → Type} [FloatOps F]

/-! ### The shared composites at this program's shapes and records -/

/-- The source index vector: row 0 of the edge array. -/
def kSrc (e : IVec S2x1600000 32) : IVec S1600000 32 :=
  edgeRow ![0, 0] slices_S2x1600000_S1x1600000_0_0 shapeCasts_S1x1600000_S1600000 e

/-- The destination index vector: row 1 of the edge array. -/
def kDst (e : IVec S2x1600000 32) : IVec S1600000 32 :=
  edgeRow ![1, 0] slices_S2x1600000_S1x1600000_1_0 shapeCasts_S1x1600000_S1600000 e

/-- The reciprocal square roots of the degrees. -/
def kDinv (e : IVec S2x1600000 32) : FVec F S100000 .f32 :=
  degreeRsqrt (F := F) (s0 := S_) (sE := S1600000) (sE1 := S1600000x1) (sN := S100000)
    ![] bcast_S_S1600000 ![] bcast_S_S100000 ![0] bcast_S1600000_S1600000x1_0
    scatter_S100000_S1600000x1_S1600000_n_0_0_1 (kDst e)

/-- The edge coefficients. -/
def kCoef (e : IVec S2x1600000 32) : FVec F S1600000x1 .f32 :=
  edgeCoef (F := F) (s0 := S_) (sE := S1600000) (sE1 := S1600000x1) (sN := S100000)
    ![] bcast_S_S1600000 ![0] bcast_S1600000_S1600000x1_0
    gather_S100000_S1600000x1_S1600000_n_0_n_n_0_1_1 100000#32 (kDinv (F := F) e) (kSrc e) (kDst e)

/-- The self coefficients. -/
def kSelf (e : IVec S2x1600000 32) : FVec F S100000x1 .f32 :=
  selfCoef (F := F) (sN := S100000) (sN1 := S100000x1) ![0] bcast_S100000_S100000x1_0 (kDinv (F := F) e)

/-- One aggregation. -/
def kAgg (x : FVec F S100000x64 .f32) (src dst : IVec S1600000 32) (coef : FVec F S1600000x1 .f32)
    (self : FVec F S100000x1 .f32) : FVec F S100000x64 .f32 :=
  aggStage (F := F) (s0 := S_) (sE := S1600000) (sE1 := S1600000x1) (sEh := S1600000x64) (sN1 := S100000x1) (sNh := S100000x64)
    ![] bcast_S_S1600000 ![0] bcast_S1600000_S1600000x1_0 ![0, 1] bcast_S1600000x1_S1600000x64_0_1
    ![] bcast_S_S100000x64 ![0, 1] bcast_S100000x1_S100000x64_0_1
    gather_S100000x64_S1600000x1_S1600000x64_1_0_n_n_0_1_164 scatter_S100000x64_S1600000x1_S1600000x64_1_0_0_1 100000#32
    x src dst coef self

/-- A layer's parameter row, as a one-row array. -/
def kBias (b : FVec F S64 .f32) : FVec F S1x64 .f32 := biasRow shapeCasts_S64_S1x64 b

/-- The mean row from the row of column sums. -/
def kMean (s : FVec F S1x64 .f32) : FVec F S1x64 .f32 :=
  meanRow (F := F) (s0 := S_) (sR := S1x64) ![] bcast_S_S1x64 0x47C35000#32 s

/-- The variance row from the rows of column sums and of column sums of squares. -/
def kVar (s ss : FVec F S1x64 .f32) : FVec F S1x64 .f32 :=
  varRow (F := F) (s0 := S_) (sR := S1x64) ![] bcast_S_S1x64 0x47C35000#32 s ss

/-- The reciprocal square root of the variance row plus eps. -/
def kRsqrtVar (s ss : FVec F S1x64 .f32) : FVec F S1x64 .f32 :=
  rsqrtVarRow (F := F) (s0 := S_) (sR := S1x64) ![] bcast_S_S1x64 0x47C35000#32 0x3727C5AC#32 s ss

/-- The group means of the node rows. -/
def kPool (x : FVec F S100000x64 .f32) (batch : IVec S100000 32) : FVec F S512x64 .f32 :=
  poolStage (F := F) (s0 := S_) (sN := S100000) (sN1 := S100000x1) (sNh := S100000x64) (sG := S512) (sG1 := S512x1) (sGh := S512x64)
    ![] bcast_S_S512x64 ![] bcast_S_S100000 ![] bcast_S_S512 ![0] bcast_S100000_S100000x1_0 ![0] bcast_S512_S512x1_0
    ![0, 1] bcast_S512x1_S512x64_0_1 scatter_S512x64_S100000x1_S100000x64_1_0_0_1 scatter_S512_S100000x1_S100000_n_0_0_1 x batch

/-- The last bias, as a one-row array. -/
def kBiasOut (b : FVec F S10 .f32) : FVec F S1x10 .f32 := biasRow shapeCasts_S10_S1x10 b

/-! ### Stretch 0: index vectors, degrees, coefficients -/

theorem stage0_v1 (W : Valuation τ sig (Elt F)) :
    StableHlo.after hostOps0 W (Proc.devRef .tc main_v1)
      = kSrc (W (Proc.devRef .tc main_arg1)) := by
  dsimp only [hostOps0]
  after_results_simp
  rfl
theorem stage0_v3 (W : Valuation τ sig (Elt F)) :
    StableHlo.after hostOps0 W (Proc.devRef .tc main_v3)
      = kDst (W (Proc.devRef .tc main_arg1)) := by
  dsimp only [hostOps0]
  after_results_simp
  rfl
theorem stage0_v10 (W : Valuation τ sig (Elt F)) :
    StableHlo.after hostOps0 W (Proc.devRef .tc main_v10)
      = kDinv (F := F) (W (Proc.devRef .tc main_arg1)) := by
  dsimp only [hostOps0]
  after_results_simp
  rfl
theorem stage0_v26 (W : Valuation τ sig (Elt F)) :
    StableHlo.after hostOps0 W (Proc.devRef .tc main_v26)
      = kCoef (F := F) (W (Proc.devRef .tc main_arg1)) := by
  dsimp only [hostOps0]
  after_results_simp
  rfl
theorem stage0_v28 (W : Valuation τ sig (Elt F)) :
    StableHlo.after hostOps0 W (Proc.devRef .tc main_v28)
      = kSelf (F := F) (W (Proc.devRef .tc main_arg1)) := by
  dsimp only [hostOps0]
  after_results_simp
  rfl

/-! ### The four aggregation stretches -/

theorem stage1_v44 (W : Valuation τ sig (Elt F)) :
    StableHlo.after hostOps1 W (Proc.devRef .tc main_v44)
      = kAgg (F := F) (W (Proc.devRef .tc main_v29)) (W (Proc.devRef .tc main_v1)) (W (Proc.devRef .tc main_v3))
          (W (Proc.devRef .tc main_v26)) (W (Proc.devRef .tc main_v28)) := by
  dsimp only [hostOps1]
  after_results_simp
  rfl
theorem stage1_v45 (W : Valuation τ sig (Elt F)) :
    StableHlo.after hostOps1 W (Proc.devRef .tc main_v45)
      = kBias (F := F) (W (Proc.devRef .tc main_arg4)) := by
  dsimp only [hostOps1]
  after_results_simp
  rfl
theorem stage4_v74 (W : Valuation τ sig (Elt F)) :
    StableHlo.after hostOps4 W (Proc.devRef .tc main_v74)
      = kAgg (F := F) (W (Proc.devRef .tc main_v59)) (W (Proc.devRef .tc main_v1)) (W (Proc.devRef .tc main_v3))
          (W (Proc.devRef .tc main_v26)) (W (Proc.devRef .tc main_v28)) := by
  dsimp only [hostOps4]
  after_results_simp
  rfl
theorem stage4_v75 (W : Valuation τ sig (Elt F)) :
    StableHlo.after hostOps4 W (Proc.devRef .tc main_v75)
      = kBias (F := F) (W (Proc.devRef .tc main_arg8)) := by
  dsimp only [hostOps4]
  after_results_simp
  rfl
theorem stage7_v104 (W : Valuation τ sig (Elt F)) :
    StableHlo.after hostOps7 W (Proc.devRef .tc main_v104)
      = kAgg (F := F) (W (Proc.devRef .tc main_v89)) (W (Proc.devRef .tc main_v1)) (W (Proc.devRef .tc main_v3))
          (W (Proc.devRef .tc main_v26)) (W (Proc.devRef .tc main_v28)) := by
  dsimp only [hostOps7]
  after_results_simp
  rfl
theorem stage7_v105 (W : Valuation τ sig (Elt F)) :
    StableHlo.after hostOps7 W (Proc.devRef .tc main_v105)
      = kBias (F := F) (W (Proc.devRef .tc main_arg12)) := by
  dsimp only [hostOps7]
  after_results_simp
  rfl
theorem stage10_v134 (W : Valuation τ sig (Elt F)) :
    StableHlo.after hostOps10 W (Proc.devRef .tc main_v134)
      = kAgg (F := F) (W (Proc.devRef .tc main_v119)) (W (Proc.devRef .tc main_v1)) (W (Proc.devRef .tc main_v3))
          (W (Proc.devRef .tc main_v26)) (W (Proc.devRef .tc main_v28)) := by
  dsimp only [hostOps10]
  after_results_simp
  rfl
theorem stage10_v135 (W : Valuation τ sig (Elt F)) :
    StableHlo.after hostOps10 W (Proc.devRef .tc main_v135)
      = kBias (F := F) (W (Proc.devRef .tc main_arg16)) := by
  dsimp only [hostOps10]
  after_results_simp
  rfl

/-! ### The four statistics stretches -/

theorem stage2_v48 (W : Valuation τ sig (Elt F)) :
    StableHlo.after hostOps2 W (Proc.devRef .tc main_v48)
      = kMean (F := F) (W (Proc.devRef .tc main_v46_1)) := by
  dsimp only [hostOps2]
  after_results_simp
  rfl
theorem stage2_v55 (W : Valuation τ sig (Elt F)) :
    StableHlo.after hostOps2 W (Proc.devRef .tc main_v55)
      = kRsqrtVar (F := F) (W (Proc.devRef .tc main_v46_1)) (W (Proc.devRef .tc main_v46_2)) := by
  dsimp only [hostOps2]
  after_results_simp
  rfl
theorem stage2_v56 (W : Valuation τ sig (Elt F)) :
    StableHlo.after hostOps2 W (Proc.devRef .tc main_v56)
      = kBias (F := F) (W (Proc.devRef .tc main_arg5)) := by
  dsimp only [hostOps2]
  after_results_simp
  rfl
theorem stage2_v57 (W : Valuation τ sig (Elt F)) :
    StableHlo.after hostOps2 W (Proc.devRef .tc main_v57)
      = kBias (F := F) (W (Proc.devRef .tc main_arg6)) := by
  dsimp only [hostOps2]
  after_results_simp
  rfl
theorem stage5_v78 (W : Valuation τ sig (Elt F)) :
    StableHlo.after hostOps5 W (Proc.devRef .tc main_v78)
      = kMean (F := F) (W (Proc.devRef .tc main_v76_1)) := by
  dsimp only [hostOps5]
  after_results_simp
  rfl
theorem stage5_v85 (W : Valuation τ sig (Elt F)) :
    StableHlo.after hostOps5 W (Proc.devRef .tc main_v85)
      = kRsqrtVar (F := F) (W (Proc.devRef .tc main_v76_1)) (W (Proc.devRef .tc main_v76_2)) := by
  dsimp only [hostOps5]
  after_results_simp
  rfl
theorem stage5_v86 (W : Valuation τ sig (Elt F)) :
    StableHlo.after hostOps5 W (Proc.devRef .tc main_v86)
      = kBias (F := F) (W (Proc.devRef .tc main_arg9)) := by
  dsimp only [hostOps5]
  after_results_simp
  rfl
theorem stage5_v87 (W : Valuation τ sig (Elt F)) :
    StableHlo.after hostOps5 W (Proc.devRef .tc main_v87)
      = kBias (F := F) (W (Proc.devRef .tc main_arg10)) := by
  dsimp only [hostOps5]
  after_results_simp
  rfl
theorem stage8_v108 (W : Valuation τ sig (Elt F)) :
    StableHlo.after hostOps8 W (Proc.devRef .tc main_v108)
      = kMean (F := F) (W (Proc.devRef .tc main_v106_1)) := by
  dsimp only [hostOps8]
  after_results_simp
  rfl
theorem stage8_v115 (W : Valuation τ sig (Elt F)) :
    StableHlo.after hostOps8 W (Proc.devRef .tc main_v115)
      = kRsqrtVar (F := F) (W (Proc.devRef .tc main_v106_1)) (W (Proc.devRef .tc main_v106_2)) := by
  dsimp only [hostOps8]
  after_results_simp
  rfl
theorem stage8_v116 (W : Valuation τ sig (Elt F)) :
    StableHlo.after hostOps8 W (Proc.devRef .tc main_v116)
      = kBias (F := F) (W (Proc.devRef .tc main_arg13)) := by
  dsimp only [hostOps8]
  after_results_simp
  rfl
theorem stage8_v117 (W : Valuation τ sig (Elt F)) :
    StableHlo.after hostOps8 W (Proc.devRef .tc main_v117)
      = kBias (F := F) (W (Proc.devRef .tc main_arg14)) := by
  dsimp only [hostOps8]
  after_results_simp
  rfl
theorem stage11_v138 (W : Valuation τ sig (Elt F)) :
    StableHlo.after hostOps11 W (Proc.devRef .tc main_v138)
      = kMean (F := F) (W (Proc.devRef .tc main_v136_1)) := by
  dsimp only [hostOps11]
  after_results_simp
  rfl
theorem stage11_v145 (W : Valuation τ sig (Elt F)) :
    StableHlo.after hostOps11 W (Proc.devRef .tc main_v145)
      = kRsqrtVar (F := F) (W (Proc.devRef .tc main_v136_1)) (W (Proc.devRef .tc main_v136_2)) := by
  dsimp only [hostOps11]
  after_results_simp
  rfl
theorem stage11_v146 (W : Valuation τ sig (Elt F)) :
    StableHlo.after hostOps11 W (Proc.devRef .tc main_v146)
      = kBias (F := F) (W (Proc.devRef .tc main_arg17)) := by
  dsimp only [hostOps11]
  after_results_simp
  rfl
theorem stage11_v147 (W : Valuation τ sig (Elt F)) :
    StableHlo.after hostOps11 W (Proc.devRef .tc main_v147)
      = kBias (F := F) (W (Proc.devRef .tc main_arg18)) := by
  dsimp only [hostOps11]
  after_results_simp
  rfl

/-! ### The pooling stretch -/

theorem stage12_v160 (W : Valuation τ sig (Elt F)) :
    StableHlo.after hostOps12 W (Proc.devRef .tc main_v160)
      = kPool (F := F) (W (Proc.devRef .tc main_v148)) (W (Proc.devRef .tc main_arg2)) := by
  dsimp only [hostOps12]
  after_results_simp
  rfl
theorem stage12_v161 (W : Valuation τ sig (Elt F)) :
    StableHlo.after hostOps12 W (Proc.devRef .tc main_v161)
      = kBiasOut (F := F) (W (Proc.devRef .tc main_arg20)) := by
  dsimp only [hostOps12]
  after_results_simp
  rfl

end Cert.KernelIdeal.HandHost

end
-- ==== Proof.Consts.lean ====
/-
  The float literals both programs share, read as extended reals: the zero word is 0, 0x3F800000 is 1, 0x47C35000 is
  100000 (the number of nodes), and 0x3727C5AC (the variance's guard) is a positive real, 10995116 / 2 ^ 40.
-/
import Idealize.ShloMosaic.PureOps.Ideal
import Mathlib.Tactic.NormNum

open Idealize.ShloMosaic

namespace Cert.Consts

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_nodes : Ideal.ofBits .f32 0x47C35000#32 = ((100000 : ℝ) : EReal) := by
  simp [Ideal.ofBits, Ideal.ieee, -EReal.coe_mul]; norm_num

/-- The guard added to the variance, as a real number. -/
noncomputable def guard : ℝ := 10995116 / 2 ^ 40

theorem guard_pos : 0 < guard := by unfold guard; positivity

theorem ofBits_guard : Ideal.ofBits .f32 0x3727C5AC#32 = ((guard : ℝ) : EReal) := by
  unfold guard
  simp [Ideal.ofBits, Ideal.ieee, -EReal.coe_mul]; norm_num

theorem ofBits_neg_inf : Ideal.ofBits .f32 0xFF800000#32 = ⊥ := by
  simp [Ideal.ofBits, Ideal.ieee]

end Cert.Consts
-- ==== Proof.KIH.Read.lean ====
/-
  The kernel program's small host stages read at an index, at the ideal values.

  A parameter row recast to one row reads the parameter; the mean row at an index is the sum there divided by the
  node count 100000; the variance row is the mean square less the squared mean; and the last statistic is the
  reciprocal square root of that variance plus the guard. (A broadcast scalar constant read at any index is the
  constant; division, subtraction, product, sum and reciprocal square root are pointwise.)
-/
import proofs.«106081_j12317966204981_2_alg».proof.Proof.KIH.Stages
import proofs.«106081_j12317966204981_2_alg».proof.Proof.Consts
import Idealize.ShloMosaic.Lib.IdealHost
import Idealize.ShloMosaic.Lib.ValueLayout

open Idealize.ShloMosaic

noncomputable section

namespace Cert.KernelIdeal.HandHost

open Cert.KernelIdeal Cert.KernelIdeal.Gen Cert.Lib.GraphStages Idealize.ShloMosaic.ValueIdx

/-! ### Parameter rows read at an index -/

/-- A parameter row recast to one row reads the parameter. -/
theorem kBias_apply (b : FVec Ideal S64 .f32) (j : Fin 64) : kBias (F := Ideal) b (ix2 (0 : Fin 1) j) = b (ix1 j) := by
  unfold kBias biasRow; exact shapeCast_a_1a_apply b _ 0 j

theorem kBiasOut_apply (b : FVec Ideal S10 .f32) (j : Fin 10) : kBiasOut (F := Ideal) b (ix2 (0 : Fin 1) j) = b (ix1 j) := by
  unfold kBiasOut biasRow; exact shapeCast_a_1a_apply b _ 0 j

/-! ### Column statistics read at an index -/

/-- The mean row at an index: the sum there divided by the node count. -/
theorem kMean_apply (s : FVec Ideal S1x64 .f32) (i : S1x64.Idx) :
    kMean (F := Ideal) s i = Ideal.div (s i) ((100000 : ℝ) : EReal) := by
  unfold kMean meanRow
  show Ideal.div (s i) (broadcastInDim S1x64 ![] bcast_S_S1x64 (constant (F := Ideal) S_ .f32 0x47C35000#32) i) = _
  rw [broadcastInDim_scalar_apply, constant_apply, Cert.Consts.ofBits_nodes]

/-- The variance row at an index: the mean square less the squared mean. -/
theorem kVar_apply (s ss : FVec Ideal S1x64 .f32) (i : S1x64.Idx) :
    kVar (F := Ideal) s ss i
      = Ideal.div (ss i) ((100000 : ℝ) : EReal)
          - Ideal.div (s i) ((100000 : ℝ) : EReal) * Ideal.div (s i) ((100000 : ℝ) : EReal) := by
  unfold kVar varRow
  show meanRow (F := Ideal) (s0 := S_) (sR := S1x64) ![] bcast_S_S1x64 0x47C35000#32 ss i
    - meanRow (F := Ideal) (s0 := S_) (sR := S1x64) ![] bcast_S_S1x64 0x47C35000#32 s i
      * meanRow (F := Ideal) (s0 := S_) (sR := S1x64) ![] bcast_S_S1x64 0x47C35000#32 s i = _
  have h := kMean_apply
  unfold kMean at h
  rw [h ss i, h s i]

/-- The reciprocal square root of variance plus guard at an index. -/
theorem kRsqrtVar_apply (s ss : FVec Ideal S1x64 .f32) (i : S1x64.Idx) :
    kRsqrtVar (F := Ideal) s ss i
      = Ideal.rsqrt ((Ideal.div (ss i) ((100000 : ℝ) : EReal)
          - Ideal.div (s i) ((100000 : ℝ) : EReal) * Ideal.div (s i) ((100000 : ℝ) : EReal))
          + ((Cert.Consts.guard : ℝ) : EReal)) := by
  unfold kRsqrtVar rsqrtVarRow
  show Ideal.rsqrt (varRow (F := Ideal) (s0 := S_) (sR := S1x64) ![] bcast_S_S1x64 0x47C35000#32 s ss i
    + broadcastInDim S1x64 ![] bcast_S_S1x64 (constant (F := Ideal) S_ .f32 0x3727C5AC#32) i) = _
  have h := kVar_apply
  unfold kVar at h
  rw [h s ss i, broadcastInDim_scalar_apply, constant_apply, Cert.Consts.ofBits_guard]

end Cert.KernelIdeal.HandHost

end
-- ==== Proof.Spec.lean ====
/-
  The network both programs compute, as functions on the extended reals over finite index types, in the two spellings.

  One graph-convolution layer with batch normalisation: from node features x (n x d), a weight matrix W (d x h) and rows
  b, g, bt (h), with an aggregation operator Agg on n x h arrays (the normalised neighbour sum plus the self term, the
  same for both programs):
      p   = Agg (x W) + b                      (row-broadcast)
      mu  = (sum_r p) / N                      (per column)
      out = max ((p - mu) * rsqrt (var + eps) * g + bt, 0)
  where the variance is spelt either as the mean of squared deviations, (sum_r (p - mu)^2) / N, or as the mean square
  less the squared mean, (sum_r p^2) / N - mu * mu. Four such layers, a pooling operator Pool (n x h to G x h, again
  shared), a final affine map to C logits, and the log-softmax, spelt either as (l - m) - log (sum exp (l - m)) or as
  l - (m + log (sum exp (l - m))), m the row maximum.
-/
import Idealize.ShloMosaic.PureOps.Ideal
import Mathlib.Algebra.BigOperators.Group.Finset.Basic
import Mathlib.Order.CompleteLattice.Finset

open Idealize.ShloMosaic

noncomputable section

namespace Cert.Spec

/-- Every entry of a two-axis array is a real number. -/
def Fin2 {a b : ℕ} (x : Fin a → Fin b → EReal) : Prop := ∀ i j, ∃ r : ℝ, x i j = (r : EReal)
/-- Every entry of a row is a real number. -/
def Fin1 {a : ℕ} (x : Fin a → EReal) : Prop := ∀ i, ∃ r : ℝ, x i = (r : EReal)

variable {n d h G C : ℕ}

/-- The matrix product. -/
def proj {a k b : ℕ} (x : Fin a → Fin k → EReal) (W : Fin k → Fin b → EReal) : Fin a → Fin b → EReal :=
  fun r j => ∑ k, x r k * W k j

/-- The column mean. -/
def colMean (N : EReal) (p : Fin n → Fin h → EReal) (j : Fin h) : EReal := Ideal.div (∑ r, p r j) N

/-- The variance as the mean of the squared deviations from the column mean. -/
def varDev (N : EReal) (p : Fin n → Fin h → EReal) (j : Fin h) : EReal :=
  Ideal.div (∑ r, (p r j - colMean N p j) * (p r j - colMean N p j)) N

/-- The variance as the mean square less the squared mean. -/
def varMS (N : EReal) (p : Fin n → Fin h → EReal) (j : Fin h) : EReal :=
  Ideal.div (∑ r, p r j * p r j) N - colMean N p j * colMean N p j

/-- Normalise by a given variance, scale, shift, clamp at zero. -/
def normRelu (N eps : EReal) (var : (Fin n → Fin h → EReal) → Fin h → EReal) (p : Fin n → Fin h → EReal)
    (g bt : Fin h → EReal) : Fin n → Fin h → EReal :=
  fun r j => max ((p r j - colMean N p j) * Ideal.rsqrt (var p j + eps) * g j + bt j) 0

/-- One layer, for a given spelling of the variance. -/
def layer (N eps : EReal) (var : (Fin n → Fin h → EReal) → Fin h → EReal)
    (Agg : (Fin n → Fin h → EReal) → Fin n → Fin h → EReal)
    {k : ℕ} (x : Fin n → Fin k → EReal) (W : Fin k → Fin h → EReal) (b g bt : Fin h → EReal) : Fin n → Fin h → EReal :=
  normRelu N eps var (fun r j => Agg (proj x W) r j + b j) g bt

/-- The logits. -/
def logits (q : Fin G → Fin h → EReal) (fcW : Fin h → Fin C → EReal) (fcb : Fin C → EReal) : Fin G → Fin C → EReal :=
  fun a c => proj q fcW a c + fcb c

/-- The row maximum (the bottom element, minus infinity, over an empty row). -/
def rowMax (l : Fin G → Fin C → EReal) (a : Fin G) : EReal := Finset.univ.sup (l a)

/-- The logarithm of the sum of exponentials of the shifted row. -/
def logSumExp (l : Fin G → Fin C → EReal) (a : Fin G) : EReal := Ideal.log (∑ c, Ideal.exp (l a c - rowMax l a))

/-- Log-softmax, shifting first. -/
def lsmShift (l : Fin G → Fin C → EReal) : Fin G → Fin C → EReal := fun a c => (l a c - rowMax l a) - logSumExp l a
/-- Log-softmax, subtracting the whole log-sum-exp. -/
def lsmWhole (l : Fin G → Fin C → EReal) : Fin G → Fin C → EReal := fun a c => l a c - (rowMax l a + logSumExp l a)

/-- The whole network, for a given spelling of the variance and of the log-softmax. -/
def net (N eps : EReal) (var : (Fin n → Fin h → EReal) → Fin h → EReal)
    (lsm : (Fin G → Fin C → EReal) → Fin G → Fin C → EReal)
    (Agg : (Fin n → Fin h → EReal) → Fin n → Fin h → EReal)
    (Pool : (Fin n → Fin h → EReal) → Fin G → Fin h → EReal)
    (x : Fin n → Fin d → EReal)
    (W1 : Fin d → Fin h → EReal) (b1 g1 bt1 : Fin h → EReal)
    (W2 : Fin h → Fin h → EReal) (b2 g2 bt2 : Fin h → EReal)
    (W3 : Fin h → Fin h → EReal) (b3 g3 bt3 : Fin h → EReal)
    (W4 : Fin h → Fin h → EReal) (b4 g4 bt4 : Fin h → EReal)
    (fcW : Fin h → Fin C → EReal) (fcb : Fin C → EReal) : Fin G → Fin C → EReal :=
  lsm (logits (Pool (layer N eps var Agg (layer N eps var Agg (layer N eps var Agg (layer N eps var Agg x W1 b1 g1 bt1)
    W2 b2 g2 bt2) W3 b3 g3 bt3) W4 b4 g4 bt4)) fcW fcb)

/-- The reference's spelling. -/
abbrev refNet (N eps : EReal) := @net n d h G C N eps (varDev N) lsmShift
/-- The kernel's spelling. -/
abbrev kerNet (N eps : EReal) := @net n d h G C N eps (varMS N) lsmWhole

end Cert.Spec

end
-- ==== Proof.SpecAdapt.lean ====
/-
  Between an array over a literal two-axis (or one-axis) shape and a function of its coordinates.
-/
import Idealize.ShloMosaic.Lib.ValueIdx

open Idealize.ShloMosaic Idealize.ShloMosaic.ValueIdx

namespace Cert.SpecAdapt

variable {α : Type}

/-- A two-axis array as a function of its two coordinates. -/
def cur2 {a b : ℕ} (A : (⟨2, ![a, b]⟩ : Shape).Idx → α) : Fin a → Fin b → α := fun r k => A (ix2 r k)

/-- A function of two coordinates as a two-axis array. -/
def unc2 {a b : ℕ} (h : Fin a → Fin b → α) : (⟨2, ![a, b]⟩ : Shape).Idx → α := fun i => h (i 0) (i 1)

/-- A one-axis array as a function of its coordinate. -/
def row1 {n : ℕ} (x : (⟨1, ![n]⟩ : Shape).Idx → α) : Fin n → α := fun j => x (ix1 j)

@[simp] theorem cur2_apply {a b : ℕ} (A : (⟨2, ![a, b]⟩ : Shape).Idx → α) (r : Fin a) (k : Fin b) : cur2 A r k = A (ix2 r k) := rfl
@[simp] theorem unc2_apply {a b : ℕ} (h : Fin a → Fin b → α) (i : (⟨2, ![a, b]⟩ : Shape).Idx) : unc2 h i = h (i 0) (i 1) := rfl
@[simp] theorem unc2_ix2 {a b : ℕ} (h : Fin a → Fin b → α) (r : Fin a) (k : Fin b) : unc2 h (ix2 r k) = h r k := rfl
@[simp] theorem row1_apply {n : ℕ} (x : (⟨1, ![n]⟩ : Shape).Idx → α) (j : Fin n) : row1 x j = x (ix1 j) := rfl

theorem unc2_cur2 {a b : ℕ} (A : (⟨2, ![a, b]⟩ : Shape).Idx → α) : unc2 (cur2 A) = A := by
  funext i; exact congrArg A (eq_ix2 i).symm

theorem cur2_unc2 {a b : ℕ} (h : Fin a → Fin b → α) : cur2 (unc2 h) = h := rfl

/-- Two two-axis arrays agree when they agree as functions of the coordinates. -/
theorem ext2 {a b : ℕ} {A B : (⟨2, ![a, b]⟩ : Shape).Idx → α} (h : cur2 A = cur2 B) : A = B := by
  rw [← unc2_cur2 A, ← unc2_cur2 B, h]

end Cert.SpecAdapt
-- ==== Proof.KI.Sem.lean ====
/-
  One layer of the kernel program, read in the specification's vocabulary.

  The layer is: a projection (a matrix product), the aggregation (kept as a function), the bias row added to every
  row; the column sums and the column sums of squares of that array; from them the mean row and the reciprocal
  deviation row (variance as the mean square less the squared mean, plus the guard); then every entry less its
  column's mean, times the reciprocal deviation, times the gain, plus the shift, clamped at zero.
  Read entry by entry this is the specification's layer with the mean-square spelling of the variance.
-/
import proofs.«106081_j12317966204981_2_alg».proof.Proof.KIV.V2
import proofs.«106081_j12317966204981_2_alg».proof.Proof.KIH.Read
import proofs.«106081_j12317966204981_2_alg».proof.Proof.Spec
import proofs.«106081_j12317966204981_2_alg».proof.Proof.SpecAdapt

noncomputable section

namespace Cert.KernelIdeal.HandSem

open Cert.KernelIdeal Cert.KernelIdeal.HandValue Cert.KernelIdeal.HandHost
open Idealize.ShloMosaic Idealize.ShloMosaic.ValueIdx Cert.SpecAdapt

/-- The count of rows and the variance's guard, as extended reals. -/
abbrev NN : EReal := ((100000 : ℝ) : EReal)
abbrev EPS : EReal := ((Cert.Consts.guard : ℝ) : EReal)

/-- The layer as the kernel program computes it, over typed arrays, for any projection GM, any three functions
    Gpre / Gsum / Gsq giving the biased array and its two rows of column sums, and any aggregation agg. -/
def layerK {sX sW : Shape}
    (GM : (sX.Idx → EReal) → (sW.Idx → EReal) → S100000x64.Idx → EReal)
    (Gpre : (S100000x64.Idx → EReal) → (S1x64.Idx → EReal) → S100000x64.Idx → EReal)
    (Gsum Gsq : (S100000x64.Idx → EReal) → (S1x64.Idx → EReal) → S1x64.Idx → EReal)
    (agg : (S100000x64.Idx → EReal) → S100000x64.Idx → EReal)
    (X : sX.Idx → EReal) (W : sW.Idx → EReal) (b g bt : S64.Idx → EReal) : S100000x64.Idx → EReal :=
  G2 (Gpre (agg (GM X W)) (kBias (F := Ideal) b))
    (kMean (F := Ideal) (Gsum (agg (GM X W)) (kBias (F := Ideal) b)))
    (kRsqrtVar (F := Ideal) (Gsum (agg (GM X W)) (kBias (F := Ideal) b)) (Gsq (agg (GM X W)) (kBias (F := Ideal) b)))
    (kBias (F := Ideal) g) (kBias (F := Ideal) bt)

/-- The kernel's layer is the specification's, with the variance as the mean square less the squared mean. -/
theorem layerK_read {k : ℕ}
    (GM : ((⟨2, ![100000, k]⟩ : Shape).Idx → EReal) → ((⟨2, ![k, 64]⟩ : Shape).Idx → EReal) → S100000x64.Idx → EReal)
    (hGM : ∀ A W i, GM A W i = Cert.Spec.proj (cur2 A) (cur2 W) (i 0) (i 1))
    (Gpre : (S100000x64.Idx → EReal) → (S1x64.Idx → EReal) → S100000x64.Idx → EReal)
    (Gsum Gsq : (S100000x64.Idx → EReal) → (S1x64.Idx → EReal) → S1x64.Idx → EReal)
    (hpre : ∀ C B (r : Fin 100000) (j : Fin 64), Gpre C B (ix2 r j) = C (ix2 r j) + B (ix2 (0 : Fin 1) j))
    (hsum : ∀ C B (j : Fin 64), Gsum C B (ix2 (0 : Fin 1) j) = ∑ r : Fin 100000, (C (ix2 r j) + B (ix2 (0 : Fin 1) j)))
    (hsq : ∀ C B (j : Fin 64), Gsq C B (ix2 (0 : Fin 1) j)
      = ∑ r : Fin 100000, (C (ix2 r j) + B (ix2 (0 : Fin 1) j)) * (C (ix2 r j) + B (ix2 (0 : Fin 1) j)))
    (agg : (S100000x64.Idx → EReal) → S100000x64.Idx → EReal)
    (X : (⟨2, ![100000, k]⟩ : Shape).Idx → EReal) (W : (⟨2, ![k, 64]⟩ : Shape).Idx → EReal) (b g bt : S64.Idx → EReal) :
    cur2 (layerK GM Gpre Gsum Gsq agg X W b g bt)
      = Cert.Spec.layer NN EPS (Cert.Spec.varMS NN) (fun h => cur2 (agg (unc2 h))) (cur2 X) (cur2 W) (row1 b) (row1 g) (row1 bt) := by
  have hM : GM X W = unc2 (Cert.Spec.proj (cur2 X) (cur2 W)) := funext fun i => hGM X W i
  have hp : ∀ (r : Fin 100000) (j : Fin 64),
      agg (GM X W) (ix2 r j) + kBias (F := Ideal) b (ix2 (0 : Fin 1) j)
        = cur2 (agg (unc2 (Cert.Spec.proj (cur2 X) (cur2 W)))) r j + row1 b j := fun r j => by
    rw [hM, kBias_apply]; rfl
  funext r j
  show G2 _ _ _ _ _ (ix2 r j) = _
  unfold Cert.Spec.layer Cert.Spec.normRelu Cert.Spec.varMS Cert.Spec.colMean
  show max ((Gpre _ _ (ix2 r j) - kMean (F := Ideal) _ (ix2 (0 : Fin 1) j)) * kRsqrtVar (F := Ideal) _ _ (ix2 (0 : Fin 1) j)
      * kBias (F := Ideal) g (ix2 (0 : Fin 1) j) + kBias (F := Ideal) bt (ix2 (0 : Fin 1) j)) 0 = _
  rw [kMean_apply, kRsqrtVar_apply, kBias_apply, kBias_apply, hpre, hsum, hsq]
  simp only [hp]
  rfl

end Cert.KernelIdeal.HandSem

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.KIV.V12.lean ====
/-
  Region 12 on the extended reals: the output array after the region, index by index. One grid point, every block whole.
  With Pl the 512 x 64 pooled array, Wf the 64 x 10 matrix and Bf the 1 x 10 row the region finds, the logits are
  L (a, c) = (sum over k of Pl (a, k) * Wf (k, c)) + Bf (0, c), the row maximum m a is the supremum of L (a, .) (the fold of
  max from minus infinity), and entry (a, c) is L (a, c) - (m a + log (sum over c' of exp (L (a, c') - m a))): the
  log-softmax that subtracts the whole log-sum-exp.
-/
import proofs.«106081_j12317966204981_2_alg».proof.Proof.KI.R12
import proofs.«106081_j12317966204981_2_alg».proof.Proof.LibMatmulAt
import proofs.«106081_j12317966204981_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by fin_cases a <;> rfl

/-! ## Small readings -/

/-- The output's row coordinate is the left factor's row coordinate. -/
theorem dot12_lhs0 (i : S512x10.Idx) (q : dot_S512x64_S64x10_S512x10_1_0_0_1_n_n.contr.Idx) : (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide),
    dif_pos (show (0 : Fin S512x64.rank) ∈ dot_S512x64_S64x10_S512x10_1_0_0_1_n_n.lhsNonContracting by decide)]
  rfl

/-- The output's column coordinate is the right factor's column coordinate. -/
theorem dot12_rhs1 (i : S512x10.Idx) (q : dot_S512x64_S64x10_S512x10_1_0_0_1_n_n.contr.Idx) : (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide),
    dif_pos (show (1 : Fin S64x10.rank) ∈ dot_S512x64_S64x10_S512x10_1_0_0_1_n_n.rhsNonContracting by decide)]
  rfl

/-- A column of a numbers broadcast along b columns reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit pattern of minus infinity denotes the bottom element. -/
theorem ofBits_neg_inf_f32 : Ideal.ofBits .f32 0xFF800000#32 = ⊥ := by simp [Ideal.ofBits, Ideal.ieee]

/-- The maximum along the rows of a 512 x 10 array from minus infinity, read at row a: the supremum of the row. -/
theorem rowmax_apply (src : FVec Ideal S512x10 .f32) (hacc : (0xFF800000#32 : BitVec 32) = 0xFF800000#32) (a : Fin 512) :
    multiReduction .maximumf [1] S512 src 0xFF800000#32 reduces_S512x10_S512 (.inl rfl) hacc (ix1 a)
      = Finset.univ.sup fun c : Fin 10 => (src : S512x10.Idx → EReal) (ix2 a c) := by
  refine (Ideal.multiReduction_maximumf_single src 0xFF800000#32 reduces_S512x10_S512 (.inl rfl) hacc (ix1 a)).trans ?_
  rw [Ideal.ofBits_def, ofBits_neg_inf_f32]
  have e : (src ∘ reduces_S512x10_S512.lift (ix1 a)) = fun c : Fin 10 => (src : S512x10.Idx → EReal) (ix2 a c) := by
    funext c
    refine congrArg src ?_
    funext ax
    apply Fin.ext
    match ax with
    | ⟨0, _⟩ => rfl
    | ⟨1, _⟩ => rfl
  rw [e]
  rfl

/-- The sum along the rows of a 512 x 10 array, read at row a. -/
theorem rowsum_apply (src : FVec Ideal S512x10 .f32) (hacc : (0x00000000#32 : BitVec 32) = 0x00000000#32) (a : Fin 512) :
    multiReduction .add [1] S512 src 0x00000000#32 reduces_S512x10_S512 (.inl rfl) hacc (ix1 a) = ∑ c : Fin 10, (src : S512x10.Idx → EReal) (ix2 a c) := by
  refine (Ideal.multiReduction_add_single src 0x00000000#32 reduces_S512x10_S512 (.inl rfl) hacc (ix1 a)).trans ?_
  refine Finset.sum_congr rfl fun c _ => congrArg src ?_
  funext ax
  apply Fin.ext
  match ax with
  | ⟨0, _⟩ => rfl
  | ⟨1, _⟩ => rfl

/-! ## The body's value at an index -/

/-- The logits: the product plus the bias row. -/
def L12 (x0 : S512x64.Idx → EReal) (x1 : S64x10.Idx → EReal) (x2 : S1x10.Idx → EReal) (a : Fin 512) (c : Fin 10) : EReal :=
  (∑ k : Fin 64, x0 (ix2 a k) * x1 (ix2 k c)) + x2 (ix2 (0 : Fin 1) c)

/-- The array the region leaves. -/
def G12 (x0 : S512x64.Idx → EReal) (x1 : S64x10.Idx → EReal) (x2 : S1x10.Idx → EReal) : S512x10.Idx → EReal :=
  fun i => L12 x0 x1 x2 (i 0) (i 1)
    - (Finset.univ.sup (fun c' : Fin 10 => L12 x0 x1 x2 (i 0) c')
        + Ideal.log (∑ c' : Fin 10, Ideal.exp (L12 x0 x1 x2 (i 0) c' - Finset.univ.sup (fun c'' : Fin 10 => L12 x0 x1 x2 (i 0) c''))))

/-- The product plus the bias row, at an index. -/
theorem logits12_apply (x0 : Vec Ideal S512x64 .f32) (x1 : Vec Ideal S64x10 .f32) (x2 : Vec Ideal S1x10 .f32) (a : Fin 512) (c : Fin 10) :
    addf (matmul dot_S512x64_S64x10_S512x10_1_0_0_1_n_n none (truncf .bf16 (shapeCast S512x64 x0 shapeCasts_S512x64_S512x64) bitsLt_bf16_f32) (truncf .bf16 x1 bitsLt_bf16_f32)
        (constant (F := Ideal) S512x10 .f32 0x00000000#32))
      (broadcastTo S512x10 (shapeCast S1x10 x2 shapeCasts_S1x10_S1x10) broadcasts_S1x10_S512x10) (ix2 a c) = L12 x0 x1 x2 a c := by
  rw [addf_apply]
  simp only [shapeCast_self]
  rw [broadcastTo_1b_ab_apply]
  refine congrArg (fun z => z + (x2 : S1x10.Idx → EReal) (ix2 (0 : Fin 1) c)) ?_
  exact Cert.LibMatmulAt.matmul_zero_apply (M := 512) (K := 64) (N := 10) dot_S512x64_S64x10_S512x10_1_0_0_1_n_n rfl rfl
    dot12_lhs0 (fun i q => dot_S512x64_S64x10_S512x10_1_0_0_1_n_n.lhsIdx_val_of_single rfl i q)
    (fun i q => dot_S512x64_S64x10_S512x10_1_0_0_1_n_n.rhsIdx_val_of_single rfl i q) dot12_rhs1 none
    (truncf .bf16 x0 bitsLt_bf16_f32) (truncf .bf16 x1 bitsLt_bf16_f32) a c

/-- The log-softmax tail of the body on any 512 x 10 array of logits Lv: entry (a, c) is the logit less the row maximum
    plus the logarithm of the row's sum of exponentials of the logits less the row maximum. -/
theorem lsm12_apply (Lv : FVec Ideal S512x10 .f32) (hm : (0xFF800000#32 : BitVec 32) = 0xFF800000#32)
    (ha : (0x00000000#32 : BitVec 32) = 0x00000000#32) (a : Fin 512) (c : Fin 10) :
    subf Lv (broadcastTo S512x10 (addf (shapeCast S512x1 (multiReduction .maximumf [1] S512 Lv 0xFF800000#32 reduces_S512x10_S512 (.inl rfl) hm) shapeCasts_S512_S512x1)
        (log (shapeCast S512x1 (multiReduction .add [1] S512 (exp (subf Lv (broadcastTo S512x10 (shapeCast S512x1 (multiReduction .maximumf [1] S512 Lv 0xFF800000#32 reduces_S512x10_S512 (.inl rfl) hm) shapeCasts_S512_S512x1) broadcasts_S512x1_S512x10)))
          0x00000000#32 reduces_S512x10_S512 (.inl rfl) ha) shapeCasts_S512_S512x1))) broadcasts_S512x1_S512x10) (ix2 a c)
      = (Lv : S512x10.Idx → EReal) (ix2 a c) - (Finset.univ.sup (fun c' : Fin 10 => (Lv : S512x10.Idx → EReal) (ix2 a c'))
          + Ideal.log (∑ c' : Fin 10, Ideal.exp ((Lv : S512x10.Idx → EReal) (ix2 a c') - Finset.univ.sup (fun c'' : Fin 10 => (Lv : S512x10.Idx → EReal) (ix2 a c''))))) := by
  rw [subf_apply, broadcastTo_a1_ab_apply, addf_apply, Cert.LibMatmulAt.shapeCast_a_a1_apply, rowmax_apply]
  show _ - (_ + Ideal.log (shapeCast S512x1 _ shapeCasts_S512_S512x1 (ix2 a (0 : Fin 1)))) = _
  rw [Cert.LibMatmulAt.shapeCast_a_a1_apply, rowsum_apply]
  refine congrArg (fun z => (Lv : S512x10.Idx → EReal) (ix2 a c) - (Finset.univ.sup (fun c' : Fin 10 => (Lv : S512x10.Idx → EReal) (ix2 a c')) + Ideal.log z)) ?_
  refine Finset.sum_congr rfl fun c' _ => ?_
  show Ideal.exp ((Lv : S512x10.Idx → EReal) (ix2 a c') - broadcastTo S512x10 _ broadcasts_S512x1_S512x10 (ix2 a c')) = _
  rw [broadcastTo_a1_ab_apply, Cert.LibMatmulAt.shapeCast_a_a1_apply, rowmax_apply]

/-- The body's payload at entry (a, c). -/
theorem pay12_apply (x0 : Vec Ideal S512x64 .f32) (x1 : Vec Ideal S64x10 .f32) (x2 : Vec Ideal S1x10 .f32) (a : Fin 512) (c : Fin 10) :
    k12_pay1 x0 x1 x2 (ix2 a c) = G12 x0 x1 x2 (ix2 a c) := by
  unfold k12_pay1
  refine (lsm12_apply _ _ _ a c).trans ?_
  simp only [logits12_apply]
  rfl

/-- The same when the three loaded blocks are the whole of three arrays: at block index y it is the array's entry at the
    index i that y sits at. -/
theorem blk12_apply (x0 : Vec Ideal S512x64 .f32) (x1 : Vec Ideal S64x10 .f32) (x2 : Vec Ideal S1x10 .f32)
    (A : S512x64.Idx → EReal) (W : S64x10.Idx → EReal) (B : S1x10.Idx → EReal)
    (h0 : ∀ (a : Fin 512) (k : Fin 64), x0 (ix2 a k) = A (ix2 a k)) (h1 : ∀ (k : Fin 64) (c : Fin 10), x1 (ix2 k c) = W (ix2 k c))
    (h2 : ∀ (u : Fin 1) (c : Fin 10), x2 (ix2 u c) = B (ix2 u c))
    (y i : S512x10.Idx) (hi0 : (i 0).val = (y 0).val) (hi1 : (i 1).val = (y 1).val) : k12_pay1 x0 x1 x2 y = G12 A W B i := by
  obtain rfl : x0 = A := funext fun j => by rw [eq_ix2 j]; exact h0 _ _
  obtain rfl : x1 = W := funext fun j => by rw [eq_ix2 j]; exact h1 _ _
  obtain rfl : x2 = B := funext fun j => by rw [eq_ix2 j]; exact h2 _ _
  obtain rfl : i = y := funext fun ax => Fin.ext (by
    match ax with
    | ⟨0, _⟩ => exact hi0
    | ⟨1, _⟩ => exact hi1)
  rw [eq_ix2 i]
  exact pay12_apply ..

/-! ## The loaded blocks are the whole arrays -/

/-- The loaded block of window 0 is the whole of its array. -/
theorem rd12_0 (c : Dev nD) (t : Fin cfg12.N) (k : Fin 512) (j : Fin 64) :
    (iblk12 V c 0 t : S512x64.Idx → EReal) (ix2 k j) = (V c main_v160 : S512x64.Idx → EReal) (ix2 k j) := by
  obtain ⟨e0, e1⟩ : win12_0.index t (0 : Fin 2) = 0 ∧ win12_0.index t (1 : Fin 2) = 0 :=
    (by decide +kernel : ∀ t : Fin grid12.N, win12_0.index t (0 : Fin 2) = 0 ∧ win12_0.index t (1 : Fin 2) = 0) t
  unfold iblk12
  rw [View.read_apply]
  show V c main_v160 _ = V c main_v160 _
  congr 1
  funext a
  apply Fin.ext
  match a with
  | ⟨0, _⟩ => show win12_0.index t (0 : Fin 2) * 512 + 1 * k.val = k.val; omega
  | ⟨1, _⟩ => show win12_0.index t (1 : Fin 2) * 64 + 1 * j.val = j.val; omega

/-- The loaded block of window 1 is the whole of its array. -/
theorem rd12_1 (c : Dev nD) (t : Fin cfg12.N) (k : Fin 64) (j : Fin 10) :
    (iblk12 V c 1 t : S64x10.Idx → EReal) (ix2 k j) = (V c main_arg19 : S64x10.Idx → EReal) (ix2 k j) := by
  obtain ⟨e0, e1⟩ : win12_1.index t (0 : Fin 2) = 0 ∧ win12_1.index t (1 : Fin 2) = 0 :=
    (by decide +kernel : ∀ t : Fin grid12.N, win12_1.index t (0 : Fin 2) = 0 ∧ win12_1.index t (1 : Fin 2) = 0) t
  unfold iblk12
  rw [View.read_apply]
  show V c main_arg19 _ = V c main_arg19 _
  congr 1
  funext a
  apply Fin.ext
  match a with
  | ⟨0, _⟩ => show win12_1.index t (0 : Fin 2) * 64 + 1 * k.val = k.val; omega
  | ⟨1, _⟩ => show win12_1.index t (1 : Fin 2) * 10 + 1 * j.val = j.val; omega

/-- The loaded block of window 2 is the whole of its array. -/
theorem rd12_2 (c : Dev nD) (t : Fin cfg12.N) (k : Fin 1) (j : Fin 10) :
    (iblk12 V c 2 t : S1x10.Idx → EReal) (ix2 k j) = (V c main_v161 : S1x10.Idx → EReal) (ix2 k j) := by
  obtain ⟨e0, e1⟩ : win12_2.index t (0 : Fin 2) = 0 ∧ win12_2.index t (1 : Fin 2) = 0 :=
    (by decide +kernel : ∀ t : Fin grid12.N, win12_2.index t (0 : Fin 2) = 0 ∧ win12_2.index t (1 : Fin 2) = 0) t
  unfold iblk12
  rw [View.read_apply]
  show V c main_v161 _ = V c main_v161 _
  congr 1
  funext a
  apply Fin.ext
  match a with
  | ⟨0, _⟩ => show win12_2.index t (0 : Fin 2) * 1 + 1 * k.val = k.val; omega
  | ⟨1, _⟩ => show win12_2.index t (1 : Fin 2) * 10 + 1 * j.val = j.val; omega

/-! ## From the one block to the array -/

/-- What the one point writes back is the whole of that array of the arrays as the region finds them. -/
theorem flushed12_eq (c : Dev nD) (t : Fin cfg12.N) :
    (dat12 V c).flushed 3 t = ((cfg12.win 3).blk t).view.read (Elt Ideal) (G12 (V c main_v160) (V c main_arg19) (V c main_v161)) := by
  show (cfg12.win 3).cut (grid12.coords t) ((dat12 V c).after 3 t) = _
  rw [after12_3]
  unfold out12_3
  rw [View.canon_unit_zero hz12]
  simp only [View.ld_unit_zero (S := S512x64) hz12, View.ld_unit_zero (S := S64x10) hz12, View.ld_unit_zero (S := S1x10) hz12]
  obtain ⟨e0, e1⟩ : win12_3.index t (0 : Fin 2) = 0 ∧ win12_3.index t (1 : Fin 2) = 0 :=
    (by decide +kernel : ∀ t : Fin grid12.N, win12_3.index t (0 : Fin 2) = 0 ∧ win12_3.index t (1 : Fin 2) = 0) t
  funext y
  show k12_pay1 (iblk12 V c 0 t) (iblk12 V c 1 t) (iblk12 V c 2 t) y
    = G12 (V c main_v160) (V c main_arg19) (V c main_v161) (((cfg12.win 3).blk t).view.emb y)
  refine blk12_apply (iblk12 V c 0 t) (iblk12 V c 1 t) (iblk12 V c 2 t) (V c main_v160) (V c main_arg19) (V c main_v161)
    (rd12_0 V c t) (rd12_1 V c t) (rd12_2 V c t) y _ ?_ ?_
  · show win12_3.index t (0 : Fin 2) * 512 + 1 * (y 0).val = (y 0).val; omega
  · show win12_3.index t (1 : Fin 2) * 10 + 1 * (y 1).val = (y 1).val; omega

/-- An index of the array is in point t's block iff each coordinate is in the block's range on its axis. -/
theorem mem_blk12_3 (t : Fin cfg12.N) (i : S512x10.Idx) :
    i ∈ ((cfg12.win 3).blk t).view.set ↔ ∀ a : Fin 2, win12_3.index t a * S512x10.size a ≤ (i a).val ∧ (i a).val < win12_3.index t a * S512x10.size a + S512x10.size a := by
  show i ∈ ((View.whole main_v162).slice (win12_3.rect t)).set ↔ _
  rw [View.set_slice_whole, Rect.mem_set_unit]
  exact Iff.rfl

/-- Every index of the array is in the one point's block. -/
theorem cover12_3 (i : S512x10.Idx) : ∃ t : Fin cfg12.N, (cfg12.win 3).flush t = true ∧ i ∈ ((cfg12.win 3).blk t).view.set := by
  have hi0 : (i 0).val < 512 := (i 0).isLt
  have hi1 : (i 1).val < 10 := (i 1).isLt
  have hN : cfg12.N = 1 := N_12
  obtain ⟨t, ht⟩ : ∃ t : Fin cfg12.N, t.val = 0 := ⟨⟨0, by rw [hN]; omega⟩, rfl⟩
  obtain ⟨e0, e1⟩ : win12_3.index t (0 : Fin 2) = 0 ∧ win12_3.index t (1 : Fin 2) = 0 :=
    (by decide +kernel : ∀ t : Fin grid12.N, win12_3.index t (0 : Fin 2) = 0 ∧ win12_3.index t (1 : Fin 2) = 0) t
  refine ⟨t, flush12_3 t, ?_⟩
  rw [mem_blk12_3]
  intro a
  match a with
  | ⟨0, _⟩ => show win12_3.index t (0 : Fin 2) * 512 ≤ (i 0).val ∧ (i 0).val < win12_3.index t (0 : Fin 2) * 512 + 512; omega
  | ⟨1, _⟩ => show win12_3.index t (1 : Fin 2) * 10 ≤ (i 1).val ∧ (i 1).val < win12_3.index t (1 : Fin 2) * 10 + 10; omega

/-- The array after the region. -/
theorem final12 (c : Dev nD) : (dat12 V c).arrAt 3 cfg12.N = G12 (V c main_v160) (V c main_arg19) (V c main_v161) :=
  (dat12 V c).arrAt_eq_of_cover 3 (G12 (V c main_v160) (V c main_arg19) (V c main_v161)) (fun t _ => flushed12_eq V c t) cover12_3

/-- Entry by entry. -/
theorem val12 (c : Dev nD) (i : S512x10.Idx) :
    (dat12 V c).arrAt 3 cfg12.N i = G12 (V c main_v160) (V c main_arg19) (V c main_v161) i :=
  congrFun (final12 V c) i

/-- The entry is the specification's log-softmax, in the spelling that subtracts the whole log-sum-exp, of its logits of the
    three arrays read by rows and columns. -/
theorem G12_eq_spec (x0 : S512x64.Idx → EReal) (x1 : S64x10.Idx → EReal) (x2 : S1x10.Idx → EReal) (i : S512x10.Idx) :
    G12 x0 x1 x2 i = Cert.Spec.lsmWhole (Cert.Spec.logits (fun (a : Fin 512) (k : Fin 64) => x0 (ix2 a k)) (fun (k : Fin 64) (c : Fin 10) => x1 (ix2 k c))
      (fun c : Fin 10 => x2 (ix2 (0 : Fin 1) c))) (i 0) (i 1) := rfl

end Cert.KernelIdeal.HandValue

end
-- ==== Proof.KIV.V0.lean ====
/-
  Region 0 on the extended reals: the output array after the region, index by index. Entry (r, j) is the sum over the
  128 features k of entry (r, k) of the node features times entry (k, j) of the weight matrix, both as the region finds
  them. Point t of the grid holds rows 10000 t .. 10000 t + 9999; the ten row blocks tile the array.
-/
import proofs.«106081_j12317966204981_2_alg».proof.Proof.KI.R0
import proofs.«106081_j12317966204981_2_alg».proof.Proof.LibMatmulAt
import proofs.«106081_j12317966204981_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The product at a block index -/

/-- The output's row coordinate is the left factor's row coordinate. -/
theorem dot0_lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- The output's column coordinate is the right factor's column coordinate. -/
theorem dot0_rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The body's payload at entry (p, j) of the block: row p of the loaded feature block against column j of the loaded
    weights. The narrowing of both factors is the identity on the extended reals and the accumulator starts at zero. -/
theorem pay0_apply (x0 : Vec Ideal S10000x128 .f32) (x1 : Vec Ideal S128x64 .f32) (p : Fin 10000) (j : Fin 64) :
    k0_pay1 x0 x1 (ix2 p j) = ∑ k : Fin 128, (x0 : S10000x128.Idx → EReal) (ix2 p k) * (x1 : S128x64.Idx → EReal) (ix2 k j) := by
  unfold k0_pay1
  exact Cert.LibMatmulAt.matmul_zero_apply (M := 10000) (K := 128) (N := 64) dot_S10000x128_S128x64_S10000x64_1_0_0_1_n_n rfl rfl
    dot0_lhs0 (fun i q => dot_S10000x128_S128x64_S10000x64_1_0_0_1_n_n.lhsIdx_val_of_single rfl i q)
    (fun i q => dot_S10000x128_S128x64_S10000x64_1_0_0_1_n_n.rhsIdx_val_of_single rfl i q) dot0_rhs1 none
    (truncf .bf16 x0 bitsLt_bf16_f32) (truncf .bf16 x1 bitsLt_bf16_f32) p j

/-- The same when the two loaded blocks are rows n * 10000 .. n * 10000 + 9999 of an array A and the whole of an array W:
    the payload at block index y is the product's entry at the array's row r and column j that y sits at. -/
theorem blk0_apply (x0 : Vec Ideal S10000x128 .f32) (x1 : Vec Ideal S128x64 .f32)
    (A : S100000x128.Idx → EReal) (W : S128x64.Idx → EReal) (n : ℕ)
    (h0 : ∀ (p : Fin 10000) (k : Fin 128) (r : Fin 100000), r.val = n * 10000 + p.val → x0 (ix2 p k) = A (ix2 r k))
    (h1 : ∀ (k : Fin 128) (j : Fin 64), x1 (ix2 k j) = W (ix2 k j))
    (y : S10000x64.Idx) (r : Fin 100000) (j : Fin 64) (hr : r.val = n * 10000 + (y 0).val) (hj : j.val = (y 1).val) :
    k0_pay1 x0 x1 y = ∑ k : Fin 128, A (ix2 r k) * W (ix2 k j) := by
  obtain ⟨p, q, rfl⟩ : ∃ (p : Fin 10000) (q : Fin 64), y = ix2 p q := ⟨y 0, y 1, eq_ix2 y⟩
  obtain rfl : j = q := Fin.ext hj
  rw [pay0_apply]
  refine Finset.sum_congr rfl fun k _ => ?_
  rw [h0 p k r hr, h1 k j]

/-! ## From the blocks to the array -/

/-- The array the region leaves: the product of the two arrays it finds, entry by entry. -/
def G0 (A : S100000x128.Idx → EReal) (W : S128x64.Idx → EReal) : S100000x64.Idx → EReal :=
  fun i => ∑ k : Fin 128, A (ix2 (i 0) k) * W (ix2 k (i 1))

/-- The block indices, decided over the grid: the feature and the output windows sit at row block t, the weights at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  obtain ⟨e00, e01, e10, e11, e20, e21⟩ := idx_facts0 t
  funext y
  show k0_pay1 (iblk0 V c 0 t) (iblk0 V c 1 t) y = G0 (V c main_arg0) (V c main_arg3) (((cfg0.win 2).blk t).view.emb y)
  unfold G0
  refine blk0_apply (iblk0 V c 0 t) (iblk0 V c 1 t) (V c main_arg0) (V c main_arg3) t.val ?_ ?_ y _ _ ?_ ?_
  · intro p k r hr
    unfold iblk0
    rw [View.read_apply]
    show V c main_arg0 _ = V c main_arg0 _
    congr 1
    funext a
    apply Fin.ext
    match a with
    | ⟨0, _⟩ => show win0_0.index t (0 : Fin 2) * 10000 + 1 * p.val = r.val; omega
    | ⟨1, _⟩ => show win0_0.index t (1 : Fin 2) * 128 + 1 * k.val = k.val; omega
  · intro k j
    unfold iblk0
    rw [View.read_apply]
    show V c main_arg3 _ = V c main_arg3 _
    congr 1
    funext a
    apply Fin.ext
    match a with
    | ⟨0, _⟩ => show win0_1.index t (0 : Fin 2) * 128 + 1 * k.val = k.val; omega
    | ⟨1, _⟩ => show win0_1.index t (1 : Fin 2) * 64 + 1 * j.val = j.val; omega
  · show win0_2.index t (0 : Fin 2) * 10000 + 1 * (y 0).val = t.val * 10000 + (y 0).val; omega
  · show win0_2.index t (1 : Fin 2) * 64 + 1 * (y 1).val = (y 1).val; omega

/-- An index of the array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the array is in some point's block: row r is in block r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array after the region is the product. -/
theorem final0 (c : Dev nD) : (dat0 V c).arrAt 2 cfg0.N = G0 (V c main_arg0) (V c main_arg3) :=
  (dat0 V c).arrAt_eq_of_cover 2 (G0 (V c main_arg0) (V c main_arg3)) (fun t _ => flushed0_eq V c t) cover0

/-- Entry by entry. -/
theorem val0 (c : Dev nD) (i : S100000x64.Idx) :
    (dat0 V c).arrAt 2 cfg0.N i = G0 (V c main_arg0) (V c main_arg3) i :=
  congrFun (final0 V c) i

/-- The product's entry, spelt out. -/
theorem G0_apply (A : S100000x128.Idx → EReal) (W : S128x64.Idx → EReal) (i : S100000x64.Idx) :
    G0 A W i = ∑ k : Fin 128, A (ix2 (i 0) k) * W (ix2 k (i 1)) := rfl

/-- The same as the specification's matrix product of the two arrays read by rows and columns. -/
theorem G0_eq_proj (A : S100000x128.Idx → EReal) (W : S128x64.Idx → EReal) (i : S100000x64.Idx) :
    G0 A W i = Cert.Spec.proj (fun (r : Fin 100000) (k : Fin 128) => A (ix2 r k)) (fun (k : Fin 128) (j : Fin 64) => W (ix2 k j)) (i 0) (i 1) := rfl

end Cert.KernelIdeal.HandValue

end
-- ==== Proof.KIV.V1a.lean ====
/-
  Region 1, one grid point: what the body leaves in each of its buffers, as the payloads of the loaded blocks. At every
  point the pre-activation block is the loaded block plus the bias row; each of the two running rows (and the output row
  that copies it) is the row it held plus the column sums of the pre-activation block, respectively of its square; at
  the first point the rows held are the zero rows the body has just stored.
-/
import proofs.«106081_j12317966204981_2_alg».proof.Proof.KI.R1b
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz1 : (![0, 0] : Fin 2 → Nat) = fun _ => 0 := funext fun a => by fin_cases a <;> rfl

/-- A load through the whole-shape rectangle of what a list of stores left, the last of them through that rectangle,
    reads the last store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## The first point -/

section A
variable (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond1_0 i) (x0 : Vec F S10000x64 .f32) (x1 : Vec F S1x64 .f32)

theorem runA_pre : View.canon (kernelRun1_A c i arg1 harg1 arg2 harg2 arg3 harg3 arg4 harg4 arg5 harg5 arg6 harg6 arg7 harg7 hc0 x0 x1).1 = k1_pay3 x0 x1 := by
  unfold kernelRun1_A
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, View.ld_unit_zero (S := S10000x64) hz1, View.ld_unit_zero (S := S1x64) hz1]

theorem runA_sum : View.canon (kernelRun1_A c i arg1 harg1 arg2 harg2 arg3 harg3 arg4 harg4 arg5 harg5 arg6 harg6 arg7 harg7 hc0 x0 x1).2.1 = k1_pay4 x0 x1 (k1_pay1 (F := F)) := by
  unfold kernelRun1_A
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, View.ld_unit_zero (S := S10000x64) hz1, View.ld_unit_zero (S := S1x64) hz1]

theorem runA_sq : View.canon (kernelRun1_A c i arg1 harg1 arg2 harg2 arg3 harg3 arg4 harg4 arg5 harg5 arg6 harg6 arg7 harg7 hc0 x0 x1).2.2.1 = k1_pay5 x0 x1 (k1_pay2 (F := F)) := by
  unfold kernelRun1_A
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, View.ld_unit_zero (S := S10000x64) hz1, View.ld_unit_zero (S := S1x64) hz1]

theorem runA_scL : View.canon (kernelRun1_A c i arg1 harg1 arg2 harg2 arg3 harg3 arg4 harg4 arg5 harg5 arg6 harg6 arg7 harg7 hc0 x0 x1).2.2.2.1 = k1_pay4 x0 x1 (k1_pay1 (F := F)) := by
  unfold kernelRun1_A
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, View.ld_unit_zero (S := S10000x64) hz1, View.ld_unit_zero (S := S1x64) hz1]

theorem runA_scR : View.canon (kernelRun1_A c i arg1 harg1 arg2 harg2 arg3 harg3 arg4 harg4 arg5 harg5 arg6 harg6 arg7 harg7 hc0 x0 x1).2.2.2.2.1 = k1_pay5 x0 x1 (k1_pay2 (F := F)) := by
  unfold kernelRun1_A
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, View.ld_unit_zero (S := S10000x64) hz1, View.ld_unit_zero (S := S1x64) hz1]
end A

/-! ## A later point -/

section B
variable (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i) (x0 : Vec F S10000x64 .f32) (x1 : Vec F S1x64 .f32) (xs6 xs7 : Vec F S1x64 .f32)

theorem runB_pre : View.canon (kernelRun1_B c i arg1 harg1 arg2 harg2 arg3 harg3 arg4 harg4 arg5 harg5 arg6 harg6 arg7 harg7 hc0 x0 x1 xs6 xs7).1 = k1_pay3 x0 x1 := by
  unfold kernelRun1_B
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, harg6.read_unread, harg7.read_unread, View.ld_unit_zero (S := S10000x64) hz1, View.ld_unit_zero (S := S1x64) hz1]

theorem runB_sum : View.canon (kernelRun1_B c i arg1 harg1 arg2 harg2 arg3 harg3 arg4 harg4 arg5 harg5 arg6 harg6 arg7 harg7 hc0 x0 x1 xs6 xs7).2.1 = k1_pay4 x0 x1 xs6 := by
  unfold kernelRun1_B
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, harg6.read_unread, harg7.read_unread, View.ld_unit_zero (S := S10000x64) hz1, View.ld_unit_zero (S := S1x64) hz1]

theorem runB_sq : View.canon (kernelRun1_B c i arg1 harg1 arg2 harg2 arg3 harg3 arg4 harg4 arg5 harg5 arg6 harg6 arg7 harg7 hc0 x0 x1 xs6 xs7).2.2.1 = k1_pay5 x0 x1 xs7 := by
  unfold kernelRun1_B
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, harg6.read_unread, harg7.read_unread, View.ld_unit_zero (S := S10000x64) hz1, View.ld_unit_zero (S := S1x64) hz1]

theorem runB_scL : View.canon (kernelRun1_B c i arg1 harg1 arg2 harg2 arg3 harg3 arg4 harg4 arg5 harg5 arg6 harg6 arg7 harg7 hc0 x0 x1 xs6 xs7).2.2.2.1 = k1_pay4 x0 x1 xs6 := by
  unfold kernelRun1_B
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, harg6.read_unread, harg7.read_unread, View.ld_unit_zero (S := S10000x64) hz1, View.ld_unit_zero (S := S1x64) hz1]

theorem runB_scR : View.canon (kernelRun1_B c i arg1 harg1 arg2 harg2 arg3 harg3 arg4 harg4 arg5 harg5 arg6 harg6 arg7 harg7 hc0 x0 x1 xs6 xs7).2.2.2.2.1 = k1_pay5 x0 x1 xs7 := by
  unfold kernelRun1_B
  dsimp only
  try sl_unfold_words
  simp only [View.canon_unit_zero (S := S10000x64) hz1, View.canon_unit_zero (S := S1x64) hz1, View.canon_cons_unit_zero (S := S1x64) hz1,
    View.readCov_unit_zero (S := S1x64) _ hz1, readCov_cons_unit_zero (S := S1x64) _ hz1,
    View.readAt_eq_ld, harg1.read_unread, harg2.read_unread, harg6.read_unread, harg7.read_unread, View.ld_unit_zero (S := S10000x64) hz1, View.ld_unit_zero (S := S1x64) hz1]
end B

end Cert.KernelIdeal.HandValue

end
-- ==== Proof.LibBlockSum.lean ====
/-
  A finite sum of a·b terms taken as a blocks of b consecutive terms. Over any additive commutative monoid the total is the
  sum over the blocks of each block's own sum, the term at block s and offset k being the one at position k + b·s. Only the
  commutativity and associativity of the addition are used, so the statement holds on the extended reals with no
  finiteness hypothesis.
-/
import Mathlib.Algebra.BigOperators.Fin
import Mathlib.Logic.Equiv.Fin.Basic

namespace Cert.LibBlockSum

open Finset

/-- Position `k + b·s` among `a·b` positions: offset `k` inside block `s`. -/
def pos (a b : ℕ) (s : Fin a) (k : Fin b) : Fin (a * b) := finProdFinEquiv (s, k)

/-- Its value. -/
theorem pos_val (a b : ℕ) (s : Fin a) (k : Fin b) : (pos a b s k).val = k.val + b * s.val := rfl

/-- The sum over all `a·b` positions is the sum over the `a` blocks of the sum over the `b` offsets. -/
theorem sum_blocks {M : Type*} [AddCommMonoid M] (a b : ℕ) (f : Fin (a * b) → M) :
    ∑ t, f t = ∑ s : Fin a, ∑ k : Fin b, f (pos a b s k) := by
  rw [← Equiv.sum_comp finProdFinEquiv f, Fintype.sum_prod_type]
  rfl

/-- The same with the blocks counted by the naturals below `a`: when `g s` is block `s`'s sum for every `s < a`
    (whatever `g` is elsewhere), the sum of `g` over `range a` is the total. -/
theorem sum_range_blocks {M : Type*} [AddCommMonoid M] (a b : ℕ) (f : Fin (a * b) → M) (g : ℕ → M)
    (hg : ∀ s : Fin a, g s.val = ∑ k : Fin b, f (pos a b s k)) :
    ∑ s ∈ range a, g s = ∑ t, f t := by
  rw [sum_blocks, Finset.sum_range]
  exact Finset.sum_congr rfl fun s _ => hg s

end Cert.LibBlockSum
-- ==== Proof.KIV.V1b.lean ====
/-
  Region 1 on the extended reals, along the grid: the two running rows after n points. With Cm the 100000 x 64 array and B
  the bias row the region finds, after n points the first row holds, in column q, the sum over the first n row blocks of
  Cm (r, q) + B (0, q), and the second the sum of its squares; after all ten points these are the sums over all 100000 rows.
  Sums on the extended reals are sums in a commutative monoid: no finiteness is used.
-/
import proofs.«106081_j12317966204981_2_alg».proof.Proof.KIV.V1a
import proofs.«106081_j12317966204981_2_alg».proof.Proof.LibBlockSum
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payloads at an index -/

/-- The zero row. -/
theorem pay1_1_apply (q : Fin 64) : (k1_pay1 (F := Ideal) : S1x64.Idx → EReal) (ix2 (0 : Fin 1) q) = 0 := by
  unfold k1_pay1
  simp only [shapeCast_self]
  rw [broadcast_apply]
  exact Ideal.ofBits_zero_f32

/-- The pre-activation block: the loaded entry plus the bias row's entry in its column. -/
theorem pay1_3_apply (x0 : Vec Ideal S10000x64 .f32) (x1 : Vec Ideal S1x64 .f32) (p : Fin 10000) (q : Fin 64) :
    k1_pay3 x0 x1 (ix2 p q) = (x0 : S10000x64.Idx → EReal) (ix2 p q) + (x1 : S1x64.Idx → EReal) (ix2 (0 : Fin 1) q) := by
  unfold k1_pay3
  rw [addf_apply]
  simp only [shapeCast_self]
  rw [broadcastTo_1b_ab_apply]

/-- A sum over the rows of a 10000 x 64 block, read at column q. -/
theorem colsum_apply (src : FVec Ideal S10000x64 .f32) (hacc : (0x00000000#32 : BitVec 32) = 0x00000000#32) (q : Fin 64) :
    multiReduction .add [0] S64 src 0x00000000#32 reduces_S10000x64_S64 (.inl rfl) hacc (ix1 q) = ∑ p : Fin 10000, (src : S10000x64.Idx → EReal) (ix2 p q) := by
  refine (Ideal.multiReduction_add_single src 0x00000000#32 reduces_S10000x64_S64 (.inl rfl) hacc (ix1 q)).trans ?_
  refine Finset.sum_congr rfl fun p _ => congrArg src ?_
  funext a
  apply Fin.ext
  match a with
  | ⟨0, _⟩ => rfl
  | ⟨1, _⟩ => rfl

/-- The first running row after the body: the row it held plus the column sums of the pre-activation block. -/
theorem pay1_4_apply (x0 : Vec Ideal S10000x64 .f32) (x1 v : Vec Ideal S1x64 .f32) (q : Fin 64) :
    k1_pay4 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q)) := by
  unfold k1_pay4
  simp only [shapeCast_self]
  rw [addf_apply, shapeCast_a_1a_apply]
  refine congrArg (fun z => (v : S1x64.Idx → EReal) (ix2 (0 : Fin 1) q) + z) ?_
  exact (colsum_apply _ _ q).trans (Finset.sum_congr rfl fun p _ => pay1_3_apply x0 x1 p q)

/-- The second running row after the body: the row it held plus the column sums of the squared pre-activation block. -/
theorem pay1_5_apply (x0 : Vec Ideal S10000x64 .f32) (x1 v : Vec Ideal S1x64 .f32) (q : Fin 64) :
    k1_pay5 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q))
          * ((x0 : S10000x64.Idx → EReal) (ix2 p q) + (x1 : S1x64.Idx → EReal) (ix2 (0 : Fin 1) q)) := by
  unfold k1_pay5
  simp only [shapeCast_self]
  rw [addf_apply, shapeCast_a_1a_apply]
  refine congrArg (fun z => (v : S1x64.Idx → EReal) (ix2 (0 : Fin 1) q) + z) ?_
  refine (colsum_apply _ _ q).trans (Finset.sum_congr rfl fun p _ => ?_)
  rw [mulf_apply, pay1_3_apply]

/-! ## One point, whatever it is -/

/-- The pre-activation block after point t. -/
theorem pre1At_eq (c : Dev nD) (t : Fin cfg1.N) (a b : Vec Ideal S1x64 .f32) :
    pre1At V c t a b = k1_pay3 (iblk1 V c 0 t) (iblk1 V c 1 t) := by
  unfold pre1At
  split
  · exact runA_pre ..
  · exact runB_pre ..

/-- At the first point the rows before it are the zero row. -/
theorem scB1_first (c : Dev nD) (t : Fin cfg1.N) (hc : cond1_0 (grid1.coords t)) :
    scB1 V c t.val = (k1_pay1 (F := Ideal), k1_pay1 (F := Ideal)) := by
  have hN : cfg1.N = 10 := N_1
  have h0 : t.val = 0 := by have := (hcond1_0 t).mp hc; have := t.isLt; omega
  rw [h0]
  rfl

/-- The first running row after point t, from the rows before it. -/
theorem scL1At_eq (c : Dev nD) (t : Fin cfg1.N) :
    scL1At V c t (scB1 V c t.val).1 (scB1 V c t.val).2 = k1_pay4 (iblk1 V c 0 t) (iblk1 V c 1 t) (scB1 V c t.val).1 := by
  unfold scL1At
  split
  · next hc => rw [scB1_first V c t hc]; exact runA_scL ..
  · exact runB_scL ..

/-- The second running row after point t, from the rows before it. -/
theorem scR1At_eq (c : Dev nD) (t : Fin cfg1.N) :
    scR1At V c t (scB1 V c t.val).1 (scB1 V c t.val).2 = k1_pay5 (iblk1 V c 0 t) (iblk1 V c 1 t) (scB1 V c t.val).2 := by
  unfold scR1At
  split
  · next hc => rw [scB1_first V c t hc]; exact runA_scR ..
  · exact runB_scR ..

/-- The first output row after point t is the first running row after it. -/
theorem sum1At_eq (c : Dev nD) (t : Fin cfg1.N) :
    sum1At V c t (scB1 V c t.val).1 (scB1 V c t.val).2 = (scB1 V c (t.val + 1)).1 := by
  rw [scB1_succ, scL1At_eq]
  unfold sum1At
  split
  · next hc => rw [scB1_first V c t hc]; exact runA_sum ..
  · exact runB_sum ..

/-- The second output row after point t is the second running row after it. -/
theorem sq1At_eq (c : Dev nD) (t : Fin cfg1.N) :
    sq1At V c t (scB1 V c t.val).1 (scB1 V c t.val).2 = (scB1 V c (t.val + 1)).2 := by
  rw [scB1_succ, scR1At_eq]
  unfold sq1At
  split
  · next hc => rw [scB1_first V c t hc]; exact runA_sq ..
  · exact runB_sq ..

/-! ## The loaded blocks as parts of the arrays -/

/-- The loaded block of window 0 at point t is rows 10000 t .. 10000 t + 9999 of its array. -/
theorem rd1_0 (c : Dev nD) (t : Fin cfg1.N) (p : Fin 10000) (q : Fin 64) (r : Fin 100000) (hr : r.val = t.val * 10000 + p.val) :
    (iblk1 V c 0 t : S10000x64.Idx → EReal) (ix2 p q) = (V c main_v44 : S100000x64.Idx → EReal) (ix2 r q) := by
  obtain ⟨e0, e1⟩ : win1_0.index t (0 : Fin 2) = t.val ∧ win1_0.index t (1 : Fin 2) = 0 :=
    (by decide +kernel : ∀ t : Fin grid1.N, win1_0.index t (0 : Fin 2) = t.val ∧ win1_0.index t (1 : Fin 2) = 0) t
  unfold iblk1
  rw [View.read_apply]
  show V c main_v44 _ = V c main_v44 _
  congr 1
  funext a
  apply Fin.ext
  match a with
  | ⟨0, _⟩ => show win1_0.index t (0 : Fin 2) * 10000 + 1 * p.val = r.val; omega
  | ⟨1, _⟩ => show win1_0.index t (1 : Fin 2) * 64 + 1 * q.val = q.val; omega

/-- The loaded block of window 1 is the whole one-row array. -/
theorem rd1_1 (c : Dev nD) (t : Fin cfg1.N) (q : Fin 64) :
    (iblk1 V c 1 t : S1x64.Idx → EReal) (ix2 (0 : Fin 1) q) = (V c main_v45 : S1x64.Idx → EReal) (ix2 (0 : Fin 1) q) := by
  obtain ⟨e0, e1⟩ : win1_1.index t (0 : Fin 2) = 0 ∧ win1_1.index t (1 : Fin 2) = 0 :=
    (by decide +kernel : ∀ t : Fin grid1.N, win1_1.index t (0 : Fin 2) = 0 ∧ win1_1.index t (1 : Fin 2) = 0) t
  unfold iblk1
  rw [View.read_apply]
  show V c main_v45 _ = V c main_v45 _
  congr 1
  funext a
  apply Fin.ext
  match a with
  | ⟨0, _⟩ => show win1_1.index t (0 : Fin 2) * 1 + 1 * 0 = 0; omega
  | ⟨1, _⟩ => show win1_1.index t (1 : Fin 2) * 64 + 1 * q.val = q.val; omega

/-! ## The running rows after n points -/

/-- Row s * 10000 + p of the array, for a block s below ten: position p + 10000 s among 10 * 10000. -/
def row1 (s : Fin 10) (p : Fin 10000) : Fin 100000 := Fin.cast (by norm_num) (Cert.LibBlockSum.pos 10 10000 s p)

theorem row1_val (s : Fin 10) (p : Fin 10000) : (row1 s p).val = s.val * 10000 + p.val := by
  show (Cert.LibBlockSum.pos 10 10000 s p).val = _
  rw [Cert.LibBlockSum.pos_val]; omega

/-- Block s's contribution to a running row, for a per-row term f. -/
def blk1 (f : Fin 100000 → EReal) (s : ℕ) : EReal := if h : s < 10 then ∑ p : Fin 10000, f (row1 ⟨s, h⟩ p) else 0

/-- The ten blocks' contributions add up to the sum over all rows. -/
theorem sum_blk1 (f : Fin 100000 → EReal) : ∑ s ∈ Finset.range 10, blk1 f s = ∑ r : Fin 100000, f r := by
  have h := Cert.LibBlockSum.sum_range_blocks 10 10000 (fun t : Fin (10 * 10000) => f (Fin.cast (by norm_num) t)) (blk1 f)
    (fun s => by unfold blk1; rw [dif_pos s.isLt]; rfl)
  rw [h]
  exact Equiv.sum_comp (finCongr (by norm_num : 10 * 10000 = 100000)) f

/-- The pre-activation's entry. -/
def pre1 (Cm : S100000x64.Idx → EReal) (B : S1x64.Idx → EReal) (q : Fin 64) (r : Fin 100000) : EReal := Cm (ix2 r q) + B (ix2 (0 : Fin 1) q)

/-- The pre-activation's entry at row p of block s, from the loaded blocks, when the loaded block is rows n * 10000 ..
    n * 10000 + 9999 of Cm (s = n) and the loaded row is the whole of B. -/
theorem pre1_blk (x0 : Vec Ideal S10000x64 .f32) (x1 : Vec Ideal S1x64 .f32) (Cm : S100000x64.Idx → EReal) (B : S1x64.Idx → EReal) (n : ℕ)
    (h0 : ∀ (p : Fin 10000) (q : Fin 64) (r : Fin 100000), r.val = n * 10000 + p.val → (x0 : S10000x64.Idx → EReal) (ix2 p q) = Cm (ix2 r q))
    (h1 : ∀ q : Fin 64, (x1 : S1x64.Idx → EReal) (ix2 (0 : Fin 1) q) = B (ix2 (0 : Fin 1) q))
    (q : Fin 64) (s : Fin 10) (hs : s.val = n) (p : Fin 10000) :
    (x0 : S10000x64.Idx → EReal) (ix2 p q) + (x1 : S1x64.Idx → EReal) (ix2 (0 : Fin 1) q) = pre1 Cm B q (row1 s p) := by
  rw [h0 p q (row1 s p) (by rw [row1_val, hs]), h1 q]
  rfl

/-- The two running rows before point n, in column q: the first n blocks' sums. -/
theorem scB1_apply (c : Dev nD) (q : Fin 64) : ∀ n : ℕ, n ≤ 10 →
    ((scB1 V c n).1 : S1x64.Idx → EReal) (ix2 (0 : Fin 1) q) = ∑ s ∈ Finset.range n, blk1 (pre1 (V c main_v44) (V c main_v45) q) s
    ∧ ((scB1 V c n).2 : S1x64.Idx → EReal) (ix2 (0 : Fin 1) q)
        = ∑ s ∈ Finset.range n, blk1 (fun r => pre1 (V c main_v44) (V c main_v45) q r * pre1 (V c main_v44) (V c main_v45) q r) s
  | 0, _ => by
    rw [Finset.sum_range_zero, Finset.sum_range_zero]
    exact ⟨pay1_1_apply q, pay1_1_apply q⟩
  | n + 1, hn => by
    have hN : cfg1.N = 10 := N_1
    have h : n < cfg1.N := by rw [hN]; omega
    obtain ⟨ih1, ih2⟩ := scB1_apply c q n (by omega)
    have e := scB1_succ V c ⟨n, h⟩
    have hb := pre1_blk (iblk1 V c 0 ⟨n, h⟩) (iblk1 V c 1 ⟨n, h⟩) (V c main_v44) (V c main_v45) n (rd1_0 V c ⟨n, h⟩) (rd1_1 V c ⟨n, h⟩) q ⟨n, by omega⟩ rfl
    rw [show scB1 V c (n + 1) = _ from e, Finset.sum_range_succ, Finset.sum_range_succ]
    constructor
    · show (scL1At V c ⟨n, h⟩ (scB1 V c n).1 (scB1 V c n).2 : S1x64.Idx → EReal) (ix2 (0 : Fin 1) q) = _
      rw [show scL1At V c ⟨n, h⟩ (scB1 V c n).1 (scB1 V c n).2 = _ from scL1At_eq V c ⟨n, h⟩, pay1_4_apply]
      show ((scB1 V c n).1 : S1x64.Idx → EReal) (ix2 (0 : Fin 1) q) + _ = _
      rw [ih1]
      refine congrArg (fun z => _ + z) ?_
      unfold blk1
      rw [dif_pos (by omega : n < 10)]
      exact Finset.sum_congr rfl fun p _ => hb p
    · show (scR1At V c ⟨n, h⟩ (scB1 V c n).1 (scB1 V c n).2 : S1x64.Idx → EReal) (ix2 (0 : Fin 1) q) = _
      rw [show scR1At V c ⟨n, h⟩ (scB1 V c n).1 (scB1 V c n).2 = _ from scR1At_eq V c ⟨n, h⟩, pay1_5_apply]
      show ((scB1 V c n).2 : S1x64.Idx → EReal) (ix2 (0 : Fin 1) q) + _ = _
      rw [ih2]
      refine congrArg (fun z => _ + z) ?_
      unfold blk1
      rw [dif_pos (by omega : n < 10)]
      exact Finset.sum_congr rfl fun p _ => congrArg (fun z : EReal => z * z) (hb p)

/-- After all ten points: the sums over all 100000 rows. -/
theorem scB1_last (c : Dev nD) (q : Fin 64) :
    ((scB1 V c 10).1 : S1x64.Idx → EReal) (ix2 (0 : Fin 1) q) = ∑ r : Fin 100000, pre1 (V c main_v44) (V c main_v45) q r
    ∧ ((scB1 V c 10).2 : S1x64.Idx → EReal) (ix2 (0 : Fin 1) q)
        = ∑ r : Fin 100000, pre1 (V c main_v44) (V c main_v45) q r * pre1 (V c main_v44) (V c main_v45) q r := by
  obtain ⟨h1, h2⟩ := scB1_apply V c q 10 (le_refl _)
  rw [h1, h2, sum_blk1, sum_blk1]
  exact ⟨rfl, rfl⟩

end Cert.KernelIdeal.HandValue

end
-- ==== Proof.KIV.V1.lean ====
/-
  Region 1 on the extended reals: its three output arrays after the region, index by index. With Cm the 100000 x 64 array
  and B the bias row the region finds: the pre-activation array holds Cm (r, j) + B (0, j); the first output row holds, in
  column j, the sum over all 100000 rows r of Cm (r, j) + B (0, j); the second the sum of the squares of the same terms.
  The pre-activation array is written block by block; the two rows are written back once, after the last point.
-/
import proofs.«106081_j12317966204981_2_alg».proof.Proof.KI.R1b
import proofs.«106081_j12317966204981_2_alg».proof.Proof.KIV.V1b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1' : (![0, 0] : Fin 2 → Nat) = fun _ => 0 := funext fun a => by fin_cases a <;> rfl

/-! ## The three arrays -/

/-- The pre-activation array. -/
def G1p (Cm : S100000x64.Idx → EReal) (B : S1x64.Idx → EReal) : S100000x64.Idx → EReal :=
  fun i => Cm i + B (ix2 (0 : Fin 1) (i 1))

/-- The row of column sums. -/
def G1s (Cm : S100000x64.Idx → EReal) (B : S1x64.Idx → EReal) : S1x64.Idx → EReal :=
  fun i => ∑ r : Fin 100000, (Cm (ix2 r (i 1)) + B (ix2 (0 : Fin 1) (i 1)))

/-- The row of column sums of squares. -/
def G1q (Cm : S100000x64.Idx → EReal) (B : S1x64.Idx → EReal) : S1x64.Idx → EReal :=
  fun i => ∑ r : Fin 100000, (Cm (ix2 r (i 1)) + B (ix2 (0 : Fin 1) (i 1))) * (Cm (ix2 r (i 1)) + B (ix2 (0 : Fin 1) (i 1)))

theorem G1p_apply (Cm : S100000x64.Idx → EReal) (B : S1x64.Idx → EReal) (i : S100000x64.Idx) :
    G1p Cm B i = Cm i + B (ix2 (0 : Fin 1) (i 1)) := rfl
theorem G1s_apply (Cm : S100000x64.Idx → EReal) (B : S1x64.Idx → EReal) (j : Fin 64) :
    G1s Cm B (ix2 (0 : Fin 1) j) = ∑ r : Fin 100000, (Cm (ix2 r j) + B (ix2 (0 : Fin 1) j)) := rfl
theorem G1q_apply (Cm : S100000x64.Idx → EReal) (B : S1x64.Idx → EReal) (j : Fin 64) :
    G1q Cm B (ix2 (0 : Fin 1) j) = ∑ r : Fin 100000, (Cm (ix2 r j) + B (ix2 (0 : Fin 1) j)) * (Cm (ix2 r j) + B (ix2 (0 : Fin 1) j)) := rfl

/-! ## The pre-activation array, block by block -/

/-- The pre-activation block when the loaded block is rows n * 10000 .. n * 10000 + 9999 of an array Cm and the loaded
    row the whole of a one-row array B: at block index y it is the array's entry at the index i that y sits at. -/
theorem blk1p_apply (x0 : Vec Ideal S10000x64 .f32) (x1 : Vec Ideal S1x64 .f32)
    (Cm : S100000x64.Idx → EReal) (B : S1x64.Idx → EReal) (n : ℕ)
    (h0 : ∀ (p : Fin 10000) (q : Fin 64) (r : Fin 100000), r.val = n * 10000 + p.val → x0 (ix2 p q) = Cm (ix2 r q))
    (h1 : ∀ q : Fin 64, x1 (ix2 (0 : Fin 1) q) = B (ix2 (0 : Fin 1) q))
    (y : S10000x64.Idx) (i : S100000x64.Idx) (hr : (i 0).val = n * 10000 + (y 0).val) (hj : (i 1).val = (y 1).val) :
    k1_pay3 x0 x1 y = G1p Cm B i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = Cm (ix2 r j) + B (ix2 (0 : Fin 1) j)
  rw [pay1_3_apply, h0 p j r hr, h1 j]

/-- What point t writes back to the pre-activation array is block t of it. -/
theorem flushed1_2_eq (c : Dev nD) (t : Fin cfg1.N) :
    (dat1 V c).flushed 2 t = ((cfg1.win 2).blk t).view.read (Elt Ideal) (G1p (V c main_v44) (V c main_v45)) := by
  show (cfg1.win 2).cut (grid1.coords t) ((dat1 V c).after 2 t) = _
  rw [after1_2, pre1At_eq]
  obtain ⟨e0, e1⟩ : win1_2.index t (0 : Fin 2) = t.val ∧ win1_2.index t (1 : Fin 2) = 0 :=
    (by decide +kernel : ∀ t : Fin grid1.N, win1_2.index t (0 : Fin 2) = t.val ∧ win1_2.index t (1 : Fin 2) = 0) t
  funext y
  show k1_pay3 (iblk1 V c 0 t) (iblk1 V c 1 t) y = G1p (V c main_v44) (V c main_v45) (((cfg1.win 2).blk t).view.emb y)
  refine blk1p_apply (iblk1 V c 0 t) (iblk1 V c 1 t) (V c main_v44) (V c main_v45) t.val (rd1_0 V c t) (rd1_1 V c t) y _ ?_ ?_
  · show win1_2.index t (0 : Fin 2) * 10000 + 1 * (y 0).val = t.val * 10000 + (y 0).val; omega
  · show win1_2.index t (1 : Fin 2) * 64 + 1 * (y 1).val = (y 1).val; omega

/-- An index of the array is in point t's block iff each coordinate is in the block's range on its axis. -/
theorem mem_blk1_2 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46_0).slice (win1_2.rect t)).set ↔ _
  rw [View.set_slice_whole, Rect.mem_set_unit]
  exact Iff.rfl

/-- Every index of the array is in some point's block: row r is in block r / 10000. -/
theorem cover1_2 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1⟩ : win1_2.index t (0 : Fin 2) = t.val ∧ win1_2.index t (1 : Fin 2) = 0 :=
    (by decide +kernel : ∀ t : Fin grid1.N, win1_2.index t (0 : Fin 2) = t.val ∧ win1_2.index t (1 : Fin 2) = 0) t
  refine ⟨t, flush1_2 t, ?_⟩
  rw [mem_blk1_2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The pre-activation array after the region. -/
theorem final1_2 (c : Dev nD) : (dat1 V c).arrAt 2 cfg1.N = G1p (V c main_v44) (V c main_v45) :=
  (dat1 V c).arrAt_eq_of_cover 2 (G1p (V c main_v44) (V c main_v45)) (fun t _ => flushed1_2_eq V c t) cover1_2

/-! ## The two rows, written back once -/

/-- Two one-row arrays that agree at (0, q) for every q agree at indices with the same column. -/
theorem row64_apply (v G : S1x64.Idx → EReal) (hv : ∀ q : Fin 64, v (ix2 (0 : Fin 1) q) = G (ix2 (0 : Fin 1) q))
    (y i : S1x64.Idx) (hj : (i 1).val = (y 1).val) : v y = G i := by
  obtain ⟨u, q, rfl⟩ : ∃ (u : Fin 1) (q : Fin 64), y = ix2 u q := ⟨y 0, y 1, eq_ix2 y⟩
  obtain ⟨u', q', rfl⟩ : ∃ (u' : Fin 1) (q' : Fin 64), i = ix2 u' q' := ⟨i 0, i 1, eq_ix2 i⟩
  obtain rfl : q' = q := Fin.ext hj
  obtain rfl : u = 0 := Subsingleton.elim _ _
  obtain rfl : u' = 0 := Subsingleton.elim _ _
  exact hv q'

set_option maxRecDepth 131072 in
/-- What the last point writes back to output row 3 is the whole of that row. -/
theorem flushed1_3_eq (c : Dev nD) (t : Fin cfg1.N) (hf : (cfg1.win 3).flush t = true) :
    (dat1 V c).flushed 3 t = ((cfg1.win 3).blk t).view.read (Elt Ideal) (G1s (V c main_v44) (V c main_v45)) := by
  have hN : cfg1.N = 10 := N_1
  have h9 : t.val + 1 = 10 := by have := (flush1_3 t).mp hf; have := t.isLt; omega
  show (cfg1.win 3).cut (grid1.coords t) ((dat1 V c).after 3 t) = _
  rw [after1_3, sum1At_eq, h9]
  have hrow : ∀ q : Fin 64, ((scB1 V c 10).1 : S1x64.Idx → EReal) (ix2 (0 : Fin 1) q)
      = G1s (V c main_v44) (V c main_v45) (ix2 (0 : Fin 1) q) := fun q => (scB1_last V c q).1
  generalize (scB1 V c 10).1 = row at hrow ⊢
  obtain ⟨e0, e1⟩ : win1_3.index t (0 : Fin 2) = 0 ∧ win1_3.index t (1 : Fin 2) = 0 :=
    (by decide +kernel : ∀ t : Fin grid1.N, win1_3.index t (0 : Fin 2) = 0 ∧ win1_3.index t (1 : Fin 2) = 0) t
  funext y
  show (row : S1x64.Idx → EReal) y = G1s (V c main_v44) (V c main_v45) (((cfg1.win 3).blk t).view.emb y)
  refine row64_apply _ _ hrow y _ ?_
  show win1_3.index t (1 : Fin 2) * 64 + 1 * (y 1).val = (y 1).val; omega

/-- An index of the row is in point t's block iff each coordinate is in the block's range on its axis. -/
theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v46_1).slice (win1_3.rect t)).set ↔ _
  rw [View.set_slice_whole, Rect.mem_set_unit]
  exact Iff.rfl

/-- Every index of the row is in the last point's block, the one that is written back. -/
theorem cover1_3 (i : S1x64.Idx) : ∃ t : Fin cfg1.N, (cfg1.win 3).flush t = true ∧ i ∈ ((cfg1.win 3).blk t).view.set := by
  have hi0 : (i 0).val < 1 := (i 0).isLt
  have hi1 : (i 1).val < 64 := (i 1).isLt
  have hN : cfg1.N = 10 := N_1
  obtain ⟨t, ht⟩ : ∃ t : Fin cfg1.N, t.val = 9 := ⟨⟨9, by rw [hN]; omega⟩, rfl⟩
  obtain ⟨e0, e1⟩ : win1_3.index t (0 : Fin 2) = 0 ∧ win1_3.index t (1 : Fin 2) = 0 :=
    (by decide +kernel : ∀ t : Fin grid1.N, win1_3.index t (0 : Fin 2) = 0 ∧ win1_3.index t (1 : Fin 2) = 0) t
  refine ⟨t, (flush1_3 t).mpr (by omega), ?_⟩
  rw [mem_blk1_3]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 64 ≤ (i 1).val ∧ (i 1).val < win1_3.index t (1 : Fin 2) * 64 + 64; omega

/-- The row of column sums after the region. -/
theorem final1_3 (c : Dev nD) : (dat1 V c).arrAt 3 cfg1.N = G1s (V c main_v44) (V c main_v45) :=
  (dat1 V c).arrAt_eq_of_cover 3 (G1s (V c main_v44) (V c main_v45)) (fun t hf => flushed1_3_eq V c t hf) cover1_3

set_option maxRecDepth 131072 in
/-- What the last point writes back to output row 4 is the whole of that row. -/
theorem flushed1_4_eq (c : Dev nD) (t : Fin cfg1.N) (hf : (cfg1.win 4).flush t = true) :
    (dat1 V c).flushed 4 t = ((cfg1.win 4).blk t).view.read (Elt Ideal) (G1q (V c main_v44) (V c main_v45)) := by
  have hN : cfg1.N = 10 := N_1
  have h9 : t.val + 1 = 10 := by have := (flush1_4 t).mp hf; have := t.isLt; omega
  show (cfg1.win 4).cut (grid1.coords t) ((dat1 V c).after 4 t) = _
  rw [after1_4, sq1At_eq, h9]
  have hrow : ∀ q : Fin 64, ((scB1 V c 10).2 : S1x64.Idx → EReal) (ix2 (0 : Fin 1) q)
      = G1q (V c main_v44) (V c main_v45) (ix2 (0 : Fin 1) q) := fun q => (scB1_last V c q).2
  generalize (scB1 V c 10).2 = row at hrow ⊢
  obtain ⟨e0, e1⟩ : win1_4.index t (0 : Fin 2) = 0 ∧ win1_4.index t (1 : Fin 2) = 0 :=
    (by decide +kernel : ∀ t : Fin grid1.N, win1_4.index t (0 : Fin 2) = 0 ∧ win1_4.index t (1 : Fin 2) = 0) t
  funext y
  show (row : S1x64.Idx → EReal) y = G1q (V c main_v44) (V c main_v45) (((cfg1.win 4).blk t).view.emb y)
  refine row64_apply _ _ hrow y _ ?_
  show win1_4.index t (1 : Fin 2) * 64 + 1 * (y 1).val = (y 1).val; omega

/-- An index of the row is in point t's block iff each coordinate is in the block's range on its axis. -/
theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v46_2).slice (win1_4.rect t)).set ↔ _
  rw [View.set_slice_whole, Rect.mem_set_unit]
  exact Iff.rfl

/-- Every index of the row is in the last point's block, the one that is written back. -/
theorem cover1_4 (i : S1x64.Idx) : ∃ t : Fin cfg1.N, (cfg1.win 4).flush t = true ∧ i ∈ ((cfg1.win 4).blk t).view.set := by
  have hi0 : (i 0).val < 1 := (i 0).isLt
  have hi1 : (i 1).val < 64 := (i 1).isLt
  have hN : cfg1.N = 10 := N_1
  obtain ⟨t, ht⟩ : ∃ t : Fin cfg1.N, t.val = 9 := ⟨⟨9, by rw [hN]; omega⟩, rfl⟩
  obtain ⟨e0, e1⟩ : win1_4.index t (0 : Fin 2) = 0 ∧ win1_4.index t (1 : Fin 2) = 0 :=
    (by decide +kernel : ∀ t : Fin grid1.N, win1_4.index t (0 : Fin 2) = 0 ∧ win1_4.index t (1 : Fin 2) = 0) t
  refine ⟨t, (flush1_4 t).mpr (by omega), ?_⟩
  rw [mem_blk1_4]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 64 ≤ (i 1).val ∧ (i 1).val < win1_4.index t (1 : Fin 2) * 64 + 64; omega

/-- The row of column sums of squares after the region. -/
theorem final1_4 (c : Dev nD) : (dat1 V c).arrAt 4 cfg1.N = G1q (V c main_v44) (V c main_v45) :=
  (dat1 V c).arrAt_eq_of_cover 4 (G1q (V c main_v44) (V c main_v45)) (fun t hf => flushed1_4_eq V c t hf) cover1_4

/-- Entry by entry. -/
theorem val1_2 (c : Dev nD) (i : S100000x64.Idx) : (dat1 V c).arrAt 2 cfg1.N i = G1p (V c main_v44) (V c main_v45) i :=
  congrFun (final1_2 V c) i
theorem val1_3 (c : Dev nD) (j : Fin 64) : (dat1 V c).arrAt 3 cfg1.N (ix2 (0 : Fin 1) j) = G1s (V c main_v44) (V c main_v45) (ix2 (0 : Fin 1) j) :=
  congrFun (final1_3 V c) _
theorem val1_4 (c : Dev nD) (j : Fin 64) : (dat1 V c).arrAt 4 cfg1.N (ix2 (0 : Fin 1) j) = G1q (V c main_v44) (V c main_v45) (ix2 (0 : Fin 1) j) :=
  congrFun (final1_4 V c) _

end Cert.KernelIdeal.HandValue

end
-- ==== Proof.KI.ChainAgg.lean ====
/-
  The kernel program's result, read through the fold of its segments (the aggregation as a function).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Sem
import proofs.«106081_j12317966204981_2_alg».proof.Proof.KIH.Stages

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

/-- The aggregation for an edge array E, as a function of the projected array. -/
def aggK (E : IVec S2x1600000 32) : (S100000x64.Idx → EReal) → S100000x64.Idx → EReal :=
  fun h => kAgg (F := Ideal) h (kSrc E) (kDst E) (kCoef (F := Ideal) E) (kSelf (F := Ideal) E)

end Cert.KernelIdeal.HandChain

end
-- ==== Proof.KI.Chain1.lean ====
/-
  The kernel program's result, read through the fold of its segments (layer 1).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Fold
import proofs.«106081_j12317966204981_2_alg».proof.Proof.KI.Sem
import proofs.«106081_j12317966204981_2_alg».proof.Proof.KIH.Stages
import proofs.«106081_j12317966204981_2_alg».proof.Proof.KIV.V0
import proofs.«106081_j12317966204981_2_alg».proof.Proof.KIV.V1
import proofs.«106081_j12317966204981_2_alg».proof.Proof.KIV.V2
import proofs.«106081_j12317966204981_2_alg».proof.Proof.KI.ChainAgg

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

variable (m : (ℓ : Loc nD τ sig) → Buf (Elt Ideal) ℓ) (c : Dev nD)

/-- Layer 1: what the normalise-and-clamp region leaves, as the kernel's layer function of the layer's input and
    parameters. -/
theorem layer1_out : W6 m c (Proc.devRef .tc main_v58)
    = layerK G0 G1p G1s G1q (aggK (W0 m c (Proc.devRef .tc main_arg1))) (W0 m c (Proc.devRef .tc main_arg0)) (W0 m c (Proc.devRef .tc main_arg3)) (W0 m c (Proc.devRef .tc main_arg4)) (W0 m c (Proc.devRef .tc main_arg5)) (W0 m c (Proc.devRef .tc main_arg6)) := by
  -- the projection
  have hH : W2 m c (Proc.devRef .tc main_v29) = G0 (W0 m c (Proc.devRef .tc main_arg0)) (W0 m c (Proc.devRef .tc main_arg3)) := by
    have h := (hF0 m c 2).symm.trans (final0 (VT1 m) c)
    have e1 : VT1 m c main_arg0 = (W0 m c (Proc.devRef .tc main_arg0)) := (W1_keep m c main_arg0 (by decide))
    have e2 : VT1 m c main_arg3 = (W0 m c (Proc.devRef .tc main_arg3)) := (W1_keep m c main_arg3 (by decide))
    rw [e1, e2] at h
    exact h
  -- the shared index vectors and coefficients
  have hs_main_v1 : W2 m c (Proc.devRef .tc main_v1) = kSrc (W0 m c (Proc.devRef .tc main_arg1)) :=
    ((W2_keep m c main_v1 (by decide))).trans (stage0_v1 (W0 m c))
  have hs_main_v3 : W2 m c (Proc.devRef .tc main_v3) = kDst (W0 m c (Proc.devRef .tc main_arg1)) :=
    ((W2_keep m c main_v3 (by decide))).trans (stage0_v3 (W0 m c))
  have hs_main_v26 : W2 m c (Proc.devRef .tc main_v26) = kCoef (F := Ideal) (W0 m c (Proc.devRef .tc main_arg1)) :=
    ((W2_keep m c main_v26 (by decide))).trans (stage0_v26 (W0 m c))
  have hs_main_v28 : W2 m c (Proc.devRef .tc main_v28) = kSelf (F := Ideal) (W0 m c (Proc.devRef .tc main_arg1)) :=
    ((W2_keep m c main_v28 (by decide))).trans (stage0_v28 (W0 m c))
  -- the aggregation and the bias row
  have hC : W3 m c (Proc.devRef .tc main_v44) = aggK (W0 m c (Proc.devRef .tc main_arg1)) (W2 m c (Proc.devRef .tc main_v29)) := by
    have h := stage1_v44 (F := Ideal) (W2 m c)
    rw [hs_main_v1, hs_main_v3, hs_main_v26, hs_main_v28] at h
    exact h
  have hB : W3 m c (Proc.devRef .tc main_v45) = kBias (F := Ideal) (W0 m c (Proc.devRef .tc main_arg4)) := by
    have h := stage1_v45 (F := Ideal) (W2 m c)
    have e : W2 m c (Proc.devRef .tc main_arg4) = (W0 m c (Proc.devRef .tc main_arg4)) := (W2_keep m c main_arg4 (by decide)).trans ((W1_keep m c main_arg4 (by decide)))
    rw [e] at h
    exact h
  -- the biased array and its two rows of column sums
  have hP : W4 m c (Proc.devRef .tc main_v46_0) = G1p (W3 m c (Proc.devRef .tc main_v44)) (W3 m c (Proc.devRef .tc main_v45)) :=
    (hF1 m c 2).symm.trans (final1_2 (VT3 m) c)
  have hS : W4 m c (Proc.devRef .tc main_v46_1) = G1s (W3 m c (Proc.devRef .tc main_v44)) (W3 m c (Proc.devRef .tc main_v45)) :=
    (hF1 m c 3).symm.trans (final1_3 (VT3 m) c)
  have hQ : W4 m c (Proc.devRef .tc main_v46_2) = G1q (W3 m c (Proc.devRef .tc main_v44)) (W3 m c (Proc.devRef .tc main_v45)) :=
    (hF1 m c 4).symm.trans (final1_4 (VT3 m) c)
  -- the statistics rows, the gain row and the shift row
  have hMn : W5 m c (Proc.devRef .tc main_v48) = kMean (F := Ideal) (W4 m c (Proc.devRef .tc main_v46_1)) := stage2_v48 (F := Ideal) (W4 m c)
  have hRs : W5 m c (Proc.devRef .tc main_v55) = kRsqrtVar (F := Ideal) (W4 m c (Proc.devRef .tc main_v46_1)) (W4 m c (Proc.devRef .tc main_v46_2)) := stage2_v55 (F := Ideal) (W4 m c)
  have hG : W5 m c (Proc.devRef .tc main_v56) = kBias (F := Ideal) (W0 m c (Proc.devRef .tc main_arg5)) := by
    have h := stage2_v56 (F := Ideal) (W4 m c)
    have e : W4 m c (Proc.devRef .tc main_arg5) = (W0 m c (Proc.devRef .tc main_arg5)) := (W4_keep m c main_arg5 (by decide)).trans ((W3_keep m c main_arg5 (by decide)).trans ((W2_keep m c main_arg5 (by decide)).trans ((W1_keep m c main_arg5 (by decide)))))
    rw [e] at h
    exact h
  have hBt : W5 m c (Proc.devRef .tc main_v57) = kBias (F := Ideal) (W0 m c (Proc.devRef .tc main_arg6)) := by
    have h := stage2_v57 (F := Ideal) (W4 m c)
    have e : W4 m c (Proc.devRef .tc main_arg6) = (W0 m c (Proc.devRef .tc main_arg6)) := (W4_keep m c main_arg6 (by decide)).trans ((W3_keep m c main_arg6 (by decide)).trans ((W2_keep m c main_arg6 (by decide)).trans ((W1_keep m c main_arg6 (by decide)))))
    rw [e] at h
    exact h
  have hP' : W5 m c (Proc.devRef .tc main_v46_0) = W4 m c (Proc.devRef .tc main_v46_0) := W5_keep m c main_v46_0 (by decide)
  -- the normalise-and-clamp region
  have hO : W6 m c (Proc.devRef .tc main_v58) = G2 (W5 m c (Proc.devRef .tc main_v46_0)) (W5 m c (Proc.devRef .tc main_v48)) (W5 m c (Proc.devRef .tc main_v55)) (W5 m c (Proc.devRef .tc main_v56)) (W5 m c (Proc.devRef .tc main_v57)) :=
    (hF2 m c 5).symm.trans (final2 (VT5 m) c)
  rw [hO, hP', hMn, hRs, hG, hBt, hP, hS, hQ, hC, hB, hH]
  rfl

end Cert.KernelIdeal.HandChain

end
-- ==== Proof.KIV.VMat.lean ====
/-
  The three later projections (100000 x 64 activations by a 64 x 64 weight matrix, in row blocks of 10000) on the extended
  reals: the body's payload at a block index, and the array the region leaves as one function of the two arrays it finds.
  No region's windows are mentioned here; each region's module instantiates these at its own arrays.
-/
import proofs.«106081_j12317966204981_2_alg».proof.Proof.Gen.KernelIdeal.Skeleton
import proofs.«106081_j12317966204981_2_alg».proof.Proof.LibMatmulAt
import proofs.«106081_j12317966204981_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- The output's row coordinate is the left factor's row coordinate. -/
theorem dot64_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The output's column coordinate is the right factor's column coordinate. -/
theorem dot64_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Region 3's payload at entry (p, j) of the block: row p of the loaded block against column j of the loaded weights. The
    change of shape is the identity, the narrowing of both factors is the identity on the extended reals, and the
    accumulator starts at zero. -/
theorem pay3_apply (x0 : Vec Ideal S10000x64 .f32) (x1 : Vec Ideal S64x64 .f32) (p : Fin 10000) (j : Fin 64) :
    k3_pay1 x0 x1 (ix2 p j) = ∑ k : Fin 64, (x0 : S10000x64.Idx → EReal) (ix2 p k) * (x1 : S64x64.Idx → EReal) (ix2 k j) := by
  unfold k3_pay1
  rw [shapeCast_self]
  exact Cert.LibMatmulAt.matmul_zero_apply (M := 10000) (K := 64) (N := 64) dot_S10000x64_S64x64_S10000x64_1_0_0_1_n_n rfl rfl
    dot64_lhs0 (fun i q => dot_S10000x64_S64x64_S10000x64_1_0_0_1_n_n.lhsIdx_val_of_single rfl i q)
    (fun i q => dot_S10000x64_S64x64_S10000x64_1_0_0_1_n_n.rhsIdx_val_of_single rfl i q) dot64_rhs1 none
    (truncf .bf16 x0 bitsLt_bf16_f32) (truncf .bf16 x1 bitsLt_bf16_f32) p j

/-- Region 6's payload at entry (p, j) of the block: row p of the loaded block against column j of the loaded weights. The
    change of shape is the identity, the narrowing of both factors is the identity on the extended reals, and the
    accumulator starts at zero. -/
theorem pay6_apply (x0 : Vec Ideal S10000x64 .f32) (x1 : Vec Ideal S64x64 .f32) (p : Fin 10000) (j : Fin 64) :
    k6_pay1 x0 x1 (ix2 p j) = ∑ k : Fin 64, (x0 : S10000x64.Idx → EReal) (ix2 p k) * (x1 : S64x64.Idx → EReal) (ix2 k j) := by
  unfold k6_pay1
  rw [shapeCast_self]
  exact Cert.LibMatmulAt.matmul_zero_apply (M := 10000) (K := 64) (N := 64) dot_S10000x64_S64x64_S10000x64_1_0_0_1_n_n rfl rfl
    dot64_lhs0 (fun i q => dot_S10000x64_S64x64_S10000x64_1_0_0_1_n_n.lhsIdx_val_of_single rfl i q)
    (fun i q => dot_S10000x64_S64x64_S10000x64_1_0_0_1_n_n.rhsIdx_val_of_single rfl i q) dot64_rhs1 none
    (truncf .bf16 x0 bitsLt_bf16_f32) (truncf .bf16 x1 bitsLt_bf16_f32) p j

/-- Region 9's payload at entry (p, j) of the block: row p of the loaded block against column j of the loaded weights. The
    change of shape is the identity, the narrowing of both factors is the identity on the extended reals, and the
    accumulator starts at zero. -/
theorem pay9_apply (x0 : Vec Ideal S10000x64 .f32) (x1 : Vec Ideal S64x64 .f32) (p : Fin 10000) (j : Fin 64) :
    k9_pay1 x0 x1 (ix2 p j) = ∑ k : Fin 64, (x0 : S10000x64.Idx → EReal) (ix2 p k) * (x1 : S64x64.Idx → EReal) (ix2 k j) := by
  unfold k9_pay1
  rw [shapeCast_self]
  exact Cert.LibMatmulAt.matmul_zero_apply (M := 10000) (K := 64) (N := 64) dot_S10000x64_S64x64_S10000x64_1_0_0_1_n_n rfl rfl
    dot64_lhs0 (fun i q => dot_S10000x64_S64x64_S10000x64_1_0_0_1_n_n.lhsIdx_val_of_single rfl i q)
    (fun i q => dot_S10000x64_S64x64_S10000x64_1_0_0_1_n_n.rhsIdx_val_of_single rfl i q) dot64_rhs1 none
    (truncf .bf16 x0 bitsLt_bf16_f32) (truncf .bf16 x1 bitsLt_bf16_f32) p j

/-- The array such a region leaves: the product of the two arrays it finds, entry by entry. -/
def G64 (A : S100000x64.Idx → EReal) (W : S64x64.Idx → EReal) : S100000x64.Idx → EReal :=
  fun i => ∑ k : Fin 64, A (ix2 (i 0) k) * W (ix2 k (i 1))

/-- The product's entry, spelt out. -/
theorem G64_apply (A : S100000x64.Idx → EReal) (W : S64x64.Idx → EReal) (i : S100000x64.Idx) :
    G64 A W i = ∑ k : Fin 64, A (ix2 (i 0) k) * W (ix2 k (i 1)) := rfl

/-- The same as the specification's matrix product of the two arrays read by rows and columns. -/
theorem G64_eq_proj (A : S100000x64.Idx → EReal) (W : S64x64.Idx → EReal) (i : S100000x64.Idx) :
    G64 A W i = Cert.Spec.proj (fun (r : Fin 100000) (k : Fin 64) => A (ix2 r k)) (fun (k : Fin 64) (j : Fin 64) => W (ix2 k j)) (i 0) (i 1) := rfl

/-- A block value v that is, entry by entry, the product of two loaded blocks x0, x1, when x0 is rows n * 10000 ..
    n * 10000 + 9999 of an array A and x1 the whole of an array W: at block index y it is the product's entry at the
    array index i that y sits at. -/
theorem blk64_apply (v : S10000x64.Idx → EReal) (x0 : S10000x64.Idx → EReal) (x1 : S64x64.Idx → EReal)
    (hv : ∀ (p : Fin 10000) (j : Fin 64), v (ix2 p j) = ∑ k : Fin 64, x0 (ix2 p k) * x1 (ix2 k j))
    (A : S100000x64.Idx → EReal) (W : S64x64.Idx → EReal) (n : ℕ)
    (h0 : ∀ (p : Fin 10000) (k : Fin 64) (r : Fin 100000), r.val = n * 10000 + p.val → x0 (ix2 p k) = A (ix2 r k))
    (h1 : ∀ (k : Fin 64) (j : Fin 64), x1 (ix2 k j) = W (ix2 k j))
    (y : S10000x64.Idx) (i : S100000x64.Idx) (hr : (i 0).val = n * 10000 + (y 0).val) (hj : (i 1).val = (y 1).val) :
    v y = G64 A W i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = ∑ k : Fin 64, A (ix2 r k) * W (ix2 k j)
  rw [hv]
  refine Finset.sum_congr rfl fun k _ => ?_
  rw [h0 p k r hr, h1 k j]

end Cert.KernelIdeal.HandValue

end
-- ==== Proof.KIV.V3.lean ====
/-
  Region 3 on the extended reals: the output array after the region is the product of the 100000 x 64 array and the
  64 x 64 weight matrix the region finds, entry by entry. Point t of the grid holds rows 10000 t .. 10000 t + 9999; the ten
  row blocks tile the array.
-/
import proofs.«106081_j12317966204981_2_alg».proof.Proof.KI.R3
import proofs.«106081_j12317966204981_2_alg».proof.Proof.KIV.VMat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-! ## The loaded blocks as parts of the arrays -/

/-- The loaded block of window 0 at point t is rows 10000 t .. 10000 t + 9999 of its array. -/
theorem rd3_0 (c : Dev nD) (t : Fin cfg3.N) (p : Fin 10000) (q : Fin 64) (r : Fin 100000) (hr : r.val = t.val * 10000 + p.val) :
    (iblk3 V c 0 t : S10000x64.Idx → EReal) (ix2 p q) = (V c main_v58 : S100000x64.Idx → EReal) (ix2 r q) := by
  obtain ⟨e0, e1⟩ : win3_0.index t (0 : Fin 2) = t.val ∧ win3_0.index t (1 : Fin 2) = 0 :=
    (by decide +kernel : ∀ t : Fin grid3.N, win3_0.index t (0 : Fin 2) = t.val ∧ win3_0.index t (1 : Fin 2) = 0) t
  unfold iblk3
  rw [View.read_apply]
  show V c main_v58 _ = V c main_v58 _
  congr 1
  funext a
  apply Fin.ext
  match a with
  | ⟨0, _⟩ => show win3_0.index t (0 : Fin 2) * 10000 + 1 * p.val = r.val; omega
  | ⟨1, _⟩ => show win3_0.index t (1 : Fin 2) * 64 + 1 * q.val = q.val; omega

/-- The loaded block of window 1 is the whole of its array. -/
theorem rd3_1 (c : Dev nD) (t : Fin cfg3.N) (k : Fin 64) (j : Fin 64) :
    (iblk3 V c 1 t : S64x64.Idx → EReal) (ix2 k j) = (V c main_arg7 : S64x64.Idx → EReal) (ix2 k j) := by
  obtain ⟨e0, e1⟩ : win3_1.index t (0 : Fin 2) = 0 ∧ win3_1.index t (1 : Fin 2) = 0 :=
    (by decide +kernel : ∀ t : Fin grid3.N, win3_1.index t (0 : Fin 2) = 0 ∧ win3_1.index t (1 : Fin 2) = 0) t
  unfold iblk3
  rw [View.read_apply]
  show V c main_arg7 _ = V c main_arg7 _
  congr 1
  funext a
  apply Fin.ext
  match a with
  | ⟨0, _⟩ => show win3_1.index t (0 : Fin 2) * 64 + 1 * k.val = k.val; omega
  | ⟨1, _⟩ => show win3_1.index t (1 : Fin 2) * 64 + 1 * j.val = j.val; omega

/-! ## From the blocks to the array -/

/-- What point t writes back is block t of the product of the arrays as the region finds them. -/
theorem flushed3_eq (c : Dev nD) (t : Fin cfg3.N) :
    (dat3 V c).flushed 2 t = ((cfg3.win 2).blk t).view.read (Elt Ideal) (G64 (V c main_v58) (V c main_arg7)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S64x64) hz3]
  obtain ⟨e0, e1⟩ : win3_2.index t (0 : Fin 2) = t.val ∧ win3_2.index t (1 : Fin 2) = 0 :=
    (by decide +kernel : ∀ t : Fin grid3.N, win3_2.index t (0 : Fin 2) = t.val ∧ win3_2.index t (1 : Fin 2) = 0) t
  funext y
  show k3_pay1 (iblk3 V c 0 t) (iblk3 V c 1 t) y = G64 (V c main_v58) (V c main_arg7) (((cfg3.win 2).blk t).view.emb y)
  refine blk64_apply (k3_pay1 (iblk3 V c 0 t) (iblk3 V c 1 t)) (iblk3 V c 0 t) (iblk3 V c 1 t)
    (pay3_apply (iblk3 V c 0 t) (iblk3 V c 1 t)) (V c main_v58) (V c main_arg7) t.val (rd3_0 V c t) (rd3_1 V c t) y _ ?_ ?_
  · show win3_2.index t (0 : Fin 2) * 10000 + 1 * (y 0).val = t.val * 10000 + (y 0).val; omega
  · show win3_2.index t (1 : Fin 2) * 64 + 1 * (y 1).val = (y 1).val; omega

/-- An index of the array is in point t's block iff each coordinate is in the block's range on its axis. -/
theorem mem_blk3_2 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v59).slice (win3_2.rect t)).set ↔ _
  rw [View.set_slice_whole, Rect.mem_set_unit]
  exact Iff.rfl

/-- Every index of the array is in some point's block: row r is in block r / 10000. -/
theorem cover3_2 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1⟩ : win3_2.index t (0 : Fin 2) = t.val ∧ win3_2.index t (1 : Fin 2) = 0 :=
    (by decide +kernel : ∀ t : Fin grid3.N, win3_2.index t (0 : Fin 2) = t.val ∧ win3_2.index t (1 : Fin 2) = 0) t
  refine ⟨t, flush3_2 t, ?_⟩
  rw [mem_blk3_2]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array after the region is the product. -/
theorem final3 (c : Dev nD) : (dat3 V c).arrAt 2 cfg3.N = G64 (V c main_v58) (V c main_arg7) :=
  (dat3 V c).arrAt_eq_of_cover 2 (G64 (V c main_v58) (V c main_arg7)) (fun t _ => flushed3_eq V c t) cover3_2

/-- Entry by entry. -/
theorem val3 (c : Dev nD) (i : S100000x64.Idx) :
    (dat3 V c).arrAt 2 cfg3.N i = G64 (V c main_v58) (V c main_arg7) i :=
  congrFun (final3 V c) i

end Cert.KernelIdeal.HandValue

end
-- ==== Proof.KIV.V4a.lean ====
/-
  Region 4, one grid point: what the body leaves in each of its buffers, as the payloads of the loaded blocks. At every
  point the pre-activation block is the loaded block plus the bias row; each of the two running rows (and the output row
  that copies it) is the row it held plus the column sums of the pre-activation block, respectively of its square; at
  the first point the rows held are the zero rows the body has just stored.
-/
import proofs.«106081_j12317966204981_2_alg».proof.Proof.KI.R4b
import proofs.«106081_j12317966204981_2_alg».proof.Proof.KIV.V1a
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz4 : (![0, 0] : Fin 2 → Nat) = fun _ => 0 := funext fun a => by fin_cases a <;> rfl

/-! ## The first point -/

section A
variable (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond4_0 i) (x0 : Vec F S10000x64 .f32) (x1 : Vec F S1x64 .f32)

theorem run4A_pre : View.canon (kernelRun4_A c i arg1 harg1 arg2 harg2 arg3 harg3 arg4 harg4 arg5 harg5 arg6 harg6 arg7 harg7 hc0 x0 x1).1 = k4_pay3 x0 x1 := by
  unfold kernelRun4_A
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, View.ld_unit_zero (S := S10000x64) hz4, View.ld_unit_zero (S := S1x64) hz4]

theorem run4A_sum : View.canon (kernelRun4_A c i arg1 harg1 arg2 harg2 arg3 harg3 arg4 harg4 arg5 harg5 arg6 harg6 arg7 harg7 hc0 x0 x1).2.1 = k4_pay4 x0 x1 (k4_pay1 (F := F)) := by
  unfold kernelRun4_A
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, View.ld_unit_zero (S := S10000x64) hz4, View.ld_unit_zero (S := S1x64) hz4]

theorem run4A_sq : View.canon (kernelRun4_A c i arg1 harg1 arg2 harg2 arg3 harg3 arg4 harg4 arg5 harg5 arg6 harg6 arg7 harg7 hc0 x0 x1).2.2.1 = k4_pay5 x0 x1 (k4_pay2 (F := F)) := by
  unfold kernelRun4_A
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, View.ld_unit_zero (S := S10000x64) hz4, View.ld_unit_zero (S := S1x64) hz4]

theorem run4A_scL : View.canon (kernelRun4_A c i arg1 harg1 arg2 harg2 arg3 harg3 arg4 harg4 arg5 harg5 arg6 harg6 arg7 harg7 hc0 x0 x1).2.2.2.1 = k4_pay4 x0 x1 (k4_pay1 (F := F)) := by
  unfold kernelRun4_A
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, View.ld_unit_zero (S := S10000x64) hz4, View.ld_unit_zero (S := S1x64) hz4]

theorem run4A_scR : View.canon (kernelRun4_A c i arg1 harg1 arg2 harg2 arg3 harg3 arg4 harg4 arg5 harg5 arg6 harg6 arg7 harg7 hc0 x0 x1).2.2.2.2.1 = k4_pay5 x0 x1 (k4_pay2 (F := F)) := by
  unfold kernelRun4_A
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, View.ld_unit_zero (S := S10000x64) hz4, View.ld_unit_zero (S := S1x64) hz4]
end A

/-! ## A later point -/

section B
variable (c : Dev nD) (i : grid4.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (x0 : Vec F S10000x64 .f32) (x1 : Vec F S1x64 .f32) (xs6 xs7 : Vec F S1x64 .f32)

theorem run4B_pre : View.canon (kernelRun4_B c i arg1 harg1 arg2 harg2 arg3 harg3 arg4 harg4 arg5 harg5 arg6 harg6 arg7 harg7 hc0 x0 x1 xs6 xs7).1 = k4_pay3 x0 x1 := by
  unfold kernelRun4_B
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, harg6.read_unread, harg7.read_unread, View.ld_unit_zero (S := S10000x64) hz4, View.ld_unit_zero (S := S1x64) hz4]

theorem run4B_sum : View.canon (kernelRun4_B c i arg1 harg1 arg2 harg2 arg3 harg3 arg4 harg4 arg5 harg5 arg6 harg6 arg7 harg7 hc0 x0 x1 xs6 xs7).2.1 = k4_pay4 x0 x1 xs6 := by
  unfold kernelRun4_B
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, harg6.read_unread, harg7.read_unread, View.ld_unit_zero (S := S10000x64) hz4, View.ld_unit_zero (S := S1x64) hz4]

theorem run4B_sq : View.canon (kernelRun4_B c i arg1 harg1 arg2 harg2 arg3 harg3 arg4 harg4 arg5 harg5 arg6 harg6 arg7 harg7 hc0 x0 x1 xs6 xs7).2.2.1 = k4_pay5 x0 x1 xs7 := by
  unfold kernelRun4_B
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, harg6.read_unread, harg7.read_unread, View.ld_unit_zero (S := S10000x64) hz4, View.ld_unit_zero (S := S1x64) hz4]

theorem run4B_scL : View.canon (kernelRun4_B c i arg1 harg1 arg2 harg2 arg3 harg3 arg4 harg4 arg5 harg5 arg6 harg6 arg7 harg7 hc0 x0 x1 xs6 xs7).2.2.2.1 = k4_pay4 x0 x1 xs6 := by
  unfold kernelRun4_B
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, harg6.read_unread, harg7.read_unread, View.ld_unit_zero (S := S10000x64) hz4, View.ld_unit_zero (S := S1x64) hz4]

theorem run4B_scR : View.canon (kernelRun4_B c i arg1 harg1 arg2 harg2 arg3 harg3 arg4 harg4 arg5 harg5 arg6 harg6 arg7 harg7 hc0 x0 x1 xs6 xs7).2.2.2.2.1 = k4_pay5 x0 x1 xs7 := by
  unfold kernelRun4_B
  dsimp only
  try sl_unfold_words
  simp only [View.canon_unit_zero (S := S10000x64) hz4, View.canon_unit_zero (S := S1x64) hz4, View.canon_cons_unit_zero (S := S1x64) hz4,
    View.readCov_unit_zero (S := S1x64) _ hz4, readCov_cons_unit_zero (S := S1x64) _ hz4,
    View.readAt_eq_ld, harg1.read_unread, harg2.read_unread, harg6.read_unread, harg7.read_unread, View.ld_unit_zero (S := S10000x64) hz4, View.ld_unit_zero (S := S1x64) hz4]
end B

end Cert.KernelIdeal.HandValue

end
-- ==== Proof.KIV.V4b.lean ====
/-
  Region 4 on the extended reals, along the grid: the two running rows after n points. With Cm the 100000 x 64 array and B
  the bias row the region finds, after n points the first row holds, in column q, the sum over the first n row blocks of
  Cm (r, q) + B (0, q), and the second the sum of its squares; after all ten points these are the sums over all 100000 rows.
  Sums on the extended reals are sums in a commutative monoid: no finiteness is used.
-/
import proofs.«106081_j12317966204981_2_alg».proof.Proof.KIV.V4a
import proofs.«106081_j12317966204981_2_alg».proof.Proof.KIV.V1b
import proofs.«106081_j12317966204981_2_alg».proof.Proof.LibBlockSum
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payloads at an index -/

/-- The zero row. -/
theorem pay4_1_apply (q : Fin 64) : (k4_pay1 (F := Ideal) : S1x64.Idx → EReal) (ix2 (0 : Fin 1) q) = 0 := by
  unfold k4_pay1
  simp only [shapeCast_self]
  rw [broadcast_apply]
  exact Ideal.ofBits_zero_f32

/-- The pre-activation block: the loaded entry plus the bias row's entry in its column. -/
theorem pay4_3_apply (x0 : Vec Ideal S10000x64 .f32) (x1 : Vec Ideal S1x64 .f32) (p : Fin 10000) (q : Fin 64) :
    k4_pay3 x0 x1 (ix2 p q) = (x0 : S10000x64.Idx → EReal) (ix2 p q) + (x1 : S1x64.Idx → EReal) (ix2 (0 : Fin 1) q) := by
  unfold k4_pay3
  rw [addf_apply]
  simp only [shapeCast_self]
  rw [broadcastTo_1b_ab_apply]

/-- The first running row after the body: the row it held plus the column sums of the pre-activation block. -/
theorem pay4_4_apply (x0 : Vec Ideal S10000x64 .f32) (x1 v : Vec Ideal S1x64 .f32) (q : Fin 64) :
    k4_pay4 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q)) := by
  unfold k4_pay4
  simp only [shapeCast_self]
  rw [addf_apply, shapeCast_a_1a_apply]
  refine congrArg (fun z => (v : S1x64.Idx → EReal) (ix2 (0 : Fin 1) q) + z) ?_
  exact (colsum_apply _ _ q).trans (Finset.sum_congr rfl fun p _ => pay4_3_apply x0 x1 p q)

/-- The second running row after the body: the row it held plus the column sums of the squared pre-activation block. -/
theorem pay4_5_apply (x0 : Vec Ideal S10000x64 .f32) (x1 v : Vec Ideal S1x64 .f32) (q : Fin 64) :
    k4_pay5 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q))
          * ((x0 : S10000x64.Idx → EReal) (ix2 p q) + (x1 : S1x64.Idx → EReal) (ix2 (0 : Fin 1) q)) := by
  unfold k4_pay5
  simp only [shapeCast_self]
  rw [addf_apply, shapeCast_a_1a_apply]
  refine congrArg (fun z => (v : S1x64.Idx → EReal) (ix2 (0 : Fin 1) q) + z) ?_
  refine (colsum_apply _ _ q).trans (Finset.sum_congr rfl fun p _ => ?_)
  rw [mulf_apply, pay4_3_apply]

/-! ## One point, whatever it is -/

/-- The pre-activation block after point t. -/
theorem pre4At_eq (c : Dev nD) (t : Fin cfg4.N) (a b : Vec Ideal S1x64 .f32) :
    pre4At V c t a b = k4_pay3 (iblk4 V c 0 t) (iblk4 V c 1 t) := by
  unfold pre4At
  split
  · exact run4A_pre ..
  · exact run4B_pre ..

/-- At the first point the rows before it are the zero row. -/
theorem scB4_first (c : Dev nD) (t : Fin cfg4.N) (hc : cond4_0 (grid4.coords t)) :
    scB4 V c t.val = (k4_pay1 (F := Ideal), k4_pay1 (F := Ideal)) := by
  have hN : cfg4.N = 10 := N_4
  have h0 : t.val = 0 := by have := (hcond4_0 t).mp hc; have := t.isLt; omega
  rw [h0]
  rfl

/-- The first running row after point t, from the rows before it. -/
theorem scL4At_eq (c : Dev nD) (t : Fin cfg4.N) :
    scL4At V c t (scB4 V c t.val).1 (scB4 V c t.val).2 = k4_pay4 (iblk4 V c 0 t) (iblk4 V c 1 t) (scB4 V c t.val).1 := by
  unfold scL4At
  split
  · next hc => rw [scB4_first V c t hc]; exact run4A_scL ..
  · exact run4B_scL ..

/-- The second running row after point t, from the rows before it. -/
theorem scR4At_eq (c : Dev nD) (t : Fin cfg4.N) :
    scR4At V c t (scB4 V c t.val).1 (scB4 V c t.val).2 = k4_pay5 (iblk4 V c 0 t) (iblk4 V c 1 t) (scB4 V c t.val).2 := by
  unfold scR4At
  split
  · next hc => rw [scB4_first V c t hc]; exact run4A_scR ..
  · exact run4B_scR ..

/-- The first output row after point t is the first running row after it. -/
theorem sum4At_eq (c : Dev nD) (t : Fin cfg4.N) :
    sum4At V c t (scB4 V c t.val).1 (scB4 V c t.val).2 = (scB4 V c (t.val + 1)).1 := by
  rw [scB4_succ, scL4At_eq]
  unfold sum4At
  split
  · next hc => rw [scB4_first V c t hc]; exact run4A_sum ..
  · exact run4B_sum ..

/-- The second output row after point t is the second running row after it. -/
theorem sq4At_eq (c : Dev nD) (t : Fin cfg4.N) :
    sq4At V c t (scB4 V c t.val).1 (scB4 V c t.val).2 = (scB4 V c (t.val + 1)).2 := by
  rw [scB4_succ, scR4At_eq]
  unfold sq4At
  split
  · next hc => rw [scB4_first V c t hc]; exact run4A_sq ..
  · exact run4B_sq ..

/-! ## The loaded blocks as parts of the arrays -/

/-- The loaded block of window 0 at point t is rows 10000 t .. 10000 t + 9999 of its array. -/
theorem rd4_0 (c : Dev nD) (t : Fin cfg4.N) (p : Fin 10000) (q : Fin 64) (r : Fin 100000) (hr : r.val = t.val * 10000 + p.val) :
    (iblk4 V c 0 t : S10000x64.Idx → EReal) (ix2 p q) = (V c main_v74 : S100000x64.Idx → EReal) (ix2 r q) := by
  obtain ⟨e0, e1⟩ : win4_0.index t (0 : Fin 2) = t.val ∧ win4_0.index t (1 : Fin 2) = 0 :=
    (by decide +kernel : ∀ t : Fin grid4.N, win4_0.index t (0 : Fin 2) = t.val ∧ win4_0.index t (1 : Fin 2) = 0) t
  unfold iblk4
  rw [View.read_apply]
  show V c main_v74 _ = V c main_v74 _
  congr 1
  funext a
  apply Fin.ext
  match a with
  | ⟨0, _⟩ => show win4_0.index t (0 : Fin 2) * 10000 + 1 * p.val = r.val; omega
  | ⟨1, _⟩ => show win4_0.index t (1 : Fin 2) * 64 + 1 * q.val = q.val; omega

/-- The loaded block of window 1 is the whole one-row array. -/
theorem rd4_1 (c : Dev nD) (t : Fin cfg4.N) (q : Fin 64) :
    (iblk4 V c 1 t : S1x64.Idx → EReal) (ix2 (0 : Fin 1) q) = (V c main_v75 : S1x64.Idx → EReal) (ix2 (0 : Fin 1) q) := by
  obtain ⟨e0, e1⟩ : win4_1.index t (0 : Fin 2) = 0 ∧ win4_1.index t (1 : Fin 2) = 0 :=
    (by decide +kernel : ∀ t : Fin grid4.N, win4_1.index t (0 : Fin 2) = 0 ∧ win4_1.index t (1 : Fin 2) = 0) t
  unfold iblk4
  rw [View.read_apply]
  show V c main_v75 _ = V c main_v75 _
  congr 1
  funext a
  apply Fin.ext
  match a with
  | ⟨0, _⟩ => show win4_1.index t (0 : Fin 2) * 1 + 1 * 0 = 0; omega
  | ⟨1, _⟩ => show win4_1.index t (1 : Fin 2) * 64 + 1 * q.val = q.val; omega

/-! ## The running rows after n points -/

/-- The two running rows before point n, in column q: the first n blocks' sums. -/
theorem scB4_apply (c : Dev nD) (q : Fin 64) : ∀ n : ℕ, n ≤ 10 →
    ((scB4 V c n).1 : S1x64.Idx → EReal) (ix2 (0 : Fin 1) q) = ∑ s ∈ Finset.range n, blk1 (pre1 (V c main_v74) (V c main_v75) q) s
    ∧ ((scB4 V c n).2 : S1x64.Idx → EReal) (ix2 (0 : Fin 1) q)
        = ∑ s ∈ Finset.range n, blk1 (fun r => pre1 (V c main_v74) (V c main_v75) q r * pre1 (V c main_v74) (V c main_v75) q r) s
  | 0, _ => by
    rw [Finset.sum_range_zero, Finset.sum_range_zero]
    exact ⟨pay4_1_apply q, pay4_1_apply q⟩
  | n + 1, hn => by
    have hN : cfg4.N = 10 := N_4
    have h : n < cfg4.N := by rw [hN]; omega
    obtain ⟨ih1, ih2⟩ := scB4_apply c q n (by omega)
    have e := scB4_succ V c ⟨n, h⟩
    have hb := pre1_blk (iblk4 V c 0 ⟨n, h⟩) (iblk4 V c 1 ⟨n, h⟩) (V c main_v74) (V c main_v75) n (rd4_0 V c ⟨n, h⟩) (rd4_1 V c ⟨n, h⟩) q ⟨n, by omega⟩ rfl
    rw [show scB4 V c (n + 1) = _ from e, Finset.sum_range_succ, Finset.sum_range_succ]
    constructor
    · show (scL4At V c ⟨n, h⟩ (scB4 V c n).1 (scB4 V c n).2 : S1x64.Idx → EReal) (ix2 (0 : Fin 1) q) = _
      rw [show scL4At V c ⟨n, h⟩ (scB4 V c n).1 (scB4 V c n).2 = _ from scL4At_eq V c ⟨n, h⟩, pay4_4_apply]
      show ((scB4 V c n).1 : S1x64.Idx → EReal) (ix2 (0 : Fin 1) q) + _ = _
      rw [ih1]
      refine congrArg (fun z => _ + z) ?_
      unfold blk1
      rw [dif_pos (by omega : n < 10)]
      exact Finset.sum_congr rfl fun p _ => hb p
    · show (scR4At V c ⟨n, h⟩ (scB4 V c n).1 (scB4 V c n).2 : S1x64.Idx → EReal) (ix2 (0 : Fin 1) q) = _
      rw [show scR4At V c ⟨n, h⟩ (scB4 V c n).1 (scB4 V c n).2 = _ from scR4At_eq V c ⟨n, h⟩, pay4_5_apply]
      show ((scB4 V c n).2 : S1x64.Idx → EReal) (ix2 (0 : Fin 1) q) + _ = _
      rw [ih2]
      refine congrArg (fun z => _ + z) ?_
      unfold blk1
      rw [dif_pos (by omega : n < 10)]
      exact Finset.sum_congr rfl fun p _ => congrArg (fun z : EReal => z * z) (hb p)

/-- After all ten points: the sums over all 100000 rows. -/
theorem scB4_last (c : Dev nD) (q : Fin 64) :
    ((scB4 V c 10).1 : S1x64.Idx → EReal) (ix2 (0 : Fin 1) q) = ∑ r : Fin 100000, pre1 (V c main_v74) (V c main_v75) q r
    ∧ ((scB4 V c 10).2 : S1x64.Idx → EReal) (ix2 (0 : Fin 1) q)
        = ∑ r : Fin 100000, pre1 (V c main_v74) (V c main_v75) q r * pre1 (V c main_v74) (V c main_v75) q r := by
  obtain ⟨h1, h2⟩ := scB4_apply V c q 10 (le_refl _)
  rw [h1, h2, sum_blk1, sum_blk1]
  exact ⟨rfl, rfl⟩

end Cert.KernelIdeal.HandValue

end
-- ==== Proof.KIV.V4.lean ====
/-
  Region 4 on the extended reals: its three output arrays after the region, index by index. With Cm the 100000 x 64 array
  and B the bias row the region finds: the pre-activation array holds Cm (r, j) + B (0, j); the first output row holds, in
  column j, the sum over all 100000 rows r of Cm (r, j) + B (0, j); the second the sum of the squares of the same terms.
  The pre-activation array is written block by block; the two rows are written back once, after the last point.
-/
import proofs.«106081_j12317966204981_2_alg».proof.Proof.KI.R4b
import proofs.«106081_j12317966204981_2_alg».proof.Proof.KIV.V4b
import proofs.«106081_j12317966204981_2_alg».proof.Proof.KIV.V1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4' : (![0, 0] : Fin 2 → Nat) = fun _ => 0 := funext fun a => by fin_cases a <;> rfl

/-! ## The pre-activation array, block by block -/

/-- The pre-activation block when the loaded block is rows n * 10000 .. n * 10000 + 9999 of an array Cm and the loaded
    row the whole of a one-row array B: at block index y it is the array's entry at the index i that y sits at. -/
theorem blk4p_apply (x0 : Vec Ideal S10000x64 .f32) (x1 : Vec Ideal S1x64 .f32)
    (Cm : S100000x64.Idx → EReal) (B : S1x64.Idx → EReal) (n : ℕ)
    (h0 : ∀ (p : Fin 10000) (q : Fin 64) (r : Fin 100000), r.val = n * 10000 + p.val → x0 (ix2 p q) = Cm (ix2 r q))
    (h1 : ∀ q : Fin 64, x1 (ix2 (0 : Fin 1) q) = B (ix2 (0 : Fin 1) q))
    (y : S10000x64.Idx) (i : S100000x64.Idx) (hr : (i 0).val = n * 10000 + (y 0).val) (hj : (i 1).val = (y 1).val) :
    k4_pay3 x0 x1 y = G1p Cm B i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = Cm (ix2 r j) + B (ix2 (0 : Fin 1) j)
  rw [pay4_3_apply, h0 p j r hr, h1 j]

/-- What point t writes back to the pre-activation array is block t of it. -/
theorem flushed4_2_eq (c : Dev nD) (t : Fin cfg4.N) :
    (dat4 V c).flushed 2 t = ((cfg4.win 2).blk t).view.read (Elt Ideal) (G1p (V c main_v74) (V c main_v75)) := by
  show (cfg4.win 2).cut (grid4.coords t) ((dat4 V c).after 2 t) = _
  rw [after4_2, pre4At_eq]
  obtain ⟨e0, e1⟩ : win4_2.index t (0 : Fin 2) = t.val ∧ win4_2.index t (1 : Fin 2) = 0 :=
    (by decide +kernel : ∀ t : Fin grid4.N, win4_2.index t (0 : Fin 2) = t.val ∧ win4_2.index t (1 : Fin 2) = 0) t
  funext y
  show k4_pay3 (iblk4 V c 0 t) (iblk4 V c 1 t) y = G1p (V c main_v74) (V c main_v75) (((cfg4.win 2).blk t).view.emb y)
  refine blk4p_apply (iblk4 V c 0 t) (iblk4 V c 1 t) (V c main_v74) (V c main_v75) t.val (rd4_0 V c t) (rd4_1 V c t) y _ ?_ ?_
  · show win4_2.index t (0 : Fin 2) * 10000 + 1 * (y 0).val = t.val * 10000 + (y 0).val; omega
  · show win4_2.index t (1 : Fin 2) * 64 + 1 * (y 1).val = (y 1).val; omega

/-- An index of the array is in point t's block iff each coordinate is in the block's range on its axis. -/
theorem mem_blk4_2 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v76_0).slice (win4_2.rect t)).set ↔ _
  rw [View.set_slice_whole, Rect.mem_set_unit]
  exact Iff.rfl

/-- Every index of the array is in some point's block: row r is in block r / 10000. -/
theorem cover4_2 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1⟩ : win4_2.index t (0 : Fin 2) = t.val ∧ win4_2.index t (1 : Fin 2) = 0 :=
    (by decide +kernel : ∀ t : Fin grid4.N, win4_2.index t (0 : Fin 2) = t.val ∧ win4_2.index t (1 : Fin 2) = 0) t
  refine ⟨t, flush4_2 t, ?_⟩
  rw [mem_blk4_2]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The pre-activation array after the region. -/
theorem final4_2 (c : Dev nD) : (dat4 V c).arrAt 2 cfg4.N = G1p (V c main_v74) (V c main_v75) :=
  (dat4 V c).arrAt_eq_of_cover 2 (G1p (V c main_v74) (V c main_v75)) (fun t _ => flushed4_2_eq V c t) cover4_2

/-! ## The two rows, written back once -/

set_option maxRecDepth 131072 in
/-- What the last point writes back to output row 3 is the whole of that row. -/
theorem flushed4_3_eq (c : Dev nD) (t : Fin cfg4.N) (hf : (cfg4.win 3).flush t = true) :
    (dat4 V c).flushed 3 t = ((cfg4.win 3).blk t).view.read (Elt Ideal) (G1s (V c main_v74) (V c main_v75)) := by
  have hN : cfg4.N = 10 := N_4
  have h9 : t.val + 1 = 10 := by have := (flush4_3 t).mp hf; have := t.isLt; omega
  show (cfg4.win 3).cut (grid4.coords t) ((dat4 V c).after 3 t) = _
  rw [after4_3, sum4At_eq, h9]
  have hrow : ∀ q : Fin 64, ((scB4 V c 10).1 : S1x64.Idx → EReal) (ix2 (0 : Fin 1) q)
      = G1s (V c main_v74) (V c main_v75) (ix2 (0 : Fin 1) q) := fun q => (scB4_last V c q).1
  generalize (scB4 V c 10).1 = row at hrow ⊢
  obtain ⟨e0, e1⟩ : win4_3.index t (0 : Fin 2) = 0 ∧ win4_3.index t (1 : Fin 2) = 0 :=
    (by decide +kernel : ∀ t : Fin grid4.N, win4_3.index t (0 : Fin 2) = 0 ∧ win4_3.index t (1 : Fin 2) = 0) t
  funext y
  show (row : S1x64.Idx → EReal) y = G1s (V c main_v74) (V c main_v75) (((cfg4.win 3).blk t).view.emb y)
  refine row64_apply _ _ hrow y _ ?_
  show win4_3.index t (1 : Fin 2) * 64 + 1 * (y 1).val = (y 1).val; omega

/-- An index of the row is in point t's block iff each coordinate is in the block's range on its axis. -/
theorem mem_blk4_3 (t : Fin cfg4.N) (i : S1x64.Idx) :
    i ∈ ((cfg4.win 3).blk t).view.set ↔ ∀ a : Fin 2, win4_3.index t a * S1x64.size a ≤ (i a).val ∧ (i a).val < win4_3.index t a * S1x64.size a + S1x64.size a := by
  show i ∈ ((View.whole main_v76_1).slice (win4_3.rect t)).set ↔ _
  rw [View.set_slice_whole, Rect.mem_set_unit]
  exact Iff.rfl

/-- Every index of the row is in the last point's block, the one that is written back. -/
theorem cover4_3 (i : S1x64.Idx) : ∃ t : Fin cfg4.N, (cfg4.win 3).flush t = true ∧ i ∈ ((cfg4.win 3).blk t).view.set := by
  have hi0 : (i 0).val < 1 := (i 0).isLt
  have hi1 : (i 1).val < 64 := (i 1).isLt
  have hN : cfg4.N = 10 := N_4
  obtain ⟨t, ht⟩ : ∃ t : Fin cfg4.N, t.val = 9 := ⟨⟨9, by rw [hN]; omega⟩, rfl⟩
  obtain ⟨e0, e1⟩ : win4_3.index t (0 : Fin 2) = 0 ∧ win4_3.index t (1 : Fin 2) = 0 :=
    (by decide +kernel : ∀ t : Fin grid4.N, win4_3.index t (0 : Fin 2) = 0 ∧ win4_3.index t (1 : Fin 2) = 0) t
  refine ⟨t, (flush4_3 t).mpr (by omega), ?_⟩
  rw [mem_blk4_3]
  intro a
  match a with
  | ⟨0, _⟩ => show win4_3.index t (0 : Fin 2) * 1 ≤ (i 0).val ∧ (i 0).val < win4_3.index t (0 : Fin 2) * 1 + 1; omega
  | ⟨1, _⟩ => show win4_3.index t (1 : Fin 2) * 64 ≤ (i 1).val ∧ (i 1).val < win4_3.index t (1 : Fin 2) * 64 + 64; omega

/-- The row of column sums after the region. -/
theorem final4_3 (c : Dev nD) : (dat4 V c).arrAt 3 cfg4.N = G1s (V c main_v74) (V c main_v75) :=
  (dat4 V c).arrAt_eq_of_cover 3 (G1s (V c main_v74) (V c main_v75)) (fun t hf => flushed4_3_eq V c t hf) cover4_3

set_option maxRecDepth 131072 in
/-- What the last point writes back to output row 4 is the whole of that row. -/
theorem flushed4_4_eq (c : Dev nD) (t : Fin cfg4.N) (hf : (cfg4.win 4).flush t = true) :
    (dat4 V c).flushed 4 t = ((cfg4.win 4).blk t).view.read (Elt Ideal) (G1q (V c main_v74) (V c main_v75)) := by
  have hN : cfg4.N = 10 := N_4
  have h9 : t.val + 1 = 10 := by have := (flush4_4 t).mp hf; have := t.isLt; omega
  show (cfg4.win 4).cut (grid4.coords t) ((dat4 V c).after 4 t) = _
  rw [after4_4, sq4At_eq, h9]
  have hrow : ∀ q : Fin 64, ((scB4 V c 10).2 : S1x64.Idx → EReal) (ix2 (0 : Fin 1) q)
      = G1q (V c main_v74) (V c main_v75) (ix2 (0 : Fin 1) q) := fun q => (scB4_last V c q).2
  generalize (scB4 V c 10).2 = row at hrow ⊢
  obtain ⟨e0, e1⟩ : win4_4.index t (0 : Fin 2) = 0 ∧ win4_4.index t (1 : Fin 2) = 0 :=
    (by decide +kernel : ∀ t : Fin grid4.N, win4_4.index t (0 : Fin 2) = 0 ∧ win4_4.index t (1 : Fin 2) = 0) t
  funext y
  show (row : S1x64.Idx → EReal) y = G1q (V c main_v74) (V c main_v75) (((cfg4.win 4).blk t).view.emb y)
  refine row64_apply _ _ hrow y _ ?_
  show win4_4.index t (1 : Fin 2) * 64 + 1 * (y 1).val = (y 1).val; omega

/-- An index of the row is in point t's block iff each coordinate is in the block's range on its axis. -/
theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v76_2).slice (win4_4.rect t)).set ↔ _
  rw [View.set_slice_whole, Rect.mem_set_unit]
  exact Iff.rfl

/-- Every index of the row is in the last point's block, the one that is written back. -/
theorem cover4_4 (i : S1x64.Idx) : ∃ t : Fin cfg4.N, (cfg4.win 4).flush t = true ∧ i ∈ ((cfg4.win 4).blk t).view.set := by
  have hi0 : (i 0).val < 1 := (i 0).isLt
  have hi1 : (i 1).val < 64 := (i 1).isLt
  have hN : cfg4.N = 10 := N_4
  obtain ⟨t, ht⟩ : ∃ t : Fin cfg4.N, t.val = 9 := ⟨⟨9, by rw [hN]; omega⟩, rfl⟩
  obtain ⟨e0, e1⟩ : win4_4.index t (0 : Fin 2) = 0 ∧ win4_4.index t (1 : Fin 2) = 0 :=
    (by decide +kernel : ∀ t : Fin grid4.N, win4_4.index t (0 : Fin 2) = 0 ∧ win4_4.index t (1 : Fin 2) = 0) t
  refine ⟨t, (flush4_4 t).mpr (by omega), ?_⟩
  rw [mem_blk4_4]
  intro a
  match a with
  | ⟨0, _⟩ => show win4_4.index t (0 : Fin 2) * 1 ≤ (i 0).val ∧ (i 0).val < win4_4.index t (0 : Fin 2) * 1 + 1; omega
  | ⟨1, _⟩ => show win4_4.index t (1 : Fin 2) * 64 ≤ (i 1).val ∧ (i 1).val < win4_4.index t (1 : Fin 2) * 64 + 64; omega

/-- The row of column sums of squares after the region. -/
theorem final4_4 (c : Dev nD) : (dat4 V c).arrAt 4 cfg4.N = G1q (V c main_v74) (V c main_v75) :=
  (dat4 V c).arrAt_eq_of_cover 4 (G1q (V c main_v74) (V c main_v75)) (fun t hf => flushed4_4_eq V c t hf) cover4_4

/-- Entry by entry. -/
theorem val4_2 (c : Dev nD) (i : S100000x64.Idx) : (dat4 V c).arrAt 2 cfg4.N i = G1p (V c main_v74) (V c main_v75) i :=
  congrFun (final4_2 V c) i
theorem val4_3 (c : Dev nD) (j : Fin 64) : (dat4 V c).arrAt 3 cfg4.N (ix2 (0 : Fin 1) j) = G1s (V c main_v74) (V c main_v75) (ix2 (0 : Fin 1) j) :=
  congrFun (final4_3 V c) _
theorem val4_4 (c : Dev nD) (j : Fin 64) : (dat4 V c).arrAt 4 cfg4.N (ix2 (0 : Fin 1) j) = G1q (V c main_v74) (V c main_v75) (ix2 (0 : Fin 1) j) :=
  congrFun (final4_4 V c) _

end Cert.KernelIdeal.HandValue

end
-- ==== Proof.KIV.V5.lean ====
/-
  Region 5 on the extended reals: the same body as region 2 on this region's arrays. Entry (r, j) of the output array is
  max (((P (r, j) - Mn (0, j)) * Rs (0, j)) * G (0, j) + Bt (0, j)) 0. Point t of the grid holds rows 10000 t .. 10000 t + 9999.
-/
import proofs.«106081_j12317966204981_2_alg».proof.Proof.KI.R5
import proofs.«106081_j12317966204981_2_alg».proof.Proof.KIV.V2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-! ## The body's value at a block index -/

/-- The body's payload at entry (p, q) of the block. -/
theorem pay5_apply (x0 : Vec Ideal S10000x64 .f32) (x1 x2 x3 x4 : Vec Ideal S1x64 .f32) (p : Fin 10000) (q : Fin 64) :
    k5_pay1 x0 x1 x2 x3 x4 (ix2 p q)
      = max (((x0 : S10000x64.Idx → EReal) (ix2 p q) - (x1 : S1x64.Idx → EReal) (ix2 (0 : Fin 1) q)) * (x2 : S1x64.Idx → EReal) (ix2 (0 : Fin 1) q)
          * (x3 : S1x64.Idx → EReal) (ix2 (0 : Fin 1) q) + (x4 : S1x64.Idx → EReal) (ix2 (0 : Fin 1) q)) 0 := by
  unfold k5_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The payload when the loaded block is rows n * 10000 .. n * 10000 + 9999 of an array P and the four loaded rows are
    the whole of four one-row arrays: at block index y it is the array's entry at the index i that y sits at. -/
theorem blk5_apply (x0 : Vec Ideal S10000x64 .f32) (x1 x2 x3 x4 : Vec Ideal S1x64 .f32)
    (P : S100000x64.Idx → EReal) (Mn Rs Gm Bt : S1x64.Idx → EReal) (n : ℕ)
    (h0 : ∀ (p : Fin 10000) (q : Fin 64) (r : Fin 100000), r.val = n * 10000 + p.val → x0 (ix2 p q) = P (ix2 r q))
    (h1 : ∀ q : Fin 64, x1 (ix2 (0 : Fin 1) q) = Mn (ix2 (0 : Fin 1) q)) (h2 : ∀ q : Fin 64, x2 (ix2 (0 : Fin 1) q) = Rs (ix2 (0 : Fin 1) q))
    (h3 : ∀ q : Fin 64, x3 (ix2 (0 : Fin 1) q) = Gm (ix2 (0 : Fin 1) q)) (h4 : ∀ q : Fin 64, x4 (ix2 (0 : Fin 1) q) = Bt (ix2 (0 : Fin 1) q))
    (y : S10000x64.Idx) (i : S100000x64.Idx) (hr : (i 0).val = n * 10000 + (y 0).val) (hj : (i 1).val = (y 1).val) :
    k5_pay1 x0 x1 x2 x3 x4 y = G2 P Mn Rs Gm Bt i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = max ((P (ix2 r j) - Mn (ix2 (0 : Fin 1) j)) * Rs (ix2 (0 : Fin 1) j) * Gm (ix2 (0 : Fin 1) j) + Bt (ix2 (0 : Fin 1) j)) 0
  rw [pay5_apply, h0 p j r hr, h1 j, h2 j, h3 j, h4 j]

/-! ## The loaded blocks as parts of the arrays -/

/-- The loaded block of window 0 at point t is rows 10000 t .. 10000 t + 9999 of its array. -/
theorem rd5_0 (c : Dev nD) (t : Fin cfg5.N) (p : Fin 10000) (q : Fin 64) (r : Fin 100000) (hr : r.val = t.val * 10000 + p.val) :
    (iblk5 V c 0 t : S10000x64.Idx → EReal) (ix2 p q) = (V c main_v76_0 : S100000x64.Idx → EReal) (ix2 r q) := by
  obtain ⟨e0, e1⟩ : win5_0.index t (0 : Fin 2) = t.val ∧ win5_0.index t (1 : Fin 2) = 0 :=
    (by decide +kernel : ∀ t : Fin grid5.N, win5_0.index t (0 : Fin 2) = t.val ∧ win5_0.index t (1 : Fin 2) = 0) t
  unfold iblk5
  rw [View.read_apply]
  show V c main_v76_0 _ = V c main_v76_0 _
  congr 1
  funext a
  apply Fin.ext
  match a with
  | ⟨0, _⟩ => show win5_0.index t (0 : Fin 2) * 10000 + 1 * p.val = r.val; omega
  | ⟨1, _⟩ => show win5_0.index t (1 : Fin 2) * 64 + 1 * q.val = q.val; omega

/-- The loaded block of window 1 is the whole one-row array. -/
theorem rd5_1 (c : Dev nD) (t : Fin cfg5.N) (q : Fin 64) :
    (iblk5 V c 1 t : S1x64.Idx → EReal) (ix2 (0 : Fin 1) q) = (V c main_v78 : S1x64.Idx → EReal) (ix2 (0 : Fin 1) q) := by
  obtain ⟨e0, e1⟩ : win5_1.index t (0 : Fin 2) = 0 ∧ win5_1.index t (1 : Fin 2) = 0 :=
    (by decide +kernel : ∀ t : Fin grid5.N, win5_1.index t (0 : Fin 2) = 0 ∧ win5_1.index t (1 : Fin 2) = 0) t
  unfold iblk5
  rw [View.read_apply]
  show V c main_v78 _ = V c main_v78 _
  congr 1
  funext a
  apply Fin.ext
  match a with
  | ⟨0, _⟩ => show win5_1.index t (0 : Fin 2) * 1 + 1 * 0 = 0; omega
  | ⟨1, _⟩ => show win5_1.index t (1 : Fin 2) * 64 + 1 * q.val = q.val; omega

/-- The loaded block of window 2 is the whole one-row array. -/
theorem rd5_2 (c : Dev nD) (t : Fin cfg5.N) (q : Fin 64) :
    (iblk5 V c 2 t : S1x64.Idx → EReal) (ix2 (0 : Fin 1) q) = (V c main_v85 : S1x64.Idx → EReal) (ix2 (0 : Fin 1) q) := by
  obtain ⟨e0, e1⟩ : win5_2.index t (0 : Fin 2) = 0 ∧ win5_2.index t (1 : Fin 2) = 0 :=
    (by decide +kernel : ∀ t : Fin grid5.N, win5_2.index t (0 : Fin 2) = 0 ∧ win5_2.index t (1 : Fin 2) = 0) t
  unfold iblk5
  rw [View.read_apply]
  show V c main_v85 _ = V c main_v85 _
  congr 1
  funext a
  apply Fin.ext
  match a with
  | ⟨0, _⟩ => show win5_2.index t (0 : Fin 2) * 1 + 1 * 0 = 0; omega
  | ⟨1, _⟩ => show win5_2.index t (1 : Fin 2) * 64 + 1 * q.val = q.val; omega

/-- The loaded block of window 3 is the whole one-row array. -/
theorem rd5_3 (c : Dev nD) (t : Fin cfg5.N) (q : Fin 64) :
    (iblk5 V c 3 t : S1x64.Idx → EReal) (ix2 (0 : Fin 1) q) = (V c main_v86 : S1x64.Idx → EReal) (ix2 (0 : Fin 1) q) := by
  obtain ⟨e0, e1⟩ : win5_3.index t (0 : Fin 2) = 0 ∧ win5_3.index t (1 : Fin 2) = 0 :=
    (by decide +kernel : ∀ t : Fin grid5.N, win5_3.index t (0 : Fin 2) = 0 ∧ win5_3.index t (1 : Fin 2) = 0) t
  unfold iblk5
  rw [View.read_apply]
  show V c main_v86 _ = V c main_v86 _
  congr 1
  funext a
  apply Fin.ext
  match a with
  | ⟨0, _⟩ => show win5_3.index t (0 : Fin 2) * 1 + 1 * 0 = 0; omega
  | ⟨1, _⟩ => show win5_3.index t (1 : Fin 2) * 64 + 1 * q.val = q.val; omega

/-- The loaded block of window 4 is the whole one-row array. -/
theorem rd5_4 (c : Dev nD) (t : Fin cfg5.N) (q : Fin 64) :
    (iblk5 V c 4 t : S1x64.Idx → EReal) (ix2 (0 : Fin 1) q) = (V c main_v87 : S1x64.Idx → EReal) (ix2 (0 : Fin 1) q) := by
  obtain ⟨e0, e1⟩ : win5_4.index t (0 : Fin 2) = 0 ∧ win5_4.index t (1 : Fin 2) = 0 :=
    (by decide +kernel : ∀ t : Fin grid5.N, win5_4.index t (0 : Fin 2) = 0 ∧ win5_4.index t (1 : Fin 2) = 0) t
  unfold iblk5
  rw [View.read_apply]
  show V c main_v87 _ = V c main_v87 _
  congr 1
  funext a
  apply Fin.ext
  match a with
  | ⟨0, _⟩ => show win5_4.index t (0 : Fin 2) * 1 + 1 * 0 = 0; omega
  | ⟨1, _⟩ => show win5_4.index t (1 : Fin 2) * 64 + 1 * q.val = q.val; omega

/-! ## From the blocks to the array -/

/-- What point t writes back is block t of that array of the arrays as the region finds them. -/
theorem flushed5_eq (c : Dev nD) (t : Fin cfg5.N) :
    (dat5 V c).flushed 5 t = ((cfg5.win 5).blk t).view.read (Elt Ideal)
      (G2 (V c main_v76_0) (V c main_v78) (V c main_v85) (V c main_v86) (V c main_v87)) := by
  show (cfg5.win 5).cut (grid5.coords t) ((dat5 V c).after 5 t) = _
  rw [after5_5]
  unfold out5_5
  rw [View.canon_unit_zero hz5]
  simp only [View.ld_unit_zero (S := S10000x64) hz5, View.ld_unit_zero (S := S1x64) hz5]
  obtain ⟨e0, e1⟩ : win5_5.index t (0 : Fin 2) = t.val ∧ win5_5.index t (1 : Fin 2) = 0 :=
    (by decide +kernel : ∀ t : Fin grid5.N, win5_5.index t (0 : Fin 2) = t.val ∧ win5_5.index t (1 : Fin 2) = 0) t
  funext y
  show k5_pay1 (iblk5 V c 0 t) (iblk5 V c 1 t) (iblk5 V c 2 t) (iblk5 V c 3 t) (iblk5 V c 4 t) y
    = G2 (V c main_v76_0) (V c main_v78) (V c main_v85) (V c main_v86) (V c main_v87) (((cfg5.win 5).blk t).view.emb y)
  refine blk5_apply (iblk5 V c 0 t) (iblk5 V c 1 t) (iblk5 V c 2 t) (iblk5 V c 3 t) (iblk5 V c 4 t)
    (V c main_v76_0) (V c main_v78) (V c main_v85) (V c main_v86) (V c main_v87) t.val
    (rd5_0 V c t) (rd5_1 V c t) (rd5_2 V c t) (rd5_3 V c t) (rd5_4 V c t) y _ ?_ ?_
  · show win5_5.index t (0 : Fin 2) * 10000 + 1 * (y 0).val = t.val * 10000 + (y 0).val; omega
  · show win5_5.index t (1 : Fin 2) * 64 + 1 * (y 1).val = (y 1).val; omega

/-- An index of the array is in point t's block iff each coordinate is in the block's range on its axis. -/
theorem mem_blk5_5 (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v88).slice (win5_5.rect t)).set ↔ _
  rw [View.set_slice_whole, Rect.mem_set_unit]
  exact Iff.rfl

/-- Every index of the array is in some point's block: row r is in block r / 10000. -/
theorem cover5_5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1⟩ : win5_5.index t (0 : Fin 2) = t.val ∧ win5_5.index t (1 : Fin 2) = 0 :=
    (by decide +kernel : ∀ t : Fin grid5.N, win5_5.index t (0 : Fin 2) = t.val ∧ win5_5.index t (1 : Fin 2) = 0) t
  refine ⟨t, flush5_5 t, ?_⟩
  rw [mem_blk5_5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- The array after the region. -/
theorem final5 (c : Dev nD) : (dat5 V c).arrAt 5 cfg5.N = G2 (V c main_v76_0) (V c main_v78) (V c main_v85) (V c main_v86) (V c main_v87) :=
  (dat5 V c).arrAt_eq_of_cover 5 (G2 (V c main_v76_0) (V c main_v78) (V c main_v85) (V c main_v86) (V c main_v87))
    (fun t _ => flushed5_eq V c t) cover5_5

/-- Entry by entry. -/
theorem val5 (c : Dev nD) (i : S100000x64.Idx) :
    (dat5 V c).arrAt 5 cfg5.N i = G2 (V c main_v76_0) (V c main_v78) (V c main_v85) (V c main_v86) (V c main_v87) i :=
  congrFun (final5 V c) i

end Cert.KernelIdeal.HandValue

end
-- ==== Proof.KI.Chain2.lean ====
/-
  The kernel program's result, read through the fold of its segments (layer 2).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Fold
import proofs.«106081_j12317966204981_2_alg».proof.Proof.KI.Sem
import proofs.«106081_j12317966204981_2_alg».proof.Proof.KIH.Stages
import proofs.«106081_j12317966204981_2_alg».proof.Proof.KIV.V3
import proofs.«106081_j12317966204981_2_alg».proof.Proof.KIV.V4
import proofs.«106081_j12317966204981_2_alg».proof.Proof.KIV.V5
import proofs.«106081_j12317966204981_2_alg».proof.Proof.KI.ChainAgg

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

variable (m : (ℓ : Loc nD τ sig) → Buf (Elt Ideal) ℓ) (c : Dev nD)

/-- Layer 2: what the normalise-and-clamp region leaves, as the kernel's layer function of the layer's input and
    parameters. -/
theorem layer2_out : W11 m c (Proc.devRef .tc main_v88)
    = layerK G64 G1p G1s G1q (aggK (W0 m c (Proc.devRef .tc main_arg1))) (W6 m c (Proc.devRef .tc main_v58)) (W0 m c (Proc.devRef .tc main_arg7)) (W0 m c (Proc.devRef .tc main_arg8)) (W0 m c (Proc.devRef .tc main_arg9)) (W0 m c (Proc.devRef .tc main_arg10)) := by
  -- the projection
  have hH : W7 m c (Proc.devRef .tc main_v59) = G64 (W6 m c (Proc.devRef .tc main_v58)) (W0 m c (Proc.devRef .tc main_arg7)) := by
    have h := (hF3 m c 2).symm.trans (final3 (VT6 m) c)
    have e1 : VT6 m c main_v58 = (W6 m c (Proc.devRef .tc main_v58)) := rfl
    have e2 : VT6 m c main_arg7 = (W0 m c (Proc.devRef .tc main_arg7)) := (W6_keep m c main_arg7 (by decide)).trans ((W5_keep m c main_arg7 (by decide)).trans ((W4_keep m c main_arg7 (by decide)).trans ((W3_keep m c main_arg7 (by decide)).trans ((W2_keep m c main_arg7 (by decide)).trans ((W1_keep m c main_arg7 (by decide)))))))
    rw [e1, e2] at h
    exact h
  -- the shared index vectors and coefficients
  have hs_main_v1 : W7 m c (Proc.devRef .tc main_v1) = kSrc (W0 m c (Proc.devRef .tc main_arg1)) :=
    ((W7_keep m c main_v1 (by decide)).trans ((W6_keep m c main_v1 (by decide)).trans ((W5_keep m c main_v1 (by decide)).trans ((W4_keep m c main_v1 (by decide)).trans ((W3_keep m c main_v1 (by decide)).trans ((W2_keep m c main_v1 (by decide)))))))).trans (stage0_v1 (W0 m c))
  have hs_main_v3 : W7 m c (Proc.devRef .tc main_v3) = kDst (W0 m c (Proc.devRef .tc main_arg1)) :=
    ((W7_keep m c main_v3 (by decide)).trans ((W6_keep m c main_v3 (by decide)).trans ((W5_keep m c main_v3 (by decide)).trans ((W4_keep m c main_v3 (by decide)).trans ((W3_keep m c main_v3 (by decide)).trans ((W2_keep m c main_v3 (by decide)))))))).trans (stage0_v3 (W0 m c))
  have hs_main_v26 : W7 m c (Proc.devRef .tc main_v26) = kCoef (F := Ideal) (W0 m c (Proc.devRef .tc main_arg1)) :=
    ((W7_keep m c main_v26 (by decide)).trans ((W6_keep m c main_v26 (by decide)).trans ((W5_keep m c main_v26 (by decide)).trans ((W4_keep m c main_v26 (by decide)).trans ((W3_keep m c main_v26 (by decide)).trans ((W2_keep m c main_v26 (by decide)))))))).trans (stage0_v26 (W0 m c))
  have hs_main_v28 : W7 m c (Proc.devRef .tc main_v28) = kSelf (F := Ideal) (W0 m c (Proc.devRef .tc main_arg1)) :=
    ((W7_keep m c main_v28 (by decide)).trans ((W6_keep m c main_v28 (by decide)).trans ((W5_keep m c main_v28 (by decide)).trans ((W4_keep m c main_v28 (by decide)).trans ((W3_keep m c main_v28 (by decide)).trans ((W2_keep m c main_v28 (by decide)))))))).trans (stage0_v28 (W0 m c))
  -- the aggregation and the bias row
  have hC : W8 m c (Proc.devRef .tc main_v74) = aggK (W0 m c (Proc.devRef .tc main_arg1)) (W7 m c (Proc.devRef .tc main_v59)) := by
    have h := stage4_v74 (F := Ideal) (W7 m c)
    rw [hs_main_v1, hs_main_v3, hs_main_v26, hs_main_v28] at h
    exact h
  have hB : W8 m c (Proc.devRef .tc main_v75) = kBias (F := Ideal) (W0 m c (Proc.devRef .tc main_arg8)) := by
    have h := stage4_v75 (F := Ideal) (W7 m c)
    have e : W7 m c (Proc.devRef .tc main_arg8) = (W0 m c (Proc.devRef .tc main_arg8)) := (W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans ((W1_keep m c main_arg8 (by decide))))))))
    rw [e] at h
    exact h
  -- the biased array and its two rows of column sums
  have hP : W9 m c (Proc.devRef .tc main_v76_0) = G1p (W8 m c (Proc.devRef .tc main_v74)) (W8 m c (Proc.devRef .tc main_v75)) :=
    (hF4 m c 2).symm.trans (final4_2 (VT8 m) c)
  have hS : W9 m c (Proc.devRef .tc main_v76_1) = G1s (W8 m c (Proc.devRef .tc main_v74)) (W8 m c (Proc.devRef .tc main_v75)) :=
    (hF4 m c 3).symm.trans (final4_3 (VT8 m) c)
  have hQ : W9 m c (Proc.devRef .tc main_v76_2) = G1q (W8 m c (Proc.devRef .tc main_v74)) (W8 m c (Proc.devRef .tc main_v75)) :=
    (hF4 m c 4).symm.trans (final4_4 (VT8 m) c)
  -- the statistics rows, the gain row and the shift row
  have hMn : W10 m c (Proc.devRef .tc main_v78) = kMean (F := Ideal) (W9 m c (Proc.devRef .tc main_v76_1)) := stage5_v78 (F := Ideal) (W9 m c)
  have hRs : W10 m c (Proc.devRef .tc main_v85) = kRsqrtVar (F := Ideal) (W9 m c (Proc.devRef .tc main_v76_1)) (W9 m c (Proc.devRef .tc main_v76_2)) := stage5_v85 (F := Ideal) (W9 m c)
  have hG : W10 m c (Proc.devRef .tc main_v86) = kBias (F := Ideal) (W0 m c (Proc.devRef .tc main_arg9)) := by
    have h := stage5_v86 (F := Ideal) (W9 m c)
    have e : W9 m c (Proc.devRef .tc main_arg9) = (W0 m c (Proc.devRef .tc main_arg9)) := (W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans ((W1_keep m c main_arg9 (by decide))))))))))
    rw [e] at h
    exact h
  have hBt : W10 m c (Proc.devRef .tc main_v87) = kBias (F := Ideal) (W0 m c (Proc.devRef .tc main_arg10)) := by
    have h := stage5_v87 (F := Ideal) (W9 m c)
    have e : W9 m c (Proc.devRef .tc main_arg10) = (W0 m c (Proc.devRef .tc main_arg10)) := (W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans ((W1_keep m c main_arg10 (by decide))))))))))
    rw [e] at h
    exact h
  have hP' : W10 m c (Proc.devRef .tc main_v76_0) = W9 m c (Proc.devRef .tc main_v76_0) := W10_keep m c main_v76_0 (by decide)
  -- the normalise-and-clamp region
  have hO : W11 m c (Proc.devRef .tc main_v88) = G2 (W10 m c (Proc.devRef .tc main_v76_0)) (W10 m c (Proc.devRef .tc main_v78)) (W10 m c (Proc.devRef .tc main_v85)) (W10 m c (Proc.devRef .tc main_v86)) (W10 m c (Proc.devRef .tc main_v87)) :=
    (hF5 m c 5).symm.trans (final5 (VT10 m) c)
  rw [hO, hP', hMn, hRs, hG, hBt, hP, hS, hQ, hC, hB, hH]
  rfl

end Cert.KernelIdeal.HandChain

end
-- ==== Proof.KIV.V6.lean ====
/-
  Region 6 on the extended reals: the output array after the region is the product of the 100000 x 64 array and the
  64 x 64 weight matrix the region finds, entry by entry. Point t of the grid holds rows 10000 t .. 10000 t + 9999; the ten
  row blocks tile the array.
-/
import proofs.«106081_j12317966204981_2_alg».proof.Proof.KI.R6
import proofs.«106081_j12317966204981_2_alg».proof.Proof.KIV.VMat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-! ## The loaded blocks as parts of the arrays -/

/-- The loaded block of window 0 at point t is rows 10000 t .. 10000 t + 9999 of its array. -/
theorem rd6_0 (c : Dev nD) (t : Fin cfg6.N) (p : Fin 10000) (q : Fin 64) (r : Fin 100000) (hr : r.val = t.val * 10000 + p.val) :
    (iblk6 V c 0 t : S10000x64.Idx → EReal) (ix2 p q) = (V c main_v88 : S100000x64.Idx → EReal) (ix2 r q) := by
  obtain ⟨e0, e1⟩ : win6_0.index t (0 : Fin 2) = t.val ∧ win6_0.index t (1 : Fin 2) = 0 :=
    (by decide +kernel : ∀ t : Fin grid6.N, win6_0.index t (0 : Fin 2) = t.val ∧ win6_0.index t (1 : Fin 2) = 0) t
  unfold iblk6
  rw [View.read_apply]
  show V c main_v88 _ = V c main_v88 _
  congr 1
  funext a
  apply Fin.ext
  match a with
  | ⟨0, _⟩ => show win6_0.index t (0 : Fin 2) * 10000 + 1 * p.val = r.val; omega
  | ⟨1, _⟩ => show win6_0.index t (1 : Fin 2) * 64 + 1 * q.val = q.val; omega

/-- The loaded block of window 1 is the whole of its array. -/
theorem rd6_1 (c : Dev nD) (t : Fin cfg6.N) (k : Fin 64) (j : Fin 64) :
    (iblk6 V c 1 t : S64x64.Idx → EReal) (ix2 k j) = (V c main_arg11 : S64x64.Idx → EReal) (ix2 k j) := by
  obtain ⟨e0, e1⟩ : win6_1.index t (0 : Fin 2) = 0 ∧ win6_1.index t (1 : Fin 2) = 0 :=
    (by decide +kernel : ∀ t : Fin grid6.N, win6_1.index t (0 : Fin 2) = 0 ∧ win6_1.index t (1 : Fin 2) = 0) t
  unfold iblk6
  rw [View.read_apply]
  show V c main_arg11 _ = V c main_arg11 _
  congr 1
  funext a
  apply Fin.ext
  match a with
  | ⟨0, _⟩ => show win6_1.index t (0 : Fin 2) * 64 + 1 * k.val = k.val; omega
  | ⟨1, _⟩ => show win6_1.index t (1 : Fin 2) * 64 + 1 * j.val = j.val; omega

/-! ## From the blocks to the array -/

/-- What point t writes back is block t of the product of the arrays as the region finds them. -/
theorem flushed6_eq (c : Dev nD) (t : Fin cfg6.N) :
    (dat6 V c).flushed 2 t = ((cfg6.win 2).blk t).view.read (Elt Ideal) (G64 (V c main_v88) (V c main_arg11)) := by
  show (cfg6.win 2).cut (grid6.coords t) ((dat6 V c).after 2 t) = _
  rw [after6_2]
  unfold out6_2
  rw [View.canon_unit_zero hz6]
  simp only [View.ld_unit_zero (S := S10000x64) hz6, View.ld_unit_zero (S := S64x64) hz6]
  obtain ⟨e0, e1⟩ : win6_2.index t (0 : Fin 2) = t.val ∧ win6_2.index t (1 : Fin 2) = 0 :=
    (by decide +kernel : ∀ t : Fin grid6.N, win6_2.index t (0 : Fin 2) = t.val ∧ win6_2.index t (1 : Fin 2) = 0) t
  funext y
  show k6_pay1 (iblk6 V c 0 t) (iblk6 V c 1 t) y = G64 (V c main_v88) (V c main_arg11) (((cfg6.win 2).blk t).view.emb y)
  refine blk64_apply (k6_pay1 (iblk6 V c 0 t) (iblk6 V c 1 t)) (iblk6 V c 0 t) (iblk6 V c 1 t)
    (pay6_apply (iblk6 V c 0 t) (iblk6 V c 1 t)) (V c main_v88) (V c main_arg11) t.val (rd6_0 V c t) (rd6_1 V c t) y _ ?_ ?_
  · show win6_2.index t (0 : Fin 2) * 10000 + 1 * (y 0).val = t.val * 10000 + (y 0).val; omega
  · show win6_2.index t (1 : Fin 2) * 64 + 1 * (y 1).val = (y 1).val; omega

/-- An index of the array is in point t's block iff each coordinate is in the block's range on its axis. -/
theorem mem_blk6_2 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v89).slice (win6_2.rect t)).set ↔ _
  rw [View.set_slice_whole, Rect.mem_set_unit]
  exact Iff.rfl

/-- Every index of the array is in some point's block: row r is in block r / 10000. -/
theorem cover6_2 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨e0, e1⟩ : win6_2.index t (0 : Fin 2) = t.val ∧ win6_2.index t (1 : Fin 2) = 0 :=
    (by decide +kernel : ∀ t : Fin grid6.N, win6_2.index t (0 : Fin 2) = t.val ∧ win6_2.index t (1 : Fin 2) = 0) t
  refine ⟨t, flush6_2 t, ?_⟩
  rw [mem_blk6_2]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The array after the region is the product. -/
theorem final6 (c : Dev nD) : (dat6 V c).arrAt 2 cfg6.N = G64 (V c main_v88) (V c main_arg11) :=
  (dat6 V c).arrAt_eq_of_cover 2 (G64 (V c main_v88) (V c main_arg11)) (fun t _ => flushed6_eq V c t) cover6_2

/-- Entry by entry. -/
theorem val6 (c : Dev nD) (i : S100000x64.Idx) :
    (dat6 V c).arrAt 2 cfg6.N i = G64 (V c main_v88) (V c main_arg11) i :=
  congrFun (final6 V c) i

end Cert.KernelIdeal.HandValue

end
-- ==== Proof.KIV.V7a.lean ====
/-
  Region 7, one grid point: what the body leaves in each of its buffers, as the payloads of the loaded blocks. At every
  point the pre-activation block is the loaded block plus the bias row; each of the two running rows (and the output row
  that copies it) is the row it held plus the column sums of the pre-activation block, respectively of its square; at
  the first point the rows held are the zero rows the body has just stored.
-/
import proofs.«106081_j12317966204981_2_alg».proof.Proof.KI.R7b
import proofs.«106081_j12317966204981_2_alg».proof.Proof.KIV.V1a
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz7 : (![0, 0] : Fin 2 → Nat) = fun _ => 0 := funext fun a => by fin_cases a <;> rfl

/-! ## The first point -/

section A
variable (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond7_0 i) (x0 : Vec F S10000x64 .f32) (x1 : Vec F S1x64 .f32)

theorem run7A_pre : View.canon (kernelRun7_A c i arg1 harg1 arg2 harg2 arg3 harg3 arg4 harg4 arg5 harg5 arg6 harg6 arg7 harg7 hc0 x0 x1).1 = k7_pay3 x0 x1 := by
  unfold kernelRun7_A
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, View.ld_unit_zero (S := S10000x64) hz7, View.ld_unit_zero (S := S1x64) hz7]

theorem run7A_sum : View.canon (kernelRun7_A c i arg1 harg1 arg2 harg2 arg3 harg3 arg4 harg4 arg5 harg5 arg6 harg6 arg7 harg7 hc0 x0 x1).2.1 = k7_pay4 x0 x1 (k7_pay1 (F := F)) := by
  unfold kernelRun7_A
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, View.ld_unit_zero (S := S10000x64) hz7, View.ld_unit_zero (S := S1x64) hz7]

theorem run7A_sq : View.canon (kernelRun7_A c i arg1 harg1 arg2 harg2 arg3 harg3 arg4 harg4 arg5 harg5 arg6 harg6 arg7 harg7 hc0 x0 x1).2.2.1 = k7_pay5 x0 x1 (k7_pay2 (F := F)) := by
  unfold kernelRun7_A
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, View.ld_unit_zero (S := S10000x64) hz7, View.ld_unit_zero (S := S1x64) hz7]

theorem run7A_scL : View.canon (kernelRun7_A c i arg1 harg1 arg2 harg2 arg3 harg3 arg4 harg4 arg5 harg5 arg6 harg6 arg7 harg7 hc0 x0 x1).2.2.2.1 = k7_pay4 x0 x1 (k7_pay1 (F := F)) := by
  unfold kernelRun7_A
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, View.ld_unit_zero (S := S10000x64) hz7, View.ld_unit_zero (S := S1x64) hz7]

theorem run7A_scR : View.canon (kernelRun7_A c i arg1 harg1 arg2 harg2 arg3 harg3 arg4 harg4 arg5 harg5 arg6 harg6 arg7 harg7 hc0 x0 x1).2.2.2.2.1 = k7_pay5 x0 x1 (k7_pay2 (F := F)) := by
  unfold kernelRun7_A
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, View.ld_unit_zero (S := S10000x64) hz7, View.ld_unit_zero (S := S1x64) hz7]
end A

/-! ## A later point -/

section B
variable (c : Dev nD) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i) (x0 : Vec F S10000x64 .f32) (x1 : Vec F S1x64 .f32) (xs6 xs7 : Vec F S1x64 .f32)

theorem run7B_pre : View.canon (kernelRun7_B c i arg1 harg1 arg2 harg2 arg3 harg3 arg4 harg4 arg5 harg5 arg6 harg6 arg7 harg7 hc0 x0 x1 xs6 xs7).1 = k7_pay3 x0 x1 := by
  unfold kernelRun7_B
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, harg6.read_unread, harg7.read_unread, View.ld_unit_zero (S := S10000x64) hz7, View.ld_unit_zero (S := S1x64) hz7]

theorem run7B_sum : View.canon (kernelRun7_B c i arg1 harg1 arg2 harg2 arg3 harg3 arg4 harg4 arg5 harg5 arg6 harg6 arg7 harg7 hc0 x0 x1 xs6 xs7).2.1 = k7_pay4 x0 x1 xs6 := by
  unfold kernelRun7_B
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, harg6.read_unread, harg7.read_unread, View.ld_unit_zero (S := S10000x64) hz7, View.ld_unit_zero (S := S1x64) hz7]

theorem run7B_sq : View.canon (kernelRun7_B c i arg1 harg1 arg2 harg2 arg3 harg3 arg4 harg4 arg5 harg5 arg6 harg6 arg7 harg7 hc0 x0 x1 xs6 xs7).2.2.1 = k7_pay5 x0 x1 xs7 := by
  unfold kernelRun7_B
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, harg6.read_unread, harg7.read_unread, View.ld_unit_zero (S := S10000x64) hz7, View.ld_unit_zero (S := S1x64) hz7]

theorem run7B_scL : View.canon (kernelRun7_B c i arg1 harg1 arg2 harg2 arg3 harg3 arg4 harg4 arg5 harg5 arg6 harg6 arg7 harg7 hc0 x0 x1 xs6 xs7).2.2.2.1 = k7_pay4 x0 x1 xs6 := by
  unfold kernelRun7_B
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, harg6.read_unread, harg7.read_unread, View.ld_unit_zero (S := S10000x64) hz7, View.ld_unit_zero (S := S1x64) hz7]

theorem run7B_scR : View.canon (kernelRun7_B c i arg1 harg1 arg2 harg2 arg3 harg3 arg4 harg4 arg5 harg5 arg6 harg6 arg7 harg7 hc0 x0 x1 xs6 xs7).2.2.2.2.1 = k7_pay5 x0 x1 xs7 := by
  unfold kernelRun7_B
  dsimp only
  try sl_unfold_words
  simp only [View.canon_unit_zero (S := S10000x64) hz7, View.canon_unit_zero (S := S1x64) hz7, View.canon_cons_unit_zero (S := S1x64) hz7,
    View.readCov_unit_zero (S := S1x64) _ hz7, readCov_cons_unit_zero (S := S1x64) _ hz7,
    View.readAt_eq_ld, harg1.read_unread, harg2.read_unread, harg6.read_unread, harg7.read_unread, View.ld_unit_zero (S := S10000x64) hz7, View.ld_unit_zero (S := S1x64) hz7]
end B

end Cert.KernelIdeal.HandValue

end
-- ==== Proof.KIV.V7b.lean ====
/-
  Region 7 on the extended reals, along the grid: the two running rows after n points. With Cm the 100000 x 64 array and B
  the bias row the region finds, after n points the first row holds, in column q, the sum over the first n row blocks of
  Cm (r, q) + B (0, q), and the second the sum of its squares; after all ten points these are the sums over all 100000 rows.
  Sums on the extended reals are sums in a commutative monoid: no finiteness is used.
-/
import proofs.«106081_j12317966204981_2_alg».proof.Proof.KIV.V7a
import proofs.«106081_j12317966204981_2_alg».proof.Proof.KIV.V1b
import proofs.«106081_j12317966204981_2_alg».proof.Proof.LibBlockSum
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payloads at an index -/

/-- The zero row. -/
theorem pay7_1_apply (q : Fin 64) : (k7_pay1 (F := Ideal) : S1x64.Idx → EReal) (ix2 (0 : Fin 1) q) = 0 := by
  unfold k7_pay1
  simp only [shapeCast_self]
  rw [broadcast_apply]
  exact Ideal.ofBits_zero_f32

/-- The pre-activation block: the loaded entry plus the bias row's entry in its column. -/
theorem pay7_3_apply (x0 : Vec Ideal S10000x64 .f32) (x1 : Vec Ideal S1x64 .f32) (p : Fin 10000) (q : Fin 64) :
    k7_pay3 x0 x1 (ix2 p q) = (x0 : S10000x64.Idx → EReal) (ix2 p q) + (x1 : S1x64.Idx → EReal) (ix2 (0 : Fin 1) q) := by
  unfold k7_pay3
  rw [addf_apply]
  simp only [shapeCast_self]
  rw [broadcastTo_1b_ab_apply]

/-- The first running row after the body: the row it held plus the column sums of the pre-activation block. -/
theorem pay7_4_apply (x0 : Vec Ideal S10000x64 .f32) (x1 v : Vec Ideal S1x64 .f32) (q : Fin 64) :
    k7_pay4 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q)) := by
  unfold k7_pay4
  simp only [shapeCast_self]
  rw [addf_apply, shapeCast_a_1a_apply]
  refine congrArg (fun z => (v : S1x64.Idx → EReal) (ix2 (0 : Fin 1) q) + z) ?_
  exact (colsum_apply _ _ q).trans (Finset.sum_congr rfl fun p _ => pay7_3_apply x0 x1 p q)

/-- The second running row after the body: the row it held plus the column sums of the squared pre-activation block. -/
theorem pay7_5_apply (x0 : Vec Ideal S10000x64 .f32) (x1 v : Vec Ideal S1x64 .f32) (q : Fin 64) :
    k7_pay5 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q))
          * ((x0 : S10000x64.Idx → EReal) (ix2 p q) + (x1 : S1x64.Idx → EReal) (ix2 (0 : Fin 1) q)) := by
  unfold k7_pay5
  simp only [shapeCast_self]
  rw [addf_apply, shapeCast_a_1a_apply]
  refine congrArg (fun z => (v : S1x64.Idx → EReal) (ix2 (0 : Fin 1) q) + z) ?_
  refine (colsum_apply _ _ q).trans (Finset.sum_congr rfl fun p _ => ?_)
  rw [mulf_apply, pay7_3_apply]

/-! ## One point, whatever it is -/

/-- The pre-activation block after point t. -/
theorem pre7At_eq (c : Dev nD) (t : Fin cfg7.N) (a b : Vec Ideal S1x64 .f32) :
    pre7At V c t a b = k7_pay3 (iblk7 V c 0 t) (iblk7 V c 1 t) := by
  unfold pre7At
  split
  · exact run7A_pre ..
  · exact run7B_pre ..

/-- At the first point the rows before it are the zero row. -/
theorem scB7_first (c : Dev nD) (t : Fin cfg7.N) (hc : cond7_0 (grid7.coords t)) :
    scB7 V c t.val = (k7_pay1 (F := Ideal), k7_pay1 (F := Ideal)) := by
  have hN : cfg7.N = 10 := N_7
  have h0 : t.val = 0 := by have := (hcond7_0 t).mp hc; have := t.isLt; omega
  rw [h0]
  rfl

/-- The first running row after point t, from the rows before it. -/
theorem scL7At_eq (c : Dev nD) (t : Fin cfg7.N) :
    scL7At V c t (scB7 V c t.val).1 (scB7 V c t.val).2 = k7_pay4 (iblk7 V c 0 t) (iblk7 V c 1 t) (scB7 V c t.val).1 := by
  unfold scL7At
  split
  · next hc => rw [scB7_first V c t hc]; exact run7A_scL ..
  · exact run7B_scL ..

/-- The second running row after point t, from the rows before it. -/
theorem scR7At_eq (c : Dev nD) (t : Fin cfg7.N) :
    scR7At V c t (scB7 V c t.val).1 (scB7 V c t.val).2 = k7_pay5 (iblk7 V c 0 t) (iblk7 V c 1 t) (scB7 V c t.val).2 := by
  unfold scR7At
  split
  · next hc => rw [scB7_first V c t hc]; exact run7A_scR ..
  · exact run7B_scR ..

/-- The first output row after point t is the first running row after it. -/
theorem sum7At_eq (c : Dev nD) (t : Fin cfg7.N) :
    sum7At V c t (scB7 V c t.val).1 (scB7 V c t.val).2 = (scB7 V c (t.val + 1)).1 := by
  rw [scB7_succ, scL7At_eq]
  unfold sum7At
  split
  · next hc => rw [scB7_first V c t hc]; exact run7A_sum ..
  · exact run7B_sum ..

/-- The second output row after point t is the second running row after it. -/
theorem sq7At_eq (c : Dev nD) (t : Fin cfg7.N) :
    sq7At V c t (scB7 V c t.val).1 (scB7 V c t.val).2 = (scB7 V c (t.val + 1)).2 := by
  rw [scB7_succ, scR7At_eq]
  unfold sq7At
  split
  · next hc => rw [scB7_first V c t hc]; exact run7A_sq ..
  · exact run7B_sq ..

/-! ## The loaded blocks as parts of the arrays -/

/-- The loaded block of window 0 at point t is rows 10000 t .. 10000 t + 9999 of its array. -/
theorem rd7_0 (c : Dev nD) (t : Fin cfg7.N) (p : Fin 10000) (q : Fin 64) (r : Fin 100000) (hr : r.val = t.val * 10000 + p.val) :
    (iblk7 V c 0 t : S10000x64.Idx → EReal) (ix2 p q) = (V c main_v104 : S100000x64.Idx → EReal) (ix2 r q) := by
  obtain ⟨e0, e1⟩ : win7_0.index t (0 : Fin 2) = t.val ∧ win7_0.index t (1 : Fin 2) = 0 :=
    (by decide +kernel : ∀ t : Fin grid7.N, win7_0.index t (0 : Fin 2) = t.val ∧ win7_0.index t (1 : Fin 2) = 0) t
  unfold iblk7
  rw [View.read_apply]
  show V c main_v104 _ = V c main_v104 _
  congr 1
  funext a
  apply Fin.ext
  match a with
  | ⟨0, _⟩ => show win7_0.index t (0 : Fin 2) * 10000 + 1 * p.val = r.val; omega
  | ⟨1, _⟩ => show win7_0.index t (1 : Fin 2) * 64 + 1 * q.val = q.val; omega

/-- The loaded block of window 1 is the whole one-row array. -/
theorem rd7_1 (c : Dev nD) (t : Fin cfg7.N) (q : Fin 64) :
    (iblk7 V c 1 t : S1x64.Idx → EReal) (ix2 (0 : Fin 1) q) = (V c main_v105 : S1x64.Idx → EReal) (ix2 (0 : Fin 1) q) := by
  obtain ⟨e0, e1⟩ : win7_1.index t (0 : Fin 2) = 0 ∧ win7_1.index t (1 : Fin 2) = 0 :=
    (by decide +kernel : ∀ t : Fin grid7.N, win7_1.index t (0 : Fin 2) = 0 ∧ win7_1.index t (1 : Fin 2) = 0) t
  unfold iblk7
  rw [View.read_apply]
  show V c main_v105 _ = V c main_v105 _
  congr 1
  funext a
  apply Fin.ext
  match a with
  | ⟨0, _⟩ => show win7_1.index t (0 : Fin 2) * 1 + 1 * 0 = 0; omega
  | ⟨1, _⟩ => show win7_1.index t (1 : Fin 2) * 64 + 1 * q.val = q.val; omega

/-! ## The running rows after n points -/

/-- The two running rows before point n, in column q: the first n blocks' sums. -/
theorem scB7_apply (c : Dev nD) (q : Fin 64) : ∀ n : ℕ, n ≤ 10 →
    ((scB7 V c n).1 : S1x64.Idx → EReal) (ix2 (0 : Fin 1) q) = ∑ s ∈ Finset.range n, blk1 (pre1 (V c main_v104) (V c main_v105) q) s
    ∧ ((scB7 V c n).2 : S1x64.Idx → EReal) (ix2 (0 : Fin 1) q)
        = ∑ s ∈ Finset.range n, blk1 (fun r => pre1 (V c main_v104) (V c main_v105) q r * pre1 (V c main_v104) (V c main_v105) q r) s
  | 0, _ => by
    rw [Finset.sum_range_zero, Finset.sum_range_zero]
    exact ⟨pay7_1_apply q, pay7_1_apply q⟩
  | n + 1, hn => by
    have hN : cfg7.N = 10 := N_7
    have h : n < cfg7.N := by rw [hN]; omega
    obtain ⟨ih1, ih2⟩ := scB7_apply c q n (by omega)
    have e := scB7_succ V c ⟨n, h⟩
    have hb := pre1_blk (iblk7 V c 0 ⟨n, h⟩) (iblk7 V c 1 ⟨n, h⟩) (V c main_v104) (V c main_v105) n (rd7_0 V c ⟨n, h⟩) (rd7_1 V c ⟨n, h⟩) q ⟨n, by omega⟩ rfl
    rw [show scB7 V c (n + 1) = _ from e, Finset.sum_range_succ, Finset.sum_range_succ]
    constructor
    · show (scL7At V c ⟨n, h⟩ (scB7 V c n).1 (scB7 V c n).2 : S1x64.Idx → EReal) (ix2 (0 : Fin 1) q) = _
      rw [show scL7At V c ⟨n, h⟩ (scB7 V c n).1 (scB7 V c n).2 = _ from scL7At_eq V c ⟨n, h⟩, pay7_4_apply]
      show ((scB7 V c n).1 : S1x64.Idx → EReal) (ix2 (0 : Fin 1) q) + _ = _
      rw [ih1]
      refine congrArg (fun z => _ + z) ?_
      unfold blk1
      rw [dif_pos (by omega : n < 10)]
      exact Finset.sum_congr rfl fun p _ => hb p
    · show (scR7At V c ⟨n, h⟩ (scB7 V c n).1 (scB7 V c n).2 : S1x64.Idx → EReal) (ix2 (0 : Fin 1) q) = _
      rw [show scR7At V c ⟨n, h⟩ (scB7 V c n).1 (scB7 V c n).2 = _ from scR7At_eq V c ⟨n, h⟩, pay7_5_apply]
      show ((scB7 V c n).2 : S1x64.Idx → EReal) (ix2 (0 : Fin 1) q) + _ = _
      rw [ih2]
      refine congrArg (fun z => _ + z) ?_
      unfold blk1
      rw [dif_pos (by omega : n < 10)]
      exact Finset.sum_congr rfl fun p _ => congrArg (fun z : EReal => z * z) (hb p)

/-- After all ten points: the sums over all 100000 rows. -/
theorem scB7_last (c : Dev nD) (q : Fin 64) :
    ((scB7 V c 10).1 : S1x64.Idx → EReal) (ix2 (0 : Fin 1) q) = ∑ r : Fin 100000, pre1 (V c main_v104) (V c main_v105) q r
    ∧ ((scB7 V c 10).2 : S1x64.Idx → EReal) (ix2 (0 : Fin 1) q)
        = ∑ r : Fin 100000, pre1 (V c main_v104) (V c main_v105) q r * pre1 (V c main_v104) (V c main_v105) q r := by
  obtain ⟨h1, h2⟩ := scB7_apply V c q 10 (le_refl _)
  rw [h1, h2, sum_blk1, sum_blk1]
  exact ⟨rfl, rfl⟩

end Cert.KernelIdeal.HandValue

end
-- ==== Proof.KIV.V7.lean ====
/-
  Region 7 on the extended reals: its three output arrays after the region, index by index. With Cm the 100000 x 64 array
  and B the bias row the region finds: the pre-activation array holds Cm (r, j) + B (0, j); the first output row holds, in
  column j, the sum over all 100000 rows r of Cm (r, j) + B (0, j); the second the sum of the squares of the same terms.
  The pre-activation array is written block by block; the two rows are written back once, after the last point.
-/
import proofs.«106081_j12317966204981_2_alg».proof.Proof.KI.R7b
import proofs.«106081_j12317966204981_2_alg».proof.Proof.KIV.V7b
import proofs.«106081_j12317966204981_2_alg».proof.Proof.KIV.V1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7' : (![0, 0] : Fin 2 → Nat) = fun _ => 0 := funext fun a => by fin_cases a <;> rfl

/-! ## The pre-activation array, block by block -/

/-- The pre-activation block when the loaded block is rows n * 10000 .. n * 10000 + 9999 of an array Cm and the loaded
    row the whole of a one-row array B: at block index y it is the array's entry at the index i that y sits at. -/
theorem blk7p_apply (x0 : Vec Ideal S10000x64 .f32) (x1 : Vec Ideal S1x64 .f32)
    (Cm : S100000x64.Idx → EReal) (B : S1x64.Idx → EReal) (n : ℕ)
    (h0 : ∀ (p : Fin 10000) (q : Fin 64) (r : Fin 100000), r.val = n * 10000 + p.val → x0 (ix2 p q) = Cm (ix2 r q))
    (h1 : ∀ q : Fin 64, x1 (ix2 (0 : Fin 1) q) = B (ix2 (0 : Fin 1) q))
    (y : S10000x64.Idx) (i : S100000x64.Idx) (hr : (i 0).val = n * 10000 + (y 0).val) (hj : (i 1).val = (y 1).val) :
    k7_pay3 x0 x1 y = G1p Cm B i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = Cm (ix2 r j) + B (ix2 (0 : Fin 1) j)
  rw [pay7_3_apply, h0 p j r hr, h1 j]

/-- What point t writes back to the pre-activation array is block t of it. -/
theorem flushed7_2_eq (c : Dev nD) (t : Fin cfg7.N) :
    (dat7 V c).flushed 2 t = ((cfg7.win 2).blk t).view.read (Elt Ideal) (G1p (V c main_v104) (V c main_v105)) := by
  show (cfg7.win 2).cut (grid7.coords t) ((dat7 V c).after 2 t) = _
  rw [after7_2, pre7At_eq]
  obtain ⟨e0, e1⟩ : win7_2.index t (0 : Fin 2) = t.val ∧ win7_2.index t (1 : Fin 2) = 0 :=
    (by decide +kernel : ∀ t : Fin grid7.N, win7_2.index t (0 : Fin 2) = t.val ∧ win7_2.index t (1 : Fin 2) = 0) t
  funext y
  show k7_pay3 (iblk7 V c 0 t) (iblk7 V c 1 t) y = G1p (V c main_v104) (V c main_v105) (((cfg7.win 2).blk t).view.emb y)
  refine blk7p_apply (iblk7 V c 0 t) (iblk7 V c 1 t) (V c main_v104) (V c main_v105) t.val (rd7_0 V c t) (rd7_1 V c t) y _ ?_ ?_
  · show win7_2.index t (0 : Fin 2) * 10000 + 1 * (y 0).val = t.val * 10000 + (y 0).val; omega
  · show win7_2.index t (1 : Fin 2) * 64 + 1 * (y 1).val = (y 1).val; omega

/-- An index of the array is in point t's block iff each coordinate is in the block's range on its axis. -/
theorem mem_blk7_2 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v106_0).slice (win7_2.rect t)).set ↔ _
  rw [View.set_slice_whole, Rect.mem_set_unit]
  exact Iff.rfl

/-- Every index of the array is in some point's block: row r is in block r / 10000. -/
theorem cover7_2 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := N_7
  obtain ⟨t, ht⟩ : ∃ t : Fin cfg7.N, t.val = (i 0).val / 10000 := ⟨⟨(i 0).val / 10000, by rw [hN]; omega⟩, rfl⟩
  obtain ⟨e0, e1⟩ : win7_2.index t (0 : Fin 2) = t.val ∧ win7_2.index t (1 : Fin 2) = 0 :=
    (by decide +kernel : ∀ t : Fin grid7.N, win7_2.index t (0 : Fin 2) = t.val ∧ win7_2.index t (1 : Fin 2) = 0) t
  refine ⟨t, flush7_2 t, ?_⟩
  rw [mem_blk7_2]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- The pre-activation array after the region. -/
theorem final7_2 (c : Dev nD) : (dat7 V c).arrAt 2 cfg7.N = G1p (V c main_v104) (V c main_v105) :=
  (dat7 V c).arrAt_eq_of_cover 2 (G1p (V c main_v104) (V c main_v105)) (fun t _ => flushed7_2_eq V c t) cover7_2

/-! ## The two rows, written back once -/

set_option maxRecDepth 131072 in
/-- What the last point writes back to output row 3 is the whole of that row. -/
theorem flushed7_3_eq (c : Dev nD) (t : Fin cfg7.N) (hf : (cfg7.win 3).flush t = true) :
    (dat7 V c).flushed 3 t = ((cfg7.win 3).blk t).view.read (Elt Ideal) (G1s (V c main_v104) (V c main_v105)) := by
  have hN : cfg7.N = 10 := N_7
  have h9 : t.val + 1 = 10 := by have := (flush7_3 t).mp hf; have := t.isLt; omega
  show (cfg7.win 3).cut (grid7.coords t) ((dat7 V c).after 3 t) = _
  rw [after7_3, sum7At_eq, h9]
  have hrow : ∀ q : Fin 64, ((scB7 V c 10).1 : S1x64.Idx → EReal) (ix2 (0 : Fin 1) q)
      = G1s (V c main_v104) (V c main_v105) (ix2 (0 : Fin 1) q) := fun q => (scB7_last V c q).1
  generalize (scB7 V c 10).1 = row at hrow ⊢
  obtain ⟨e0, e1⟩ : win7_3.index t (0 : Fin 2) = 0 ∧ win7_3.index t (1 : Fin 2) = 0 :=
    (by decide +kernel : ∀ t : Fin grid7.N, win7_3.index t (0 : Fin 2) = 0 ∧ win7_3.index t (1 : Fin 2) = 0) t
  funext y
  show (row : S1x64.Idx → EReal) y = G1s (V c main_v104) (V c main_v105) (((cfg7.win 3).blk t).view.emb y)
  refine row64_apply _ _ hrow y _ ?_
  show win7_3.index t (1 : Fin 2) * 64 + 1 * (y 1).val = (y 1).val; omega

/-- An index of the row is in point t's block iff each coordinate is in the block's range on its axis. -/
theorem mem_blk7_3 (t : Fin cfg7.N) (i : S1x64.Idx) :
    i ∈ ((cfg7.win 3).blk t).view.set ↔ ∀ a : Fin 2, win7_3.index t a * S1x64.size a ≤ (i a).val ∧ (i a).val < win7_3.index t a * S1x64.size a + S1x64.size a := by
  show i ∈ ((View.whole main_v106_1).slice (win7_3.rect t)).set ↔ _
  rw [View.set_slice_whole, Rect.mem_set_unit]
  exact Iff.rfl

/-- Every index of the row is in the last point's block, the one that is written back. -/
theorem cover7_3 (i : S1x64.Idx) : ∃ t : Fin cfg7.N, (cfg7.win 3).flush t = true ∧ i ∈ ((cfg7.win 3).blk t).view.set := by
  have hi0 : (i 0).val < 1 := (i 0).isLt
  have hi1 : (i 1).val < 64 := (i 1).isLt
  have hN : cfg7.N = 10 := N_7
  obtain ⟨t, ht⟩ : ∃ t : Fin cfg7.N, t.val = 9 := ⟨⟨9, by rw [hN]; omega⟩, rfl⟩
  obtain ⟨e0, e1⟩ : win7_3.index t (0 : Fin 2) = 0 ∧ win7_3.index t (1 : Fin 2) = 0 :=
    (by decide +kernel : ∀ t : Fin grid7.N, win7_3.index t (0 : Fin 2) = 0 ∧ win7_3.index t (1 : Fin 2) = 0) t
  refine ⟨t, (flush7_3 t).mpr (by omega), ?_⟩
  rw [mem_blk7_3]
  intro a
  match a with
  | ⟨0, _⟩ => show win7_3.index t (0 : Fin 2) * 1 ≤ (i 0).val ∧ (i 0).val < win7_3.index t (0 : Fin 2) * 1 + 1; omega
  | ⟨1, _⟩ => show win7_3.index t (1 : Fin 2) * 64 ≤ (i 1).val ∧ (i 1).val < win7_3.index t (1 : Fin 2) * 64 + 64; omega

/-- The row of column sums after the region. -/
theorem final7_3 (c : Dev nD) : (dat7 V c).arrAt 3 cfg7.N = G1s (V c main_v104) (V c main_v105) :=
  (dat7 V c).arrAt_eq_of_cover 3 (G1s (V c main_v104) (V c main_v105)) (fun t hf => flushed7_3_eq V c t hf) cover7_3

set_option maxRecDepth 131072 in
/-- What the last point writes back to output row 4 is the whole of that row. -/
theorem flushed7_4_eq (c : Dev nD) (t : Fin cfg7.N) (hf : (cfg7.win 4).flush t = true) :
    (dat7 V c).flushed 4 t = ((cfg7.win 4).blk t).view.read (Elt Ideal) (G1q (V c main_v104) (V c main_v105)) := by
  have hN : cfg7.N = 10 := N_7
  have h9 : t.val + 1 = 10 := by have := (flush7_4 t).mp hf; have := t.isLt; omega
  show (cfg7.win 4).cut (grid7.coords t) ((dat7 V c).after 4 t) = _
  rw [after7_4, sq7At_eq, h9]
  have hrow : ∀ q : Fin 64, ((scB7 V c 10).2 : S1x64.Idx → EReal) (ix2 (0 : Fin 1) q)
      = G1q (V c main_v104) (V c main_v105) (ix2 (0 : Fin 1) q) := fun q => (scB7_last V c q).2
  generalize (scB7 V c 10).2 = row at hrow ⊢
  obtain ⟨e0, e1⟩ : win7_4.index t (0 : Fin 2) = 0 ∧ win7_4.index t (1 : Fin 2) = 0 :=
    (by decide +kernel : ∀ t : Fin grid7.N, win7_4.index t (0 : Fin 2) = 0 ∧ win7_4.index t (1 : Fin 2) = 0) t
  funext y
  show (row : S1x64.Idx → EReal) y = G1q (V c main_v104) (V c main_v105) (((cfg7.win 4).blk t).view.emb y)
  refine row64_apply _ _ hrow y _ ?_
  show win7_4.index t (1 : Fin 2) * 64 + 1 * (y 1).val = (y 1).val; omega

/-- An index of the row is in point t's block iff each coordinate is in the block's range on its axis. -/
theorem mem_blk7_4 (t : Fin cfg7.N) (i : S1x64.Idx) :
    i ∈ ((cfg7.win 4).blk t).view.set ↔ ∀ a : Fin 2, win7_4.index t a * S1x64.size a ≤ (i a).val ∧ (i a).val < win7_4.index t a * S1x64.size a + S1x64.size a := by
  show i ∈ ((View.whole main_v106_2).slice (win7_4.rect t)).set ↔ _
  rw [View.set_slice_whole, Rect.mem_set_unit]
  exact Iff.rfl

/-- Every index of the row is in the last point's block, the one that is written back. -/
theorem cover7_4 (i : S1x64.Idx) : ∃ t : Fin cfg7.N, (cfg7.win 4).flush t = true ∧ i ∈ ((cfg7.win 4).blk t).view.set := by
  have hi0 : (i 0).val < 1 := (i 0).isLt
  have hi1 : (i 1).val < 64 := (i 1).isLt
  have hN : cfg7.N = 10 := N_7
  obtain ⟨t, ht⟩ : ∃ t : Fin cfg7.N, t.val = 9 := ⟨⟨9, by rw [hN]; omega⟩, rfl⟩
  obtain ⟨e0, e1⟩ : win7_4.index t (0 : Fin 2) = 0 ∧ win7_4.index t (1 : Fin 2) = 0 :=
    (by decide +kernel : ∀ t : Fin grid7.N, win7_4.index t (0 : Fin 2) = 0 ∧ win7_4.index t (1 : Fin 2) = 0) t
  refine ⟨t, (flush7_4 t).mpr (by omega), ?_⟩
  rw [mem_blk7_4]
  intro a
  match a with
  | ⟨0, _⟩ => show win7_4.index t (0 : Fin 2) * 1 ≤ (i 0).val ∧ (i 0).val < win7_4.index t (0 : Fin 2) * 1 + 1; omega
  | ⟨1, _⟩ => show win7_4.index t (1 : Fin 2) * 64 ≤ (i 1).val ∧ (i 1).val < win7_4.index t (1 : Fin 2) * 64 + 64; omega

/-- The row of column sums of squares after the region. -/
theorem final7_4 (c : Dev nD) : (dat7 V c).arrAt 4 cfg7.N = G1q (V c main_v104) (V c main_v105) :=
  (dat7 V c).arrAt_eq_of_cover 4 (G1q (V c main_v104) (V c main_v105)) (fun t hf => flushed7_4_eq V c t hf) cover7_4

/-- Entry by entry. -/
theorem val7_2 (c : Dev nD) (i : S100000x64.Idx) : (dat7 V c).arrAt 2 cfg7.N i = G1p (V c main_v104) (V c main_v105) i :=
  congrFun (final7_2 V c) i
theorem val7_3 (c : Dev nD) (j : Fin 64) : (dat7 V c).arrAt 3 cfg7.N (ix2 (0 : Fin 1) j) = G1s (V c main_v104) (V c main_v105) (ix2 (0 : Fin 1) j) :=
  congrFun (final7_3 V c) _
theorem val7_4 (c : Dev nD) (j : Fin 64) : (dat7 V c).arrAt 4 cfg7.N (ix2 (0 : Fin 1) j) = G1q (V c main_v104) (V c main_v105) (ix2 (0 : Fin 1) j) :=
  congrFun (final7_4 V c) _

end Cert.KernelIdeal.HandValue

end
-- ==== Proof.KIV.V8.lean ====
/-
  Region 8 on the extended reals: the same body as region 2 on this region's arrays. Entry (r, j) of the output array is
  max (((P (r, j) - Mn (0, j)) * Rs (0, j)) * G (0, j) + Bt (0, j)) 0. Point t of the grid holds rows 10000 t .. 10000 t + 9999.
-/
import proofs.«106081_j12317966204981_2_alg».proof.Proof.KI.R8
import proofs.«106081_j12317966204981_2_alg».proof.Proof.KIV.V2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-! ## The body's value at a block index -/

/-- The body's payload at entry (p, q) of the block. -/
theorem pay8_apply (x0 : Vec Ideal S10000x64 .f32) (x1 x2 x3 x4 : Vec Ideal S1x64 .f32) (p : Fin 10000) (q : Fin 64) :
    k8_pay1 x0 x1 x2 x3 x4 (ix2 p q)
      = max (((x0 : S10000x64.Idx → EReal) (ix2 p q) - (x1 : S1x64.Idx → EReal) (ix2 (0 : Fin 1) q)) * (x2 : S1x64.Idx → EReal) (ix2 (0 : Fin 1) q)
          * (x3 : S1x64.Idx → EReal) (ix2 (0 : Fin 1) q) + (x4 : S1x64.Idx → EReal) (ix2 (0 : Fin 1) q)) 0 := by
  unfold k8_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The payload when the loaded block is rows n * 10000 .. n * 10000 + 9999 of an array P and the four loaded rows are
    the whole of four one-row arrays: at block index y it is the array's entry at the index i that y sits at. -/
theorem blk8_apply (x0 : Vec Ideal S10000x64 .f32) (x1 x2 x3 x4 : Vec Ideal S1x64 .f32)
    (P : S100000x64.Idx → EReal) (Mn Rs Gm Bt : S1x64.Idx → EReal) (n : ℕ)
    (h0 : ∀ (p : Fin 10000) (q : Fin 64) (r : Fin 100000), r.val = n * 10000 + p.val → x0 (ix2 p q) = P (ix2 r q))
    (h1 : ∀ q : Fin 64, x1 (ix2 (0 : Fin 1) q) = Mn (ix2 (0 : Fin 1) q)) (h2 : ∀ q : Fin 64, x2 (ix2 (0 : Fin 1) q) = Rs (ix2 (0 : Fin 1) q))
    (h3 : ∀ q : Fin 64, x3 (ix2 (0 : Fin 1) q) = Gm (ix2 (0 : Fin 1) q)) (h4 : ∀ q : Fin 64, x4 (ix2 (0 : Fin 1) q) = Bt (ix2 (0 : Fin 1) q))
    (y : S10000x64.Idx) (i : S100000x64.Idx) (hr : (i 0).val = n * 10000 + (y 0).val) (hj : (i 1).val = (y 1).val) :
    k8_pay1 x0 x1 x2 x3 x4 y = G2 P Mn Rs Gm Bt i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = max ((P (ix2 r j) - Mn (ix2 (0 : Fin 1) j)) * Rs (ix2 (0 : Fin 1) j) * Gm (ix2 (0 : Fin 1) j) + Bt (ix2 (0 : Fin 1) j)) 0
  rw [pay8_apply, h0 p j r hr, h1 j, h2 j, h3 j, h4 j]

/-! ## The loaded blocks as parts of the arrays -/

/-- The loaded block of window 0 at point t is rows 10000 t .. 10000 t + 9999 of its array. -/
theorem rd8_0 (c : Dev nD) (t : Fin cfg8.N) (p : Fin 10000) (q : Fin 64) (r : Fin 100000) (hr : r.val = t.val * 10000 + p.val) :
    (iblk8 V c 0 t : S10000x64.Idx → EReal) (ix2 p q) = (V c main_v106_0 : S100000x64.Idx → EReal) (ix2 r q) := by
  obtain ⟨e0, e1⟩ : win8_0.index t (0 : Fin 2) = t.val ∧ win8_0.index t (1 : Fin 2) = 0 :=
    (by decide +kernel : ∀ t : Fin grid8.N, win8_0.index t (0 : Fin 2) = t.val ∧ win8_0.index t (1 : Fin 2) = 0) t
  unfold iblk8
  rw [View.read_apply]
  show V c main_v106_0 _ = V c main_v106_0 _
  congr 1
  funext a
  apply Fin.ext
  match a with
  | ⟨0, _⟩ => show win8_0.index t (0 : Fin 2) * 10000 + 1 * p.val = r.val; omega
  | ⟨1, _⟩ => show win8_0.index t (1 : Fin 2) * 64 + 1 * q.val = q.val; omega

/-- The loaded block of window 1 is the whole one-row array. -/
theorem rd8_1 (c : Dev nD) (t : Fin cfg8.N) (q : Fin 64) :
    (iblk8 V c 1 t : S1x64.Idx → EReal) (ix2 (0 : Fin 1) q) = (V c main_v108 : S1x64.Idx → EReal) (ix2 (0 : Fin 1) q) := by
  obtain ⟨e0, e1⟩ : win8_1.index t (0 : Fin 2) = 0 ∧ win8_1.index t (1 : Fin 2) = 0 :=
    (by decide +kernel : ∀ t : Fin grid8.N, win8_1.index t (0 : Fin 2) = 0 ∧ win8_1.index t (1 : Fin 2) = 0) t
  unfold iblk8
  rw [View.read_apply]
  show V c main_v108 _ = V c main_v108 _
  congr 1
  funext a
  apply Fin.ext
  match a with
  | ⟨0, _⟩ => show win8_1.index t (0 : Fin 2) * 1 + 1 * 0 = 0; omega
  | ⟨1, _⟩ => show win8_1.index t (1 : Fin 2) * 64 + 1 * q.val = q.val; omega

/-- The loaded block of window 2 is the whole one-row array. -/
theorem rd8_2 (c : Dev nD) (t : Fin cfg8.N) (q : Fin 64) :
    (iblk8 V c 2 t : S1x64.Idx → EReal) (ix2 (0 : Fin 1) q) = (V c main_v115 : S1x64.Idx → EReal) (ix2 (0 : Fin 1) q) := by
  obtain ⟨e0, e1⟩ : win8_2.index t (0 : Fin 2) = 0 ∧ win8_2.index t (1 : Fin 2) = 0 :=
    (by decide +kernel : ∀ t : Fin grid8.N, win8_2.index t (0 : Fin 2) = 0 ∧ win8_2.index t (1 : Fin 2) = 0) t
  unfold iblk8
  rw [View.read_apply]
  show V c main_v115 _ = V c main_v115 _
  congr 1
  funext a
  apply Fin.ext
  match a with
  | ⟨0, _⟩ => show win8_2.index t (0 : Fin 2) * 1 + 1 * 0 = 0; omega
  | ⟨1, _⟩ => show win8_2.index t (1 : Fin 2) * 64 + 1 * q.val = q.val; omega

/-- The loaded block of window 3 is the whole one-row array. -/
theorem rd8_3 (c : Dev nD) (t : Fin cfg8.N) (q : Fin 64) :
    (iblk8 V c 3 t : S1x64.Idx → EReal) (ix2 (0 : Fin 1) q) = (V c main_v116 : S1x64.Idx → EReal) (ix2 (0 : Fin 1) q) := by
  obtain ⟨e0, e1⟩ : win8_3.index t (0 : Fin 2) = 0 ∧ win8_3.index t (1 : Fin 2) = 0 :=
    (by decide +kernel : ∀ t : Fin grid8.N, win8_3.index t (0 : Fin 2) = 0 ∧ win8_3.index t (1 : Fin 2) = 0) t
  unfold iblk8
  rw [View.read_apply]
  show V c main_v116 _ = V c main_v116 _
  congr 1
  funext a
  apply Fin.ext
  match a with
  | ⟨0, _⟩ => show win8_3.index t (0 : Fin 2) * 1 + 1 * 0 = 0; omega
  | ⟨1, _⟩ => show win8_3.index t (1 : Fin 2) * 64 + 1 * q.val = q.val; omega

/-- The loaded block of window 4 is the whole one-row array. -/
theorem rd8_4 (c : Dev nD) (t : Fin cfg8.N) (q : Fin 64) :
    (iblk8 V c 4 t : S1x64.Idx → EReal) (ix2 (0 : Fin 1) q) = (V c main_v117 : S1x64.Idx → EReal) (ix2 (0 : Fin 1) q) := by
  obtain ⟨e0, e1⟩ : win8_4.index t (0 : Fin 2) = 0 ∧ win8_4.index t (1 : Fin 2) = 0 :=
    (by decide +kernel : ∀ t : Fin grid8.N, win8_4.index t (0 : Fin 2) = 0 ∧ win8_4.index t (1 : Fin 2) = 0) t
  unfold iblk8
  rw [View.read_apply]
  show V c main_v117 _ = V c main_v117 _
  congr 1
  funext a
  apply Fin.ext
  match a with
  | ⟨0, _⟩ => show win8_4.index t (0 : Fin 2) * 1 + 1 * 0 = 0; omega
  | ⟨1, _⟩ => show win8_4.index t (1 : Fin 2) * 64 + 1 * q.val = q.val; omega

/-! ## From the blocks to the array -/

/-- What point t writes back is block t of that array of the arrays as the region finds them. -/
theorem flushed8_eq (c : Dev nD) (t : Fin cfg8.N) :
    (dat8 V c).flushed 5 t = ((cfg8.win 5).blk t).view.read (Elt Ideal)
      (G2 (V c main_v106_0) (V c main_v108) (V c main_v115) (V c main_v116) (V c main_v117)) := by
  show (cfg8.win 5).cut (grid8.coords t) ((dat8 V c).after 5 t) = _
  rw [after8_5]
  unfold out8_5
  rw [View.canon_unit_zero hz8]
  simp only [View.ld_unit_zero (S := S10000x64) hz8, View.ld_unit_zero (S := S1x64) hz8]
  obtain ⟨e0, e1⟩ : win8_5.index t (0 : Fin 2) = t.val ∧ win8_5.index t (1 : Fin 2) = 0 :=
    (by decide +kernel : ∀ t : Fin grid8.N, win8_5.index t (0 : Fin 2) = t.val ∧ win8_5.index t (1 : Fin 2) = 0) t
  funext y
  show k8_pay1 (iblk8 V c 0 t) (iblk8 V c 1 t) (iblk8 V c 2 t) (iblk8 V c 3 t) (iblk8 V c 4 t) y
    = G2 (V c main_v106_0) (V c main_v108) (V c main_v115) (V c main_v116) (V c main_v117) (((cfg8.win 5).blk t).view.emb y)
  refine blk8_apply (iblk8 V c 0 t) (iblk8 V c 1 t) (iblk8 V c 2 t) (iblk8 V c 3 t) (iblk8 V c 4 t)
    (V c main_v106_0) (V c main_v108) (V c main_v115) (V c main_v116) (V c main_v117) t.val
    (rd8_0 V c t) (rd8_1 V c t) (rd8_2 V c t) (rd8_3 V c t) (rd8_4 V c t) y _ ?_ ?_
  · show win8_5.index t (0 : Fin 2) * 10000 + 1 * (y 0).val = t.val * 10000 + (y 0).val; omega
  · show win8_5.index t (1 : Fin 2) * 64 + 1 * (y 1).val = (y 1).val; omega

/-- An index of the array is in point t's block iff each coordinate is in the block's range on its axis. -/
theorem mem_blk8_5 (t : Fin cfg8.N) (i : S100000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v118).slice (win8_5.rect t)).set ↔ _
  rw [View.set_slice_whole, Rect.mem_set_unit]
  exact Iff.rfl

/-- Every index of the array is in some point's block: row r is in block r / 10000. -/
theorem cover8_5 (i : S100000x64.Idx) : ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨e0, e1⟩ : win8_5.index t (0 : Fin 2) = t.val ∧ win8_5.index t (1 : Fin 2) = 0 :=
    (by decide +kernel : ∀ t : Fin grid8.N, win8_5.index t (0 : Fin 2) = t.val ∧ win8_5.index t (1 : Fin 2) = 0) t
  refine ⟨t, flush8_5 t, ?_⟩
  rw [mem_blk8_5]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 64 ≤ (i 1).val ∧ (i 1).val < win8_5.index t (1 : Fin 2) * 64 + 64; omega

/-- The array after the region. -/
theorem final8 (c : Dev nD) : (dat8 V c).arrAt 5 cfg8.N = G2 (V c main_v106_0) (V c main_v108) (V c main_v115) (V c main_v116) (V c main_v117) :=
  (dat8 V c).arrAt_eq_of_cover 5 (G2 (V c main_v106_0) (V c main_v108) (V c main_v115) (V c main_v116) (V c main_v117))
    (fun t _ => flushed8_eq V c t) cover8_5

/-- Entry by entry. -/
theorem val8 (c : Dev nD) (i : S100000x64.Idx) :
    (dat8 V c).arrAt 5 cfg8.N i = G2 (V c main_v106_0) (V c main_v108) (V c main_v115) (V c main_v116) (V c main_v117) i :=
  congrFun (final8 V c) i

end Cert.KernelIdeal.HandValue

end
-- ==== Proof.KI.Chain3.lean ====
/-
  The kernel program's result, read through the fold of its segments (layer 3).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Fold
import proofs.«106081_j12317966204981_2_alg».proof.Proof.KI.Sem
import proofs.«106081_j12317966204981_2_alg».proof.Proof.KIH.Stages
import proofs.«106081_j12317966204981_2_alg».proof.Proof.KIV.V6
import proofs.«106081_j12317966204981_2_alg».proof.Proof.KIV.V7
import proofs.«106081_j12317966204981_2_alg».proof.Proof.KIV.V8
import proofs.«106081_j12317966204981_2_alg».proof.Proof.KI.ChainAgg

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

variable (m : (ℓ : Loc nD τ sig) → Buf (Elt Ideal) ℓ) (c : Dev nD)

/-- Layer 3: what the normalise-and-clamp region leaves, as the kernel's layer function of the layer's input and
    parameters. -/
theorem layer3_out : W16 m c (Proc.devRef .tc main_v118)
    = layerK G64 G1p G1s G1q (aggK (W0 m c (Proc.devRef .tc main_arg1))) (W11 m c (Proc.devRef .tc main_v88)) (W0 m c (Proc.devRef .tc main_arg11)) (W0 m c (Proc.devRef .tc main_arg12)) (W0 m c (Proc.devRef .tc main_arg13)) (W0 m c (Proc.devRef .tc main_arg14)) := by
  -- the projection
  have hH : W12 m c (Proc.devRef .tc main_v89) = G64 (W11 m c (Proc.devRef .tc main_v88)) (W0 m c (Proc.devRef .tc main_arg11)) := by
    have h := (hF6 m c 2).symm.trans (final6 (VT11 m) c)
    have e1 : VT11 m c main_v88 = (W11 m c (Proc.devRef .tc main_v88)) := rfl
    have e2 : VT11 m c main_arg11 = (W0 m c (Proc.devRef .tc main_arg11)) := (W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans ((W1_keep m c main_arg11 (by decide))))))))))))
    rw [e1, e2] at h
    exact h
  -- the shared index vectors and coefficients
  have hs_main_v1 : W12 m c (Proc.devRef .tc main_v1) = kSrc (W0 m c (Proc.devRef .tc main_arg1)) :=
    ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans ((W2_keep m c main_v1 (by decide))))))))))))).trans (stage0_v1 (W0 m c))
  have hs_main_v3 : W12 m c (Proc.devRef .tc main_v3) = kDst (W0 m c (Proc.devRef .tc main_arg1)) :=
    ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans ((W2_keep m c main_v3 (by decide))))))))))))).trans (stage0_v3 (W0 m c))
  have hs_main_v26 : W12 m c (Proc.devRef .tc main_v26) = kCoef (F := Ideal) (W0 m c (Proc.devRef .tc main_arg1)) :=
    ((W12_keep m c main_v26 (by decide)).trans ((W11_keep m c main_v26 (by decide)).trans ((W10_keep m c main_v26 (by decide)).trans ((W9_keep m c main_v26 (by decide)).trans ((W8_keep m c main_v26 (by decide)).trans ((W7_keep m c main_v26 (by decide)).trans ((W6_keep m c main_v26 (by decide)).trans ((W5_keep m c main_v26 (by decide)).trans ((W4_keep m c main_v26 (by decide)).trans ((W3_keep m c main_v26 (by decide)).trans ((W2_keep m c main_v26 (by decide))))))))))))).trans (stage0_v26 (W0 m c))
  have hs_main_v28 : W12 m c (Proc.devRef .tc main_v28) = kSelf (F := Ideal) (W0 m c (Proc.devRef .tc main_arg1)) :=
    ((W12_keep m c main_v28 (by decide)).trans ((W11_keep m c main_v28 (by decide)).trans ((W10_keep m c main_v28 (by decide)).trans ((W9_keep m c main_v28 (by decide)).trans ((W8_keep m c main_v28 (by decide)).trans ((W7_keep m c main_v28 (by decide)).trans ((W6_keep m c main_v28 (by decide)).trans ((W5_keep m c main_v28 (by decide)).trans ((W4_keep m c main_v28 (by decide)).trans ((W3_keep m c main_v28 (by decide)).trans ((W2_keep m c main_v28 (by decide))))))))))))).trans (stage0_v28 (W0 m c))
  -- the aggregation and the bias row
  have hC : W13 m c (Proc.devRef .tc main_v104) = aggK (W0 m c (Proc.devRef .tc main_arg1)) (W12 m c (Proc.devRef .tc main_v89)) := by
    have h := stage7_v104 (F := Ideal) (W12 m c)
    rw [hs_main_v1, hs_main_v3, hs_main_v26, hs_main_v28] at h
    exact h
  have hB : W13 m c (Proc.devRef .tc main_v105) = kBias (F := Ideal) (W0 m c (Proc.devRef .tc main_arg12)) := by
    have h := stage7_v105 (F := Ideal) (W12 m c)
    have e : W12 m c (Proc.devRef .tc main_arg12) = (W0 m c (Proc.devRef .tc main_arg12)) := (W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans ((W1_keep m c main_arg12 (by decide)))))))))))))
    rw [e] at h
    exact h
  -- the biased array and its two rows of column sums
  have hP : W14 m c (Proc.devRef .tc main_v106_0) = G1p (W13 m c (Proc.devRef .tc main_v104)) (W13 m c (Proc.devRef .tc main_v105)) :=
    (hF7 m c 2).symm.trans (final7_2 (VT13 m) c)
  have hS : W14 m c (Proc.devRef .tc main_v106_1) = G1s (W13 m c (Proc.devRef .tc main_v104)) (W13 m c (Proc.devRef .tc main_v105)) :=
    (hF7 m c 3).symm.trans (final7_3 (VT13 m) c)
  have hQ : W14 m c (Proc.devRef .tc main_v106_2) = G1q (W13 m c (Proc.devRef .tc main_v104)) (W13 m c (Proc.devRef .tc main_v105)) :=
    (hF7 m c 4).symm.trans (final7_4 (VT13 m) c)
  -- the statistics rows, the gain row and the shift row
  have hMn : W15 m c (Proc.devRef .tc main_v108) = kMean (F := Ideal) (W14 m c (Proc.devRef .tc main_v106_1)) := stage8_v108 (F := Ideal) (W14 m c)
  have hRs : W15 m c (Proc.devRef .tc main_v115) = kRsqrtVar (F := Ideal) (W14 m c (Proc.devRef .tc main_v106_1)) (W14 m c (Proc.devRef .tc main_v106_2)) := stage8_v115 (F := Ideal) (W14 m c)
  have hG : W15 m c (Proc.devRef .tc main_v116) = kBias (F := Ideal) (W0 m c (Proc.devRef .tc main_arg13)) := by
    have h := stage8_v116 (F := Ideal) (W14 m c)
    have e : W14 m c (Proc.devRef .tc main_arg13) = (W0 m c (Proc.devRef .tc main_arg13)) := (W14_keep m c main_arg13 (by decide)).trans ((W13_keep m c main_arg13 (by decide)).trans ((W12_keep m c main_arg13 (by decide)).trans ((W11_keep m c main_arg13 (by decide)).trans ((W10_keep m c main_arg13 (by decide)).trans ((W9_keep m c main_arg13 (by decide)).trans ((W8_keep m c main_arg13 (by decide)).trans ((W7_keep m c main_arg13 (by decide)).trans ((W6_keep m c main_arg13 (by decide)).trans ((W5_keep m c main_arg13 (by decide)).trans ((W4_keep m c main_arg13 (by decide)).trans ((W3_keep m c main_arg13 (by decide)).trans ((W2_keep m c main_arg13 (by decide)).trans ((W1_keep m c main_arg13 (by decide)))))))))))))))
    rw [e] at h
    exact h
  have hBt : W15 m c (Proc.devRef .tc main_v117) = kBias (F := Ideal) (W0 m c (Proc.devRef .tc main_arg14)) := by
    have h := stage8_v117 (F := Ideal) (W14 m c)
    have e : W14 m c (Proc.devRef .tc main_arg14) = (W0 m c (Proc.devRef .tc main_arg14)) := (W14_keep m c main_arg14 (by decide)).trans ((W13_keep m c main_arg14 (by decide)).trans ((W12_keep m c main_arg14 (by decide)).trans ((W11_keep m c main_arg14 (by decide)).trans ((W10_keep m c main_arg14 (by decide)).trans ((W9_keep m c main_arg14 (by decide)).trans ((W8_keep m c main_arg14 (by decide)).trans ((W7_keep m c main_arg14 (by decide)).trans ((W6_keep m c main_arg14 (by decide)).trans ((W5_keep m c main_arg14 (by decide)).trans ((W4_keep m c main_arg14 (by decide)).trans ((W3_keep m c main_arg14 (by decide)).trans ((W2_keep m c main_arg14 (by decide)).trans ((W1_keep m c main_arg14 (by decide)))))))))))))))
    rw [e] at h
    exact h
  have hP' : W15 m c (Proc.devRef .tc main_v106_0) = W14 m c (Proc.devRef .tc main_v106_0) := W15_keep m c main_v106_0 (by decide)
  -- the normalise-and-clamp region
  have hO : W16 m c (Proc.devRef .tc main_v118) = G2 (W15 m c (Proc.devRef .tc main_v106_0)) (W15 m c (Proc.devRef .tc main_v108)) (W15 m c (Proc.devRef .tc main_v115)) (W15 m c (Proc.devRef .tc main_v116)) (W15 m c (Proc.devRef .tc main_v117)) :=
    (hF8 m c 5).symm.trans (final8 (VT15 m) c)
  rw [hO, hP', hMn, hRs, hG, hBt, hP, hS, hQ, hC, hB, hH]
  rfl

end Cert.KernelIdeal.HandChain

end
-- ==== Proof.KIV.V9.lean ====
/-
  Region 9 on the extended reals: the output array after the region is the product of the 100000 x 64 array and the
  64 x 64 weight matrix the region finds, entry by entry. Point t of the grid holds rows 10000 t .. 10000 t + 9999; the ten
  row blocks tile the array.
-/
import proofs.«106081_j12317966204981_2_alg».proof.Proof.KI.R9
import proofs.«106081_j12317966204981_2_alg».proof.Proof.KIV.VMat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

/-! ## The loaded blocks as parts of the arrays -/

/-- The loaded block of window 0 at point t is rows 10000 t .. 10000 t + 9999 of its array. -/
theorem rd9_0 (c : Dev nD) (t : Fin cfg9.N) (p : Fin 10000) (q : Fin 64) (r : Fin 100000) (hr : r.val = t.val * 10000 + p.val) :
    (iblk9 V c 0 t : S10000x64.Idx → EReal) (ix2 p q) = (V c main_v118 : S100000x64.Idx → EReal) (ix2 r q) := by
  obtain ⟨e0, e1⟩ : win9_0.index t (0 : Fin 2) = t.val ∧ win9_0.index t (1 : Fin 2) = 0 :=
    (by decide +kernel : ∀ t : Fin grid9.N, win9_0.index t (0 : Fin 2) = t.val ∧ win9_0.index t (1 : Fin 2) = 0) t
  unfold iblk9
  rw [View.read_apply]
  show V c main_v118 _ = V c main_v118 _
  congr 1
  funext a
  apply Fin.ext
  match a with
  | ⟨0, _⟩ => show win9_0.index t (0 : Fin 2) * 10000 + 1 * p.val = r.val; omega
  | ⟨1, _⟩ => show win9_0.index t (1 : Fin 2) * 64 + 1 * q.val = q.val; omega

/-- The loaded block of window 1 is the whole of its array. -/
theorem rd9_1 (c : Dev nD) (t : Fin cfg9.N) (k : Fin 64) (j : Fin 64) :
    (iblk9 V c 1 t : S64x64.Idx → EReal) (ix2 k j) = (V c main_arg15 : S64x64.Idx → EReal) (ix2 k j) := by
  obtain ⟨e0, e1⟩ : win9_1.index t (0 : Fin 2) = 0 ∧ win9_1.index t (1 : Fin 2) = 0 :=
    (by decide +kernel : ∀ t : Fin grid9.N, win9_1.index t (0 : Fin 2) = 0 ∧ win9_1.index t (1 : Fin 2) = 0) t
  unfold iblk9
  rw [View.read_apply]
  show V c main_arg15 _ = V c main_arg15 _
  congr 1
  funext a
  apply Fin.ext
  match a with
  | ⟨0, _⟩ => show win9_1.index t (0 : Fin 2) * 64 + 1 * k.val = k.val; omega
  | ⟨1, _⟩ => show win9_1.index t (1 : Fin 2) * 64 + 1 * j.val = j.val; omega

/-! ## From the blocks to the array -/

/-- What point t writes back is block t of the product of the arrays as the region finds them. -/
theorem flushed9_eq (c : Dev nD) (t : Fin cfg9.N) :
    (dat9 V c).flushed 2 t = ((cfg9.win 2).blk t).view.read (Elt Ideal) (G64 (V c main_v118) (V c main_arg15)) := by
  show (cfg9.win 2).cut (grid9.coords t) ((dat9 V c).after 2 t) = _
  rw [after9_2]
  unfold out9_2
  rw [View.canon_unit_zero hz9]
  simp only [View.ld_unit_zero (S := S10000x64) hz9, View.ld_unit_zero (S := S64x64) hz9]
  obtain ⟨e0, e1⟩ : win9_2.index t (0 : Fin 2) = t.val ∧ win9_2.index t (1 : Fin 2) = 0 :=
    (by decide +kernel : ∀ t : Fin grid9.N, win9_2.index t (0 : Fin 2) = t.val ∧ win9_2.index t (1 : Fin 2) = 0) t
  funext y
  show k9_pay1 (iblk9 V c 0 t) (iblk9 V c 1 t) y = G64 (V c main_v118) (V c main_arg15) (((cfg9.win 2).blk t).view.emb y)
  refine blk64_apply (k9_pay1 (iblk9 V c 0 t) (iblk9 V c 1 t)) (iblk9 V c 0 t) (iblk9 V c 1 t)
    (pay9_apply (iblk9 V c 0 t) (iblk9 V c 1 t)) (V c main_v118) (V c main_arg15) t.val (rd9_0 V c t) (rd9_1 V c t) y _ ?_ ?_
  · show win9_2.index t (0 : Fin 2) * 10000 + 1 * (y 0).val = t.val * 10000 + (y 0).val; omega
  · show win9_2.index t (1 : Fin 2) * 64 + 1 * (y 1).val = (y 1).val; omega

/-- An index of the array is in point t's block iff each coordinate is in the block's range on its axis. -/
theorem mem_blk9_2 (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v119).slice (win9_2.rect t)).set ↔ _
  rw [View.set_slice_whole, Rect.mem_set_unit]
  exact Iff.rfl

/-- Every index of the array is in some point's block: row r is in block r / 10000. -/
theorem cover9_2 (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 10 := N_9
  obtain ⟨t, ht⟩ : ∃ t : Fin cfg9.N, t.val = (i 0).val / 10000 := ⟨⟨(i 0).val / 10000, by rw [hN]; omega⟩, rfl⟩
  obtain ⟨e0, e1⟩ : win9_2.index t (0 : Fin 2) = t.val ∧ win9_2.index t (1 : Fin 2) = 0 :=
    (by decide +kernel : ∀ t : Fin grid9.N, win9_2.index t (0 : Fin 2) = t.val ∧ win9_2.index t (1 : Fin 2) = 0) t
  refine ⟨t, flush9_2 t, ?_⟩
  rw [mem_blk9_2]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 64 ≤ (i 1).val ∧ (i 1).val < win9_2.index t (1 : Fin 2) * 64 + 64; omega

/-- The array after the region is the product. -/
theorem final9 (c : Dev nD) : (dat9 V c).arrAt 2 cfg9.N = G64 (V c main_v118) (V c main_arg15) :=
  (dat9 V c).arrAt_eq_of_cover 2 (G64 (V c main_v118) (V c main_arg15)) (fun t _ => flushed9_eq V c t) cover9_2

/-- Entry by entry. -/
theorem val9 (c : Dev nD) (i : S100000x64.Idx) :
    (dat9 V c).arrAt 2 cfg9.N i = G64 (V c main_v118) (V c main_arg15) i :=
  congrFun (final9 V c) i

end Cert.KernelIdeal.HandValue

end
-- ==== Proof.KIV.V10a.lean ====
/-
  Region 10, one grid point: what the body leaves in each of its buffers, as the payloads of the loaded blocks. At every
  point the pre-activation block is the loaded block plus the bias row; each of the two running rows (and the output row
  that copies it) is the row it held plus the column sums of the pre-activation block, respectively of its square; at
  the first point the rows held are the zero rows the body has just stored.
-/
import proofs.«106081_j12317966204981_2_alg».proof.Proof.KI.R10b
import proofs.«106081_j12317966204981_2_alg».proof.Proof.KIV.V1a
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz10 : (![0, 0] : Fin 2 → Nat) = fun _ => 0 := funext fun a => by fin_cases a <;> rfl

/-! ## The first point -/

section A
variable (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond10_0 i) (x0 : Vec F S10000x64 .f32) (x1 : Vec F S1x64 .f32)

theorem run10A_pre : View.canon (kernelRun10_A c i arg1 harg1 arg2 harg2 arg3 harg3 arg4 harg4 arg5 harg5 arg6 harg6 arg7 harg7 hc0 x0 x1).1 = k10_pay3 x0 x1 := by
  unfold kernelRun10_A
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, View.ld_unit_zero (S := S10000x64) hz10, View.ld_unit_zero (S := S1x64) hz10]

theorem run10A_sum : View.canon (kernelRun10_A c i arg1 harg1 arg2 harg2 arg3 harg3 arg4 harg4 arg5 harg5 arg6 harg6 arg7 harg7 hc0 x0 x1).2.1 = k10_pay4 x0 x1 (k10_pay1 (F := F)) := by
  unfold kernelRun10_A
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, View.ld_unit_zero (S := S10000x64) hz10, View.ld_unit_zero (S := S1x64) hz10]

theorem run10A_sq : View.canon (kernelRun10_A c i arg1 harg1 arg2 harg2 arg3 harg3 arg4 harg4 arg5 harg5 arg6 harg6 arg7 harg7 hc0 x0 x1).2.2.1 = k10_pay5 x0 x1 (k10_pay2 (F := F)) := by
  unfold kernelRun10_A
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, View.ld_unit_zero (S := S10000x64) hz10, View.ld_unit_zero (S := S1x64) hz10]

theorem run10A_scL : View.canon (kernelRun10_A c i arg1 harg1 arg2 harg2 arg3 harg3 arg4 harg4 arg5 harg5 arg6 harg6 arg7 harg7 hc0 x0 x1).2.2.2.1 = k10_pay4 x0 x1 (k10_pay1 (F := F)) := by
  unfold kernelRun10_A
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, View.ld_unit_zero (S := S10000x64) hz10, View.ld_unit_zero (S := S1x64) hz10]

theorem run10A_scR : View.canon (kernelRun10_A c i arg1 harg1 arg2 harg2 arg3 harg3 arg4 harg4 arg5 harg5 arg6 harg6 arg7 harg7 hc0 x0 x1).2.2.2.2.1 = k10_pay5 x0 x1 (k10_pay2 (F := F)) := by
  unfold kernelRun10_A
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, View.ld_unit_zero (S := S10000x64) hz10, View.ld_unit_zero (S := S1x64) hz10]
end A

/-! ## A later point -/

section B
variable (c : Dev nD) (i : grid10.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond10_0 i) (x0 : Vec F S10000x64 .f32) (x1 : Vec F S1x64 .f32) (xs6 xs7 : Vec F S1x64 .f32)

theorem run10B_pre : View.canon (kernelRun10_B c i arg1 harg1 arg2 harg2 arg3 harg3 arg4 harg4 arg5 harg5 arg6 harg6 arg7 harg7 hc0 x0 x1 xs6 xs7).1 = k10_pay3 x0 x1 := by
  unfold kernelRun10_B
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, harg6.read_unread, harg7.read_unread, View.ld_unit_zero (S := S10000x64) hz10, View.ld_unit_zero (S := S1x64) hz10]

theorem run10B_sum : View.canon (kernelRun10_B c i arg1 harg1 arg2 harg2 arg3 harg3 arg4 harg4 arg5 harg5 arg6 harg6 arg7 harg7 hc0 x0 x1 xs6 xs7).2.1 = k10_pay4 x0 x1 xs6 := by
  unfold kernelRun10_B
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, harg6.read_unread, harg7.read_unread, View.ld_unit_zero (S := S10000x64) hz10, View.ld_unit_zero (S := S1x64) hz10]

theorem run10B_sq : View.canon (kernelRun10_B c i arg1 harg1 arg2 harg2 arg3 harg3 arg4 harg4 arg5 harg5 arg6 harg6 arg7 harg7 hc0 x0 x1 xs6 xs7).2.2.1 = k10_pay5 x0 x1 xs7 := by
  unfold kernelRun10_B
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, harg6.read_unread, harg7.read_unread, View.ld_unit_zero (S := S10000x64) hz10, View.ld_unit_zero (S := S1x64) hz10]

theorem run10B_scL : View.canon (kernelRun10_B c i arg1 harg1 arg2 harg2 arg3 harg3 arg4 harg4 arg5 harg5 arg6 harg6 arg7 harg7 hc0 x0 x1 xs6 xs7).2.2.2.1 = k10_pay4 x0 x1 xs6 := by
  unfold kernelRun10_B
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, harg6.read_unread, harg7.read_unread, View.ld_unit_zero (S := S10000x64) hz10, View.ld_unit_zero (S := S1x64) hz10]

theorem run10B_scR : View.canon (kernelRun10_B c i arg1 harg1 arg2 harg2 arg3 harg3 arg4 harg4 arg5 harg5 arg6 harg6 arg7 harg7 hc0 x0 x1 xs6 xs7).2.2.2.2.1 = k10_pay5 x0 x1 xs7 := by
  unfold kernelRun10_B
  dsimp only
  try sl_unfold_words
  simp only [View.canon_unit_zero (S := S10000x64) hz10, View.canon_unit_zero (S := S1x64) hz10, View.canon_cons_unit_zero (S := S1x64) hz10,
    View.readCov_unit_zero (S := S1x64) _ hz10, readCov_cons_unit_zero (S := S1x64) _ hz10,
    View.readAt_eq_ld, harg1.read_unread, harg2.read_unread, harg6.read_unread, harg7.read_unread, View.ld_unit_zero (S := S10000x64) hz10, View.ld_unit_zero (S := S1x64) hz10]
end B

end Cert.KernelIdeal.HandValue

end
-- ==== Proof.KIV.V10b.lean ====
/-
  Region 10 on the extended reals, along the grid: the two running rows after n points. With Cm the 100000 x 64 array and B
  the bias row the region finds, after n points the first row holds, in column q, the sum over the first n row blocks of
  Cm (r, q) + B (0, q), and the second the sum of its squares; after all ten points these are the sums over all 100000 rows.
  Sums on the extended reals are sums in a commutative monoid: no finiteness is used.
-/
import proofs.«106081_j12317966204981_2_alg».proof.Proof.KIV.V10a
import proofs.«106081_j12317966204981_2_alg».proof.Proof.KIV.V1b
import proofs.«106081_j12317966204981_2_alg».proof.Proof.LibBlockSum
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payloads at an index -/

/-- The zero row. -/
theorem pay10_1_apply (q : Fin 64) : (k10_pay1 (F := Ideal) : S1x64.Idx → EReal) (ix2 (0 : Fin 1) q) = 0 := by
  unfold k10_pay1
  simp only [shapeCast_self]
  rw [broadcast_apply]
  exact Ideal.ofBits_zero_f32

/-- The pre-activation block: the loaded entry plus the bias row's entry in its column. -/
theorem pay10_3_apply (x0 : Vec Ideal S10000x64 .f32) (x1 : Vec Ideal S1x64 .f32) (p : Fin 10000) (q : Fin 64) :
    k10_pay3 x0 x1 (ix2 p q) = (x0 : S10000x64.Idx → EReal) (ix2 p q) + (x1 : S1x64.Idx → EReal) (ix2 (0 : Fin 1) q) := by
  unfold k10_pay3
  rw [addf_apply]
  simp only [shapeCast_self]
  rw [broadcastTo_1b_ab_apply]

/-- The first running row after the body: the row it held plus the column sums of the pre-activation block. -/
theorem pay10_4_apply (x0 : Vec Ideal S10000x64 .f32) (x1 v : Vec Ideal S1x64 .f32) (q : Fin 64) :
    k10_pay4 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q)) := by
  unfold k10_pay4
  simp only [shapeCast_self]
  rw [addf_apply, shapeCast_a_1a_apply]
  refine congrArg (fun z => (v : S1x64.Idx → EReal) (ix2 (0 : Fin 1) q) + z) ?_
  exact (colsum_apply _ _ q).trans (Finset.sum_congr rfl fun p _ => pay10_3_apply x0 x1 p q)

/-- The second running row after the body: the row it held plus the column sums of the squared pre-activation block. -/
theorem pay10_5_apply (x0 : Vec Ideal S10000x64 .f32) (x1 v : Vec Ideal S1x64 .f32) (q : Fin 64) :
    k10_pay5 x0 x1 v (ix2 (0 : Fin 1) q) = (v : S1x64.Idx → EReal) (ix2 (0 : Fin 1) q)
      + ∑ p : Fin 10000, ((x0 : S10000x64.Idx → EReal) (ix2 p q) + (x1 : S1x64.Idx → EReal) (ix2 (0 : Fin 1) q))
          * ((x0 : S10000x64.Idx → EReal) (ix2 p q) + (x1 : S1x64.Idx → EReal) (ix2 (0 : Fin 1) q)) := by
  unfold k10_pay5
  simp only [shapeCast_self]
  rw [addf_apply, shapeCast_a_1a_apply]
  refine congrArg (fun z => (v : S1x64.Idx → EReal) (ix2 (0 : Fin 1) q) + z) ?_
  refine (colsum_apply _ _ q).trans (Finset.sum_congr rfl fun p _ => ?_)
  rw [mulf_apply, pay10_3_apply]

/-! ## One point, whatever it is -/

/-- The pre-activation block after point t. -/
theorem pre10At_eq (c : Dev nD) (t : Fin cfg10.N) (a b : Vec Ideal S1x64 .f32) :
    pre10At V c t a b = k10_pay3 (iblk10 V c 0 t) (iblk10 V c 1 t) := by
  unfold pre10At
  split
  · exact run10A_pre ..
  · exact run10B_pre ..

/-- At the first point the rows before it are the zero row. -/
theorem scB10_first (c : Dev nD) (t : Fin cfg10.N) (hc : cond10_0 (grid10.coords t)) :
    scB10 V c t.val = (k10_pay1 (F := Ideal), k10_pay1 (F := Ideal)) := by
  have hN : cfg10.N = 10 := N_10
  have h0 : t.val = 0 := by have := (hcond10_0 t).mp hc; have := t.isLt; omega
  rw [h0]
  rfl

/-- The first running row after point t, from the rows before it. -/
theorem scL10At_eq (c : Dev nD) (t : Fin cfg10.N) :
    scL10At V c t (scB10 V c t.val).1 (scB10 V c t.val).2 = k10_pay4 (iblk10 V c 0 t) (iblk10 V c 1 t) (scB10 V c t.val).1 := by
  unfold scL10At
  split
  · next hc => rw [scB10_first V c t hc]; exact run10A_scL ..
  · exact run10B_scL ..

/-- The second running row after point t, from the rows before it. -/
theorem scR10At_eq (c : Dev nD) (t : Fin cfg10.N) :
    scR10At V c t (scB10 V c t.val).1 (scB10 V c t.val).2 = k10_pay5 (iblk10 V c 0 t) (iblk10 V c 1 t) (scB10 V c t.val).2 := by
  unfold scR10At
  split
  · next hc => rw [scB10_first V c t hc]; exact run10A_scR ..
  · exact run10B_scR ..

/-- The first output row after point t is the first running row after it. -/
theorem sum10At_eq (c : Dev nD) (t : Fin cfg10.N) :
    sum10At V c t (scB10 V c t.val).1 (scB10 V c t.val).2 = (scB10 V c (t.val + 1)).1 := by
  rw [scB10_succ, scL10At_eq]
  unfold sum10At
  split
  · next hc => rw [scB10_first V c t hc]; exact run10A_sum ..
  · exact run10B_sum ..

/-- The second output row after point t is the second running row after it. -/
theorem sq10At_eq (c : Dev nD) (t : Fin cfg10.N) :
    sq10At V c t (scB10 V c t.val).1 (scB10 V c t.val).2 = (scB10 V c (t.val + 1)).2 := by
  rw [scB10_succ, scR10At_eq]
  unfold sq10At
  split
  · next hc => rw [scB10_first V c t hc]; exact run10A_sq ..
  · exact run10B_sq ..

/-! ## The loaded blocks as parts of the arrays -/

/-- The loaded block of window 0 at point t is rows 10000 t .. 10000 t + 9999 of its array. -/
theorem rd10_0 (c : Dev nD) (t : Fin cfg10.N) (p : Fin 10000) (q : Fin 64) (r : Fin 100000) (hr : r.val = t.val * 10000 + p.val) :
    (iblk10 V c 0 t : S10000x64.Idx → EReal) (ix2 p q) = (V c main_v134 : S100000x64.Idx → EReal) (ix2 r q) := by
  obtain ⟨e0, e1⟩ : win10_0.index t (0 : Fin 2) = t.val ∧ win10_0.index t (1 : Fin 2) = 0 :=
    (by decide +kernel : ∀ t : Fin grid10.N, win10_0.index t (0 : Fin 2) = t.val ∧ win10_0.index t (1 : Fin 2) = 0) t
  unfold iblk10
  rw [View.read_apply]
  show V c main_v134 _ = V c main_v134 _
  congr 1
  funext a
  apply Fin.ext
  match a with
  | ⟨0, _⟩ => show win10_0.index t (0 : Fin 2) * 10000 + 1 * p.val = r.val; omega
  | ⟨1, _⟩ => show win10_0.index t (1 : Fin 2) * 64 + 1 * q.val = q.val; omega

/-- The loaded block of window 1 is the whole one-row array. -/
theorem rd10_1 (c : Dev nD) (t : Fin cfg10.N) (q : Fin 64) :
    (iblk10 V c 1 t : S1x64.Idx → EReal) (ix2 (0 : Fin 1) q) = (V c main_v135 : S1x64.Idx → EReal) (ix2 (0 : Fin 1) q) := by
  obtain ⟨e0, e1⟩ : win10_1.index t (0 : Fin 2) = 0 ∧ win10_1.index t (1 : Fin 2) = 0 :=
    (by decide +kernel : ∀ t : Fin grid10.N, win10_1.index t (0 : Fin 2) = 0 ∧ win10_1.index t (1 : Fin 2) = 0) t
  unfold iblk10
  rw [View.read_apply]
  show V c main_v135 _ = V c main_v135 _
  congr 1
  funext a
  apply Fin.ext
  match a with
  | ⟨0, _⟩ => show win10_1.index t (0 : Fin 2) * 1 + 1 * 0 = 0; omega
  | ⟨1, _⟩ => show win10_1.index t (1 : Fin 2) * 64 + 1 * q.val = q.val; omega

/-! ## The running rows after n points -/

/-- The two running rows before point n, in column q: the first n blocks' sums. -/
theorem scB10_apply (c : Dev nD) (q : Fin 64) : ∀ n : ℕ, n ≤ 10 →
    ((scB10 V c n).1 : S1x64.Idx → EReal) (ix2 (0 : Fin 1) q) = ∑ s ∈ Finset.range n, blk1 (pre1 (V c main_v134) (V c main_v135) q) s
    ∧ ((scB10 V c n).2 : S1x64.Idx → EReal) (ix2 (0 : Fin 1) q)
        = ∑ s ∈ Finset.range n, blk1 (fun r => pre1 (V c main_v134) (V c main_v135) q r * pre1 (V c main_v134) (V c main_v135) q r) s
  | 0, _ => by
    rw [Finset.sum_range_zero, Finset.sum_range_zero]
    exact ⟨pay10_1_apply q, pay10_1_apply q⟩
  | n + 1, hn => by
    have hN : cfg10.N = 10 := N_10
    have h : n < cfg10.N := by rw [hN]; omega
    obtain ⟨ih1, ih2⟩ := scB10_apply c q n (by omega)
    have e := scB10_succ V c ⟨n, h⟩
    have hb := pre1_blk (iblk10 V c 0 ⟨n, h⟩) (iblk10 V c 1 ⟨n, h⟩) (V c main_v134) (V c main_v135) n (rd10_0 V c ⟨n, h⟩) (rd10_1 V c ⟨n, h⟩) q ⟨n, by omega⟩ rfl
    rw [show scB10 V c (n + 1) = _ from e, Finset.sum_range_succ, Finset.sum_range_succ]
    constructor
    · show (scL10At V c ⟨n, h⟩ (scB10 V c n).1 (scB10 V c n).2 : S1x64.Idx → EReal) (ix2 (0 : Fin 1) q) = _
      rw [show scL10At V c ⟨n, h⟩ (scB10 V c n).1 (scB10 V c n).2 = _ from scL10At_eq V c ⟨n, h⟩, pay10_4_apply]
      show ((scB10 V c n).1 : S1x64.Idx → EReal) (ix2 (0 : Fin 1) q) + _ = _
      rw [ih1]
      refine congrArg (fun z => _ + z) ?_
      unfold blk1
      rw [dif_pos (by omega : n < 10)]
      exact Finset.sum_congr rfl fun p _ => hb p
    · show (scR10At V c ⟨n, h⟩ (scB10 V c n).1 (scB10 V c n).2 : S1x64.Idx → EReal) (ix2 (0 : Fin 1) q) = _
      rw [show scR10At V c ⟨n, h⟩ (scB10 V c n).1 (scB10 V c n).2 = _ from scR10At_eq V c ⟨n, h⟩, pay10_5_apply]
      show ((scB10 V c n).2 : S1x64.Idx → EReal) (ix2 (0 : Fin 1) q) + _ = _
      rw [ih2]
      refine congrArg (fun z => _ + z) ?_
      unfold blk1
      rw [dif_pos (by omega : n < 10)]
      exact Finset.sum_congr rfl fun p _ => congrArg (fun z : EReal => z * z) (hb p)

/-- After all ten points: the sums over all 100000 rows. -/
theorem scB10_last (c : Dev nD) (q : Fin 64) :
    ((scB10 V c 10).1 : S1x64.Idx → EReal) (ix2 (0 : Fin 1) q) = ∑ r : Fin 100000, pre1 (V c main_v134) (V c main_v135) q r
    ∧ ((scB10 V c 10).2 : S1x64.Idx → EReal) (ix2 (0 : Fin 1) q)
        = ∑ r : Fin 100000, pre1 (V c main_v134) (V c main_v135) q r * pre1 (V c main_v134) (V c main_v135) q r := by
  obtain ⟨h1, h2⟩ := scB10_apply V c q 10 (le_refl _)
  rw [h1, h2, sum_blk1, sum_blk1]
  exact ⟨rfl, rfl⟩

end Cert.KernelIdeal.HandValue

end
-- ==== Proof.KIV.V10.lean ====
/-
  Region 10 on the extended reals: its three output arrays after the region, index by index. With Cm the 100000 x 64 array
  and B the bias row the region finds: the pre-activation array holds Cm (r, j) + B (0, j); the first output row holds, in
  column j, the sum over all 100000 rows r of Cm (r, j) + B (0, j); the second the sum of the squares of the same terms.
  The pre-activation array is written block by block; the two rows are written back once, after the last point.
-/
import proofs.«106081_j12317966204981_2_alg».proof.Proof.KI.R10b
import proofs.«106081_j12317966204981_2_alg».proof.Proof.KIV.V10b
import proofs.«106081_j12317966204981_2_alg».proof.Proof.KIV.V1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz10' : (![0, 0] : Fin 2 → Nat) = fun _ => 0 := funext fun a => by fin_cases a <;> rfl

/-! ## The pre-activation array, block by block -/

/-- The pre-activation block when the loaded block is rows n * 10000 .. n * 10000 + 9999 of an array Cm and the loaded
    row the whole of a one-row array B: at block index y it is the array's entry at the index i that y sits at. -/
theorem blk10p_apply (x0 : Vec Ideal S10000x64 .f32) (x1 : Vec Ideal S1x64 .f32)
    (Cm : S100000x64.Idx → EReal) (B : S1x64.Idx → EReal) (n : ℕ)
    (h0 : ∀ (p : Fin 10000) (q : Fin 64) (r : Fin 100000), r.val = n * 10000 + p.val → x0 (ix2 p q) = Cm (ix2 r q))
    (h1 : ∀ q : Fin 64, x1 (ix2 (0 : Fin 1) q) = B (ix2 (0 : Fin 1) q))
    (y : S10000x64.Idx) (i : S100000x64.Idx) (hr : (i 0).val = n * 10000 + (y 0).val) (hj : (i 1).val = (y 1).val) :
    k10_pay3 x0 x1 y = G1p Cm B i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = Cm (ix2 r j) + B (ix2 (0 : Fin 1) j)
  rw [pay10_3_apply, h0 p j r hr, h1 j]

/-- What point t writes back to the pre-activation array is block t of it. -/
theorem flushed10_2_eq (c : Dev nD) (t : Fin cfg10.N) :
    (dat10 V c).flushed 2 t = ((cfg10.win 2).blk t).view.read (Elt Ideal) (G1p (V c main_v134) (V c main_v135)) := by
  show (cfg10.win 2).cut (grid10.coords t) ((dat10 V c).after 2 t) = _
  rw [after10_2, pre10At_eq]
  obtain ⟨e0, e1⟩ : win10_2.index t (0 : Fin 2) = t.val ∧ win10_2.index t (1 : Fin 2) = 0 :=
    (by decide +kernel : ∀ t : Fin grid10.N, win10_2.index t (0 : Fin 2) = t.val ∧ win10_2.index t (1 : Fin 2) = 0) t
  funext y
  show k10_pay3 (iblk10 V c 0 t) (iblk10 V c 1 t) y = G1p (V c main_v134) (V c main_v135) (((cfg10.win 2).blk t).view.emb y)
  refine blk10p_apply (iblk10 V c 0 t) (iblk10 V c 1 t) (V c main_v134) (V c main_v135) t.val (rd10_0 V c t) (rd10_1 V c t) y _ ?_ ?_
  · show win10_2.index t (0 : Fin 2) * 10000 + 1 * (y 0).val = t.val * 10000 + (y 0).val; omega
  · show win10_2.index t (1 : Fin 2) * 64 + 1 * (y 1).val = (y 1).val; omega

/-- An index of the array is in point t's block iff each coordinate is in the block's range on its axis. -/
theorem mem_blk10_2 (t : Fin cfg10.N) (i : S100000x64.Idx) :
    i ∈ ((cfg10.win 2).blk t).view.set ↔ ∀ a : Fin 2, win10_2.index t a * S10000x64.size a ≤ (i a).val ∧ (i a).val < win10_2.index t a * S10000x64.size a + S10000x64.size a := by
  show i ∈ ((View.whole main_v136_0).slice (win10_2.rect t)).set ↔ _
  rw [View.set_slice_whole, Rect.mem_set_unit]
  exact Iff.rfl

/-- Every index of the array is in some point's block: row r is in block r / 10000. -/
theorem cover10_2 (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  have hN : cfg10.N = 10 := N_10
  obtain ⟨t, ht⟩ : ∃ t : Fin cfg10.N, t.val = (i 0).val / 10000 := ⟨⟨(i 0).val / 10000, by rw [hN]; omega⟩, rfl⟩
  obtain ⟨e0, e1⟩ : win10_2.index t (0 : Fin 2) = t.val ∧ win10_2.index t (1 : Fin 2) = 0 :=
    (by decide +kernel : ∀ t : Fin grid10.N, win10_2.index t (0 : Fin 2) = t.val ∧ win10_2.index t (1 : Fin 2) = 0) t
  refine ⟨t, flush10_2 t, ?_⟩
  rw [mem_blk10_2]
  intro a
  match a with
  | ⟨0, _⟩ => show win10_2.index t (0 : Fin 2) * 10000 ≤ (i 0).val ∧ (i 0).val < win10_2.index t (0 : Fin 2) * 10000 + 10000; omega
  | ⟨1, _⟩ => show win10_2.index t (1 : Fin 2) * 64 ≤ (i 1).val ∧ (i 1).val < win10_2.index t (1 : Fin 2) * 64 + 64; omega

/-- The pre-activation array after the region. -/
theorem final10_2 (c : Dev nD) : (dat10 V c).arrAt 2 cfg10.N = G1p (V c main_v134) (V c main_v135) :=
  (dat10 V c).arrAt_eq_of_cover 2 (G1p (V c main_v134) (V c main_v135)) (fun t _ => flushed10_2_eq V c t) cover10_2

/-! ## The two rows, written back once -/

set_option maxRecDepth 131072 in
/-- What the last point writes back to output row 3 is the whole of that row. -/
theorem flushed10_3_eq (c : Dev nD) (t : Fin cfg10.N) (hf : (cfg10.win 3).flush t = true) :
    (dat10 V c).flushed 3 t = ((cfg10.win 3).blk t).view.read (Elt Ideal) (G1s (V c main_v134) (V c main_v135)) := by
  have hN : cfg10.N = 10 := N_10
  have h9 : t.val + 1 = 10 := by have := (flush10_3 t).mp hf; have := t.isLt; omega
  show (cfg10.win 3).cut (grid10.coords t) ((dat10 V c).after 3 t) = _
  rw [after10_3, sum10At_eq, h9]
  have hrow : ∀ q : Fin 64, ((scB10 V c 10).1 : S1x64.Idx → EReal) (ix2 (0 : Fin 1) q)
      = G1s (V c main_v134) (V c main_v135) (ix2 (0 : Fin 1) q) := fun q => (scB10_last V c q).1
  generalize (scB10 V c 10).1 = row at hrow ⊢
  obtain ⟨e0, e1⟩ : win10_3.index t (0 : Fin 2) = 0 ∧ win10_3.index t (1 : Fin 2) = 0 :=
    (by decide +kernel : ∀ t : Fin grid10.N, win10_3.index t (0 : Fin 2) = 0 ∧ win10_3.index t (1 : Fin 2) = 0) t
  funext y
  show (row : S1x64.Idx → EReal) y = G1s (V c main_v134) (V c main_v135) (((cfg10.win 3).blk t).view.emb y)
  refine row64_apply _ _ hrow y _ ?_
  show win10_3.index t (1 : Fin 2) * 64 + 1 * (y 1).val = (y 1).val; omega

/-- An index of the row is in point t's block iff each coordinate is in the block's range on its axis. -/
theorem mem_blk10_3 (t : Fin cfg10.N) (i : S1x64.Idx) :
    i ∈ ((cfg10.win 3).blk t).view.set ↔ ∀ a : Fin 2, win10_3.index t a * S1x64.size a ≤ (i a).val ∧ (i a).val < win10_3.index t a * S1x64.size a + S1x64.size a := by
  show i ∈ ((View.whole main_v136_1).slice (win10_3.rect t)).set ↔ _
  rw [View.set_slice_whole, Rect.mem_set_unit]
  exact Iff.rfl

/-- Every index of the row is in the last point's block, the one that is written back. -/
theorem cover10_3 (i : S1x64.Idx) : ∃ t : Fin cfg10.N, (cfg10.win 3).flush t = true ∧ i ∈ ((cfg10.win 3).blk t).view.set := by
  have hi0 : (i 0).val < 1 := (i 0).isLt
  have hi1 : (i 1).val < 64 := (i 1).isLt
  have hN : cfg10.N = 10 := N_10
  obtain ⟨t, ht⟩ : ∃ t : Fin cfg10.N, t.val = 9 := ⟨⟨9, by rw [hN]; omega⟩, rfl⟩
  obtain ⟨e0, e1⟩ : win10_3.index t (0 : Fin 2) = 0 ∧ win10_3.index t (1 : Fin 2) = 0 :=
    (by decide +kernel : ∀ t : Fin grid10.N, win10_3.index t (0 : Fin 2) = 0 ∧ win10_3.index t (1 : Fin 2) = 0) t
  refine ⟨t, (flush10_3 t).mpr (by omega), ?_⟩
  rw [mem_blk10_3]
  intro a
  match a with
  | ⟨0, _⟩ => show win10_3.index t (0 : Fin 2) * 1 ≤ (i 0).val ∧ (i 0).val < win10_3.index t (0 : Fin 2) * 1 + 1; omega
  | ⟨1, _⟩ => show win10_3.index t (1 : Fin 2) * 64 ≤ (i 1).val ∧ (i 1).val < win10_3.index t (1 : Fin 2) * 64 + 64; omega

/-- The row of column sums after the region. -/
theorem final10_3 (c : Dev nD) : (dat10 V c).arrAt 3 cfg10.N = G1s (V c main_v134) (V c main_v135) :=
  (dat10 V c).arrAt_eq_of_cover 3 (G1s (V c main_v134) (V c main_v135)) (fun t hf => flushed10_3_eq V c t hf) cover10_3

set_option maxRecDepth 131072 in
/-- What the last point writes back to output row 4 is the whole of that row. -/
theorem flushed10_4_eq (c : Dev nD) (t : Fin cfg10.N) (hf : (cfg10.win 4).flush t = true) :
    (dat10 V c).flushed 4 t = ((cfg10.win 4).blk t).view.read (Elt Ideal) (G1q (V c main_v134) (V c main_v135)) := by
  have hN : cfg10.N = 10 := N_10
  have h9 : t.val + 1 = 10 := by have := (flush10_4 t).mp hf; have := t.isLt; omega
  show (cfg10.win 4).cut (grid10.coords t) ((dat10 V c).after 4 t) = _
  rw [after10_4, sq10At_eq, h9]
  have hrow : ∀ q : Fin 64, ((scB10 V c 10).2 : S1x64.Idx → EReal) (ix2 (0 : Fin 1) q)
      = G1q (V c main_v134) (V c main_v135) (ix2 (0 : Fin 1) q) := fun q => (scB10_last V c q).2
  generalize (scB10 V c 10).2 = row at hrow ⊢
  obtain ⟨e0, e1⟩ : win10_4.index t (0 : Fin 2) = 0 ∧ win10_4.index t (1 : Fin 2) = 0 :=
    (by decide +kernel : ∀ t : Fin grid10.N, win10_4.index t (0 : Fin 2) = 0 ∧ win10_4.index t (1 : Fin 2) = 0) t
  funext y
  show (row : S1x64.Idx → EReal) y = G1q (V c main_v134) (V c main_v135) (((cfg10.win 4).blk t).view.emb y)
  refine row64_apply _ _ hrow y _ ?_
  show win10_4.index t (1 : Fin 2) * 64 + 1 * (y 1).val = (y 1).val; omega

/-- An index of the row is in point t's block iff each coordinate is in the block's range on its axis. -/
theorem mem_blk10_4 (t : Fin cfg10.N) (i : S1x64.Idx) :
    i ∈ ((cfg10.win 4).blk t).view.set ↔ ∀ a : Fin 2, win10_4.index t a * S1x64.size a ≤ (i a).val ∧ (i a).val < win10_4.index t a * S1x64.size a + S1x64.size a := by
  show i ∈ ((View.whole main_v136_2).slice (win10_4.rect t)).set ↔ _
  rw [View.set_slice_whole, Rect.mem_set_unit]
  exact Iff.rfl

/-- Every index of the row is in the last point's block, the one that is written back. -/
theorem cover10_4 (i : S1x64.Idx) : ∃ t : Fin cfg10.N, (cfg10.win 4).flush t = true ∧ i ∈ ((cfg10.win 4).blk t).view.set := by
  have hi0 : (i 0).val < 1 := (i 0).isLt
  have hi1 : (i 1).val < 64 := (i 1).isLt
  have hN : cfg10.N = 10 := N_10
  obtain ⟨t, ht⟩ : ∃ t : Fin cfg10.N, t.val = 9 := ⟨⟨9, by rw [hN]; omega⟩, rfl⟩
  obtain ⟨e0, e1⟩ : win10_4.index t (0 : Fin 2) = 0 ∧ win10_4.index t (1 : Fin 2) = 0 :=
    (by decide +kernel : ∀ t : Fin grid10.N, win10_4.index t (0 : Fin 2) = 0 ∧ win10_4.index t (1 : Fin 2) = 0) t
  refine ⟨t, (flush10_4 t).mpr (by omega), ?_⟩
  rw [mem_blk10_4]
  intro a
  match a with
  | ⟨0, _⟩ => show win10_4.index t (0 : Fin 2) * 1 ≤ (i 0).val ∧ (i 0).val < win10_4.index t (0 : Fin 2) * 1 + 1; omega
  | ⟨1, _⟩ => show win10_4.index t (1 : Fin 2) * 64 ≤ (i 1).val ∧ (i 1).val < win10_4.index t (1 : Fin 2) * 64 + 64; omega

/-- The row of column sums of squares after the region. -/
theorem final10_4 (c : Dev nD) : (dat10 V c).arrAt 4 cfg10.N = G1q (V c main_v134) (V c main_v135) :=
  (dat10 V c).arrAt_eq_of_cover 4 (G1q (V c main_v134) (V c main_v135)) (fun t hf => flushed10_4_eq V c t hf) cover10_4

/-- Entry by entry. -/
theorem val10_2 (c : Dev nD) (i : S100000x64.Idx) : (dat10 V c).arrAt 2 cfg10.N i = G1p (V c main_v134) (V c main_v135) i :=
  congrFun (final10_2 V c) i
theorem val10_3 (c : Dev nD) (j : Fin 64) : (dat10 V c).arrAt 3 cfg10.N (ix2 (0 : Fin 1) j) = G1s (V c main_v134) (V c main_v135) (ix2 (0 : Fin 1) j) :=
  congrFun (final10_3 V c) _
theorem val10_4 (c : Dev nD) (j : Fin 64) : (dat10 V c).arrAt 4 cfg10.N (ix2 (0 : Fin 1) j) = G1q (V c main_v134) (V c main_v135) (ix2 (0 : Fin 1) j) :=
  congrFun (final10_4 V c) _

end Cert.KernelIdeal.HandValue

end
-- ==== Proof.KIV.V11.lean ====
/-
  Region 11 on the extended reals: the same body as region 2 on this region's arrays. Entry (r, j) of the output array is
  max (((P (r, j) - Mn (0, j)) * Rs (0, j)) * G (0, j) + Bt (0, j)) 0. Point t of the grid holds rows 10000 t .. 10000 t + 9999.
-/
import proofs.«106081_j12317966204981_2_alg».proof.Proof.KI.R11
import proofs.«106081_j12317966204981_2_alg».proof.Proof.KIV.V2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz11 : (![0, 0] : Fin 2 → Nat) = fun _ => 0 := funext fun a => by fin_cases a <;> rfl

/-! ## The body's value at a block index -/

/-- The body's payload at entry (p, q) of the block. -/
theorem pay11_apply (x0 : Vec Ideal S10000x64 .f32) (x1 x2 x3 x4 : Vec Ideal S1x64 .f32) (p : Fin 10000) (q : Fin 64) :
    k11_pay1 x0 x1 x2 x3 x4 (ix2 p q)
      = max (((x0 : S10000x64.Idx → EReal) (ix2 p q) - (x1 : S1x64.Idx → EReal) (ix2 (0 : Fin 1) q)) * (x2 : S1x64.Idx → EReal) (ix2 (0 : Fin 1) q)
          * (x3 : S1x64.Idx → EReal) (ix2 (0 : Fin 1) q) + (x4 : S1x64.Idx → EReal) (ix2 (0 : Fin 1) q)) 0 := by
  unfold k11_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The payload when the loaded block is rows n * 10000 .. n * 10000 + 9999 of an array P and the four loaded rows are
    the whole of four one-row arrays: at block index y it is the array's entry at the index i that y sits at. -/
theorem blk11_apply (x0 : Vec Ideal S10000x64 .f32) (x1 x2 x3 x4 : Vec Ideal S1x64 .f32)
    (P : S100000x64.Idx → EReal) (Mn Rs Gm Bt : S1x64.Idx → EReal) (n : ℕ)
    (h0 : ∀ (p : Fin 10000) (q : Fin 64) (r : Fin 100000), r.val = n * 10000 + p.val → x0 (ix2 p q) = P (ix2 r q))
    (h1 : ∀ q : Fin 64, x1 (ix2 (0 : Fin 1) q) = Mn (ix2 (0 : Fin 1) q)) (h2 : ∀ q : Fin 64, x2 (ix2 (0 : Fin 1) q) = Rs (ix2 (0 : Fin 1) q))
    (h3 : ∀ q : Fin 64, x3 (ix2 (0 : Fin 1) q) = Gm (ix2 (0 : Fin 1) q)) (h4 : ∀ q : Fin 64, x4 (ix2 (0 : Fin 1) q) = Bt (ix2 (0 : Fin 1) q))
    (y : S10000x64.Idx) (i : S100000x64.Idx) (hr : (i 0).val = n * 10000 + (y 0).val) (hj : (i 1).val = (y 1).val) :
    k11_pay1 x0 x1 x2 x3 x4 y = G2 P Mn Rs Gm Bt i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hj
  show _ = max ((P (ix2 r j) - Mn (ix2 (0 : Fin 1) j)) * Rs (ix2 (0 : Fin 1) j) * Gm (ix2 (0 : Fin 1) j) + Bt (ix2 (0 : Fin 1) j)) 0
  rw [pay11_apply, h0 p j r hr, h1 j, h2 j, h3 j, h4 j]

/-! ## The loaded blocks as parts of the arrays -/

/-- The loaded block of window 0 at point t is rows 10000 t .. 10000 t + 9999 of its array. -/
theorem rd11_0 (c : Dev nD) (t : Fin cfg11.N) (p : Fin 10000) (q : Fin 64) (r : Fin 100000) (hr : r.val = t.val * 10000 + p.val) :
    (iblk11 V c 0 t : S10000x64.Idx → EReal) (ix2 p q) = (V c main_v136_0 : S100000x64.Idx → EReal) (ix2 r q) := by
  obtain ⟨e0, e1⟩ : win11_0.index t (0 : Fin 2) = t.val ∧ win11_0.index t (1 : Fin 2) = 0 :=
    (by decide +kernel : ∀ t : Fin grid11.N, win11_0.index t (0 : Fin 2) = t.val ∧ win11_0.index t (1 : Fin 2) = 0) t
  unfold iblk11
  rw [View.read_apply]
  show V c main_v136_0 _ = V c main_v136_0 _
  congr 1
  funext a
  apply Fin.ext
  match a with
  | ⟨0, _⟩ => show win11_0.index t (0 : Fin 2) * 10000 + 1 * p.val = r.val; omega
  | ⟨1, _⟩ => show win11_0.index t (1 : Fin 2) * 64 + 1 * q.val = q.val; omega

/-- The loaded block of window 1 is the whole one-row array. -/
theorem rd11_1 (c : Dev nD) (t : Fin cfg11.N) (q : Fin 64) :
    (iblk11 V c 1 t : S1x64.Idx → EReal) (ix2 (0 : Fin 1) q) = (V c main_v138 : S1x64.Idx → EReal) (ix2 (0 : Fin 1) q) := by
  obtain ⟨e0, e1⟩ : win11_1.index t (0 : Fin 2) = 0 ∧ win11_1.index t (1 : Fin 2) = 0 :=
    (by decide +kernel : ∀ t : Fin grid11.N, win11_1.index t (0 : Fin 2) = 0 ∧ win11_1.index t (1 : Fin 2) = 0) t
  unfold iblk11
  rw [View.read_apply]
  show V c main_v138 _ = V c main_v138 _
  congr 1
  funext a
  apply Fin.ext
  match a with
  | ⟨0, _⟩ => show win11_1.index t (0 : Fin 2) * 1 + 1 * 0 = 0; omega
  | ⟨1, _⟩ => show win11_1.index t (1 : Fin 2) * 64 + 1 * q.val = q.val; omega

/-- The loaded block of window 2 is the whole one-row array. -/
theorem rd11_2 (c : Dev nD) (t : Fin cfg11.N) (q : Fin 64) :
    (iblk11 V c 2 t : S1x64.Idx → EReal) (ix2 (0 : Fin 1) q) = (V c main_v145 : S1x64.Idx → EReal) (ix2 (0 : Fin 1) q) := by
  obtain ⟨e0, e1⟩ : win11_2.index t (0 : Fin 2) = 0 ∧ win11_2.index t (1 : Fin 2) = 0 :=
    (by decide +kernel : ∀ t : Fin grid11.N, win11_2.index t (0 : Fin 2) = 0 ∧ win11_2.index t (1 : Fin 2) = 0) t
  unfold iblk11
  rw [View.read_apply]
  show V c main_v145 _ = V c main_v145 _
  congr 1
  funext a
  apply Fin.ext
  match a with
  | ⟨0, _⟩ => show win11_2.index t (0 : Fin 2) * 1 + 1 * 0 = 0; omega
  | ⟨1, _⟩ => show win11_2.index t (1 : Fin 2) * 64 + 1 * q.val = q.val; omega

/-- The loaded block of window 3 is the whole one-row array. -/
theorem rd11_3 (c : Dev nD) (t : Fin cfg11.N) (q : Fin 64) :
    (iblk11 V c 3 t : S1x64.Idx → EReal) (ix2 (0 : Fin 1) q) = (V c main_v146 : S1x64.Idx → EReal) (ix2 (0 : Fin 1) q) := by
  obtain ⟨e0, e1⟩ : win11_3.index t (0 : Fin 2) = 0 ∧ win11_3.index t (1 : Fin 2) = 0 :=
    (by decide +kernel : ∀ t : Fin grid11.N, win11_3.index t (0 : Fin 2) = 0 ∧ win11_3.index t (1 : Fin 2) = 0) t
  unfold iblk11
  rw [View.read_apply]
  show V c main_v146 _ = V c main_v146 _
  congr 1
  funext a
  apply Fin.ext
  match a with
  | ⟨0, _⟩ => show win11_3.index t (0 : Fin 2) * 1 + 1 * 0 = 0; omega
  | ⟨1, _⟩ => show win11_3.index t (1 : Fin 2) * 64 + 1 * q.val = q.val; omega

/-- The loaded block of window 4 is the whole one-row array. -/
theorem rd11_4 (c : Dev nD) (t : Fin cfg11.N) (q : Fin 64) :
    (iblk11 V c 4 t : S1x64.Idx → EReal) (ix2 (0 : Fin 1) q) = (V c main_v147 : S1x64.Idx → EReal) (ix2 (0 : Fin 1) q) := by
  obtain ⟨e0, e1⟩ : win11_4.index t (0 : Fin 2) = 0 ∧ win11_4.index t (1 : Fin 2) = 0 :=
    (by decide +kernel : ∀ t : Fin grid11.N, win11_4.index t (0 : Fin 2) = 0 ∧ win11_4.index t (1 : Fin 2) = 0) t
  unfold iblk11
  rw [View.read_apply]
  show V c main_v147 _ = V c main_v147 _
  congr 1
  funext a
  apply Fin.ext
  match a with
  | ⟨0, _⟩ => show win11_4.index t (0 : Fin 2) * 1 + 1 * 0 = 0; omega
  | ⟨1, _⟩ => show win11_4.index t (1 : Fin 2) * 64 + 1 * q.val = q.val; omega

/-! ## From the blocks to the array -/

/-- What point t writes back is block t of that array of the arrays as the region finds them. -/
theorem flushed11_eq (c : Dev nD) (t : Fin cfg11.N) :
    (dat11 V c).flushed 5 t = ((cfg11.win 5).blk t).view.read (Elt Ideal)
      (G2 (V c main_v136_0) (V c main_v138) (V c main_v145) (V c main_v146) (V c main_v147)) := by
  show (cfg11.win 5).cut (grid11.coords t) ((dat11 V c).after 5 t) = _
  rw [after11_5]
  unfold out11_5
  rw [View.canon_unit_zero hz11]
  simp only [View.ld_unit_zero (S := S10000x64) hz11, View.ld_unit_zero (S := S1x64) hz11]
  obtain ⟨e0, e1⟩ : win11_5.index t (0 : Fin 2) = t.val ∧ win11_5.index t (1 : Fin 2) = 0 :=
    (by decide +kernel : ∀ t : Fin grid11.N, win11_5.index t (0 : Fin 2) = t.val ∧ win11_5.index t (1 : Fin 2) = 0) t
  funext y
  show k11_pay1 (iblk11 V c 0 t) (iblk11 V c 1 t) (iblk11 V c 2 t) (iblk11 V c 3 t) (iblk11 V c 4 t) y
    = G2 (V c main_v136_0) (V c main_v138) (V c main_v145) (V c main_v146) (V c main_v147) (((cfg11.win 5).blk t).view.emb y)
  refine blk11_apply (iblk11 V c 0 t) (iblk11 V c 1 t) (iblk11 V c 2 t) (iblk11 V c 3 t) (iblk11 V c 4 t)
    (V c main_v136_0) (V c main_v138) (V c main_v145) (V c main_v146) (V c main_v147) t.val
    (rd11_0 V c t) (rd11_1 V c t) (rd11_2 V c t) (rd11_3 V c t) (rd11_4 V c t) y _ ?_ ?_
  · show win11_5.index t (0 : Fin 2) * 10000 + 1 * (y 0).val = t.val * 10000 + (y 0).val; omega
  · show win11_5.index t (1 : Fin 2) * 64 + 1 * (y 1).val = (y 1).val; omega

/-- An index of the array is in point t's block iff each coordinate is in the block's range on its axis. -/
theorem mem_blk11_5 (t : Fin cfg11.N) (i : S100000x64.Idx) :
    i ∈ ((cfg11.win 5).blk t).view.set ↔ ∀ a : Fin 2, win11_5.index t a * S10000x64.size a ≤ (i a).val ∧ (i a).val < win11_5.index t a * S10000x64.size a + S10000x64.size a := by
  show i ∈ ((View.whole main_v148).slice (win11_5.rect t)).set ↔ _
  rw [View.set_slice_whole, Rect.mem_set_unit]
  exact Iff.rfl

/-- Every index of the array is in some point's block: row r is in block r / 10000. -/
theorem cover11_5 (i : S100000x64.Idx) : ∃ t : Fin cfg11.N, (cfg11.win 5).flush t = true ∧ i ∈ ((cfg11.win 5).blk t).view.set := by
  have hi0 : (i 0).val < 100000 := (i 0).isLt
  have hi1 : (i 1).val < 64 := (i 1).isLt
  have hN : cfg11.N = 10 := N_11
  obtain ⟨t, ht⟩ : ∃ t : Fin cfg11.N, t.val = (i 0).val / 10000 := ⟨⟨(i 0).val / 10000, by rw [hN]; omega⟩, rfl⟩
  obtain ⟨e0, e1⟩ : win11_5.index t (0 : Fin 2) = t.val ∧ win11_5.index t (1 : Fin 2) = 0 :=
    (by decide +kernel : ∀ t : Fin grid11.N, win11_5.index t (0 : Fin 2) = t.val ∧ win11_5.index t (1 : Fin 2) = 0) t
  refine ⟨t, flush11_5 t, ?_⟩
  rw [mem_blk11_5]
  intro a
  match a with
  | ⟨0, _⟩ => show win11_5.index t (0 : Fin 2) * 10000 ≤ (i 0).val ∧ (i 0).val < win11_5.index t (0 : Fin 2) * 10000 + 10000; omega
  | ⟨1, _⟩ => show win11_5.index t (1 : Fin 2) * 64 ≤ (i 1).val ∧ (i 1).val < win11_5.index t (1 : Fin 2) * 64 + 64; omega

/-- The array after the region. -/
theorem final11 (c : Dev nD) : (dat11 V c).arrAt 5 cfg11.N = G2 (V c main_v136_0) (V c main_v138) (V c main_v145) (V c main_v146) (V c main_v147) :=
  (dat11 V c).arrAt_eq_of_cover 5 (G2 (V c main_v136_0) (V c main_v138) (V c main_v145) (V c main_v146) (V c main_v147))
    (fun t _ => flushed11_eq V c t) cover11_5

/-- Entry by entry. -/
theorem val11 (c : Dev nD) (i : S100000x64.Idx) :
    (dat11 V c).arrAt 5 cfg11.N i = G2 (V c main_v136_0) (V c main_v138) (V c main_v145) (V c main_v146) (V c main_v147) i :=
  congrFun (final11 V c) i

end Cert.KernelIdeal.HandValue

end
-- ==== Proof.KI.Chain4.lean ====
/-
  The kernel program's result, read through the fold of its segments (layer 4).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Fold
import proofs.«106081_j12317966204981_2_alg».proof.Proof.KI.Sem
import proofs.«106081_j12317966204981_2_alg».proof.Proof.KIH.Stages
import proofs.«106081_j12317966204981_2_alg».proof.Proof.KIV.V9
import proofs.«106081_j12317966204981_2_alg».proof.Proof.KIV.V10
import proofs.«106081_j12317966204981_2_alg».proof.Proof.KIV.V11
import proofs.«106081_j12317966204981_2_alg».proof.Proof.KI.ChainAgg

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

variable (m : (ℓ : Loc nD τ sig) → Buf (Elt Ideal) ℓ) (c : Dev nD)

/-- Layer 4: what the normalise-and-clamp region leaves, as the kernel's layer function of the layer's input and
    parameters. -/
theorem layer4_out : W21 m c (Proc.devRef .tc main_v148)
    = layerK G64 G1p G1s G1q (aggK (W0 m c (Proc.devRef .tc main_arg1))) (W16 m c (Proc.devRef .tc main_v118)) (W0 m c (Proc.devRef .tc main_arg15)) (W0 m c (Proc.devRef .tc main_arg16)) (W0 m c (Proc.devRef .tc main_arg17)) (W0 m c (Proc.devRef .tc main_arg18)) := by
  -- the projection
  have hH : W17 m c (Proc.devRef .tc main_v119) = G64 (W16 m c (Proc.devRef .tc main_v118)) (W0 m c (Proc.devRef .tc main_arg15)) := by
    have h := (hF9 m c 2).symm.trans (final9 (VT16 m) c)
    have e1 : VT16 m c main_v118 = (W16 m c (Proc.devRef .tc main_v118)) := rfl
    have e2 : VT16 m c main_arg15 = (W0 m c (Proc.devRef .tc main_arg15)) := (W16_keep m c main_arg15 (by decide)).trans ((W15_keep m c main_arg15 (by decide)).trans ((W14_keep m c main_arg15 (by decide)).trans ((W13_keep m c main_arg15 (by decide)).trans ((W12_keep m c main_arg15 (by decide)).trans ((W11_keep m c main_arg15 (by decide)).trans ((W10_keep m c main_arg15 (by decide)).trans ((W9_keep m c main_arg15 (by decide)).trans ((W8_keep m c main_arg15 (by decide)).trans ((W7_keep m c main_arg15 (by decide)).trans ((W6_keep m c main_arg15 (by decide)).trans ((W5_keep m c main_arg15 (by decide)).trans ((W4_keep m c main_arg15 (by decide)).trans ((W3_keep m c main_arg15 (by decide)).trans ((W2_keep m c main_arg15 (by decide)).trans ((W1_keep m c main_arg15 (by decide)))))))))))))))))
    rw [e1, e2] at h
    exact h
  -- the shared index vectors and coefficients
  have hs_main_v1 : W17 m c (Proc.devRef .tc main_v1) = kSrc (W0 m c (Proc.devRef .tc main_arg1)) :=
    ((W17_keep m c main_v1 (by decide)).trans ((W16_keep m c main_v1 (by decide)).trans ((W15_keep m c main_v1 (by decide)).trans ((W14_keep m c main_v1 (by decide)).trans ((W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans ((W2_keep m c main_v1 (by decide)))))))))))))))))).trans (stage0_v1 (W0 m c))
  have hs_main_v3 : W17 m c (Proc.devRef .tc main_v3) = kDst (W0 m c (Proc.devRef .tc main_arg1)) :=
    ((W17_keep m c main_v3 (by decide)).trans ((W16_keep m c main_v3 (by decide)).trans ((W15_keep m c main_v3 (by decide)).trans ((W14_keep m c main_v3 (by decide)).trans ((W13_keep m c main_v3 (by decide)).trans ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans ((W2_keep m c main_v3 (by decide)))))))))))))))))).trans (stage0_v3 (W0 m c))
  have hs_main_v26 : W17 m c (Proc.devRef .tc main_v26) = kCoef (F := Ideal) (W0 m c (Proc.devRef .tc main_arg1)) :=
    ((W17_keep m c main_v26 (by decide)).trans ((W16_keep m c main_v26 (by decide)).trans ((W15_keep m c main_v26 (by decide)).trans ((W14_keep m c main_v26 (by decide)).trans ((W13_keep m c main_v26 (by decide)).trans ((W12_keep m c main_v26 (by decide)).trans ((W11_keep m c main_v26 (by decide)).trans ((W10_keep m c main_v26 (by decide)).trans ((W9_keep m c main_v26 (by decide)).trans ((W8_keep m c main_v26 (by decide)).trans ((W7_keep m c main_v26 (by decide)).trans ((W6_keep m c main_v26 (by decide)).trans ((W5_keep m c main_v26 (by decide)).trans ((W4_keep m c main_v26 (by decide)).trans ((W3_keep m c main_v26 (by decide)).trans ((W2_keep m c main_v26 (by decide)))))))))))))))))).trans (stage0_v26 (W0 m c))
  have hs_main_v28 : W17 m c (Proc.devRef .tc main_v28) = kSelf (F := Ideal) (W0 m c (Proc.devRef .tc main_arg1)) :=
    ((W17_keep m c main_v28 (by decide)).trans ((W16_keep m c main_v28 (by decide)).trans ((W15_keep m c main_v28 (by decide)).trans ((W14_keep m c main_v28 (by decide)).trans ((W13_keep m c main_v28 (by decide)).trans ((W12_keep m c main_v28 (by decide)).trans ((W11_keep m c main_v28 (by decide)).trans ((W10_keep m c main_v28 (by decide)).trans ((W9_keep m c main_v28 (by decide)).trans ((W8_keep m c main_v28 (by decide)).trans ((W7_keep m c main_v28 (by decide)).trans ((W6_keep m c main_v28 (by decide)).trans ((W5_keep m c main_v28 (by decide)).trans ((W4_keep m c main_v28 (by decide)).trans ((W3_keep m c main_v28 (by decide)).trans ((W2_keep m c main_v28 (by decide)))))))))))))))))).trans (stage0_v28 (W0 m c))
  -- the aggregation and the bias row
  have hC : W18 m c (Proc.devRef .tc main_v134) = aggK (W0 m c (Proc.devRef .tc main_arg1)) (W17 m c (Proc.devRef .tc main_v119)) := by
    have h := stage10_v134 (F := Ideal) (W17 m c)
    rw [hs_main_v1, hs_main_v3, hs_main_v26, hs_main_v28] at h
    exact h
  have hB : W18 m c (Proc.devRef .tc main_v135) = kBias (F := Ideal) (W0 m c (Proc.devRef .tc main_arg16)) := by
    have h := stage10_v135 (F := Ideal) (W17 m c)
    have e : W17 m c (Proc.devRef .tc main_arg16) = (W0 m c (Proc.devRef .tc main_arg16)) := (W17_keep m c main_arg16 (by decide)).trans ((W16_keep m c main_arg16 (by decide)).trans ((W15_keep m c main_arg16 (by decide)).trans ((W14_keep m c main_arg16 (by decide)).trans ((W13_keep m c main_arg16 (by decide)).trans ((W12_keep m c main_arg16 (by decide)).trans ((W11_keep m c main_arg16 (by decide)).trans ((W10_keep m c main_arg16 (by decide)).trans ((W9_keep m c main_arg16 (by decide)).trans ((W8_keep m c main_arg16 (by decide)).trans ((W7_keep m c main_arg16 (by decide)).trans ((W6_keep m c main_arg16 (by decide)).trans ((W5_keep m c main_arg16 (by decide)).trans ((W4_keep m c main_arg16 (by decide)).trans ((W3_keep m c main_arg16 (by decide)).trans ((W2_keep m c main_arg16 (by decide)).trans ((W1_keep m c main_arg16 (by decide))))))))))))))))))
    rw [e] at h
    exact h
  -- the biased array and its two rows of column sums
  have hP : W19 m c (Proc.devRef .tc main_v136_0) = G1p (W18 m c (Proc.devRef .tc main_v134)) (W18 m c (Proc.devRef .tc main_v135)) :=
    (hF10 m c 2).symm.trans (final10_2 (VT18 m) c)
  have hS : W19 m c (Proc.devRef .tc main_v136_1) = G1s (W18 m c (Proc.devRef .tc main_v134)) (W18 m c (Proc.devRef .tc main_v135)) :=
    (hF10 m c 3).symm.trans (final10_3 (VT18 m) c)
  have hQ : W19 m c (Proc.devRef .tc main_v136_2) = G1q (W18 m c (Proc.devRef .tc main_v134)) (W18 m c (Proc.devRef .tc main_v135)) :=
    (hF10 m c 4).symm.trans (final10_4 (VT18 m) c)
  -- the statistics rows, the gain row and the shift row
  have hMn : W20 m c (Proc.devRef .tc main_v138) = kMean (F := Ideal) (W19 m c (Proc.devRef .tc main_v136_1)) := stage11_v138 (F := Ideal) (W19 m c)
  have hRs : W20 m c (Proc.devRef .tc main_v145) = kRsqrtVar (F := Ideal) (W19 m c (Proc.devRef .tc main_v136_1)) (W19 m c (Proc.devRef .tc main_v136_2)) := stage11_v145 (F := Ideal) (W19 m c)
  have hG : W20 m c (Proc.devRef .tc main_v146) = kBias (F := Ideal) (W0 m c (Proc.devRef .tc main_arg17)) := by
    have h := stage11_v146 (F := Ideal) (W19 m c)
    have e : W19 m c (Proc.devRef .tc main_arg17) = (W0 m c (Proc.devRef .tc main_arg17)) := (W19_keep m c main_arg17 (by decide)).trans ((W18_keep m c main_arg17 (by decide)).trans ((W17_keep m c main_arg17 (by decide)).trans ((W16_keep m c main_arg17 (by decide)).trans ((W15_keep m c main_arg17 (by decide)).trans ((W14_keep m c main_arg17 (by decide)).trans ((W13_keep m c main_arg17 (by decide)).trans ((W12_keep m c main_arg17 (by decide)).trans ((W11_keep m c main_arg17 (by decide)).trans ((W10_keep m c main_arg17 (by decide)).trans ((W9_keep m c main_arg17 (by decide)).trans ((W8_keep m c main_arg17 (by decide)).trans ((W7_keep m c main_arg17 (by decide)).trans ((W6_keep m c main_arg17 (by decide)).trans ((W5_keep m c main_arg17 (by decide)).trans ((W4_keep m c main_arg17 (by decide)).trans ((W3_keep m c main_arg17 (by decide)).trans ((W2_keep m c main_arg17 (by decide)).trans ((W1_keep m c main_arg17 (by decide))))))))))))))))))))
    rw [e] at h
    exact h
  have hBt : W20 m c (Proc.devRef .tc main_v147) = kBias (F := Ideal) (W0 m c (Proc.devRef .tc main_arg18)) := by
    have h := stage11_v147 (F := Ideal) (W19 m c)
    have e : W19 m c (Proc.devRef .tc main_arg18) = (W0 m c (Proc.devRef .tc main_arg18)) := (W19_keep m c main_arg18 (by decide)).trans ((W18_keep m c main_arg18 (by decide)).trans ((W17_keep m c main_arg18 (by decide)).trans ((W16_keep m c main_arg18 (by decide)).trans ((W15_keep m c main_arg18 (by decide)).trans ((W14_keep m c main_arg18 (by decide)).trans ((W13_keep m c main_arg18 (by decide)).trans ((W12_keep m c main_arg18 (by decide)).trans ((W11_keep m c main_arg18 (by decide)).trans ((W10_keep m c main_arg18 (by decide)).trans ((W9_keep m c main_arg18 (by decide)).trans ((W8_keep m c main_arg18 (by decide)).trans ((W7_keep m c main_arg18 (by decide)).trans ((W6_keep m c main_arg18 (by decide)).trans ((W5_keep m c main_arg18 (by decide)).trans ((W4_keep m c main_arg18 (by decide)).trans ((W3_keep m c main_arg18 (by decide)).trans ((W2_keep m c main_arg18 (by decide)).trans ((W1_keep m c main_arg18 (by decide))))))))))))))))))))
    rw [e] at h
    exact h
  have hP' : W20 m c (Proc.devRef .tc main_v136_0) = W19 m c (Proc.devRef .tc main_v136_0) := W20_keep m c main_v136_0 (by decide)
  -- the normalise-and-clamp region
  have hO : W21 m c (Proc.devRef .tc main_v148) = G2 (W20 m c (Proc.devRef .tc main_v136_0)) (W20 m c (Proc.devRef .tc main_v138)) (W20 m c (Proc.devRef .tc main_v145)) (W20 m c (Proc.devRef .tc main_v146)) (W20 m c (Proc.devRef .tc main_v147)) :=
    (hF11 m c 5).symm.trans (final11 (VT20 m) c)
  rw [hO, hP', hMn, hRs, hG, hBt, hP, hS, hQ, hC, hB, hH]
  rfl

end Cert.KernelIdeal.HandChain

end
-- ==== Proof.KI.SemNet.lean ====
/-
  The whole network of the kernel program, read in the specification's vocabulary: four layers (the first from 128
  features, the others from 64), the pooling, the logits and the log-softmax subtracting the whole log-sum-exp.
  The aggregation and the pooling enter as arbitrary functions of arrays, so nothing here looks inside them.
-/
import proofs.«106081_j12317966204981_2_alg».proof.Proof.KI.Sem
import proofs.«106081_j12317966204981_2_alg».proof.Proof.KIV.V0
import proofs.«106081_j12317966204981_2_alg».proof.Proof.KIV.VMat
import proofs.«106081_j12317966204981_2_alg».proof.Proof.KIV.V1
import proofs.«106081_j12317966204981_2_alg».proof.Proof.KIV.V12

noncomputable section

namespace Cert.KernelIdeal.HandSem

open Cert.KernelIdeal Cert.KernelIdeal.HandValue Cert.KernelIdeal.HandHost
open Idealize.ShloMosaic Idealize.ShloMosaic.ValueIdx Cert.SpecAdapt

/-- The last region's function, as the specification's log-softmax of the logits. -/
theorem G12_read (x0 : S512x64.Idx → EReal) (x1 : S64x10.Idx → EReal) (x2 : S1x10.Idx → EReal) :
    G12 x0 x1 x2 = unc2 (Cert.Spec.lsmWhole (Cert.Spec.logits (cur2 x0) (cur2 x1) (fun c : Fin 10 => x2 (ix2 (0 : Fin 1) c)))) := by
  funext i
  rw [G12_eq_spec]
  rfl

theorem hG0 : ∀ (A : S100000x128.Idx → EReal) (W : S128x64.Idx → EReal) (i : S100000x64.Idx),
    G0 A W i = Cert.Spec.proj (cur2 A) (cur2 W) (i 0) (i 1) := fun A W i => G0_eq_proj A W i
theorem hG64 : ∀ (A : S100000x64.Idx → EReal) (W : S64x64.Idx → EReal) (i : S100000x64.Idx),
    G64 A W i = Cert.Spec.proj (cur2 A) (cur2 W) (i 0) (i 1) := fun A W i => G64_eq_proj A W i
theorem hG1p : ∀ (C : S100000x64.Idx → EReal) (B : S1x64.Idx → EReal) (r : Fin 100000) (j : Fin 64),
    G1p C B (ix2 r j) = C (ix2 r j) + B (ix2 (0 : Fin 1) j) := fun _ _ _ _ => rfl

/-- The kernel program's network is the specification's, in the kernel's spelling. -/
theorem kerNet_read
    (agg : (S100000x64.Idx → EReal) → S100000x64.Idx → EReal) (pool : (S100000x64.Idx → EReal) → S512x64.Idx → EReal)
    (X : S100000x128.Idx → EReal) (W1 : S128x64.Idx → EReal) (b1 g1 bt1 : S64.Idx → EReal)
    (W2 : S64x64.Idx → EReal) (b2 g2 bt2 : S64.Idx → EReal) (W3 : S64x64.Idx → EReal) (b3 g3 bt3 : S64.Idx → EReal)
    (W4 : S64x64.Idx → EReal) (b4 g4 bt4 : S64.Idx → EReal) (fcW : S64x10.Idx → EReal) (fcb : S10.Idx → EReal) :
    G12 (pool (layerK G64 G1p G1s G1q agg (layerK G64 G1p G1s G1q agg (layerK G64 G1p G1s G1q agg (layerK G0 G1p G1s G1q agg X W1 b1 g1 bt1) W2 b2 g2 bt2) W3 b3 g3 bt3) W4 b4 g4 bt4)) fcW (kBiasOut (F := Ideal) fcb)
      = unc2 (Cert.Spec.kerNet NN EPS (fun h => cur2 (agg (unc2 h))) (fun h => cur2 (pool (unc2 h)))
          (cur2 X) (cur2 W1) (row1 b1) (row1 g1) (row1 bt1) (cur2 W2) (row1 b2) (row1 g2) (row1 bt2)
          (cur2 W3) (row1 b3) (row1 g3) (row1 bt3) (cur2 W4) (row1 b4) (row1 g4) (row1 bt4) (cur2 fcW) (row1 fcb)) := by
  have h1 := layerK_read G0 hG0 G1p G1s G1q hG1p G1s_apply G1q_apply agg X W1 b1 g1 bt1
  have h2 := layerK_read G64 hG64 G1p G1s G1q hG1p G1s_apply G1q_apply agg (layerK G0 G1p G1s G1q agg X W1 b1 g1 bt1) W2 b2 g2 bt2
  rw [h1] at h2
  have h3 := layerK_read G64 hG64 G1p G1s G1q hG1p G1s_apply G1q_apply agg (layerK G64 G1p G1s G1q agg (layerK G0 G1p G1s G1q agg X W1 b1 g1 bt1) W2 b2 g2 bt2) W3 b3 g3 bt3
  rw [h2] at h3
  have h4 := layerK_read G64 hG64 G1p G1s G1q hG1p G1s_apply G1q_apply agg (layerK G64 G1p G1s G1q agg (layerK G64 G1p G1s G1q agg (layerK G0 G1p G1s G1q agg X W1 b1 g1 bt1) W2 b2 g2 bt2) W3 b3 g3 bt3) W4 b4 g4 bt4
  rw [h3] at h4
  have hb : (fun c : Fin 10 => kBiasOut (F := Ideal) fcb (ix2 (0 : Fin 1) c)) = row1 fcb := funext fun c => kBiasOut_apply fcb c
  rw [G12_read, hb]
  unfold Cert.Spec.kerNet Cert.Spec.net
  rw [← h4]
  simp only [unc2_cur2]

end Cert.KernelIdeal.HandSem

end
-- ==== Proof.KI.Chain.lean ====
/-
  The kernel program's result, read through the fold of its segments (the last region and the whole).
  A layer's output buffer holds the kernel's layer function of the layer's input and parameters: the projection region,
  the host stretch that aggregates and makes the bias row, the region of the biased array and its column sums, the host
  stretch of the statistics rows, the normalise-and-clamp region.
-/
import proofs.«106081_j12317966204981_2_alg».proof.Proof.KI.Fold
import proofs.«106081_j12317966204981_2_alg».proof.Proof.KI.Sem
import proofs.«106081_j12317966204981_2_alg».proof.Proof.KIH.Stages
import proofs.«106081_j12317966204981_2_alg».proof.Proof.KIV.V12
import proofs.«106081_j12317966204981_2_alg».proof.Proof.KI.Chain1
import proofs.«106081_j12317966204981_2_alg».proof.Proof.KI.Chain2
import proofs.«106081_j12317966204981_2_alg».proof.Proof.KI.Chain3
import proofs.«106081_j12317966204981_2_alg».proof.Proof.KI.Chain4
import proofs.«106081_j12317966204981_2_alg».proof.Proof.KI.SemNet

set_option maxRecDepth 16384

noncomputable section

namespace Cert.KernelIdeal.HandChain

open Cert.KernelIdeal Cert.KernelIdeal.Gen Cert.KernelIdeal.Hand Cert.KernelIdeal.HandValue Cert.KernelIdeal.HandHost Cert.KernelIdeal.HandSem
open Idealize.ShloMosaic Idealize.ShloMosaic.TcCoe Idealize.SL.Sem

variable (m : (ℓ : Loc nD τ sig) → Buf (Elt Ideal) ℓ) (c : Dev nD)

/-- The last region's output: the log-softmax of the logits of the pooled last-layer activations. -/
theorem result_out : Wend m c (Proc.devRef .tc main_v162)
    = G12 (kPool (F := Ideal) (W21 m c (Proc.devRef .tc main_v148)) (W0 m c (Proc.devRef .tc main_arg2))) (W0 m c (Proc.devRef .tc main_arg19)) (kBiasOut (F := Ideal) (W0 m c (Proc.devRef .tc main_arg20))) := by
  have hPl : W22 m c (Proc.devRef .tc main_v160) = kPool (F := Ideal) (W21 m c (Proc.devRef .tc main_v148)) (W0 m c (Proc.devRef .tc main_arg2)) := by
    have h := stage12_v160 (F := Ideal) (W21 m c)
    have e : W21 m c (Proc.devRef .tc main_arg2) = (W0 m c (Proc.devRef .tc main_arg2)) := (W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans ((W1_keep m c main_arg2 (by decide))))))))))))))))))))))
    rw [e] at h
    exact h
  have hBo : W22 m c (Proc.devRef .tc main_v161) = kBiasOut (F := Ideal) (W0 m c (Proc.devRef .tc main_arg20)) := by
    have h := stage12_v161 (F := Ideal) (W21 m c)
    have e : W21 m c (Proc.devRef .tc main_arg20) = (W0 m c (Proc.devRef .tc main_arg20)) := (W21_keep m c main_arg20 (by decide)).trans ((W20_keep m c main_arg20 (by decide)).trans ((W19_keep m c main_arg20 (by decide)).trans ((W18_keep m c main_arg20 (by decide)).trans ((W17_keep m c main_arg20 (by decide)).trans ((W16_keep m c main_arg20 (by decide)).trans ((W15_keep m c main_arg20 (by decide)).trans ((W14_keep m c main_arg20 (by decide)).trans ((W13_keep m c main_arg20 (by decide)).trans ((W12_keep m c main_arg20 (by decide)).trans ((W11_keep m c main_arg20 (by decide)).trans ((W10_keep m c main_arg20 (by decide)).trans ((W9_keep m c main_arg20 (by decide)).trans ((W8_keep m c main_arg20 (by decide)).trans ((W7_keep m c main_arg20 (by decide)).trans ((W6_keep m c main_arg20 (by decide)).trans ((W5_keep m c main_arg20 (by decide)).trans ((W4_keep m c main_arg20 (by decide)).trans ((W3_keep m c main_arg20 (by decide)).trans ((W2_keep m c main_arg20 (by decide)).trans ((W1_keep m c main_arg20 (by decide))))))))))))))))))))))
    rw [e] at h
    exact h
  have hW : W22 m c (Proc.devRef .tc main_arg19) = (W0 m c (Proc.devRef .tc main_arg19)) := (W22_keep m c main_arg19 (by decide)).trans ((W21_keep m c main_arg19 (by decide)).trans ((W20_keep m c main_arg19 (by decide)).trans ((W19_keep m c main_arg19 (by decide)).trans ((W18_keep m c main_arg19 (by decide)).trans ((W17_keep m c main_arg19 (by decide)).trans ((W16_keep m c main_arg19 (by decide)).trans ((W15_keep m c main_arg19 (by decide)).trans ((W14_keep m c main_arg19 (by decide)).trans ((W13_keep m c main_arg19 (by decide)).trans ((W12_keep m c main_arg19 (by decide)).trans ((W11_keep m c main_arg19 (by decide)).trans ((W10_keep m c main_arg19 (by decide)).trans ((W9_keep m c main_arg19 (by decide)).trans ((W8_keep m c main_arg19 (by decide)).trans ((W7_keep m c main_arg19 (by decide)).trans ((W6_keep m c main_arg19 (by decide)).trans ((W5_keep m c main_arg19 (by decide)).trans ((W4_keep m c main_arg19 (by decide)).trans ((W3_keep m c main_arg19 (by decide)).trans ((W2_keep m c main_arg19 (by decide)).trans ((W1_keep m c main_arg19 (by decide)))))))))))))))))))))))
  have hO : Wend m c (Proc.devRef .tc main_v162) = G12 (W22 m c (Proc.devRef .tc main_v160)) (W22 m c (Proc.devRef .tc main_arg19)) (W22 m c (Proc.devRef .tc main_v161)) :=
    (hF12 m c 3).symm.trans (final12 (VT22 m) c)
  rw [hO, hPl, hBo, hW]

/-- The kernel program's result, in the specification's vocabulary: the network in the kernel's spelling, of the
    launch contents of the arguments, with the aggregation and the pooling as the program's own host composites. -/
theorem kernel_value : Wend m c (Proc.devRef .tc main_v162)
    = Cert.SpecAdapt.unc2 (Cert.Spec.kerNet NN EPS
        (fun h => Cert.SpecAdapt.cur2 (aggK (W0 m c (Proc.devRef .tc main_arg1)) (Cert.SpecAdapt.unc2 h)))
        (fun h => Cert.SpecAdapt.cur2 (kPool (F := Ideal) (Cert.SpecAdapt.unc2 h) (W0 m c (Proc.devRef .tc main_arg2))))
        (Cert.SpecAdapt.cur2 (W0 m c (Proc.devRef .tc main_arg0)))
        (Cert.SpecAdapt.cur2 (W0 m c (Proc.devRef .tc main_arg3))) (Cert.SpecAdapt.row1 (W0 m c (Proc.devRef .tc main_arg4))) (Cert.SpecAdapt.row1 (W0 m c (Proc.devRef .tc main_arg5))) (Cert.SpecAdapt.row1 (W0 m c (Proc.devRef .tc main_arg6)))
        (Cert.SpecAdapt.cur2 (W0 m c (Proc.devRef .tc main_arg7))) (Cert.SpecAdapt.row1 (W0 m c (Proc.devRef .tc main_arg8))) (Cert.SpecAdapt.row1 (W0 m c (Proc.devRef .tc main_arg9))) (Cert.SpecAdapt.row1 (W0 m c (Proc.devRef .tc main_arg10)))
        (Cert.SpecAdapt.cur2 (W0 m c (Proc.devRef .tc main_arg11))) (Cert.SpecAdapt.row1 (W0 m c (Proc.devRef .tc main_arg12))) (Cert.SpecAdapt.row1 (W0 m c (Proc.devRef .tc main_arg13))) (Cert.SpecAdapt.row1 (W0 m c (Proc.devRef .tc main_arg14)))
        (Cert.SpecAdapt.cur2 (W0 m c (Proc.devRef .tc main_arg15))) (Cert.SpecAdapt.row1 (W0 m c (Proc.devRef .tc main_arg16))) (Cert.SpecAdapt.row1 (W0 m c (Proc.devRef .tc main_arg17))) (Cert.SpecAdapt.row1 (W0 m c (Proc.devRef .tc main_arg18)))
        (Cert.SpecAdapt.cur2 (W0 m c (Proc.devRef .tc main_arg19))) (Cert.SpecAdapt.row1 (W0 m c (Proc.devRef .tc main_arg20)))) := by
  rw [result_out, layer4_out, layer3_out, layer2_out, layer1_out]
  exact kerNet_read (aggK (W0 m c (Proc.devRef .tc main_arg1))) (fun x => kPool (F := Ideal) x (W0 m c (Proc.devRef .tc main_arg2)))
    (W0 m c (Proc.devRef .tc main_arg0)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (W0 m c (Proc.devRef .tc main_arg11)) (W0 m c (Proc.devRef .tc main_arg12)) (W0 m c (Proc.devRef .tc main_arg13)) (W0 m c (Proc.devRef .tc main_arg14)) (W0 m c (Proc.devRef .tc main_arg15)) (W0 m c (Proc.devRef .tc main_arg16)) (W0 m c (Proc.devRef .tc main_arg17)) (W0 m c (Proc.devRef .tc main_arg18)) (W0 m c (Proc.devRef .tc main_arg19)) (W0 m c (Proc.devRef .tc main_arg20))

end Cert.KernelIdeal.HandChain

end
-- ==== Proof.LibHostReal.lean ====
/-
  Host operations keep arrays of real numbers real.

  On the extended reals the arithmetic laws fail at the infinities, so a proof that computes with
  real-number algebra must first know that every intermediate entry is (the coercion of) a real number. This file
  carries that fact through the host operations read at the ideal values:
    * re-indexings (gather, broadcast, shape cast, transpose) read entries of their operand, so they preserve ANY
      property of the entries;
    * a scatter with an add body gives each operand entry plus a finite sum of update entries: real if both arrays
      are, and bounded below by a bound of the operand when the updates are nonnegative;
    * sums, differences, products and maxima of reals are reals; a real divided by a nonzero real is a real; the
      reciprocal square root of a positive real is a positive real; a reduction by addition of reals from a real
      initial value, and a contraction (a finite sum of products), are real.
  "Every entry is a real" is spelt  ∀ i, ∃ r : ℝ, x i = (r : EReal).
-/
import Idealize.ShloMosaic.PureOps.Ideal.Laws

open Idealize.ShloMosaic

namespace Cert.Lib.HostReal

/-! ### Single extended reals -/

/-- A finite real sum, read in the extended reals, is the sum of the readings. -/
theorem coe_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is one of them. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A real divided by a nonzero real is a real. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨s, hs, rfl⟩ := hb
  exact ⟨r * (1 / s), by rw [Ideal.div_coe hs, EReal.coe_mul]⟩

/-- The reciprocal square root of a positive real is a positive real. -/
theorem pos_rsqrt {a : EReal} (ha : ∃ r : ℝ, 0 < r ∧ a = (r : EReal)) :
    ∃ r : ℝ, 0 < r ∧ Ideal.rsqrt a = (r : EReal) := by
  obtain ⟨r, hr, rfl⟩ := ha
  exact ⟨(Real.sqrt r)⁻¹, inv_pos.mpr (Real.sqrt_pos.mpr hr),
    by rw [Ideal.rsqrt_coe, if_neg (not_lt.mpr hr.le), if_neg hr.ne']⟩

/-- A positive real is a real. -/
theorem real_of_pos {a : EReal} (ha : ∃ r : ℝ, 0 < r ∧ a = (r : EReal)) : ∃ r : ℝ, a = (r : EReal) := by
  obtain ⟨r, -, h⟩ := ha; exact ⟨r, h⟩

/-- A real that is at least a positive real is a positive real. -/
theorem pos_of_real_of_ge {a : EReal} {c : ℝ} (hc : 0 < c) (ha : ∃ r : ℝ, a = (r : EReal)) (hca : (c : EReal) ≤ a) :
    ∃ r : ℝ, 0 < r ∧ a = (r : EReal) := by
  obtain ⟨r, rfl⟩ := ha
  exact ⟨r, lt_of_lt_of_le hc (EReal.coe_le_coe_iff.mp hca), rfl⟩

/-! ### Re-indexings: every entry of the result is an entry of the operand -/

section Reindex
variable {s t : Shape} {α : Type}

/-- A gathered entry is an entry of the operand (whatever the index array holds: starts are clamped). -/
theorem gather_forall {si : Shape} {w : Nat} (P : α → Prop) (d : GatherDims s si t) (x : s.Idx → α) (idx : IVec si w)
    (hx : ∀ i, P (x i)) : ∀ j, P (Host.gather d x idx j) :=
  fun j => hx (d.operandIdx j idx)

theorem broadcastInDim_forall (P : α → Prop) (dims : Fin s.rank → Fin t.rank) (h : s.BroadcastsInDim t dims)
    (x : s.Idx → α) (hx : ∀ i, P (x i)) : ∀ j, P (broadcastInDim t dims h x j) :=
  fun _ => hx _

theorem broadcastTo_forall (P : α → Prop) (x : s.Idx → α) (h : s.Broadcasts t) (hx : ∀ i, P (x i)) :
    ∀ j, P (broadcastTo t x h j) :=
  fun _ => hx _

theorem shapeCast_forall (P : α → Prop) (x : s.Idx → α) (h : s.ShapeCasts t) (hx : ∀ i, P (x i)) :
    ∀ j, P (shapeCast t x h j) :=
  fun j => hx (Shape.reshapeEquiv h j)

theorem transpose_forall (P : α → Prop) (perm : List (Fin s.rank)) (x : s.Idx → α) (h : s.Transposes perm t)
    (hx : ∀ i, P (x i)) : ∀ j, P (transpose t perm x h j) :=
  fun j => hx (h.src j)

end Reindex

theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  gather_forall (fun e => ∃ r : ℝ, e = (r : EReal)) d x idx hx

theorem broadcastInDim_real {s t : Shape} (dims : Fin s.rank → Fin t.rank) (h : s.BroadcastsInDim t dims)
    (x : s.Idx → EReal) (hx : ∀ i, ∃ r : ℝ, x i = (r : EReal)) :
    ∀ j, ∃ r : ℝ, broadcastInDim t dims h x j = (r : EReal) :=
  broadcastInDim_forall (fun e => ∃ r : ℝ, e = (r : EReal)) dims h x hx

theorem shapeCast_real {s t : Shape} (x : s.Idx → EReal) (h : s.ShapeCasts t) (hx : ∀ i, ∃ r : ℝ, x i = (r : EReal)) :
    ∀ j, ∃ r : ℝ, shapeCast t x h j = (r : EReal) :=
  shapeCast_forall (fun e => ∃ r : ℝ, e = (r : EReal)) x h hx

theorem transpose_real {s t : Shape} (perm : List (Fin s.rank)) (x : s.Idx → EReal) (h : s.Transposes perm t)
    (hx : ∀ i, ∃ r : ℝ, x i = (r : EReal)) : ∀ j, ∃ r : ℝ, transpose t perm x h j = (r : EReal) :=
  transpose_forall (fun e => ∃ r : ℝ, e = (r : EReal)) perm x h hx

/-! ### Scatter with an add body -/

section Scatter
variable {s si u : Shape} {w : Nat} {φ : FTy}

/-- Read at an index: the operand entry plus the sum of the update entries that land on it. -/
theorem scatterAdd_apply (d : ScatterDims s si u) (x : FVec Ideal s φ) (idx : IVec si w) (upd : FVec Ideal u φ) (i : s.Idx) :
    Host.scatterAdd d x idx upd i
      = x i + ∑ j ∈ Finset.univ.filter (fun j => d.resultIdx? j idx = some i), upd j := rfl

theorem scatterAdd_real (d : ScatterDims s si u) (x : FVec Ideal s φ) (idx : IVec si w) (upd : FVec Ideal u φ)
    (hx : ∀ i, ∃ r : ℝ, x i = (r : EReal)) (hu : ∀ j, ∃ r : ℝ, upd j = (r : EReal)) :
    ∀ i, ∃ r : ℝ, Host.scatterAdd d x idx upd i = (r : EReal) := by
  intro i
  rw [scatterAdd_apply]
  exact real_add (hx i) (real_sum _ _ fun j _ => hu j)

/-- Nonnegative updates do not lower an entry: a lower bound of the operand bounds the result. -/
theorem scatterAdd_ge (d : ScatterDims s si u) (x : FVec Ideal s φ) (idx : IVec si w) (upd : FVec Ideal u φ)
    (a : EReal) (hx : ∀ i, a ≤ x i) (hu : ∀ j, 0 ≤ upd j) :
    ∀ i, a ≤ Host.scatterAdd d x idx upd i := by
  intro i
  rw [scatterAdd_apply]
  exact le_trans (hx i) (le_add_of_nonneg_right (Finset.sum_nonneg fun j _ => hu j))

end Scatter

/-! ### Pointwise operations -/

section Pointwise
variable {s : Shape} {φ : FTy}

theorem addf_real (x y : FVec Ideal s φ) (hx : ∀ i, ∃ r : ℝ, x i = (r : EReal)) (hy : ∀ i, ∃ r : ℝ, y i = (r : EReal)) :
    ∀ i, ∃ r : ℝ, addf x y i = (r : EReal) :=
  fun i => real_add (hx i) (hy i)

theorem subf_real (x y : FVec Ideal s φ) (hx : ∀ i, ∃ r : ℝ, x i = (r : EReal)) (hy : ∀ i, ∃ r : ℝ, y i = (r : EReal)) :
    ∀ i, ∃ r : ℝ, subf x y i = (r : EReal) :=
  fun i => real_sub (hx i) (hy i)

theorem mulf_real (x y : FVec Ideal s φ) (hx : ∀ i, ∃ r : ℝ, x i = (r : EReal)) (hy : ∀ i, ∃ r : ℝ, y i = (r : EReal)) :
    ∀ i, ∃ r : ℝ, mulf x y i = (r : EReal) :=
  fun i => real_mul (hx i) (hy i)

theorem maximumf_real (x y : FVec Ideal s φ) (hx : ∀ i, ∃ r : ℝ, x i = (r : EReal))
    (hy : ∀ i, ∃ r : ℝ, y i = (r : EReal)) : ∀ i, ∃ r : ℝ, maximumf x y i = (r : EReal) :=
  fun i => real_max (hx i) (hy i)

/-- The host's quotient of an array of reals by an array of nonzero reals. -/
theorem hostDivf_real (x y : FVec Ideal s φ) (hx : ∀ i, ∃ r : ℝ, x i = (r : EReal))
    (hy : ∀ i, ∃ r : ℝ, r ≠ 0 ∧ y i = (r : EReal)) : ∀ i, ∃ r : ℝ, Host.divf x y i = (r : EReal) :=
  fun i => real_div (hx i) (hy i)

/-- The host's reciprocal square root of an array of positive reals is an array of positive reals. -/
theorem hostRsqrt_pos (x : FVec Ideal s φ) (hx : ∀ i, ∃ r : ℝ, 0 < r ∧ x i = (r : EReal)) :
    ∀ i, ∃ r : ℝ, 0 < r ∧ Host.rsqrt x i = (r : EReal) :=
  fun i => pos_rsqrt (hx i)

theorem hostRsqrt_real (x : FVec Ideal s φ) (hx : ∀ i, ∃ r : ℝ, 0 < r ∧ x i = (r : EReal)) :
    ∀ i, ∃ r : ℝ, Host.rsqrt x i = (r : EReal) :=
  fun i => real_of_pos (hostRsqrt_pos x hx i)

/-- Sum with a nonnegative array keeps a lower bound of the other summand. -/
theorem addf_ge (x y : FVec Ideal s φ) (a : EReal) (hx : ∀ i, a ≤ x i) (hy : ∀ i, 0 ≤ y i) :
    ∀ i, a ≤ addf x y i :=
  fun i => le_trans (hx i) (le_add_of_nonneg_right (hy i))

/-- The same with the bound on the right summand. -/
theorem addf_ge_right (x y : FVec Ideal s φ) (a : EReal) (hx : ∀ i, 0 ≤ x i) (hy : ∀ i, a ≤ y i) :
    ∀ i, a ≤ addf x y i :=
  fun i => le_trans (hy i) (le_add_of_nonneg_left (hx i))

/-- Lower bounds add. -/
theorem addf_ge_add (x y : FVec Ideal s φ) (a b : EReal) (hx : ∀ i, a ≤ x i) (hy : ∀ i, b ≤ y i) :
    ∀ i, a + b ≤ addf x y i :=
  fun i => add_le_add (hx i) (hy i)

/-- An array of reals bounded below by a positive real is an array of positive reals. -/
theorem pos_of_real_of_ge_array {ι : Type*} (x : ι → EReal) {c : ℝ} (hc : 0 < c) (hx : ∀ i, ∃ r : ℝ, x i = (r : EReal))
    (hcx : ∀ i, (c : EReal) ≤ x i) : ∀ i, ∃ r : ℝ, 0 < r ∧ x i = (r : EReal) :=
  fun i => pos_of_real_of_ge hc (hx i) (hcx i)

end Pointwise

/-! ### Reduction by addition and contraction -/

/-- Read at an index: the initial value plus the sum of the operand entries that reduce to it. -/
theorem hostReduceAdd_apply {s t u : Shape} {φ : FTy} {axes : List (Fin s.rank)} (x : FVec Ideal s φ)
    (init : u.Idx → Ideal φ) (h : s.ReducesTo axes t) (hu : 0 < u.numel) (j : t.Idx) :
    Host.reduceAdd x init h hu j
      = init (Shape.Idx.first hu) + ∑ i ∈ Finset.univ.filter (fun i => h.drop i = j), x i := rfl

theorem hostReduceAdd_real {s t u : Shape} {φ : FTy} {axes : List (Fin s.rank)} (x : FVec Ideal s φ)
    (init : u.Idx → Ideal φ) (h : s.ReducesTo axes t) (hu : 0 < u.numel)
    (hx : ∀ i, ∃ r : ℝ, x i = (r : EReal)) (hinit : ∀ k, ∃ r : ℝ, init k = (r : EReal)) :
    ∀ j, ∃ r : ℝ, Host.reduceAdd x init h hu j = (r : EReal) := by
  intro j
  rw [hostReduceAdd_apply]
  exact real_add (hinit _) (real_sum _ _ fun i _ => hx i)

/-- A contraction of two arrays of reals is an array of reals (a finite sum of products). -/
theorem dotGeneral_real {sl sr so : Shape} {φ₁ φ₂ : FTy} (d : DotDims sl sr so) (prec : Option ContractPrecision)
    (lhs : FVec Ideal sl φ₁) (rhs : FVec Ideal sr φ₂)
    (hl : ∀ i, ∃ r : ℝ, lhs i = (r : EReal)) (hr : ∀ i, ∃ r : ℝ, rhs i = (r : EReal)) :
    ∀ j, ∃ r : ℝ, Host.dotGeneral d prec lhs rhs j = (r : EReal) := by
  intro j
  rw [show Host.dotGeneral d prec lhs rhs j = ∑ k : d.contr.Idx, lhs (d.lhsIdx j k) * rhs (d.rhsIdx j k) from
    Ideal.dotGeneral_apply d prec .single lhs rhs j]
  exact real_sum _ _ fun k _ => real_mul (hl _) (hr _)

/-- The same at any schedule key. -/
theorem dotGeneralAt_real (sched : HostSchedule) {sl sr so : Shape} {φ₁ φ₂ : FTy} (d : DotDims sl sr so)
    (prec : Option ContractPrecision) (lhs : FVec Ideal sl φ₁) (rhs : FVec Ideal sr φ₂)
    (hl : ∀ i, ∃ r : ℝ, lhs i = (r : EReal)) (hr : ∀ i, ∃ r : ℝ, rhs i = (r : EReal)) :
    ∀ j, ∃ r : ℝ, Host.dotGeneralAt sched d prec lhs rhs j = (r : EReal) := by
  intro j
  rw [show Host.dotGeneralAt sched d prec lhs rhs j = ∑ k : d.contr.Idx, lhs (d.lhsIdx j k) * rhs (d.rhsIdx j k) from
    Ideal.dotGeneral_apply d prec sched lhs rhs j]
  exact real_sum _ _ fun k _ => real_mul (hl _) (hr _)

end Cert.Lib.HostReal
-- ==== Proof.LibGraphStagesReal.lean ====
/-
  The stages of LibGraphStages keep arrays of real numbers real, at the ideal values.

  With every input entry a real number: the degrees are reals and at least one (one plus a sum of ones from zero),
  so their reciprocal square roots are positive reals, and the edge and self coefficients are reals; an aggregation
  of real rows with real coefficients is real; a recast row of reals is real; the mean and variance rows are real
  when the count reads as a nonzero real; the reciprocal square root of variance plus eps is a positive real wherever
  variance plus eps is positive (which holds when the variance is a nonnegative real and eps a positive real); the
  group counts raised to at least one are positive reals, so the group means are real.
-/
import Idealize.ShloMosaic.Lib.IdealHost
import proofs.«106081_j12317966204981_2_alg».proof.Proof.LibHostReal
import proofs.«106081_j12317966204981_2_alg».proof.Proof.LibGraphStages

open Idealize.ShloMosaic

noncomputable section

namespace Cert.Lib.GraphStages

/-! ### The constants -/

section Consts
variable {s0 : Shape}

/-- The zero splat is an array of reals. -/
theorem zero_real : ∀ i, ∃ r : ℝ, constant (F := Ideal) s0 .f32 0x00000000#32 i = (r : EReal) :=
  fun _ => ⟨0, by show Ideal.ofBits .f32 0x00000000#32 = _; rw [Ideal.ofBits_zero_f32]; rfl⟩

/-- The one splat is an array of reals. -/
theorem one_real : ∀ i, ∃ r : ℝ, constant (F := Ideal) s0 .f32 0x3F800000#32 i = (r : EReal) :=
  fun _ => ⟨1, by show Ideal.ofBits .f32 0x3F800000#32 = _; rw [Ideal.ofBits_one_f32]; rfl⟩

theorem zero_apply (i : s0.Idx) : constant (F := Ideal) s0 .f32 0x00000000#32 i = 0 := Ideal.ofBits_zero_f32
theorem one_apply (i : s0.Idx) : constant (F := Ideal) s0 .f32 0x3F800000#32 i = 1 := Ideal.ofBits_one_f32

/-- A splat of a bit pattern that reads as a real is an array of reals. -/
theorem const_real {b : BitVec 32} (hb : ∃ r : ℝ, Ideal.ofBits .f32 b = (r : EReal)) :
    ∀ i, ∃ r : ℝ, constant (F := Ideal) s0 .f32 b i = (r : EReal) := fun _ => hb

end Consts

/-- A positive real is a nonzero real. -/
theorem nonzero_of_pos {a : EReal} (ha : ∃ r : ℝ, 0 < r ∧ a = (r : EReal)) : ∃ r : ℝ, r ≠ 0 ∧ a = (r : EReal) := by
  obtain ⟨r, hr, h⟩ := ha; exact ⟨r, hr.ne', h⟩

open Cert.Lib.HostReal

/-! ### Degrees and coefficients -/

section Degree
variable {s0 sE sE1 sN : Shape}
  (dE : Fin s0.rank → Fin sE.rank) (bE : s0.BroadcastsInDim sE dE)
  (dN : Fin s0.rank → Fin sN.rank) (bN : s0.BroadcastsInDim sN dN)
  (d1 : Fin sE.rank → Fin sE1.rank) (b1 : sE.BroadcastsInDim sE1 d1)
  (sc : ScatterDims sN sE1 sE) (dst : IVec sE 32)

/-- Every degree is a real number. -/
theorem degree_real : ∀ i, ∃ r : ℝ, degree (F := Ideal) dE bE dN bN d1 b1 sc dst i = (r : EReal) := by
  unfold degree
  exact addf_real _ _
    (scatterAdd_real _ _ _ _ (broadcastInDim_real _ _ _ zero_real) (broadcastInDim_real _ _ _ one_real))
    (broadcastInDim_real _ _ _ one_real)

/-- Every degree is at least one. -/
theorem degree_ge_one : ∀ i, ((1 : ℝ) : EReal) ≤ degree (F := Ideal) dE bE dN bN d1 b1 sc dst i := by
  unfold degree
  refine addf_ge_right _ _ _ (scatterAdd_ge _ _ _ _ 0 (fun i => ?_) (fun j => ?_)) (fun i => ?_)
  · exact le_of_eq (broadcastInDim_forall (fun e => e = (0 : EReal)) _ _ _ zero_apply i).symm
  · rw [broadcastInDim_forall (fun e => e = (1 : EReal)) _ _ _ one_apply j]; exact zero_le_one
  · exact le_of_eq (by rw [broadcastInDim_forall (fun e => e = (1 : EReal)) _ _ _ one_apply i]; rfl)

/-- Every degree is a positive real. -/
theorem degree_pos : ∀ i, ∃ r : ℝ, 0 < r ∧ degree (F := Ideal) dE bE dN bN d1 b1 sc dst i = (r : EReal) :=
  pos_of_real_of_ge_array _ one_pos (degree_real dE bE dN bN d1 b1 sc dst) (degree_ge_one dE bE dN bN d1 b1 sc dst)

/-- The reciprocal square roots of the degrees are positive reals. -/
theorem degreeRsqrt_pos : ∀ i, ∃ r : ℝ, 0 < r ∧ degreeRsqrt (F := Ideal) dE bE dN bN d1 b1 sc dst i = (r : EReal) :=
  hostRsqrt_pos _ (degree_pos dE bE dN bN d1 b1 sc dst)

theorem degreeRsqrt_real : ∀ i, ∃ r : ℝ, degreeRsqrt (F := Ideal) dE bE dN bN d1 b1 sc dst i = (r : EReal) :=
  fun i => real_of_pos (degreeRsqrt_pos dE bE dN bN d1 b1 sc dst i)

end Degree

theorem edgeCoef_real {s0 sE sE1 sN : Shape}
    (dE : Fin s0.rank → Fin sE.rank) (bE : s0.BroadcastsInDim sE dE)
    (d1 : Fin sE.rank → Fin sE1.rank) (b1 : sE.BroadcastsInDim sE1 d1)
    (g : GatherDims sN sE1 sE) (count : BitVec 32) (dinv : FVec Ideal sN .f32) (src dst : IVec sE 32)
    (hd : ∀ i, ∃ r : ℝ, dinv i = (r : EReal)) :
    ∀ i, ∃ r : ℝ, edgeCoef (F := Ideal) dE bE d1 b1 g count dinv src dst i = (r : EReal) := by
  unfold edgeCoef
  exact broadcastInDim_real _ _ _ (mulf_real _ _ (gather_real _ _ _ hd) (gather_real _ _ _ hd))

theorem selfCoef_real {sN sN1 : Shape} (dn : Fin sN.rank → Fin sN1.rank) (bn : sN.BroadcastsInDim sN1 dn)
    (dinv : FVec Ideal sN .f32) (hd : ∀ i, ∃ r : ℝ, dinv i = (r : EReal)) :
    ∀ i, ∃ r : ℝ, selfCoef (F := Ideal) dn bn dinv i = (r : EReal) := by
  unfold selfCoef
  exact broadcastInDim_real _ _ _ (mulf_real _ _ hd hd)

/-! ### One aggregation -/

theorem aggStage_real {s0 sE sE1 sEh sN1 sNh : Shape}
    (d0 : Fin s0.rank → Fin sE.rank) (b0 : s0.BroadcastsInDim sE d0)
    (d1 : Fin sE.rank → Fin sE1.rank) (b1 : sE.BroadcastsInDim sE1 d1)
    (d2 : Fin sE1.rank → Fin sEh.rank) (b2 : sE1.BroadcastsInDim sEh d2)
    (dz : Fin s0.rank → Fin sNh.rank) (bz : s0.BroadcastsInDim sNh dz)
    (d3 : Fin sN1.rank → Fin sNh.rank) (b3 : sN1.BroadcastsInDim sNh d3)
    (g : GatherDims sNh sE1 sEh) (sc : ScatterDims sNh sE1 sEh) (count : BitVec 32)
    (x : FVec Ideal sNh .f32) (src dst : IVec sE 32) (coef : FVec Ideal sE1 .f32) (self : FVec Ideal sN1 .f32)
    (hx : ∀ i, ∃ r : ℝ, x i = (r : EReal)) (hc : ∀ i, ∃ r : ℝ, coef i = (r : EReal))
    (hs : ∀ i, ∃ r : ℝ, self i = (r : EReal)) :
    ∀ i, ∃ r : ℝ, aggStage (F := Ideal) d0 b0 d1 b1 d2 b2 dz bz d3 b3 g sc count x src dst coef self i = (r : EReal) := by
  unfold aggStage
  exact addf_real _ _
    (scatterAdd_real _ _ _ _ (broadcastInDim_real _ _ _ zero_real)
      (mulf_real _ _ (gather_real _ _ _ hx) (broadcastInDim_real _ _ _ hc)))
    (mulf_real _ _ hx (broadcastInDim_real _ _ _ hs))

theorem biasRow_real {s t : Shape} (h : s.ShapeCasts t) (x : s.Idx → EReal) (hx : ∀ i, ∃ r : ℝ, x i = (r : EReal)) :
    ∀ j, ∃ r : ℝ, biasRow h x j = (r : EReal) :=
  shapeCast_real x h hx

/-! ### Column statistics -/

section Stats
variable {s0 sR : Shape} (dz : Fin s0.rank → Fin sR.rank) (bz : s0.BroadcastsInDim sR dz) (cnt eps : BitVec 32)
  (sum sumsq : FVec Ideal sR .f32)

/-- The mean row is real when the sums are and the count reads as a nonzero real. -/
theorem meanRow_real (hcnt : ∃ r : ℝ, r ≠ 0 ∧ Ideal.ofBits .f32 cnt = (r : EReal))
    (hs : ∀ i, ∃ r : ℝ, sum i = (r : EReal)) :
    ∀ i, ∃ r : ℝ, meanRow (F := Ideal) dz bz cnt sum i = (r : EReal) := by
  unfold meanRow
  exact hostDivf_real _ _ hs (broadcastInDim_forall (fun e => ∃ r : ℝ, r ≠ 0 ∧ e = (r : EReal)) _ _ _ (fun _ => hcnt))

theorem varRow_real (hcnt : ∃ r : ℝ, r ≠ 0 ∧ Ideal.ofBits .f32 cnt = (r : EReal))
    (hs : ∀ i, ∃ r : ℝ, sum i = (r : EReal)) (hss : ∀ i, ∃ r : ℝ, sumsq i = (r : EReal)) :
    ∀ i, ∃ r : ℝ, varRow (F := Ideal) dz bz cnt sum sumsq i = (r : EReal) := by
  unfold varRow
  exact subf_real _ _ (meanRow_real dz bz cnt sumsq hcnt hss)
    (mulf_real _ _ (meanRow_real dz bz cnt sum hcnt hs) (meanRow_real dz bz cnt sum hcnt hs))

/-- The reciprocal square root of variance plus eps is a positive real wherever variance plus eps is. -/
theorem rsqrtVarRow_pos
    (hpos : ∀ j, ∃ r : ℝ, 0 < r ∧ addf (varRow (F := Ideal) dz bz cnt sum sumsq)
      (broadcastInDim sR dz bz (constant (F := Ideal) s0 .f32 eps)) j = (r : EReal)) :
    ∀ j, ∃ r : ℝ, 0 < r ∧ rsqrtVarRow (F := Ideal) dz bz cnt eps sum sumsq j = (r : EReal) := by
  unfold rsqrtVarRow
  exact hostRsqrt_pos _ hpos

theorem rsqrtVarRow_real
    (hpos : ∀ j, ∃ r : ℝ, 0 < r ∧ addf (varRow (F := Ideal) dz bz cnt sum sumsq)
      (broadcastInDim sR dz bz (constant (F := Ideal) s0 .f32 eps)) j = (r : EReal)) :
    ∀ j, ∃ r : ℝ, rsqrtVarRow (F := Ideal) dz bz cnt eps sum sumsq j = (r : EReal) :=
  fun j => real_of_pos (rsqrtVarRow_pos dz bz cnt eps sum sumsq hpos j)

/-- Variance plus eps is a positive real where the variance is a nonnegative real and eps reads as a positive real. -/
theorem var_add_eps_pos (heps : ∃ r : ℝ, 0 < r ∧ Ideal.ofBits .f32 eps = (r : EReal))
    (hv : ∀ j, ∃ r : ℝ, 0 ≤ r ∧ varRow (F := Ideal) dz bz cnt sum sumsq j = (r : EReal)) :
    ∀ j, ∃ r : ℝ, 0 < r ∧ addf (varRow (F := Ideal) dz bz cnt sum sumsq)
      (broadcastInDim sR dz bz (constant (F := Ideal) s0 .f32 eps)) j = (r : EReal) := by
  intro j
  obtain ⟨v, hv0, hvj⟩ := hv j
  obtain ⟨e, he0, hej⟩ := broadcastInDim_forall (fun x => ∃ r : ℝ, 0 < r ∧ x = (r : EReal)) dz bz
    (constant (F := Ideal) s0 .f32 eps) (fun _ => heps) j
  refine ⟨v + e, by linarith, ?_⟩
  show varRow (F := Ideal) dz bz cnt sum sumsq j + broadcastInDim sR dz bz (constant (F := Ideal) s0 .f32 eps) j = _
  rw [hvj, hej, EReal.coe_add]

end Stats

/-! ### Mean pooling -/

section Pool
variable {s0 sN sN1 sNh sG sG1 sGh : Shape}
  (dzh : Fin s0.rank → Fin sGh.rank) (bzh : s0.BroadcastsInDim sGh dzh)
  (dzN : Fin s0.rank → Fin sN.rank) (bzN : s0.BroadcastsInDim sN dzN)
  (dzG : Fin s0.rank → Fin sG.rank) (bzG : s0.BroadcastsInDim sG dzG)
  (dn : Fin sN.rank → Fin sN1.rank) (bn : sN.BroadcastsInDim sN1 dn)
  (dg : Fin sG.rank → Fin sG1.rank) (bg : sG.BroadcastsInDim sG1 dg)
  (dgh : Fin sG1.rank → Fin sGh.rank) (bgh : sG1.BroadcastsInDim sGh dgh)
  (scS : ScatterDims sGh sN1 sNh) (scC : ScatterDims sG sN1 sN)
  (x : FVec Ideal sNh .f32) (batch : IVec sN 32)

theorem poolSums_real (hx : ∀ i, ∃ r : ℝ, x i = (r : EReal)) :
    ∀ i, ∃ r : ℝ, poolSums (F := Ideal) dzh bzh dn bn scS x batch i = (r : EReal) := by
  unfold poolSums
  exact scatterAdd_real _ _ _ _ (broadcastInDim_real _ _ _ zero_real) hx

/-- The raised group counts are positive reals (at least one). -/
theorem poolCounts_pos : ∀ i, ∃ r : ℝ, 0 < r ∧ poolCounts (F := Ideal) dzN bzN dzG bzG dn bn scC batch i = (r : EReal) := by
  unfold poolCounts
  refine pos_of_real_of_ge_array _ one_pos
    (maximumf_real _ _ (scatterAdd_real _ _ _ _ (broadcastInDim_real _ _ _ zero_real) (broadcastInDim_real _ _ _ one_real))
      (broadcastInDim_real _ _ _ one_real)) (fun i => ?_)
  refine le_trans (le_of_eq ?_) (le_max_right _ _)
  rw [broadcastInDim_forall (fun e => e = (1 : EReal)) _ _ _ one_apply i]; rfl

theorem poolStage_real (hx : ∀ i, ∃ r : ℝ, x i = (r : EReal)) :
    ∀ i, ∃ r : ℝ, poolStage (F := Ideal) dzh bzh dzN bzN dzG bzG dn bn dg bg dgh bgh scS scC x batch i = (r : EReal) := by
  unfold poolStage
  exact hostDivf_real _ _ (poolSums_real dzh bzh dn bn scS x batch hx)
    (broadcastInDim_forall (fun e => ∃ r : ℝ, r ≠ 0 ∧ e = (r : EReal)) _ _ _
      (broadcastInDim_forall (fun e => ∃ r : ℝ, r ≠ 0 ∧ e = (r : EReal)) _ _ _
        (fun i => nonzero_of_pos (poolCounts_pos dzN bzN dzG bzG dn bn scC batch i))))

end Pool

end Cert.Lib.GraphStages

end
-- ==== Proof.KIH.StagesReal.lean ====
/-
  The kernel program's host stages keep arrays of real numbers real, at the ideal values.

  The lemmas of LibGraphStagesReal at this program's shapes, records and literals: the reciprocal square roots of
  the degrees are positive reals and the edge and self coefficients are reals whatever the edge array holds; an
  aggregation of real rows with real coefficients is real; parameter rows stay real; the mean and variance rows are
  real (the node count reads as 100000); where the variance row is a nonnegative real the reciprocal square root of
  variance plus guard is a positive real (the guard reads as a positive real); the group means are real.
-/
import proofs.«106081_j12317966204981_2_alg».proof.Proof.KIH.Stages
import proofs.«106081_j12317966204981_2_alg».proof.Proof.LibGraphStagesReal
import proofs.«106081_j12317966204981_2_alg».proof.Proof.Consts

open Idealize.ShloMosaic

noncomputable section

namespace Cert.KernelIdeal.HandHost

open Cert.KernelIdeal Cert.KernelIdeal.Gen Cert.Lib.GraphStages

/-! ### The literals -/

/-- The node count reads as a nonzero real. -/
theorem nodes_nonzero : ∃ r : ℝ, r ≠ 0 ∧ Ideal.ofBits .f32 0x47C35000#32 = (r : EReal) :=
  ⟨100000, by norm_num, Cert.Consts.ofBits_nodes⟩

/-- The variance's guard reads as a positive real. -/
theorem guard_pos : ∃ r : ℝ, 0 < r ∧ Ideal.ofBits .f32 0x3727C5AC#32 = (r : EReal) :=
  ⟨Cert.Consts.guard, Cert.Consts.guard_pos, Cert.Consts.ofBits_guard⟩

/-! ### Degrees and coefficients -/

theorem kDinv_pos (e : IVec S2x1600000 32) : ∀ i, ∃ r : ℝ, 0 < r ∧ kDinv (F := Ideal) e i = (r : EReal) := by
  unfold kDinv; exact degreeRsqrt_pos _ _ _ _ _ _ _ _

theorem kDinv_real (e : IVec S2x1600000 32) : ∀ i, ∃ r : ℝ, kDinv (F := Ideal) e i = (r : EReal) :=
  fun i => Cert.Lib.HostReal.real_of_pos (kDinv_pos e i)

theorem kCoef_real (e : IVec S2x1600000 32) : ∀ i, ∃ r : ℝ, kCoef (F := Ideal) e i = (r : EReal) := by
  unfold kCoef; exact edgeCoef_real _ _ _ _ _ _ _ _ _ (kDinv_real e)

theorem kSelf_real (e : IVec S2x1600000 32) : ∀ i, ∃ r : ℝ, kSelf (F := Ideal) e i = (r : EReal) := by
  unfold kSelf; exact selfCoef_real _ _ _ (kDinv_real e)

/-! ### Aggregation and parameter rows -/

theorem kAgg_real (x : FVec Ideal S100000x64 .f32) (src dst : IVec S1600000 32) (coef : FVec Ideal S1600000x1 .f32)
    (self : FVec Ideal S100000x1 .f32) (hx : ∀ i, ∃ r : ℝ, x i = (r : EReal)) (hc : ∀ i, ∃ r : ℝ, coef i = (r : EReal))
    (hs : ∀ i, ∃ r : ℝ, self i = (r : EReal)) : ∀ i, ∃ r : ℝ, kAgg (F := Ideal) x src dst coef self i = (r : EReal) := by
  unfold kAgg; exact aggStage_real _ _ _ _ _ _ _ _ _ _ _ _ _ _ _ _ _ _ hx hc hs

theorem kBias_real (b : FVec Ideal S64 .f32) (hb : ∀ i, ∃ r : ℝ, b i = (r : EReal)) :
    ∀ j, ∃ r : ℝ, kBias (F := Ideal) b j = (r : EReal) :=
  biasRow_real _ b hb

theorem kBiasOut_real (b : FVec Ideal S10 .f32) (hb : ∀ i, ∃ r : ℝ, b i = (r : EReal)) :
    ∀ j, ∃ r : ℝ, kBiasOut (F := Ideal) b j = (r : EReal) :=
  biasRow_real _ b hb

/-! ### Column statistics -/

theorem kMean_real (s : FVec Ideal S1x64 .f32) (hs : ∀ i, ∃ r : ℝ, s i = (r : EReal)) :
    ∀ i, ∃ r : ℝ, kMean (F := Ideal) s i = (r : EReal) := by
  unfold kMean; exact meanRow_real _ _ _ _ nodes_nonzero hs

theorem kVar_real (s ss : FVec Ideal S1x64 .f32) (hs : ∀ i, ∃ r : ℝ, s i = (r : EReal))
    (hss : ∀ i, ∃ r : ℝ, ss i = (r : EReal)) : ∀ i, ∃ r : ℝ, kVar (F := Ideal) s ss i = (r : EReal) := by
  unfold kVar; exact varRow_real _ _ _ _ _ nodes_nonzero hs hss

/-- Where the variance row is a nonnegative real, the reciprocal square root of variance plus guard is a positive real. -/
theorem kRsqrtVar_pos (s ss : FVec Ideal S1x64 .f32)
    (hv : ∀ j, ∃ r : ℝ, 0 ≤ r ∧ kVar (F := Ideal) s ss j = (r : EReal)) :
    ∀ j, ∃ r : ℝ, 0 < r ∧ kRsqrtVar (F := Ideal) s ss j = (r : EReal) := by
  unfold kRsqrtVar
  exact rsqrtVarRow_pos _ _ _ _ _ _ (var_add_eps_pos _ _ _ _ _ _ guard_pos hv)

theorem kRsqrtVar_real (s ss : FVec Ideal S1x64 .f32)
    (hv : ∀ j, ∃ r : ℝ, 0 ≤ r ∧ kVar (F := Ideal) s ss j = (r : EReal)) :
    ∀ j, ∃ r : ℝ, kRsqrtVar (F := Ideal) s ss j = (r : EReal) :=
  fun j => Cert.Lib.HostReal.real_of_pos (kRsqrtVar_pos s ss hv j)

/-! ### Pooling -/

theorem kPool_real (x : FVec Ideal S100000x64 .f32) (batch : IVec S100000 32) (hx : ∀ i, ∃ r : ℝ, x i = (r : EReal)) :
    ∀ i, ∃ r : ℝ, kPool (F := Ideal) x batch i = (r : EReal) := by
  unfold kPool; exact poolStage_real _ _ _ _ _ _ _ _ _ _ _ _ _ _ x batch hx

end Cert.KernelIdeal.HandHost

end
-- ==== Proof.Ref.Stages.lean ====
/-
  The reference program's host operations read as pure functions.

  The program is one straight line of 387 array operations. It is cut into five consecutive pieces — the four
  layers (each from its projection to its clamp at zero; the first also extracts the two index vectors from the edge
  array) and the head (pooling, the last affine map, the log-softmax) — and each piece's result buffer is stated as
  a composite of the stage functions of LibGraphStages at this program's shapes and records, together with this
  program's own spellings: a parameter row repeated down the rows, the column mean as a row sum divided by the node
  count, the variance as the mean of the squared deviations, the normalise / gain / shift / clamp chain, the logits
  and the log-softmax that shifts by the row maximum first. A later piece writes neither an argument nor the two
  index vectors, so the five equations compose into one for the whole line, from any initial contents.
-/
import proofs.«106081_j12317966204981_2_alg».proof.Proof.Gen.ReferenceIdeal
import Idealize.ShloMosaic.Lib.StableHlo.Run
import proofs.«106081_j12317966204981_2_alg».proof.Proof.LibGraphStages

open Idealize.ShloMosaic

noncomputable section

namespace Cert.ReferenceIdeal.RefHost

open Cert.ReferenceIdeal Cert.ReferenceIdeal.Gen Idealize.ShloMosaic Idealize.ShloMosaic.TcCoe Idealize.SL.Sem Idealize.ShloMosaic.StableHlo Cert.Lib.GraphStages

variable {F : FTy → Type} [FloatOps F]

abbrev opsL1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    unary main_v26 main_v27 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v4 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v27 main_v35 (broadcastInDim S1600000x64 ![0, 1] bcast_S1600000x1_S1600000x64_0_1 : (⟨S1600000x1, .f32⟩ : BufTy).Contents (Elt F) → (⟨S1600000x64, .f32⟩ : BufTy).Contents (Elt F)),
    binary main_v34 main_v35 main_v36 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v4 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v47 main_cst_8 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    unary main_v50 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v47 main_v52 main_v53 (subf : (⟨S100000x64, .f32⟩ : BufTy).Contents (Elt F) → (⟨S100000x64, .f32⟩ : BufTy).Contents (Elt F) → (⟨S100000x64, .f32⟩ : BufTy).Contents (Elt F)),
    binary main_v53 main_v53 main_v54 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v54 main_cst_10 main_v55 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v56 (broadcastInDim S64 ![] bcast_S_S64 : (⟨S_, .f32⟩ : BufTy).Contents (Elt F) → (⟨S64, .f32⟩ : BufTy).Contents (Elt F)),
    binary main_v55 main_v56 main_v57 (Host.divf : (⟨S64, .f32⟩ : BufTy).Contents (Elt F) → (⟨S64, .f32⟩ : BufTy).Contents (Elt F) → (⟨S64, .f32⟩ : BufTy).Contents (Elt F)),
    unary main_v50 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v47 main_v59 main_v60 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v61 (broadcastInDim S64 ![] bcast_S_S64 : (⟨S_, .f32⟩ : BufTy).Contents (Elt F) → (⟨S64, .f32⟩ : BufTy).Contents (Elt F)),
    binary main_v57 main_v61 main_v62 (addf : (⟨S64, .f32⟩ : BufTy).Contents (Elt F) → (⟨S64, .f32⟩ : BufTy).Contents (Elt F) → (⟨S64, .f32⟩ : BufTy).Contents (Elt F)),
    unary main_v62 main_v63 (Host.rsqrt : (⟨S64, .f32⟩ : BufTy).Contents (Elt F) → (⟨S64, .f32⟩ : BufTy).Contents (Elt F)),
    unary main_v63 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v60 main_v65 main_v66 (mulf : (⟨S100000x64, .f32⟩ : BufTy).Contents (Elt F) → (⟨S100000x64, .f32⟩ : BufTy).Contents (Elt F) → (⟨S100000x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v72) (TRef.of (T := ⟨S100000x64, .f32⟩) main_call0_v0) (TRef.of (T := ⟨S100000x64, .f32⟩) main_v73) maximumf ]

abbrev opsL2 : List (HloOp τ sig (Elt F)) :=
  [ binary main_v73 main_arg7 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_13 (constant S_ .f32 0x3F800000#32),
    unary main_cst_13 main_v75 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v76 (broadcastInDim S100000 ![] bcast_S_S100000 : (⟨S_, .f32⟩ : BufTy).Contents (Elt F) → (⟨S100000, .f32⟩ : BufTy).Contents (Elt F)),
    unary main_v3 main_v77 (broadcastInDim S1600000x1 ![0] bcast_S1600000_S1600000x1_0 : (⟨S1600000, .i32⟩ : BufTy).Contents (Elt F) → (⟨S1600000x1, .i32⟩ : BufTy).Contents (Elt F)),
    ternary main_v76 main_v77 main_v75 main_v78 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v79 (broadcastInDim S100000 ![] bcast_S_S100000 : (⟨S_, .f32⟩ : BufTy).Contents (Elt F) → (⟨S100000, .f32⟩ : BufTy).Contents (Elt F)),
    binary main_v78 main_v79 main_v80 (addf : (⟨S100000, .f32⟩ : BufTy).Contents (Elt F) → (⟨S100000, .f32⟩ : BufTy).Contents (Elt F) → (⟨S100000, .f32⟩ : BufTy).Contents (Elt F)),
    unary main_v80 main_v81 (Host.rsqrt : (⟨S100000, .f32⟩ : BufTy).Contents (Elt F) → (⟨S100000, .f32⟩ : BufTy).Contents (Elt F)),
    nullary main_c_16 (constantI S_ 32 0#32),
    unary main_c_16 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v81 main_v87 main_v88 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_18 (constantI S_ 32 0#32),
    unary main_c_18 main_v89 (broadcastInDim S1600000 ![] bcast_S_S1600000 : (⟨S_, .i32⟩ : BufTy).Contents (Elt F) → (⟨S1600000, .i32⟩ : BufTy).Contents (Elt F)),
    binary main_v3 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v91 (broadcastInDim S1600000 ![] bcast_S_S1600000 : (⟨S_, .i32⟩ : BufTy).Contents (Elt F) → (⟨S1600000, .i32⟩ : BufTy).Contents (Elt F)),
    binary main_v3 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v3 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v81 main_v94 main_v95 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v88 main_v95 main_v96 (mulf : (⟨S1600000, .f32⟩ : BufTy).Contents (Elt F) → (⟨S1600000, .f32⟩ : BufTy).Contents (Elt F) → (⟨S1600000, .f32⟩ : BufTy).Contents (Elt F)),
    unary main_v96 main_v97 (broadcastInDim S1600000x1 ![0] bcast_S1600000_S1600000x1_0 : (⟨S1600000, .f32⟩ : BufTy).Contents (Elt F) → (⟨S1600000x1, .f32⟩ : BufTy).Contents (Elt F)),
    nullary main_c_20 (constantI S_ 32 0#32),
    unary main_c_20 main_v98 (broadcastInDim S1600000 ![] bcast_S_S1600000 : (⟨S_, .i32⟩ : BufTy).Contents (Elt F) → (⟨S1600000, .i32⟩ : BufTy).Contents (Elt F)),
    binary main_v1 main_v98 main_v99 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v100 (broadcastInDim S1600000 ![] bcast_S_S1600000 : (⟨S_, .i32⟩ : BufTy).Contents (Elt F) → (⟨S1600000, .i32⟩ : BufTy).Contents (Elt F)),
    binary main_v1 main_v100 main_v101 (addi : (⟨S1600000, .i32⟩ : BufTy).Contents (Elt F) → (⟨S1600000, .i32⟩ : BufTy).Contents (Elt F) → (⟨S1600000, .i32⟩ : BufTy).Contents (Elt F)),
    ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v102 main_v103 (broadcastInDim S1600000x1 ![0] bcast_S1600000_S1600000x1_0 : (⟨S1600000, .i32⟩ : BufTy).Contents (Elt F) → (⟨S1600000x1, .i32⟩ : BufTy).Contents (Elt F)),
    binary main_v74 main_v103 main_v104 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v97 main_v105 (broadcastInDim S1600000x64 ![0, 1] bcast_S1600000x1_S1600000x64_0_1 : (⟨S1600000x1, .f32⟩ : BufTy).Contents (Elt F) → (⟨S1600000x64, .f32⟩ : BufTy).Contents (Elt F)),
    binary main_v104 main_v105 main_v106 (mulf : (⟨S1600000x64, .f32⟩ : BufTy).Contents (Elt F) → (⟨S1600000x64, .f32⟩ : BufTy).Contents (Elt F) → (⟨S1600000x64, .f32⟩ : BufTy).Contents (Elt F)),
    nullary main_cst_22 (constant S_ .f32 0x00000000#32),
    unary main_cst_22 main_v107 (broadcastInDim S100000x64 ![] bcast_S_S100000x64 : (⟨S_, .f32⟩ : BufTy).Contents (Elt F) → (⟨S100000x64, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v81 main_v81 main_v110 (mulf : (⟨S100000, .f32⟩ : BufTy).Contents (Elt F) → (⟨S100000, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    unary main_v111 main_v112 (broadcastInDim S100000x64 ![0, 1] bcast_S100000x1_S100000x64_0_1 : (⟨S100000x1, .f32⟩ : BufTy).Contents (Elt F) → (⟨S100000x64, .f32⟩ : BufTy).Contents (Elt F)),
    binary main_v74 main_v112 main_v113 (mulf : (⟨S100000x64, .f32⟩ : BufTy).Contents (Elt F) → (⟨S100000x64, .f32⟩ : BufTy).Contents (Elt F) → (⟨S100000x64, .f32⟩ : BufTy).Contents (Elt F)),
    binary main_v109 main_v113 main_v114 (addf : (⟨S100000x64, .f32⟩ : BufTy).Contents (Elt F) → (⟨S100000x64, .f32⟩ : BufTy).Contents (Elt F) → (⟨S100000x64, .f32⟩ : BufTy).Contents (Elt F)),
    unary main_arg8 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x00000000#32),
    binary main_v117 main_cst_23 main_v118 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v119 (broadcastInDim S64 ![] bcast_S_S64 : (⟨S_, .f32⟩ : BufTy).Contents (Elt F) → (⟨S64, .f32⟩ : BufTy).Contents (Elt F)),
    binary main_v118 main_v119 main_v120 (Host.divf : (⟨S64, .f32⟩ : BufTy).Contents (Elt F) → (⟨S64, .f32⟩ : BufTy).Contents (Elt F) → (⟨S64, .f32⟩ : BufTy).Contents (Elt F)),
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v117 main_v122 main_v123 (subf : (⟨S100000x64, .f32⟩ : BufTy).Contents (Elt F) → (⟨S100000x64, .f32⟩ : BufTy).Contents (Elt F) → (⟨S100000x64, .f32⟩ : BufTy).Contents (Elt F)),
    binary main_v123 main_v123 main_v124 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v124 main_cst_25 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v126 (broadcastInDim S64 ![] bcast_S_S64 : (⟨S_, .f32⟩ : BufTy).Contents (Elt F) → (⟨S64, .f32⟩ : BufTy).Contents (Elt F)),
    binary main_v125 main_v126 main_v127 (Host.divf : (⟨S64, .f32⟩ : BufTy).Contents (Elt F) → (⟨S64, .f32⟩ : BufTy).Contents (Elt F) → (⟨S64, .f32⟩ : BufTy).Contents (Elt F)),
    unary main_v120 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v117 main_v129 main_v130 (subf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v131 (broadcastInDim S64 ![] bcast_S_S64 : (⟨S_, .f32⟩ : BufTy).Contents (Elt F) → (⟨S64, .f32⟩ : BufTy).Contents (Elt F)),
    binary main_v127 main_v131 main_v132 (addf : (⟨S64, .f32⟩ : BufTy).Contents (Elt F) → (⟨S64, .f32⟩ : BufTy).Contents (Elt F) → (⟨S64, .f32⟩ : BufTy).Contents (Elt F)),
    unary main_v132 main_v133 (Host.rsqrt : (⟨S64, .f32⟩ : BufTy).Contents (Elt F) → (⟨S64, .f32⟩ : BufTy).Contents (Elt F)),
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v130 main_v135 main_v136 (mulf : (⟨S100000x64, .f32⟩ : BufTy).Contents (Elt F) → (⟨S100000x64, .f32⟩ : BufTy).Contents (Elt F) → (⟨S100000x64, .f32⟩ : BufTy).Contents (Elt F)),
    unary main_arg9 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v136 main_v138 main_v139 (mulf : (⟨S100000x64, .f32⟩ : BufTy).Contents (Elt F) → (⟨S100000x64, .f32⟩ : BufTy).Contents (Elt F) → (⟨S100000x64, .f32⟩ : BufTy).Contents (Elt F)),
    unary main_arg10 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v142) (TRef.of (T := ⟨S100000x64, .f32⟩) main_call1_v0) (TRef.of (T := ⟨S100000x64, .f32⟩) main_v143) maximumf ]

abbrev opsL3 : List (HloOp τ sig (Elt F)) :=
  [ binary main_v143 main_arg11 main_v144 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_28 (constant S_ .f32 0x3F800000#32),
    unary main_cst_28 main_v145 (broadcastInDim S1600000 ![] bcast_S_S1600000 : (⟨S_, .f32⟩ : BufTy).Contents (Elt F) → (⟨S1600000, .f32⟩ : BufTy).Contents (Elt F)),
    nullary main_cst_29 (constant S_ .f32 0x00000000#32),
    unary main_cst_29 main_v146 (broadcastInDim S100000 ![] bcast_S_S100000 : (⟨S_, .f32⟩ : BufTy).Contents (Elt F) → (⟨S100000, .f32⟩ : BufTy).Contents (Elt F)),
    unary main_v3 main_v147 (broadcastInDim S1600000x1 ![0] bcast_S1600000_S1600000x1_0 : (⟨S1600000, .i32⟩ : BufTy).Contents (Elt F) → (⟨S1600000x1, .i32⟩ : BufTy).Contents (Elt F)),
    ternary main_v146 main_v147 main_v145 main_v148 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_30 (constant S_ .f32 0x3F800000#32),
    unary main_cst_30 main_v149 (broadcastInDim S100000 ![] bcast_S_S100000 : (⟨S_, .f32⟩ : BufTy).Contents (Elt F) → (⟨S100000, .f32⟩ : BufTy).Contents (Elt F)),
    binary main_v148 main_v149 main_v150 (addf : (⟨S100000, .f32⟩ : BufTy).Contents (Elt F) → (⟨S100000, .f32⟩ : BufTy).Contents (Elt F) → (⟨S100000, .f32⟩ : BufTy).Contents (Elt F)),
    unary main_v150 main_v151 (Host.rsqrt : (⟨S100000, .f32⟩ : BufTy).Contents (Elt F) → (⟨S100000, .f32⟩ : BufTy).Contents (Elt F)),
    nullary main_c_31 (constantI S_ 32 0#32),
    unary main_c_31 main_v152 (broadcastInDim S1600000 ![] bcast_S_S1600000 : (⟨S_, .i32⟩ : BufTy).Contents (Elt F) → (⟨S1600000, .i32⟩ : BufTy).Contents (Elt F)),
    binary main_v1 main_v152 main_v153 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v154 (broadcastInDim S1600000 ![] bcast_S_S1600000 : (⟨S_, .i32⟩ : BufTy).Contents (Elt F) → (⟨S1600000, .i32⟩ : BufTy).Contents (Elt F)),
    binary main_v1 main_v154 main_v155 (addi : (⟨S1600000, .i32⟩ : BufTy).Contents (Elt F) → (⟨S1600000, .i32⟩ : BufTy).Contents (Elt F) → (⟨S1600000, .i32⟩ : BufTy).Contents (Elt F)),
    ternary main_v153 main_v155 main_v1 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v156 main_v157 (broadcastInDim S1600000x1 ![0] bcast_S1600000_S1600000x1_0 : (⟨S1600000, .i32⟩ : BufTy).Contents (Elt F) → (⟨S1600000x1, .i32⟩ : BufTy).Contents (Elt F)),
    binary main_v151 main_v157 main_v158 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_33 (constantI S_ 32 0#32),
    unary main_c_33 main_v159 (broadcastInDim S1600000 ![] bcast_S_S1600000 : (⟨S_, .i32⟩ : BufTy).Contents (Elt F) → (⟨S1600000, .i32⟩ : BufTy).Contents (Elt F)),
    binary main_v3 main_v159 main_v160 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32),
    unary main_c_34 main_v161 (broadcastInDim S1600000 ![] bcast_S_S1600000 : (⟨S_, .i32⟩ : BufTy).Contents (Elt F) → (⟨S1600000, .i32⟩ : BufTy).Contents (Elt F)),
    binary main_v3 main_v161 main_v162 (addi : (⟨S1600000, .i32⟩ : BufTy).Contents (Elt F) → (⟨S1600000, .i32⟩ : BufTy).Contents (Elt F) → (⟨S1600000, .i32⟩ : BufTy).Contents (Elt F)),
    ternary main_v160 main_v162 main_v3 main_v163 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v163 main_v164 (broadcastInDim S1600000x1 ![0] bcast_S1600000_S1600000x1_0 : (⟨S1600000, .i32⟩ : BufTy).Contents (Elt F) → (⟨S1600000x1, .i32⟩ : BufTy).Contents (Elt F)),
    binary main_v151 main_v164 main_v165 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v158 main_v165 main_v166 (mulf : (⟨S1600000, .f32⟩ : BufTy).Contents (Elt F) → (⟨S1600000, .f32⟩ : BufTy).Contents (Elt F) → (⟨S1600000, .f32⟩ : BufTy).Contents (Elt F)),
    unary main_v166 main_v167 (broadcastInDim S1600000x1 ![0] bcast_S1600000_S1600000x1_0 : (⟨S1600000, .f32⟩ : BufTy).Contents (Elt F) → (⟨S1600000x1, .f32⟩ : BufTy).Contents (Elt F)),
    nullary main_c_35 (constantI S_ 32 0#32),
    unary main_c_35 main_v168 (broadcastInDim S1600000 ![] bcast_S_S1600000 : (⟨S_, .i32⟩ : BufTy).Contents (Elt F) → (⟨S1600000, .i32⟩ : BufTy).Contents (Elt F)),
    binary main_v1 main_v168 main_v169 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v170 (broadcastInDim S1600000 ![] bcast_S_S1600000 : (⟨S_, .i32⟩ : BufTy).Contents (Elt F) → (⟨S1600000, .i32⟩ : BufTy).Contents (Elt F)),
    binary main_v1 main_v170 main_v171 (addi : (⟨S1600000, .i32⟩ : BufTy).Contents (Elt F) → (⟨S1600000, .i32⟩ : BufTy).Contents (Elt F) → (⟨S1600000, .i32⟩ : BufTy).Contents (Elt F)),
    ternary main_v169 main_v171 main_v1 main_v172 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v172 main_v173 (broadcastInDim S1600000x1 ![0] bcast_S1600000_S1600000x1_0 : (⟨S1600000, .i32⟩ : BufTy).Contents (Elt F) → (⟨S1600000x1, .i32⟩ : BufTy).Contents (Elt F)),
    binary main_v144 main_v173 main_v174 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v167 main_v175 (broadcastInDim S1600000x64 ![0, 1] bcast_S1600000x1_S1600000x64_0_1 : (⟨S1600000x1, .f32⟩ : BufTy).Contents (Elt F) → (⟨S1600000x64, .f32⟩ : BufTy).Contents (Elt F)),
    binary main_v174 main_v175 main_v176 (mulf : (⟨S1600000x64, .f32⟩ : BufTy).Contents (Elt F) → (⟨S1600000x64, .f32⟩ : BufTy).Contents (Elt F) → (⟨S1600000x64, .f32⟩ : BufTy).Contents (Elt F)),
    nullary main_cst_37 (constant S_ .f32 0x00000000#32),
    unary main_cst_37 main_v177 (broadcastInDim S100000x64 ![] bcast_S_S100000x64 : (⟨S_, .f32⟩ : BufTy).Contents (Elt F) → (⟨S100000x64, .f32⟩ : BufTy).Contents (Elt F)),
    unary main_v3 main_v178 (broadcastInDim S1600000x1 ![0] bcast_S1600000_S1600000x1_0 : (⟨S1600000, .i32⟩ : BufTy).Contents (Elt F) → (⟨S1600000x1, .i32⟩ : BufTy).Contents (Elt F)),
    ternary main_v177 main_v178 main_v176 main_v179 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v151 main_v151 main_v180 (mulf : (⟨S100000, .f32⟩ : BufTy).Contents (Elt F) → (⟨S100000, .f32⟩ : BufTy).Contents (Elt F) → (⟨S100000, .f32⟩ : BufTy).Contents (Elt F)),
    unary main_v180 main_v181 (broadcastInDim S100000x1 ![0] bcast_S100000_S100000x1_0 : (⟨S100000, .f32⟩ : BufTy).Contents (Elt F) → (⟨S100000x1, .f32⟩ : BufTy).Contents (Elt F)),
    unary main_v181 main_v182 (broadcastInDim S100000x64 ![0, 1] bcast_S100000x1_S100000x64_0_1 : (⟨S100000x1, .f32⟩ : BufTy).Contents (Elt F) → (⟨S100000x64, .f32⟩ : BufTy).Contents (Elt F)),
    binary main_v144 main_v182 main_v183 (mulf : (⟨S100000x64, .f32⟩ : BufTy).Contents (Elt F) → (⟨S100000x64, .f32⟩ : BufTy).Contents (Elt F) → (⟨S100000x64, .f32⟩ : BufTy).Contents (Elt F)),
    binary main_v179 main_v183 main_v184 (addf : (⟨S100000x64, .f32⟩ : BufTy).Contents (Elt F) → (⟨S100000x64, .f32⟩ : BufTy).Contents (Elt F) → (⟨S100000x64, .f32⟩ : BufTy).Contents (Elt F)),
    unary main_arg12 main_v185 (broadcastInDim S1x64 ![1] bcast_S64_S1x64_1 : (⟨S64, .f32⟩ : BufTy).Contents (Elt F) → (⟨S1x64, .f32⟩ : BufTy).Contents (Elt F)),
    unary main_v185 main_v186 (broadcastInDim S100000x64 ![0, 1] bcast_S1x64_S100000x64_0_1 : (⟨S1x64, .f32⟩ : BufTy).Contents (Elt F) → (⟨S100000x64, .f32⟩ : BufTy).Contents (Elt F)),
    binary main_v184 main_v186 main_v187 (addf : (⟨S100000x64, .f32⟩ : BufTy).Contents (Elt F) → (⟨S100000x64, .f32⟩ : BufTy).Contents (Elt F) → (⟨S100000x64, .f32⟩ : BufTy).Contents (Elt F)),
    nullary main_cst_38 (constant S_ .f32 0x00000000#32),
    binary main_v187 main_cst_38 main_v188 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_39 (constant S_ .f32 0x47C35000#32),
    unary main_cst_39 main_v189 (broadcastInDim S64 ![] bcast_S_S64 : (⟨S_, .f32⟩ : BufTy).Contents (Elt F) → (⟨S64, .f32⟩ : BufTy).Contents (Elt F)),
    binary main_v188 main_v189 main_v190 (Host.divf : (⟨S64, .f32⟩ : BufTy).Contents (Elt F) → (⟨S64, .f32⟩ : BufTy).Contents (Elt F) → (⟨S64, .f32⟩ : BufTy).Contents (Elt F)),
    unary main_v190 main_v191 (broadcastInDim S1x64 ![1] bcast_S64_S1x64_1 : (⟨S64, .f32⟩ : BufTy).Contents (Elt F) → (⟨S1x64, .f32⟩ : BufTy).Contents (Elt F)),
    unary main_v191 main_v192 (broadcastInDim S100000x64 ![0, 1] bcast_S1x64_S100000x64_0_1 : (⟨S1x64, .f32⟩ : BufTy).Contents (Elt F) → (⟨S100000x64, .f32⟩ : BufTy).Contents (Elt F)),
    binary main_v187 main_v192 main_v193 (subf : (⟨S100000x64, .f32⟩ : BufTy).Contents (Elt F) → (⟨S100000x64, .f32⟩ : BufTy).Contents (Elt F) → (⟨S100000x64, .f32⟩ : BufTy).Contents (Elt F)),
    binary main_v193 main_v193 main_v194 (mulf : (⟨S100000x64, .f32⟩ : BufTy).Contents (Elt F) → (⟨S100000x64, .f32⟩ : BufTy).Contents (Elt F) → (⟨S100000x64, .f32⟩ : BufTy).Contents (Elt F)),
    nullary main_cst_40 (constant S_ .f32 0x00000000#32),
    binary main_v194 main_cst_40 main_v195 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_41 (constant S_ .f32 0x47C35000#32),
    unary main_cst_41 main_v196 (broadcastInDim S64 ![] bcast_S_S64 : (⟨S_, .f32⟩ : BufTy).Contents (Elt F) → (⟨S64, .f32⟩ : BufTy).Contents (Elt F)),
    binary main_v195 main_v196 main_v197 (Host.divf : (⟨S64, .f32⟩ : BufTy).Contents (Elt F) → (⟨S64, .f32⟩ : BufTy).Contents (Elt F) → (⟨S64, .f32⟩ : BufTy).Contents (Elt F)),
    unary main_v190 main_v198 (broadcastInDim S1x64 ![1] bcast_S64_S1x64_1 : (⟨S64, .f32⟩ : BufTy).Contents (Elt F) → (⟨S1x64, .f32⟩ : BufTy).Contents (Elt F)),
    unary main_v198 main_v199 (broadcastInDim S100000x64 ![0, 1] bcast_S1x64_S100000x64_0_1 : (⟨S1x64, .f32⟩ : BufTy).Contents (Elt F) → (⟨S100000x64, .f32⟩ : BufTy).Contents (Elt F)),
    binary main_v187 main_v199 main_v200 (subf : (⟨S100000x64, .f32⟩ : BufTy).Contents (Elt F) → (⟨S100000x64, .f32⟩ : BufTy).Contents (Elt F) → (⟨S100000x64, .f32⟩ : BufTy).Contents (Elt F)),
    nullary main_cst_42 (constant S_ .f32 0x3727C5AC#32),
    unary main_cst_42 main_v201 (broadcastInDim S64 ![] bcast_S_S64 : (⟨S_, .f32⟩ : BufTy).Contents (Elt F) → (⟨S64, .f32⟩ : BufTy).Contents (Elt F)),
    binary main_v197 main_v201 main_v202 (addf : (⟨S64, .f32⟩ : BufTy).Contents (Elt F) → (⟨S64, .f32⟩ : BufTy).Contents (Elt F) → (⟨S64, .f32⟩ : BufTy).Contents (Elt F)),
    unary main_v202 main_v203 (Host.rsqrt : (⟨S64, .f32⟩ : BufTy).Contents (Elt F) → (⟨S64, .f32⟩ : BufTy).Contents (Elt F)),
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S100000x64 ![0, 1] bcast_S1x64_S100000x64_0_1 : (⟨S1x64, .f32⟩ : BufTy).Contents (Elt F) → (⟨S100000x64, .f32⟩ : BufTy).Contents (Elt F)),
    binary main_v200 main_v205 main_v206 (mulf : (⟨S100000x64, .f32⟩ : BufTy).Contents (Elt F) → (⟨S100000x64, .f32⟩ : BufTy).Contents (Elt F) → (⟨S100000x64, .f32⟩ : BufTy).Contents (Elt F)),
    unary main_arg13 main_v207 (broadcastInDim S1x64 ![1] bcast_S64_S1x64_1 : (⟨S64, .f32⟩ : BufTy).Contents (Elt F) → (⟨S1x64, .f32⟩ : BufTy).Contents (Elt F)),
    unary main_v207 main_v208 (broadcastInDim S100000x64 ![0, 1] bcast_S1x64_S100000x64_0_1 : (⟨S1x64, .f32⟩ : BufTy).Contents (Elt F) → (⟨S100000x64, .f32⟩ : BufTy).Contents (Elt F)),
    binary main_v206 main_v208 main_v209 (mulf : (⟨S100000x64, .f32⟩ : BufTy).Contents (Elt F) → (⟨S100000x64, .f32⟩ : BufTy).Contents (Elt F) → (⟨S100000x64, .f32⟩ : BufTy).Contents (Elt F)),
    unary main_arg14 main_v210 (broadcastInDim S1x64 ![1] bcast_S64_S1x64_1 : (⟨S64, .f32⟩ : BufTy).Contents (Elt F) → (⟨S1x64, .f32⟩ : BufTy).Contents (Elt F)),
    unary main_v210 main_v211 (broadcastInDim S100000x64 ![0, 1] bcast_S1x64_S100000x64_0_1 : (⟨S1x64, .f32⟩ : BufTy).Contents (Elt F) → (⟨S100000x64, .f32⟩ : BufTy).Contents (Elt F)),
    binary main_v209 main_v211 main_v212 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v212) (TRef.of (T := ⟨S100000x64, .f32⟩) main_call2_v0) (TRef.of (T := ⟨S100000x64, .f32⟩) main_v213) maximumf ]

abbrev opsL4 : List (HloOp τ sig (Elt F)) :=
  [ binary main_v213 main_arg15 main_v214 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_43 (constant S_ .f32 0x3F800000#32),
    unary main_cst_43 main_v215 (broadcastInDim S1600000 ![] bcast_S_S1600000 : (⟨S_, .f32⟩ : BufTy).Contents (Elt F) → (⟨S1600000, .f32⟩ : BufTy).Contents (Elt F)),
    nullary main_cst_44 (constant S_ .f32 0x00000000#32),
    unary main_cst_44 main_v216 (broadcastInDim S100000 ![] bcast_S_S100000 : (⟨S_, .f32⟩ : BufTy).Contents (Elt F) → (⟨S100000, .f32⟩ : BufTy).Contents (Elt F)),
    unary main_v3 main_v217 (broadcastInDim S1600000x1 ![0] bcast_S1600000_S1600000x1_0 : (⟨S1600000, .i32⟩ : BufTy).Contents (Elt F) → (⟨S1600000x1, .i32⟩ : BufTy).Contents (Elt F)),
    ternary main_v216 main_v217 main_v215 main_v218 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_45 (constant S_ .f32 0x3F800000#32),
    unary main_cst_45 main_v219 (broadcastInDim S100000 ![] bcast_S_S100000 : (⟨S_, .f32⟩ : BufTy).Contents (Elt F) → (⟨S100000, .f32⟩ : BufTy).Contents (Elt F)),
    binary main_v218 main_v219 main_v220 (addf : (⟨S100000, .f32⟩ : BufTy).Contents (Elt F) → (⟨S100000, .f32⟩ : BufTy).Contents (Elt F) → (⟨S100000, .f32⟩ : BufTy).Contents (Elt F)),
    unary main_v220 main_v221 (Host.rsqrt : (⟨S100000, .f32⟩ : BufTy).Contents (Elt F) → (⟨S100000, .f32⟩ : BufTy).Contents (Elt F)),
    nullary main_c_46 (constantI S_ 32 0#32),
    unary main_c_46 main_v222 (broadcastInDim S1600000 ![] bcast_S_S1600000 : (⟨S_, .i32⟩ : BufTy).Contents (Elt F) → (⟨S1600000, .i32⟩ : BufTy).Contents (Elt F)),
    binary main_v1 main_v222 main_v223 (cmpi .slt : (⟨S1600000, .i32⟩ : BufTy).Contents (Elt F) → (⟨S1600000, .i32⟩ : BufTy).Contents (Elt F) → (⟨S1600000, .i1⟩ : BufTy).Contents (Elt F)),
    nullary main_c_47 (constantI S_ 32 100000#32),
    unary main_c_47 main_v224 (broadcastInDim S1600000 ![] bcast_S_S1600000 : (⟨S_, .i32⟩ : BufTy).Contents (Elt F) → (⟨S1600000, .i32⟩ : BufTy).Contents (Elt F)),
    binary main_v1 main_v224 main_v225 (addi : (⟨S1600000, .i32⟩ : BufTy).Contents (Elt F) → (⟨S1600000, .i32⟩ : BufTy).Contents (Elt F) → (⟨S1600000, .i32⟩ : BufTy).Contents (Elt F)),
    ternary main_v223 main_v225 main_v1 main_v226 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v226 main_v227 (broadcastInDim S1600000x1 ![0] bcast_S1600000_S1600000x1_0 : (⟨S1600000, .i32⟩ : BufTy).Contents (Elt F) → (⟨S1600000x1, .i32⟩ : BufTy).Contents (Elt F)),
    binary main_v221 main_v227 main_v228 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_48 (constantI S_ 32 0#32),
    unary main_c_48 main_v229 (broadcastInDim S1600000 ![] bcast_S_S1600000 : (⟨S_, .i32⟩ : BufTy).Contents (Elt F) → (⟨S1600000, .i32⟩ : BufTy).Contents (Elt F)),
    binary main_v3 main_v229 main_v230 (cmpi .slt : (⟨S1600000, .i32⟩ : BufTy).Contents (Elt F) → (⟨S1600000, .i32⟩ : BufTy).Contents (Elt F) → (⟨S1600000, .i1⟩ : BufTy).Contents (Elt F)),
    nullary main_c_49 (constantI S_ 32 100000#32),
    unary main_c_49 main_v231 (broadcastInDim S1600000 ![] bcast_S_S1600000 : (⟨S_, .i32⟩ : BufTy).Contents (Elt F) → (⟨S1600000, .i32⟩ : BufTy).Contents (Elt F)),
    binary main_v3 main_v231 main_v232 (addi : (⟨S1600000, .i32⟩ : BufTy).Contents (Elt F) → (⟨S1600000, .i32⟩ : BufTy).Contents (Elt F) → (⟨S1600000, .i32⟩ : BufTy).Contents (Elt F)),
    ternary main_v230 main_v232 main_v3 main_v233 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v233 main_v234 (broadcastInDim S1600000x1 ![0] bcast_S1600000_S1600000x1_0 : (⟨S1600000, .i32⟩ : BufTy).Contents (Elt F) → (⟨S1600000x1, .i32⟩ : BufTy).Contents (Elt F)),
    binary main_v221 main_v234 main_v235 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v228 main_v235 main_v236 (mulf : (⟨S1600000, .f32⟩ : BufTy).Contents (Elt F) → (⟨S1600000, .f32⟩ : BufTy).Contents (Elt F) → (⟨S1600000, .f32⟩ : BufTy).Contents (Elt F)),
    unary main_v236 main_v237 (broadcastInDim S1600000x1 ![0] bcast_S1600000_S1600000x1_0 : (⟨S1600000, .f32⟩ : BufTy).Contents (Elt F) → (⟨S1600000x1, .f32⟩ : BufTy).Contents (Elt F)),
    nullary main_c_50 (constantI S_ 32 0#32),
    unary main_c_50 main_v238 (broadcastInDim S1600000 ![] bcast_S_S1600000 : (⟨S_, .i32⟩ : BufTy).Contents (Elt F) → (⟨S1600000, .i32⟩ : BufTy).Contents (Elt F)),
    binary main_v1 main_v238 main_v239 (cmpi .slt : (⟨S1600000, .i32⟩ : BufTy).Contents (Elt F) → (⟨S1600000, .i32⟩ : BufTy).Contents (Elt F) → (⟨S1600000, .i1⟩ : BufTy).Contents (Elt F)),
    nullary main_c_51 (constantI S_ 32 100000#32),
    unary main_c_51 main_v240 (broadcastInDim S1600000 ![] bcast_S_S1600000 : (⟨S_, .i32⟩ : BufTy).Contents (Elt F) → (⟨S1600000, .i32⟩ : BufTy).Contents (Elt F)),
    binary main_v1 main_v240 main_v241 (addi : (⟨S1600000, .i32⟩ : BufTy).Contents (Elt F) → (⟨S1600000, .i32⟩ : BufTy).Contents (Elt F) → (⟨S1600000, .i32⟩ : BufTy).Contents (Elt F)),
    ternary main_v239 main_v241 main_v1 main_v242 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v242 main_v243 (broadcastInDim S1600000x1 ![0] bcast_S1600000_S1600000x1_0 : (⟨S1600000, .i32⟩ : BufTy).Contents (Elt F) → (⟨S1600000x1, .i32⟩ : BufTy).Contents (Elt F)),
    binary main_v214 main_v243 main_v244 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v237 main_v245 (broadcastInDim S1600000x64 ![0, 1] bcast_S1600000x1_S1600000x64_0_1 : (⟨S1600000x1, .f32⟩ : BufTy).Contents (Elt F) → (⟨S1600000x64, .f32⟩ : BufTy).Contents (Elt F)),
    binary main_v244 main_v245 main_v246 (mulf : (⟨S1600000x64, .f32⟩ : BufTy).Contents (Elt F) → (⟨S1600000x64, .f32⟩ : BufTy).Contents (Elt F) → (⟨S1600000x64, .f32⟩ : BufTy).Contents (Elt F)),
    nullary main_cst_52 (constant S_ .f32 0x00000000#32),
    unary main_cst_52 main_v247 (broadcastInDim S100000x64 ![] bcast_S_S100000x64 : (⟨S_, .f32⟩ : BufTy).Contents (Elt F) → (⟨S100000x64, .f32⟩ : BufTy).Contents (Elt F)),
    unary main_v3 main_v248 (broadcastInDim S1600000x1 ![0] bcast_S1600000_S1600000x1_0 : (⟨S1600000, .i32⟩ : BufTy).Contents (Elt F) → (⟨S1600000x1, .i32⟩ : BufTy).Contents (Elt F)),
    ternary main_v247 main_v248 main_v246 main_v249 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v221 main_v221 main_v250 (mulf : (⟨S100000, .f32⟩ : BufTy).Contents (Elt F) → (⟨S100000, .f32⟩ : BufTy).Contents (Elt F) → (⟨S100000, .f32⟩ : BufTy).Contents (Elt F)),
    unary main_v250 main_v251 (broadcastInDim S100000x1 ![0] bcast_S100000_S100000x1_0 : (⟨S100000, .f32⟩ : BufTy).Contents (Elt F) → (⟨S100000x1, .f32⟩ : BufTy).Contents (Elt F)),
    unary main_v251 main_v252 (broadcastInDim S100000x64 ![0, 1] bcast_S100000x1_S100000x64_0_1 : (⟨S100000x1, .f32⟩ : BufTy).Contents (Elt F) → (⟨S100000x64, .f32⟩ : BufTy).Contents (Elt F)),
    binary main_v214 main_v252 main_v253 (mulf : (⟨S100000x64, .f32⟩ : BufTy).Contents (Elt F) → (⟨S100000x64, .f32⟩ : BufTy).Contents (Elt F) → (⟨S100000x64, .f32⟩ : BufTy).Contents (Elt F)),
    binary main_v249 main_v253 main_v254 (addf : (⟨S100000x64, .f32⟩ : BufTy).Contents (Elt F) → (⟨S100000x64, .f32⟩ : BufTy).Contents (Elt F) → (⟨S100000x64, .f32⟩ : BufTy).Contents (Elt F)),
    unary main_arg16 main_v255 (broadcastInDim S1x64 ![1] bcast_S64_S1x64_1 : (⟨S64, .f32⟩ : BufTy).Contents (Elt F) → (⟨S1x64, .f32⟩ : BufTy).Contents (Elt F)),
    unary main_v255 main_v256 (broadcastInDim S100000x64 ![0, 1] bcast_S1x64_S100000x64_0_1 : (⟨S1x64, .f32⟩ : BufTy).Contents (Elt F) → (⟨S100000x64, .f32⟩ : BufTy).Contents (Elt F)),
    binary main_v254 main_v256 main_v257 (addf : (⟨S100000x64, .f32⟩ : BufTy).Contents (Elt F) → (⟨S100000x64, .f32⟩ : BufTy).Contents (Elt F) → (⟨S100000x64, .f32⟩ : BufTy).Contents (Elt F)),
    nullary main_cst_53 (constant S_ .f32 0x00000000#32),
    binary main_v257 main_cst_53 main_v258 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_54 (constant S_ .f32 0x47C35000#32),
    unary main_cst_54 main_v259 (broadcastInDim S64 ![] bcast_S_S64 : (⟨S_, .f32⟩ : BufTy).Contents (Elt F) → (⟨S64, .f32⟩ : BufTy).Contents (Elt F)),
    binary main_v258 main_v259 main_v260 (Host.divf : (⟨S64, .f32⟩ : BufTy).Contents (Elt F) → (⟨S64, .f32⟩ : BufTy).Contents (Elt F) → (⟨S64, .f32⟩ : BufTy).Contents (Elt F)),
    unary main_v260 main_v261 (broadcastInDim S1x64 ![1] bcast_S64_S1x64_1 : (⟨S64, .f32⟩ : BufTy).Contents (Elt F) → (⟨S1x64, .f32⟩ : BufTy).Contents (Elt F)),
    unary main_v261 main_v262 (broadcastInDim S100000x64 ![0, 1] bcast_S1x64_S100000x64_0_1 : (⟨S1x64, .f32⟩ : BufTy).Contents (Elt F) → (⟨S100000x64, .f32⟩ : BufTy).Contents (Elt F)),
    binary main_v257 main_v262 main_v263 (subf : (⟨S100000x64, .f32⟩ : BufTy).Contents (Elt F) → (⟨S100000x64, .f32⟩ : BufTy).Contents (Elt F) → (⟨S100000x64, .f32⟩ : BufTy).Contents (Elt F)),
    binary main_v263 main_v263 main_v264 (mulf : (⟨S100000x64, .f32⟩ : BufTy).Contents (Elt F) → (⟨S100000x64, .f32⟩ : BufTy).Contents (Elt F) → (⟨S100000x64, .f32⟩ : BufTy).Contents (Elt F)),
    nullary main_cst_55 (constant S_ .f32 0x00000000#32),
    binary main_v264 main_cst_55 main_v265 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_56 (constant S_ .f32 0x47C35000#32),
    unary main_cst_56 main_v266 (broadcastInDim S64 ![] bcast_S_S64 : (⟨S_, .f32⟩ : BufTy).Contents (Elt F) → (⟨S64, .f32⟩ : BufTy).Contents (Elt F)),
    binary main_v265 main_v266 main_v267 (Host.divf : (⟨S64, .f32⟩ : BufTy).Contents (Elt F) → (⟨S64, .f32⟩ : BufTy).Contents (Elt F) → (⟨S64, .f32⟩ : BufTy).Contents (Elt F)),
    unary main_v260 main_v268 (broadcastInDim S1x64 ![1] bcast_S64_S1x64_1 : (⟨S64, .f32⟩ : BufTy).Contents (Elt F) → (⟨S1x64, .f32⟩ : BufTy).Contents (Elt F)),
    unary main_v268 main_v269 (broadcastInDim S100000x64 ![0, 1] bcast_S1x64_S100000x64_0_1 : (⟨S1x64, .f32⟩ : BufTy).Contents (Elt F) → (⟨S100000x64, .f32⟩ : BufTy).Contents (Elt F)),
    binary main_v257 main_v269 main_v270 (subf : (⟨S100000x64, .f32⟩ : BufTy).Contents (Elt F) → (⟨S100000x64, .f32⟩ : BufTy).Contents (Elt F) → (⟨S100000x64, .f32⟩ : BufTy).Contents (Elt F)),
    nullary main_cst_57 (constant S_ .f32 0x3727C5AC#32),
    unary main_cst_57 main_v271 (broadcastInDim S64 ![] bcast_S_S64 : (⟨S_, .f32⟩ : BufTy).Contents (Elt F) → (⟨S64, .f32⟩ : BufTy).Contents (Elt F)),
    binary main_v267 main_v271 main_v272 (addf : (⟨S64, .f32⟩ : BufTy).Contents (Elt F) → (⟨S64, .f32⟩ : BufTy).Contents (Elt F) → (⟨S64, .f32⟩ : BufTy).Contents (Elt F)),
    unary main_v272 main_v273 (Host.rsqrt : (⟨S64, .f32⟩ : BufTy).Contents (Elt F) → (⟨S64, .f32⟩ : BufTy).Contents (Elt F)),
    unary main_v273 main_v274 (broadcastInDim S1x64 ![1] bcast_S64_S1x64_1 : (⟨S64, .f32⟩ : BufTy).Contents (Elt F) → (⟨S1x64, .f32⟩ : BufTy).Contents (Elt F)),
    unary main_v274 main_v275 (broadcastInDim S100000x64 ![0, 1] bcast_S1x64_S100000x64_0_1 : (⟨S1x64, .f32⟩ : BufTy).Contents (Elt F) → (⟨S100000x64, .f32⟩ : BufTy).Contents (Elt F)),
    binary main_v270 main_v275 main_v276 (mulf : (⟨S100000x64, .f32⟩ : BufTy).Contents (Elt F) → (⟨S100000x64, .f32⟩ : BufTy).Contents (Elt F) → (⟨S100000x64, .f32⟩ : BufTy).Contents (Elt F)),
    unary main_arg17 main_v277 (broadcastInDim S1x64 ![1] bcast_S64_S1x64_1 : (⟨S64, .f32⟩ : BufTy).Contents (Elt F) → (⟨S1x64, .f32⟩ : BufTy).Contents (Elt F)),
    unary main_v277 main_v278 (broadcastInDim S100000x64 ![0, 1] bcast_S1x64_S100000x64_0_1 : (⟨S1x64, .f32⟩ : BufTy).Contents (Elt F) → (⟨S100000x64, .f32⟩ : BufTy).Contents (Elt F)),
    binary main_v276 main_v278 main_v279 (mulf : (⟨S100000x64, .f32⟩ : BufTy).Contents (Elt F) → (⟨S100000x64, .f32⟩ : BufTy).Contents (Elt F) → (⟨S100000x64, .f32⟩ : BufTy).Contents (Elt F)),
    unary main_arg18 main_v280 (broadcastInDim S1x64 ![1] bcast_S64_S1x64_1 : (⟨S64, .f32⟩ : BufTy).Contents (Elt F) → (⟨S1x64, .f32⟩ : BufTy).Contents (Elt F)),
    unary main_v280 main_v281 (broadcastInDim S100000x64 ![0, 1] bcast_S1x64_S100000x64_0_1 : (⟨S1x64, .f32⟩ : BufTy).Contents (Elt F) → (⟨S100000x64, .f32⟩ : BufTy).Contents (Elt F)),
    binary main_v279 main_v281 main_v282 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v282) (TRef.of (T := ⟨S100000x64, .f32⟩) main_call3_v0) (TRef.of (T := ⟨S100000x64, .f32⟩) main_v283) maximumf ]

abbrev opsTail : List (HloOp τ sig (Elt F)) :=
  [ nullary main_cst_58 (constant S_ .f32 0x00000000#32),
    unary main_cst_58 main_v284 (broadcastInDim S512x64 ![] bcast_S_S512x64 : (⟨S_, .f32⟩ : BufTy).Contents (Elt F) → (⟨S512x64, .f32⟩ : BufTy).Contents (Elt F)),
    unary main_arg2 main_v285 (broadcastInDim S100000x1 ![0] bcast_S100000_S100000x1_0 : (⟨S100000, .i32⟩ : BufTy).Contents (Elt F) → (⟨S100000x1, .i32⟩ : BufTy).Contents (Elt F)),
    ternary main_v284 main_v285 main_v283 main_v286 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_59 (constant S_ .f32 0x3F800000#32),
    unary main_cst_59 main_v287 (broadcastInDim S100000 ![] bcast_S_S100000 : (⟨S_, .f32⟩ : BufTy).Contents (Elt F) → (⟨S100000, .f32⟩ : BufTy).Contents (Elt F)),
    nullary main_cst_60 (constant S_ .f32 0x00000000#32),
    unary main_cst_60 main_v288 (broadcastInDim S512 ![] bcast_S_S512 : (⟨S_, .f32⟩ : BufTy).Contents (Elt F) → (⟨S512, .f32⟩ : BufTy).Contents (Elt F)),
    unary main_arg2 main_v289 (broadcastInDim S100000x1 ![0] bcast_S100000_S100000x1_0 : (⟨S100000, .i32⟩ : BufTy).Contents (Elt F) → (⟨S100000x1, .i32⟩ : BufTy).Contents (Elt F)),
    ternary main_v288 main_v289 main_v287 main_v290 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_61 (constant S_ .f32 0x3F800000#32),
    unary main_cst_61 main_v291 (broadcastInDim S512 ![] bcast_S_S512 : (⟨S_, .f32⟩ : BufTy).Contents (Elt F) → (⟨S512, .f32⟩ : BufTy).Contents (Elt F)),
    binary main_v290 main_v291 main_v292 (maximumf : (⟨S512, .f32⟩ : BufTy).Contents (Elt F) → (⟨S512, .f32⟩ : BufTy).Contents (Elt F) → (⟨S512, .f32⟩ : BufTy).Contents (Elt F)),
    unary main_v292 main_v293 (broadcastInDim S512x1 ![0] bcast_S512_S512x1_0 : (⟨S512, .f32⟩ : BufTy).Contents (Elt F) → (⟨S512x1, .f32⟩ : BufTy).Contents (Elt F)),
    unary main_v293 main_v294 (broadcastInDim S512x64 ![0, 1] bcast_S512x1_S512x64_0_1 : (⟨S512x1, .f32⟩ : BufTy).Contents (Elt F) → (⟨S512x64, .f32⟩ : BufTy).Contents (Elt F)),
    binary main_v286 main_v294 main_v295 (Host.divf : (⟨S512x64, .f32⟩ : BufTy).Contents (Elt F) → (⟨S512x64, .f32⟩ : BufTy).Contents (Elt F) → (⟨S512x64, .f32⟩ : BufTy).Contents (Elt F)),
    binary main_v295 main_arg19 main_v296 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg20 main_v297 (broadcastInDim S1x10 ![1] bcast_S10_S1x10_1 : (⟨S10, .f32⟩ : BufTy).Contents (Elt F) → (⟨S1x10, .f32⟩ : BufTy).Contents (Elt F)),
    unary main_v297 main_v298 (broadcastInDim S512x10 ![0, 1] bcast_S1x10_S512x10_0_1 : (⟨S1x10, .f32⟩ : BufTy).Contents (Elt F) → (⟨S512x10, .f32⟩ : BufTy).Contents (Elt F)),
    binary main_v296 main_v298 main_v299 (addf : (⟨S512x10, .f32⟩ : BufTy).Contents (Elt F) → (⟨S512x10, .f32⟩ : BufTy).Contents (Elt F) → (⟨S512x10, .f32⟩ : BufTy).Contents (Elt F)),
    TRef.nullary (TRef.of (T := ⟨S_, .f32⟩) main_call4_cst) (constant S_ .f32 0xFF800000#32),
    TRef.binary (TRef.of (T := ⟨S512x10, .f32⟩) main_v299) (TRef.of (T := ⟨S_, .f32⟩) main_call4_cst) (TRef.of (T := ⟨S512, .f32⟩) main_call4_v0) (fun x v => Host.reduce FloatOps.maximumf x v reducesTo_S512x10_S512_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S512, .f32⟩) main_call4_v1) (broadcastInDim S512 ![] bcast_S_S512),
    TRef.binary (TRef.of (T := ⟨S512, .f32⟩) main_call4_v1) (TRef.of (T := ⟨S512, .f32⟩) main_call4_v0) (TRef.of (T := ⟨S512, .f32⟩) main_call4_v2) maximumf,
    TRef.unary (TRef.of (T := ⟨S512, .f32⟩) main_call4_v2) (TRef.of (T := ⟨S512x1, .f32⟩) main_call4_v3) (broadcastInDim S512x1 ![0] bcast_S512_S512x1_0),
    TRef.unary (TRef.of (T := ⟨S512x1, .f32⟩) main_call4_v3) (TRef.of (T := ⟨S512x10, .f32⟩) main_call4_v4) (broadcastInDim S512x10 ![0, 1] bcast_S512x1_S512x10_0_1),
    TRef.binary (TRef.of (T := ⟨S512x10, .f32⟩) main_v299) (TRef.of (T := ⟨S512x10, .f32⟩) main_call4_v4) (TRef.of (T := ⟨S512x10, .f32⟩) main_call4_v5) subf,
    TRef.unary (TRef.of (T := ⟨S512x10, .f32⟩) main_call4_v5) (TRef.of (T := ⟨S512x10, .f32⟩) main_call4_v6) Host.exp,
    TRef.nullary (TRef.of (T := ⟨S_, .f32⟩) main_call4_cst_1) (constant S_ .f32 0x00000000#32),
    TRef.binary (TRef.of (T := ⟨S512x10, .f32⟩) main_call4_v6) (TRef.of (T := ⟨S_, .f32⟩) main_call4_cst_1) (TRef.of (T := ⟨S512, .f32⟩) main_call4_v7) (fun x v => Host.reduceAdd x v reducesTo_S512x10_S512_d1 h_S_),
    TRef.unary (TRef.of (T := ⟨S512, .f32⟩) main_call4_v7) (TRef.of (T := ⟨S512x1, .f32⟩) main_call4_v8) (broadcastInDim S512x1 ![0] bcast_S512_S512x1_0),
    TRef.unary (TRef.of (T := ⟨S512x1, .f32⟩) main_call4_v8) (TRef.of (T := ⟨S512x1, .f32⟩) main_call4_v9) Host.log,
    TRef.unary (TRef.of (T := ⟨S512x1, .f32⟩) main_call4_v9) (TRef.of (T := ⟨S512x10, .f32⟩) main_call4_v10) (broadcastInDim S512x10 ![0, 1] bcast_S512x1_S512x10_0_1),
    TRef.binary (TRef.of (T := ⟨S512x10, .f32⟩) main_call4_v5) (TRef.of (T := ⟨S512x10, .f32⟩) main_call4_v10) (TRef.of (T := ⟨S512x10, .f32⟩) main_v300) subf ]

/-- Running one list of operations after another is running their concatenation. -/
theorem after_append (a b : List (HloOp τ sig (Elt F))) (V : Valuation τ sig (Elt F)) :
    after (a ++ b) V = after b (after a V) := by
  induction a generalizing V with
  | nil => rfl
  | cons op a ih => simp only [List.cons_append, after_cons, ih]

/-! ### The shared composites at this program's shapes and records -/

/-- The source index vector: row 0 of the edge array. -/
def rSrc (e : IVec S2x1600000 32) : IVec S1600000 32 :=
  edgeRow ![0, 0] slices_S2x1600000_S1x1600000_0_0 shapeCasts_S1x1600000_S1600000 e

/-- The destination index vector: row 1 of the edge array. -/
def rDst (e : IVec S2x1600000 32) : IVec S1600000 32 :=
  edgeRow ![1, 0] slices_S2x1600000_S1x1600000_1_0 shapeCasts_S1x1600000_S1600000 e

/-- The reciprocal square roots of the degrees, from the destination indices. -/
def rDinvOf (dst : IVec S1600000 32) : FVec F S100000 .f32 :=
  degreeRsqrt (F := F) (s0 := S_) (sE := S1600000) (sE1 := S1600000x1) (sN := S100000)
    ![] bcast_S_S1600000 ![] bcast_S_S100000 ![0] bcast_S1600000_S1600000x1_0
    scatter_S100000_S1600000x1_S1600000_n_0_0_1 dst

/-- The edge coefficients, from the source and destination indices. -/
def rCoefOf (src dst : IVec S1600000 32) : FVec F S1600000x1 .f32 :=
  edgeCoef (F := F) (s0 := S_) (sE := S1600000) (sE1 := S1600000x1) (sN := S100000)
    ![] bcast_S_S1600000 ![0] bcast_S1600000_S1600000x1_0
    gather_S100000_S1600000x1_S1600000_n_0_n_n_0_1_1 100000#32 (rDinvOf (F := F) dst) src dst

/-- The self coefficients, from the destination indices. -/
def rSelfOf (dst : IVec S1600000 32) : FVec F S100000x1 .f32 :=
  selfCoef (F := F) (sN := S100000) (sN1 := S100000x1) ![0] bcast_S100000_S100000x1_0 (rDinvOf (F := F) dst)

/-- The same three from the edge array. -/
def rDinv (e : IVec S2x1600000 32) : FVec F S100000 .f32 := rDinvOf (F := F) (rDst e)
def rCoef (e : IVec S2x1600000 32) : FVec F S1600000x1 .f32 := rCoefOf (F := F) (rSrc e) (rDst e)
def rSelf (e : IVec S2x1600000 32) : FVec F S100000x1 .f32 := rSelfOf (F := F) (rDst e)

/-- One aggregation. -/
def rAgg (x : FVec F S100000x64 .f32) (src dst : IVec S1600000 32) (coef : FVec F S1600000x1 .f32)
    (self : FVec F S100000x1 .f32) : FVec F S100000x64 .f32 :=
  aggStage (F := F) (s0 := S_) (sE := S1600000) (sE1 := S1600000x1) (sEh := S1600000x64) (sN1 := S100000x1) (sNh := S100000x64)
    ![] bcast_S_S1600000 ![0] bcast_S1600000_S1600000x1_0 ![0, 1] bcast_S1600000x1_S1600000x64_0_1
    ![] bcast_S_S100000x64 ![0, 1] bcast_S100000x1_S100000x64_0_1
    gather_S100000x64_S1600000x1_S1600000x64_1_0_n_n_0_1_164 scatter_S100000x64_S1600000x1_S1600000x64_1_0_0_1 100000#32
    x src dst coef self

/-- The group means of the node rows. -/
def rPool (x : FVec F S100000x64 .f32) (batch : IVec S100000 32) : FVec F S512x64 .f32 :=
  poolStage (F := F) (s0 := S_) (sN := S100000) (sN1 := S100000x1) (sNh := S100000x64) (sG := S512) (sG1 := S512x1) (sGh := S512x64)
    ![] bcast_S_S512x64 ![] bcast_S_S100000 ![] bcast_S_S512 ![0] bcast_S100000_S100000x1_0 ![0] bcast_S512_S512x1_0
    ![0, 1] bcast_S512x1_S512x64_0_1 scatter_S512x64_S100000x1_S100000x64_1_0_0_1 scatter_S512_S100000x1_S100000_n_0_0_1 x batch

/-! ### This program's own spellings -/

/-- A row of 64 parameters repeated down the node rows. -/
def rBias (v : FVec F S64 .f32) : FVec F S100000x64 .f32 :=
  broadcastInDim S100000x64 ![0, 1] bcast_S1x64_S100000x64_0_1 (broadcastInDim S1x64 ![1] bcast_S64_S1x64_1 v)

/-- The column means: the column sums divided by the node count. -/
def rMean (p : FVec F S100000x64 .f32) : FVec F S64 .f32 :=
  Host.divf (Host.reduceAdd p (constant (F := F) S_ .f32 0x00000000#32) reducesTo_S100000x64_S64_d0 h_S_)
    (broadcastInDim S64 ![] bcast_S_S64 (constant (F := F) S_ .f32 0x47C35000#32))

/-- The deviations from the column means. -/
def rDev (p : FVec F S100000x64 .f32) : FVec F S100000x64 .f32 := subf p (rBias (rMean p))

/-- The column variances as the mean of the squared deviations. -/
def rVarDev (p : FVec F S100000x64 .f32) : FVec F S64 .f32 :=
  Host.divf (Host.reduceAdd (mulf (rDev p) (rDev p)) (constant (F := F) S_ .f32 0x00000000#32) reducesTo_S100000x64_S64_d0 h_S_)
    (broadcastInDim S64 ![] bcast_S_S64 (constant (F := F) S_ .f32 0x47C35000#32))

/-- Normalise by the column statistics, scale by the gain, shift, clamp at zero. -/
def rNorm (p : FVec F S100000x64 .f32) (g bt : FVec F S64 .f32) : FVec F S100000x64 .f32 :=
  maximumf
    (addf
      (mulf
        (mulf (rDev p)
          (rBias (Host.rsqrt (addf (rVarDev p) (broadcastInDim S64 ![] bcast_S_S64 (constant (F := F) S_ .f32 0x3727C5AC#32))))))
        (rBias g))
      (rBias bt))
    (broadcastInDim S100000x64 ![] bcast_S_S100000x64 (constant (F := F) S_ .f32 0x00000000#32))

/-- A layer's array before normalisation: the aggregation of the projected rows plus the bias. -/
def rPre {sIn sW : Shape} (d : DotDims sIn sW S100000x64) (x : FVec F sIn .f32) (src dst : IVec S1600000 32)
    (Wm : FVec F sW .f32) (b : FVec F S64 .f32) : FVec F S100000x64 .f32 :=
  addf (rAgg (Host.dotGeneral d none x Wm) src dst (rCoefOf (F := F) src dst) (rSelfOf (F := F) dst)) (rBias b)

/-- One layer, from the index vectors. -/
def rLayerCore {sIn sW : Shape} (d : DotDims sIn sW S100000x64) (x : FVec F sIn .f32) (src dst : IVec S1600000 32)
    (Wm : FVec F sW .f32) (b g bt : FVec F S64 .f32) : FVec F S100000x64 .f32 :=
  rNorm (rPre d x src dst Wm b) g bt

/-- One layer, from the edge array. -/
def rLayer {sIn sW : Shape} (d : DotDims sIn sW S100000x64) (x : FVec F sIn .f32) (e : IVec S2x1600000 32)
    (Wm : FVec F sW .f32) (b g bt : FVec F S64 .f32) : FVec F S100000x64 .f32 :=
  rLayerCore d x (rSrc e) (rDst e) Wm b g bt

/-! ### The head -/

/-- A row of 10 parameters repeated down the group rows. -/
def rBias10 (v : FVec F S10 .f32) : FVec F S512x10 .f32 :=
  broadcastInDim S512x10 ![0, 1] bcast_S1x10_S512x10_0_1 (broadcastInDim S1x10 ![1] bcast_S10_S1x10_1 v)

/-- The logits: the pooled rows times the last weight matrix, plus the last bias. -/
def rLogits (y : FVec F S512x64 .f32) (fcW : FVec F S64x10 .f32) (fcb : FVec F S10 .f32) : FVec F S512x10 .f32 :=
  addf (Host.dotGeneral dot_S512x64_S64x10_S512x10_1_0_0_1_n_n none y fcW) (rBias10 fcb)

/-- A column of one value per group repeated along the 10 classes. -/
def rCol10 (v : FVec F S512 .f32) : FVec F S512x10 .f32 :=
  broadcastInDim S512x10 ![0, 1] bcast_S512x1_S512x10_0_1 (broadcastInDim S512x1 ![0] bcast_S512_S512x1_0 v)

/-- The row maxima (from minus infinity). -/
def rRowMax (l : FVec F S512x10 .f32) : FVec F S512 .f32 :=
  maximumf (broadcastInDim S512 ![] bcast_S_S512 (constant (F := F) S_ .f32 0xFF800000#32))
    (Host.reduce FloatOps.maximumf l (constant (F := F) S_ .f32 0xFF800000#32) reducesTo_S512x10_S512_d1 h_S_)

/-- The logits less their row maximum. -/
def rShift (l : FVec F S512x10 .f32) : FVec F S512x10 .f32 := subf l (rCol10 (rRowMax l))

/-- The logarithm of the row sums of the exponentials of the shifted logits, as a column. -/
def rLogSumExp (l : FVec F S512x10 .f32) : FVec F S512x1 .f32 :=
  Host.log (broadcastInDim S512x1 ![0] bcast_S512_S512x1_0
    (Host.reduceAdd (Host.exp (rShift l)) (constant (F := F) S_ .f32 0x00000000#32) reducesTo_S512x10_S512_d1 h_S_))

/-- The log-softmax, shifting first: (l - m) - log (sum exp (l - m)). -/
def rLogSoftmax (l : FVec F S512x10 .f32) : FVec F S512x10 .f32 :=
  subf (rShift l) (broadcastInDim S512x10 ![0, 1] bcast_S512x1_S512x10_0_1 (rLogSumExp l))

/-- The head: pool, affine map, log-softmax. -/
def rTail (y : FVec F S100000x64 .f32) (batch : IVec S100000 32) (fcW : FVec F S64x10 .f32) (fcb : FVec F S10 .f32) :
    FVec F S512x10 .f32 :=
  rLogSoftmax (rLogits (rPool y batch) fcW fcb)

/-- The whole network. -/
def rNet (x : FVec F S100000x128 .f32) (e : IVec S2x1600000 32) (batch : IVec S100000 32)
    (W1 : FVec F S128x64 .f32) (b1 g1 bt1 : FVec F S64 .f32) (W2 : FVec F S64x64 .f32) (b2 g2 bt2 : FVec F S64 .f32)
    (W3 : FVec F S64x64 .f32) (b3 g3 bt3 : FVec F S64 .f32) (W4 : FVec F S64x64 .f32) (b4 g4 bt4 : FVec F S64 .f32)
    (fcW : FVec F S64x10 .f32) (fcb : FVec F S10 .f32) : FVec F S512x10 .f32 :=
  rTail
    (rLayer dot_S100000x64_S64x64_S100000x64_1_0_0_1_n_n
      (rLayer dot_S100000x64_S64x64_S100000x64_1_0_0_1_n_n
        (rLayer dot_S100000x64_S64x64_S100000x64_1_0_0_1_n_n
          (rLayer dot_S100000x128_S128x64_S100000x64_1_0_0_1_n_n x e W1 b1 g1 bt1) e W2 b2 g2 bt2) e W3 b3 g3 bt3) e W4 b4 g4 bt4)
    batch fcW fcb

theorem layer1_v1 (W : Valuation τ sig (Elt F)) :
    after opsL1 W (Proc.devRef .tc main_v1)
      = rSrc (W (Proc.devRef .tc main_arg1)) := by
  dsimp only [opsL1]
  after_results_simp
  rfl
theorem layer1_v3 (W : Valuation τ sig (Elt F)) :
    after opsL1 W (Proc.devRef .tc main_v3)
      = rDst (W (Proc.devRef .tc main_arg1)) := by
  dsimp only [opsL1]
  after_results_simp
  rfl
set_option maxRecDepth 8192 in
set_option maxHeartbeats 16000000 in
theorem layer1 (W : Valuation τ sig (Elt F)) :
    after opsL1 W (Proc.devRef .tc main_v73)
      = rLayer (F := F) dot_S100000x128_S128x64_S100000x64_1_0_0_1_n_n (W (Proc.devRef .tc main_arg0)) (W (Proc.devRef .tc main_arg1))
          (W (Proc.devRef .tc main_arg3)) (W (Proc.devRef .tc main_arg4)) (W (Proc.devRef .tc main_arg5)) (W (Proc.devRef .tc main_arg6)) := by
  dsimp only [opsL1]
  after_results_simp
  rfl
set_option maxRecDepth 8192 in
set_option maxHeartbeats 16000000 in
theorem layer2 (W : Valuation τ sig (Elt F)) :
    after opsL2 W (Proc.devRef .tc main_v143)
      = rLayerCore (F := F) dot_S100000x64_S64x64_S100000x64_1_0_0_1_n_n (W (Proc.devRef .tc main_v73)) (W (Proc.devRef .tc main_v1)) (W (Proc.devRef .tc main_v3))
          (W (Proc.devRef .tc main_arg7)) (W (Proc.devRef .tc main_arg8)) (W (Proc.devRef .tc main_arg9)) (W (Proc.devRef .tc main_arg10)) := by
  dsimp only [opsL2]
  after_results_simp
  rfl
set_option maxRecDepth 8192 in
set_option maxHeartbeats 16000000 in
theorem layer3 (W : Valuation τ sig (Elt F)) :
    after opsL3 W (Proc.devRef .tc main_v213)
      = rLayerCore (F := F) dot_S100000x64_S64x64_S100000x64_1_0_0_1_n_n (W (Proc.devRef .tc main_v143)) (W (Proc.devRef .tc main_v1)) (W (Proc.devRef .tc main_v3))
          (W (Proc.devRef .tc main_arg11)) (W (Proc.devRef .tc main_arg12)) (W (Proc.devRef .tc main_arg13)) (W (Proc.devRef .tc main_arg14)) := by
  dsimp only [opsL3]
  after_results_simp
  rfl
set_option maxRecDepth 8192 in
set_option maxHeartbeats 16000000 in
theorem layer4 (W : Valuation τ sig (Elt F)) :
    after opsL4 W (Proc.devRef .tc main_v283)
      = rLayerCore (F := F) dot_S100000x64_S64x64_S100000x64_1_0_0_1_n_n (W (Proc.devRef .tc main_v213)) (W (Proc.devRef .tc main_v1)) (W (Proc.devRef .tc main_v3))
          (W (Proc.devRef .tc main_arg15)) (W (Proc.devRef .tc main_arg16)) (W (Proc.devRef .tc main_arg17)) (W (Proc.devRef .tc main_arg18)) := by
  dsimp only [opsL4]
  after_results_simp
  rfl
set_option maxRecDepth 8192 in
set_option maxHeartbeats 16000000 in
theorem tail_eq (W : Valuation τ sig (Elt F)) :
    after opsTail W (Proc.devRef .tc main_v300)
      = rTail (F := F) (W (Proc.devRef .tc main_v283)) (W (Proc.devRef .tc main_arg2)) (W (Proc.devRef .tc main_arg19)) (W (Proc.devRef .tc main_arg20)) := by
  dsimp only [opsTail]
  after_results_simp
  rfl

/-! ### What a later piece leaves alone -/

theorem keepL1_arg2 (W : Valuation τ sig (Elt F)) :
    after opsL1 W (Proc.devRef .tc main_arg2) = W (Proc.devRef .tc main_arg2) := by
  dsimp only [opsL1]
  after_results_simp
theorem keepL1_arg7 (W : Valuation τ sig (Elt F)) :
    after opsL1 W (Proc.devRef .tc main_arg7) = W (Proc.devRef .tc main_arg7) := by
  dsimp only [opsL1]
  after_results_simp
theorem keepL1_arg8 (W : Valuation τ sig (Elt F)) :
    after opsL1 W (Proc.devRef .tc main_arg8) = W (Proc.devRef .tc main_arg8) := by
  dsimp only [opsL1]
  after_results_simp
theorem keepL1_arg9 (W : Valuation τ sig (Elt F)) :
    after opsL1 W (Proc.devRef .tc main_arg9) = W (Proc.devRef .tc main_arg9) := by
  dsimp only [opsL1]
  after_results_simp
theorem keepL1_arg10 (W : Valuation τ sig (Elt F)) :
    after opsL1 W (Proc.devRef .tc main_arg10) = W (Proc.devRef .tc main_arg10) := by
  dsimp only [opsL1]
  after_results_simp
theorem keepL1_arg11 (W : Valuation τ sig (Elt F)) :
    after opsL1 W (Proc.devRef .tc main_arg11) = W (Proc.devRef .tc main_arg11) := by
  dsimp only [opsL1]
  after_results_simp
theorem keepL1_arg12 (W : Valuation τ sig (Elt F)) :
    after opsL1 W (Proc.devRef .tc main_arg12) = W (Proc.devRef .tc main_arg12) := by
  dsimp only [opsL1]
  after_results_simp
theorem keepL1_arg13 (W : Valuation τ sig (Elt F)) :
    after opsL1 W (Proc.devRef .tc main_arg13) = W (Proc.devRef .tc main_arg13) := by
  dsimp only [opsL1]
  after_results_simp
theorem keepL1_arg14 (W : Valuation τ sig (Elt F)) :
    after opsL1 W (Proc.devRef .tc main_arg14) = W (Proc.devRef .tc main_arg14) := by
  dsimp only [opsL1]
  after_results_simp
theorem keepL1_arg15 (W : Valuation τ sig (Elt F)) :
    after opsL1 W (Proc.devRef .tc main_arg15) = W (Proc.devRef .tc main_arg15) := by
  dsimp only [opsL1]
  after_results_simp
theorem keepL1_arg16 (W : Valuation τ sig (Elt F)) :
    after opsL1 W (Proc.devRef .tc main_arg16) = W (Proc.devRef .tc main_arg16) := by
  dsimp only [opsL1]
  after_results_simp
theorem keepL1_arg17 (W : Valuation τ sig (Elt F)) :
    after opsL1 W (Proc.devRef .tc main_arg17) = W (Proc.devRef .tc main_arg17) := by
  dsimp only [opsL1]
  after_results_simp
theorem keepL1_arg18 (W : Valuation τ sig (Elt F)) :
    after opsL1 W (Proc.devRef .tc main_arg18) = W (Proc.devRef .tc main_arg18) := by
  dsimp only [opsL1]
  after_results_simp
theorem keepL1_arg19 (W : Valuation τ sig (Elt F)) :
    after opsL1 W (Proc.devRef .tc main_arg19) = W (Proc.devRef .tc main_arg19) := by
  dsimp only [opsL1]
  after_results_simp
theorem keepL1_arg20 (W : Valuation τ sig (Elt F)) :
    after opsL1 W (Proc.devRef .tc main_arg20) = W (Proc.devRef .tc main_arg20) := by
  dsimp only [opsL1]
  after_results_simp
theorem keepL2_v1 (W : Valuation τ sig (Elt F)) :
    after opsL2 W (Proc.devRef .tc main_v1) = W (Proc.devRef .tc main_v1) := by
  dsimp only [opsL2]
  after_results_simp
theorem keepL2_v3 (W : Valuation τ sig (Elt F)) :
    after opsL2 W (Proc.devRef .tc main_v3) = W (Proc.devRef .tc main_v3) := by
  dsimp only [opsL2]
  after_results_simp
theorem keepL2_arg2 (W : Valuation τ sig (Elt F)) :
    after opsL2 W (Proc.devRef .tc main_arg2) = W (Proc.devRef .tc main_arg2) := by
  dsimp only [opsL2]
  after_results_simp
theorem keepL2_arg11 (W : Valuation τ sig (Elt F)) :
    after opsL2 W (Proc.devRef .tc main_arg11) = W (Proc.devRef .tc main_arg11) := by
  dsimp only [opsL2]
  after_results_simp
theorem keepL2_arg12 (W : Valuation τ sig (Elt F)) :
    after opsL2 W (Proc.devRef .tc main_arg12) = W (Proc.devRef .tc main_arg12) := by
  dsimp only [opsL2]
  after_results_simp
theorem keepL2_arg13 (W : Valuation τ sig (Elt F)) :
    after opsL2 W (Proc.devRef .tc main_arg13) = W (Proc.devRef .tc main_arg13) := by
  dsimp only [opsL2]
  after_results_simp
theorem keepL2_arg14 (W : Valuation τ sig (Elt F)) :
    after opsL2 W (Proc.devRef .tc main_arg14) = W (Proc.devRef .tc main_arg14) := by
  dsimp only [opsL2]
  after_results_simp
theorem keepL2_arg15 (W : Valuation τ sig (Elt F)) :
    after opsL2 W (Proc.devRef .tc main_arg15) = W (Proc.devRef .tc main_arg15) := by
  dsimp only [opsL2]
  after_results_simp
theorem keepL2_arg16 (W : Valuation τ sig (Elt F)) :
    after opsL2 W (Proc.devRef .tc main_arg16) = W (Proc.devRef .tc main_arg16) := by
  dsimp only [opsL2]
  after_results_simp
theorem keepL2_arg17 (W : Valuation τ sig (Elt F)) :
    after opsL2 W (Proc.devRef .tc main_arg17) = W (Proc.devRef .tc main_arg17) := by
  dsimp only [opsL2]
  after_results_simp
theorem keepL2_arg18 (W : Valuation τ sig (Elt F)) :
    after opsL2 W (Proc.devRef .tc main_arg18) = W (Proc.devRef .tc main_arg18) := by
  dsimp only [opsL2]
  after_results_simp
theorem keepL2_arg19 (W : Valuation τ sig (Elt F)) :
    after opsL2 W (Proc.devRef .tc main_arg19) = W (Proc.devRef .tc main_arg19) := by
  dsimp only [opsL2]
  after_results_simp
theorem keepL2_arg20 (W : Valuation τ sig (Elt F)) :
    after opsL2 W (Proc.devRef .tc main_arg20) = W (Proc.devRef .tc main_arg20) := by
  dsimp only [opsL2]
  after_results_simp
theorem keepL3_v1 (W : Valuation τ sig (Elt F)) :
    after opsL3 W (Proc.devRef .tc main_v1) = W (Proc.devRef .tc main_v1) := by
  dsimp only [opsL3]
  after_results_simp
theorem keepL3_v3 (W : Valuation τ sig (Elt F)) :
    after opsL3 W (Proc.devRef .tc main_v3) = W (Proc.devRef .tc main_v3) := by
  dsimp only [opsL3]
  after_results_simp
theorem keepL3_arg2 (W : Valuation τ sig (Elt F)) :
    after opsL3 W (Proc.devRef .tc main_arg2) = W (Proc.devRef .tc main_arg2) := by
  dsimp only [opsL3]
  after_results_simp
theorem keepL3_arg15 (W : Valuation τ sig (Elt F)) :
    after opsL3 W (Proc.devRef .tc main_arg15) = W (Proc.devRef .tc main_arg15) := by
  dsimp only [opsL3]
  after_results_simp
theorem keepL3_arg16 (W : Valuation τ sig (Elt F)) :
    after opsL3 W (Proc.devRef .tc main_arg16) = W (Proc.devRef .tc main_arg16) := by
  dsimp only [opsL3]
  after_results_simp
theorem keepL3_arg17 (W : Valuation τ sig (Elt F)) :
    after opsL3 W (Proc.devRef .tc main_arg17) = W (Proc.devRef .tc main_arg17) := by
  dsimp only [opsL3]
  after_results_simp
theorem keepL3_arg18 (W : Valuation τ sig (Elt F)) :
    after opsL3 W (Proc.devRef .tc main_arg18) = W (Proc.devRef .tc main_arg18) := by
  dsimp only [opsL3]
  after_results_simp
theorem keepL3_arg19 (W : Valuation τ sig (Elt F)) :
    after opsL3 W (Proc.devRef .tc main_arg19) = W (Proc.devRef .tc main_arg19) := by
  dsimp only [opsL3]
  after_results_simp
theorem keepL3_arg20 (W : Valuation τ sig (Elt F)) :
    after opsL3 W (Proc.devRef .tc main_arg20) = W (Proc.devRef .tc main_arg20) := by
  dsimp only [opsL3]
  after_results_simp
theorem keepL4_arg2 (W : Valuation τ sig (Elt F)) :
    after opsL4 W (Proc.devRef .tc main_arg2) = W (Proc.devRef .tc main_arg2) := by
  dsimp only [opsL4]
  after_results_simp
theorem keepL4_arg19 (W : Valuation τ sig (Elt F)) :
    after opsL4 W (Proc.devRef .tc main_arg19) = W (Proc.devRef .tc main_arg19) := by
  dsimp only [opsL4]
  after_results_simp
theorem keepL4_arg20 (W : Valuation τ sig (Elt F)) :
    after opsL4 W (Proc.devRef .tc main_arg20) = W (Proc.devRef .tc main_arg20) := by
  dsimp only [opsL4]
  after_results_simp

/-! ### The whole program -/

/-- The result buffer after the whole list, from any contents: the network of the arguments' contents. -/
theorem result_eq (W : Valuation τ sig (Elt F)) :
    after (opsL1 ++ opsL2 ++ opsL3 ++ opsL4 ++ opsTail) W (Proc.devRef .tc main_v300)
      = rNet (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_arg7)) (W (Proc.devRef .tc main_arg8)) (W (Proc.devRef .tc main_arg9)) (W (Proc.devRef .tc main_arg10))
          (W (Proc.devRef .tc main_arg11)) (W (Proc.devRef .tc main_arg12)) (W (Proc.devRef .tc main_arg13)) (W (Proc.devRef .tc main_arg14))
          (W (Proc.devRef .tc main_arg15)) (W (Proc.devRef .tc main_arg16)) (W (Proc.devRef .tc main_arg17)) (W (Proc.devRef .tc main_arg18))
          (W (Proc.devRef .tc main_arg19)) (W (Proc.devRef .tc main_arg20)) := by
  rw [after_append, after_append, after_append, after_append, tail_eq]
  rw [layer4, keepL4_arg2, keepL4_arg19, keepL4_arg20]
  rw [layer3, keepL3_v1, keepL3_v3, keepL3_arg2, keepL3_arg15, keepL3_arg16, keepL3_arg17, keepL3_arg18, keepL3_arg19, keepL3_arg20]
  rw [layer2, keepL2_v1, keepL2_v3, keepL2_arg2, keepL2_arg11, keepL2_arg12, keepL2_arg13, keepL2_arg14, keepL2_arg15, keepL2_arg16, keepL2_arg17, keepL2_arg18, keepL2_arg19, keepL2_arg20]
  rw [layer1, layer1_v1, layer1_v3, keepL1_arg2, keepL1_arg7, keepL1_arg8, keepL1_arg9, keepL1_arg10, keepL1_arg11, keepL1_arg12, keepL1_arg13, keepL1_arg14, keepL1_arg15, keepL1_arg16, keepL1_arg17, keepL1_arg18, keepL1_arg19, keepL1_arg20]
  rfl

end Cert.ReferenceIdeal.RefHost

end
-- ==== Proof.Ref.Read.lean ====
/-
  The reference program's stages read entry by entry, into the specification's vocabulary, at the ideal values.

  A contraction read at (row, column) is the sum over the contracted axis; a parameter row repeated down the rows reads
  the parameter; the column mean is the column sum over the node count and the variance the mean of the squared
  deviations; so the normalise / gain / shift / clamp chain is the specification's with the deviation variance, and a
  layer is the specification's layer with the aggregation read as a function of the curried projected array. The row
  maximum from minus infinity is the supremum of the row, the shifted logits, the logarithm of the row sum of their
  exponentials and the log-softmax read as written, so the head is the specification's log-softmax (shifting first)
  of its logits. Hence the whole network is the specification's reference spelling.
-/
import proofs.«106081_j12317966204981_2_alg».proof.Proof.Ref.Stages
import proofs.«106081_j12317966204981_2_alg».proof.Proof.SpecAdapt
import proofs.«106081_j12317966204981_2_alg».proof.Proof.Spec
import proofs.«106081_j12317966204981_2_alg».proof.Proof.Consts
import Idealize.ShloMosaic.Lib.IdealHost
import Idealize.ShloMosaic.Lib.ValueLayout

open Idealize.ShloMosaic

noncomputable section

namespace Cert.ReferenceIdeal.RefHost

open Cert.ReferenceIdeal Cert.ReferenceIdeal.Gen Idealize.ShloMosaic Idealize.ShloMosaic.TcCoe Idealize.SL.Sem Idealize.ShloMosaic.StableHlo Cert.Lib.GraphStages

open Idealize.ShloMosaic.ValueIdx Cert.SpecAdapt

local notation "NN" => ((100000 : ℝ) : EReal)
local notation "EPS" => ((Cert.Consts.guard : ℝ) : EReal)

/-! ### Index arithmetic -/

/-- Over a reduction of the rows of an [m, n] array, the index over column `t` with row `k` put back is (k, t). -/
theorem lift_row {m n : ℕ} (h : (⟨2, ![m, n]⟩ : Shape).Reduces [0] (⟨1, ![n]⟩ : Shape)) (t : Fin n) (k : Fin m) :
    h.lift (ix1 t) k = ix2 k t := by
  funext c; apply Fin.ext; fin_cases c <;> rfl

/-- Over a reduction of the columns of an [m, n] array, the index over row `r` with column `k` put back is (r, k). -/
theorem lift_col {m n : ℕ} (h : (⟨2, ![m, n]⟩ : Shape).Reduces [1] (⟨1, ![m]⟩ : Shape)) (r : Fin m) (k : Fin n) :
    h.lift (ix1 r) k = ix2 r k := by
  funext c; apply Fin.ext; fin_cases c <;> rfl

theorem hRedRows : S100000x64.Reduces [0] S64 := by decide
theorem hRedCols : S512x10.Reduces [1] S512 := by decide

/-- A contraction of an [M, K] by a [K, N] array read at row `p`, column `j`: the sum over the contracted axis. The
    hypotheses say where the dimension numbers put the output's coordinates and the contraction's in the operands. -/
theorem dotGeneral_apply2 {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  show FloatOps.dotGeneral d prec .single lhs rhs (ix2 p j) = _
  rw [Ideal.dotGeneral_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- The three contractions of the program, as the matrix product of the curried arrays. -/
theorem proj_read128 (x : FVec Ideal S100000x128 .f32) (Wm : FVec Ideal S128x64 .f32) :
    cur2 (Host.dotGeneral dot_S100000x128_S128x64_S100000x64_1_0_0_1_n_n none x Wm) = Cert.Spec.proj (cur2 x) (cur2 Wm) := by
  funext r j
  exact dotGeneral_apply2 dot_S100000x128_S128x64_S100000x64_1_0_0_1_n_n rfl rfl (fun _ _ => rfl) (fun _ _ => rfl)
    (fun _ _ => rfl) (fun _ _ => rfl) none x Wm r j

theorem proj_read64 (x : FVec Ideal S100000x64 .f32) (Wm : FVec Ideal S64x64 .f32) :
    cur2 (Host.dotGeneral dot_S100000x64_S64x64_S100000x64_1_0_0_1_n_n none x Wm) = Cert.Spec.proj (cur2 x) (cur2 Wm) := by
  funext r j
  exact dotGeneral_apply2 dot_S100000x64_S64x64_S100000x64_1_0_0_1_n_n rfl rfl (fun _ _ => rfl) (fun _ _ => rfl)
    (fun _ _ => rfl) (fun _ _ => rfl) none x Wm r j

theorem proj_read10 (x : FVec Ideal S512x64 .f32) (Wm : FVec Ideal S64x10 .f32) :
    cur2 (Host.dotGeneral dot_S512x64_S64x10_S512x10_1_0_0_1_n_n none x Wm) = Cert.Spec.proj (cur2 x) (cur2 Wm) := by
  funext r j
  exact dotGeneral_apply2 dot_S512x64_S64x10_S512x10_1_0_0_1_n_n rfl rfl (fun _ _ => rfl) (fun _ _ => rfl)
    (fun _ _ => rfl) (fun _ _ => rfl) none x Wm r j

/-! ### Broadcasts read at an index -/

theorem rBias_apply (v : FVec Ideal S64 .f32) (r : Fin 100000) (j : Fin 64) : rBias (F := Ideal) v (ix2 r j) = v (ix1 j) := by
  unfold rBias
  rw [broadcastInDim_apply _ _ _ _ (ix2 (0 : Fin 1) j) (fun a => by fin_cases a <;> rfl),
    broadcastInDim_apply _ _ _ _ (ix1 j) (fun a => by fin_cases a <;> rfl)]

theorem rBias10_apply (v : FVec Ideal S10 .f32) (r : Fin 512) (j : Fin 10) : rBias10 (F := Ideal) v (ix2 r j) = v (ix1 j) := by
  unfold rBias10
  rw [broadcastInDim_apply _ _ _ _ (ix2 (0 : Fin 1) j) (fun a => by fin_cases a <;> rfl),
    broadcastInDim_apply _ _ _ _ (ix1 j) (fun a => by fin_cases a <;> rfl)]

theorem rCol10_apply (v : FVec Ideal S512 .f32) (r : Fin 512) (j : Fin 10) : rCol10 (F := Ideal) v (ix2 r j) = v (ix1 r) := by
  unfold rCol10
  rw [broadcastInDim_apply _ _ _ _ (ix2 r (0 : Fin 1)) (fun a => by fin_cases a <;> rfl),
    broadcastInDim_apply _ _ _ _ (ix1 r) (fun a => by fin_cases a <;> rfl)]

/-! ### Column statistics read at an index -/

theorem rMean_apply (p : FVec Ideal S100000x64 .f32) (j : Fin 64) :
    rMean (F := Ideal) p (ix1 j) = Ideal.div (∑ r : Fin 100000, p (ix2 r j)) NN := by
  unfold rMean
  show Ideal.div (Host.reduceAdd p (constant (F := Ideal) S_ .f32 0x00000000#32) reducesTo_S100000x64_S64_d0 h_S_ (ix1 j))
      (broadcastInDim S64 ![] bcast_S_S64 (constant (F := Ideal) S_ .f32 0x47C35000#32) (ix1 j)) = _
  rw [hostReduceAdd_apply, Ideal.hostReduceAdd_single _ hRedRows, broadcastInDim_scalar_apply, constant_apply, constant_apply,
    Cert.Consts.ofBits_zero, zero_add, Cert.Consts.ofBits_nodes]
  show Ideal.div (∑ k : Fin 100000, p (hRedRows.lift (ix1 j) k)) NN = _
  simp only [lift_row hRedRows j]

theorem rDev_apply (p : FVec Ideal S100000x64 .f32) (r : Fin 100000) (j : Fin 64) :
    rDev (F := Ideal) p (ix2 r j) = p (ix2 r j) - Ideal.div (∑ r' : Fin 100000, p (ix2 r' j)) NN := by
  unfold rDev
  show p (ix2 r j) - rBias (F := Ideal) (rMean (F := Ideal) p) (ix2 r j) = _
  rw [rBias_apply, rMean_apply]

theorem rVarDev_apply (p : FVec Ideal S100000x64 .f32) (j : Fin 64) :
    rVarDev (F := Ideal) p (ix1 j)
      = Ideal.div (∑ r : Fin 100000, (p (ix2 r j) - Ideal.div (∑ r' : Fin 100000, p (ix2 r' j)) NN)
          * (p (ix2 r j) - Ideal.div (∑ r' : Fin 100000, p (ix2 r' j)) NN)) NN := by
  unfold rVarDev
  show Ideal.div (Host.reduceAdd (mulf (rDev (F := Ideal) p) (rDev (F := Ideal) p)) (constant (F := Ideal) S_ .f32 0x00000000#32)
        reducesTo_S100000x64_S64_d0 h_S_ (ix1 j))
      (broadcastInDim S64 ![] bcast_S_S64 (constant (F := Ideal) S_ .f32 0x47C35000#32) (ix1 j)) = _
  rw [hostReduceAdd_apply, Ideal.hostReduceAdd_single _ hRedRows, broadcastInDim_scalar_apply, constant_apply, constant_apply,
    Cert.Consts.ofBits_zero, zero_add, Cert.Consts.ofBits_nodes]
  show Ideal.div (∑ k : Fin 100000, mulf (rDev (F := Ideal) p) (rDev (F := Ideal) p) (hRedRows.lift (ix1 j) k)) NN = _
  simp only [lift_row hRedRows j, mulf_apply, rDev_apply]

/-- The normalise / gain / shift / clamp chain is the specification's, column statistics by deviations. -/
theorem rNorm_read (p : FVec Ideal S100000x64 .f32) (g bt : FVec Ideal S64 .f32) :
    cur2 (rNorm (F := Ideal) p g bt)
      = Cert.Spec.normRelu NN EPS (Cert.Spec.varDev NN) (cur2 p) (row1 g) (row1 bt) := by
  funext r j
  show rNorm (F := Ideal) p g bt (ix2 r j) = _
  unfold rNorm
  show max ((rDev (F := Ideal) p (ix2 r j)
        * rBias (F := Ideal) (Host.rsqrt (addf (rVarDev (F := Ideal) p)
            (broadcastInDim S64 ![] bcast_S_S64 (constant (F := Ideal) S_ .f32 0x3727C5AC#32)))) (ix2 r j))
        * rBias (F := Ideal) g (ix2 r j) + rBias (F := Ideal) bt (ix2 r j))
      (broadcastInDim S100000x64 ![] bcast_S_S100000x64 (constant (F := Ideal) S_ .f32 0x00000000#32) (ix2 r j)) = _
  rw [rBias_apply, rBias_apply, rBias_apply, rDev_apply, broadcastInDim_scalar_apply, constant_apply, Cert.Consts.ofBits_zero]
  show max ((p (ix2 r j) - Ideal.div (∑ r' : Fin 100000, p (ix2 r' j)) NN)
        * Ideal.rsqrt (rVarDev (F := Ideal) p (ix1 j)
            + broadcastInDim S64 ![] bcast_S_S64 (constant (F := Ideal) S_ .f32 0x3727C5AC#32) (ix1 j))
        * g (ix1 j) + bt (ix1 j)) 0 = _
  rw [rVarDev_apply, broadcastInDim_scalar_apply, constant_apply, Cert.Consts.ofBits_guard]
  rfl

/-- One layer is the specification's layer, the aggregation read as a function of the curried projected array. -/
theorem rLayer_read {K : ℕ} (d : DotDims ⟨2, ![100000, K]⟩ ⟨2, ![K, 64]⟩ S100000x64)
    (x : FVec Ideal ⟨2, ![100000, K]⟩ .f32) (e : IVec S2x1600000 32) (Wm : FVec Ideal ⟨2, ![K, 64]⟩ .f32)
    (b g bt : FVec Ideal S64 .f32)
    (hdot : cur2 (Host.dotGeneral d none x Wm) = Cert.Spec.proj (cur2 x) (cur2 Wm)) :
    cur2 (rLayer (F := Ideal) d x e Wm b g bt)
      = Cert.Spec.layer NN EPS (Cert.Spec.varDev NN)
          (fun h => cur2 (rAgg (F := Ideal) (unc2 h) (rSrc e) (rDst e) (rCoef (F := Ideal) e) (rSelf (F := Ideal) e)))
          (cur2 x) (cur2 Wm) (row1 b) (row1 g) (row1 bt) := by
  have hp : cur2 (rPre (F := Ideal) d x (rSrc e) (rDst e) Wm b)
      = fun r j => cur2 (rAgg (F := Ideal) (unc2 (Cert.Spec.proj (cur2 x) (cur2 Wm))) (rSrc e) (rDst e)
          (rCoef (F := Ideal) e) (rSelf (F := Ideal) e)) r j + row1 b j := by
    funext r j
    rw [cur2_apply]
    unfold rPre
    rw [addf_apply, rBias_apply, ← hdot, unc2_cur2]
    simp only [cur2_apply, row1_apply]
    unfold rCoef rSelf
    rfl
  unfold rLayer rLayerCore
  rw [rNorm_read, hp]
  unfold Cert.Spec.layer
  rfl

/-! ### The head read at an index -/

/-- A fold of the maximum from the bottom element is the supremum. -/
theorem fold_maximumf_eq_sup {ι : Type*} (s : Finset ι) (f : ι → EReal) :
    s.fold (FloatOps.maximumf (F := Ideal) (φ := .f32)) (⊥ : EReal) f = s.sup f := by
  classical
  induction s using Finset.induction_on with
  | empty => simp
  | insert a s ha ih =>
    rw [Finset.fold_insert ha, Finset.sup_insert, ih]
    rfl

theorem rRowMax_apply (l : FVec Ideal S512x10 .f32) (a : Fin 512) :
    rRowMax (F := Ideal) l (ix1 a) = Finset.univ.sup fun c : Fin 10 => l (ix2 a c) := by
  unfold rRowMax
  show max (broadcastInDim S512 ![] bcast_S_S512 (constant (F := Ideal) S_ .f32 0xFF800000#32) (ix1 a))
      (Host.reduce FloatOps.maximumf l (constant (F := Ideal) S_ .f32 0xFF800000#32) reducesTo_S512x10_S512_d1 h_S_ (ix1 a)) = _
  rw [broadcastInDim_scalar_apply, constant_apply, Cert.Consts.ofBits_neg_inf, max_eq_right bot_le,
    Host.reduce_eq_fold_single FloatOps.maximumf l _ reducesTo_S512x10_S512_d1 hRedCols h_S_, constant_apply,
    Cert.Consts.ofBits_neg_inf]
  refine (fold_maximumf_eq_sup _ _).trans ?_
  exact congrArg (Finset.univ : Finset (Fin 10)).sup (funext fun c => congrArg l (lift_col hRedCols a c))

theorem rShift_apply (l : FVec Ideal S512x10 .f32) (a : Fin 512) (c : Fin 10) :
    rShift (F := Ideal) l (ix2 a c) = l (ix2 a c) - Finset.univ.sup fun c' : Fin 10 => l (ix2 a c') := by
  unfold rShift
  show l (ix2 a c) - rCol10 (F := Ideal) (rRowMax (F := Ideal) l) (ix2 a c) = _
  rw [rCol10_apply, rRowMax_apply]

theorem rLogSumExp_apply (l : FVec Ideal S512x10 .f32) (a : Fin 512) (u : Fin 1) :
    rLogSumExp (F := Ideal) l (ix2 a u)
      = Ideal.log (∑ c : Fin 10, Ideal.exp (l (ix2 a c) - Finset.univ.sup fun c' : Fin 10 => l (ix2 a c'))) := by
  unfold rLogSumExp
  show Ideal.log (broadcastInDim S512x1 ![0] bcast_S512_S512x1_0
      (Host.reduceAdd (Host.exp (rShift (F := Ideal) l)) (constant (F := Ideal) S_ .f32 0x00000000#32)
        reducesTo_S512x10_S512_d1 h_S_) (ix2 a u)) = _
  rw [broadcastInDim_apply _ _ _ _ (ix1 a) (fun b => by fin_cases b <;> rfl), hostReduceAdd_apply,
    Ideal.hostReduceAdd_single _ hRedCols, constant_apply, Cert.Consts.ofBits_zero, zero_add]
  show Ideal.log (∑ k : Fin 10, Ideal.exp (rShift (F := Ideal) l (hRedCols.lift (ix1 a) k))) = _
  simp only [lift_col hRedCols a, rShift_apply]

theorem rLogSoftmax_apply (l : FVec Ideal S512x10 .f32) (a : Fin 512) (c : Fin 10) :
    rLogSoftmax (F := Ideal) l (ix2 a c)
      = (l (ix2 a c) - Finset.univ.sup fun c' : Fin 10 => l (ix2 a c'))
          - Ideal.log (∑ c'' : Fin 10, Ideal.exp (l (ix2 a c'') - Finset.univ.sup fun c' : Fin 10 => l (ix2 a c'))) := by
  unfold rLogSoftmax
  show rShift (F := Ideal) l (ix2 a c)
      - broadcastInDim S512x10 ![0, 1] bcast_S512x1_S512x10_0_1 (rLogSumExp (F := Ideal) l) (ix2 a c) = _
  rw [broadcastInDim_apply _ _ _ _ (ix2 a (0 : Fin 1)) (fun b => by fin_cases b <;> rfl), rShift_apply, rLogSumExp_apply]

/-- The log-softmax is the specification's, shifting first. -/
theorem rLogSoftmax_read (l : FVec Ideal S512x10 .f32) : cur2 (rLogSoftmax (F := Ideal) l) = Cert.Spec.lsmShift (cur2 l) := by
  funext a c
  rw [cur2_apply, rLogSoftmax_apply]
  rfl

/-- The logits are the specification's. -/
theorem rLogits_read (y : FVec Ideal S512x64 .f32) (fcW : FVec Ideal S64x10 .f32) (fcb : FVec Ideal S10 .f32) :
    cur2 (rLogits (F := Ideal) y fcW fcb) = Cert.Spec.logits (cur2 y) (cur2 fcW) (row1 fcb) := by
  funext a c
  have hd := congrFun (congrFun (proj_read10 y fcW) a) c
  rw [cur2_apply] at hd
  rw [cur2_apply]
  unfold rLogits
  show Host.dotGeneral dot_S512x64_S64x10_S512x10_1_0_0_1_n_n none y fcW (ix2 a c) + rBias10 (F := Ideal) fcb (ix2 a c) = _
  rw [rBias10_apply, hd]
  rfl

/-- The head is the specification's log-softmax of its logits of the pooled rows. -/
theorem rTail_read (y : FVec Ideal S100000x64 .f32) (batch : IVec S100000 32) (fcW : FVec Ideal S64x10 .f32)
    (fcb : FVec Ideal S10 .f32) :
    cur2 (rTail (F := Ideal) y batch fcW fcb)
      = Cert.Spec.lsmShift (Cert.Spec.logits (cur2 (rPool (F := Ideal) y batch)) (cur2 fcW) (row1 fcb)) := by
  unfold rTail
  rw [rLogSoftmax_read, rLogits_read]

/-! ### The whole network -/

/-- A layer over an array whose curried form is known. -/
theorem layer_step (A : FVec Ideal S100000x64 .f32) (TA : Fin 100000 → Fin 64 → EReal) (hA : cur2 A = TA)
    (e : IVec S2x1600000 32) (Wm : FVec Ideal S64x64 .f32) (b g bt : FVec Ideal S64 .f32) :
    cur2 (rLayer (F := Ideal) dot_S100000x64_S64x64_S100000x64_1_0_0_1_n_n A e Wm b g bt)
      = Cert.Spec.layer NN EPS (Cert.Spec.varDev NN)
          (fun h => cur2 (rAgg (F := Ideal) (unc2 h) (rSrc e) (rDst e) (rCoef (F := Ideal) e) (rSelf (F := Ideal) e)))
          TA (cur2 Wm) (row1 b) (row1 g) (row1 bt) := by
  subst hA
  exact rLayer_read dot_S100000x64_S64x64_S100000x64_1_0_0_1_n_n A e Wm b g bt (proj_read64 A Wm)

/-- The head over an array whose curried form is known. -/
theorem tail_step (y : FVec Ideal S100000x64 .f32) (Ty : Fin 100000 → Fin 64 → EReal) (hy : cur2 y = Ty)
    (batch : IVec S100000 32) (fcW : FVec Ideal S64x10 .f32) (fcb : FVec Ideal S10 .f32) :
    cur2 (rTail (F := Ideal) y batch fcW fcb)
      = Cert.Spec.lsmShift (Cert.Spec.logits (cur2 (rPool (F := Ideal) (unc2 Ty) batch)) (cur2 fcW) (row1 fcb)) := by
  subst hy
  rw [rTail_read, unc2_cur2]

/-- The whole network is the specification's reference spelling, the aggregation and the pooling read as functions
    of curried arrays. -/
theorem rNet_read (x : FVec Ideal S100000x128 .f32) (e : IVec S2x1600000 32) (batch : IVec S100000 32)
    (W1 : FVec Ideal S128x64 .f32) (b1 g1 bt1 : FVec Ideal S64 .f32) (W2 : FVec Ideal S64x64 .f32) (b2 g2 bt2 : FVec Ideal S64 .f32)
    (W3 : FVec Ideal S64x64 .f32) (b3 g3 bt3 : FVec Ideal S64 .f32) (W4 : FVec Ideal S64x64 .f32) (b4 g4 bt4 : FVec Ideal S64 .f32)
    (fcW : FVec Ideal S64x10 .f32) (fcb : FVec Ideal S10 .f32) :
    cur2 (rNet (F := Ideal) x e batch W1 b1 g1 bt1 W2 b2 g2 bt2 W3 b3 g3 bt3 W4 b4 g4 bt4 fcW fcb)
      = Cert.Spec.refNet NN EPS
          (fun h => cur2 (rAgg (F := Ideal) (unc2 h) (rSrc e) (rDst e) (rCoef (F := Ideal) e) (rSelf (F := Ideal) e)))
          (fun h => cur2 (rPool (F := Ideal) (unc2 h) batch))
          (cur2 x) (cur2 W1) (row1 b1) (row1 g1) (row1 bt1) (cur2 W2) (row1 b2) (row1 g2) (row1 bt2)
          (cur2 W3) (row1 b3) (row1 g3) (row1 bt3) (cur2 W4) (row1 b4) (row1 g4) (row1 bt4) (cur2 fcW) (row1 fcb) := by
  unfold rNet Cert.Spec.refNet Cert.Spec.net
  exact tail_step _ _
    (layer_step _ _
      (layer_step _ _
        (layer_step _ _
          (rLayer_read dot_S100000x128_S128x64_S100000x64_1_0_0_1_n_n x e W1 b1 g1 bt1 (proj_read128 x W1))
          e W2 b2 g2 bt2)
        e W3 b3 g3 bt3)
      e W4 b4 g4 bt4)
    batch fcW fcb

end Cert.ReferenceIdeal.RefHost

end
-- ==== Proof.Ref.Value.lean ====
/-
  The reference program's result, as the specification's reference spelling of the network.

  The program's 387 operations are the five pieces of Stages in order; their fold at the result buffer is the
  network of the arguments' contents (Stages), and that network read entry by entry is the specification's reference
  spelling (Read): the column variance as the mean of squared deviations, the log-softmax shifting first, with the
  aggregation and the pooling as functions of curried arrays.
-/
import proofs.«106081_j12317966204981_2_alg».proof.Proof.Ref.Run
import proofs.«106081_j12317966204981_2_alg».proof.Proof.Ref.Read

open Idealize.ShloMosaic

noncomputable section

namespace Cert.ReferenceIdeal.RefHost

open Cert.ReferenceIdeal Cert.ReferenceIdeal.Gen Idealize.ShloMosaic Idealize.ShloMosaic.TcCoe Idealize.SL.Sem Idealize.ShloMosaic.StableHlo Cert.Lib.GraphStages
open Idealize.ShloMosaic.ValueIdx Cert.SpecAdapt

local notation "NN" => ((100000 : ℝ) : EReal)
local notation "EPS" => ((Cert.Consts.guard : ℝ) : EReal)

set_option maxRecDepth 8192 in
set_option maxHeartbeats 40000000 in
/-- The program's operations are the five pieces, in order. -/
theorem ops_eq {F : FTy → Type} [FloatOps F] :
    Cert.ReferenceIdeal.RefRun.ops (F := F) = opsL1 ++ opsL2 ++ opsL3 ++ opsL4 ++ opsTail := rfl

/-- From any contents, the result buffer after the program's operations holds the specification's reference spelling
    of the network of the arguments' contents. -/
theorem ref_value (W : Valuation τ sig (Elt Ideal)) :
    after (Cert.ReferenceIdeal.RefRun.ops (F := Ideal)) W (Proc.devRef .tc main_v300)
      = unc2 (Cert.Spec.refNet NN EPS
          (fun h => cur2 (rAgg (F := Ideal) (unc2 h) (rSrc (W (Proc.devRef .tc main_arg1))) (rDst (W (Proc.devRef .tc main_arg1)))
            (rCoef (F := Ideal) (W (Proc.devRef .tc main_arg1))) (rSelf (F := Ideal) (W (Proc.devRef .tc main_arg1)))))
          (fun h => cur2 (rPool (F := Ideal) (unc2 h) (W (Proc.devRef .tc main_arg2))))
          (cur2 (W (Proc.devRef .tc main_arg0))) (cur2 (W (Proc.devRef .tc main_arg3))) (row1 (W (Proc.devRef .tc main_arg4))) (row1 (W (Proc.devRef .tc main_arg5))) (row1 (W (Proc.devRef .tc main_arg6)))
          (cur2 (W (Proc.devRef .tc main_arg7))) (row1 (W (Proc.devRef .tc main_arg8))) (row1 (W (Proc.devRef .tc main_arg9))) (row1 (W (Proc.devRef .tc main_arg10)))
          (cur2 (W (Proc.devRef .tc main_arg11))) (row1 (W (Proc.devRef .tc main_arg12))) (row1 (W (Proc.devRef .tc main_arg13))) (row1 (W (Proc.devRef .tc main_arg14)))
          (cur2 (W (Proc.devRef .tc main_arg15))) (row1 (W (Proc.devRef .tc main_arg16))) (row1 (W (Proc.devRef .tc main_arg17))) (row1 (W (Proc.devRef .tc main_arg18)))
          (cur2 (W (Proc.devRef .tc main_arg19))) (row1 (W (Proc.devRef .tc main_arg20)))) :=
  ((congrArg (fun l => after l W (Proc.devRef .tc main_v300)) (ops_eq (F := Ideal))).trans (result_eq W)).trans
    ((unc2_cur2 _).symm.trans (congrArg unc2 (rNet_read
      (W (Proc.devRef .tc main_arg0)) (W (Proc.devRef .tc main_arg1)) (W (Proc.devRef .tc main_arg2))
      (W (Proc.devRef .tc main_arg3)) (W (Proc.devRef .tc main_arg4)) (W (Proc.devRef .tc main_arg5)) (W (Proc.devRef .tc main_arg6))
      (W (Proc.devRef .tc main_arg7)) (W (Proc.devRef .tc main_arg8)) (W (Proc.devRef .tc main_arg9)) (W (Proc.devRef .tc main_arg10))
      (W (Proc.devRef .tc main_arg11)) (W (Proc.devRef .tc main_arg12)) (W (Proc.devRef .tc main_arg13)) (W (Proc.devRef .tc main_arg14))
      (W (Proc.devRef .tc main_arg15)) (W (Proc.devRef .tc main_arg16)) (W (Proc.devRef .tc main_arg17)) (W (Proc.devRef .tc main_arg18))
      (W (Proc.devRef .tc main_arg19)) (W (Proc.devRef .tc main_arg20)))))

end Cert.ReferenceIdeal.RefHost

end
-- ==== Proof.Ref.Same.lean ====
/-
  The two programs' shared stages coincide.

  Both programs compute the index vectors, the degree coefficients, the aggregation and the pooling by the same
  operations over their own copies of the shapes and of the dimension records; the shapes are equal literals and the
  records have equal fields, so the composites are equal, by unfolding.
-/
import proofs.«106081_j12317966204981_2_alg».proof.Proof.KIH.Stages
import proofs.«106081_j12317966204981_2_alg».proof.Proof.Ref.Stages

open Idealize.ShloMosaic

noncomputable section

namespace Cert.Same

open Cert.KernelIdeal.HandHost Cert.ReferenceIdeal.RefHost

variable {F : FTy → Type} [FloatOps F]

theorem src_eq (e : IVec ⟨2, ![2, 1600000]⟩ 32) : rSrc e = kSrc e := rfl

theorem dst_eq (e : IVec ⟨2, ![2, 1600000]⟩ 32) : rDst e = kDst e := rfl

theorem dinv_eq (e : IVec ⟨2, ![2, 1600000]⟩ 32) : rDinv (F := F) e = kDinv (F := F) e := rfl

theorem coef_eq (e : IVec ⟨2, ![2, 1600000]⟩ 32) : rCoef (F := F) e = kCoef (F := F) e := rfl

theorem self_eq (e : IVec ⟨2, ![2, 1600000]⟩ 32) : rSelf (F := F) e = kSelf (F := F) e := rfl

theorem agg_eq (x : FVec F ⟨2, ![100000, 64]⟩ .f32) (src dst : IVec ⟨1, ![1600000]⟩ 32)
    (coef : FVec F ⟨2, ![1600000, 1]⟩ .f32) (self : FVec F ⟨2, ![100000, 1]⟩ .f32) :
    rAgg (F := F) x src dst coef self = kAgg (F := F) x src dst coef self := rfl

/-- The aggregation as each program applies it, a function of the projected array and the edge array. -/
theorem aggOf_eq (x : FVec F ⟨2, ![100000, 64]⟩ .f32) (e : IVec ⟨2, ![2, 1600000]⟩ 32) :
    rAgg (F := F) x (rSrc e) (rDst e) (rCoef (F := F) e) (rSelf (F := F) e)
      = kAgg (F := F) x (kSrc e) (kDst e) (kCoef (F := F) e) (kSelf (F := F) e) := by
  rw [agg_eq, src_eq, dst_eq, coef_eq, self_eq]

theorem pool_eq (x : FVec F ⟨2, ![100000, 64]⟩ .f32) (batch : IVec ⟨1, ![100000]⟩ 32) :
    rPool (F := F) x batch = kPool (F := F) x batch := rfl

end Cert.Same

end
-- ==== Proof.LibMeanSquare.lean ====
/-
  The mean of squared deviations is the mean square less the squared mean.

  For finitely many REAL numbers x i, a count n equal to their number, and mu = (sum x) / n:
      (sum (x i - mu)^2) / n  =  (sum (x i)^2) / n  -  mu * mu.
  Expanding the square gives  sum x^2 - 2 mu (sum x) + (card) mu^2, and sum x = n mu, card = n.
  The same identity is then stated on the extended reals for entries that are (coercions of) reals, with the
  quotient by the real n read as the ideal division: there distributivity is not available in general, so the
  entries' finiteness is a hypothesis, and the proof goes through the reals.
-/
import Idealize.ShloMosaic.PureOps.Ideal
import Mathlib.Algebra.BigOperators.Field
import Mathlib.Tactic.FieldSimp
import Mathlib.Tactic.Ring

open Idealize.ShloMosaic

namespace Cert.Lib.MeanSquare

open Finset

/-- A finite real sum, read in the extended reals, is the sum of the readings. -/
theorem coe_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- Over the reals: the mean of the squared deviations from the mean is the mean square less the squared mean. -/
theorem real {ι : Type*} [Fintype ι] (x : ι → ℝ) (n : ℝ) (hn : n = (Fintype.card ι : ℝ)) (hn0 : n ≠ 0) :
    (∑ i, (x i - (∑ j, x j) / n) * (x i - (∑ j, x j) / n)) / n
      = (∑ i, x i * x i) / n - ((∑ j, x j) / n) * ((∑ j, x j) / n) := by
  set s := ∑ j, x j with hs
  have h1 : ∑ i, (x i - s / n) * (x i - s / n)
      = (∑ i, x i * x i) - 2 * (s / n) * s + (Fintype.card ι : ℝ) * ((s / n) * (s / n)) := by
    have : ∀ i, (x i - s / n) * (x i - s / n) = x i * x i - 2 * (s / n) * x i + (s / n) * (s / n) := fun i => by ring
    simp only [this, Finset.sum_add_distrib, Finset.sum_sub_distrib, ← Finset.mul_sum, Finset.sum_const,
      Finset.card_univ, nsmul_eq_mul, ← hs]
    ring
  rw [h1, ← hn]
  field_simp
  ring

/-- On the extended reals, for entries that are reals and the ideal division by the real count. -/
theorem ereal {ι : Type*} [Fintype ι] (f : ι → EReal) (x : ι → ℝ) (hf : ∀ i, f i = (x i : EReal))
    (n : ℝ) (hn : n = (Fintype.card ι : ℝ)) (hn0 : n ≠ 0) :
    Ideal.div (∑ i, (f i - Ideal.div (∑ j, f j) (n : EReal)) * (f i - Ideal.div (∑ j, f j) (n : EReal))) (n : EReal)
      = Ideal.div (∑ i, f i * f i) (n : EReal)
          - Ideal.div (∑ j, f j) (n : EReal) * Ideal.div (∑ j, f j) (n : EReal) := by
  have hfx : f = fun i => (x i : EReal) := funext hf
  subst hfx
  have hmu : Ideal.div (∑ j, (x j : EReal)) (n : EReal) = (((∑ j, x j) / n : ℝ) : EReal) := by
    rw [Ideal.div_coe hn0, ← coe_sum, ← EReal.coe_mul]; congr 1; ring
  rw [hmu]
  have hdev : ∀ i, ((x i : EReal) - (((∑ j, x j) / n : ℝ) : EReal)) * ((x i : EReal) - (((∑ j, x j) / n : ℝ) : EReal))
      = (((x i - (∑ j, x j) / n) * (x i - (∑ j, x j) / n) : ℝ) : EReal) := fun i => by
    rw [← EReal.coe_sub, ← EReal.coe_mul]
  have hsq : ∀ i, (x i : EReal) * (x i : EReal) = ((x i * x i : ℝ) : EReal) := fun i => (EReal.coe_mul _ _).symm
  simp only [hdev, hsq]
  rw [← coe_sum, ← coe_sum, Ideal.div_coe hn0, Ideal.div_coe hn0, ← EReal.coe_mul, ← EReal.coe_mul, ← EReal.coe_mul,
    ← EReal.coe_sub]
  congr 1
  have := real x n hn hn0
  simp only [div_eq_mul_inv, one_mul] at this ⊢
  linarith [this]

end Cert.Lib.MeanSquare
-- ==== Proof.LibLogSoftmax.lean ====
/-
  Two spellings of a log-softmax entry agree on real logits.

  For finitely many real logits x k (at least one), any real shift m and  L = log (sum_k exp (x k - m)):
      x j - (m + L)  =  (x j - m) - L.
  The sum of exponentials of reals is a positive real, so L is a real, and the identity is plain real arithmetic;
  on the extended reals it needs exactly that finiteness (an infinite m or L would break the regrouping).
-/
import Idealize.ShloMosaic.PureOps.Ideal
import Mathlib.Analysis.SpecialFunctions.Log.Basic

open Idealize.ShloMosaic

namespace Cert.Lib.LogSoftmax

open Finset

/-- A finite real sum, read in the extended reals, is the sum of the readings. -/
theorem coe_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- The logarithm of a sum of exponentials of shifted real logits is a real number. -/
theorem log_sum_exp_real {ι : Type*} [Fintype ι] [Nonempty ι] (x : ι → ℝ) (m : ℝ) :
    Ideal.log (∑ k, Ideal.exp ((x k : EReal) - (m : EReal)))
      = ((Real.log (∑ k, Real.exp (x k - m)) : ℝ) : EReal) := by
  have h : ∀ k, Ideal.exp ((x k : EReal) - (m : EReal)) = ((Real.exp (x k - m) : ℝ) : EReal) := fun k => by
    rw [← EReal.coe_sub, Ideal.exp_coe]
  simp only [h]
  rw [← coe_sum, Ideal.log_coe, if_neg]
  exact not_le.mpr (Finset.sum_pos (fun k _ => Real.exp_pos _) Finset.univ_nonempty)

/-- The two spellings of a log-softmax entry. -/
theorem regroup {ι : Type*} [Fintype ι] [Nonempty ι] (x : ι → ℝ) (m : ℝ) (j : ι) :
    (x j : EReal) - ((m : EReal) + Ideal.log (∑ k, Ideal.exp ((x k : EReal) - (m : EReal))))
      = ((x j : EReal) - (m : EReal)) - Ideal.log (∑ k, Ideal.exp ((x k : EReal) - (m : EReal))) := by
  rw [log_sum_exp_real, ← EReal.coe_add, ← EReal.coe_sub, ← EReal.coe_sub, ← EReal.coe_sub]
  congr 1
  ring

end Cert.Lib.LogSoftmax
-- ==== Proof.SpecEq.lean ====
/-
  The two spellings of the network agree when every input entry is a real number.

  The two spellings differ in the variance of each normalisation (mean of squared deviations against mean square less
  squared mean) and in the grouping of the final log-softmax. Both identities hold for real entries, so the proof
  carries "every entry is a real number" through the network: sums, products and differences of reals are reals;
  the column mean is a real; the variance (in the deviation spelling) is a nonnegative real, so adding a positive
  eps and taking the reciprocal square root gives a real; hence each layer maps real arrays to real arrays, and on
  real arrays the two variances coincide. The logits are then real, the row maximum over a nonempty row is one of
  the entries, hence real, and the two groupings of the log-softmax coincide.
-/
import proofs.«106081_j12317966204981_2_alg».proof.Proof.Spec
import proofs.«106081_j12317966204981_2_alg».proof.Proof.LibMeanSquare
import proofs.«106081_j12317966204981_2_alg».proof.Proof.LibLogSoftmax

open Idealize.ShloMosaic

namespace Cert.Spec

/-! ### Reals are closed under the arithmetic used -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of a real and zero is a real. -/
theorem real_max_zero {a : EReal} (ha : ∃ r : ℝ, a = (r : EReal)) : ∃ r : ℝ, max a 0 = (r : EReal) := by
  obtain ⟨r, rfl⟩ := ha
  rcases le_total r 0 with h | h
  · exact ⟨0, by rw [max_eq_right (by exact_mod_cast h)]; rfl⟩
  · exact ⟨r, by rw [max_eq_left (by exact_mod_cast h)]⟩

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose x hx using hf
  exact ⟨∑ i ∈ s, x i, by rw [Cert.Lib.MeanSquare.coe_sum]; exact Finset.sum_congr rfl (fun i _ => hx i)⟩

/-- A real divided by a nonzero real is a real. -/
theorem real_div {a : EReal} (ha : ∃ r : ℝ, a = (r : EReal)) {N : ℝ} (hN : N ≠ 0) :
    ∃ r : ℝ, Ideal.div a (N : EReal) = (r : EReal) := by
  obtain ⟨r, rfl⟩ := ha
  exact ⟨r * (1 / N), by rw [Ideal.div_coe hN, EReal.coe_mul]⟩

/-- The reciprocal square root of a nonnegative real plus a positive real is a real. -/
theorem real_rsqrt {v eps : ℝ} (hv : 0 ≤ v) (heps : 0 < eps) :
    ∃ r : ℝ, Ideal.rsqrt ((v : EReal) + (eps : EReal)) = (r : EReal) := by
  have hpos : 0 < v + eps := by linarith
  refine ⟨(Real.sqrt (v + eps))⁻¹, ?_⟩
  rw [← EReal.coe_add, Ideal.rsqrt_coe, if_neg (not_lt.mpr hpos.le), if_neg hpos.ne']

/-! ### The pieces of a layer on real arrays -/

theorem proj_fin2 {a k b : ℕ} {x : Fin a → Fin k → EReal} {W : Fin k → Fin b → EReal} (hx : Fin2 x) (hW : Fin2 W) :
    Fin2 (proj x W) :=
  fun r j => real_sum _ _ (fun k => real_mul (hx r k) (hW k j))

theorem colMean_real {n h : ℕ} {N : ℝ} (hN : N ≠ 0) {p : Fin n → Fin h → EReal} (hp : Fin2 p) (j : Fin h) :
    ∃ r : ℝ, colMean (N : EReal) p j = (r : EReal) :=
  real_div (real_sum _ _ (fun r => hp r j)) hN

/-- The mean of squared deviations of a real column is a nonnegative real. -/
theorem varDev_real {n h : ℕ} {N : ℝ} (hN : 0 < N) {p : Fin n → Fin h → EReal} (hp : Fin2 p) (j : Fin h) :
    ∃ v : ℝ, 0 ≤ v ∧ varDev (N : EReal) p j = (v : EReal) := by
  obtain ⟨mu, hmu⟩ := colMean_real hN.ne' hp j
  choose q hq using hp
  refine ⟨(∑ r, (q r j - mu) * (q r j - mu)) * (1 / N), ?_, ?_⟩
  · exact mul_nonneg (Finset.sum_nonneg (fun r _ => mul_self_nonneg _)) (one_div_pos.mpr hN).le
  · unfold varDev
    rw [hmu, Ideal.div_coe hN.ne', EReal.coe_mul, Cert.Lib.MeanSquare.coe_sum]
    congr 1
    refine Finset.sum_congr rfl (fun r _ => ?_)
    rw [hq r j, ← EReal.coe_sub, ← EReal.coe_mul]

/-- On a real array the two spellings of the variance agree. -/
theorem varMS_eq_varDev {n h : ℕ} (hn : 0 < n) {p : Fin n → Fin h → EReal} (hp : Fin2 p) :
    varMS ((n : ℝ) : EReal) p = varDev ((n : ℝ) : EReal) p := by
  funext j
  choose q hq using hp
  unfold varMS varDev colMean
  exact (Cert.Lib.MeanSquare.ereal (fun r => p r j) (fun r => q r j) (fun r => hq r j) (n : ℝ) (by simp)
    (by exact_mod_cast hn.ne')).symm

theorem normRelu_eq {n h : ℕ} (hn : 0 < n) (eps : EReal) {p : Fin n → Fin h → EReal} (hp : Fin2 p)
    (g bt : Fin h → EReal) :
    normRelu ((n : ℝ) : EReal) eps (varMS ((n : ℝ) : EReal)) p g bt
      = normRelu ((n : ℝ) : EReal) eps (varDev ((n : ℝ) : EReal)) p g bt := by
  unfold normRelu
  rw [varMS_eq_varDev hn hp]

theorem normRelu_fin2 {n h : ℕ} (hn : 0 < n) {eps : ℝ} (heps : 0 < eps) {p : Fin n → Fin h → EReal} (hp : Fin2 p)
    {g bt : Fin h → EReal} (hg : Fin1 g) (hbt : Fin1 bt) :
    Fin2 (normRelu ((n : ℝ) : EReal) (eps : EReal) (varDev ((n : ℝ) : EReal)) p g bt) := by
  intro r j
  have hN : (0 : ℝ) < n := by exact_mod_cast hn
  obtain ⟨v, hv0, hv⟩ := varDev_real hN hp j
  show ∃ s : ℝ, max ((p r j - colMean ((n : ℝ) : EReal) p j) * Ideal.rsqrt (varDev ((n : ℝ) : EReal) p j + (eps : EReal))
    * g j + bt j) 0 = (s : EReal)
  rw [hv]
  exact real_max_zero (real_add (real_mul (real_mul (real_sub (hp r j) (colMean_real hN.ne' hp j))
    (real_rsqrt hv0 heps)) (hg j)) (hbt j))

/-- The array a layer normalises is real. -/
theorem pre_fin2 {n h k : ℕ} {Agg : (Fin n → Fin h → EReal) → Fin n → Fin h → EReal}
    (hAgg : ∀ p, Fin2 p → Fin2 (Agg p)) {x : Fin n → Fin k → EReal} (hx : Fin2 x)
    {W : Fin k → Fin h → EReal} (hW : Fin2 W) {b : Fin h → EReal} (hb : Fin1 b) :
    Fin2 (fun r j => Agg (proj x W) r j + b j) :=
  fun r j => real_add (hAgg _ (proj_fin2 hx hW) r j) (hb j)

theorem layer_eq {n h k : ℕ} (hn : 0 < n) (eps : EReal) {Agg : (Fin n → Fin h → EReal) → Fin n → Fin h → EReal}
    (hAgg : ∀ p, Fin2 p → Fin2 (Agg p)) {x : Fin n → Fin k → EReal} (hx : Fin2 x)
    {W : Fin k → Fin h → EReal} (hW : Fin2 W) {b : Fin h → EReal} (hb : Fin1 b) (g bt : Fin h → EReal) :
    layer ((n : ℝ) : EReal) eps (varMS ((n : ℝ) : EReal)) Agg x W b g bt
      = layer ((n : ℝ) : EReal) eps (varDev ((n : ℝ) : EReal)) Agg x W b g bt :=
  normRelu_eq hn eps (pre_fin2 hAgg hx hW hb) g bt

theorem layer_fin2 {n h k : ℕ} (hn : 0 < n) {eps : ℝ} (heps : 0 < eps)
    {Agg : (Fin n → Fin h → EReal) → Fin n → Fin h → EReal}
    (hAgg : ∀ p, Fin2 p → Fin2 (Agg p)) {x : Fin n → Fin k → EReal} (hx : Fin2 x)
    {W : Fin k → Fin h → EReal} (hW : Fin2 W) {b g bt : Fin h → EReal} (hb : Fin1 b) (hg : Fin1 g) (hbt : Fin1 bt) :
    Fin2 (layer ((n : ℝ) : EReal) (eps : EReal) (varDev ((n : ℝ) : EReal)) Agg x W b g bt) :=
  normRelu_fin2 hn heps (pre_fin2 hAgg hx hW hb) hg hbt

/-! ### The head -/

theorem logits_fin2 {G h C : ℕ} {q : Fin G → Fin h → EReal} (hq : Fin2 q) {fcW : Fin h → Fin C → EReal}
    (hfcW : Fin2 fcW) {fcb : Fin C → EReal} (hfcb : Fin1 fcb) : Fin2 (logits q fcW fcb) :=
  fun a c => real_add (proj_fin2 hq hfcW a c) (hfcb c)

/-- The maximum of a nonempty real row is one of its entries, hence a real. -/
theorem rowMax_real {G C : ℕ} (hC : 0 < C) {l : Fin G → Fin C → EReal} (hl : Fin2 l) (a : Fin G) :
    ∃ m : ℝ, rowMax l a = (m : EReal) := by
  haveI : Nonempty (Fin C) := ⟨⟨0, hC⟩⟩
  obtain ⟨i, -, hi⟩ := Finset.exists_mem_eq_sup Finset.univ Finset.univ_nonempty (l a)
  obtain ⟨m, hm⟩ := hl a i
  exact ⟨m, by unfold rowMax; rw [hi, hm]⟩

/-- On real logits with a nonempty row the two groupings of the log-softmax agree. -/
theorem lsmWhole_eq_lsmShift {G C : ℕ} (hC : 0 < C) {l : Fin G → Fin C → EReal} (hl : Fin2 l) :
    lsmWhole l = lsmShift l := by
  funext a c
  haveI : Nonempty (Fin C) := ⟨⟨0, hC⟩⟩
  obtain ⟨m, hm⟩ := rowMax_real hC hl a
  choose x hx using hl
  have hrow : l a = fun c => (x a c : EReal) := funext (hx a)
  unfold lsmWhole lsmShift logSumExp
  simp only [hm, hrow]
  exact Cert.Lib.LogSoftmax.regroup (x a) m c

/-! ### The whole network -/

theorem kerNet_eq_refNet {n d h G C : ℕ} (hn : 0 < n) (hC : 0 < C) (eps : ℝ) (heps : 0 < eps)
    (Agg : (Fin n → Fin h → EReal) → Fin n → Fin h → EReal) (hAgg : ∀ p, Fin2 p → Fin2 (Agg p))
    (Pool : (Fin n → Fin h → EReal) → Fin G → Fin h → EReal) (hPool : ∀ p, Fin2 p → Fin2 (Pool p))
    (x : Fin n → Fin d → EReal) (W1 : Fin d → Fin h → EReal) (b1 g1 bt1 : Fin h → EReal)
    (W2 : Fin h → Fin h → EReal) (b2 g2 bt2 : Fin h → EReal) (W3 : Fin h → Fin h → EReal) (b3 g3 bt3 : Fin h → EReal)
    (W4 : Fin h → Fin h → EReal) (b4 g4 bt4 : Fin h → EReal) (fcW : Fin h → Fin C → EReal) (fcb : Fin C → EReal)
    (hx : Fin2 x) (hW1 : Fin2 W1) (hb1 : Fin1 b1) (hg1 : Fin1 g1) (hbt1 : Fin1 bt1)
    (hW2 : Fin2 W2) (hb2 : Fin1 b2) (hg2 : Fin1 g2) (hbt2 : Fin1 bt2)
    (hW3 : Fin2 W3) (hb3 : Fin1 b3) (hg3 : Fin1 g3) (hbt3 : Fin1 bt3)
    (hW4 : Fin2 W4) (hb4 : Fin1 b4) (hg4 : Fin1 g4) (hbt4 : Fin1 bt4) (hfcW : Fin2 fcW) (hfcb : Fin1 fcb) :
    kerNet (((n : ℝ)) : EReal) (eps : EReal) Agg Pool x W1 b1 g1 bt1 W2 b2 g2 bt2 W3 b3 g3 bt3 W4 b4 g4 bt4 fcW fcb
      = refNet (((n : ℝ)) : EReal) (eps : EReal) Agg Pool x W1 b1 g1 bt1 W2 b2 g2 bt2 W3 b3 g3 bt3 W4 b4 g4 bt4 fcW fcb := by
  have h1 := layer_fin2 hn heps hAgg hx hW1 hb1 hg1 hbt1
  have h2 := layer_fin2 hn heps hAgg h1 hW2 hb2 hg2 hbt2
  have h3 := layer_fin2 hn heps hAgg h2 hW3 hb3 hg3 hbt3
  have h4 := layer_fin2 hn heps hAgg h3 hW4 hb4 hg4 hbt4
  have hl := logits_fin2 (hPool _ h4) hfcW hfcb
  unfold kerNet refNet net
  rw [layer_eq hn (eps : EReal) hAgg hx hW1 hb1 g1 bt1, layer_eq hn (eps : EReal) hAgg h1 hW2 hb2 g2 bt2,
    layer_eq hn (eps : EReal) hAgg h2 hW3 hb3 g3 bt3, layer_eq hn (eps : EReal) hAgg h3 hW4 hb4 g4 bt4]
  exact lsmWhole_eq_lsmShift hC hl

end Cert.Spec
-- ==== Proof.PreReal.lean ====
/-
  The precondition function read back: when the conjunction of "every entry of |x| is below +∞",
  taken over all nineteen float arguments, is the bit 1, every entry of every float argument is a real number.
-/
import proofs.«106081_j12317966204981_2_alg».proof.Pre_finite_inputs
import Idealize.ShloMosaic.Lib.ReduceAll
import Idealize.ShloMosaic.Lib.ValueIdx

namespace Cert.Proof.PreReal

open Idealize.ShloMosaic Cert.Pre_finite_inputs

/-- The scalar shape has one index. -/
instance : Subsingleton S_.Idx := ⟨fun a b => funext fun d => d.elim0⟩

/-- The f32 pattern 0x7F800000 (exponent all ones, fraction zero, sign clear) denotes +∞. -/
theorem ofBits_inf : Ideal.ofBits .f32 0x7F800000#32 = (⊤ : EReal) := by
  simp [Ideal.ofBits, Ideal.ieee]

/-- An extended real x with max x (-x) < +∞ is neither +∞ nor -∞ (at either one the maximum is +∞): it is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An array whose entrywise test |x| < +∞, reduced by "and" over every axis to one bit, gives 1 has only real entries. -/
theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant S_ .f32 0x7F800000#32))) init hr hu
      ValueIdx.ix0 = 1#1) (i : s.Idx) : ∃ r : ℝ, a i = (r : EReal) :=
  real_of_abs_lt (a i) (Host.reduce_andi_all _ init hr hu ValueIdx.ix0 e i)

/-- The conjunction of two bits read at the scalar index. -/
theorem andi_ix0 (x y : IVec S_ 1) : andi x y ValueIdx.ix0 = IntOp.andi (x ValueIdx.ix0) (y ValueIdx.ix0) := rfl

/-- The precondition function gives the bit 1 only if every entry of each of its nineteen float arguments is real. -/
theorem real_of_fn [Cert.Pre_finite_inputs.Facts] (a0 : FVec Ideal S100000x128 .f32) (a1 : IVec S2x1600000 32) (a2 : IVec S100000 32) (a3 : FVec Ideal S128x64 .f32) (a4 : FVec Ideal S64 .f32) (a5 : FVec Ideal S64 .f32) (a6 : FVec Ideal S64 .f32) (a7 : FVec Ideal S64x64 .f32) (a8 : FVec Ideal S64 .f32) (a9 : FVec Ideal S64 .f32) (a10 : FVec Ideal S64 .f32) (a11 : FVec Ideal S64x64 .f32) (a12 : FVec Ideal S64 .f32) (a13 : FVec Ideal S64 .f32) (a14 : FVec Ideal S64 .f32) (a15 : FVec Ideal S64x64 .f32) (a16 : FVec Ideal S64 .f32) (a17 : FVec Ideal S64 .f32) (a18 : FVec Ideal S64 .f32) (a19 : FVec Ideal S64x10 .f32) (a20 : FVec Ideal S10 .f32)
    (h : Cert.Pre_finite_inputs.fn (F := Ideal) a0 a1 a2 a3 a4 a5 a6 a7 a8 a9 a10 a11 a12 a13 a14 a15 a16 a17 a18 a19 a20 = (fun _ => 1#1)) :
    (∀ i, ∃ r : ℝ, a0 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) := by
  have h := congrFun h ValueIdx.ix0
  dsimp only [fn, fn_part1, fn_part2, fn_part3, fn_part4, fn_part5] at h
  simp only [andi_ix0, IntOp.andi_eq_one] at h
  obtain ⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩ := h
  exact ⟨real_of_all _ _ _ _ _ h0, real_of_all _ _ _ _ _ h3, real_of_all _ _ _ _ _ h4, real_of_all _ _ _ _ _ h5, real_of_all _ _ _ _ _ h6, real_of_all _ _ _ _ _ h7, real_of_all _ _ _ _ _ h8, real_of_all _ _ _ _ _ h9, real_of_all _ _ _ _ _ h10, real_of_all _ _ _ _ _ h11, real_of_all _ _ _ _ _ h12, real_of_all _ _ _ _ _ h13, real_of_all _ _ _ _ _ h14, real_of_all _ _ _ _ _ h15, real_of_all _ _ _ _ _ h16, real_of_all _ _ _ _ _ h17, real_of_all _ _ _ _ _ h18, real_of_all _ _ _ _ _ h19, real_of_all _ _ _ _ _ h20⟩

end Cert.Proof.PreReal
-- ==== Proof.Bridge.lean ====
/-
  The two programs end with equal results.

  Read through its segments, the kernel program's result is the network in the kernel's spelling (variance as the
  mean square less the squared mean; log-softmax subtracting the whole log-sum-exp) of the launch contents of its
  arguments; read through its operations, the reference's result is the network in the reference's spelling
  (variance as the mean of squared deviations; log-softmax shifting first) of its own arguments, which agree with the
  kernel's. The aggregation and the pooling are the same host composites in both programs. Under the precondition
  every float argument holds real numbers; realness passes through the aggregation (a clamping gather, exact
  scatter-adds, degrees at least one) and the pooling (counts at least one), and on real inputs the two spellings
  are equal.
-/
import proofs.«106081_j12317966204981_2_alg».proof.Defs
import proofs.«106081_j12317966204981_2_alg».proof.Proof.Gen.Pre_finite_inputs
import proofs.«106081_j12317966204981_2_alg».proof.Proof.KI.Run
import proofs.«106081_j12317966204981_2_alg».proof.Proof.KI.Chain
import proofs.«106081_j12317966204981_2_alg».proof.Proof.KIH.StagesReal
import proofs.«106081_j12317966204981_2_alg».proof.Proof.Ref.Run
import proofs.«106081_j12317966204981_2_alg».proof.Proof.Ref.Value
import proofs.«106081_j12317966204981_2_alg».proof.Proof.Ref.Same
import proofs.«106081_j12317966204981_2_alg».proof.Proof.SpecEq
import proofs.«106081_j12317966204981_2_alg».proof.Proof.PreReal

set_option maxRecDepth 16384

noncomputable section

namespace Cert.Proof.Bridge

open Idealize.ShloMosaic Idealize.ShloMosaic.TcCoe Idealize.SL.Sem Idealize.ShloMosaic.ValueIdx
open Cert.SpecAdapt Cert.KernelIdeal.HandSem

/-- An array of reals, as a function of two coordinates. -/
theorem fin2_of_real {a b : ℕ} {A : (⟨2, ![a, b]⟩ : Shape).Idx → EReal} (h : ∀ i, ∃ r : ℝ, A i = (r : EReal)) : Cert.Spec.Fin2 (cur2 A) :=
  fun r k => h (ix2 r k)
/-- A row of reals, as a function of its coordinate. -/
theorem fin1_of_real {n : ℕ} {x : (⟨1, ![n]⟩ : Shape).Idx → EReal} (h : ∀ i, ∃ r : ℝ, x i = (r : EReal)) : Cert.Spec.Fin1 (row1 x) :=
  fun j => h (ix1 j)
/-- A function of two coordinates with real values, as an array of reals. -/
theorem real_of_fin2 {a b : ℕ} {p : Fin a → Fin b → EReal} (h : Cert.Spec.Fin2 p) : ∀ i, ∃ r : ℝ, unc2 p i = (r : EReal) :=
  fun i => h (i 0) (i 1)

open Cert.KernelIdeal.HandHost Cert.KernelIdeal.HandChain

/-- The aggregation keeps arrays of reals arrays of reals. -/
theorem agg_real (E : IVec Cert.KernelIdeal.S2x1600000 32) :
    ∀ p, Cert.Spec.Fin2 p → Cert.Spec.Fin2 (cur2 (aggK E (unc2 p))) := by
  intro p hp r j
  rw [cur2_apply]
  unfold aggK
  exact kAgg_real (unc2 p) (kSrc E) (kDst E) (kCoef (F := Ideal) E) (kSelf (F := Ideal) E) (real_of_fin2 hp) (kCoef_real E) (kSelf_real E) (ix2 r j)

/-- So does the pooling. -/
theorem pool_real (batch : IVec Cert.KernelIdeal.S100000 32) :
    ∀ p, Cert.Spec.Fin2 p → Cert.Spec.Fin2 (cur2 (kPool (F := Ideal) (unc2 p) batch)) := by
  intro p hp r j
  rw [cur2_apply]
  exact kPool_real (unc2 p) batch (real_of_fin2 hp) (ix2 r j)

/-- The count of nodes, as the natural number cast and as the real literal. -/
theorem nn_cast : (((100000 : ℕ) : ℝ) : EReal) = NN := by
  show (((100000 : ℕ) : ℝ) : EReal) = ((100000 : ℝ) : EReal)
  norm_num

set_option maxHeartbeats 1000000 in
/-- The reference's result, read off its operations from a memory agreeing with the kernel's on the arguments, is the
    kernel's result read off its segments. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : (StableHlo.launchContents m' c (Proc.devRef .tc Cert.ReferenceIdeal.main_arg0)) = (Cert.KernelIdeal.Hand.W0 m c (Proc.devRef .tc Cert.KernelIdeal.main_arg0)))
    (e1 : (StableHlo.launchContents m' c (Proc.devRef .tc Cert.ReferenceIdeal.main_arg1)) = (Cert.KernelIdeal.Hand.W0 m c (Proc.devRef .tc Cert.KernelIdeal.main_arg1)))
    (e2 : (StableHlo.launchContents m' c (Proc.devRef .tc Cert.ReferenceIdeal.main_arg2)) = (Cert.KernelIdeal.Hand.W0 m c (Proc.devRef .tc Cert.KernelIdeal.main_arg2)))
    (e3 : (StableHlo.launchContents m' c (Proc.devRef .tc Cert.ReferenceIdeal.main_arg3)) = (Cert.KernelIdeal.Hand.W0 m c (Proc.devRef .tc Cert.KernelIdeal.main_arg3)))
    (e4 : (StableHlo.launchContents m' c (Proc.devRef .tc Cert.ReferenceIdeal.main_arg4)) = (Cert.KernelIdeal.Hand.W0 m c (Proc.devRef .tc Cert.KernelIdeal.main_arg4)))
    (e5 : (StableHlo.launchContents m' c (Proc.devRef .tc Cert.ReferenceIdeal.main_arg5)) = (Cert.KernelIdeal.Hand.W0 m c (Proc.devRef .tc Cert.KernelIdeal.main_arg5)))
    (e6 : (StableHlo.launchContents m' c (Proc.devRef .tc Cert.ReferenceIdeal.main_arg6)) = (Cert.KernelIdeal.Hand.W0 m c (Proc.devRef .tc Cert.KernelIdeal.main_arg6)))
    (e7 : (StableHlo.launchContents m' c (Proc.devRef .tc Cert.ReferenceIdeal.main_arg7)) = (Cert.KernelIdeal.Hand.W0 m c (Proc.devRef .tc Cert.KernelIdeal.main_arg7)))
    (e8 : (StableHlo.launchContents m' c (Proc.devRef .tc Cert.ReferenceIdeal.main_arg8)) = (Cert.KernelIdeal.Hand.W0 m c (Proc.devRef .tc Cert.KernelIdeal.main_arg8)))
    (e9 : (StableHlo.launchContents m' c (Proc.devRef .tc Cert.ReferenceIdeal.main_arg9)) = (Cert.KernelIdeal.Hand.W0 m c (Proc.devRef .tc Cert.KernelIdeal.main_arg9)))
    (e10 : (StableHlo.launchContents m' c (Proc.devRef .tc Cert.ReferenceIdeal.main_arg10)) = (Cert.KernelIdeal.Hand.W0 m c (Proc.devRef .tc Cert.KernelIdeal.main_arg10)))
    (e11 : (StableHlo.launchContents m' c (Proc.devRef .tc Cert.ReferenceIdeal.main_arg11)) = (Cert.KernelIdeal.Hand.W0 m c (Proc.devRef .tc Cert.KernelIdeal.main_arg11)))
    (e12 : (StableHlo.launchContents m' c (Proc.devRef .tc Cert.ReferenceIdeal.main_arg12)) = (Cert.KernelIdeal.Hand.W0 m c (Proc.devRef .tc Cert.KernelIdeal.main_arg12)))
    (e13 : (StableHlo.launchContents m' c (Proc.devRef .tc Cert.ReferenceIdeal.main_arg13)) = (Cert.KernelIdeal.Hand.W0 m c (Proc.devRef .tc Cert.KernelIdeal.main_arg13)))
    (e14 : (StableHlo.launchContents m' c (Proc.devRef .tc Cert.ReferenceIdeal.main_arg14)) = (Cert.KernelIdeal.Hand.W0 m c (Proc.devRef .tc Cert.KernelIdeal.main_arg14)))
    (e15 : (StableHlo.launchContents m' c (Proc.devRef .tc Cert.ReferenceIdeal.main_arg15)) = (Cert.KernelIdeal.Hand.W0 m c (Proc.devRef .tc Cert.KernelIdeal.main_arg15)))
    (e16 : (StableHlo.launchContents m' c (Proc.devRef .tc Cert.ReferenceIdeal.main_arg16)) = (Cert.KernelIdeal.Hand.W0 m c (Proc.devRef .tc Cert.KernelIdeal.main_arg16)))
    (e17 : (StableHlo.launchContents m' c (Proc.devRef .tc Cert.ReferenceIdeal.main_arg17)) = (Cert.KernelIdeal.Hand.W0 m c (Proc.devRef .tc Cert.KernelIdeal.main_arg17)))
    (e18 : (StableHlo.launchContents m' c (Proc.devRef .tc Cert.ReferenceIdeal.main_arg18)) = (Cert.KernelIdeal.Hand.W0 m c (Proc.devRef .tc Cert.KernelIdeal.main_arg18)))
    (e19 : (StableHlo.launchContents m' c (Proc.devRef .tc Cert.ReferenceIdeal.main_arg19)) = (Cert.KernelIdeal.Hand.W0 m c (Proc.devRef .tc Cert.KernelIdeal.main_arg19)))
    (e20 : (StableHlo.launchContents m' c (Proc.devRef .tc Cert.ReferenceIdeal.main_arg20)) = (Cert.KernelIdeal.Hand.W0 m c (Proc.devRef .tc Cert.KernelIdeal.main_arg20)))
    (r0 : ∀ i, ∃ r : ℝ, (Cert.KernelIdeal.Hand.W0 m c (Proc.devRef .tc Cert.KernelIdeal.main_arg0)) i = (r : EReal))
    (r3 : ∀ i, ∃ r : ℝ, (Cert.KernelIdeal.Hand.W0 m c (Proc.devRef .tc Cert.KernelIdeal.main_arg3)) i = (r : EReal))
    (r4 : ∀ i, ∃ r : ℝ, (Cert.KernelIdeal.Hand.W0 m c (Proc.devRef .tc Cert.KernelIdeal.main_arg4)) i = (r : EReal))
    (r5 : ∀ i, ∃ r : ℝ, (Cert.KernelIdeal.Hand.W0 m c (Proc.devRef .tc Cert.KernelIdeal.main_arg5)) i = (r : EReal))
    (r6 : ∀ i, ∃ r : ℝ, (Cert.KernelIdeal.Hand.W0 m c (Proc.devRef .tc Cert.KernelIdeal.main_arg6)) i = (r : EReal))
    (r7 : ∀ i, ∃ r : ℝ, (Cert.KernelIdeal.Hand.W0 m c (Proc.devRef .tc Cert.KernelIdeal.main_arg7)) i = (r : EReal))
    (r8 : ∀ i, ∃ r : ℝ, (Cert.KernelIdeal.Hand.W0 m c (Proc.devRef .tc Cert.KernelIdeal.main_arg8)) i = (r : EReal))
    (r9 : ∀ i, ∃ r : ℝ, (Cert.KernelIdeal.Hand.W0 m c (Proc.devRef .tc Cert.KernelIdeal.main_arg9)) i = (r : EReal))
    (r10 : ∀ i, ∃ r : ℝ, (Cert.KernelIdeal.Hand.W0 m c (Proc.devRef .tc Cert.KernelIdeal.main_arg10)) i = (r : EReal))
    (r11 : ∀ i, ∃ r : ℝ, (Cert.KernelIdeal.Hand.W0 m c (Proc.devRef .tc Cert.KernelIdeal.main_arg11)) i = (r : EReal))
    (r12 : ∀ i, ∃ r : ℝ, (Cert.KernelIdeal.Hand.W0 m c (Proc.devRef .tc Cert.KernelIdeal.main_arg12)) i = (r : EReal))
    (r13 : ∀ i, ∃ r : ℝ, (Cert.KernelIdeal.Hand.W0 m c (Proc.devRef .tc Cert.KernelIdeal.main_arg13)) i = (r : EReal))
    (r14 : ∀ i, ∃ r : ℝ, (Cert.KernelIdeal.Hand.W0 m c (Proc.devRef .tc Cert.KernelIdeal.main_arg14)) i = (r : EReal))
    (r15 : ∀ i, ∃ r : ℝ, (Cert.KernelIdeal.Hand.W0 m c (Proc.devRef .tc Cert.KernelIdeal.main_arg15)) i = (r : EReal))
    (r16 : ∀ i, ∃ r : ℝ, (Cert.KernelIdeal.Hand.W0 m c (Proc.devRef .tc Cert.KernelIdeal.main_arg16)) i = (r : EReal))
    (r17 : ∀ i, ∃ r : ℝ, (Cert.KernelIdeal.Hand.W0 m c (Proc.devRef .tc Cert.KernelIdeal.main_arg17)) i = (r : EReal))
    (r18 : ∀ i, ∃ r : ℝ, (Cert.KernelIdeal.Hand.W0 m c (Proc.devRef .tc Cert.KernelIdeal.main_arg18)) i = (r : EReal))
    (r19 : ∀ i, ∃ r : ℝ, (Cert.KernelIdeal.Hand.W0 m c (Proc.devRef .tc Cert.KernelIdeal.main_arg19)) i = (r : EReal))
    (r20 : ∀ i, ∃ r : ℝ, (Cert.KernelIdeal.Hand.W0 m c (Proc.devRef .tc Cert.KernelIdeal.main_arg20)) i = (r : EReal)) :
    StableHlo.after (Cert.ReferenceIdeal.RefRun.ops (F := Ideal)) (StableHlo.launchContents m' c) (Proc.devRef .tc Cert.ReferenceIdeal.main_v300)
      = Cert.KernelIdeal.Hand.Wend m c (Proc.devRef .tc Cert.KernelIdeal.main_v162) := by
  rw [Cert.ReferenceIdeal.RefHost.ref_value, Cert.KernelIdeal.HandChain.kernel_value]
  rw [e0, e1, e2, e3, e4, e5, e6, e7, e8, e9, e10, e11, e12, e13, e14, e15, e16, e17, e18, e19, e20]
  have hA : (fun h : Fin 100000 → Fin 64 → EReal => cur2 (Cert.ReferenceIdeal.RefHost.rAgg (F := Ideal) (unc2 h)
        (Cert.ReferenceIdeal.RefHost.rSrc (Cert.KernelIdeal.Hand.W0 m c (Proc.devRef .tc Cert.KernelIdeal.main_arg1))) (Cert.ReferenceIdeal.RefHost.rDst (Cert.KernelIdeal.Hand.W0 m c (Proc.devRef .tc Cert.KernelIdeal.main_arg1)))
        (Cert.ReferenceIdeal.RefHost.rCoef (F := Ideal) (Cert.KernelIdeal.Hand.W0 m c (Proc.devRef .tc Cert.KernelIdeal.main_arg1))) (Cert.ReferenceIdeal.RefHost.rSelf (F := Ideal) (Cert.KernelIdeal.Hand.W0 m c (Proc.devRef .tc Cert.KernelIdeal.main_arg1)))))
      = (fun h => cur2 (aggK (Cert.KernelIdeal.Hand.W0 m c (Proc.devRef .tc Cert.KernelIdeal.main_arg1)) (unc2 h))) := by
    funext h
    rw [Cert.Same.aggOf_eq]
    rfl
  have hP : (fun h : Fin 100000 → Fin 64 → EReal => cur2 (Cert.ReferenceIdeal.RefHost.rPool (F := Ideal) (unc2 h) (Cert.KernelIdeal.Hand.W0 m c (Proc.devRef .tc Cert.KernelIdeal.main_arg2))))
      = (fun h => cur2 (kPool (F := Ideal) (unc2 h) (Cert.KernelIdeal.Hand.W0 m c (Proc.devRef .tc Cert.KernelIdeal.main_arg2)))) := by
    funext h
    rw [Cert.Same.pool_eq]
  rw [hA, hP]
  have key := Cert.Spec.kerNet_eq_refNet (n := 100000) (d := 128) (h := 64) (G := 512) (C := 10) (by norm_num) (by norm_num)
    Cert.Consts.guard Cert.Consts.guard_pos
    (fun h => cur2 (aggK (Cert.KernelIdeal.Hand.W0 m c (Proc.devRef .tc Cert.KernelIdeal.main_arg1)) (unc2 h))) (agg_real (Cert.KernelIdeal.Hand.W0 m c (Proc.devRef .tc Cert.KernelIdeal.main_arg1)))
    (fun h => cur2 (kPool (F := Ideal) (unc2 h) (Cert.KernelIdeal.Hand.W0 m c (Proc.devRef .tc Cert.KernelIdeal.main_arg2)))) (pool_real (Cert.KernelIdeal.Hand.W0 m c (Proc.devRef .tc Cert.KernelIdeal.main_arg2)))
    (cur2 (Cert.KernelIdeal.Hand.W0 m c (Proc.devRef .tc Cert.KernelIdeal.main_arg0))) (cur2 (Cert.KernelIdeal.Hand.W0 m c (Proc.devRef .tc Cert.KernelIdeal.main_arg3))) (row1 (Cert.KernelIdeal.Hand.W0 m c (Proc.devRef .tc Cert.KernelIdeal.main_arg4))) (row1 (Cert.KernelIdeal.Hand.W0 m c (Proc.devRef .tc Cert.KernelIdeal.main_arg5))) (row1 (Cert.KernelIdeal.Hand.W0 m c (Proc.devRef .tc Cert.KernelIdeal.main_arg6))) (cur2 (Cert.KernelIdeal.Hand.W0 m c (Proc.devRef .tc Cert.KernelIdeal.main_arg7))) (row1 (Cert.KernelIdeal.Hand.W0 m c (Proc.devRef .tc Cert.KernelIdeal.main_arg8))) (row1 (Cert.KernelIdeal.Hand.W0 m c (Proc.devRef .tc Cert.KernelIdeal.main_arg9))) (row1 (Cert.KernelIdeal.Hand.W0 m c (Proc.devRef .tc Cert.KernelIdeal.main_arg10))) (cur2 (Cert.KernelIdeal.Hand.W0 m c (Proc.devRef .tc Cert.KernelIdeal.main_arg11))) (row1 (Cert.KernelIdeal.Hand.W0 m c (Proc.devRef .tc Cert.KernelIdeal.main_arg12))) (row1 (Cert.KernelIdeal.Hand.W0 m c (Proc.devRef .tc Cert.KernelIdeal.main_arg13))) (row1 (Cert.KernelIdeal.Hand.W0 m c (Proc.devRef .tc Cert.KernelIdeal.main_arg14))) (cur2 (Cert.KernelIdeal.Hand.W0 m c (Proc.devRef .tc Cert.KernelIdeal.main_arg15))) (row1 (Cert.KernelIdeal.Hand.W0 m c (Proc.devRef .tc Cert.KernelIdeal.main_arg16))) (row1 (Cert.KernelIdeal.Hand.W0 m c (Proc.devRef .tc Cert.KernelIdeal.main_arg17))) (row1 (Cert.KernelIdeal.Hand.W0 m c (Proc.devRef .tc Cert.KernelIdeal.main_arg18))) (cur2 (Cert.KernelIdeal.Hand.W0 m c (Proc.devRef .tc Cert.KernelIdeal.main_arg19))) (row1 (Cert.KernelIdeal.Hand.W0 m c (Proc.devRef .tc Cert.KernelIdeal.main_arg20)))
    (fin2_of_real r0) (fin2_of_real r3) (fin1_of_real r4) (fin1_of_real r5) (fin1_of_real r6) (fin2_of_real r7) (fin1_of_real r8) (fin1_of_real r9) (fin1_of_real r10) (fin2_of_real r11) (fin1_of_real r12) (fin1_of_real r13) (fin1_of_real r14) (fin2_of_real r15) (fin1_of_real r16) (fin1_of_real r17) (fin1_of_real r18) (fin2_of_real r19) (fin1_of_real r20)
  rw [nn_cast] at key
  exact (congrArg unc2 key).symm

/-- The two idealized programs, run from memories agreeing on the arguments, end with equal results. -/
theorem algebraic : Cert.algebraic_KernelIdeal_ReferenceIdeal := by
  intro m g m' g' hpre hagree
  refine ⟨fun c => Cert.KernelIdeal.Hand.Wend m c (Proc.devRef .tc Cert.KernelIdeal.main_v162),
    Cert.KernelIdeal.Hand.run_main (F := Ideal) m g, ?_⟩
  refine (θ_run (Cert.ReferenceIdeal.defs (F := Ideal)) _ _).mono (fun r h c => ⟨(h c).1.trans ?_, (h c).2⟩)
    (Cert.ReferenceIdeal.RefRun.run (F := Ideal) m' g')
  obtain ⟨e0, e1, e2, e3, e4, e5, e6, e7, e8, e9, e10, e11, e12, e13, e14, e15, e16, e17, e18, e19, e20⟩ := hagree c
  obtain ⟨r0, r3, r4, r5, r6, r7, r8, r9, r10, r11, r12, r13, r14, r15, r16, r17, r18, r19, r20⟩ := Cert.Proof.PreReal.real_of_fn _ _ _ _ _ _ _ _ _ _ _ _ _ _ _ _ _ _ _ _ _ (hpre c)
  exact value_eq m m' c e0 e1 e2 e3 e4 e5 e6 e7 e8 e9 e10 e11 e12 e13 e14 e15 e16 e17 e18 e19 e20 r0 r3 r4 r5 r6 r7 r8 r9 r10 r11 r12 r13 r14 r15 r16 r17 r18 r19 r20

end Cert.Proof.Bridge

end
-- ==== Proof.lean ====
/-
  The five claims.

  Each of the three programs runs to the end without a fault and leaves its argument arrays as they were: the kernel
  program (at either float instance) by its thirteen regions' body obligations assembled along its segments, the
  reference by running its straight line of host operations. The kernel's idealization rewrote nothing, so there is
  nothing to preserve. And the two idealized programs end with equal results (the bridge).
-/
import proofs.«106081_j12317966204981_2_alg».proof.Defs
import proofs.«106081_j12317966204981_2_alg».proof.Proof.Gen.Kernel
import proofs.«106081_j12317966204981_2_alg».proof.Proof.Gen.KernelIdeal
import proofs.«106081_j12317966204981_2_alg».proof.Proof.Gen.ReferenceIdeal
import proofs.«106081_j12317966204981_2_alg».proof.Proof.Gen.Pre_finite_inputs
import proofs.«106081_j12317966204981_2_alg».proof.Proof.K.Run
import proofs.«106081_j12317966204981_2_alg».proof.Proof.KI.Run
import proofs.«106081_j12317966204981_2_alg».proof.Proof.Ref.Frame
import proofs.«106081_j12317966204981_2_alg».proof.Proof.Bridge

noncomputable section

namespace Cert.Proof

open Idealize.ShloMosaic Idealize.SL.Sem

theorem frame_k : Cert.frame_Kernel := fun m ρ _ => Cert.Kernel.Hand.frame_main (F := Bits) m ρ
theorem frame_ki : Cert.frame_KernelIdeal := fun m ρ _ => Cert.KernelIdeal.Hand.frame_main (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, Cert.Proof.Bridge.algebraic⟩

end Cert.Proof

end
